-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S100000 : Shape := ⟨1, ![100000]⟩
abbrev S200000 : Shape := ⟨1, ![200000]⟩
abbrev S150000 : Shape := ⟨1, ![150000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S384x384 : Shape := ⟨2, ![384, 384]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S100000 : S_.BroadcastsInDim S100000 (![] : Fin 0 → Fin S100000.rank)
  reducesTo_S100000_S_d0 : S100000.ReducesTo [0] S_
  bcast_S_S200000 : S_.BroadcastsInDim S200000 (![] : Fin 0 → Fin S200000.rank)
  reducesTo_S200000_S_d0 : S200000.ReducesTo [0] S_
  bcast_S_S150000 : S_.BroadcastsInDim S150000 (![] : Fin 0 → Fin S150000.rank)
  reducesTo_S150000_S_d0 : S150000.ReducesTo [0] S_

variable [Facts]

def fn_part6 {F : FTy → Type} [FloatOps F] (main_arg4 : IVec S150000 32) (main_v97 : IVec S_ 1) (main_v99 : IVec S150000 1) (main_v101 : IVec S150000 1) : IVec S_ 1 :=
  let main_v102 : IVec S150000 1 := andi main_v99 main_v101
  let main_c_40 : IVec S_ 1 := constantI S_ 1 1#1
  let main_v103 : IVec S_ 1 := (fun x v => Host.reduce IntOp.andi x v reducesTo_S150000_S_d0 h_S_) main_v102 main_c_40
  let main_v104 : IVec S_ 1 := andi main_v97 main_v103
  let main_c_41 : IVec S_ 32 := constantI S_ 32 0#32
  let main_v105 : IVec S150000 32 := broadcastInDim S150000 ![] bcast_S_S150000 main_c_41
  let main_v106 : IVec S150000 1 := cmpi .sge main_arg4 main_v105
  let main_c_42 : IVec S_ 32 := constantI S_ 32 99999#32
  let main_v107 : IVec S150000 32 := broadcastInDim S150000 ![] bcast_S_S150000 main_c_42
  let main_v108 : IVec S150000 1 := cmpi .sle main_arg4 main_v107
  let main_v109 : IVec S150000 1 := andi main_v106 main_v108
  let main_c_43 : IVec S_ 1 := constantI S_ 1 1#1
  let main_v110 : IVec S_ 1 := (fun x v => Host.reduce IntOp.andi x v reducesTo_S150000_S_d0 h_S_) main_v109 main_c_43
  let main_v111 : IVec S_ 1 := andi main_v104 main_v110
  main_v111

def fn_part5 {F : FTy → Type} [FloatOps F] (main_arg1 : IVec S100000 32) (main_arg2 : IVec S200000 32) (main_arg3 : IVec S150000 32) (main_arg4 : IVec S150000 32) (main_v83 : IVec S_ 1) (main_v84 : IVec S100000 32) : IVec S_ 1 :=
  let main_v85 : IVec S100000 1 := cmpi .sge main_arg1 main_v84
  let main_c_33 : IVec S_ 32 := constantI S_ 32 99999#32
  let main_v86 : IVec S100000 32 := broadcastInDim S100000 ![] bcast_S_S100000 main_c_33
  let main_v87 : IVec S100000 1 := cmpi .sle main_arg1 main_v86
  let main_v88 : IVec S100000 1 := andi main_v85 main_v87
  let main_c_34 : IVec S_ 1 := constantI S_ 1 1#1
  let main_v89 : IVec S_ 1 := (fun x v => Host.reduce IntOp.andi x v reducesTo_S100000_S_d0 h_S_) main_v88 main_c_34
  let main_v90 : IVec S_ 1 := andi main_v83 main_v89
  let main_c_35 : IVec S_ 32 := constantI S_ 32 0#32
  let main_v91 : IVec S200000 32 := broadcastInDim S200000 ![] bcast_S_S200000 main_c_35
  let main_v92 : IVec S200000 1 := cmpi .sge main_arg2 main_v91
  let main_c_36 : IVec S_ 32 := constantI S_ 32 99999#32
  let main_v93 : IVec S200000 32 := broadcastInDim S200000 ![] bcast_S_S200000 main_c_36
  let main_v94 : IVec S200000 1 := cmpi .sle main_arg2 main_v93
  let main_v95 : IVec S200000 1 := andi main_v92 main_v94
  let main_c_37 : IVec S_ 1 := constantI S_ 1 1#1
  let main_v96 : IVec S_ 1 := (fun x v => Host.reduce IntOp.andi x v reducesTo_S200000_S_d0 h_S_) main_v95 main_c_37
  let main_v97 : IVec S_ 1 := andi main_v90 main_v96
  let main_c_38 : IVec S_ 32 := constantI S_ 32 0#32
  let main_v98 : IVec S150000 32 := broadcastInDim S150000 ![] bcast_S_S150000 main_c_38
  let main_v99 : IVec S150000 1 := cmpi .sge main_arg3 main_v98
  let main_c_39 : IVec S_ 32 := constantI S_ 32 99999#32
  let main_v100 : IVec S150000 32 := broadcastInDim S150000 ![] bcast_S_S150000 main_c_39
  let main_v101 : IVec S150000 1 := cmpi .sle main_arg3 main_v100
  fn_part6 (F := F) main_arg4 main_v97 main_v99 main_v101

def fn_part4 {F : FTy → Type} [FloatOps F] (main_arg1 : IVec S100000 32) (main_arg2 : IVec S200000 32) (main_arg3 : IVec S150000 32) (main_arg4 : IVec S150000 32) (main_arg18 : FVec F S384 .f32) (main_arg19 : FVec F S384x384 .f32) (main_arg20 : FVec F S384 .f32) (main_v63 : IVec S_ 1) (main_v67 : IVec S_ 1) : IVec S_ 1 :=
  let main_v68 : IVec S_ 1 := andi main_v63 main_v67
  let main_v69 : FVec F S384 .f32 := Host.absf main_arg18
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  let main_v74 : FVec F S384x384 .f32 := Host.absf main_arg19
  let main_cst_28 : FVec F S_ .f32 := constant S_ .f32 0x7F800000#32
  let main_v75 : FVec F S384x384 .f32 := broadcastInDim S384x384 ![] bcast_S_S384x384 main_cst_28
  let main_v76 : IVec S384x384 1 := cmpf .olt main_v74 main_v75
  let main_c_29 : IVec S_ 1 := constantI S_ 1 1#1
  let main_v77 : IVec S_ 1 := (fun x v => Host.reduce IntOp.andi x v reducesTo_S384x384_S_d0_1 h_S_) main_v76 main_c_29
  let main_v78 : IVec S_ 1 := andi main_v73 main_v77
  let main_v79 : FVec F S384 .f32 := Host.absf main_arg20
  let main_cst_30 : FVec F S_ .f32 := constant S_ .f32 0x7F800000#32
  let main_v80 : FVec F S384 .f32 := broadcastInDim S384 ![] bcast_S_S384 main_cst_30
  let main_v81 : IVec S384 1 := cmpf .olt main_v79 main_v80
  let main_c_31 : IVec S_ 1 := constantI S_ 1 1#1
  let main_v82 : IVec S_ 1 := (fun x v => Host.reduce IntOp.andi x v reducesTo_S384_S_d0 h_S_) main_v81 main_c_31
  let main_v83 : IVec S_ 1 := andi main_v78 main_v82
  let main_c_32 : IVec S_ 32 := constantI S_ 32 0#32
  let main_v84 : IVec S100000 32 := broadcastInDim S100000 ![] bcast_S_S100000 main_c_32
  fn_part5 (F := F) main_arg1 main_arg2 main_arg3 main_arg4 main_v83 main_v84

def fn_part3 {F : FTy → Type} [FloatOps F] (main_arg1 : IVec S100000 32) (main_arg2 : IVec S200000 32) (main_arg3 : IVec S150000 32) (main_arg4 : IVec S150000 32) (main_arg15 : FVec F S256x256 .f32) (main_arg16 : FVec F S256 .f32) (main_arg17 : FVec F S384x384 .f32) (main_arg18 : FVec F S384 .f32) (main_arg19 : FVec F S384x384 .f32) (main_arg20 : FVec F S384 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S384x384 .f32 := Host.absf main_arg17
  let main_cst_24 : FVec F S_ .f32 := constant S_ .f32 0x7F800000#32
  let main_v65 : FVec F S384x384 .f32 := broadcastInDim S384x384 ![] bcast_S_S384x384 main_cst_24
  let main_v66 : IVec S384x384 1 := cmpf .olt main_v64 main_v65
  let main_c_25 : IVec S_ 1 := constantI S_ 1 1#1
  let main_v67 : IVec S_ 1 := (fun x v => Host.reduce IntOp.andi x v reducesTo_S384x384_S_d0_1 h_S_) main_v66 main_c_25
  fn_part4 (F := F) main_arg1 main_arg2 main_arg3 main_arg4 main_arg18 main_arg19 main_arg20 main_v63 main_v67

def fn_part2 {F : FTy → Type} [FloatOps F] (main_arg1 : IVec S100000 32) (main_arg2 : IVec S200000 32) (main_arg3 : IVec S150000 32) (main_arg4 : IVec S150000 32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S384x384 .f32) (main_arg18 : FVec F S384 .f32) (main_arg19 : FVec F S384x384 .f32) (main_arg20 : FVec F S384 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg1 main_arg2 main_arg3 main_arg4 main_arg15 main_arg16 main_arg17 main_arg18 main_arg19 main_arg20 main_v48 main_v49 main_v50

def fn_part1 {F : FTy → Type} [FloatOps F] (main_arg1 : IVec S100000 32) (main_arg2 : IVec S200000 32) (main_arg3 : IVec S150000 32) (main_arg4 : IVec S150000 32) (main_arg8 : FVec F S128 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S384x384 .f32) (main_arg18 : FVec F S384 .f32) (main_arg19 : FVec F S384x384 .f32) (main_arg20 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg2 main_arg3 main_arg4 main_arg11 main_arg12 main_arg13 main_arg14 main_arg15 main_arg16 main_arg17 main_arg18 main_arg19 main_arg20 main_v33

def fn {F : FTy → Type} [FloatOps F] (main_arg0 : FVec F S100000x128 .f32) (main_arg1 : IVec S100000 32) (main_arg2 : IVec S200000 32) (main_arg3 : IVec S150000 32) (main_arg4 : IVec S150000 32) (main_arg5 : FVec F S128x128 .f32) (main_arg6 : FVec F S128 .f32) (main_arg7 : FVec F S128x128 .f32) (main_arg8 : FVec F S128 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S384x384 .f32) (main_arg18 : FVec F S384 .f32) (main_arg19 : FVec F S384x384 .f32) (main_arg20 : FVec F S384 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg3 main_arg4 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S100000 : Shape := ⟨1, ![100000]⟩
abbrev S200000 : Shape := ⟨1, ![200000]⟩
abbrev S150000 : Shape := ⟨1, ![150000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S384x384 : Shape := ⟨2, ![384, 384]⟩
abbrev S384 : Shape := ⟨1, ![384]⟩
abbrev S600000 : Shape := ⟨1, ![600000]⟩
abbrev S_ : Shape := ⟨0, ![]⟩
abbrev S614400 : Shape := ⟨1, ![614400]⟩
abbrev S614400x128 : Shape := ⟨2, ![614400, 128]⟩
abbrev S1x128 : Shape := ⟨2, ![1, 128]⟩
abbrev S1000x128 : Shape := ⟨2, ![1000, 128]⟩
abbrev S307200x256 : Shape := ⟨2, ![307200, 256]⟩
abbrev S1x256 : Shape := ⟨2, ![1, 256]⟩
abbrev S100000x256 : Shape := ⟨2, ![100000, 256]⟩
abbrev S1000x256 : Shape := ⟨2, ![1000, 256]⟩
abbrev S200000x128 : Shape := ⟨2, ![200000, 128]⟩
abbrev S75000x256 : Shape := ⟨2, ![75000, 256]⟩
abbrev S150000x128 : Shape := ⟨2, ![150000, 128]⟩
abbrev S204800x384 : Shape := ⟨2, ![204800, 384]⟩
abbrev S1x384 : Shape := ⟨2, ![1, 384]⟩
abbrev S50000x384 : Shape := ⟨2, ![50000, 384]⟩
abbrev S1000x384 : Shape := ⟨2, ![1000, 384]⟩
abbrev S600000x128 : Shape := ⟨2, ![600000, 128]⟩

abbrev nBuf : Table → Nat
  | .hbm => 46
  | .local .tc .vmem => 32
  | .local .scVector .vmem => 4
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S200000, .i32⟩
  | .hbm, ⟨3, _⟩ => ⟨S150000, .i32⟩
  | .hbm, ⟨4, _⟩ => ⟨S150000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S384x384, .f32⟩
  | .hbm, ⟨18, _⟩ => ⟨S384, .f32⟩
  | .hbm, ⟨19, _⟩ => ⟨S384x384, .f32⟩
  | .hbm, ⟨20, _⟩ => ⟨S384, .f32⟩
  | .hbm, ⟨21, _⟩ => ⟨S600000, .i32⟩
  | .hbm, ⟨22, _⟩ => ⟨S_, .i32⟩
  | .hbm, ⟨23, _⟩ => ⟨S_, .i32⟩
  | .hbm, ⟨24, _⟩ => ⟨S614400, .i32⟩
  | .hbm, ⟨25, _⟩ => ⟨S614400x128, .f32⟩
  | .hbm, ⟨26, _⟩ => ⟨S1x128, .f32⟩
  | .hbm, ⟨27, _⟩ => ⟨S1x128, .f32⟩
  | .hbm, ⟨28, _⟩ => ⟨S100000x128, .f32⟩
  | .hbm, ⟨29, _⟩ => ⟨S307200x256, .f32⟩
  | .hbm, ⟨30, _⟩ => ⟨S1x256, .f32⟩
  | .hbm, ⟨31, _⟩ => ⟨S1x256, .f32⟩
  | .hbm, ⟨32, _⟩ => ⟨S100000x256, .f32⟩
  | .hbm, ⟨33, _⟩ => ⟨S200000x128, .f32⟩
  | .hbm, ⟨34, _⟩ => ⟨S307200x256, .f32⟩
  | .hbm, ⟨35, _⟩ => ⟨S1x256, .f32⟩
  | .hbm, ⟨36, _⟩ => ⟨S1x256, .f32⟩
  | .hbm, ⟨37, _⟩ => ⟨S75000x256, .f32⟩
  | .hbm, ⟨38, _⟩ => ⟨S150000x128, .f32⟩
  | .hbm, ⟨39, _⟩ => ⟨S204800x384, .f32⟩
  | .hbm, ⟨40, _⟩ => ⟨S1x384, .f32⟩
  | .hbm, ⟨41, _⟩ => ⟨S1x384, .f32⟩
  | .hbm, ⟨42, _⟩ => ⟨S50000x384, .f32⟩
  | .hbm, ⟨43, _⟩ => ⟨S150000x128, .f32⟩
  | .hbm, ⟨44, _⟩ => ⟨S600000x128, .f32⟩
  | .hbm, ⟨45, _⟩ => ⟨S600000, .i32⟩
  | .local .tc .vmem, ⟨0, _⟩ => ⟨S1000x128, .f32⟩
  | .local .tc .vmem, ⟨1, _⟩ => ⟨S1000x128, .f32⟩
  | .local .tc .vmem, ⟨2, _⟩ => ⟨S128x128, .f32⟩
  | .local .tc .vmem, ⟨3, _⟩ => ⟨S1x128, .f32⟩
  | .local .tc .vmem, ⟨4, _⟩ => ⟨S128x128, .f32⟩
  | .local .tc .vmem, ⟨5, _⟩ => ⟨S1x128, .f32⟩
  | .local .tc .vmem, ⟨6, _⟩ => ⟨S1000x128, .f32⟩
  | .local .tc .vmem, ⟨7, _⟩ => ⟨S1000x128, .f32⟩
  | .local .tc .vmem, ⟨8, _⟩ => ⟨S1000x256, .f32⟩
  | .local .tc .vmem, ⟨9, _⟩ => ⟨S1000x256, .f32⟩
  | .local .tc .vmem, ⟨10, _⟩ => ⟨S256x256, .f32⟩
  | .local .tc .vmem, ⟨11, _⟩ => ⟨S1x256, .f32⟩
  | .local .tc .vmem, ⟨12, _⟩ => ⟨S256x256, .f32⟩
  | .local .tc .vmem, ⟨13, _⟩ => ⟨S1x256, .f32⟩
  | .local .tc .vmem, ⟨14, _⟩ => ⟨S1000x256, .f32⟩
  | .local .tc .vmem, ⟨15, _⟩ => ⟨S1000x256, .f32⟩
  | .local .tc .vmem, ⟨16, _⟩ => ⟨S1000x256, .f32⟩
  | .local .tc .vmem, ⟨17, _⟩ => ⟨S1000x256, .f32⟩
  | .local .tc .vmem, ⟨18, _⟩ => ⟨S256x256, .f32⟩
  | .local .tc .vmem, ⟨19, _⟩ => ⟨S1x256, .f32⟩
  | .local .tc .vmem, ⟨20, _⟩ => ⟨S256x256, .f32⟩
  | .local .tc .vmem, ⟨21, _⟩ => ⟨S1x256, .f32⟩
  | .local .tc .vmem, ⟨22, _⟩ => ⟨S1000x256, .f32⟩
  | .local .tc .vmem, ⟨23, _⟩ => ⟨S1000x256, .f32⟩
  | .local .tc .vmem, ⟨24, _⟩ => ⟨S1000x384, .f32⟩
  | .local .tc .vmem, ⟨25, _⟩ => ⟨S1000x384, .f32⟩
  | .local .tc .vmem, ⟨26, _⟩ => ⟨S384x384, .f32⟩
  | .local .tc .vmem, ⟨27, _⟩ => ⟨S1x384, .f32⟩
  | .local .tc .vmem, ⟨28, _⟩ => ⟨S384x384, .f32⟩
  | .local .tc .vmem, ⟨29, _⟩ => ⟨S1x384, .f32⟩
  | .local .tc .vmem, ⟨30, _⟩ => ⟨S1000x384, .f32⟩
  | .local .tc .vmem, ⟨31, _⟩ => ⟨S1000x384, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 39 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTables nBuf rfl bufTy 4 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_arg0_scv : Ref sig .scVector := ⟨.hbm, 0, rfl⟩
abbrev main_v1_scv : Ref sig .scVector := ⟨.hbm, 24, rfl⟩
abbrev main_v2_scv : Ref sig .scVector := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg5_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg5_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg5_1 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19200_i32 : BitVec 32 := 19200#32
  let v2 : BitVec 32 := Scalar.muli v1 c19200_i32
  let c0_i32 : BitVec 32 := 0#32
  let v3 : BitVec 32 := Scalar.addi v2 c0_i32
  ![v3.toNat]
@[reducible] def k0_t1_loop : Scf.Loop 32 :=
  let c0_i32_3 : BitVec 32 := 0#32
  let c75_i32 : BitVec 32 := 75#32
  let v5 : BitVec 32 := Scalar.addi c0_i32_3 c75_i32
  let c1_i32 : BitVec 32 := 1#32
  ⟨c0_i32_3, v5, c1_i32⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19200_i32 : BitVec 32 := 19200#32
  let v2 : BitVec 32 := Scalar.muli v1 c19200_i32
  let c0_i32_3 : BitVec 32 := 0#32
  let c1_i32 : BitVec 32 := 1#32
  let arg11 : BitVec 32 := Scf.iv c0_i32_3 c1_i32 k0_t1
  let c2_i32_5 : BitVec 32 := 2#32
  let v6 : BitVec 32 := Scalar.muli arg11 c2_i32_5
  let c1_i32_6 : BitVec 32 := 1#32
  let v7 : BitVec 32 := Scalar.addi v6 c1_i32_6
  let c128_i32 : BitVec 32 := 128#32
  let v8 : BitVec 32 := Scalar.muli v7 c128_i32
  let v9 : BitVec 32 := Scalar.addi v2 v8
  ![v9.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19200_i32 : BitVec 32 := 19200#32
  let v2 : BitVec 32 := Scalar.muli v1 c19200_i32
  let c0_i32_3 : BitVec 32 := 0#32
  let c1_i32 : BitVec 32 := 1#32
  let arg11 : BitVec 32 := Scf.iv c0_i32_3 c1_i32 k0_t1
  let c2_i32_5 : BitVec 32 := 2#32
  let v6 : BitVec 32 := Scalar.muli arg11 c2_i32_5
  let c128_i32_11 : BitVec 32 := 128#32
  let v12 : BitVec 32 := Scalar.muli v6 c128_i32_11
  let v13 : BitVec 32 := Scalar.addi v2 v12
  let c0_i32_17_r2 : BitVec 32 := 0#32
  ![v13.toNat, 0]
def k0_cond1 (k0_t1 : Fin k0_t1_loop.trips) : BitVec 1 :=
  let c0_i32_3 : BitVec 32 := 0#32
  let c1_i32 : BitVec 32 := 1#32
  let arg11 : BitVec 32 := Scf.iv c0_i32_3 c1_i32 k0_t1
  let c2_i32_5 : BitVec 32 := 2#32
  let v6 : BitVec 32 := Scalar.muli arg11 c2_i32_5
  let c2_i32_12 : BitVec 32 := 2#32
  let v14 : BitVec 32 := Scalar.addi v6 c2_i32_12
  let c150_i32 : BitVec 32 := 150#32
  let v15 : BitVec 1 := Scalar.cmpi .slt v14 c150_i32
  let v16 : BitVec 32 := Scalar.extui v15
  let c0_i32_13 : BitVec 32 := 0#32
  let v17 : BitVec 1 := Scalar.cmpi .ne v16 c0_i32_13
  v17

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19200_i32 : BitVec 32 := 19200#32
  let v2 : BitVec 32 := Scalar.muli v1 c19200_i32
  let c0_i32_3 : BitVec 32 := 0#32
  let c1_i32 : BitVec 32 := 1#32
  let arg11 : BitVec 32 := Scf.iv c0_i32_3 c1_i32 k0_t1
  let c2_i32_5 : BitVec 32 := 2#32
  let v6 : BitVec 32 := Scalar.muli arg11 c2_i32_5
  let c2_i32_17 : BitVec 32 := 2#32
  let v21 : BitVec 32 := Scalar.addi v6 c2_i32_17
  let c128_i32_18 : BitVec 32 := 128#32
  let v22 : BitVec 32 := Scalar.muli v21 c128_i32_18
  let v23 : BitVec 32 := Scalar.addi v2 v22
  ![v23.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19200_i32 : BitVec 32 := 19200#32
  let v2 : BitVec 32 := Scalar.muli v1 c19200_i32
  let c0_i32_3 : BitVec 32 := 0#32
  let c1_i32 : BitVec 32 := 1#32
  let arg11 : BitVec 32 := Scf.iv c0_i32_3 c1_i32 k0_t1
  let c2_i32_5 : BitVec 32 := 2#32
  let v6 : BitVec 32 := Scalar.muli arg11 c2_i32_5
  let c1_i32_6 : BitVec 32 := 1#32
  let v7 : BitVec 32 := Scalar.addi v6 c1_i32_6
  let c128_i32_16 : BitVec 32 := 128#32
  let v19 : BitVec 32 := Scalar.muli v7 c128_i32_16
  let v20 : BitVec 32 := Scalar.addi v2 v19
  let c0_i32_17_r4 : BitVec 32 := 0#32
  ![v20.toNat, 0]
abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c50_i32 : BitVec 32 := 50#32
  let v0 : BitVec 32 := Scalar.addi arg0 c50_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![75], ![false]⟩

def cc3_transform_0 (i : grid3.Coords) : Fin 2 → Nat :=
  let arg0 : BitVec 32 := BitVec.ofNat 32 (i 0).val
  let c150_i32 : BitVec 32 := 150#32
  let v0 : BitVec 32 := Scalar.addi arg0 c150_i32
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c150_i32 : BitVec 32 := 150#32
  let v0 : BitVec 32 := Scalar.addi arg0 c150_i32
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S384x384 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S384x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x384 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  concatenates_S100000_S200000_S150000_S150000_S600000_d0 : Shape.Concatenates [S100000, S200000, S150000, S150000] S600000 0
  pads_S600000_S614400_0144000 : S600000.Pads (![0] : Fin 1 → Nat) ![14400] ![0] S614400
  h_S_ : 0 < S_.numel
  inb_S100000x128_S100000x128_0_0 : ∀ a, (![0, 0] : Fin 2 → Nat) a + S100000x128.size a ≤ S100000x128.size a
  gathers_S100000x128_S128x128 : S100000x128.Gathers 0 S128x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S614400x128_S307200x256 : S614400x128.ShapeCasts S307200x256
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  shapeCasts_S100000x256_S200000x128 : S100000x256.ShapeCasts S200000x128
  shapeCasts_S75000x256_S150000x128 : S75000x256.ShapeCasts S150000x128
  shapeCasts_S614400x128_S204800x384 : S614400x128.ShapeCasts S204800x384
  shapeCasts_S384_S1x384 : S384.ShapeCasts S1x384
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  inb_S384x384_S384x384_0_0 : ∀ a, (![0, 0] : Fin 2 → Nat) a + S384x384.size a ≤ S384x384.size a
  h_S384x384 : 0 < S384x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  shapeCasts_S50000x384_S150000x128 : S50000x384.ShapeCasts S150000x128
  concatenates_S100000x128_S200000x128_S150000x128_S150000x128_S600000x128_d0 : Shape.Concatenates [S100000x128, S200000x128, S150000x128, S150000x128] S600000x128 0
  dot_S1000x128_S128x128_S1000x128_1_0_0_1_n_n_wf : DotDims.WF S1000x128 S128x128 S1000x128 [1] [0] [0] [1] [] []
  dot_S1000x256_S256x256_S1000x256_1_0_0_1_n_n_wf : DotDims.WF S1000x256 S256x256 S1000x256 [1] [0] [0] [1] [] []
  dot_S1000x384_S384x384_S1000x384_1_0_0_1_n_n_wf : DotDims.WF S1000x384 S384x384 S1000x384 [1] [0] [0] [1] [] []
  hcc0_scratch4 : 0 + S_.numel ≤ 39
  hcc0_scratch5 : 1 + S_.numel ≤ 39
  hcc0_scoped0 : 2 + S_.numel ≤ 39
  hcc0_scoped1 : 3 + S_.numel ≤ 39
  hcc0_scoped2 : 4 + S_.numel ≤ 39
  hcc0_scoped3 : 5 + S_.numel ≤ 39
  hcc0_scoped4 : 6 + S_.numel ≤ 39
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S614400.size a
  k0_t1_ok : k0_t1_loop.OK
  k0_off2_inb : ∀ (i : grid0.Coords) (k0_t1 : Fin k0_t1_loop.trips), ∀ a, (k0_off2 i k0_t1) a + S128.size a ≤ S614400.size a
  k0_off3_inb : ∀ (i : grid0.Coords) (k0_t1 : Fin k0_t1_loop.trips), ∀ a, (k0_off3 i k0_t1) a + S128x128.size a ≤ S614400x128.size a
  k0_off4_inb : ∀ (i : grid0.Coords) (k0_t1 : Fin k0_t1_loop.trips), ∀ (k0_h1 : k0_cond1 k0_t1 = 1#1), ∀ a, (k0_off4 i k0_t1) a + S128.size a ≤ S614400.size a
  k0_off5_inb : ∀ (i : grid0.Coords) (k0_t1 : Fin k0_t1_loop.trips), ∀ a, (k0_off5 i k0_t1) a + S128x128.size a ≤ S614400x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1000x128.size a < S614400x128.size a
  hwx1_0 : ∀ i : grid1.Coords, EltTy.bits .f32 = 32 ∨ (Rect.unit (s := S614400x128) (fun a => cc1_transform_0 i a * S1000x128.size a) (fun a => (Pipeline.Clip.of (cc1_transform_0 i a) (S1000x128.size a) (S614400x128.size a)).extent (S1000x128.size a)) fun a => Pipeline.Clip.inb (Pipeline.Clip.ok_of (hstart1_0 i a))).WholeWords (EltTy.packing .f32)
  hwxs1_0 : ∀ i : grid1.Coords, EltTy.bits .f32 = 32 ∨ (Rect.unit (s := S1000x128) (fun _ => 0) (fun a => (Pipeline.Clip.of (cc1_transform_0 i a) (S1000x128.size a) (S614400x128.size a)).extent (S1000x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S100000x128.size a
  hwx1_5 : ∀ i : grid1.Coords, EltTy.bits .f32 = 32 ∨ (Rect.block (s := S100000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S1000x256.size a < S307200x256.size a
  hwx2_0 : ∀ i : grid2.Coords, EltTy.bits .f32 = 32 ∨ (Rect.unit (s := S307200x256) (fun a => cc2_transform_0 i a * S1000x256.size a) (fun a => (Pipeline.Clip.of (cc2_transform_0 i a) (S1000x256.size a) (S307200x256.size a)).extent (S1000x256.size a)) fun a => Pipeline.Clip.inb (Pipeline.Clip.ok_of (hstart2_0 i a))).WholeWords (EltTy.packing .f32)
  hwxs2_0 : ∀ i : grid2.Coords, EltTy.bits .f32 = 32 ∨ (Rect.unit (s := S1000x256) (fun _ => 0) (fun a => (Pipeline.Clip.of (cc2_transform_0 i a) (S1000x256.size a) (S307200x256.size a)).extent (S1000x256.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x256.size a ≤ S100000x256.size a
  hwx2_5 : ∀ i : grid2.Coords, EltTy.bits .f32 = 32 ∨ (Rect.block (s := S100000x256) S1000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S1000x256.size a < S307200x256.size a
  hwx3_0 : ∀ i : grid3.Coords, EltTy.bits .f32 = 32 ∨ (Rect.unit (s := S307200x256) (fun a => cc3_transform_0 i a * S1000x256.size a) (fun a => (Pipeline.Clip.of (cc3_transform_0 i a) (S1000x256.size a) (S307200x256.size a)).extent (S1000x256.size a)) fun a => Pipeline.Clip.inb (Pipeline.Clip.ok_of (hstart3_0 i a))).WholeWords (EltTy.packing .f32)
  hwxs3_0 : ∀ i : grid3.Coords, EltTy.bits .f32 = 32 ∨ (Rect.unit (s := S1000x256) (fun _ => 0) (fun a => (Pipeline.Clip.of (cc3_transform_0 i a) (S1000x256.size a) (S307200x256.size a)).extent (S1000x256.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S75000x256.size a
  hwx3_5 : ∀ i : grid3.Coords, EltTy.bits .f32 = 32 ∨ (Rect.block (s := S75000x256) S1000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S1000x384.size a < S204800x384.size a
  hwx4_0 : ∀ i : grid4.Coords, EltTy.bits .f32 = 32 ∨ (Rect.unit (s := S204800x384) (fun a => cc4_transform_0 i a * S1000x384.size a) (fun a => (Pipeline.Clip.of (cc4_transform_0 i a) (S1000x384.size a) (S204800x384.size a)).extent (S1000x384.size a)) fun a => Pipeline.Clip.inb (Pipeline.Clip.ok_of (hstart4_0 i a))).WholeWords (EltTy.packing .f32)
  hwxs4_0 : ∀ i : grid4.Coords, EltTy.bits .f32 = 32 ∨ (Rect.unit (s := S1000x384) (fun _ => 0) (fun a => (Pipeline.Clip.of (cc4_transform_0 i a) (S1000x384.size a) (S204800x384.size a)).extent (S1000x384.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x384.size a ≤ S384x384.size a
  hwx4_1 : ∀ i : grid4.Coords, EltTy.bits .f32 = 32 ∨ (Rect.block (s := S384x384) S384x384.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x384.size a ≤ S1x384.size a
  hwx4_2 : ∀ i : grid4.Coords, EltTy.bits .f32 = 32 ∨ (Rect.block (s := S1x384) S1x384.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S384x384.size a ≤ S384x384.size a
  hwx4_3 : ∀ i : grid4.Coords, EltTy.bits .f32 = 32 ∨ (Rect.block (s := S384x384) S384x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x384.size a ≤ S50000x384.size a
  hwx4_5 : ∀ i : grid4.Coords, EltTy.bits .f32 = 32 ∨ (Rect.block (s := S50000x384) S1000x384.size (cc4_transform_5 i) (hinb4_5 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x384_S384x384_S1000x384_1_0_0_1_n_n : DotDims S1000x384 S384x384 S1000x384 where
  lhsContracting := [1]
  rhsContracting := [0]
  lhsNonContracting := [0]
  rhsNonContracting := [1]
  lhsBatch := []
  rhsBatch := []
  wf := dot_S1000x384_S384x384_S1000x384_1_0_0_1_n_n_wf

abbrev win1_0 : Pipeline.Window sig grid1 :=
  Pipeline.Window.ofSpecClip (Memref.whole main_v2) S1000x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpecClip (Memref.whole main_v6) S1000x256.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_arg9) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpecClip (Memref.whole main_v11) S1000x256.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_arg13) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v13) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14) S1000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpecClip (Memref.whole main_v16) S1000x384.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpec (Memref.whole main_arg17) S384x384.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S1x384.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg19) S384x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v18) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v19) S1000x384.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S100000 : Shape := ⟨1, ![100000]⟩
abbrev S200000 : Shape := ⟨1, ![200000]⟩
abbrev S150000 : Shape := ⟨1, ![150000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S384x384 : Shape := ⟨2, ![384, 384]⟩
abbrev S384 : Shape := ⟨1, ![384]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S1x128 : Shape := ⟨2, ![1, 128]⟩
abbrev S200000x1 : Shape := ⟨2, ![200000, 1]⟩
abbrev S200000x128 : Shape := ⟨2, ![200000, 128]⟩
abbrev S100000x256 : Shape := ⟨2, ![100000, 256]⟩
abbrev S1x256 : Shape := ⟨2, ![1, 256]⟩
abbrev S150000x1 : Shape := ⟨2, ![150000, 1]⟩
abbrev S150000x128 : Shape := ⟨2, ![150000, 128]⟩
abbrev S75000x256 : Shape := ⟨2, ![75000, 256]⟩
abbrev S50000x384 : Shape := ⟨2, ![50000, 384]⟩
abbrev S1x384 : Shape := ⟨2, ![1, 384]⟩
abbrev S600000x128 : Shape := ⟨2, ![600000, 128]⟩
abbrev S600000 : Shape := ⟨1, ![600000]⟩

abbrev nBuf : Space → Nat
  | .hbm => 221
  | .vmem => 0
  | .smem => 0
  | _ => 0

abbrev hbmTy0_0 (i : Nat) : BufTy := match i % 128 with
  | 0 => ⟨S100000x128, .f32⟩
  | 1 => ⟨S100000, .i32⟩
  | 2 => ⟨S200000, .i32⟩
  | 3 => ⟨S150000, .i32⟩
  | 4 => ⟨S150000, .i32⟩
  | 5 => ⟨S128x128, .f32⟩
  | 6 => ⟨S128, .f32⟩
  | 7 => ⟨S128x128, .f32⟩
  | 8 => ⟨S128, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S384x384, .f32⟩
  | 18 => ⟨S384, .f32⟩
  | 19 => ⟨S384x384, .f32⟩
  | 20 => ⟨S384, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S1, .i32⟩
  | 30 => ⟨S_, .i32⟩
  | 31 => ⟨S100000x1, .i32⟩
  | 32 => ⟨S100000x1, .i1⟩
  | 33 => ⟨S1x1, .i32⟩
  | 34 => ⟨S100000x1, .i32⟩
  | 35 => ⟨S100000x1, .i1⟩
  | 36 => ⟨S100000x1, .i1⟩
  | 37 => ⟨S_, .i1⟩
  | 38 => ⟨S100000, .i1⟩
  | 39 => ⟨S100000x128, .f32⟩
  | 40 => ⟨S100000x128, .i1⟩
  | 41 => ⟨S_, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S100000x128, .f32⟩
  | 53 => ⟨S100000x128, .i1⟩
  | 54 => ⟨S100000x128, .f32⟩
  | 55 => ⟨S100000x128, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S100000x128, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S100000x128, .f32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S1, .i32⟩
  | 78 => ⟨S_, .i32⟩
  | 79 => ⟨S200000x1, .i32⟩
  | 80 => ⟨S200000x1, .i1⟩
  | 81 => ⟨S1x1, .i32⟩
  | 82 => ⟨S200000x1, .i32⟩
  | 83 => ⟨S200000x1, .i1⟩
  | 84 => ⟨S200000x1, .i1⟩
  | 85 => ⟨S_, .i1⟩
  | 86 => ⟨S200000, .i1⟩
  | 87 => ⟨S200000x128, .f32⟩
  | 88 => ⟨S200000x128, .i1⟩
  | 89 => ⟨S_, .f32⟩
  | 90 => ⟨S200000x128, .f32⟩
  | 91 => ⟨S200000x128, .f32⟩
  | 92 => ⟨S100000x256, .f32⟩
  | 93 => ⟨S100000x256, .f32⟩
  | 94 => ⟨S1x256, .f32⟩
  | 95 => ⟨S100000x256, .f32⟩
  | 96 => ⟨S100000x256, .f32⟩
  | 97 => ⟨S_, .f32⟩
  | 98 => ⟨S100000x256, .f32⟩
  | 99 => ⟨S100000x256, .f32⟩
  | 100 => ⟨S100000x256, .f32⟩
  | 101 => ⟨S100000x256, .f32⟩
  | 102 => ⟨S100000x256, .i1⟩
  | 103 => ⟨S100000x256, .f32⟩
  | 104 => ⟨S100000x256, .f32⟩
  | 105 => ⟨S100000x256, .f32⟩
  | 106 => ⟨S100000x256, .f32⟩
  | 107 => ⟨S100000x256, .f32⟩
  | 108 => ⟨S100000x256, .f32⟩
  | 109 => ⟨S100000x256, .f32⟩
  | 110 => ⟨S100000x256, .f32⟩
  | 111 => ⟨S100000x256, .f32⟩
  | 112 => ⟨S100000x256, .f32⟩
  | 113 => ⟨S100000x256, .f32⟩
  | 114 => ⟨S1x256, .f32⟩
  | 115 => ⟨S100000x256, .f32⟩
  | 116 => ⟨S100000x256, .f32⟩
  | 117 => ⟨S100000x256, .f32⟩
  | 118 => ⟨S200000x128, .f32⟩
  | 119 => ⟨S_, .i32⟩
  | 120 => ⟨S150000, .i32⟩
  | 121 => ⟨S150000, .i1⟩
  | 122 => ⟨S_, .i32⟩
  | 123 => ⟨S150000, .i32⟩
  | 124 => ⟨S150000, .i32⟩
  | 125 => ⟨S150000, .i32⟩
  | 126 => ⟨S150000x1, .i32⟩
  | 127 => ⟨S1, .i32⟩
  | _ => ⟨S100000x128, .f32⟩

abbrev hbmTy0_1 (i : Nat) : BufTy := match i % 128 with
  | 0 => ⟨S_, .i32⟩
  | 1 => ⟨S150000x1, .i32⟩
  | 2 => ⟨S150000x1, .i1⟩
  | 3 => ⟨S1x1, .i32⟩
  | 4 => ⟨S150000x1, .i32⟩
  | 5 => ⟨S150000x1, .i1⟩
  | 6 => ⟨S150000x1, .i1⟩
  | 7 => ⟨S_, .i1⟩
  | 8 => ⟨S150000, .i1⟩
  | 9 => ⟨S150000x128, .f32⟩
  | 10 => ⟨S150000x128, .i1⟩
  | 11 => ⟨S_, .f32⟩
  | 12 => ⟨S150000x128, .f32⟩
  | 13 => ⟨S150000x128, .f32⟩
  | 14 => ⟨S75000x256, .f32⟩
  | 15 => ⟨S75000x256, .f32⟩
  | 16 => ⟨S1x256, .f32⟩
  | 17 => ⟨S75000x256, .f32⟩
  | 18 => ⟨S75000x256, .f32⟩
  | 19 => ⟨S_, .f32⟩
  | 20 => ⟨S75000x256, .f32⟩
  | 21 => ⟨S75000x256, .f32⟩
  | 22 => ⟨S75000x256, .f32⟩
  | 23 => ⟨S75000x256, .f32⟩
  | 24 => ⟨S75000x256, .i1⟩
  | 25 => ⟨S75000x256, .f32⟩
  | 26 => ⟨S75000x256, .f32⟩
  | 27 => ⟨S75000x256, .f32⟩
  | 28 => ⟨S75000x256, .f32⟩
  | 29 => ⟨S75000x256, .f32⟩
  | 30 => ⟨S75000x256, .f32⟩
  | 31 => ⟨S75000x256, .f32⟩
  | 32 => ⟨S75000x256, .f32⟩
  | 33 => ⟨S75000x256, .f32⟩
  | 34 => ⟨S75000x256, .f32⟩
  | 35 => ⟨S75000x256, .f32⟩
  | 36 => ⟨S1x256, .f32⟩
  | 37 => ⟨S75000x256, .f32⟩
  | 38 => ⟨S75000x256, .f32⟩
  | 39 => ⟨S75000x256, .f32⟩
  | 40 => ⟨S150000x128, .f32⟩
  | 41 => ⟨S_, .i32⟩
  | 42 => ⟨S150000, .i32⟩
  | 43 => ⟨S150000, .i1⟩
  | 44 => ⟨S_, .i32⟩
  | 45 => ⟨S150000, .i32⟩
  | 46 => ⟨S150000, .i32⟩
  | 47 => ⟨S150000, .i32⟩
  | 48 => ⟨S150000x1, .i32⟩
  | 49 => ⟨S1, .i32⟩
  | 50 => ⟨S_, .i32⟩
  | 51 => ⟨S150000x1, .i32⟩
  | 52 => ⟨S150000x1, .i1⟩
  | 53 => ⟨S1x1, .i32⟩
  | 54 => ⟨S150000x1, .i32⟩
  | 55 => ⟨S150000x1, .i1⟩
  | 56 => ⟨S150000x1, .i1⟩
  | 57 => ⟨S_, .i1⟩
  | 58 => ⟨S150000, .i1⟩
  | 59 => ⟨S150000x128, .f32⟩
  | 60 => ⟨S150000x128, .i1⟩
  | 61 => ⟨S_, .f32⟩
  | 62 => ⟨S150000x128, .f32⟩
  | 63 => ⟨S150000x128, .f32⟩
  | 64 => ⟨S50000x384, .f32⟩
  | 65 => ⟨S50000x384, .f32⟩
  | 66 => ⟨S1x384, .f32⟩
  | 67 => ⟨S50000x384, .f32⟩
  | 68 => ⟨S50000x384, .f32⟩
  | 69 => ⟨S_, .f32⟩
  | 70 => ⟨S50000x384, .f32⟩
  | 71 => ⟨S50000x384, .f32⟩
  | 72 => ⟨S50000x384, .f32⟩
  | 73 => ⟨S50000x384, .f32⟩
  | 74 => ⟨S50000x384, .i1⟩
  | 75 => ⟨S50000x384, .f32⟩
  | 76 => ⟨S50000x384, .f32⟩
  | 77 => ⟨S50000x384, .f32⟩
  | 78 => ⟨S50000x384, .f32⟩
  | 79 => ⟨S50000x384, .f32⟩
  | 80 => ⟨S50000x384, .f32⟩
  | 81 => ⟨S50000x384, .f32⟩
  | 82 => ⟨S50000x384, .f32⟩
  | 83 => ⟨S50000x384, .f32⟩
  | 84 => ⟨S50000x384, .f32⟩
  | 85 => ⟨S50000x384, .f32⟩
  | 86 => ⟨S1x384, .f32⟩
  | 87 => ⟨S50000x384, .f32⟩
  | 88 => ⟨S50000x384, .f32⟩
  | 89 => ⟨S50000x384, .f32⟩
  | 90 => ⟨S150000x128, .f32⟩
  | 91 => ⟨S600000x128, .f32⟩
  | 92 => ⟨S600000, .i32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_v19 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_call5_cst : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev main_call6_c : Ref sig .tc := ⟨.hbm, 169, rfl⟩
abbrev main_call6_v0 : Ref sig .tc := ⟨.hbm, 170, rfl⟩
abbrev main_call6_v1 : Ref sig .tc := ⟨.hbm, 171, rfl⟩
abbrev main_call6_c_0 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_call6_v5 : Ref sig .tc := ⟨.hbm, 176, rfl⟩
abbrev main_call6_c_1 : Ref sig .tc := ⟨.hbm, 177, rfl⟩
abbrev main_call6_c_2 : Ref sig .tc := ⟨.hbm, 178, rfl⟩
abbrev main_call6_v6 : Ref sig .tc := ⟨.hbm, 179, rfl⟩
abbrev main_call6_v7 : Ref sig .tc := ⟨.hbm, 180, rfl⟩
abbrev main_call6_v8 : Ref sig .tc := ⟨.hbm, 181, rfl⟩
abbrev main_call6_v9 : Ref sig .tc := ⟨.hbm, 182, rfl⟩
abbrev main_call6_v10 : Ref sig .tc := ⟨.hbm, 183, rfl⟩
abbrev main_call6_v11 : Ref sig .tc := ⟨.hbm, 184, rfl⟩
abbrev main_call6_c_3 : Ref sig .tc := ⟨.hbm, 185, rfl⟩
abbrev main_call6_v12 : Ref sig .tc := ⟨.hbm, 186, rfl⟩
abbrev main_call6_v13 : Ref sig .tc := ⟨.hbm, 187, rfl⟩
abbrev main_call6_v14 : Ref sig .tc := ⟨.hbm, 188, rfl⟩
abbrev main_call6_cst : Ref sig .tc := ⟨.hbm, 189, rfl⟩
abbrev main_call6_v15 : Ref sig .tc := ⟨.hbm, 190, rfl⟩
abbrev main_v43 : Ref sig .tc := ⟨.hbm, 191, rfl⟩
abbrev main_v44 : Ref sig .tc := ⟨.hbm, 192, rfl⟩
abbrev main_v45 : Ref sig .tc := ⟨.hbm, 193, rfl⟩
abbrev main_v46 : Ref sig .tc := ⟨.hbm, 194, rfl⟩
abbrev main_v47 : Ref sig .tc := ⟨.hbm, 195, rfl⟩
abbrev main_v48 : Ref sig .tc := ⟨.hbm, 196, rfl⟩
abbrev main_call7_cst : Ref sig .tc := ⟨.hbm, 197, rfl⟩
abbrev main_call7_v0 : Ref sig .tc := ⟨.hbm, 198, rfl⟩
abbrev main_call7_v1 : Ref sig .tc := ⟨.hbm, 199, rfl⟩
abbrev main_call7_v2 : Ref sig .tc := ⟨.hbm, 200, rfl⟩
abbrev main_call7_v3 : Ref sig .tc := ⟨.hbm, 201, rfl⟩
abbrev main_call7_v4 : Ref sig .tc := ⟨.hbm, 202, rfl⟩
abbrev main_call7_v5 : Ref sig .tc := ⟨.hbm, 203, rfl⟩
abbrev main_call7_v6 : Ref sig .tc := ⟨.hbm, 204, rfl⟩
abbrev main_call7_v7 : Ref sig .tc := ⟨.hbm, 205, rfl⟩
abbrev main_call7_v8 : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_v49 : Ref sig .tc := ⟨.hbm, 210, rfl⟩
abbrev main_v50 : Ref sig .tc := ⟨.hbm, 211, rfl⟩
abbrev main_v51 : Ref sig .tc := ⟨.hbm, 212, rfl⟩
abbrev main_v52 : Ref sig .tc := ⟨.hbm, 213, rfl⟩
abbrev main_v53 : Ref sig .tc := ⟨.hbm, 214, rfl⟩
abbrev main_v54 : Ref sig .tc := ⟨.hbm, 215, rfl⟩
abbrev main_v55 : Ref sig .tc := ⟨.hbm, 216, rfl⟩
abbrev main_v56 : Ref sig .tc := ⟨.hbm, 217, rfl⟩
abbrev main_v57 : Ref sig .tc := ⟨.hbm, 218, rfl⟩
abbrev main_v58 : Ref sig .tc := ⟨.hbm, 219, rfl⟩
abbrev main_v59 : Ref sig .tc := ⟨.hbm, 220, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  shapeCasts_S200000x128_S100000x256 : S200000x128.ShapeCasts S100000x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  shapeCasts_S100000x256_S200000x128 : S100000x256.ShapeCasts S200000x128
  bcast_S_S150000 : S_.BroadcastsInDim S150000 (![] : Fin 0 → Fin S150000.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S1x1_S150000x1_0_1 : S1x1.BroadcastsInDim S150000x1 (![0, 1] : Fin 2 → Fin S150000x1.rank)
  reducesTo_S150000x1_S150000_d1 : S150000x1.ReducesTo [1] S150000
  bcast_S150000_S150000x128_0 : S150000.BroadcastsInDim S150000x128 (![0] : Fin 1 → Fin S150000x128.rank)
  bcast_S_S150000x128 : S_.BroadcastsInDim S150000x128 (![] : Fin 0 → Fin S150000x128.rank)
  shapeCasts_S150000x128_S75000x256 : S150000x128.ShapeCasts S75000x256
  bcast_S1x256_S75000x256_0_1 : S1x256.BroadcastsInDim S75000x256 (![0, 1] : Fin 2 → Fin S75000x256.rank)
  bcast_S_S75000x256 : S_.BroadcastsInDim S75000x256 (![] : Fin 0 → Fin S75000x256.rank)
  shapeCasts_S75000x256_S150000x128 : S75000x256.ShapeCasts S150000x128
  shapeCasts_S150000x128_S50000x384 : S150000x128.ShapeCasts S50000x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  bcast_S_S50000x384 : S_.BroadcastsInDim S50000x384 (![] : Fin 0 → Fin S50000x384.rank)
  shapeCasts_S50000x384_S150000x128 : S50000x384.ShapeCasts S150000x128
  concatenates_S100000x128_S200000x128_S150000x128_S150000x128_S600000x128_d0 : Shape.Concatenates [S100000x128, S200000x128, S150000x128, S150000x128] S600000x128 0
  concatenates_S100000_S200000_S150000_S150000_S600000_d0 : Shape.Concatenates [S100000, S200000, S150000, S150000] S600000 0
  gather_S100000x128_S100000x1_S100000x128_1_0_n_n_0_1_1128_wf : GatherDims.WF S100000x128 S100000x1 S100000x128 [1] [0] [] [0] [] 1 ![1, 128]
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  dot_S100000x256_S256x256_S100000x256_1_0_0_1_n_n_wf : DotDims.WF S100000x256 S256x256 S100000x256 [1] [0] [0] [1] [] []
  gather_S100000x128_S150000x1_S150000x128_1_0_n_n_0_1_1128_wf : GatherDims.WF S100000x128 S150000x1 S150000x128 [1] [0] [] [0] [] 1 ![1, 128]
  dot_S75000x256_S256x256_S75000x256_1_0_0_1_n_n_wf : DotDims.WF S75000x256 S256x256 S75000x256 [1] [0] [0] [1] [] []
  dot_S50000x384_S384x384_S50000x384_1_0_0_1_n_n_wf : DotDims.WF S50000x384 S384x384 S50000x384 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x128_S150000x1_S150000x128_1_0_n_n_0_1_1128 : GatherDims S100000x128 S150000x1 S150000x128 where
  offsetDims := [1]
  collapsedSliceDims := [0]
  operandBatchingDims := []
  startIndicesBatchingDims := []
  startIndexMap := [0]
  indexVectorDim := 1
  sliceSizes := ![1, 128]
  wf := gather_S100000x128_S150000x1_S150000x128_1_0_n_n_0_1_1128_wf
def dot_S75000x256_S256x256_S75000x256_1_0_0_1_n_n : DotDims S75000x256 S256x256 S75000x256 where
  lhsContracting := [1]
  rhsContracting := [0]
  lhsNonContracting := [0]
  rhsNonContracting := [1]
  lhsBatch := []
  rhsBatch := []
  wf := dot_S75000x256_S256x256_S75000x256_1_0_0_1_n_n_wf
def dot_S50000x384_S384x384_S50000x384_1_0_0_1_n_n : DotDims S50000x384 S384x384 S50000x384 where
  lhsContracting := [1]
  rhsContracting := [0]
  lhsNonContracting := [0]
  rhsNonContracting := [1]
  lhsBatch := []
  rhsBatch := []
  wf := dot_S50000x384_S384x384_S50000x384_1_0_0_1_n_n_wf

class Facts : Prop extends Facts₀ where

variable [Facts]
-- ==== Proof.KI.Setup.lean ====
/-
  The idealized kernel's program as the SparseCore launch theorem reads it, and the resource algebra its proof lives in.

  The program is one vector-subcore gather (every tile copies its 19200 rows of the padded index list, 128 at a time,
  and fetches the table rows they name into its 19200 rows of the gathered array) followed, on the TensorCore, by four
  row-blocked two-layer perceptrons over views of the gathered array. Three protocols run side by side and each has a
  factor of the ghost state: the launch handshakes between the TensorCore, the sequencers and the tiles (rounds indexed
  by call), the four pipelines' staging cells (rounds of one duty), and the tiles' own copies (plain counters: every
  copy is waited for before its buffers are touched again, so no schedule is needed).
-/
import proofs.«214605_g64536178589837_cont_9to1_m_912_2_alg».proof.KernelIdeal
import proofs.«214605_g64536178589837_cont_9to1_m_912_2_alg».proof.Proof.Gen.KernelIdeal
import proofs.«214605_g64536178589837_cont_9to1_m_912_2_alg».proof.Proof.Gen.KernelIdeal.Skeleton
import proofs.«214605_g64536178589837_cont_9to1_m_912_2_alg».proof.Proof.Gen.KernelIdeal.Launch
import proofs.«214605_g64536178589837_cont_9to1_m_912_2_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' rounds: the middle factor. The tiles' counters are found by instance in the right one. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

example : CountersIn UU := inferInstance

end Cert.Proof.KI

end
-- ==== Proof.KI.ScPay.lean ====
/-
  The SparseCore side of the idealized kernel: what the launch handshakes carry for the row gather, and the
  obligations of one tile's task.

  Tile number w = 2·subcore + core owns rows [19200·w, 19200·(w+1)) of the padded index list and of the gathered
  array, in 150 chunks of 128 rows. Every tile reads the table and the index list through a read share of the whole
  array; it holds each of its 150 output chunks outright. The result: row r of the gathered array is the table's row
  named by word r of the index list.
-/
import proofs.«214605_g64536178589837_cont_9to1_m_912_2_alg».proof.Proof.KI.Setup
import Idealize.ShloMosaic.Lib.SparseCore.Stream
import Idealize.ShloMosaic.Lib.Transfers
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

/-! ## The three arrays -/

/-- The table, the padded index list and the gathered array, as locations of device `d`. -/
abbrev tblLoc (d : Dev nD) : Loc nD τ sig := (SparseCore.T d).loc main_arg0
abbrev idxLoc (d : Dev nD) : Loc nD τ sig := (SparseCore.T d).loc main_v1
abbrev outLoc (d : Dev nD) : Loc nD τ sig := (SparseCore.T d).loc main_v2

/-- The same three arrays as a tile's task names them. -/
abbrev tblV : Memref sig .scVector .hbm S100000x128 .f32 := Memref.whole main_arg0_scv
abbrev idxV : Memref sig .scVector .hbm S614400 .i32 := Memref.whole main_v1_scv
abbrev outV : Memref sig .scVector .hbm S614400x128 .f32 := Memref.whole main_v2_scv

/-! ## The value -/

/-- Row `r` of the result is the table's row named by word `r` of the index list (row 0 where the word names no row). -/
def gathered (tbl : S100000x128.Idx → Elt F .f32) (I : S614400.Idx → Elt F .i32) : S614400x128.Idx → Elt F .f32 :=
  fun j => if h : (I (ix1 (j 0))).toNat < 100000 then tbl (ix2 ⟨(I (ix1 (j 0))).toNat, h⟩ (j 1)) else tbl (ix2 ⟨0, by decide⟩ (j 1))

theorem gathered_apply (tbl : S100000x128.Idx → Elt F .f32) (I : S614400.Idx → Elt F .i32) (j : S614400x128.Idx)
    (h : (I (ix1 (j 0))).toNat < 100000) : gathered tbl I j = tbl (ix2 ⟨(I (ix1 (j 0))).toNat, h⟩ (j 1)) := by
  unfold gathered; exact dif_pos h

/-! ## Tiles, chunks -/

def coordsV (c : Fin (grid0.bound 0)) (s : Fin (grid0.bound 1)) : grid0.Coords :=
  fun | 0 => c | 1 => s | ⟨_ + 2, h⟩ => absurd h (Nat.not_lt.2 (Nat.le_add_left _ _))

/-- The tile's number: subcore-major, as the kernel computes its base row. -/
def tileNo (c : Fin (grid0.bound 0)) (i : Fin (grid0.bound 1)) : Fin 32 := ⟨i.val * 2 + c.val, by
  have h0 : c.val < 2 := c.isLt
  have h1 : i.val < 16 := i.isLt
  omega⟩

/-- The even and the odd output chunk of trip `k`, as the task slices them out of the gathered array. -/
abbrev outE (L : grid0.Coords) (k : Fin k0_t1_loop.trips) : Memref sig .scVector .hbm S128x128 .f32 :=
  (outV).slice (Rect.unit (s := S614400x128) (k0_off3 L k) S128x128.size (k0_off3_inb L k)) (fun _ => rfl)
abbrev outO (L : grid0.Coords) (k : Fin k0_t1_loop.trips) : Memref sig .scVector .hbm S128x128 .f32 :=
  (outV).slice (Rect.unit (s := S614400x128) (k0_off5 L k) S128x128.size (k0_off5_inb L k)) (fun _ => rfl)
abbrev setE (L : grid0.Coords) (k : Fin k0_t1_loop.trips) : Finset S614400x128.Idx := (outE L k).view.set
abbrev setO (L : grid0.Coords) (k : Fin k0_t1_loop.trips) : Finset S614400x128.Idx := (outO L k).view.set

/-! ## What the handshakes carry -/

variable (m : (ℓ : Loc nD τ sig) → Buf (Elt F) ℓ) (I : (d : Dev nD) → Buf (Elt F) (idxLoc d))

/-- The result the call leaves in the gathered array of device `d`. -/
abbrev res (d : Dev nD) : Buf (Elt F) (outLoc d) := gathered (m (tblLoc d)) (I d)

/-- A tile's read shares of the table and of the index list. -/
def tileShares (d : Dev nD) (c : Fin (grid0.bound 0)) (i : Fin (grid0.bound 1)) : sProp 𝕄 :=
  iprop((tblLoc d ↦{shareTok fullShare 32 (tileNo c i)} m (tblLoc d)) ∗ (idxLoc d ↦{shareTok fullShare 32 (tileNo c i)} I d))

/-- What a tile's task is handed: its shares and its 150 output chunks, at contents not chosen. -/
def goRes (d : Dev nD) (c : Fin (grid0.bound 0)) (i : Fin (grid0.bound 1)) : sProp 𝕄 :=
  iprop(tileShares m I d c i
    ∗ bigSep Finset.univ fun k : Fin k0_t1_loop.trips =>
        iprop((∃ f, outLoc d ↦[setE (coordsV c i) k]{fullShare} f) ∗ (∃ f, outLoc d ↦[setO (coordsV c i) k]{fullShare} f)))

/-- What it hands back: the shares, and every chunk at the result. -/
def tdRes (d : Dev nD) (c : Fin (grid0.bound 0)) (i : Fin (grid0.bound 1)) : sProp 𝕄 :=
  iprop(tileShares m I d c i
    ∗ bigSep Finset.univ fun k : Fin k0_t1_loop.trips =>
        iprop((outLoc d ↦[setE (coordsV c i) k]{fullShare} res m I d) ∗ (outLoc d ↦[setO (coordsV c i) k]{fullShare} res m I d)))

instance tileShares_storable (d : Dev nD) (c : Fin (grid0.bound 0)) (i : Fin (grid0.bound 1)) :
    BI.Storable (upEmb : UEmb _ 𝕄) (tileShares m I d c i) := by unfold tileShares; infer_instance
instance goRes_storable (d : Dev nD) (c : Fin (grid0.bound 0)) (i : Fin (grid0.bound 1)) :
    BI.Storable (upEmb : UEmb _ 𝕄) (goRes m I d c i) := by unfold goRes; infer_instance
instance tdRes_storable (d : Dev nD) (c : Fin (grid0.bound 0)) (i : Fin (grid0.bound 1)) :
    BI.Storable (upEmb : UEmb _ 𝕄) (tdRes m I d c i) := by unfold tdRes; infer_instance

/-- What a SparseCore is handed, and what it hands back: what its sixteen tiles are, and what they do. -/
def stRes (d : Dev nD) (c : Fin (grid0.bound 0)) : sProp 𝕄 := bigSep Finset.univ fun i : Fin (grid0.bound 1) => goRes m I d c i
def dnRes (d : Dev nD) (c : Fin (grid0.bound 0)) : sProp 𝕄 := bigSep Finset.univ fun i : Fin (grid0.bound 1) => tdRes m I d c i
instance stRes_storable (d : Dev nD) (c : Fin (grid0.bound 0)) : BI.Storable (upEmb : UEmb _ 𝕄) (stRes m I d c) := by unfold stRes; infer_instance
instance dnRes_storable (d : Dev nD) (c : Fin (grid0.bound 0)) : BI.Storable (upEmb : UEmb _ 𝕄) (dnRes m I d c) := by unfold dnRes; infer_instance

/-- The one SparseCore call. -/
def P : (K (F := F)).Pay (nD := nD) (Val := Elt F) (Name := ℕ) (U := UU) where
  st := fun q d c => match q with | 0 => stRes m I d c
  dn := fun q d c => match q with | 0 => dnRes m I d c
  go := fun q d c i => match q with | 0 => goRes m I d c i
  td := fun q d c i => match q with | 0 => tdRes m I d c i
  x := fun _ _ => iprop(emp)

theorem P_st (d : Dev nD) (c : Fin ((K (F := F)).nCore 0)) : (P m I).st 0 d c = stRes m I d c := rfl
theorem P_dn (d : Dev nD) (c : Fin ((K (F := F)).nCore 0)) : (P m I).dn 0 d c = dnRes m I d c := rfl
theorem P_go (d : Dev nD) (c : Fin ((K (F := F)).nCore 0)) (i : Fin ((K (F := F)).nSub 0)) : (P m I).go 0 d c i = goRes m I d c i := rfl
theorem P_td (d : Dev nD) (c : Fin ((K (F := F)).nCore 0)) (i : Fin ((K (F := F)).nSub 0)) : (P m I).td 0 d c i = tdRes m I d c i := rfl

instance P_storable : (P (F := F) m I).IsStorable where
  st q d c := match q with | 0 => stRes_storable m I d c
  dn q d c := match q with | 0 => dnRes_storable m I d c
  go q d c i := match q with | 0 => goRes_storable m I d c i
  td q d c i := match q with | 0 => tdRes_storable m I d c i

end Cert.Proof.KI
end
-- ==== Proof.KI.ScVal.lean ====
/-
  The values of one tile's task: what a gather over a chunk of the index list delivers, and what the copy of a row
  buffer leaves in the gathered array, both as rows of the result.
-/
import proofs.«214605_g64536178589837_cont_9to1_m_912_2_alg».proof.Proof.KI.ScPay
import Idealize.ShloMosaic.Lib.Tactic
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

open Idealize.ShloMosaic.SparseCore (gatherPayload rows)

variable (m : (ℓ : Loc nD τ sig) → Buf (Elt F) ℓ) (I : (d : Dev nD) → Buf (Elt F) (idxLoc d))

section Value

variable (d : Dev nD) (L : grid0.Coords)

abbrev cV (L : grid0.Coords) : Fin τ.nSC := (L 0).castLE hcore0
abbrev jV (L : grid0.Coords) : Fin τ.nSub := (L 1).castLE hsub0

/-- A tile's scratch: the two index chunks, the two row buffers. -/
abbrev iaV : Memref sig .scVector .vmem S128 .i32 := Memref.whole cc0_scratch0
abbrev ibV : Memref sig .scVector .vmem S128 .i32 := Memref.whole cc0_scratch1
abbrev raV : Memref sig .scVector .vmem S128x128 .f32 := Memref.whole cc0_scratch2
abbrev rbV : Memref sig .scVector .vmem S128x128 .f32 := Memref.whole cc0_scratch3

abbrev semOf (s : DmaSems sig S_) : GSem nD τ sig := (V d (cV L) (jV L), SemLoc.dma s.sem)

/-- The tile's base row. -/
def baseRow (L : grid0.Coords) : ℕ := 38400 * (L 1).val + 19200 * (L 0).val

/-- A row buffer holds the result's rows of chunk `j` of the tile. -/
def RowsOK (j : ℕ) (fr : S128x128.Idx → Elt F .f32) : Prop :=
  ∀ (y : S128x128.Idx) (x : S614400x128.Idx), (x 0).val = baseRow L + 128 * j + (y 0).val → (x 1).val = (y 1).val → fr y = res m I d x

/-- The whole table as a gather names its source. -/
abbrev tblAll : Memref sig .scVector .hbm S100000x128 .f32 :=
  (tblV).slice (Rect.unit (s := S100000x128) ![0, 0] S100000x128.size inb_S100000x128_S100000x128_0_0) (fun _ => rfl)

/-- A chunk of the index list as a copy names its source. -/
abbrev idxSl (off : Fin 1 → ℕ) (h : ∀ a, off a + S128.size a ≤ S614400.size a) : Memref sig .scVector .hbm S128 .i32 :=
  (idxV).slice (Rect.unit (s := S614400) off S128.size h) (fun _ => rfl)

theorem read_tblAll (z : S100000x128.Idx) : View.read (Elt F) (tblAll).view (m (tblLoc d)) z = m (tblLoc d) z := by
  rw [View.read_apply]
  refine (cast_eq _ _).trans (congrArg (m (tblLoc d)) ?_)
  funext a; apply Fin.ext
  show (Rect.unit (s := S100000x128) ![0, 0] S100000x128.size inb_S100000x128_S100000x128_0_0).off a + (Rect.unit (s := S100000x128) ![0, 0] S100000x128.size inb_S100000x128_S100000x128_0_0).stride a * (z a).val = (z a).val
  match a with
  | 0 => simp [Rect.unit]
  | 1 => simp [Rect.unit]

theorem read_idxSl (off : Fin 1 → ℕ) (h : ∀ a, off a + S128.size a ≤ S614400.size a) (z : S128.Idx) (r : S614400.Idx)
    (hr : (r 0).val = off 0 + (z 0).val) :
    ReadAs.same.apply (View.read (Elt F) (idxSl off h).view (I d)) z = I d r := by
  show View.read (Elt F) (idxSl off h).view (I d) z = I d r
  rw [View.read_apply]
  refine (cast_eq _ _).trans (congrArg (I d) ?_)
  funext a; apply Fin.ext
  match a with
  | 0 =>
    show (Rect.unit (s := S614400) off S128.size h).off 0 + (Rect.unit (s := S614400) off S128.size h).stride 0 * (z 0).val = (r 0).val
    rw [hr]; simp [Rect.unit]

/-- What a gather over a chunk of the index list delivers: the result's rows of that chunk. -/
theorem gather_rows (hI : ∀ r, ((I d) r).toNat < 100000) (j : ℕ) (off : Fin 1 → ℕ) (h : ∀ a, off a + S128.size a ≤ S614400.size a)
    (hoff : off 0 = baseRow L + 128 * j) (words : S128.Idx → Elt F .i32)
    (hwords : ∀ z, words z = ReadAs.same.apply (View.read (Elt F) (idxSl off h).view (I d)) z)
    (hn : S128.numel = S128x128.size gathers_S100000x128_S128x128.axis')
    (hin : ∀ x, (words x).toNat < S100000x128.size gathers_S100000x128_S128x128.axis) :
    RowsOK m I d L j (gatherPayload gathers_S100000x128_S128x128 (View.read (Elt F) (tblAll).view (m (tblLoc d))) (rows words hn hin)) := by
  intro y x hx0 hx1
  unfold gatherPayload
  rw [read_tblAll, res, gathered_apply _ _ _ (hI _)]
  refine congrArg (m (tblLoc d)) ?_
  funext b
  match b with
  | 0 =>
    apply Fin.ext
    have h0 := Shape.Gathers.idx_axis gathers_S100000x128_S128x128 (rows words hn hin) y
    show ((gathers_S100000x128_S128x128.idx (rows words hn hin) y) gathers_S100000x128_S128x128.axis).val = _
    rw [h0]
    show (words _).toNat = (I d (ix1 (x 0))).toNat
    rw [hwords]
    refine congrArg BitVec.toNat (read_idxSl I d off h _ _ ?_)
    show (x 0).val = off 0 + ((S128.rowMajor.symm ((y gathers_S100000x128_S128x128.axis').cast hn.symm)) 0).val
    have hz := Shape.rowMajor_val_one (S128.rowMajor.symm ((y gathers_S100000x128_S128x128.axis').cast hn.symm))
    rw [Equiv.apply_symm_apply] at hz
    rw [← hz, hoff, hx0]; rfl
  | 1 =>
    apply Fin.ext
    have h1 := Shape.Gathers.idx_of_ne gathers_S100000x128_S128x128 (rows words hn hin) y 1 (by decide)
    exact h1.trans hx1.symm

theorem gather_rows_a (hI : ∀ r, ((I d) r).toNat < 100000) (j : ℕ) (off : Fin 1 → ℕ) (h : ∀ a, off a + S128.size a ≤ S614400.size a)
    (hoff : off 0 = baseRow L + 128 * j) (fi : Buf (Elt F) ((iaV).view.loc (V d (cV L) (jV L))))
    (hn : S128.numel = S128x128.size gathers_S100000x128_S128x128.axis')
    (hin : ∀ x, (View.read (Elt F) (iaV).view (View.write (Elt F) (iaV).view fi
      (ReadAs.same.apply (View.read (Elt F) (idxSl off h).view (I d))) Finset.univ) x).toNat < S100000x128.size gathers_S100000x128_S128x128.axis) :
    RowsOK m I d L j (gatherPayload gathers_S100000x128_S128x128 (View.read (Elt F) (tblAll).view (m (tblLoc d)))
      (rows (View.read (Elt F) (iaV).view (View.write (Elt F) (iaV).view fi
        (ReadAs.same.apply (View.read (Elt F) (idxSl off h).view (I d))) Finset.univ)) hn hin)) :=
  gather_rows m I d L hI j off h hoff _ (fun z => by
    show View.read (Elt F) (View.whole cc0_scratch0) (View.write (Elt F) (View.whole cc0_scratch0) fi _ Finset.univ) z = _
    rw [View.write_whole_univ, View.read_whole]) hn hin
theorem gather_rows_b (hI : ∀ r, ((I d) r).toNat < 100000) (j : ℕ) (off : Fin 1 → ℕ) (h : ∀ a, off a + S128.size a ≤ S614400.size a)
    (hoff : off 0 = baseRow L + 128 * j) (fi : Buf (Elt F) ((ibV).view.loc (V d (cV L) (jV L))))
    (hn : S128.numel = S128x128.size gathers_S100000x128_S128x128.axis')
    (hin : ∀ x, (View.read (Elt F) (ibV).view (View.write (Elt F) (ibV).view fi
      (ReadAs.same.apply (View.read (Elt F) (idxSl off h).view (I d))) Finset.univ) x).toNat < S100000x128.size gathers_S100000x128_S128x128.axis) :
    RowsOK m I d L j (gatherPayload gathers_S100000x128_S128x128 (View.read (Elt F) (tblAll).view (m (tblLoc d)))
      (rows (View.read (Elt F) (ibV).view (View.write (Elt F) (ibV).view fi
        (ReadAs.same.apply (View.read (Elt F) (idxSl off h).view (I d))) Finset.univ)) hn hin)) :=
  gather_rows m I d L hI j off h hoff _ (fun z => by
    show View.read (Elt F) (View.whole cc0_scratch1) (View.write (Elt F) (View.whole cc0_scratch1) fi _ Finset.univ) z = _
    rw [View.write_whole_univ, View.read_whole]) hn hin

/-! The offsets the task computes, in rows of the tile. -/
theorem off1_row : k0_off1 L 0 = baseRow L + 128 * 0 := by
  rw [k0_off1_eq]; show 38400 * (L 1).val + 19200 * (L 0).val = baseRow L + 128 * 0; unfold baseRow; omega
theorem off2_row (k : Fin k0_t1_loop.trips) : k0_off2 L k 0 = baseRow L + 128 * (2 * k.val + 1) := by
  rw [k0_off2_eq]; show 38400 * (L 1).val + 19200 * (L 0).val + 256 * k.val + 128 = baseRow L + 128 * (2 * k.val + 1); unfold baseRow; omega
theorem off4_row (k : Fin k0_t1_loop.trips) : k0_off4 L k 0 = baseRow L + 128 * (2 * (k.val + 1)) := by
  rw [k0_off4_eq]; show 38400 * (L 1).val + 19200 * (L 0).val + 256 * k.val + 256 = baseRow L + 128 * (2 * (k.val + 1)); unfold baseRow; omega
theorem off3_row (k : Fin k0_t1_loop.trips) : k0_off3 L k 0 = baseRow L + 128 * (2 * k.val) := by
  rw [k0_off3_eq]; show 38400 * (L 1).val + 19200 * (L 0).val + 256 * k.val = baseRow L + 128 * (2 * k.val); unfold baseRow; omega
theorem off3_col (k : Fin k0_t1_loop.trips) : k0_off3 L k 1 = 0 := by rw [k0_off3_eq]; rfl
theorem off5_row (k : Fin k0_t1_loop.trips) : k0_off5 L k 0 = baseRow L + 128 * (2 * k.val + 1) := by
  rw [k0_off5_eq]; show 38400 * (L 1).val + 19200 * (L 0).val + 256 * k.val + 128 = baseRow L + 128 * (2 * k.val + 1); unfold baseRow; omega
theorem off5_col (k : Fin k0_t1_loop.trips) : k0_off5 L k 1 = 0 := by rw [k0_off5_eq]; rfl

/-- One whole-buffer write leaves its payload. -/
theorem rowsOK_ra (j : ℕ) (fr : Buf (Elt F) ((raV).view.loc (V d (cV L) (jV L)))) (p : S128x128.Idx → Elt F .f32)
    (hp : RowsOK m I d L j p) : RowsOK m I d L j ((raV).view.writes (Elt F) fr [⟨Rect.whole S128x128, p⟩]) := by
  intro y x h0 h1
  have h := View.read_writes_cons_emb (View.whole cc0_scratch2) fr (Rect.whole S128x128) p [] y
  have e := Rect.emb_whole_apply S128x128 y
  rw [View.read_whole, e] at h
  exact h.trans (hp y x h0 h1)
theorem rowsOK_rb (j : ℕ) (fr : Buf (Elt F) ((rbV).view.loc (V d (cV L) (jV L)))) (p : S128x128.Idx → Elt F .f32)
    (hp : RowsOK m I d L j p) : RowsOK m I d L j ((rbV).view.writes (Elt F) fr [⟨Rect.whole S128x128, p⟩]) := by
  intro y x h0 h1
  have h := View.read_writes_cons_emb (View.whole cc0_scratch3) fr (Rect.whole S128x128) p [] y
  have e := Rect.emb_whole_apply S128x128 y
  rw [View.read_whole, e] at h
  exact h.trans (hp y x h0 h1)
theorem rowsOK_read_ra (j : ℕ) (fr : Buf (Elt F) ((raV).view.loc (V d (cV L) (jV L))))
    (h : RowsOK m I d L j fr) : RowsOK m I d L j (ReadAs.same.apply (View.read (Elt F) (raV).view fr)) := by
  show RowsOK m I d L j (View.read (Elt F) (View.whole cc0_scratch2) fr)
  rw [View.read_whole]; exact h
theorem rowsOK_read_rb (j : ℕ) (fr : Buf (Elt F) ((rbV).view.loc (V d (cV L) (jV L))))
    (h : RowsOK m I d L j fr) : RowsOK m I d L j (ReadAs.same.apply (View.read (Elt F) (rbV).view fr)) := by
  show RowsOK m I d L j (View.read (Elt F) (View.whole cc0_scratch3) fr)
  rw [View.read_whole]; exact h

/-- A row buffer that holds chunk `j`'s rows, copied over the chunk's rows of the gathered array, leaves the result there. -/
theorem copy_rows (offv : Fin 2 → ℕ) (h : ∀ a, offv a + S128x128.size a ≤ S614400x128.size a) (j : ℕ)
    (ho0 : offv 0 = baseRow L + 128 * j) (ho1 : offv 1 = 0) (f : Buf (Elt F) (outLoc d)) (w : S128x128.Idx → Elt F .f32)
    (hw : RowsOK m I d L j w) :
    ∀ i ∈ ((outV).slice (Rect.unit (s := S614400x128) offv S128x128.size h) (fun _ => rfl)).view.set,
      ((outV).slice (Rect.unit (s := S614400x128) offv S128x128.size h) (fun _ => rfl)).view.writes (Elt F) f [⟨Rect.whole S128x128, w⟩] i
        = res m I d i := by
  intro i hi
  obtain ⟨y, -, rfl⟩ := Finset.mem_map.mp hi
  have h1 := View.read_writes_cons_emb ((outV).slice (Rect.unit (s := S614400x128) offv S128x128.size h) (fun _ => rfl)).view f (Rect.whole S128x128) w [] y
  have e := Rect.emb_whole_apply S128x128 y
  rw [e, View.read_apply] at h1
  refine ((cast_eq _ _).symm.trans h1).trans (hw y _ ?_ ?_)
  · show (Rect.unit (s := S614400x128) offv S128x128.size h).off 0 + (Rect.unit (s := S614400x128) offv S128x128.size h).stride 0 * (y 0).val = _
    rw [← ho0]; simp [Rect.unit]
  · show (Rect.unit (s := S614400x128) offv S128x128.size h).off 1 + (Rect.unit (s := S614400x128) offv S128x128.size h).stride 1 * (y 1).val = _
    simp [Rect.unit, ho1]

/-- Whatever an index scratch held, once a chunk of the index list has been copied over the whole of it every word of it
    is a word of the index list, so names a row of the table. -/
theorem idx_inb_a (hI : ∀ r, ((I d) r).toNat < 100000) (off : Fin 1 → ℕ) (h : ∀ a, off a + S128.size a ≤ S614400.size a)
    (f : Buf (Elt F) ((iaV).view.loc (V d (cV L) (jV L)))) (x : S128.Idx) :
    (View.read (Elt F) iaV.view (View.write (Elt F) iaV.view f
      (ReadAs.same.apply (View.read (Elt F) (idxV.slice (Rect.unit (s := S614400) off S128.size h) (fun _ => rfl)).view (I d))) Finset.univ) x).toNat < 100000 := by
  show (View.read (Elt F) (View.whole cc0_scratch0) (View.write (Elt F) (View.whole cc0_scratch0) f _ Finset.univ) x).toNat < 100000
  rw [View.write_whole_univ, View.read_whole]
  exact ((congrArg BitVec.toNat ((View.read_apply _ _).trans (cast_eq _ _))).trans_lt (hI _))
theorem idx_inb_b (hI : ∀ r, ((I d) r).toNat < 100000) (off : Fin 1 → ℕ) (h : ∀ a, off a + S128.size a ≤ S614400.size a)
    (f : Buf (Elt F) ((ibV).view.loc (V d (cV L) (jV L)))) (x : S128.Idx) :
    (View.read (Elt F) ibV.view (View.write (Elt F) ibV.view f
      (ReadAs.same.apply (View.read (Elt F) (idxV.slice (Rect.unit (s := S614400) off S128.size h) (fun _ => rfl)).view (I d))) Finset.univ) x).toNat < 100000 := by
  show (View.read (Elt F) (View.whole cc0_scratch1) (View.write (Elt F) (View.whole cc0_scratch1) f _ Finset.univ) x).toNat < 100000
  rw [View.write_whole_univ, View.read_whole]
  exact ((congrArg BitVec.toNat ((View.read_apply _ _).trans (cast_eq _ _))).trans_lt (hI _))

/-- A chunk of the gathered array as the tile addresses it is the chunk of the device's array. -/
theorem pts_outE (k : Fin k0_t1_loop.trips) (f : Buf (Elt F) (outLoc d)) :
    ((outE L k).view.loc (V d (cV L) (jV L)) ↦[(outE L k).view.set]{fullShare} f : sProp 𝕄) = outLoc d ↦[setE L k]{fullShare} f := rfl
theorem pts_outO (k : Fin k0_t1_loop.trips) (f : Buf (Elt F) (outLoc d)) :
    ((outO L k).view.loc (V d (cV L) (jV L)) ↦[(outO L k).view.set]{fullShare} f : sProp 𝕄) = outLoc d ↦[setO L k]{fullShare} f := rfl

/-- The refill of slot a happens on every trip but the last. -/
theorem cond1_iff : ∀ k : Fin k0_t1_loop.trips, k0_cond1 k = 1#1 ↔ k.val + 1 < 75 := by decide +kernel
theorem trips_eq : k0_t1_loop.trips = 75 := by decide

end Value
end Cert.Proof.KI
end
-- ==== Proof.KI.ScTile.lean ====
/-
  One tile's task of the row gather: from its read shares and its 150 output chunks to the chunks at the gathered rows.

  The loop's invariant before trip k: gather a is in flight for chunk 2k (on every trip; at the end its buffers are at
  rest), its delivery the chunk's rows of the result; the chunks below 2k are written; every other semaphore is at zero.
-/
import proofs.«214605_g64536178589837_cont_9to1_m_912_2_alg».proof.Proof.KI.ScVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

open Idealize.ShloMosaic.Tactic
open Idealize.ShloMosaic.SparseCore (gatherPayload rows)

variable (m : (ℓ : Loc nD τ sig) → Buf (Elt F) ℓ) (I : (d : Dev nD) → Buf (Elt F) (idxLoc d))
variable [FloatOps F]

section Tile

variable (d : Dev nD) (L : grid0.Coords)

abbrev tblS : Finset S100000x128.Idx := (tblAll).view.set

/-- Gather a in flight for the even chunk of trip `k`: at its wait the row buffer holds that chunk's rows. -/
def flightA (qa : PosShare TreeShare) (k : ℕ) : sProp 𝕄 :=
  iprop(∃ (fr : Buf (Elt F) ((raV).view.loc (V d (cV L) (jV L)))) (fi : Buf (Elt F) ((iaV).view.loc (V d (cV L) (jV L)))), ⌜RowsOK m I d L (2 * k) fr⌝
    ∗ Transfers.Flight countersEmb (V d (cV L) (jV L)) (SemLoc.dma cc0_scratch4.sem) default 524288
        iprop((((raV).view.loc (V d (cV L) (jV L)) ↦{fullShare} fr) ∗ ((iaV).view.loc (V d (cV L) (jV L)) ↦{fullShare} fi))
          ∗ ((tblV).view.loc (V d (cV L) (jV L)) ↦[tblS]{qa} m (tblLoc d)))
    ∗ ((tblV).view.loc (V d (cV L) (jV L)) ↦[Finset.univ \ tblS]{qa} m (tblLoc d)))

/-- No gather a in flight: its buffers and its share of the table at rest. -/
def heldA (qa : PosShare TreeShare) : sProp 𝕄 :=
  iprop((∃ fr, (raV).view.loc (V d (cV L) (jV L)) ↦{fullShare} fr) ∗ (∃ fi, (iaV).view.loc (V d (cV L) (jV L)) ↦{fullShare} fi)
    ∗ ((tblV).view.loc (V d (cV L) (jV L)) ↦{qa} m (tblLoc d)) ∗ semVal (semOf d L cc0_scratch4) 0)

abbrev outTodo (j : Fin k0_t1_loop.trips) : sProp 𝕄 :=
  iprop((∃ f, outLoc d ↦[setE L j]{fullShare} f) ∗ (∃ f, outLoc d ↦[setO L j]{fullShare} f))
abbrev outDone (j : Fin k0_t1_loop.trips) : sProp 𝕄 :=
  iprop((outLoc d ↦[setE L j]{fullShare} res m I d) ∗ (outLoc d ↦[setO L j]{fullShare} res m I d))

/-- Output chunks below trip `k` are written, the others are not yet. -/
def outJ (k : ℕ) (j : Fin k0_t1_loop.trips) : sProp 𝕄 := if j.val < k then outDone m I d L j else outTodo (F := F) d L j

def inv (qa qb qi : PosShare TreeShare) (O : CellTallies nD τ sig (HIx 1)) (W : Waits sig (HIx 1)) (k : ℕ) (_ : PUnit) : sProp 𝕄 :=
  iprop((Transfers.MayWaits (V d (cV L) (jV L)) (none : HIx 1) O : sProp 𝕄)
    ∗ (if k < 75 then flightA m I d L qa k else heldA m d L qa)
    ∗ ((tblV).view.loc (V d (cV L) (jV L)) ↦{qb} m (tblLoc d))
    ∗ ((idxV).view.loc (V d (cV L) (jV L)) ↦{qi} I d)
    ∗ (∃ f, (ibV).view.loc (V d (cV L) (jV L)) ↦{fullShare} f) ∗ (∃ f, (rbV).view.loc (V d (cV L) (jV L)) ↦{fullShare} f)
    ∗ semVal (semOf d L cc0_scratch5) 0
    ∗ semVal (semOf d L cc0_scoped1) 0 ∗ semVal (semOf d L cc0_scoped2) 0
    ∗ semVal (semOf d L cc0_scoped3) 0 ∗ semVal (semOf d L cc0_scoped4) 0
    ∗ (bigSep Finset.univ fun j : Fin k0_t1_loop.trips => outJ m I d L k j)
    ∗ ∃ W', ⌜∀ p ∈ W', p ∈ W ∨ p.2 = none⌝ ∗ owes (V d (cV L) (jV L)) O W')

omit [FloatOps F] in
theorem outJ_rest (k : Fin k0_t1_loop.trips) :
    (bigSep (Finset.univ.erase k) fun j : Fin k0_t1_loop.trips => outJ m I d L k.val j)
      = bigSep (Finset.univ.erase k) fun j : Fin k0_t1_loop.trips => outJ m I d L (k.val + 1) j := by
  refine bigSep_congr fun j hj => ?_
  have hne : j.val ≠ k.val := fun e => (Finset.mem_erase.mp hj).1 (Fin.ext e)
  unfold outJ
  by_cases h : j.val < k.val
  · rw [if_pos h, if_pos (by omega)]
  · rw [if_neg h, if_neg (by omega)]

/-- The waits a trip records are all at the index the launch does not use. -/
theorem waits_ok {W W' : Waits sig (HIx 1)} (hW' : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact hW' p hp

set_option maxHeartbeats 1000000 in
/-- The task, from its shares, its chunks, its scratch and its semaphores at zero. -/
theorem tile_core (qa qb qi : PosShare TreeShare) (O : CellTallies nD τ sig (HIx 1)) (W : Waits sig (HIx 1))
    (fia fib : Buf (Elt F) ((iaV).view.loc (V d (cV L) (jV L)))) (fra frb : Buf (Elt F) ((raV).view.loc (V d (cV L) (jV L))))
    (hI : ∀ r, ((I d) r).toNat < 100000) :
    iprop((Transfers.MayWaits (V d (cV L) (jV L)) (none : HIx 1) O : sProp 𝕄)
        ∗ ((tblV).view.loc (V d (cV L) (jV L)) ↦{qa} m (tblLoc d)) ∗ ((tblV).view.loc (V d (cV L) (jV L)) ↦{qb} m (tblLoc d))
        ∗ ((idxV).view.loc (V d (cV L) (jV L)) ↦{qi} I d)
        ∗ (bigSep Finset.univ fun k : Fin k0_t1_loop.trips => outTodo (F := F) d L k)
        ∗ ((iaV).view.loc (V d (cV L) (jV L)) ↦{fullShare} fia) ∗ ((ibV).view.loc (V d (cV L) (jV L)) ↦{fullShare} fib)
        ∗ ((raV).view.loc (V d (cV L) (jV L)) ↦{fullShare} fra) ∗ ((rbV).view.loc (V d (cV L) (jV L)) ↦{fullShare} frb)
        ∗ semVal (semOf d L cc0_scratch4) 0 ∗ semVal (semOf d L cc0_scratch5) 0
        ∗ semVal (semOf d L cc0_scoped0) 0 ∗ semVal (semOf d L cc0_scoped1) 0 ∗ semVal (semOf d L cc0_scoped2) 0
        ∗ semVal (semOf d L cc0_scoped3) 0 ∗ semVal (semOf d L cc0_scoped4) 0
        ∗ owes (V d (cV L) (jV L)) O W)
      ⊢ wp frame (wpE (defs₀ (F := F)) 𝒱₀ (V d (cV L) (jV L)) none) Set.univ
          (cc0_gather_k L tblV (Memref.isWhole_whole _) idxV (Memref.isWhole_whole _) outV (Memref.isWhole_whole _)
            iaV (Memref.isWhole_whole _) ibV (Memref.isWhole_whole _) raV (Memref.isWhole_whole _) rbV (Memref.isWhole_whole _)
            cc0_scratch4 cc0_scratch5 cc0_scoped0 cc0_scoped1 cc0_scoped2 cc0_scoped3 cc0_scoped4)
          fun _ => iprop(((tblV).view.loc (V d (cV L) (jV L)) ↦{qa} m (tblLoc d)) ∗ ((tblV).view.loc (V d (cV L) (jV L)) ↦{qb} m (tblLoc d))
            ∗ ((idxV).view.loc (V d (cV L) (jV L)) ↦{qi} I d)
            ∗ (bigSep Finset.univ fun k : Fin k0_t1_loop.trips => outDone m I d L k)
            ∗ (∃ f, (iaV).view.loc (V d (cV L) (jV L)) ↦{fullShare} f) ∗ (∃ f, (ibV).view.loc (V d (cV L) (jV L)) ↦{fullShare} f)
            ∗ (∃ f, (raV).view.loc (V d (cV L) (jV L)) ↦{fullShare} f) ∗ (∃ f, (rbV).view.loc (V d (cV L) (jV L)) ↦{fullShare} f)
            ∗ semVal (semOf d L cc0_scratch4) 0 ∗ semVal (semOf d L cc0_scratch5) 0
            ∗ semVal (semOf d L cc0_scoped0) 0 ∗ semVal (semOf d L cc0_scoped1) 0 ∗ semVal (semOf d L cc0_scoped2) 0
            ∗ semVal (semOf d L cc0_scoped3) 0 ∗ semVal (semOf d L cc0_scoped4) 0
            ∗ ∃ W', ⌜∀ p ∈ W', p ∈ W ∨ p.2 = none⌝ ∗ owes (V d (cV L) (jV L)) O W') := by
  iintro ⟨#Hmw, Hta, Htb, Hidx, Hout, Hia, Hib, Hra, Hrb, Hs4, Hs5, Hc0, Hc1, Hc2, Hc3, Hc4, HO⟩
  sl_unfold [cc0_gather_k]
  have hinA := idx_inb_a (F := F) I d L hI
  have hinB := idx_inb_b (F := F) I d L hI
  sl_exec
  sl_for (inv m I d L qa qb qi O W) $$ [Hmw Hta Htb Hidx Hout Hib Hrb Hs4 Hs5 Hc1 Hc2 Hc3 Hc4 HO]
  case region =>
    intro k _
    unfold inv
    rw [if_pos (show k.val < 75 from Nat.lt_of_lt_of_le k.isLt k0_t1_abs.2.1)]
    unfold flightA
    iintro ⟨#Hmw, ⟨%fr, %fi, %hfr, Hfl, Hta⟩, Htb, Hidx, ⟨%fib, Hib⟩, ⟨%frb, Hrb⟩, Hs5, Hc1, Hc2, Hc3, Hc4, Hout, %W', %hW', HO⟩
    ihave Hout' := (Transfers.bigSep_univ_out k (fun j : Fin k0_t1_loop.trips => outJ m I d L k.val j)) $$ Hout
    icases Hout' with ⟨Hk, Hrest⟩
    ihave Hk' := (Entails.of_eq (show outJ m I d L k.val k = outTodo (F := F) d L k from if_neg (Nat.lt_irrefl _))) $$ Hk
    icases Hk' with ⟨⟨%fE, HE0⟩, ⟨%fO, HOd0⟩⟩
    ihave HE := (Entails.of_eq (pts_outE (F := F) d L k fE).symm) $$ HE0
    ihave HOd := (Entails.of_eq (pts_outO (F := F) d L k fO).symm) $$ HOd0
    ihave Hrest' := (Entails.of_eq (outJ_rest (F := F) m I d L k)) $$ Hrest
    have hrb := rowsOK_read_rb m I d L _ _ (rowsOK_rb m I d L (2 * k.val + 1) frb _
      (gather_rows_b m I d L hI (2 * k.val + 1) (k0_off2 L k) (k0_off2_inb L k) (off2_row L k) fib rfl (hinB _ _ _)))
    have hra := rowsOK_read_ra m I d L _ fr hfr
    by_cases k0_h1 : k0_cond1 k = 1#1
    · sl_exec
      sl_step
      rw [if_pos ((cond1_iff k).mp k0_h1)]
      ihave HE' := (Entails.of_eq (pointsTo_congr (copy_rows m I d L (k0_off3 L k) (k0_off3_inb L k) (2 * k.val) (off3_row L k) (off3_col L k) fE _ hra))) $$ HE
      ihave HOd' := (Entails.of_eq (pointsTo_congr (copy_rows m I d L (k0_off5 L k) (k0_off5_inb L k) (2 * k.val + 1) (off5_row L k) (off5_col L k) fO _ hrb))) $$ HOd
      isplitr; · iexact Hmw
      isplitl [Hfl Hta]
      · iexists _, _
        isplitr
        · ipureintro
          exact rowsOK_ra m I d L _ fr _ (gather_rows_a m I d L hI (2 * (k.val + 1)) (k0_off4 L k) (k0_off4_inb L k k0_h1) (off4_row L k) fi rfl (hinA _ _ _))
        isplitl [Hfl]; · iexact Hfl
        iexact Hta
      isplitl [Htb]; · iexact Htb
      isplitl [Hidx]; · iexact Hidx
      isplitl [Hib]; · iexists _; iexact Hib
      isplitl [Hrb]; · iexists _; iexact Hrb
      isplitl [Hs5]; · iexact Hs5
      isplitl [Hc1]; · iexact Hc1
      isplitl [Hc2]; · iexact Hc2
      isplitl [Hc3]; · iexact Hc3
      isplitl [Hc4]; · iexact Hc4
      isplitl [HE' HOd' Hrest']
      · iapply (Transfers.bigSep_univ_in k (fun j : Fin k0_t1_loop.trips => outJ m I d L (k.val + 1) j))
        isplitl [HE' HOd']
        · iapply (Entails.of_eq (show outJ m I d L (k.val + 1) k = outDone m I d L k from if_pos (Nat.lt_succ_self _)).symm)
          isplitl [HE']; · iexact HE'
          iexact HOd'
        · iexact Hrest'
      iexists _; isplitr
      rotate_left
      · iexact HO
      · ipureintro
        exact waits_ok (waits_ok (waits_ok (waits_ok (waits_ok (waits_ok hW' _) _) _) _) _) _
    · sl_exec
      sl_step
      rw [if_neg (fun h => k0_h1 ((cond1_iff k).mpr h))]
      unfold heldA
      ihave HE' := (Entails.of_eq (pointsTo_congr (copy_rows m I d L (k0_off3 L k) (k0_off3_inb L k) (2 * k.val) (off3_row L k) (off3_col L k) fE _ hra))) $$ HE
      ihave HOd' := (Entails.of_eq (pointsTo_congr (copy_rows m I d L (k0_off5 L k) (k0_off5_inb L k) (2 * k.val + 1) (off5_row L k) (off5_col L k) fO _ hrb))) $$ HOd
      isplitr; · iexact Hmw
      isplitl [Hfl_dst Hfl_dst_and Hta Hfl]
      · isplitl [Hfl_dst]; · iexists _; iexact Hfl_dst
        isplitl [Hfl_dst_and]; · iexists _; iexact Hfl_dst_and
        isplitl [Hta]; · iexact Hta
        iexact Hfl
      isplitl [Htb]; · iexact Htb
      isplitl [Hidx]; · iexact Hidx
      isplitl [Hib]; · iexists _; iexact Hib
      isplitl [Hrb]; · iexists _; iexact Hrb
      isplitl [Hs5]; · iexact Hs5
      isplitl [Hc1]; · iexact Hc1
      isplitl [Hc2]; · iexact Hc2
      isplitl [Hc3]; · iexact Hc3
      isplitl [Hc4]; · iexact Hc4
      isplitl [HE' HOd' Hrest']
      · iapply (Transfers.bigSep_univ_in k (fun j : Fin k0_t1_loop.trips => outJ m I d L (k.val + 1) j))
        isplitl [HE' HOd']
        · iapply (Entails.of_eq (show outJ m I d L (k.val + 1) k = outDone m I d L k from if_pos (Nat.lt_succ_self _)).symm)
          isplitl [HE']; · iexact HE'
          iexact HOd'
        · iexact Hrest'
      iexists _; isplitr
      rotate_left
      · iexact HO
      · ipureintro
        exact waits_ok (waits_ok (waits_ok (waits_ok (waits_ok hW' _) _) _) _) _
  · unfold inv
    rw [if_pos (by decide : (0 : ℕ) < 75)]
    unfold flightA
    isplitr; · iexact Hmw
    isplitl [Hs4 Hta]
    · iexists _, _
      isplitr
      · ipureintro
        exact rowsOK_ra m I d L _ fra _ (gather_rows_a m I d L hI (2 * 0) (k0_off1 L) (k0_off1_inb L) (off1_row L) fia rfl (hinA _ _ _))
      isplitl [Hs4]; · iexact Hs4
      iexact Hta
    isplitl [Htb]; · iexact Htb
    isplitl [Hidx]; · iexact Hidx
    isplitl [Hib]; · iexists _; iexact Hib
    isplitl [Hrb]; · iexists _; iexact Hrb
    isplitl [Hs5]; · iexact Hs5
    isplitl [Hc1]; · iexact Hc1
    isplitl [Hc2]; · iexact Hc2
    isplitl [Hc3]; · iexact Hc3
    isplitl [Hc4]; · iexact Hc4
    isplitl [Hout]
    · iapply (Entails.of_eq (bigSep_congr (s := Finset.univ) fun (j : Fin k0_t1_loop.trips) _ =>
        (show outJ m I d L 0 j = outTodo (F := F) d L j from if_neg (Nat.not_lt_zero _))))
      iexact Hout
    iexists _; isplitr
    rotate_left
    · iexact HO
    · ipureintro
      exact waits_ok (fun p hp => Or.inl hp) _
  iintro %_ HI
  unfold inv
  rw [if_neg (show ¬ k0_t1_loop.trips < 75 from by rw [trips_eq]; exact Nat.lt_irrefl _)]
  unfold heldA
  icases HI with ⟨-, ⟨⟨%fr, Hra⟩, ⟨%fi, Hia⟩, Hta, Hs4⟩, Htb, Hidx, ⟨%fb, Hib⟩, ⟨%frb', Hrb⟩, Hs5, Hc1, Hc2, Hc3, Hc4, Hout, %W', %hW', HO⟩
  sl_exec
  sl_step
  isplitl [Hta]; · iexact Hta
  isplitl [Htb]; · iexact Htb
  isplitl [Hidx]; · iexact Hidx
  isplitl [Hout]
  · iapply (Entails.of_eq (bigSep_congr (s := Finset.univ) fun (j : Fin k0_t1_loop.trips) _ =>
      (show outJ m I d L k0_t1_loop.trips j = outDone m I d L j from if_pos j.isLt)).symm)
    iexact Hout
  isplitl [Hia]; · iexists _; iexact Hia
  isplitl [Hib]; · iexists _; iexact Hib
  isplitl [Hra]; · iexists _; iexact Hra
  isplitl [Hrb]; · iexists _; iexact Hrb
  isplitl [Hs4]; · iexact Hs4
  isplitl [Hs5]; · iexact Hs5
  isplitl [Hc0]; · iexact Hc0
  isplitl [Hc1]; · iexact Hc1
  isplitl [Hc2]; · iexact Hc2
  isplitl [Hc3]; · iexact Hc3
  isplitl [Hc4]; · iexact Hc4
  iexists _; isplitr
  · ipureintro; exact hW'
  · iexact HO

omit [FloatOps F] in
/-- The four scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f)
          ∗ bigSep (((((ownRefs (τ := τ) (Proc.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩)]

omit [FloatOps F] in
/-- The task's seven DMA semaphores are among the tile's own scoped cells: they are them and the rest. -/
theorem ownSems0_V :
    (ownSems0 (V d (cV L) (jV L)) : sProp 𝕄)
      = iprop(semVal (semOf d L cc0_scratch4) 0 ∗ semVal (semOf d L cc0_scratch5) 0 ∗ semVal (semOf d L cc0_scoped0) 0 ∗ semVal (semOf d L cc0_scoped1) 0 ∗ semVal (semOf d L cc0_scoped2) 0 ∗ semVal (semOf d L cc0_scoped3) 0 ∗ semVal (semOf d L cc0_scoped4) 0
          ∗ bigSep ((((((((ownCells (V d (cV L) (jV L))).erase (semOf d L cc0_scratch4)).erase (semOf d L cc0_scratch5)).erase (semOf d L cc0_scoped0)).erase (semOf d L cc0_scoped1)).erase (semOf d L cc0_scoped2)).erase (semOf d L cc0_scoped3)).erase (semOf d L cc0_scoped4)) fun g => semVal g 0) := by
  unfold SparseCore.Cfg.ownSems0
  rw [SparseCore.bigSep_erase' ((mem_ownCells (g := semOf d L cc0_scratch4)).mpr ⟨rfl, by show (SemLoc.dma cc0_scratch4.sem : SemLoc sig).isScoped .scVector = true; decide⟩),
    SparseCore.bigSep_erase' (Finset.mem_erase.mpr ⟨fun e => absurd (Prod.mk.inj e).2 (show (SemLoc.dma cc0_scratch5.sem : SemLoc sig) ≠ SemLoc.dma cc0_scratch4.sem by decide), (mem_ownCells (g := semOf d L cc0_scratch5)).mpr ⟨rfl, by show (SemLoc.dma cc0_scratch5.sem : SemLoc sig).isScoped .scVector = true; decide⟩⟩),
    SparseCore.bigSep_erase' (Finset.mem_erase.mpr ⟨fun e => absurd (Prod.mk.inj e).2 (show (SemLoc.dma cc0_scoped0.sem : SemLoc sig) ≠ SemLoc.dma cc0_scratch5.sem by decide), Finset.mem_erase.mpr ⟨fun e => absurd (Prod.mk.inj e).2 (show (SemLoc.dma cc0_scoped0.sem : SemLoc sig) ≠ SemLoc.dma cc0_scratch4.sem by decide), (mem_ownCells (g := semOf d L cc0_scoped0)).mpr ⟨rfl, by show (SemLoc.dma cc0_scoped0.sem : SemLoc sig).isScoped .scVector = true; decide⟩⟩⟩),
    SparseCore.bigSep_erase' (Finset.mem_erase.mpr ⟨fun e => absurd (Prod.mk.inj e).2 (show (SemLoc.dma cc0_scoped1.sem : SemLoc sig) ≠ SemLoc.dma cc0_scoped0.sem by decide), Finset.mem_erase.mpr ⟨fun e => absurd (Prod.mk.inj e).2 (show (SemLoc.dma cc0_scoped1.sem : SemLoc sig) ≠ SemLoc.dma cc0_scratch5.sem by decide), Finset.mem_erase.mpr ⟨fun e => absurd (Prod.mk.inj e).2 (show (SemLoc.dma cc0_scoped1.sem : SemLoc sig) ≠ SemLoc.dma cc0_scratch4.sem by decide), (mem_ownCells (g := semOf d L cc0_scoped1)).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (show (SemLoc.dma cc0_scoped2.sem : SemLoc sig) ≠ SemLoc.dma cc0_scoped1.sem by decide), Finset.mem_erase.mpr ⟨fun e => absurd (Prod.mk.inj e).2 (show (SemLoc.dma cc0_scoped2.sem : SemLoc sig) ≠ SemLoc.dma cc0_scoped0.sem by decide), Finset.mem_erase.mpr ⟨fun e => absurd (Prod.mk.inj e).2 (show (SemLoc.dma cc0_scoped2.sem : SemLoc sig) ≠ SemLoc.dma cc0_scratch5.sem by decide), Finset.mem_erase.mpr ⟨fun e => absurd (Prod.mk.inj e).2 (show (SemLoc.dma cc0_scoped2.sem : SemLoc sig) ≠ SemLoc.dma cc0_scratch4.sem by decide), (mem_ownCells (g := semOf d L cc0_scoped2)).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (show (SemLoc.dma cc0_scoped3.sem : SemLoc sig) ≠ SemLoc.dma cc0_scoped2.sem by decide), Finset.mem_erase.mpr ⟨fun e => absurd (Prod.mk.inj e).2 (show (SemLoc.dma cc0_scoped3.sem : SemLoc sig) ≠ SemLoc.dma cc0_scoped1.sem by decide), Finset.mem_erase.mpr ⟨fun e => absurd (Prod.mk.inj e).2 (show (SemLoc.dma cc0_scoped3.sem : SemLoc sig) ≠ SemLoc.dma cc0_scoped0.sem by decide), Finset.mem_erase.mpr ⟨fun e => absurd (Prod.mk.inj e).2 (show (SemLoc.dma cc0_scoped3.sem : SemLoc sig) ≠ SemLoc.dma cc0_scratch5.sem by decide), Finset.mem_erase.mpr ⟨fun e => absurd (Prod.mk.inj e).2 (show (SemLoc.dma cc0_scoped3.sem : SemLoc sig) ≠ SemLoc.dma cc0_scratch4.sem by decide), (mem_ownCells (g := semOf d L cc0_scoped3)).mpr ⟨rfl, by show (SemLoc.dma cc0_scoped3.sem : SemLoc sig).isScoped .scVector = true; decide⟩⟩⟩⟩⟩⟩),
    SparseCore.bigSep_erase' (Finset.mem_erase.mpr ⟨fun e => absurd (Prod.mk.inj e).2 (show (SemLoc.dma cc0_scoped4.sem : SemLoc sig) ≠ SemLoc.dma cc0_scoped3.sem by decide), Finset.mem_erase.mpr ⟨fun e => absurd (Prod.mk.inj e).2 (show (SemLoc.dma cc0_scoped4.sem : SemLoc sig) ≠ SemLoc.dma cc0_scoped2.sem by decide), Finset.mem_erase.mpr ⟨fun e => absurd (Prod.mk.inj e).2 (show (SemLoc.dma cc0_scoped4.sem : SemLoc sig) ≠ SemLoc.dma cc0_scoped1.sem by decide), Finset.mem_erase.mpr ⟨fun e => absurd (Prod.mk.inj e).2 (show (SemLoc.dma cc0_scoped4.sem : SemLoc sig) ≠ SemLoc.dma cc0_scoped0.sem by decide), Finset.mem_erase.mpr ⟨fun e => absurd (Prod.mk.inj e).2 (show (SemLoc.dma cc0_scoped4.sem : SemLoc sig) ≠ SemLoc.dma cc0_scratch5.sem by decide), Finset.mem_erase.mpr ⟨fun e => absurd (Prod.mk.inj e).2 (show (SemLoc.dma cc0_scoped4.sem : SemLoc sig) ≠ SemLoc.dma cc0_scratch4.sem by decide), (mem_ownCells (g := semOf d L cc0_scoped4)).mpr ⟨rfl, by show (SemLoc.dma cc0_scoped4.sem : SemLoc sig).isScoped .scVector = true; decide⟩⟩⟩⟩⟩⟩⟩)]

end Tile

/-! ## The launch theorem's obligation -/

section Obl

theorem defs₀_vector (c : Fin τ.nSC) (s : Fin τ.nSub) :
    defs₀ (F := F) (.scVector c s) 0 ()
      = SparseCore.onTile hcore0 hsub0 (fun c s => cc0_gather_k (coordsV c s)
          tblV (Memref.isWhole_whole _) idxV (Memref.isWhole_whole _) outV (Memref.isWhole_whole _)
          iaV (Memref.isWhole_whole _) ibV (Memref.isWhole_whole _) raV (Memref.isWhole_whole _) rbV (Memref.isWhole_whole _)
          cc0_scratch4 cc0_scratch5 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (d : Dev nD) (c : Fin (grid0.bound 0)) (i : Fin (grid0.bound 1))

/-- The task on tile `(c, i)` of device `d`, in the launch theorem's terms: its operands and scoped storage in, its
    results and scoped storage out. -/
theorem tile_body (hF : (K (F := F)).Facts) (hI : ∀ d r, ((I d) r).toNat < 100000)
    (O : CellTallies nD τ sig (HIx 1)) (W : Waits sig (HIx 1)) (hO : ∀ g, O g none = 0) :
    iprop(levAts (K (F := F)).L (K (F := F)).lev ∗ emp ∗ goRes m I d c i
        ∗ scopedBufs (V d (cV (coordsV c i)) (jV (coordsV c i))) ∗ scopedSems0 (V d (cV (coordsV c i)) (jV (coordsV c i)))
        ∗ owes (V d (cV (coordsV c i)) (jV (coordsV c i))) O W)
      ⊢ wp frame (wpE (defs₀ (F := F)) 𝒱₀ (V d (cV (coordsV c i)) (jV (coordsV c i))) none) Set.univ
          (cc0_gather_k (coordsV c i) tblV (Memref.isWhole_whole _) idxV (Memref.isWhole_whole _) outV (Memref.isWhole_whole _)
            iaV (Memref.isWhole_whole _) ibV (Memref.isWhole_whole _) raV (Memref.isWhole_whole _) rbV (Memref.isWhole_whole _)
            cc0_scratch4 cc0_scratch5 cc0_scoped0 cc0_scoped1 cc0_scoped2 cc0_scoped3 cc0_scoped4)
          fun _ => iprop(tdRes m I d c i ∗ scopedBufs (V d (cV (coordsV c i)) (jV (coordsV c i)))
            ∗ scopedSems0 (V d (cV (coordsV c i)) (jV (coordsV c i)))
            ∗ ∃ W', ⌜∀ p ∈ W', p ∈ W ∨ p.2 = none⌝ ∗ owes (V d (cV (coordsV c i)) (jV (coordsV c i))) O W') := by
  rw [(K (F := F)).scopedBufs_V hF d (cV (coordsV c i)) (jV (coordsV c i)),
    SparseCore.Cfg.scopedSems0_V (Val := Elt F) d (cV (coordsV c i)) (jV (coordsV c i)), ownSems0_V, ownBufs_V]
  unfold goRes tdRes tileShares
  iintro ⟨#Hlv, -, ⟨⟨Ht, Hi⟩, Hout⟩, ⟨⟨%f0, H0⟩, ⟨%f1, H1⟩, ⟨%f2, H2⟩, ⟨%f3, H3⟩, Hbufs⟩, ⟨S4, S5, C0, C1, C2, C3, C4, Hsems⟩, HO⟩
  ihave Hmw := ((K (F := F)).mayWaits_none (thr := V d (cV (coordsV c i)) (jV (coordsV c i))) hO) $$ Hlv
  ihave Ht2 := (pointsTo_share (PosShare.mem_left_op_right (shareTok fullShare 32 (tileNo c i)))).1 $$ Ht
  icases Ht2 with ⟨Hta, Htb⟩
  iapply (wp_wand _ _ _) $$ [Hmw Hta Htb Hi Hout H0 H1 H2 H3 S4 S5 C0 C1 C2 C3 C4 HO]
  · iapply (tile_core m I d (coordsV c i) _ _ _ O W f0 f1 f2 f3 (hI d))
    isplitl [Hmw]; · iexact Hmw
    isplitl [Hta]; · iexact Hta
    isplitl [Htb]; · iexact Htb
    isplitl [Hi]; · iexact Hi
    isplitl [Hout]; · iexact Hout
    isplitl [H0]; · iexact H0
    isplitl [H1]; · iexact H1
    isplitl [H2]; · iexact H2
    isplitl [H3]; · iexact H3
    isplitl [S4]; · iexact S4
    isplitl [S5]; · iexact S5
    isplitl [C0]; · iexact C0
    isplitl [C1]; · iexact C1
    isplitl [C2]; · iexact C2
    isplitl [C3]; · iexact C3
    isplitl [C4]; · iexact C4
    iexact HO
  iintro %_ ⟨Hta, Htb, Hi, Hout, ⟨%g0, H0⟩, ⟨%g1, H1⟩, ⟨%g2, H2⟩, ⟨%g3, H3⟩, S4, S5, C0, C1, C2, C3, C4, %W', %hW', HO⟩
  ihave Ht := (pointsTo_share (PosShare.mem_left_op_right (shareTok fullShare 32 (tileNo c i)))).2 $$ [Hta Htb]
  · isplitl [Hta]; · iexact Hta
    iexact Htb
  isplitl [Ht Hi Hout]
  · isplitl [Ht Hi]
    · isplitl [Ht]; · iexact Ht
      iexact Hi
    iexact Hout
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [S4 S5 C0 C1 C2 C3 C4 Hsems]
  · isplitl [S4]; · iexact S4
    isplitl [S5]; · iexact S5
    isplitl [C0]; · iexact C0
    isplitl [C1]; · iexact C1
    isplitl [C2]; · iexact C2
    isplitl [C3]; · iexact C3
    isplitl [C4]; · iexact C4
    iexact Hsems
  iexists W'; isplitr
  · ipureintro; exact hW'
  · iexact HO

theorem tileObl (hI : ∀ d r, ((I d) r).toNat < 100000) : (K (F := F)).TileObl (D (F := F)) 𝒱 (P m I) v₀ 0 := by
  intro d c i O W hO _ _
  -- this kernel owes nothing for a protocol of its own
  simp only [show (P m I).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m I d ⟨_, hc.1⟩ ⟨_, hc.2⟩ facts hI O W hO).trans (wp_mono frame _ _ fun _ => obl_post)

end Obl

end Cert.Proof.KI
end
-- ==== Proof.KI.ScSplit.lean ====
/-
  How the call's operands split among the tiles and how their results join: the table and the index list as read
  shares, the gathered array as the tiles' chunks.

  Tile (c, i), trip k, half b holds rows [38400 i + 19200 c + 256 k + 128 b, + 128) of the gathered array: the 4800 chunks
  are pairwise disjoint and cover its 614400 rows.
-/
import proofs.«214605_g64536178589837_cont_9to1_m_912_2_alg».proof.Proof.KI.ScVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

open Idealize.ShloMosaic.Transfers (pointsTo_toks)

variable (m : (ℓ : Loc nD τ sig) → Buf (Elt F) ℓ) (I : (d : Dev nD) → Buf (Elt F) (idxLoc d))

/-! ## The chunks -/

theorem baseRow_coordsV (c : Fin (grid0.bound 0)) (i : Fin (grid0.bound 1)) : baseRow (coordsV c i) = 38400 * i.val + 19200 * c.val := rfl

/-- The gathered array's rows cut into 4800 chunks of 128. -/
theorem hdiv : 4800 ∣ S614400x128.size 0 := ⟨128, by decide⟩
theorem hthick : S614400x128.size 0 / 4800 = 128 := by decide

abbrev ChunkIx : Type := Fin (grid0.bound 0) × Fin (grid0.bound 1) × Fin k0_t1_loop.trips × Fin 2

/-- Chunk `(c, i, k, b)` — the even (`b = 0`) or odd chunk of trip `k` of tile `(c, i)` — is chunk number 300 i + 150 c + 2 k + b. -/
def chunkNo (t : ChunkIx) : Fin 4800 := ⟨300 * t.2.1.val + 150 * t.1.val + 2 * t.2.2.1.val + t.2.2.2.val, by
  have hc : t.1.val < 2 := t.1.isLt
  have hi : t.2.1.val < 16 := t.2.1.isLt
  have hk : t.2.2.1.val < 75 := Nat.lt_of_lt_of_le t.2.2.1.isLt k0_t1_abs.2.1
  have hb : t.2.2.2.val < 2 := t.2.2.2.isLt
  omega⟩

def chunkEquiv : ChunkIx ≃ Fin 4800 where
  toFun := chunkNo
  invFun n := (⟨n.val % 300 / 150, show _ < 2 by omega⟩, ⟨n.val / 300, show _ < 16 by omega⟩,
    ⟨n.val % 150 / 2, lt_of_lt_of_eq (show _ < 75 by omega) trips_eq.symm⟩, ⟨n.val % 2, by omega⟩)
  left_inv t := by
    obtain ⟨c, i, k, b⟩ := t
    have hc : c.val < 2 := c.isLt
    have hi : i.val < 16 := i.isLt
    have hk : k.val < 75 := Nat.lt_of_lt_of_le k.isLt k0_t1_abs.2.1
    have hb : b.val < 2 := b.isLt
    refine Prod.ext (Fin.ext ?_) (Prod.ext (Fin.ext ?_) (Prod.ext (Fin.ext ?_) (Fin.ext ?_)))
    · show (300 * i.val + 150 * c.val + 2 * k.val + b.val) % 300 / 150 = c.val; omega
    · show (300 * i.val + 150 * c.val + 2 * k.val + b.val) / 300 = i.val; omega
    · show (300 * i.val + 150 * c.val + 2 * k.val + b.val) % 150 / 2 = k.val; omega
    · show (300 * i.val + 150 * c.val + 2 * k.val + b.val) % 2 = b.val; omega
  right_inv n := by
    apply Fin.ext
    show 300 * (n.val / 300) + 150 * (n.val % 300 / 150) + 2 * (n.val % 150 / 2) + n.val % 2 = n.val
    omega

theorem setE_part (c : Fin (grid0.bound 0)) (i : Fin (grid0.bound 1)) (k : Fin k0_t1_loop.trips) :
    setE (coordsV c i) k = (Rect.part (s := S614400x128) (a₀ := 0) hdiv (chunkNo (c, i, k, 0))).set := by
  show ((View.whole main_v2_scv).slice (Rect.unit (s := S614400x128) (k0_off3 (coordsV c i) k) S128x128.size (k0_off3_inb (coordsV c i) k))).set = _
  rw [View.set_slice_whole]
  have e0 := off3_row (coordsV c i) k
  have e1 := off3_col (coordsV c i) k
  rw [baseRow_coordsV] at e0
  refine congrArg (fun r : Rect S614400x128 => r.set) ?_
  unfold Rect.part Rect.block
  congr 1 <;> funext a
  · match a with
    | 0 => rw [e0]; show _ = (300 * i.val + 150 * c.val + 2 * k.val + 0) * (S614400x128.size 0 / 4800); rw [hthick]; omega
    | 1 => rw [e1]; simp [Shape.partIx, Shape.partSize]
  · match a with
    | 0 => show 128 = S614400x128.size 0 / 4800; rw [hthick]
    | 1 => simp [Shape.partSize]

theorem setO_part (c : Fin (grid0.bound 0)) (i : Fin (grid0.bound 1)) (k : Fin k0_t1_loop.trips) :
    setO (coordsV c i) k = (Rect.part (s := S614400x128) (a₀ := 0) hdiv (chunkNo (c, i, k, 1))).set := by
  show ((View.whole main_v2_scv).slice (Rect.unit (s := S614400x128) (k0_off5 (coordsV c i) k) S128x128.size (k0_off5_inb (coordsV c i) k))).set = _
  rw [View.set_slice_whole]
  have e0 := off5_row (coordsV c i) k
  have e1 := off5_col (coordsV c i) k
  rw [baseRow_coordsV] at e0
  refine congrArg (fun r : Rect S614400x128 => r.set) ?_
  unfold Rect.part Rect.block
  congr 1 <;> funext a
  · match a with
    | 0 => rw [e0]; show _ = (300 * i.val + 150 * c.val + 2 * k.val + 1) * (S614400x128.size 0 / 4800); rw [hthick]; omega
    | 1 => rw [e1]; simp [Shape.partIx, Shape.partSize]
  · match a with
    | 0 => show 128 = S614400x128.size 0 / 4800; rw [hthick]
    | 1 => simp [Shape.partSize]

section Split

variable (d : Dev nD)

/-- The gathered array held whole is its 4800 chunks, tile by tile and trip by trip. -/
theorem out_chunks (f : Buf (Elt F) (outLoc d)) :
    (outLoc d ↦{fullShare} f : sProp 𝕄)
      = bigSep Finset.univ fun c : Fin (grid0.bound 0) => bigSep Finset.univ fun i : Fin (grid0.bound 1) =>
          bigSep Finset.univ fun k : Fin k0_t1_loop.trips =>
            iprop((outLoc d ↦[setE (coordsV c i) k]{fullShare} f) ∗ (outLoc d ↦[setO (coordsV c i) k]{fullShare} f)) := by
  have h0 : (outLoc d ↦{fullShare} f : sProp 𝕄)
      = bigSep Finset.univ fun n : Fin 4800 => outLoc d ↦[(Rect.part (s := S614400x128) (a₀ := 0) hdiv n).set]{fullShare} f := by
    rw [← pointsTo_biUnion Finset.univ (ℓ := outLoc d) (fun n : Fin 4800 => (Rect.part (s := S614400x128) (a₀ := 0) hdiv n).set)
      (fun j _ j' _ h => Rect.part_disjoint hdiv h), Rect.biUnion_part hdiv]; try rfl
  rw [h0, bigSep_univ_equiv chunkEquiv, bigSep_univ_prod]
  refine bigSep_congr fun c _ => ?_
  rw [bigSep_univ_prod]
  refine bigSep_congr fun i _ => ?_
  rw [bigSep_univ_prod]
  refine bigSep_congr fun k _ => ?_
  rw [bigSep_fin_two, setE_part, setO_part]
  rfl

/-- Tile numbers are the pairs (core, subcore). -/
def tileEquiv : Fin (grid0.bound 0) × Fin (grid0.bound 1) ≃ Fin 32 where
  toFun p := tileNo p.1 p.2
  invFun w := (⟨w.val % 2, by show _ < 2; omega⟩, ⟨w.val / 2, by show _ < 16; omega⟩)
  left_inv p := by
    obtain ⟨c, i⟩ := p
    have hc : c.val < 2 := c.isLt
    refine Prod.ext (Fin.ext ?_) (Fin.ext ?_)
    · show (i.val * 2 + c.val) % 2 = c.val; omega
    · show (i.val * 2 + c.val) / 2 = i.val; omega
  right_inv w := by
    apply Fin.ext
    show w.val / 2 * 2 + w.val % 2 = w.val; omega

/-- An array held whole is a remainder and one read share per tile. -/
theorem shares_split (ℓ : Loc nD τ sig) (f : Buf (Elt F) ℓ) :
    (ℓ ↦{fullShare} f : sProp 𝕄) ⊣⊢ iprop((ℓ ↦{shareDrop fullShare 32} f)
      ∗ bigSep Finset.univ fun c : Fin (grid0.bound 0) => bigSep Finset.univ fun i : Fin (grid0.bound 1) => ℓ ↦{shareTok fullShare 32 (tileNo c i)} f) := by
  have e : (bigSep Finset.univ fun w : Fin 32 => (ℓ ↦{shareTok fullShare 32 w} f : sProp 𝕄))
      = bigSep Finset.univ fun c : Fin (grid0.bound 0) => bigSep Finset.univ fun i : Fin (grid0.bound 1) => ℓ ↦{shareTok fullShare 32 (tileNo c i)} f := by
    rw [bigSep_univ_equiv tileEquiv, bigSep_univ_prod]; rfl
  rw [← e]
  exact pointsTo_toks fullShare 32

/-! ## The call's split -/

/-- A tile's resources, its chunks at contents `f`. -/
def goAt (f : Buf (Elt F) (outLoc d)) (c : Fin (grid0.bound 0)) (i : Fin (grid0.bound 1)) : sProp 𝕄 :=
  iprop(tileShares m I d c i
    ∗ bigSep Finset.univ fun k : Fin k0_t1_loop.trips =>
        iprop((outLoc d ↦[setE (coordsV c i) k]{fullShare} f) ∗ (outLoc d ↦[setO (coordsV c i) k]{fullShare} f)))

theorem chunk_ex (f : Buf (Elt F) (outLoc d)) (c : Fin (grid0.bound 0)) (i : Fin (grid0.bound 1)) (k : Fin k0_t1_loop.trips) :
    (iprop((outLoc d ↦[setE (coordsV c i) k]{fullShare} f) ∗ (outLoc d ↦[setO (coordsV c i) k]{fullShare} f)) : sProp 𝕄)
      ⊢ iprop((∃ f, outLoc d ↦[setE (coordsV c i) k]{fullShare} f) ∗ (∃ f, outLoc d ↦[setO (coordsV c i) k]{fullShare} f)) := by
  iintro ⟨HE, HO⟩
  isplitl [HE]; · iexists _; iexact HE
  iexists _; iexact HO

theorem goAt_go (f : Buf (Elt F) (outLoc d)) (c : Fin (grid0.bound 0)) (i : Fin (grid0.bound 1)) : goAt m I d f c i ⊢ goRes m I d c i := by
  unfold goAt goRes
  iintro ⟨Hs, Hc⟩
  isplitl [Hs]; · iexact Hs
  iapply (SparseCore.ent (bigSep_mono (s := Finset.univ) fun k _ => chunk_ex d f c i k))
  iexact Hc

/-- Every tile's resources are the tiles' shares of the two arrays read and the array written, whole. -/
theorem all_tiles (f : Buf (Elt F) (outLoc d)) :
    (bigSep Finset.univ fun c : Fin (grid0.bound 0) => bigSep Finset.univ fun i : Fin (grid0.bound 1) => goAt m I d f c i)
      = iprop(((bigSep Finset.univ fun c : Fin (grid0.bound 0) => bigSep Finset.univ fun i : Fin (grid0.bound 1) =>
            tblLoc d ↦{shareTok fullShare 32 (tileNo c i)} m (tblLoc d))
          ∗ (bigSep Finset.univ fun c : Fin (grid0.bound 0) => bigSep Finset.univ fun i : Fin (grid0.bound 1) =>
            idxLoc d ↦{shareTok fullShare 32 (tileNo c i)} I d))
          ∗ (outLoc d ↦{fullShare} f)) := by
  rw [out_chunks d f]
  unfold goAt tileShares
  simp only [bigSep_sep']

theorem vecSplit : (K (F := F)).VecSplit' (P m I) 0 := by
  intro d c
  show stRes m I d c ⊢ |={Set.univ}=> iprop((bigSep Finset.univ fun i : Fin (grid0.bound 1) => goRes m I d c i)
    ∗ ((bigSep Finset.univ fun i : Fin (grid0.bound 1) => tdRes m I d c i) -∗ dnRes m I d c))
  unfold stRes dnRes
  iintro H; imodintro
  isplitl [H]; · iexact H
  iintro H; iexact H

theorem call_split :
    iprop((tblLoc d ↦{fullShare} m (tblLoc d)) ∗ (idxLoc d ↦{fullShare} I d) ∗ (∃ f, outLoc d ↦{fullShare} f))
      ⊢ |={Set.univ}=> iprop((bigSep Finset.univ fun c : Fin ((K (F := F)).nCore 0) => (P m I).st 0 d c)
          ∗ ((bigSep Finset.univ fun c : Fin ((K (F := F)).nCore 0) => (P m I).dn 0 d c)
              -∗ iprop((tblLoc d ↦{fullShare} m (tblLoc d)) ∗ (idxLoc d ↦{fullShare} I d) ∗ outLoc d ↦{fullShare} gathered (m (tblLoc d)) (I d)))) := by
  have hst : (bigSep Finset.univ fun c : Fin ((K (F := F)).nCore 0) => (P m I).st 0 d c)
      = bigSep Finset.univ fun c : Fin (grid0.bound 0) => stRes m I d c := rfl
  have hdn : (bigSep Finset.univ fun c : Fin ((K (F := F)).nCore 0) => (P m I).dn 0 d c)
      = bigSep Finset.univ fun c : Fin (grid0.bound 0) => dnRes m I d c := rfl
  have htd : ∀ (c : Fin (grid0.bound 0)) (i : Fin (grid0.bound 1)), tdRes m I d c i = goAt m I d (res m I d) c i := fun _ _ => rfl
  rw [hst, hdn]
  unfold stRes dnRes
  simp only [htd]
  show _ ⊢ |={Set.univ}=> iprop(_ ∗ (_ -∗ iprop((tblLoc d ↦{fullShare} m (tblLoc d)) ∗ (idxLoc d ↦{fullShare} I d) ∗ outLoc d ↦{fullShare} res m I d)))
  iintro ⟨Ht, Hi, %f, Ho⟩
  ihave Ht' := (shares_split (F := F) (tblLoc d) (m (tblLoc d))).1 $$ Ht
  ihave Hi' := (shares_split (F := F) (idxLoc d) (I d)).1 $$ Hi
  icases Ht' with ⟨Htd, Htt⟩
  icases Hi' with ⟨Hid, Hit⟩
  imodintro
  isplitl [Htt Hit Ho]
  · iapply (SparseCore.ent (bigSep_mono (s := Finset.univ) fun c _ => bigSep_mono (s := Finset.univ) fun i _ => goAt_go m I d f c i))
    iapply (Entails.of_eq (all_tiles m I d f).symm)
    isplitl [Htt Hit]
    · isplitl [Htt]; · iexact Htt
      iexact Hit
    iexact Ho
  · iintro Hdn
    ihave Hall := (Entails.of_eq (all_tiles m I d (res m I d))) $$ Hdn
    icases Hall with ⟨⟨Htt, Hit⟩, Ho⟩
    isplitl [Htd Htt]
    · iapply (shares_split (F := F) (tblLoc d) (m (tblLoc d))).2
      isplitl [Htd]; · iexact Htd
      iexact Htt
    isplitl [Hid Hit]
    · iapply (shares_split (F := F) (idxLoc d) (I d)).2
      isplitl [Hid]; · iexact Hid
      iexact Hit
    iexact Ho

end Split

end Cert.Proof.KI
end
-- ==== Proof.KI.ScSide.lean ====
/-
  The SparseCore side of the idealized kernel, gathered: the payloads, the tile's task, the splits.
-/
import proofs.«214605_g64536178589837_cont_9to1_m_912_2_alg».proof.Proof.KI.ScPay
import proofs.«214605_g64536178589837_cont_9to1_m_912_2_alg».proof.Proof.KI.ScTile
import proofs.«214605_g64536178589837_cont_9to1_m_912_2_alg».proof.Proof.KI.ScSplit
-- ==== Proof.KI.TcBody1.lean ====
import proofs.«214605_g64536178589837_cont_9to1_m_912_2_alg».proof.Proof.Gen.KernelIdeal.Launch
import proofs.«214605_g64536178589837_cont_9to1_m_912_2_alg».proof.Proof.Gen.KernelIdeal.Skeleton
import proofs.«214605_g64536178589837_cont_9to1_m_912_2_alg».proof.Proof.Gen.KernelIdeal.Points
import Idealize.ShloMosaic.Lib.Pipeline.FrameBody
import Idealize.ShloMosaic.Lib.Ring
import Idealize.ShloMosaic.Lib.Tactic

/-! # The Hoare triple of the dense body number 1

The body reads five whole staging buffers (activations, two weight matrices, two bias rows), computes
one value from them, and overwrites the whole sixth buffer with it. Hence: owning the five inputs at
their contents and the sixth at anything, the body runs to a state where the inputs are unchanged and
the sixth buffer holds that value, read through the rectangles of the loads. -/

-- membership in a rectangle with a thousand rows: the structural check recurses once per coordinate
set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (Idealize.ShloMosaic.SparseCore.Cfg.HIx 1) (Elt F) ℕ U ℕ

/-! ## The rectangles the body reads and writes: each is its whole buffer -/

abbrev r1 : Rect S1000x128 := Rect.unit (s := S1000x128) ![0, 0] S1000x128.size inb_S1000x128_S1000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-! ## What the body leaves in the output buffer -/

/-- The output buffer after the body, as a function of the five input buffers: the one store, whose
    payload is computed from the five loads. -/
def out1 (x0 : Vec F S1000x128 .f32) (x1 : Vec F S128x128 .f32) (x2 : Vec F S1x128 .f32) (x3 : Vec F S128x128 .f32) (x4 : Vec F S1x128 .f32) :
    Vec F S1000x128 .f32 :=
  View.canon [⟨r1, k1_pay1 (View.ld x0 r1) (View.ld x1 rW1) (View.ld x2 rB1) (View.ld x3 rW1) (View.ld x4 rB1)⟩]

/-- The one store's rectangle is the whole buffer, so every index lies in it. -/
theorem cover1 (p0 : Vec F S1000x128 .f32) (y : S1000x128.Idx) :
    ∃ pc ∈ ([⟨r1, p0⟩] : List (View.Piece (Elt F) S1000x128 .f32)), y ∈ pc.1.set :=
  View.cover_of_tiled [⟨r1, p0⟩] S1000x128.size (by rfl) y

/-! ## The body's triple -/

set_option maxHeartbeats 1000000 in
/-- Owning the five inputs at `x0 … x4` and the output buffer at anything, the body runs to the
    continuation with the inputs as they were and the output buffer at `out1 x0 x1 x2 x3 x4`. -/
theorem sound_kernel1 (c : Dev nD) (E : Set ℕ) (i : grid1.Coords)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1000x128 .f32) (harg6 : arg6.IsWhole)
    (x0 : Vec F S1000x128 .f32) (x1 : Vec F S128x128 .f32) (x2 : Vec F S1x128 .f32) (x3 : Vec F S128x128 .f32) (x4 : Vec F S1x128 .f32)
    (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1 x0 x1 x2 x3 x4)) -∗ Kc ⟨⟩))
      ⊢ wp frame (wpE (defs₀ (F := F)) Variants.none c none) E
          (cc1__mlp_body i arg1 harg1 arg2 harg2 arg3 harg3 arg4 harg4 arg5 harg5 arg6 harg6) Kc := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store, run against the six held buffers
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- reading the written buffer is the canon of the one covering store
  exact View.read_writes_eq_canon _ _ _ (cover1 _)

end Cert.KernelIdeal.TcBody

end
-- ==== Proof.KI.RegData1.lean ====
import proofs.«214605_g64536178589837_cont_9to1_m_912_2_alg».proof.Proof.KI.Setup
import proofs.«214605_g64536178589837_cont_9to1_m_912_2_alg».proof.Proof.KI.TcBody1
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-! # Row-blocked pipeline number 1: what its staging buffers hold, point by point

At every point of its grid the pipeline fetches one 1000-row block of the gathered array (window 0),
keeps the two weight matrices and the two bias rows it fetched at the first point (windows 1 to 4),
runs the dense body, and writes the 1000-row result block back (window 5). This file names those
contents and proves that the body, run on them, leaves what is named. Window 0's array does not divide
into whole blocks, so its block is described at the block's full shape by filling; at the points the
grid visits the block is never cut, so the filler is never read. -/

set_option maxRecDepth 16384

noncomputable section

namespace Cert.Proof.KI

open Cert.KernelIdeal Cert.KernelIdeal.Gen Cert.KernelIdeal.TcBody
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (W1 : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (W1 c (Pipeline.arrRef spec1 w))

/-- At every point of the grid, window 0's block lies inside its array on both axes. -/
theorem clip1_0 : ∀ (t : Fin cfg1.N) (a : Fin win1_0.shape.rank), (cfg1.win 0).clip (cfg1.grid.coords t) a = none :=
  (by decide +kernel : ∀ (t : Fin grid1.N) (a : Fin win1_0.shape.rank), win1_0.clip (grid1.coords t) a = none)

/-- Window 0's block at point `t` at the block's full shape: the part inside the array, filled out with
    the zero word (nowhere, at a point of the grid: `xblk1_eq`). -/
def xblk1 (c : Dev nD) (t : Fin cfg1.N) : Vec F S1000x128 .f32 :=
  win1_0.fill (grid1.coords t) (fun _ => Scalar.ofBits .f32 0#32) (iblk1 W1 c 0 t)

/-- Its part inside the array is the block read off the array. -/
theorem xblk1_cut (c : Dev nD) (t : Fin cfg1.N) : win1_0.cut (grid1.coords t) (xblk1 W1 c t) = iblk1 W1 c 0 t :=
  win1_0.cut_fill _ _ _

/-- The filler is never read: the block is not cut at a point of the grid. -/
theorem xblk1_eq (c : Dev nD) (t : Fin cfg1.N) (d : S1000x128.Idx → Elt F .f32) :
    xblk1 W1 c t = win1_0.fill (grid1.coords t) d (iblk1 W1 c 0 t) :=
  Pipeline.fill_of_clip_none (cfg := cfg1) 0 (grid1.coords t) (clip1_0 t) _ d _

/-! ## The pipeline's proof data -/

/-- The proof data on core `c`: the arrays as the region finds them; after the body at point `t` each
    input's buffer at its block and the output's at `out1` of the input blocks; the invariant the
    core's other scoped buffers, untouched; nothing owed; full shares. -/
def dat1 (c : Dev nD) : Pipeline.Dat τ (Elt F) (HIx 1) ℕ UU ℕ cfg1 c where
  A w := W1 c (Pipeline.arrRef spec1 w)
  after w t := match w with
    | ⟨0, _⟩ => xblk1 W1 c t
    | ⟨1, _⟩ => iblk1 W1 c 1 t
    | ⟨2, _⟩ => iblk1 W1 c 2 t
    | ⟨3, _⟩ => iblk1 W1 c 3 t
    | ⟨4, _⟩ => iblk1 W1 c 4 t
    | ⟨5, _⟩ => out1 (xblk1 W1 c t) (iblk1 W1 c 1 t) (iblk1 W1 c 2 t) (iblk1 W1 c 3 t) (iblk1 W1 c 4 t)
  Φ _ := Pipeline.scopedRest (Ix := HIx 1) (Name := ℕ) (U := UU) (Lvl := ℕ) (Val := Elt F) spec1 c
  q _ := fullShare
  owed _ := 0

theorem A_eq1 (c : Dev nD) (w : Fin cfg1.W) : (dat1 W1 c).A w = W1 c (Pipeline.arrRef spec1 w) := by
  dsimp only [dat1]

theorem after1_0 (c : Dev nD) (t : Fin cfg1.N) : (dat1 W1 c).after 0 t = xblk1 W1 c t := by dsimp only [dat1]
theorem after1_1 (c : Dev nD) (t : Fin cfg1.N) : (dat1 W1 c).after 1 t = iblk1 W1 c 1 t := by dsimp only [dat1]
theorem after1_2 (c : Dev nD) (t : Fin cfg1.N) : (dat1 W1 c).after 2 t = iblk1 W1 c 2 t := by dsimp only [dat1]
theorem after1_3 (c : Dev nD) (t : Fin cfg1.N) : (dat1 W1 c).after 3 t = iblk1 W1 c 3 t := by dsimp only [dat1]
theorem after1_4 (c : Dev nD) (t : Fin cfg1.N) : (dat1 W1 c).after 4 t = iblk1 W1 c 4 t := by dsimp only [dat1]
theorem after1_5 (c : Dev nD) (t : Fin cfg1.N) : (dat1 W1 c).after 5 t
    = out1 (xblk1 W1 c t) (iblk1 W1 c 1 t) (iblk1 W1 c 2 t) (iblk1 W1 c 3 t) (iblk1 W1 c 4 t) := by dsimp only [dat1]

theorem owed1 (c : Dev nD) (t : Fin (cfg1.N + 1)) : (dat1 W1 c).owed t = 0 := rfl

theorem share1 (c : Dev nD) (w : Fin cfg1.W) : (dat1 W1 c).share w = fullShare :=
  (dat1 W1 c).share_full (fun _ => rfl) w

/-! ## What the body finds in each buffer -/

/-- Window 0 is fetched at every point: its buffer holds the block on the part the fetch fills, and what
    it held (`d`) elsewhere. -/
theorem before1_0 (c : Dev nD) (t : Fin cfg1.N) (d) :
    (dat1 W1 c).before 0 t d = win1_0.fill (grid1.coords t) d (iblk1 W1 c 0 t) := by
  unfold Dat.before; rw [if_pos (fetch1_0 t)]
  unfold Dat.fetched Dat.blockOf iblk1; rw [A_eq1]; try rfl

/-- Input window 1 is a whole array fetched once: its staging buffer holds that block at every point. -/
theorem before1_1 (c : Dev nD) (t : Fin cfg1.N) (d) : (dat1 W1 c).before 1 t d = iblk1 W1 c 1 t :=
  ((dat1 W1 c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2 is a whole array fetched once: its staging buffer holds that block at every point. -/
theorem before1_2 (c : Dev nD) (t : Fin cfg1.N) (d) : (dat1 W1 c).before 2 t d = iblk1 W1 c 2 t :=
  ((dat1 W1 c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3 is a whole array fetched once: its staging buffer holds that block at every point. -/
theorem before1_3 (c : Dev nD) (t : Fin cfg1.N) (d) : (dat1 W1 c).before 3 t d = iblk1 W1 c 3 t :=
  ((dat1 W1 c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4 is a whole array fetched once: its staging buffer holds that block at every point. -/
theorem before1_4 (c : Dev nD) (t : Fin cfg1.N) (d) : (dat1 W1 c).before 4 t d = iblk1 W1 c 4 t :=
  ((dat1 W1 c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 W1 c).Φ t.castSucc ∗ (dat1 W1 c).owesAt (none : HIx 1) t.castSucc
    ∗ (∃ d, owns (c : Thread nD τ) (st1_0 t) fullShare ((dat1 W1 c).before 0 t d))
    ∗ (∃ d, owns (c : Thread nD τ) (st1_1 t) fullShare ((dat1 W1 c).before 1 t d))
    ∗ (∃ d, owns (c : Thread nD τ) (st1_2 t) fullShare ((dat1 W1 c).before 2 t d))
    ∗ (∃ d, owns (c : Thread nD τ) (st1_3 t) fullShare ((dat1 W1 c).before 3 t d))
    ∗ (∃ d, owns (c : Thread nD τ) (st1_4 t) fullShare ((dat1 W1 c).before 4 t d))
    ∗ (∃ d, owns (c : Thread nD τ) (st1_5 t) fullShare ((dat1 W1 c).before 5 t d)))

/-- and what it returns: window 0's buffer stated on the part its transfers move, the others' outright. -/
def bodyPost1 (c : Dev nD) (t : Fin cfg1.N) : sProp 𝕄 :=
  iprop((dat1 W1 c).Φ t.succ ∗ (dat1 W1 c).owesAt (none : HIx 1) t.succ
    ∗ (∃ d, owns (c : Thread nD τ) (st1_0 t) fullShare
        ((cfg1.win 0).fill (cfg1.grid.coords t) d ((cfg1.win 0).cut (cfg1.grid.coords t) ((dat1 W1 c).after 0 t))))
    ∗ owns (c : Thread nD τ) (st1_1 t) fullShare ((dat1 W1 c).after 1 t)
    ∗ owns (c : Thread nD τ) (st1_2 t) fullShare ((dat1 W1 c).after 2 t)
    ∗ owns (c : Thread nD τ) (st1_3 t) fullShare ((dat1 W1 c).after 3 t)
    ∗ owns (c : Thread nD τ) (st1_4 t) fullShare ((dat1 W1 c).after 4 t)
    ∗ owns (c : Thread nD τ) (st1_5 t) fullShare ((dat1 W1 c).after 5 t))

/-- The body at any point: the inputs' buffers hold their blocks, so the body's triple applies; the
    invariant and what the core owes pass through unread. Window 0's buffer comes back as it was handed
    over; the result is computed from it, and equals the named one because the filler is never read. -/
theorem sound_body1 (c : Dev nD) (t : Fin cfg1.N) :
    bodyPre1 W1 c t ⊢ wp frame (wpE (defs₀ (F := F)) Variants.none c none) Set.univ (bodyAt1 t) (fun _ => bodyPost1 W1 c t) := by
  unfold bodyPre1 bodyPost1 bodyAt1
  simp only [before1_1, before1_2, before1_3, before1_4]
  rw [show (dat1 W1 c).Φ t.succ = (dat1 W1 c).Φ t.castSucc from rfl,
    show (dat1 W1 c).owesAt (none : HIx 1) t.succ = (dat1 W1 c).owesAt (none : HIx 1) t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  rw [before1_0 W1 c t d0]
  iapply (sound_kernel1 (U := UU) c Set.univ (grid1.coords t) _ _ _ _ _ _ _ _ _ _ _ _
    (win1_0.fill (grid1.coords t) d0 (iblk1 W1 c 0 t)) (iblk1 W1 c 1 t) (iblk1 W1 c 2 t) (iblk1 W1 c 3 t) (iblk1 W1 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st1_0 t) fullShare (win1_0.fill (grid1.coords t) d0 (win1_0.cut (grid1.coords t) (xblk1 W1 c t)))
    rw [xblk1_cut]; try iexact H0
  isplitl [H1]; · iexact H1
  isplitl [H2]; · iexact H2
  isplitl [H3]; · iexact H3
  isplitl [H4]; · iexact H4
  rw [xblk1_eq W1 c t d0]; try iexact H5

/-- The library's body obligation, at every point. -/
theorem body_obligation1 (c : Dev nD) :
    BodyObligationLoose (dat1 W1 c) (defs₀ (F := F)) Variants.none (none : HIx 1) Set.univ := fun t => by
  rw [bigSep_W1, bigSep_W1]
  exact sound_body1 W1 c t

end Cert.Proof.KI

end
-- ==== Proof.KI.TcBody2.lean ====
import proofs.«214605_g64536178589837_cont_9to1_m_912_2_alg».proof.Proof.Gen.KernelIdeal.Launch
import proofs.«214605_g64536178589837_cont_9to1_m_912_2_alg».proof.Proof.Gen.KernelIdeal.Skeleton
import proofs.«214605_g64536178589837_cont_9to1_m_912_2_alg».proof.Proof.Gen.KernelIdeal.Points
import Idealize.ShloMosaic.Lib.Pipeline.FrameBody
import Idealize.ShloMosaic.Lib.Ring
import Idealize.ShloMosaic.Lib.Tactic

/-! # The Hoare triple of the dense body number 2

The body reads five whole staging buffers (activations, two weight matrices, two bias rows), computes
one value from them, and overwrites the whole sixth buffer with it. Hence: owning the five inputs at
their contents and the sixth at anything, the body runs to a state where the inputs are unchanged and
the sixth buffer holds that value, read through the rectangles of the loads. -/

-- membership in a rectangle with a thousand rows: the structural check recurses once per coordinate
set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (Idealize.ShloMosaic.SparseCore.Cfg.HIx 1) (Elt F) ℕ U ℕ

/-! ## The rectangles the body reads and writes: each is its whole buffer -/

abbrev r2 : Rect S1000x256 := Rect.unit (s := S1000x256) ![0, 0] S1000x256.size inb_S1000x256_S1000x256_0_0
abbrev rW2 : Rect S256x256 := Rect.unit (s := S256x256) ![0, 0] S256x256.size inb_S256x256_S256x256_0_0
abbrev rB2 : Rect S1x256 := Rect.unit (s := S1x256) ![0, 0] S1x256.size inb_S1x256_S1x256_0_0

/-! ## What the body leaves in the output buffer -/

/-- The output buffer after the body, as a function of the five input buffers: the one store, whose
    payload is computed from the five loads. -/
def out2 (x0 : Vec F S1000x256 .f32) (x1 : Vec F S256x256 .f32) (x2 : Vec F S1x256 .f32) (x3 : Vec F S256x256 .f32) (x4 : Vec F S1x256 .f32) :
    Vec F S1000x256 .f32 :=
  View.canon [⟨r2, k2_pay1 (View.ld x0 r2) (View.ld x1 rW2) (View.ld x2 rB2) (View.ld x3 rW2) (View.ld x4 rB2)⟩]

/-- The one store's rectangle is the whole buffer, so every index lies in it. -/
theorem cover2 (p0 : Vec F S1000x256 .f32) (y : S1000x256.Idx) :
    ∃ pc ∈ ([⟨r2, p0⟩] : List (View.Piece (Elt F) S1000x256 .f32)), y ∈ pc.1.set :=
  View.cover_of_tiled [⟨r2, p0⟩] S1000x256.size (by rfl) y

/-! ## The body's triple -/

set_option maxHeartbeats 1000000 in
/-- Owning the five inputs at `x0 … x4` and the output buffer at anything, the body runs to the
    continuation with the inputs as they were and the output buffer at `out2 x0 x1 x2 x3 x4`. -/
theorem sound_kernel2 (c : Dev nD) (E : Set ℕ) (i : grid2.Coords)
    (arg1 : Memref sig .tc .vmem S1000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S1000x256 .f32) (harg6 : arg6.IsWhole)
    (x0 : Vec F S1000x256 .f32) (x1 : Vec F S256x256 .f32) (x2 : Vec F S1x256 .f32) (x3 : Vec F S256x256 .f32) (x4 : Vec F S1x256 .f32)
    (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2 x0 x1 x2 x3 x4)) -∗ Kc ⟨⟩))
      ⊢ wp frame (wpE (defs₀ (F := F)) Variants.none c none) E
          (cc2__mlp_body i arg1 harg1 arg2 harg2 arg3 harg3 arg4 harg4 arg5 harg5 arg6 harg6) Kc := by
  simp only [cc2__mlp_body_eq_skeleton]; unfold cc2__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store, run against the six held buffers
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- reading the written buffer is the canon of the one covering store
  exact View.read_writes_eq_canon _ _ _ (cover2 _)

end Cert.KernelIdeal.TcBody

end
-- ==== Proof.KI.RegData2.lean ====
import proofs.«214605_g64536178589837_cont_9to1_m_912_2_alg».proof.Proof.KI.Setup
import proofs.«214605_g64536178589837_cont_9to1_m_912_2_alg».proof.Proof.KI.TcBody2
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-! # Row-blocked pipeline number 2: what its staging buffers hold, point by point

At every point of its grid the pipeline fetches one 1000-row block of the gathered array (window 0),
keeps the two weight matrices and the two bias rows it fetched at the first point (windows 1 to 4),
runs the dense body, and writes the 1000-row result block back (window 5). This file names those
contents and proves that the body, run on them, leaves what is named. Window 0's array does not divide
into whole blocks, so its block is described at the block's full shape by filling; at the points the
grid visits the block is never cut, so the filler is never read. -/

set_option maxRecDepth 16384

noncomputable section

namespace Cert.Proof.KI

open Cert.KernelIdeal Cert.KernelIdeal.Gen Cert.KernelIdeal.TcBody
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (W2 : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) :
    ((cfg2.win w).xblock (cfg2.grid.coords t)).Idx → Elt F (cfg2.win w).elt :=
  ((cfg2.win w).blk t).view.read (Elt F) (W2 c (Pipeline.arrRef spec2 w))

/-- At every point of the grid, window 0's block lies inside its array on both axes. -/
theorem clip2_0 : ∀ (t : Fin cfg2.N) (a : Fin win2_0.shape.rank), (cfg2.win 0).clip (cfg2.grid.coords t) a = none :=
  (by decide +kernel : ∀ (t : Fin grid2.N) (a : Fin win2_0.shape.rank), win2_0.clip (grid2.coords t) a = none)

/-- Window 0's block at point `t` at the block's full shape: the part inside the array, filled out with
    the zero word (nowhere, at a point of the grid: `xblk2_eq`). -/
def xblk2 (c : Dev nD) (t : Fin cfg2.N) : Vec F S1000x256 .f32 :=
  win2_0.fill (grid2.coords t) (fun _ => Scalar.ofBits .f32 0#32) (iblk2 W2 c 0 t)

/-- Its part inside the array is the block read off the array. -/
theorem xblk2_cut (c : Dev nD) (t : Fin cfg2.N) : win2_0.cut (grid2.coords t) (xblk2 W2 c t) = iblk2 W2 c 0 t :=
  win2_0.cut_fill _ _ _

/-- The filler is never read: the block is not cut at a point of the grid. -/
theorem xblk2_eq (c : Dev nD) (t : Fin cfg2.N) (d : S1000x256.Idx → Elt F .f32) :
    xblk2 W2 c t = win2_0.fill (grid2.coords t) d (iblk2 W2 c 0 t) :=
  Pipeline.fill_of_clip_none (cfg := cfg2) 0 (grid2.coords t) (clip2_0 t) _ d _

/-! ## The pipeline's proof data -/

/-- The proof data on core `c`: the arrays as the region finds them; after the body at point `t` each
    input's buffer at its block and the output's at `out2` of the input blocks; the invariant the
    core's other scoped buffers, untouched; nothing owed; full shares. -/
def dat2 (c : Dev nD) : Pipeline.Dat τ (Elt F) (HIx 1) ℕ UU ℕ cfg2 c where
  A w := W2 c (Pipeline.arrRef spec2 w)
  after w t := match w with
    | ⟨0, _⟩ => xblk2 W2 c t
    | ⟨1, _⟩ => iblk2 W2 c 1 t
    | ⟨2, _⟩ => iblk2 W2 c 2 t
    | ⟨3, _⟩ => iblk2 W2 c 3 t
    | ⟨4, _⟩ => iblk2 W2 c 4 t
    | ⟨5, _⟩ => out2 (xblk2 W2 c t) (iblk2 W2 c 1 t) (iblk2 W2 c 2 t) (iblk2 W2 c 3 t) (iblk2 W2 c 4 t)
  Φ _ := Pipeline.scopedRest (Ix := HIx 1) (Name := ℕ) (U := UU) (Lvl := ℕ) (Val := Elt F) spec2 c
  q _ := fullShare
  owed _ := 0

theorem A_eq2 (c : Dev nD) (w : Fin cfg2.W) : (dat2 W2 c).A w = W2 c (Pipeline.arrRef spec2 w) := by
  dsimp only [dat2]

theorem after2_0 (c : Dev nD) (t : Fin cfg2.N) : (dat2 W2 c).after 0 t = xblk2 W2 c t := by dsimp only [dat2]
theorem after2_1 (c : Dev nD) (t : Fin cfg2.N) : (dat2 W2 c).after 1 t = iblk2 W2 c 1 t := by dsimp only [dat2]
theorem after2_2 (c : Dev nD) (t : Fin cfg2.N) : (dat2 W2 c).after 2 t = iblk2 W2 c 2 t := by dsimp only [dat2]
theorem after2_3 (c : Dev nD) (t : Fin cfg2.N) : (dat2 W2 c).after 3 t = iblk2 W2 c 3 t := by dsimp only [dat2]
theorem after2_4 (c : Dev nD) (t : Fin cfg2.N) : (dat2 W2 c).after 4 t = iblk2 W2 c 4 t := by dsimp only [dat2]
theorem after2_5 (c : Dev nD) (t : Fin cfg2.N) : (dat2 W2 c).after 5 t
    = out2 (xblk2 W2 c t) (iblk2 W2 c 1 t) (iblk2 W2 c 2 t) (iblk2 W2 c 3 t) (iblk2 W2 c 4 t) := by dsimp only [dat2]

theorem owed2 (c : Dev nD) (t : Fin (cfg2.N + 1)) : (dat2 W2 c).owed t = 0 := rfl

theorem share2 (c : Dev nD) (w : Fin cfg2.W) : (dat2 W2 c).share w = fullShare :=
  (dat2 W2 c).share_full (fun _ => rfl) w

/-! ## What the body finds in each buffer -/

/-- Window 0 is fetched at every point: its buffer holds the block on the part the fetch fills, and what
    it held (`d`) elsewhere. -/
theorem before2_0 (c : Dev nD) (t : Fin cfg2.N) (d) :
    (dat2 W2 c).before 0 t d = win2_0.fill (grid2.coords t) d (iblk2 W2 c 0 t) := by
  unfold Dat.before; rw [if_pos (fetch2_0 t)]
  unfold Dat.fetched Dat.blockOf iblk2; rw [A_eq2]; try rfl

/-- Input window 1 is a whole array fetched once: its staging buffer holds that block at every point. -/
theorem before2_1 (c : Dev nD) (t : Fin cfg2.N) (d) : (dat2 W2 c).before 1 t d = iblk2 W2 c 1 t :=
  ((dat2 W2 c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- Input window 2 is a whole array fetched once: its staging buffer holds that block at every point. -/
theorem before2_2 (c : Dev nD) (t : Fin cfg2.N) (d) : (dat2 W2 c).before 2 t d = iblk2 W2 c 2 t :=
  ((dat2 W2 c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- Input window 3 is a whole array fetched once: its staging buffer holds that block at every point. -/
theorem before2_3 (c : Dev nD) (t : Fin cfg2.N) (d) : (dat2 W2 c).before 3 t d = iblk2 W2 c 3 t :=
  ((dat2 W2 c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- Input window 4 is a whole array fetched once: its staging buffer holds that block at every point. -/
theorem before2_4 (c : Dev nD) (t : Fin cfg2.N) (d) : (dat2 W2 c).before 4 t d = iblk2 W2 c 4 t :=
  ((dat2 W2 c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 W2 c).Φ t.castSucc ∗ (dat2 W2 c).owesAt (none : HIx 1) t.castSucc
    ∗ (∃ d, owns (c : Thread nD τ) (st2_0 t) fullShare ((dat2 W2 c).before 0 t d))
    ∗ (∃ d, owns (c : Thread nD τ) (st2_1 t) fullShare ((dat2 W2 c).before 1 t d))
    ∗ (∃ d, owns (c : Thread nD τ) (st2_2 t) fullShare ((dat2 W2 c).before 2 t d))
    ∗ (∃ d, owns (c : Thread nD τ) (st2_3 t) fullShare ((dat2 W2 c).before 3 t d))
    ∗ (∃ d, owns (c : Thread nD τ) (st2_4 t) fullShare ((dat2 W2 c).before 4 t d))
    ∗ (∃ d, owns (c : Thread nD τ) (st2_5 t) fullShare ((dat2 W2 c).before 5 t d)))

/-- and what it returns: window 0's buffer stated on the part its transfers move, the others' outright. -/
def bodyPost2 (c : Dev nD) (t : Fin cfg2.N) : sProp 𝕄 :=
  iprop((dat2 W2 c).Φ t.succ ∗ (dat2 W2 c).owesAt (none : HIx 1) t.succ
    ∗ (∃ d, owns (c : Thread nD τ) (st2_0 t) fullShare
        ((cfg2.win 0).fill (cfg2.grid.coords t) d ((cfg2.win 0).cut (cfg2.grid.coords t) ((dat2 W2 c).after 0 t))))
    ∗ owns (c : Thread nD τ) (st2_1 t) fullShare ((dat2 W2 c).after 1 t)
    ∗ owns (c : Thread nD τ) (st2_2 t) fullShare ((dat2 W2 c).after 2 t)
    ∗ owns (c : Thread nD τ) (st2_3 t) fullShare ((dat2 W2 c).after 3 t)
    ∗ owns (c : Thread nD τ) (st2_4 t) fullShare ((dat2 W2 c).after 4 t)
    ∗ owns (c : Thread nD τ) (st2_5 t) fullShare ((dat2 W2 c).after 5 t))

/-- The body at any point: the inputs' buffers hold their blocks, so the body's triple applies; the
    invariant and what the core owes pass through unread. Window 0's buffer comes back as it was handed
    over; the result is computed from it, and equals the named one because the filler is never read. -/
theorem sound_body2 (c : Dev nD) (t : Fin cfg2.N) :
    bodyPre2 W2 c t ⊢ wp frame (wpE (defs₀ (F := F)) Variants.none c none) Set.univ (bodyAt2 t) (fun _ => bodyPost2 W2 c t) := by
  unfold bodyPre2 bodyPost2 bodyAt2
  simp only [before2_1, before2_2, before2_3, before2_4]
  rw [show (dat2 W2 c).Φ t.succ = (dat2 W2 c).Φ t.castSucc from rfl,
    show (dat2 W2 c).owesAt (none : HIx 1) t.succ = (dat2 W2 c).owesAt (none : HIx 1) t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  rw [before2_0 W2 c t d0]
  iapply (sound_kernel2 (U := UU) c Set.univ (grid2.coords t) _ _ _ _ _ _ _ _ _ _ _ _
    (win2_0.fill (grid2.coords t) d0 (iblk2 W2 c 0 t)) (iblk2 W2 c 1 t) (iblk2 W2 c 2 t) (iblk2 W2 c 3 t) (iblk2 W2 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st2_0 t) fullShare (win2_0.fill (grid2.coords t) d0 (win2_0.cut (grid2.coords t) (xblk2 W2 c t)))
    rw [xblk2_cut]; try iexact H0
  isplitl [H1]; · iexact H1
  isplitl [H2]; · iexact H2
  isplitl [H3]; · iexact H3
  isplitl [H4]; · iexact H4
  rw [xblk2_eq W2 c t d0]; try iexact H5

/-- The library's body obligation, at every point. -/
theorem body_obligation2 (c : Dev nD) :
    BodyObligationLoose (dat2 W2 c) (defs₀ (F := F)) Variants.none (none : HIx 1) Set.univ := fun t => by
  rw [bigSep_W2, bigSep_W2]
  exact sound_body2 W2 c t

end Cert.Proof.KI

end
-- ==== Proof.KI.TcBody3.lean ====
import proofs.«214605_g64536178589837_cont_9to1_m_912_2_alg».proof.Proof.Gen.KernelIdeal.Launch
import proofs.«214605_g64536178589837_cont_9to1_m_912_2_alg».proof.Proof.Gen.KernelIdeal.Skeleton
import proofs.«214605_g64536178589837_cont_9to1_m_912_2_alg».proof.Proof.Gen.KernelIdeal.Points
import Idealize.ShloMosaic.Lib.Pipeline.FrameBody
import Idealize.ShloMosaic.Lib.Ring
import Idealize.ShloMosaic.Lib.Tactic

/-! # The Hoare triple of the dense body number 3

The body reads five whole staging buffers (activations, two weight matrices, two bias rows), computes
one value from them, and overwrites the whole sixth buffer with it. Hence: owning the five inputs at
their contents and the sixth at anything, the body runs to a state where the inputs are unchanged and
the sixth buffer holds that value, read through the rectangles of the loads. -/

-- membership in a rectangle with a thousand rows: the structural check recurses once per coordinate
set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (Idealize.ShloMosaic.SparseCore.Cfg.HIx 1) (Elt F) ℕ U ℕ

/-! ## The rectangles the body reads and writes: each is its whole buffer -/

abbrev r3 : Rect S1000x256 := Rect.unit (s := S1000x256) ![0, 0] S1000x256.size inb_S1000x256_S1000x256_0_0
abbrev rW3 : Rect S256x256 := Rect.unit (s := S256x256) ![0, 0] S256x256.size inb_S256x256_S256x256_0_0
abbrev rB3 : Rect S1x256 := Rect.unit (s := S1x256) ![0, 0] S1x256.size inb_S1x256_S1x256_0_0

/-! ## What the body leaves in the output buffer -/

/-- The output buffer after the body, as a function of the five input buffers: the one store, whose
    payload is computed from the five loads. -/
def out3 (x0 : Vec F S1000x256 .f32) (x1 : Vec F S256x256 .f32) (x2 : Vec F S1x256 .f32) (x3 : Vec F S256x256 .f32) (x4 : Vec F S1x256 .f32) :
    Vec F S1000x256 .f32 :=
  View.canon [⟨r3, k3_pay1 (View.ld x0 r3) (View.ld x1 rW3) (View.ld x2 rB3) (View.ld x3 rW3) (View.ld x4 rB3)⟩]

/-- The one store's rectangle is the whole buffer, so every index lies in it. -/
theorem cover3 (p0 : Vec F S1000x256 .f32) (y : S1000x256.Idx) :
    ∃ pc ∈ ([⟨r3, p0⟩] : List (View.Piece (Elt F) S1000x256 .f32)), y ∈ pc.1.set :=
  View.cover_of_tiled [⟨r3, p0⟩] S1000x256.size (by rfl) y

/-! ## The body's triple -/

set_option maxHeartbeats 1000000 in
/-- Owning the five inputs at `x0 … x4` and the output buffer at anything, the body runs to the
    continuation with the inputs as they were and the output buffer at `out3 x0 x1 x2 x3 x4`. -/
theorem sound_kernel3 (c : Dev nD) (E : Set ℕ) (i : grid3.Coords)
    (arg1 : Memref sig .tc .vmem S1000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S1000x256 .f32) (harg6 : arg6.IsWhole)
    (x0 : Vec F S1000x256 .f32) (x1 : Vec F S256x256 .f32) (x2 : Vec F S1x256 .f32) (x3 : Vec F S256x256 .f32) (x4 : Vec F S1x256 .f32)
    (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3 x0 x1 x2 x3 x4)) -∗ Kc ⟨⟩))
      ⊢ wp frame (wpE (defs₀ (F := F)) Variants.none c none) E
          (cc3__mlp_body i arg1 harg1 arg2 harg2 arg3 harg3 arg4 harg4 arg5 harg5 arg6 harg6) Kc := by
  simp only [cc3__mlp_body_eq_skeleton]; unfold cc3__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store, run against the six held buffers
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- reading the written buffer is the canon of the one covering store
  exact View.read_writes_eq_canon _ _ _ (cover3 _)

end Cert.KernelIdeal.TcBody

end
-- ==== Proof.KI.RegData3.lean ====
import proofs.«214605_g64536178589837_cont_9to1_m_912_2_alg».proof.Proof.KI.Setup
import proofs.«214605_g64536178589837_cont_9to1_m_912_2_alg».proof.Proof.KI.TcBody3
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-! # Row-blocked pipeline number 3: what its staging buffers hold, point by point

At every point of its grid the pipeline fetches one 1000-row block of the gathered array (window 0),
keeps the two weight matrices and the two bias rows it fetched at the first point (windows 1 to 4),
runs the dense body, and writes the 1000-row result block back (window 5). This file names those
contents and proves that the body, run on them, leaves what is named. Window 0's array does not divide
into whole blocks, so its block is described at the block's full shape by filling; at the points the
grid visits the block is never cut, so the filler is never read. -/

set_option maxRecDepth 16384

noncomputable section

namespace Cert.Proof.KI

open Cert.KernelIdeal Cert.KernelIdeal.Gen Cert.KernelIdeal.TcBody
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (W3 : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) :
    ((cfg3.win w).xblock (cfg3.grid.coords t)).Idx → Elt F (cfg3.win w).elt :=
  ((cfg3.win w).blk t).view.read (Elt F) (W3 c (Pipeline.arrRef spec3 w))

/-- At every point of the grid, window 0's block lies inside its array on both axes. -/
theorem clip3_0 : ∀ (t : Fin cfg3.N) (a : Fin win3_0.shape.rank), (cfg3.win 0).clip (cfg3.grid.coords t) a = none :=
  (by decide +kernel : ∀ (t : Fin grid3.N) (a : Fin win3_0.shape.rank), win3_0.clip (grid3.coords t) a = none)

/-- Window 0's block at point `t` at the block's full shape: the part inside the array, filled out with
    the zero word (nowhere, at a point of the grid: `xblk3_eq`). -/
def xblk3 (c : Dev nD) (t : Fin cfg3.N) : Vec F S1000x256 .f32 :=
  win3_0.fill (grid3.coords t) (fun _ => Scalar.ofBits .f32 0#32) (iblk3 W3 c 0 t)

/-- Its part inside the array is the block read off the array. -/
theorem xblk3_cut (c : Dev nD) (t : Fin cfg3.N) : win3_0.cut (grid3.coords t) (xblk3 W3 c t) = iblk3 W3 c 0 t :=
  win3_0.cut_fill _ _ _

/-- The filler is never read: the block is not cut at a point of the grid. -/
theorem xblk3_eq (c : Dev nD) (t : Fin cfg3.N) (d : S1000x256.Idx → Elt F .f32) :
    xblk3 W3 c t = win3_0.fill (grid3.coords t) d (iblk3 W3 c 0 t) :=
  Pipeline.fill_of_clip_none (cfg := cfg3) 0 (grid3.coords t) (clip3_0 t) _ d _

/-! ## The pipeline's proof data -/

/-- The proof data on core `c`: the arrays as the region finds them; after the body at point `t` each
    input's buffer at its block and the output's at `out3` of the input blocks; the invariant the
    core's other scoped buffers, untouched; nothing owed; full shares. -/
def dat3 (c : Dev nD) : Pipeline.Dat τ (Elt F) (HIx 1) ℕ UU ℕ cfg3 c where
  A w := W3 c (Pipeline.arrRef spec3 w)
  after w t := match w with
    | ⟨0, _⟩ => xblk3 W3 c t
    | ⟨1, _⟩ => iblk3 W3 c 1 t
    | ⟨2, _⟩ => iblk3 W3 c 2 t
    | ⟨3, _⟩ => iblk3 W3 c 3 t
    | ⟨4, _⟩ => iblk3 W3 c 4 t
    | ⟨5, _⟩ => out3 (xblk3 W3 c t) (iblk3 W3 c 1 t) (iblk3 W3 c 2 t) (iblk3 W3 c 3 t) (iblk3 W3 c 4 t)
  Φ _ := Pipeline.scopedRest (Ix := HIx 1) (Name := ℕ) (U := UU) (Lvl := ℕ) (Val := Elt F) spec3 c
  q _ := fullShare
  owed _ := 0

theorem A_eq3 (c : Dev nD) (w : Fin cfg3.W) : (dat3 W3 c).A w = W3 c (Pipeline.arrRef spec3 w) := by
  dsimp only [dat3]

theorem after3_0 (c : Dev nD) (t : Fin cfg3.N) : (dat3 W3 c).after 0 t = xblk3 W3 c t := by dsimp only [dat3]
theorem after3_1 (c : Dev nD) (t : Fin cfg3.N) : (dat3 W3 c).after 1 t = iblk3 W3 c 1 t := by dsimp only [dat3]
theorem after3_2 (c : Dev nD) (t : Fin cfg3.N) : (dat3 W3 c).after 2 t = iblk3 W3 c 2 t := by dsimp only [dat3]
theorem after3_3 (c : Dev nD) (t : Fin cfg3.N) : (dat3 W3 c).after 3 t = iblk3 W3 c 3 t := by dsimp only [dat3]
theorem after3_4 (c : Dev nD) (t : Fin cfg3.N) : (dat3 W3 c).after 4 t = iblk3 W3 c 4 t := by dsimp only [dat3]
theorem after3_5 (c : Dev nD) (t : Fin cfg3.N) : (dat3 W3 c).after 5 t
    = out3 (xblk3 W3 c t) (iblk3 W3 c 1 t) (iblk3 W3 c 2 t) (iblk3 W3 c 3 t) (iblk3 W3 c 4 t) := by dsimp only [dat3]

theorem owed3 (c : Dev nD) (t : Fin (cfg3.N + 1)) : (dat3 W3 c).owed t = 0 := rfl

theorem share3 (c : Dev nD) (w : Fin cfg3.W) : (dat3 W3 c).share w = fullShare :=
  (dat3 W3 c).share_full (fun _ => rfl) w

/-! ## What the body finds in each buffer -/

/-- Window 0 is fetched at every point: its buffer holds the block on the part the fetch fills, and what
    it held (`d`) elsewhere. -/
theorem before3_0 (c : Dev nD) (t : Fin cfg3.N) (d) :
    (dat3 W3 c).before 0 t d = win3_0.fill (grid3.coords t) d (iblk3 W3 c 0 t) := by
  unfold Dat.before; rw [if_pos (fetch3_0 t)]
  unfold Dat.fetched Dat.blockOf iblk3; rw [A_eq3]; try rfl

/-- Input window 1 is a whole array fetched once: its staging buffer holds that block at every point. -/
theorem before3_1 (c : Dev nD) (t : Fin cfg3.N) (d) : (dat3 W3 c).before 1 t d = iblk3 W3 c 1 t :=
  ((dat3 W3 c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- Input window 2 is a whole array fetched once: its staging buffer holds that block at every point. -/
theorem before3_2 (c : Dev nD) (t : Fin cfg3.N) (d) : (dat3 W3 c).before 2 t d = iblk3 W3 c 2 t :=
  ((dat3 W3 c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-- Input window 3 is a whole array fetched once: its staging buffer holds that block at every point. -/
theorem before3_3 (c : Dev nD) (t : Fin cfg3.N) (d) : (dat3 W3 c).before 3 t d = iblk3 W3 c 3 t :=
  ((dat3 W3 c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- Input window 4 is a whole array fetched once: its staging buffer holds that block at every point. -/
theorem before3_4 (c : Dev nD) (t : Fin cfg3.N) (d) : (dat3 W3 c).before 4 t d = iblk3 W3 c 4 t :=
  ((dat3 W3 c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 W3 c).Φ t.castSucc ∗ (dat3 W3 c).owesAt (none : HIx 1) t.castSucc
    ∗ (∃ d, owns (c : Thread nD τ) (st3_0 t) fullShare ((dat3 W3 c).before 0 t d))
    ∗ (∃ d, owns (c : Thread nD τ) (st3_1 t) fullShare ((dat3 W3 c).before 1 t d))
    ∗ (∃ d, owns (c : Thread nD τ) (st3_2 t) fullShare ((dat3 W3 c).before 2 t d))
    ∗ (∃ d, owns (c : Thread nD τ) (st3_3 t) fullShare ((dat3 W3 c).before 3 t d))
    ∗ (∃ d, owns (c : Thread nD τ) (st3_4 t) fullShare ((dat3 W3 c).before 4 t d))
    ∗ (∃ d, owns (c : Thread nD τ) (st3_5 t) fullShare ((dat3 W3 c).before 5 t d)))

/-- and what it returns: window 0's buffer stated on the part its transfers move, the others' outright. -/
def bodyPost3 (c : Dev nD) (t : Fin cfg3.N) : sProp 𝕄 :=
  iprop((dat3 W3 c).Φ t.succ ∗ (dat3 W3 c).owesAt (none : HIx 1) t.succ
    ∗ (∃ d, owns (c : Thread nD τ) (st3_0 t) fullShare
        ((cfg3.win 0).fill (cfg3.grid.coords t) d ((cfg3.win 0).cut (cfg3.grid.coords t) ((dat3 W3 c).after 0 t))))
    ∗ owns (c : Thread nD τ) (st3_1 t) fullShare ((dat3 W3 c).after 1 t)
    ∗ owns (c : Thread nD τ) (st3_2 t) fullShare ((dat3 W3 c).after 2 t)
    ∗ owns (c : Thread nD τ) (st3_3 t) fullShare ((dat3 W3 c).after 3 t)
    ∗ owns (c : Thread nD τ) (st3_4 t) fullShare ((dat3 W3 c).after 4 t)
    ∗ owns (c : Thread nD τ) (st3_5 t) fullShare ((dat3 W3 c).after 5 t))

/-- The body at any point: the inputs' buffers hold their blocks, so the body's triple applies; the
    invariant and what the core owes pass through unread. Window 0's buffer comes back as it was handed
    over; the result is computed from it, and equals the named one because the filler is never read. -/
theorem sound_body3 (c : Dev nD) (t : Fin cfg3.N) :
    bodyPre3 W3 c t ⊢ wp frame (wpE (defs₀ (F := F)) Variants.none c none) Set.univ (bodyAt3 t) (fun _ => bodyPost3 W3 c t) := by
  unfold bodyPre3 bodyPost3 bodyAt3
  simp only [before3_1, before3_2, before3_3, before3_4]
  rw [show (dat3 W3 c).Φ t.succ = (dat3 W3 c).Φ t.castSucc from rfl,
    show (dat3 W3 c).owesAt (none : HIx 1) t.succ = (dat3 W3 c).owesAt (none : HIx 1) t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  rw [before3_0 W3 c t d0]
  iapply (sound_kernel3 (U := UU) c Set.univ (grid3.coords t) _ _ _ _ _ _ _ _ _ _ _ _
    (win3_0.fill (grid3.coords t) d0 (iblk3 W3 c 0 t)) (iblk3 W3 c 1 t) (iblk3 W3 c 2 t) (iblk3 W3 c 3 t) (iblk3 W3 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st3_0 t) fullShare (win3_0.fill (grid3.coords t) d0 (win3_0.cut (grid3.coords t) (xblk3 W3 c t)))
    rw [xblk3_cut]; try iexact H0
  isplitl [H1]; · iexact H1
  isplitl [H2]; · iexact H2
  isplitl [H3]; · iexact H3
  isplitl [H4]; · iexact H4
  rw [xblk3_eq W3 c t d0]; try iexact H5

/-- The library's body obligation, at every point. -/
theorem body_obligation3 (c : Dev nD) :
    BodyObligationLoose (dat3 W3 c) (defs₀ (F := F)) Variants.none (none : HIx 1) Set.univ := fun t => by
  rw [bigSep_W3, bigSep_W3]
  exact sound_body3 W3 c t

end Cert.Proof.KI

end
-- ==== Proof.KI.TcBody4.lean ====
import proofs.«214605_g64536178589837_cont_9to1_m_912_2_alg».proof.Proof.Gen.KernelIdeal.Launch
import proofs.«214605_g64536178589837_cont_9to1_m_912_2_alg».proof.Proof.Gen.KernelIdeal.Skeleton
import proofs.«214605_g64536178589837_cont_9to1_m_912_2_alg».proof.Proof.Gen.KernelIdeal.Points
import Idealize.ShloMosaic.Lib.Pipeline.FrameBody
import Idealize.ShloMosaic.Lib.Ring
import Idealize.ShloMosaic.Lib.Tactic

/-! # The Hoare triple of the dense body number 4

The body reads five whole staging buffers (activations, two weight matrices, two bias rows), computes
one value from them, and overwrites the whole sixth buffer with it. Hence: owning the five inputs at
their contents and the sixth at anything, the body runs to a state where the inputs are unchanged and
the sixth buffer holds that value, read through the rectangles of the loads. -/

-- membership in a rectangle with a thousand rows: the structural check recurses once per coordinate
set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (Idealize.ShloMosaic.SparseCore.Cfg.HIx 1) (Elt F) ℕ U ℕ

/-! ## The rectangles the body reads and writes: each is its whole buffer -/

abbrev r4 : Rect S1000x384 := Rect.unit (s := S1000x384) ![0, 0] S1000x384.size inb_S1000x384_S1000x384_0_0
abbrev rW4 : Rect S384x384 := Rect.unit (s := S384x384) ![0, 0] S384x384.size inb_S384x384_S384x384_0_0
abbrev rB4 : Rect S1x384 := Rect.unit (s := S1x384) ![0, 0] S1x384.size inb_S1x384_S1x384_0_0

/-! ## What the body leaves in the output buffer -/

/-- The output buffer after the body, as a function of the five input buffers: the one store, whose
    payload is computed from the five loads. -/
def out4 (x0 : Vec F S1000x384 .f32) (x1 : Vec F S384x384 .f32) (x2 : Vec F S1x384 .f32) (x3 : Vec F S384x384 .f32) (x4 : Vec F S1x384 .f32) :
    Vec F S1000x384 .f32 :=
  View.canon [⟨r4, k4_pay1 (View.ld x0 r4) (View.ld x1 rW4) (View.ld x2 rB4) (View.ld x3 rW4) (View.ld x4 rB4)⟩]

/-- The one store's rectangle is the whole buffer, so every index lies in it. -/
theorem cover4 (p0 : Vec F S1000x384 .f32) (y : S1000x384.Idx) :
    ∃ pc ∈ ([⟨r4, p0⟩] : List (View.Piece (Elt F) S1000x384 .f32)), y ∈ pc.1.set :=
  View.cover_of_tiled [⟨r4, p0⟩] S1000x384.size (by rfl) y

/-! ## The body's triple -/

set_option maxHeartbeats 1000000 in
/-- Owning the five inputs at `x0 … x4` and the output buffer at anything, the body runs to the
    continuation with the inputs as they were and the output buffer at `out4 x0 x1 x2 x3 x4`. -/
theorem sound_kernel4 (c : Dev nD) (E : Set ℕ) (i : grid4.Coords)
    (arg1 : Memref sig .tc .vmem S1000x384 .f32) (harg1 : arg1.IsWhole) (arg2 : Memref sig .tc .vmem S384x384 .f32) (harg2 : arg2.IsWhole)
    (arg3 : Memref sig .tc .vmem S1x384 .f32) (harg3 : arg3.IsWhole) (arg4 : Memref sig .tc .vmem S384x384 .f32) (harg4 : arg4.IsWhole)
    (arg5 : Memref sig .tc .vmem S1x384 .f32) (harg5 : arg5.IsWhole) (arg6 : Memref sig .tc .vmem S1000x384 .f32) (harg6 : arg6.IsWhole)
    (x0 : Vec F S1000x384 .f32) (x1 : Vec F S384x384 .f32) (x2 : Vec F S1x384 .f32) (x3 : Vec F S384x384 .f32) (x4 : Vec F S1x384 .f32)
    (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4 x0 x1 x2 x3 x4)) -∗ Kc ⟨⟩))
      ⊢ wp frame (wpE (defs₀ (F := F)) Variants.none c none) E
          (cc4__mlp_body i arg1 harg1 arg2 harg2 arg3 harg3 arg4 harg4 arg5 harg5 arg6 harg6) Kc := by
  simp only [cc4__mlp_body_eq_skeleton]; unfold cc4__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store, run against the six held buffers
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- reading the written buffer is the canon of the one covering store
  exact View.read_writes_eq_canon _ _ _ (cover4 _)

end Cert.KernelIdeal.TcBody

end
-- ==== Proof.KI.RegData4.lean ====
import proofs.«214605_g64536178589837_cont_9to1_m_912_2_alg».proof.Proof.KI.Setup
import proofs.«214605_g64536178589837_cont_9to1_m_912_2_alg».proof.Proof.KI.TcBody4
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-! # Row-blocked pipeline number 4: what its staging buffers hold, point by point

At every point of its grid the pipeline fetches one 1000-row block of the gathered array (window 0),
keeps the two weight matrices and the two bias rows it fetched at the first point (windows 1 to 4),
runs the dense body, and writes the 1000-row result block back (window 5). This file names those
contents and proves that the body, run on them, leaves what is named. Window 0's array does not divide
into whole blocks, so its block is described at the block's full shape by filling; at the points the
grid visits the block is never cut, so the filler is never read. -/

set_option maxRecDepth 16384

noncomputable section

namespace Cert.Proof.KI

open Cert.KernelIdeal Cert.KernelIdeal.Gen Cert.KernelIdeal.TcBody
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (W4 : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) :
    ((cfg4.win w).xblock (cfg4.grid.coords t)).Idx → Elt F (cfg4.win w).elt :=
  ((cfg4.win w).blk t).view.read (Elt F) (W4 c (Pipeline.arrRef spec4 w))

/-- At every point of the grid, window 0's block lies inside its array on both axes. -/
theorem clip4_0 : ∀ (t : Fin cfg4.N) (a : Fin win4_0.shape.rank), (cfg4.win 0).clip (cfg4.grid.coords t) a = none :=
  (by decide +kernel : ∀ (t : Fin grid4.N) (a : Fin win4_0.shape.rank), win4_0.clip (grid4.coords t) a = none)

/-- Window 0's block at point `t` at the block's full shape: the part inside the array, filled out with
    the zero word (nowhere, at a point of the grid: `xblk4_eq`). -/
def xblk4 (c : Dev nD) (t : Fin cfg4.N) : Vec F S1000x384 .f32 :=
  win4_0.fill (grid4.coords t) (fun _ => Scalar.ofBits .f32 0#32) (iblk4 W4 c 0 t)

/-- Its part inside the array is the block read off the array. -/
theorem xblk4_cut (c : Dev nD) (t : Fin cfg4.N) : win4_0.cut (grid4.coords t) (xblk4 W4 c t) = iblk4 W4 c 0 t :=
  win4_0.cut_fill _ _ _

/-- The filler is never read: the block is not cut at a point of the grid. -/
theorem xblk4_eq (c : Dev nD) (t : Fin cfg4.N) (d : S1000x384.Idx → Elt F .f32) :
    xblk4 W4 c t = win4_0.fill (grid4.coords t) d (iblk4 W4 c 0 t) :=
  Pipeline.fill_of_clip_none (cfg := cfg4) 0 (grid4.coords t) (clip4_0 t) _ d _

/-! ## The pipeline's proof data -/

/-- The proof data on core `c`: the arrays as the region finds them; after the body at point `t` each
    input's buffer at its block and the output's at `out4` of the input blocks; the invariant the
    core's other scoped buffers, untouched; nothing owed; full shares. -/
def dat4 (c : Dev nD) : Pipeline.Dat τ (Elt F) (HIx 1) ℕ UU ℕ cfg4 c where
  A w := W4 c (Pipeline.arrRef spec4 w)
  after w t := match w with
    | ⟨0, _⟩ => xblk4 W4 c t
    | ⟨1, _⟩ => iblk4 W4 c 1 t
    | ⟨2, _⟩ => iblk4 W4 c 2 t
    | ⟨3, _⟩ => iblk4 W4 c 3 t
    | ⟨4, _⟩ => iblk4 W4 c 4 t
    | ⟨5, _⟩ => out4 (xblk4 W4 c t) (iblk4 W4 c 1 t) (iblk4 W4 c 2 t) (iblk4 W4 c 3 t) (iblk4 W4 c 4 t)
  Φ _ := Pipeline.scopedRest (Ix := HIx 1) (Name := ℕ) (U := UU) (Lvl := ℕ) (Val := Elt F) spec4 c
  q _ := fullShare
  owed _ := 0

theorem A_eq4 (c : Dev nD) (w : Fin cfg4.W) : (dat4 W4 c).A w = W4 c (Pipeline.arrRef spec4 w) := by
  dsimp only [dat4]

theorem after4_0 (c : Dev nD) (t : Fin cfg4.N) : (dat4 W4 c).after 0 t = xblk4 W4 c t := by dsimp only [dat4]
theorem after4_1 (c : Dev nD) (t : Fin cfg4.N) : (dat4 W4 c).after 1 t = iblk4 W4 c 1 t := by dsimp only [dat4]
theorem after4_2 (c : Dev nD) (t : Fin cfg4.N) : (dat4 W4 c).after 2 t = iblk4 W4 c 2 t := by dsimp only [dat4]
theorem after4_3 (c : Dev nD) (t : Fin cfg4.N) : (dat4 W4 c).after 3 t = iblk4 W4 c 3 t := by dsimp only [dat4]
theorem after4_4 (c : Dev nD) (t : Fin cfg4.N) : (dat4 W4 c).after 4 t = iblk4 W4 c 4 t := by dsimp only [dat4]
theorem after4_5 (c : Dev nD) (t : Fin cfg4.N) : (dat4 W4 c).after 5 t
    = out4 (xblk4 W4 c t) (iblk4 W4 c 1 t) (iblk4 W4 c 2 t) (iblk4 W4 c 3 t) (iblk4 W4 c 4 t) := by dsimp only [dat4]

theorem owed4 (c : Dev nD) (t : Fin (cfg4.N + 1)) : (dat4 W4 c).owed t = 0 := rfl

theorem share4 (c : Dev nD) (w : Fin cfg4.W) : (dat4 W4 c).share w = fullShare :=
  (dat4 W4 c).share_full (fun _ => rfl) w

/-! ## What the body finds in each buffer -/

/-- Window 0 is fetched at every point: its buffer holds the block on the part the fetch fills, and what
    it held (`d`) elsewhere. -/
theorem before4_0 (c : Dev nD) (t : Fin cfg4.N) (d) :
    (dat4 W4 c).before 0 t d = win4_0.fill (grid4.coords t) d (iblk4 W4 c 0 t) := by
  unfold Dat.before; rw [if_pos (fetch4_0 t)]
  unfold Dat.fetched Dat.blockOf iblk4; rw [A_eq4]; try rfl

/-- Input window 1 is a whole array fetched once: its staging buffer holds that block at every point. -/
theorem before4_1 (c : Dev nD) (t : Fin cfg4.N) (d) : (dat4 W4 c).before 1 t d = iblk4 W4 c 1 t :=
  ((dat4 W4 c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

/-- Input window 2 is a whole array fetched once: its staging buffer holds that block at every point. -/
theorem before4_2 (c : Dev nD) (t : Fin cfg4.N) (d) : (dat4 W4 c).before 2 t d = iblk4 W4 c 2 t :=
  ((dat4 W4 c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

/-- Input window 3 is a whole array fetched once: its staging buffer holds that block at every point. -/
theorem before4_3 (c : Dev nD) (t : Fin cfg4.N) (d) : (dat4 W4 c).before 3 t d = iblk4 W4 c 3 t :=
  ((dat4 W4 c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-- Input window 4 is a whole array fetched once: its staging buffer holds that block at every point. -/
theorem before4_4 (c : Dev nD) (t : Fin cfg4.N) (d) : (dat4 W4 c).before 4 t d = iblk4 W4 c 4 t :=
  ((dat4 W4 c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (c : Dev nD) (t : Fin cfg4.N) : sProp 𝕄 :=
  iprop((dat4 W4 c).Φ t.castSucc ∗ (dat4 W4 c).owesAt (none : HIx 1) t.castSucc
    ∗ (∃ d, owns (c : Thread nD τ) (st4_0 t) fullShare ((dat4 W4 c).before 0 t d))
    ∗ (∃ d, owns (c : Thread nD τ) (st4_1 t) fullShare ((dat4 W4 c).before 1 t d))
    ∗ (∃ d, owns (c : Thread nD τ) (st4_2 t) fullShare ((dat4 W4 c).before 2 t d))
    ∗ (∃ d, owns (c : Thread nD τ) (st4_3 t) fullShare ((dat4 W4 c).before 3 t d))
    ∗ (∃ d, owns (c : Thread nD τ) (st4_4 t) fullShare ((dat4 W4 c).before 4 t d))
    ∗ (∃ d, owns (c : Thread nD τ) (st4_5 t) fullShare ((dat4 W4 c).before 5 t d)))

/-- and what it returns: window 0's buffer stated on the part its transfers move, the others' outright. -/
def bodyPost4 (c : Dev nD) (t : Fin cfg4.N) : sProp 𝕄 :=
  iprop((dat4 W4 c).Φ t.succ ∗ (dat4 W4 c).owesAt (none : HIx 1) t.succ
    ∗ (∃ d, owns (c : Thread nD τ) (st4_0 t) fullShare
        ((cfg4.win 0).fill (cfg4.grid.coords t) d ((cfg4.win 0).cut (cfg4.grid.coords t) ((dat4 W4 c).after 0 t))))
    ∗ owns (c : Thread nD τ) (st4_1 t) fullShare ((dat4 W4 c).after 1 t)
    ∗ owns (c : Thread nD τ) (st4_2 t) fullShare ((dat4 W4 c).after 2 t)
    ∗ owns (c : Thread nD τ) (st4_3 t) fullShare ((dat4 W4 c).after 3 t)
    ∗ owns (c : Thread nD τ) (st4_4 t) fullShare ((dat4 W4 c).after 4 t)
    ∗ owns (c : Thread nD τ) (st4_5 t) fullShare ((dat4 W4 c).after 5 t))

/-- The body at any point: the inputs' buffers hold their blocks, so the body's triple applies; the
    invariant and what the core owes pass through unread. Window 0's buffer comes back as it was handed
    over; the result is computed from it, and equals the named one because the filler is never read. -/
theorem sound_body4 (c : Dev nD) (t : Fin cfg4.N) :
    bodyPre4 W4 c t ⊢ wp frame (wpE (defs₀ (F := F)) Variants.none c none) Set.univ (bodyAt4 t) (fun _ => bodyPost4 W4 c t) := by
  unfold bodyPre4 bodyPost4 bodyAt4
  simp only [before4_1, before4_2, before4_3, before4_4]
  rw [show (dat4 W4 c).Φ t.succ = (dat4 W4 c).Φ t.castSucc from rfl,
    show (dat4 W4 c).owesAt (none : HIx 1) t.succ = (dat4 W4 c).owesAt (none : HIx 1) t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  rw [before4_0 W4 c t d0]
  iapply (sound_kernel4 (U := UU) c Set.univ (grid4.coords t) _ _ _ _ _ _ _ _ _ _ _ _
    (win4_0.fill (grid4.coords t) d0 (iblk4 W4 c 0 t)) (iblk4 W4 c 1 t) (iblk4 W4 c 2 t) (iblk4 W4 c 3 t) (iblk4 W4 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st4_0 t) fullShare (win4_0.fill (grid4.coords t) d0 (win4_0.cut (grid4.coords t) (xblk4 W4 c t)))
    rw [xblk4_cut]; try iexact H0
  isplitl [H1]; · iexact H1
  isplitl [H2]; · iexact H2
  isplitl [H3]; · iexact H3
  isplitl [H4]; · iexact H4
  rw [xblk4_eq W4 c t d0]; try iexact H5

/-- The library's body obligation, at every point. -/
theorem body_obligation4 (c : Dev nD) :
    BodyObligationLoose (dat4 W4 c) (defs₀ (F := F)) Variants.none (none : HIx 1) Set.univ := fun t => by
  rw [bigSep_W4, bigSep_W4]
  exact sound_body4 W4 c t

end Cert.Proof.KI

end
-- ==== Proof.KI.RegData.lean ====
import proofs.«214605_g64536178589837_cont_9to1_m_912_2_alg».proof.Proof.KI.RegData1
import proofs.«214605_g64536178589837_cont_9to1_m_912_2_alg».proof.Proof.KI.RegData2
import proofs.«214605_g64536178589837_cont_9to1_m_912_2_alg».proof.Proof.KI.RegData3
import proofs.«214605_g64536178589837_cont_9to1_m_912_2_alg».proof.Proof.KI.RegData4

/-! # The four row-blocked pipelines as one family

The proof data of the four pipelines, indexed by the pipeline, with the facts the launch asks of every
member: the body obligation, full shares, nothing owed. -/

noncomputable section

namespace Cert.Proof.KI

open Cert.KernelIdeal Cert.KernelIdeal.Gen Cert.KernelIdeal.TcBody
open Idealize.ShloMosaic Idealize.ShloMosaic.TcCoe
open Idealize.ShloMosaic.SparseCore.Cfg (HIx)
open Idealize.SL Idealize.SL.RA Idealize.SL.BI
open Idealize.SL.Sem
open Idealize.ShloMosaic.Pipeline (Dat Cfg Window BodyObligation BodyObligationLoose cellOf)

variable {F : FTy → Type} [FloatOps F]

/-- No pipeline prefetches a table: each has its one admissible contents. -/
abbrev adm : (p : Fin 4) → (pcfgs (F := F) p).Adm := fun p => (cfgs p).toPCfg_adm

variable (W1 W2 W3 W4 : (c : Dev nD) → (b : Ref sig .tc) → Buf (Elt F) ((c : Thread nD τ).loc b))

/-- The family's proof data: pipeline `p`'s is `dat(p+1)`, over the arrays as region `p` finds them. -/
def pdats : (p : Fin 4) → (c : Dev nD) → Pipeline.Dat τ (Elt F) (HIx 1) ℕ UU ℕ (Pipeline.pin (pcfgs (F := F)) adm p) c
  | ⟨0, _⟩ => dat1 W1
  | ⟨1, _⟩ => dat2 W2
  | ⟨2, _⟩ => dat3 W3
  | ⟨3, _⟩ => dat4 W4

theorem pdats_0 : pdats W1 W2 W3 W4 0 = dat1 W1 := rfl
theorem pdats_1 : pdats W1 W2 W3 W4 1 = dat2 W2 := rfl
theorem pdats_2 : pdats W1 W2 W3 W4 2 = dat3 W3 := rfl
theorem pdats_3 : pdats W1 W2 W3 W4 3 = dat4 W4 := rfl

/-- Every member meets the body obligation, -/
theorem pbody (p : Fin 4) (c : Dev nD) :
    BodyObligationLoose (pdats W1 W2 W3 W4 p c) (defs₀ (F := F)) Variants.none (none : HIx 1) Set.univ :=
  match p with
  | ⟨0, _⟩ => body_obligation1 W1 c
  | ⟨1, _⟩ => body_obligation2 W2 c
  | ⟨2, _⟩ => body_obligation3 W3 c
  | ⟨3, _⟩ => body_obligation4 W4 c

/-- holds every array at the full share, -/
theorem pshare (p : Fin 4) (c : Dev nD) (w : Fin (Pipeline.pin (pcfgs (F := F)) adm p).W) : (pdats W1 W2 W3 W4 p c).share w = fullShare :=
  match p with
  | ⟨0, _⟩ => share1 W1 c w
  | ⟨1, _⟩ => share2 W2 c w
  | ⟨2, _⟩ => share3 W3 c w
  | ⟨3, _⟩ => share4 W4 c w

/-- and owes nothing at any point. -/
theorem powed (p : Fin 4) (c : Dev nD) (t : Fin ((Pipeline.pin (pcfgs (F := F)) adm p).N + 1)) : (pdats W1 W2 W3 W4 p c).owed t = 0 :=
  match p with
  | ⟨0, _⟩ => owed1 W1 c t
  | ⟨1, _⟩ => owed2 W2 c t
  | ⟨2, _⟩ => owed3 W3 c t
  | ⟨3, _⟩ => owed4 W4 c t

end Cert.Proof.KI

end
-- ==== Proof.KI.Regions.lean ====
/-
  @main of the idealized kernel as six host stretches with the gather's call and the four perceptron regions between
  them; each region's record for the pipelines' region rule (what it is entered from, what it leaves, how the arrays it
  stages are sorted out of the TensorCore's arrays and put back); the rule that runs a region's call inside the
  SparseCore program; and the contents of every array @main names, stage by stage, as one chain of valuations.
-/
import proofs.«214605_g64536178589837_cont_9to1_m_912_2_alg».proof.Proof.KI.Setup
import proofs.«214605_g64536178589837_cont_9to1_m_912_2_alg».proof.Proof.KI.ScSide
import proofs.«214605_g64536178589837_cont_9to1_m_912_2_alg».proof.Proof.KI.RegData

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## @main's host stretches -/

/-- Before the gather: the index lists joined, and padded with zeros to 614400 words. -/
abbrev ops0 : List (HloOp τ sig (Elt F)) :=
  [StableHlo.nary ![main_arg1, main_arg2, main_arg3, main_arg4] main_v0 (fun u => concatenate S600000 0 [⟨S100000, u 0⟩, ⟨S200000, u 1⟩, ⟨S150000, u 2⟩, ⟨S150000, u 3⟩] concatenates_S100000_S200000_S150000_S150000_S600000_d0),
   StableHlo.nullary main_c (constantI S_ 32 0#32),
   StableHlo.TRef.unary (StableHlo.TRef.of main_c : StableHlo.TRef sig ⟨S_, .i32⟩) main_call0.v0 id,
   StableHlo.TRef.binary (StableHlo.TRef.of main_v0 : StableHlo.TRef sig ⟨S600000, .i32⟩) main_call0.v0 main_call0.v1 (fun x v => pad S614400 ![0] ![14400] ![0] x v pads_S600000_S614400_0144000 h_S_)]
/-- Before the first perceptron: its two bias rows. -/
abbrev ops1 : List (HloOp τ sig (Elt F)) :=
  [StableHlo.reshape main_arg6 main_v3 rfl shapeCasts_S128_S1x128, StableHlo.reshape main_arg8 main_v4 rfl shapeCasts_S128_S1x128]
/-- Before the second: the gathered rows paired, and its bias rows. -/
abbrev ops2 : List (HloOp τ sig (Elt F)) :=
  [StableHlo.reshape main_v2 main_v6 rfl shapeCasts_S614400x128_S307200x256, StableHlo.reshape main_arg10 main_v7 rfl shapeCasts_S256_S1x256,
   StableHlo.reshape main_arg12 main_v8 rfl shapeCasts_S256_S1x256]
abbrev ops3 : List (HloOp τ sig (Elt F)) :=
  [StableHlo.reshape main_v9 main_v10 rfl shapeCasts_S100000x256_S200000x128, StableHlo.reshape main_v2 main_v11 rfl shapeCasts_S614400x128_S307200x256,
   StableHlo.reshape main_arg14 main_v12 rfl shapeCasts_S256_S1x256, StableHlo.reshape main_arg16 main_v13 rfl shapeCasts_S256_S1x256]
abbrev ops4 : List (HloOp τ sig (Elt F)) :=
  [StableHlo.reshape main_v14 main_v15 rfl shapeCasts_S75000x256_S150000x128, StableHlo.reshape main_v2 main_v16 rfl shapeCasts_S614400x128_S204800x384,
   StableHlo.reshape main_arg18 main_v17 rfl shapeCasts_S384_S1x384, StableHlo.reshape main_arg20 main_v18 rfl shapeCasts_S384_S1x384]
abbrev ops5 : List (HloOp τ sig (Elt F)) :=
  [StableHlo.reshape main_v19 main_v20 rfl shapeCasts_S50000x384_S150000x128,
   StableHlo.nary ![main_v5, main_v10, main_v15, main_v20] main_v21 (fun u => concatenate S600000x128 0 [⟨S100000x128, u 0⟩, ⟨S200000x128, u 1⟩, ⟨S150000x128, u 2⟩, ⟨S150000x128, u 3⟩] concatenates_S100000x128_S200000x128_S150000x128_S150000x128_S600000x128_d0),
   StableHlo.nary ![main_arg1, main_arg2, main_arg3, main_arg4] main_v22 (fun u => concatenate S600000 0 [⟨S100000, u 0⟩, ⟨S200000, u 1⟩, ⟨S150000, u 2⟩, ⟨S150000, u 3⟩] concatenates_S100000_S200000_S150000_S150000_S600000_d0)]

abbrev Wty (c : Dev nD) : Type := (b : Ref sig .tc) → Buf (Elt F) ((c.tc : Thread nD τ).loc b)

/-! ## A region's call, from its record -/

section Regions
variable (W1 W2 W3 W4 : (c : Dev nD) → Wty (F := F) c)

abbrev regionCall (p : Fin 4) : Prog (TpuEff nD τ sig (Elt F) (SparseCore.Sig (ΛP (F := F)) 1) .tc) PUnit :=
  Prog.lift (.customCall (SparseCore.inner (Pipeline.entry p)) ())

abbrev RS (p : Fin 4) := Pipeline.RegionSeg (pcfgs (F := F)) adm (pdats W1 W2 W3 W4) (none : HIx 1) defs₀ 𝒱₀ (K (F := F)).L (K (F := F)).lev p

set_option backward.isDefEq.respectTransparency.types false in
/-- A perceptron's region inside the SparseCore program: the call is the pipelines' call lifted to the extended body
    table, and the pipelines' region rule runs it from the region's record. -/
theorem wp_regionCall (p : Fin 4) (R : RS W1 W2 W3 W4 p) (d : Dev nD) {α : Type}
    (k : PUnit → Prog (TpuEff nD τ sig (Elt F) (SparseCore.Sig (ΛP (F := F)) 1) .tc) α) (Q : α → sProp 𝕄) :
    iprop((iprop(boundary (T d) ∗ R.post d) -∗ wp frame (wpE ((K (F := F)).defs (D (F := F))) 𝒱 (T d) none) Set.univ (k ⟨⟩) Q)
        ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (regionCall p >>= k) Q := by
  rw [wp_bind]
  have hreg := Pipeline.RegionSeg.wp (pcfgs (F := F)) adm (pdats W1 W2 W3 W4) (none : HIx 1) cellOf_inj (EP (F := F)) defs₀ 𝒱₀ (K (F := F)).L (K (F := F)).lev R d none
    (fun u hu => by cases hu) (fun _ => (.ret ⟨⟩ : Prog (TpuEff nD τ sig (Elt F) (ΛP (F := F)) .tc) PUnit))
    (fun _ => wp frame (wpE ((K (F := F)).defs (D (F := F))) 𝒱 (T d) none) Set.univ (k ⟨⟩) Q)
  have hlift := (K (F := F)).wp_liftProg (nD := nD) (Val := Elt F) (Name := ℕ) (U := UU) (D (F := F)) 𝒱 (T d) Set.univ none
    (.op (.customCall (Pipeline.entry p) ()) fun _ => (.ret ⟨⟩ : Prog (TpuEff nD τ sig (Elt F) (ΛP (F := F)) .tc) PUnit))
    (fun _ => wp frame (wpE ((K (F := F)).defs (D (F := F))) 𝒱 (T d) none) Set.univ (k ⟨⟩) Q)
  iintro ⟨Hk, Hb, Hpre, Hla, Hg, Ht⟩
  iapply hlift
  iapply hreg
  isplitl [Hk]
  · iintro H
    rw [wp_ret]; imodintro
    iapply Hk; iexact H
  isplitl [Hb]; · iexact Hb
  isplitl [Hpre]; · iexact Hpre
  isplitl [Hla]; · iexact Hla
  isplitl [Hg]; · iexact Hg
  iexact Ht

/-! ## The regions' records -/

/-- What the TensorCore's arrays hold after region 1: its result array at what the pipeline leaves, the rest as entered. -/
def Wout1 (c : Dev nD) : Wty (F := F) c :=
  Function.update (W1 c) (Pipeline.arrRef spec1 5) ((dat1 W1 c).arrAt 5 cfg1.N)

theorem Wout1_arr (c : Dev nD) (w : Fin cfg1.W) : Wout1 W1 c (Pipeline.arrRef spec1 w) = (dat1 W1 c).arrAt w cfg1.N := by
  unfold Wout1
  match w with
  | 0 => exact (Function.update_of_ne (by decide) _ _).trans (((dat1 W1 c).arrAt_in 0 rfl _).trans (A_eq1 W1 c 0)).symm
  | 1 => exact (Function.update_of_ne (by decide) _ _).trans (((dat1 W1 c).arrAt_in 1 rfl _).trans (A_eq1 W1 c 1)).symm
  | 2 => exact (Function.update_of_ne (by decide) _ _).trans (((dat1 W1 c).arrAt_in 2 rfl _).trans (A_eq1 W1 c 2)).symm
  | 3 => exact (Function.update_of_ne (by decide) _ _).trans (((dat1 W1 c).arrAt_in 3 rfl _).trans (A_eq1 W1 c 3)).symm
  | 4 => exact (Function.update_of_ne (by decide) _ _).trans (((dat1 W1 c).arrAt_in 4 rfl _).trans (A_eq1 W1 c 4)).symm
  | 5 => exact Function.update_self _ _ _

theorem rest_Wout1 (c : Dev nD) :
    (Pipeline.unscopedRest (Ix := HIx 1) (Name := ℕ) (U := UU) (Lvl := ℕ) spec1 c (Wout1 W1 c) : sProp 𝕄)
      = Pipeline.unscopedRest (Ix := HIx 1) (Name := ℕ) (U := UU) (Lvl := ℕ) spec1 c (W1 c) := by
  unfold Pipeline.unscopedRest
  refine bigSep_congr fun b hb => ?_
  have hne : b ≠ Pipeline.arrRef spec1 5 := fun e => (Finset.mem_sdiff.mp hb).2 (Finset.mem_image.mpr ⟨5, Finset.mem_univ _, e.symm⟩)
  unfold Wout1; rw [Function.update_of_ne hne]

def reg1 : RS W1 W2 W3 W4 0 where
  win := launch1.win.to₀
  block_pos := launch1.block_pos
  stage_whole := launch1.stage_whole
  K := PEmpty
  osem k := k.elim
  ho := Pipeline.OwnSemFacts.none _
  hbody c := body_obligation1 W1 c
  hwaits c := Pipeline.hwaits_of_owed_zero (pcfgs (F := F)) adm (pdats W1 W2 W3 W4) (none : HIx 1) (K (F := F)).L (K (F := F)).lev 0 (fun c t => owed1 W1 c t) c
  pre c := iprop(unscopedBufs c (W1 c) ∗ ∃ Wt, owes (c.tc : Thread nD τ) (0 : CellTallies nD τ sig (HIx 1)) Wt)
  post c := iprop(unscopedBufs c (Wout1 W1 c) ∗ ∃ Wt, owes (c.tc : Thread nD τ) (0 : CellTallies nD τ sig (HIx 1)) Wt)
  X _ := iprop(emp)
  Y _ := iprop(emp)
  Z c := Pipeline.unscopedRest (Ix := HIx 1) (Name := ℕ) (U := UU) (Lvl := ℕ) spec1 c (W1 c)
  hentry c := by
    rw [Pipeline.ownSems0_none]
    have hsplit := Pipeline.arrays_of_unscopedBufs (pcfgs (F := F)) adm (pdats W1 W2 W3 W4) (p := 0) launch1.win launch1.arr_whole c (share1 W1 c) (W1 c) (A_eq1 W1 c)
    iintro ⟨⟨Hub, %Wt, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun _ _ => Or.inl trivial
      iexact HO
    isplitr; · iempintro
    iexact Hr
  hin c := by
    show iprop(_ ∗ _ ∗ Pipeline.scopedRest (Ix := HIx 1) (Name := ℕ) (U := UU) (Lvl := ℕ) (Val := Elt F) spec1 c)
      ⊢ (Pipeline.scopedRest (Ix := HIx 1) (Name := ℕ) (U := UU) (Lvl := ℕ) (Val := Elt F) spec1 c : sProp 𝕄)
    iintro ⟨-, -, Hr⟩; iexact Hr
  hout c := by
    rw [Pipeline.ownSems0_none]
    show (Pipeline.scopedRest (Ix := HIx 1) (Name := ℕ) (U := UU) (Lvl := ℕ) (Val := Elt F) spec1 c : sProp 𝕄)
      ⊢ iprop(emp ∗ emp ∗ Pipeline.scopedRest (Ix := HIx 1) (Name := ℕ) (U := UU) (Lvl := ℕ) (Val := Elt F) spec1 c)
    iintro Hr
    isplitr; · iempintro
    isplitr; · iempintro
    iexact Hr
  hexit c := by
    rw [Pipeline.unscopedBufs_split (Pipeline.pin (pcfgs (F := F)) adm) 0 launch1.win.arr_unscoped launch1.win.arr_inj c (Wout1 W1 c),
      Pipeline.arrays_eq (Pipeline.pin (pcfgs (F := F)) adm) (pdats W1 W2 W3 W4) 0 c launch1.arr_whole (share1 W1 c)]
    have E3 : (Pipeline.unscopedRest (Ix := HIx 1) (Name := ℕ) (U := UU) (Lvl := ℕ) spec1 c (W1 c) : sProp 𝕄)
        = Pipeline.unscopedRest (Ix := HIx 1) (Name := ℕ) (U := UU) (Lvl := ℕ) (Pipeline.pin (pcfgs (F := F)) adm 0).spec c (Wout1 W1 c) := (rest_Wout1 W1 c).symm
    have E4 : (bigSep Finset.univ fun w : Fin (Pipeline.pin (pcfgs (F := F)) adm 0).W =>
          (((c.tc : Thread nD τ).loc (Pipeline.arrRef (Pipeline.pin (pcfgs (F := F)) adm 0).spec w)) ↦{fullShare} (pdats W1 W2 W3 W4 0 c).arrAt w (Pipeline.pin (pcfgs (F := F)) adm 0).N : sProp 𝕄))
        = bigSep Finset.univ fun w : Fin (Pipeline.pin (pcfgs (F := F)) adm 0).W =>
          (((c.tc : Thread nD τ).loc (Pipeline.arrRef (Pipeline.pin (pcfgs (F := F)) adm 0).spec w)) ↦{fullShare} Wout1 W1 c (Pipeline.arrRef (Pipeline.pin (pcfgs (F := F)) adm 0).spec w) : sProp 𝕄) :=
      bigSep_congr fun w _ => by rw [show Wout1 W1 c (Pipeline.arrRef (Pipeline.pin (pcfgs (F := F)) adm 0).spec w) = (pdats W1 W2 W3 W4 0 c).arrAt w (Pipeline.pin (pcfgs (F := F)) adm 0).N from Wout1_arr W1 c w]
    iintro ⟨Ha, HO, -, Hr⟩
    imodintro
    isplitl [Ha Hr]
    · isplitl [Ha]
      · iapply (Entails.of_eq E4); iexact Ha
      · iapply (Entails.of_eq E3); iexact Hr
    · unfold Pipeline.Dat.owesAt Pipeline.owesWithin
      icases HO with ⟨%Wt, -, HO⟩; iexists Wt; iexact HO

/-- What the TensorCore's arrays hold after region 2: its result array at what the pipeline leaves, the rest as entered. -/
def Wout2 (c : Dev nD) : Wty (F := F) c :=
  Function.update (W2 c) (Pipeline.arrRef spec2 5) ((dat2 W2 c).arrAt 5 cfg2.N)

theorem Wout2_arr (c : Dev nD) (w : Fin cfg2.W) : Wout2 W2 c (Pipeline.arrRef spec2 w) = (dat2 W2 c).arrAt w cfg2.N := by
  unfold Wout2
  match w with
  | 0 => exact (Function.update_of_ne (by decide) _ _).trans (((dat2 W2 c).arrAt_in 0 rfl _).trans (A_eq2 W2 c 0)).symm
  | 1 => exact (Function.update_of_ne (by decide) _ _).trans (((dat2 W2 c).arrAt_in 1 rfl _).trans (A_eq2 W2 c 1)).symm
  | 2 => exact (Function.update_of_ne (by decide) _ _).trans (((dat2 W2 c).arrAt_in 2 rfl _).trans (A_eq2 W2 c 2)).symm
  | 3 => exact (Function.update_of_ne (by decide) _ _).trans (((dat2 W2 c).arrAt_in 3 rfl _).trans (A_eq2 W2 c 3)).symm
  | 4 => exact (Function.update_of_ne (by decide) _ _).trans (((dat2 W2 c).arrAt_in 4 rfl _).trans (A_eq2 W2 c 4)).symm
  | 5 => exact Function.update_self _ _ _

theorem rest_Wout2 (c : Dev nD) :
    (Pipeline.unscopedRest (Ix := HIx 1) (Name := ℕ) (U := UU) (Lvl := ℕ) spec2 c (Wout2 W2 c) : sProp 𝕄)
      = Pipeline.unscopedRest (Ix := HIx 1) (Name := ℕ) (U := UU) (Lvl := ℕ) spec2 c (W2 c) := by
  unfold Pipeline.unscopedRest
  refine bigSep_congr fun b hb => ?_
  have hne : b ≠ Pipeline.arrRef spec2 5 := fun e => (Finset.mem_sdiff.mp hb).2 (Finset.mem_image.mpr ⟨5, Finset.mem_univ _, e.symm⟩)
  unfold Wout2; rw [Function.update_of_ne hne]

def reg2 : RS W1 W2 W3 W4 1 where
  win := launch2.win.to₀
  block_pos := launch2.block_pos
  stage_whole := launch2.stage_whole
  K := PEmpty
  osem k := k.elim
  ho := Pipeline.OwnSemFacts.none _
  hbody c := body_obligation2 W2 c
  hwaits c := Pipeline.hwaits_of_owed_zero (pcfgs (F := F)) adm (pdats W1 W2 W3 W4) (none : HIx 1) (K (F := F)).L (K (F := F)).lev 1 (fun c t => owed2 W2 c t) c
  pre c := iprop(unscopedBufs c (W2 c) ∗ ∃ Wt, owes (c.tc : Thread nD τ) (0 : CellTallies nD τ sig (HIx 1)) Wt)
  post c := iprop(unscopedBufs c (Wout2 W2 c) ∗ ∃ Wt, owes (c.tc : Thread nD τ) (0 : CellTallies nD τ sig (HIx 1)) Wt)
  X _ := iprop(emp)
  Y _ := iprop(emp)
  Z c := Pipeline.unscopedRest (Ix := HIx 1) (Name := ℕ) (U := UU) (Lvl := ℕ) spec2 c (W2 c)
  hentry c := by
    rw [Pipeline.ownSems0_none]
    have hsplit := Pipeline.arrays_of_unscopedBufs (pcfgs (F := F)) adm (pdats W1 W2 W3 W4) (p := 1) launch2.win launch2.arr_whole c (share2 W2 c) (W2 c) (A_eq2 W2 c)
    iintro ⟨⟨Hub, %Wt, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun _ _ => Or.inl trivial
      iexact HO
    isplitr; · iempintro
    iexact Hr
  hin c := by
    show iprop(_ ∗ _ ∗ Pipeline.scopedRest (Ix := HIx 1) (Name := ℕ) (U := UU) (Lvl := ℕ) (Val := Elt F) spec2 c)
      ⊢ (Pipeline.scopedRest (Ix := HIx 1) (Name := ℕ) (U := UU) (Lvl := ℕ) (Val := Elt F) spec2 c : sProp 𝕄)
    iintro ⟨-, -, Hr⟩; iexact Hr
  hout c := by
    rw [Pipeline.ownSems0_none]
    show (Pipeline.scopedRest (Ix := HIx 1) (Name := ℕ) (U := UU) (Lvl := ℕ) (Val := Elt F) spec2 c : sProp 𝕄)
      ⊢ iprop(emp ∗ emp ∗ Pipeline.scopedRest (Ix := HIx 1) (Name := ℕ) (U := UU) (Lvl := ℕ) (Val := Elt F) spec2 c)
    iintro Hr
    isplitr; · iempintro
    isplitr; · iempintro
    iexact Hr
  hexit c := by
    rw [Pipeline.unscopedBufs_split (Pipeline.pin (pcfgs (F := F)) adm) 1 launch2.win.arr_unscoped launch2.win.arr_inj c (Wout2 W2 c),
      Pipeline.arrays_eq (Pipeline.pin (pcfgs (F := F)) adm) (pdats W1 W2 W3 W4) 1 c launch2.arr_whole (share2 W2 c)]
    have E3 : (Pipeline.unscopedRest (Ix := HIx 1) (Name := ℕ) (U := UU) (Lvl := ℕ) spec2 c (W2 c) : sProp 𝕄)
        = Pipeline.unscopedRest (Ix := HIx 1) (Name := ℕ) (U := UU) (Lvl := ℕ) (Pipeline.pin (pcfgs (F := F)) adm 1).spec c (Wout2 W2 c) := (rest_Wout2 W2 c).symm
    have E4 : (bigSep Finset.univ fun w : Fin (Pipeline.pin (pcfgs (F := F)) adm 1).W =>
          (((c.tc : Thread nD τ).loc (Pipeline.arrRef (Pipeline.pin (pcfgs (F := F)) adm 1).spec w)) ↦{fullShare} (pdats W1 W2 W3 W4 1 c).arrAt w (Pipeline.pin (pcfgs (F := F)) adm 1).N : sProp 𝕄))
        = bigSep Finset.univ fun w : Fin (Pipeline.pin (pcfgs (F := F)) adm 1).W =>
          (((c.tc : Thread nD τ).loc (Pipeline.arrRef (Pipeline.pin (pcfgs (F := F)) adm 1).spec w)) ↦{fullShare} Wout2 W2 c (Pipeline.arrRef (Pipeline.pin (pcfgs (F := F)) adm 1).spec w) : sProp 𝕄) :=
      bigSep_congr fun w _ => by rw [show Wout2 W2 c (Pipeline.arrRef (Pipeline.pin (pcfgs (F := F)) adm 1).spec w) = (pdats W1 W2 W3 W4 1 c).arrAt w (Pipeline.pin (pcfgs (F := F)) adm 1).N from Wout2_arr W2 c w]
    iintro ⟨Ha, HO, -, Hr⟩
    imodintro
    isplitl [Ha Hr]
    · isplitl [Ha]
      · iapply (Entails.of_eq E4); iexact Ha
      · iapply (Entails.of_eq E3); iexact Hr
    · unfold Pipeline.Dat.owesAt Pipeline.owesWithin
      icases HO with ⟨%Wt, -, HO⟩; iexists Wt; iexact HO

/-- What the TensorCore's arrays hold after region 3: its result array at what the pipeline leaves, the rest as entered. -/
def Wout3 (c : Dev nD) : Wty (F := F) c :=
  Function.update (W3 c) (Pipeline.arrRef spec3 5) ((dat3 W3 c).arrAt 5 cfg3.N)

theorem Wout3_arr (c : Dev nD) (w : Fin cfg3.W) : Wout3 W3 c (Pipeline.arrRef spec3 w) = (dat3 W3 c).arrAt w cfg3.N := by
  unfold Wout3
  match w with
  | 0 => exact (Function.update_of_ne (by decide) _ _).trans (((dat3 W3 c).arrAt_in 0 rfl _).trans (A_eq3 W3 c 0)).symm
  | 1 => exact (Function.update_of_ne (by decide) _ _).trans (((dat3 W3 c).arrAt_in 1 rfl _).trans (A_eq3 W3 c 1)).symm
  | 2 => exact (Function.update_of_ne (by decide) _ _).trans (((dat3 W3 c).arrAt_in 2 rfl _).trans (A_eq3 W3 c 2)).symm
  | 3 => exact (Function.update_of_ne (by decide) _ _).trans (((dat3 W3 c).arrAt_in 3 rfl _).trans (A_eq3 W3 c 3)).symm
  | 4 => exact (Function.update_of_ne (by decide) _ _).trans (((dat3 W3 c).arrAt_in 4 rfl _).trans (A_eq3 W3 c 4)).symm
  | 5 => exact Function.update_self _ _ _

theorem rest_Wout3 (c : Dev nD) :
    (Pipeline.unscopedRest (Ix := HIx 1) (Name := ℕ) (U := UU) (Lvl := ℕ) spec3 c (Wout3 W3 c) : sProp 𝕄)
      = Pipeline.unscopedRest (Ix := HIx 1) (Name := ℕ) (U := UU) (Lvl := ℕ) spec3 c (W3 c) := by
  unfold Pipeline.unscopedRest
  refine bigSep_congr fun b hb => ?_
  have hne : b ≠ Pipeline.arrRef spec3 5 := fun e => (Finset.mem_sdiff.mp hb).2 (Finset.mem_image.mpr ⟨5, Finset.mem_univ _, e.symm⟩)
  unfold Wout3; rw [Function.update_of_ne hne]

def reg3 : RS W1 W2 W3 W4 2 where
  win := launch3.win.to₀
  block_pos := launch3.block_pos
  stage_whole := launch3.stage_whole
  K := PEmpty
  osem k := k.elim
  ho := Pipeline.OwnSemFacts.none _
  hbody c := body_obligation3 W3 c
  hwaits c := Pipeline.hwaits_of_owed_zero (pcfgs (F := F)) adm (pdats W1 W2 W3 W4) (none : HIx 1) (K (F := F)).L (K (F := F)).lev 2 (fun c t => owed3 W3 c t) c
  pre c := iprop(unscopedBufs c (W3 c) ∗ ∃ Wt, owes (c.tc : Thread nD τ) (0 : CellTallies nD τ sig (HIx 1)) Wt)
  post c := iprop(unscopedBufs c (Wout3 W3 c) ∗ ∃ Wt, owes (c.tc : Thread nD τ) (0 : CellTallies nD τ sig (HIx 1)) Wt)
  X _ := iprop(emp)
  Y _ := iprop(emp)
  Z c := Pipeline.unscopedRest (Ix := HIx 1) (Name := ℕ) (U := UU) (Lvl := ℕ) spec3 c (W3 c)
  hentry c := by
    rw [Pipeline.ownSems0_none]
    have hsplit := Pipeline.arrays_of_unscopedBufs (pcfgs (F := F)) adm (pdats W1 W2 W3 W4) (p := 2) launch3.win launch3.arr_whole c (share3 W3 c) (W3 c) (A_eq3 W3 c)
    iintro ⟨⟨Hub, %Wt, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun _ _ => Or.inl trivial
      iexact HO
    isplitr; · iempintro
    iexact Hr
  hin c := by
    show iprop(_ ∗ _ ∗ Pipeline.scopedRest (Ix := HIx 1) (Name := ℕ) (U := UU) (Lvl := ℕ) (Val := Elt F) spec3 c)
      ⊢ (Pipeline.scopedRest (Ix := HIx 1) (Name := ℕ) (U := UU) (Lvl := ℕ) (Val := Elt F) spec3 c : sProp 𝕄)
    iintro ⟨-, -, Hr⟩; iexact Hr
  hout c := by
    rw [Pipeline.ownSems0_none]
    show (Pipeline.scopedRest (Ix := HIx 1) (Name := ℕ) (U := UU) (Lvl := ℕ) (Val := Elt F) spec3 c : sProp 𝕄)
      ⊢ iprop(emp ∗ emp ∗ Pipeline.scopedRest (Ix := HIx 1) (Name := ℕ) (U := UU) (Lvl := ℕ) (Val := Elt F) spec3 c)
    iintro Hr
    isplitr; · iempintro
    isplitr; · iempintro
    iexact Hr
  hexit c := by
    rw [Pipeline.unscopedBufs_split (Pipeline.pin (pcfgs (F := F)) adm) 2 launch3.win.arr_unscoped launch3.win.arr_inj c (Wout3 W3 c),
      Pipeline.arrays_eq (Pipeline.pin (pcfgs (F := F)) adm) (pdats W1 W2 W3 W4) 2 c launch3.arr_whole (share3 W3 c)]
    have E3 : (Pipeline.unscopedRest (Ix := HIx 1) (Name := ℕ) (U := UU) (Lvl := ℕ) spec3 c (W3 c) : sProp 𝕄)
        = Pipeline.unscopedRest (Ix := HIx 1) (Name := ℕ) (U := UU) (Lvl := ℕ) (Pipeline.pin (pcfgs (F := F)) adm 2).spec c (Wout3 W3 c) := (rest_Wout3 W3 c).symm
    have E4 : (bigSep Finset.univ fun w : Fin (Pipeline.pin (pcfgs (F := F)) adm 2).W =>
          (((c.tc : Thread nD τ).loc (Pipeline.arrRef (Pipeline.pin (pcfgs (F := F)) adm 2).spec w)) ↦{fullShare} (pdats W1 W2 W3 W4 2 c).arrAt w (Pipeline.pin (pcfgs (F := F)) adm 2).N : sProp 𝕄))
        = bigSep Finset.univ fun w : Fin (Pipeline.pin (pcfgs (F := F)) adm 2).W =>
          (((c.tc : Thread nD τ).loc (Pipeline.arrRef (Pipeline.pin (pcfgs (F := F)) adm 2).spec w)) ↦{fullShare} Wout3 W3 c (Pipeline.arrRef (Pipeline.pin (pcfgs (F := F)) adm 2).spec w) : sProp 𝕄) :=
      bigSep_congr fun w _ => by rw [show Wout3 W3 c (Pipeline.arrRef (Pipeline.pin (pcfgs (F := F)) adm 2).spec w) = (pdats W1 W2 W3 W4 2 c).arrAt w (Pipeline.pin (pcfgs (F := F)) adm 2).N from Wout3_arr W3 c w]
    iintro ⟨Ha, HO, -, Hr⟩
    imodintro
    isplitl [Ha Hr]
    · isplitl [Ha]
      · iapply (Entails.of_eq E4); iexact Ha
      · iapply (Entails.of_eq E3); iexact Hr
    · unfold Pipeline.Dat.owesAt Pipeline.owesWithin
      icases HO with ⟨%Wt, -, HO⟩; iexists Wt; iexact HO

/-- What the TensorCore's arrays hold after region 4: its result array at what the pipeline leaves, the rest as entered. -/
def Wout4 (c : Dev nD) : Wty (F := F) c :=
  Function.update (W4 c) (Pipeline.arrRef spec4 5) ((dat4 W4 c).arrAt 5 cfg4.N)

theorem Wout4_arr (c : Dev nD) (w : Fin cfg4.W) : Wout4 W4 c (Pipeline.arrRef spec4 w) = (dat4 W4 c).arrAt w cfg4.N := by
  unfold Wout4
  match w with
  | 0 => exact (Function.update_of_ne (by decide) _ _).trans (((dat4 W4 c).arrAt_in 0 rfl _).trans (A_eq4 W4 c 0)).symm
  | 1 => exact (Function.update_of_ne (by decide) _ _).trans (((dat4 W4 c).arrAt_in 1 rfl _).trans (A_eq4 W4 c 1)).symm
  | 2 => exact (Function.update_of_ne (by decide) _ _).trans (((dat4 W4 c).arrAt_in 2 rfl _).trans (A_eq4 W4 c 2)).symm
  | 3 => exact (Function.update_of_ne (by decide) _ _).trans (((dat4 W4 c).arrAt_in 3 rfl _).trans (A_eq4 W4 c 3)).symm
  | 4 => exact (Function.update_of_ne (by decide) _ _).trans (((dat4 W4 c).arrAt_in 4 rfl _).trans (A_eq4 W4 c 4)).symm
  | 5 => exact Function.update_self _ _ _

theorem rest_Wout4 (c : Dev nD) :
    (Pipeline.unscopedRest (Ix := HIx 1) (Name := ℕ) (U := UU) (Lvl := ℕ) spec4 c (Wout4 W4 c) : sProp 𝕄)
      = Pipeline.unscopedRest (Ix := HIx 1) (Name := ℕ) (U := UU) (Lvl := ℕ) spec4 c (W4 c) := by
  unfold Pipeline.unscopedRest
  refine bigSep_congr fun b hb => ?_
  have hne : b ≠ Pipeline.arrRef spec4 5 := fun e => (Finset.mem_sdiff.mp hb).2 (Finset.mem_image.mpr ⟨5, Finset.mem_univ _, e.symm⟩)
  unfold Wout4; rw [Function.update_of_ne hne]

def reg4 : RS W1 W2 W3 W4 3 where
  win := launch4.win.to₀
  block_pos := launch4.block_pos
  stage_whole := launch4.stage_whole
  K := PEmpty
  osem k := k.elim
  ho := Pipeline.OwnSemFacts.none _
  hbody c := body_obligation4 W4 c
  hwaits c := Pipeline.hwaits_of_owed_zero (pcfgs (F := F)) adm (pdats W1 W2 W3 W4) (none : HIx 1) (K (F := F)).L (K (F := F)).lev 3 (fun c t => owed4 W4 c t) c
  pre c := iprop(unscopedBufs c (W4 c) ∗ ∃ Wt, owes (c.tc : Thread nD τ) (0 : CellTallies nD τ sig (HIx 1)) Wt)
  post c := iprop(unscopedBufs c (Wout4 W4 c) ∗ ∃ Wt, owes (c.tc : Thread nD τ) (0 : CellTallies nD τ sig (HIx 1)) Wt)
  X _ := iprop(emp)
  Y _ := iprop(emp)
  Z c := Pipeline.unscopedRest (Ix := HIx 1) (Name := ℕ) (U := UU) (Lvl := ℕ) spec4 c (W4 c)
  hentry c := by
    rw [Pipeline.ownSems0_none]
    have hsplit := Pipeline.arrays_of_unscopedBufs (pcfgs (F := F)) adm (pdats W1 W2 W3 W4) (p := 3) launch4.win launch4.arr_whole c (share4 W4 c) (W4 c) (A_eq4 W4 c)
    iintro ⟨⟨Hub, %Wt, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun _ _ => Or.inl trivial
      iexact HO
    isplitr; · iempintro
    iexact Hr
  hin c := by
    show iprop(_ ∗ _ ∗ Pipeline.scopedRest (Ix := HIx 1) (Name := ℕ) (U := UU) (Lvl := ℕ) (Val := Elt F) spec4 c)
      ⊢ (Pipeline.scopedRest (Ix := HIx 1) (Name := ℕ) (U := UU) (Lvl := ℕ) (Val := Elt F) spec4 c : sProp 𝕄)
    iintro ⟨-, -, Hr⟩; iexact Hr
  hout c := by
    rw [Pipeline.ownSems0_none]
    show (Pipeline.scopedRest (Ix := HIx 1) (Name := ℕ) (U := UU) (Lvl := ℕ) (Val := Elt F) spec4 c : sProp 𝕄)
      ⊢ iprop(emp ∗ emp ∗ Pipeline.scopedRest (Ix := HIx 1) (Name := ℕ) (U := UU) (Lvl := ℕ) (Val := Elt F) spec4 c)
    iintro Hr
    isplitr; · iempintro
    isplitr; · iempintro
    iexact Hr
  hexit c := by
    rw [Pipeline.unscopedBufs_split (Pipeline.pin (pcfgs (F := F)) adm) 3 launch4.win.arr_unscoped launch4.win.arr_inj c (Wout4 W4 c),
      Pipeline.arrays_eq (Pipeline.pin (pcfgs (F := F)) adm) (pdats W1 W2 W3 W4) 3 c launch4.arr_whole (share4 W4 c)]
    have E3 : (Pipeline.unscopedRest (Ix := HIx 1) (Name := ℕ) (U := UU) (Lvl := ℕ) spec4 c (W4 c) : sProp 𝕄)
        = Pipeline.unscopedRest (Ix := HIx 1) (Name := ℕ) (U := UU) (Lvl := ℕ) (Pipeline.pin (pcfgs (F := F)) adm 3).spec c (Wout4 W4 c) := (rest_Wout4 W4 c).symm
    have E4 : (bigSep Finset.univ fun w : Fin (Pipeline.pin (pcfgs (F := F)) adm 3).W =>
          (((c.tc : Thread nD τ).loc (Pipeline.arrRef (Pipeline.pin (pcfgs (F := F)) adm 3).spec w)) ↦{fullShare} (pdats W1 W2 W3 W4 3 c).arrAt w (Pipeline.pin (pcfgs (F := F)) adm 3).N : sProp 𝕄))
        = bigSep Finset.univ fun w : Fin (Pipeline.pin (pcfgs (F := F)) adm 3).W =>
          (((c.tc : Thread nD τ).loc (Pipeline.arrRef (Pipeline.pin (pcfgs (F := F)) adm 3).spec w)) ↦{fullShare} Wout4 W4 c (Pipeline.arrRef (Pipeline.pin (pcfgs (F := F)) adm 3).spec w) : sProp 𝕄) :=
      bigSep_congr fun w _ => by rw [show Wout4 W4 c (Pipeline.arrRef (Pipeline.pin (pcfgs (F := F)) adm 3).spec w) = (pdats W1 W2 W3 W4 3 c).arrAt w (Pipeline.pin (pcfgs (F := F)) adm 3).N from Wout4_arr W4 c w]
    iintro ⟨Ha, HO, -, Hr⟩
    imodintro
    isplitl [Ha Hr]
    · isplitl [Ha]
      · iapply (Entails.of_eq E4); iexact Ha
      · iapply (Entails.of_eq E3); iexact Hr
    · unfold Pipeline.Dat.owesAt Pipeline.owesWithin
      icases HO with ⟨%Wt, -, HO⟩; iexists Wt; iexact HO

end Regions

/-! ## The TensorCore's arrays as one set -/

/-- Every array @main names, as device buffers. -/
def Sall : Finset (DevRef τ sig) :=
  (Finset.univ.filter fun b : Ref sig .tc => ¬ b.isScoped).map ⟨Proc.devRef (sig := sig) (.tc : Proc τ), Proc.devRef_injective _⟩

theorem mem_Sall (b : Ref sig .tc) (h : b.isScoped = false) : Proc.devRef (τ := τ) .tc b ∈ Sall :=
  Finset.mem_map_of_mem _ (Finset.mem_filter.mpr ⟨Finset.mem_univ _, by simp [h]⟩)

omit [FloatOps F] in
theorem unscoped_held (d : Dev nD) (V : Valuation τ sig (Elt F)) :
    (unscopedBufs d (fun b => V (Proc.devRef .tc b)) : sProp 𝕄) = held (T d) Sall V := by
  unfold unscopedBufs held Sall
  rw [BI.bigSep_map]
  rfl

/-- @main is the six host stretches with the gather's call and the four regions between them. -/
theorem main_eq (d : Dev nD) : main (F := F) d =
    (StableHlo.seq ops0 >>= fun _ => (sc (F := F)).run d 0 >>= fun _ => StableHlo.seq ops1 >>= fun _ => regionCall 0 >>= fun _ =>
      StableHlo.seq ops2 >>= fun _ => regionCall 1 >>= fun _ => StableHlo.seq ops3 >>= fun _ => regionCall 2 >>= fun _ =>
      StableHlo.seq ops4 >>= fun _ => regionCall 3 >>= fun _ => StableHlo.seq ops5 >>= fun _ => pure ⟨⟩) := by
  chain_rfl

/-! ## The host stretches touch @main's arrays only, and allocate nothing -/

omit [FloatOps F] in
theorem update_devRef (V : Valuation τ sig (Elt F)) (r : Ref sig .tc) (x : (Proc.devRef (τ := τ) .tc r).ty.Contents (Elt F)) :
    (fun b : Ref sig .tc => Function.update V (Proc.devRef .tc r) x (Proc.devRef .tc b))
      = Function.update (fun b : Ref sig .tc => V (Proc.devRef .tc b)) r x := by
  funext b
  by_cases h : b = r
  · subst h; rw [Function.update_self, Function.update_self]
  · rw [Function.update_of_ne h, Function.update_of_ne (StableHlo.devRef_ne_of_ne h)]

theorem bufs_sub_Sall (op : HloOp τ sig (Elt F)) (h : op.bufs ⊆ StableHlo.tcRefs τ sig) : op.bufs ⊆ Sall := by
  intro b hb
  obtain ⟨r, -, rfl⟩ := Finset.mem_map.mp (h hb)
  exact mem_Sall r (op.no_scoped _ hb)

theorem hS0 : ∀ op ∈ (ops0 : List (HloOp τ sig (Elt F))), op.bufs ⊆ Sall := by
  intro op h; refine bufs_sub_Sall op ?_
  simp only [ops0, List.mem_cons, List.not_mem_nil, or_false] at h
  rcases h with rfl | rfl | rfl | rfl <;> simp
theorem hf0 : ∀ op ∈ (ops0 : List (HloOp τ sig (Elt F))), op.fresh = ∅ := by
  intro op h; simp only [ops0, List.mem_cons, List.not_mem_nil, or_false] at h
  rcases h with rfl | rfl | rfl | rfl <;> rfl
theorem hS1 : ∀ op ∈ (ops1 : List (HloOp τ sig (Elt F))), op.bufs ⊆ Sall := by
  intro op h; refine bufs_sub_Sall op ?_
  simp only [ops1, List.mem_cons, List.not_mem_nil, or_false] at h
  rcases h with rfl | rfl <;> simp
theorem hf1 : ∀ op ∈ (ops1 : List (HloOp τ sig (Elt F))), op.fresh = ∅ := by
  intro op h; simp only [ops1, List.mem_cons, List.not_mem_nil, or_false] at h
  rcases h with rfl | rfl <;> rfl
theorem hS2 : ∀ op ∈ (ops2 : List (HloOp τ sig (Elt F))), op.bufs ⊆ Sall := by
  intro op h; refine bufs_sub_Sall op ?_
  simp only [ops2, List.mem_cons, List.not_mem_nil, or_false] at h
  rcases h with rfl | rfl | rfl <;> simp
theorem hf2 : ∀ op ∈ (ops2 : List (HloOp τ sig (Elt F))), op.fresh = ∅ := by
  intro op h; simp only [ops2, List.mem_cons, List.not_mem_nil, or_false] at h
  rcases h with rfl | rfl | rfl <;> rfl
theorem hS3 : ∀ op ∈ (ops3 : List (HloOp τ sig (Elt F))), op.bufs ⊆ Sall := by
  intro op h; refine bufs_sub_Sall op ?_
  simp only [ops3, List.mem_cons, List.not_mem_nil, or_false] at h
  rcases h with rfl | rfl | rfl | rfl <;> simp
theorem hf3 : ∀ op ∈ (ops3 : List (HloOp τ sig (Elt F))), op.fresh = ∅ := by
  intro op h; simp only [ops3, List.mem_cons, List.not_mem_nil, or_false] at h
  rcases h with rfl | rfl | rfl | rfl <;> rfl
theorem hS4 : ∀ op ∈ (ops4 : List (HloOp τ sig (Elt F))), op.bufs ⊆ Sall := by
  intro op h; refine bufs_sub_Sall op ?_
  simp only [ops4, List.mem_cons, List.not_mem_nil, or_false] at h
  rcases h with rfl | rfl | rfl | rfl <;> simp
theorem hf4 : ∀ op ∈ (ops4 : List (HloOp τ sig (Elt F))), op.fresh = ∅ := by
  intro op h; simp only [ops4, List.mem_cons, List.not_mem_nil, or_false] at h
  rcases h with rfl | rfl | rfl | rfl <;> rfl
theorem hS5 : ∀ op ∈ (ops5 : List (HloOp τ sig (Elt F))), op.bufs ⊆ Sall := by
  intro op h; refine bufs_sub_Sall op ?_
  simp only [ops5, List.mem_cons, List.not_mem_nil, or_false] at h
  rcases h with rfl | rfl | rfl <;> simp
theorem hf5 : ∀ op ∈ (ops5 : List (HloOp τ sig (Elt F))), op.fresh = ∅ := by
  intro op h; simp only [ops5, List.mem_cons, List.not_mem_nil, or_false] at h
  rcases h with rfl | rfl | rfl <;> rfl

/-! ## The arrays' contents, stage by stage -/

section Main

variable (m : (ℓ : Loc nD τ sig) → Buf (Elt F) ℓ) (ρ : Dev nD → PrngReg)

abbrev tbl' : DevRef τ sig := Proc.devRef .tc (main_arg0 : Ref sig .tc)
abbrev idx' : DevRef τ sig := Proc.devRef .tc (main_v1 : Ref sig .tc)
abbrev out' : DevRef τ sig := Proc.devRef .tc (main_v2 : Ref sig .tc)

/-- As launched; -/
def V0 (d : Dev nD) : Valuation τ sig (Elt F) := fun b => m (d, b)
/-- the index lists joined and padded; -/
def V1 (d : Dev nD) : Valuation τ sig (Elt F) := StableHlo.after ops0 (V0 m d)
/-- the padded index list, -/
def Iv (d : Dev nD) : Buf (Elt F) (idxLoc d) := V1 m d idx'
/-- the rows it names gathered; -/
def V2 (d : Dev nD) : Valuation τ sig (Elt F) := Function.update (V1 m d) out' (gathered (m (tblLoc d)) (Iv m d))
def V3 (d : Dev nD) : Valuation τ sig (Elt F) := StableHlo.after ops1 (V2 m d)
def Wa (c : Dev nD) : Wty (F := F) c := fun b => V3 m c (Proc.devRef .tc b)
/-- the first relation's messages; -/
def V4 (d : Dev nD) : Valuation τ sig (Elt F) := Function.update (V3 m d) (Proc.devRef .tc (Pipeline.arrRef spec1 5)) ((dat1 (Wa m) d).arrAt 5 cfg1.N)
def V5 (d : Dev nD) : Valuation τ sig (Elt F) := StableHlo.after ops2 (V4 m d)
def Wb (c : Dev nD) : Wty (F := F) c := fun b => V5 m c (Proc.devRef .tc b)
def V6 (d : Dev nD) : Valuation τ sig (Elt F) := Function.update (V5 m d) (Proc.devRef .tc (Pipeline.arrRef spec2 5)) ((dat2 (Wb m) d).arrAt 5 cfg2.N)
def V7 (d : Dev nD) : Valuation τ sig (Elt F) := StableHlo.after ops3 (V6 m d)
def Wc (c : Dev nD) : Wty (F := F) c := fun b => V7 m c (Proc.devRef .tc b)
def V8 (d : Dev nD) : Valuation τ sig (Elt F) := Function.update (V7 m d) (Proc.devRef .tc (Pipeline.arrRef spec3 5)) ((dat3 (Wc m) d).arrAt 5 cfg3.N)
def V9 (d : Dev nD) : Valuation τ sig (Elt F) := StableHlo.after ops4 (V8 m d)
def Wd (c : Dev nD) : Wty (F := F) c := fun b => V9 m c (Proc.devRef .tc b)
def V10 (d : Dev nD) : Valuation τ sig (Elt F) := Function.update (V9 m d) (Proc.devRef .tc (Pipeline.arrRef spec4 5)) ((dat4 (Wd m) d).arrAt 5 cfg4.N)
/-- the four message arrays joined, and the index lists joined again. -/
def V11 (d : Dev nD) : Valuation τ sig (Elt F) := StableHlo.after ops5 (V10 m d)

theorem Wout1_eq (d : Dev nD) : Wout1 (Wa m) d = fun b => V4 m d (Proc.devRef .tc b) := (update_devRef (V3 m d) _ _).symm
theorem Wout2_eq (d : Dev nD) : Wout2 (Wb m) d = fun b => V6 m d (Proc.devRef .tc b) := (update_devRef (V5 m d) _ _).symm
theorem Wout3_eq (d : Dev nD) : Wout3 (Wc m) d = fun b => V8 m d (Proc.devRef .tc b) := (update_devRef (V7 m d) _ _).symm
theorem Wout4_eq (d : Dev nD) : Wout4 (Wd m) d = fun b => V10 m d (Proc.devRef .tc b) := (update_devRef (V9 m d) _ _).symm

end Main

end Cert.Proof.KI

end
-- ==== Proof.KI.Main.lean ====
/-
  @main of the idealized kernel on the TensorCore: the host stretches over the one set of its arrays, the gather's call
  (the table, the padded index list and the result array handed to the two SparseCores' tiles and taken back with the
  named rows gathered), and the four perceptron regions, each entered from the arrays as the stretch before it left them.
-/
import proofs.«214605_g64536178589837_cont_9to1_m_912_2_alg».proof.Proof.KI.Regions

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

section Main

variable (m : (ℓ : Loc nD τ sig) → Buf (Elt F) ℓ) (ρ : Dev nD → PrngReg)

/-! ## The gather's three arrays out of the set, and back -/

abbrev T3 : Finset (DevRef τ sig) := {tbl', idx', out'}

theorem T3_sub : (T3 : Finset (DevRef τ sig)) ⊆ Sall := by
  intro b hb; simp only [T3, Finset.mem_insert, Finset.mem_singleton] at hb
  rcases hb with rfl | rfl | rfl <;> exact mem_Sall _ rfl

omit [FloatOps F] in
theorem held3 (d : Dev nD) (V : Valuation τ sig (Elt F)) :
    (held (T d) T3 V : sProp 𝕄) = iprop((tblLoc d ↦{fullShare} V tbl') ∗ (idxLoc d ↦{fullShare} V idx') ∗ (outLoc d ↦{fullShare} V out')) := by
  unfold held T3
  rw [SparseCore.bigSep_insert' (by decide), SparseCore.bigSep_insert' (by decide), bigSep_singleton]

/-- The table is not among what the first stretch writes. -/
theorem V1_tbl (d : Dev nD) : V1 m d tbl' = m (tblLoc d) :=
  StableHlo.after_of_writes_sub (W := [main_v0, main_c, main_call0_v0, main_v1]) ops0 (V0 m d) (by simp [ops0]) (by decide)

theorem V2_tbl (d : Dev nD) : V2 m d tbl' = m (tblLoc d) := (Function.update_of_ne (by decide) _ _).trans (V1_tbl m d)
theorem V2_idx (d : Dev nD) : V2 m d idx' = Iv m d := Function.update_of_ne (by decide) _ _
theorem V2_out (d : Dev nD) : V2 m d out' = gathered (m (tblLoc d)) (Iv m d) := Function.update_self _ _ _
theorem held_rest_V2 (d : Dev nD) : (held (T d) (Sall \ T3) (V2 m d) : sProp 𝕄) = held (T d) (Sall \ T3) (V1 m d) :=
  StableHlo.held_congr (T d) fun b hb => Function.update_of_ne (fun e => (Finset.mem_sdiff.mp hb).2 (by rw [e]; simp [T3])) _ _

/-- The gather's call: the three arrays to the tiles, and back with the rows gathered. -/
theorem wp_gather (κ : GSem nD τ sig → ℕ) (d : Dev nD) {α : Type}
    (k : PUnit → Prog (TpuEff nD τ sig (Elt F) (SparseCore.Sig (ΛP (F := F)) 1) .tc) α) (Q : α → sProp 𝕄) :
    iprop((K (F := F)).ctx EH (P m (Iv m)) κ ∗ (K (F := F)).tcSt EH d 0 ∗ boundary (T d) ∗ held (T d) Sall (V1 m d)
        ∗ (iprop((K (F := F)).tcSt EH d 1 ∗ boundary (T d) ∗ held (T d) Sall (V2 m d)) -∗ wp frame (wpE ((K (F := F)).defs (D (F := F))) 𝒱 (T d) none) Set.univ (k ⟨⟩) Q))
      ⊢ wp frame (wpE ((K (F := F)).defs (D (F := F))) 𝒱 (T d) none) Set.univ ((sc (F := F)).run d 0 >>= k) Q := by
  rw [StableHlo.held_sub_split (T d) T3_sub (V1 m d), held3, V1_tbl, show V1 m d idx' = Iv m d from rfl]
  iintro ⟨#Hctx, Hst, Hb, ⟨⟨Htbl, Hidx, Hout⟩, Hrest⟩, Hk⟩
  rw [wp_bind]
  iapply (fupd_wp frame (wpE ((K (F := F)).defs (D (F := F))) 𝒱 (T d) none) Set.univ _ _)
  imod (call_split m (Iv m) d) $$ [Htbl Hidx Hout] with ⟨Hsts, Hjoin⟩
  · isplitl [Htbl]; · iexact Htbl
    isplitl [Hidx]; · iexact Hidx
    iexists _; iexact Hout
  imodintro
  iapply ((K (F := F)).wp_run (D (F := F)) 𝒱 (EH := EH) (P := P m (Iv m)) κ d 0)
  isplitr; · iexact Hctx
  isplitl [Hst]; · iexact Hst
  isplitl [Hsts]; · iexact Hsts
  iintro ⟨Hst, Hdn⟩
  ihave H := Hjoin $$ Hdn
  icases H with ⟨Htbl, Hidx, Hout⟩
  iapply Hk
  isplitl [Hst]; · iexact Hst
  isplitl [Hb]; · iexact Hb
  rw [StableHlo.held_sub_split (T d) T3_sub (V2 m d), held3, V2_tbl, V2_idx, V2_out, held_rest_V2]
  isplitl [Htbl Hidx Hout]
  · isplitl [Htbl]; · iexact Htbl
    isplitl [Hidx]; · iexact Hidx
    iexact Hout
  iexact Hrest

/-! ## The four regions, over the arrays as one set -/

/-- Region 1: from the arrays at their contents before it to the same with its result array written. -/
theorem wp_region1 (d : Dev nD) {α : Type} (k : PUnit → Prog (TpuEff nD τ sig (Elt F) (SparseCore.Sig (ΛP (F := F)) 1) .tc) α) (Q : α → sProp 𝕄) :
    iprop((iprop(boundary (T d) ∗ held (T d) Sall (V4 m d) ∗ ∃ Wt, owes (T d) (0 : CellTallies nD τ sig (HIx 1)) Wt) -∗ wp frame (wpE ((K (F := F)).defs (D (F := F))) 𝒱 (T d) none) Set.univ (k ⟨⟩) Q)
        ∗ boundary (T d) ∗ held (T d) Sall (V3 m d) ∗ (∃ Wt, owes (T d) (0 : CellTallies nD τ sig (HIx 1)) Wt) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ (regionCall 0 >>= k) Q := by
  have hpre : (held (T d) Sall (V3 m d) : sProp 𝕄) ⊢ unscopedBufs d (Wa m d) := Entails.of_eq (unscoped_held d (V3 m d)).symm
  have hpost : (unscopedBufs d (Wout1 (Wa m) d) : sProp 𝕄) ⊢ held (T d) Sall (V4 m d) := by
    rw [Wout1_eq, unscoped_held]
  iintro ⟨Hk, Hb, Hh, HO, Hla, Hg, Ht⟩
  iapply (wp_regionCall (Wa m) (Wb m) (Wc m) (Wd m) 0 (reg1 (Wa m) (Wb m) (Wc m) (Wd m)) d k Q)
  dsimp only [reg1]
  isplitl [Hk]
  · iintro ⟨Hb, Hub, HO⟩
    iapply Hk
    isplitl [Hb]; · iexact Hb
    isplitl [Hub]
    · iapply hpost; iexact Hub
    · iexact HO
  isplitl [Hb]; · iexact Hb
  isplitl [Hh HO]
  · isplitl [Hh]
    · iapply hpre; iexact Hh
    · iexact HO
  isplitl [Hla]; · iexact Hla
  isplitl [Hg]; · iexact Hg
  iexact Ht

/-- Region 2: from the arrays at their contents before it to the same with its result array written. -/
theorem wp_region2 (d : Dev nD) {α : Type} (k : PUnit → Prog (TpuEff nD τ sig (Elt F) (SparseCore.Sig (ΛP (F := F)) 1) .tc) α) (Q : α → sProp 𝕄) :
    iprop((iprop(boundary (T d) ∗ held (T d) Sall (V6 m d) ∗ ∃ Wt, owes (T d) (0 : CellTallies nD τ sig (HIx 1)) Wt) -∗ wp frame (wpE ((K (F := F)).defs (D (F := F))) 𝒱 (T d) none) Set.univ (k ⟨⟩) Q)
        ∗ boundary (T d) ∗ held (T d) Sall (V5 m d) ∗ (∃ Wt, owes (T d) (0 : CellTallies nD τ sig (HIx 1)) Wt) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ (regionCall 1 >>= k) Q := by
  have hpre : (held (T d) Sall (V5 m d) : sProp 𝕄) ⊢ unscopedBufs d (Wb m d) := Entails.of_eq (unscoped_held d (V5 m d)).symm
  have hpost : (unscopedBufs d (Wout2 (Wb m) d) : sProp 𝕄) ⊢ held (T d) Sall (V6 m d) := by
    rw [Wout2_eq, unscoped_held]
  iintro ⟨Hk, Hb, Hh, HO, Hla, Hg, Ht⟩
  iapply (wp_regionCall (Wa m) (Wb m) (Wc m) (Wd m) 1 (reg2 (Wa m) (Wb m) (Wc m) (Wd m)) d k Q)
  dsimp only [reg2]
  isplitl [Hk]
  · iintro ⟨Hb, Hub, HO⟩
    iapply Hk
    isplitl [Hb]; · iexact Hb
    isplitl [Hub]
    · iapply hpost; iexact Hub
    · iexact HO
  isplitl [Hb]; · iexact Hb
  isplitl [Hh HO]
  · isplitl [Hh]
    · iapply hpre; iexact Hh
    · iexact HO
  isplitl [Hla]; · iexact Hla
  isplitl [Hg]; · iexact Hg
  iexact Ht

/-- Region 3: from the arrays at their contents before it to the same with its result array written. -/
theorem wp_region3 (d : Dev nD) {α : Type} (k : PUnit → Prog (TpuEff nD τ sig (Elt F) (SparseCore.Sig (ΛP (F := F)) 1) .tc) α) (Q : α → sProp 𝕄) :
    iprop((iprop(boundary (T d) ∗ held (T d) Sall (V8 m d) ∗ ∃ Wt, owes (T d) (0 : CellTallies nD τ sig (HIx 1)) Wt) -∗ wp frame (wpE ((K (F := F)).defs (D (F := F))) 𝒱 (T d) none) Set.univ (k ⟨⟩) Q)
        ∗ boundary (T d) ∗ held (T d) Sall (V7 m d) ∗ (∃ Wt, owes (T d) (0 : CellTallies nD τ sig (HIx 1)) Wt) ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE ((K (F := F)).defs (D (F := F))) 𝒱 (T d) none) Set.univ (regionCall 2 >>= k) Q := by
  have hpre : (held (T d) Sall (V7 m d) : sProp 𝕄) ⊢ unscopedBufs d (Wc m d) := Entails.of_eq (unscoped_held d (V7 m d)).symm
  have hpost : (unscopedBufs d (Wout3 (Wc m) d) : sProp 𝕄) ⊢ held (T d) Sall (V8 m d) := by
    rw [Wout3_eq, unscoped_held]
  iintro ⟨Hk, Hb, Hh, HO, Hla, Hg, Ht⟩
  iapply (wp_regionCall (Wa m) (Wb m) (Wc m) (Wd m) 2 (reg3 (Wa m) (Wb m) (Wc m) (Wd m)) d k Q)
  dsimp only [reg3]
  isplitl [Hk]
  · iintro ⟨Hb, Hub, HO⟩
    iapply Hk
    isplitl [Hb]; · iexact Hb
    isplitl [Hub]
    · iapply hpost; iexact Hub
    · iexact HO
  isplitl [Hb]; · iexact Hb
  isplitl [Hh HO]
  · isplitl [Hh]
    · iapply hpre; iexact Hh
    · iexact HO
  isplitl [Hla]; · iexact Hla
  isplitl [Hg]; · iexact Hg
  iexact Ht

/-- Region 4: from the arrays at their contents before it to the same with its result array written. -/
theorem wp_region4 (d : Dev nD) {α : Type} (k : PUnit → Prog (TpuEff nD τ sig (Elt F) (SparseCore.Sig (ΛP (F := F)) 1) .tc) α) (Q : α → sProp 𝕄) :
    iprop((iprop(boundary (T d) ∗ held (T d) Sall (V10 m d) ∗ ∃ Wt, owes (T d) (0 : CellTallies nD τ sig (HIx 1)) Wt) -∗ wp frame (wpE ((K (F := F)).defs (D (F := F))) 𝒱 (T d) none) Set.univ (k ⟨⟩) Q)
        ∗ boundary (T d) ∗ held (T d) Sall (V9 m d) ∗ (∃ Wt, owes (T d) (0 : CellTallies nD τ sig (HIx 1)) Wt) ∗ levAts (K (F := F)).L (K (F := F)).lev
        ∗ Pipeline.cellsGhost (Pipeline.pin (pcfgs (F := F)) adm) EP 3 d ∗ Pipeline.toksInit (Pipeline.pin (pcfgs (F := F)) adm) EP 3 d)
      ⊢ wp frame (wpE ((K (F := F)).defs (D (F := F))) 𝒱 (T d) none) Set.univ (regionCall 3 >>= k) Q := by
  have hpre : (held (T d) Sall (V9 m d) : sProp 𝕄) ⊢ unscopedBufs d (Wd m d) := Entails.of_eq (unscoped_held d (V9 m d)).symm
  have hpost : (unscopedBufs d (Wout4 (Wd m) d) : sProp 𝕄) ⊢ held (T d) Sall (V10 m d) := by
    rw [Wout4_eq, unscoped_held]
  iintro ⟨Hk, Hb, Hh, HO, Hla, Hg, Ht⟩
  iapply (wp_regionCall (Wa m) (Wb m) (Wc m) (Wd m) 3 (reg4 (Wa m) (Wb m) (Wc m) (Wd m)) d k Q)
  dsimp only [reg4]
  isplitl [Hk]
  · iintro ⟨Hb, Hub, HO⟩
    iapply Hk
    isplitl [Hb]; · iexact Hb
    isplitl [Hub]
    · iapply hpost; iexact Hub
    · iexact HO
  isplitl [Hb]; · iexact Hb
  isplitl [Hh HO]
  · isplitl [Hh]
    · iapply hpre; iexact Hh
    · iexact HO
  isplitl [Hla]; · iexact Hla
  isplitl [Hg]; · iexact Hg
  iexact Ht

end Main

end Cert.Proof.KI

end
-- ==== Proof.KI.Run.lean ====
/-
  The idealized kernel's run: @main's proof on the TensorCore assembled from the stretches, the gather and the regions;
  the launch element of the ghost state (the handshakes' rounds, the pipelines' rounds funded per region, nothing for
  the tiles' plain copies); how the final assertion reads every array off the final memory; and the launch theorem
  applied to them.
-/
import proofs.«214605_g64536178589837_cont_9to1_m_912_2_alg».proof.Proof.KI.Main

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

section Run

variable (m : (ℓ : Loc nD τ sig) → Buf (Elt F) ℓ) (ρ : Dev nD → PrngReg)

set_option allowUnsafeReducibility true in
attribute [local reducible] V1 V3 V5 V7 V9 V11

/-! ## What the launch deals the regions -/

/-- The four pipelines' ghost state on a device: what each region allocates its staging cells' invariants from. -/
def G (d : Dev nD) : sProp 𝕄 :=
  bigSep Finset.univ fun p : Fin 4 =>
    iprop(Pipeline.cellsGhost (Pipeline.pin (pcfgs (F := F)) adm) EP p d ∗ Pipeline.toksInit (Pipeline.pin (pcfgs (F := F)) adm) EP p d)

theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)
      ∗ (Pipeline.cellsGhost (Pipeline.pin (pcfgs (F := F)) adm) EP 2 d ∗ Pipeline.toksInit (Pipeline.pin (pcfgs (F := F)) adm) EP 2 d)
      ∗ (Pipeline.cellsGhost (Pipeline.pin (pcfgs (F := F)) adm) EP 3 d ∗ Pipeline.toksInit (Pipeline.pin (pcfgs (F := F)) adm) EP 3 d)) := by
  unfold G
  rw [show (Finset.univ : Finset (Fin 4)) = {0, 1, 2, 3} by decide, SparseCore.bigSep_insert' (by decide), SparseCore.bigSep_insert' (by decide),
    SparseCore.bigSep_insert' (by decide), bigSep_singleton]

/-! ## After the one call the TensorCore owes nothing, and every recorded wait sits below the bound -/

theorem wbelow_any (d : Dev nD) (W : Waits sig (HIx 1)) : (K (F := F)).WBelow (T d) W (8 * 1) := by
  intro p _
  rcases hp : p.2 with _ | q
  · exact Nat.zero_le _
  · have h := (K (F := F)).lev_some_le (T d, p.1) q
    have hq : q.val = 0 := by omega
    omega

theorem tcSt_owes (d : Dev nD) :
    ((K (F := F)).tcSt EH d 1 : sProp 𝕄)
      ⊢ iprop((∃ W, owes (T d) (0 : CellTallies nD τ sig (HIx 1)) W) ∗ ((∃ W, owes (T d) (0 : CellTallies nD τ sig (HIx 1)) W) -∗ (K (F := F)).tcSt EH d 1)) := by
  unfold SparseCore.Cfg.tcSt
  rw [(K (F := F)).Otc_end d (le_refl 1)]
  iintro ⟨⟨%W, -, HO⟩, Hrest⟩
  isplitl [HO]; · iexists W; iexact HO
  iintro ⟨%W', HO'⟩
  isplitl [HO']
  · iexists W'; isplitr; · ipureintro; exact wbelow_any d W'
    iexact HO'
  iexact Hrest

/-! ## @main -/

/-- What @main leaves the claim: every array at the end of the chain. -/
abbrev FIN (d : Dev nD) : sProp 𝕄 := held (T d) Sall (V11 m d)

theorem hmain (κ : GSem nD τ sig → ℕ) (d : Dev nD) :
    iprop((K (F := F)).ctx EH (P m (Iv m)) κ ∗ (K (F := F)).tcSt EH d 0 ∗ (K (F := F)).tcRes m ρ d ∗ G (F := F) d)
      ⊢ wp frame (wpE ((K (F := F)).defs (D (F := F))) 𝒱 (T d) none) Set.univ (main d) fun _ => iprop((K (F := F)).tcSt EH d 1 ∗ FIN m d) := by
  rw [main_eq]
  unfold SparseCore.Cfg.tcRes
  have e0 : (unscopedBufs d (fun b : Ref sig .tc => m ((SparseCore.T d : Thread nD τ).loc b)) : sProp 𝕄) = held (SparseCore.T d) Sall (V0 m d) := unscoped_held d (V0 m d)
  rw [e0, G_eq]
  iintro ⟨#Hctx, Hst, ⟨Hb, Hh, -, -⟩, ⟨Hg0, Ht0⟩, ⟨Hg1, Ht1⟩, ⟨Hg2, Ht2⟩, ⟨Hg3, Ht3⟩⟩
  -- the index lists joined and padded
  iapply (StableHlo.wp_seq (𝒱 := 𝒱) (bd := none) (E := Set.univ) d Sall _ ops0 hS0 hf0 (V0 m d)) $$ [Hb Hh]
  · isplitl [Hb]; · iexact Hb
    iexact Hh
  iintro ⟨Hb, Hh⟩
  -- the gather
  iapply (wp_gather m κ d _ _)
  isplitr; · iexact Hctx
  isplitl [Hst]; · iexact Hst
  isplitl [Hb]; · iexact Hb
  isplitl [Hh]; · iexact Hh
  iintro ⟨Hst, Hb, Hh⟩
  ihave Hso := (tcSt_owes d) $$ Hst
  icases Hso with ⟨HO, Hback⟩
  -- the first relation
  iapply (StableHlo.wp_seq (𝒱 := 𝒱) (bd := none) (E := Set.univ) d Sall _ ops1 hS1 hf1 (V2 m d)) $$ [Hb Hh]
  · isplitl [Hb]; · iexact Hb
    iexact Hh
  iintro ⟨Hb, Hh⟩
  ihave Hla := (SparseCore.Cfg.ctx_levAts κ) $$ Hctx
  iapply (wp_region1 m d _ _)
  isplitr [Hb Hh HO Hla Hg0 Ht0]
  swap
  · isplitl [Hb]; · iexact Hb
    isplitl [Hh]; · iexact Hh
    isplitl [HO]; · iexact HO
    isplitl [Hla]; · iexact Hla
    isplitl [Hg0]; · iexact Hg0
    iexact Ht0
  iintro ⟨Hb, Hh, HO⟩
  -- the second
  iapply (StableHlo.wp_seq (𝒱 := 𝒱) (bd := none) (E := Set.univ) d Sall _ ops2 hS2 hf2 (V4 m d)) $$ [Hb Hh]
  · isplitl [Hb]; · iexact Hb
    iexact Hh
  iintro ⟨Hb, Hh⟩
  ihave Hla := (SparseCore.Cfg.ctx_levAts κ) $$ Hctx
  iapply (wp_region2 m d _ _)
  isplitr [Hb Hh HO Hla Hg1 Ht1]
  swap
  · isplitl [Hb]; · iexact Hb
    isplitl [Hh]; · iexact Hh
    isplitl [HO]; · iexact HO
    isplitl [Hla]; · iexact Hla
    isplitl [Hg1]; · iexact Hg1
    iexact Ht1
  iintro ⟨Hb, Hh, HO⟩
  -- the third
  iapply (StableHlo.wp_seq (𝒱 := 𝒱) (bd := none) (E := Set.univ) d Sall _ ops3 hS3 hf3 (V6 m d)) $$ [Hb Hh]
  · isplitl [Hb]; · iexact Hb
    iexact Hh
  iintro ⟨Hb, Hh⟩
  ihave Hla := (SparseCore.Cfg.ctx_levAts κ) $$ Hctx
  iapply (wp_region3 m d _ _)
  isplitr [Hb Hh HO Hla Hg2 Ht2]
  swap
  · isplitl [Hb]; · iexact Hb
    isplitl [Hh]; · iexact Hh
    isplitl [HO]; · iexact HO
    isplitl [Hla]; · iexact Hla
    isplitl [Hg2]; · iexact Hg2
    iexact Ht2
  iintro ⟨Hb, Hh, HO⟩
  -- the fourth
  iapply (StableHlo.wp_seq (𝒱 := 𝒱) (bd := none) (E := Set.univ) d Sall _ ops4 hS4 hf4 (V8 m d)) $$ [Hb Hh]
  · isplitl [Hb]; · iexact Hb
    iexact Hh
  iintro ⟨Hb, Hh⟩
  ihave Hla := (SparseCore.Cfg.ctx_levAts κ) $$ Hctx
  iapply (wp_region4 m d _ _)
  isplitr [Hb Hh HO Hla Hg3 Ht3]
  swap
  · isplitl [Hb]; · iexact Hb
    isplitl [Hh]; · iexact Hh
    isplitl [HO]; · iexact HO
    isplitl [Hla]; · iexact Hla
    isplitl [Hg3]; · iexact Hg3
    iexact Ht3
  iintro ⟨Hb, Hh, HO⟩
  -- the messages joined, the index lists joined
  iapply (StableHlo.wp_seq (𝒱 := 𝒱) (bd := none) (E := Set.univ) d Sall _ ops5 hS5 hf5 (V10 m d)) $$ [Hb Hh]
  · isplitl [Hb]; · iexact Hb
    iexact Hh
  iintro ⟨-, Hh⟩
  rw [wp_pure]; imodintro
  isplitl [HO Hback]
  · iapply Hback; iexact HO
  iexact Hh

/-! ## The launch element -/

/-- The handshakes' rounds beside the pipelines' (their staging cells and the loops' duty tokens); the counters start at their unit. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (Iv m)).x q thr) := by
  unfold u₀
  iintro Hu
  ihave H := (ownU_pair _ _) $$ Hu
  icases H with ⟨HH, HR⟩
  ihave H2 := (own_pair_emb embR _ _) $$ HR
  icases H2 with ⟨HP0, -⟩
  have eEP : (EP (F := F)) = (Emb.inl : Emb UP (UP × Counters)).trans embR := rfl
  ihave HP := (Entails.of_eq (show (BI.own (((Emb.inl : Emb UP (UP × Counters)).trans embR)
      (initOf (Pipeline.cells (Pipeline.pin (pcfgs (F := F)) adm) cellOf_inj) (Pipeline.launchToks (Pipeline.pin (pcfgs (F := F)) adm) cellOf_inj))) : sProp 𝕄)
      = BI.own ((EP (F := F)) (initOf (Pipeline.cells (Pipeline.pin (pcfgs (F := F)) adm) cellOf_inj) (Pipeline.launchToks (Pipeline.pin (pcfgs (F := F)) adm) cellOf_inj))) from by rw [eEP])) $$ HP0
  imod (Pipeline.fund_ghost (Pipeline.pin (pcfgs (F := F)) adm) (EP (F := F)) cellOf_inj) $$ HP with ⟨Hcg, Hti⟩
  imodintro
  isplitl [HH]; · iexact HH
  isplitl [Hcg Hti]
  · unfold G
    simp only [bigSep_sep']
    isplitl [Hcg]; · iexact Hcg
    iexact Hti
  rw [show (bigSep Finset.univ fun thr : Thread nD τ => bigSep Finset.univ fun q : Fin 1 => (P m (Iv m)).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-! ## Reading the final memory -/

/-- Every array @main names holds, at the end, what the chain says. -/
def fq (d : Dev nD) (s' : Phys nD τ sig (Elt F)) : Prop := ∀ b ∈ (Sall : Finset (DevRef τ sig)), s'.mem.mem (d, b) = V11 m d b

theorem hfin (d : Dev nD) (s' : Phys nD τ sig (Elt F)) : iprop(FIN m d ∗ SI s') ⊢ (⌜fq m d s'⌝ : sProp 𝕄) := by
  show iprop((bigSep Sall fun b : DevRef τ sig => (((d, b) : Loc nD τ sig) ↦{fullShare} V11 m d b : sProp 𝕄)) ∗ SI s') ⊢ _
  iintro ⟨Hh, HSI⟩
  ihave H := (pointsTo_read_all Sall (fun b : DevRef τ sig => ((d, b) : Loc nD τ sig)) (V11 m d) s') $$ [Hh HSI]
  · isplitl [Hh]; · iexact Hh
    iexact HSI
  icases H with ⟨%h, -⟩
  ipureintro; exact h

/-! ## The run -/

def QC : PUnit × MemSt nD τ sig (Elt F) → Prop := fun r => ∀ c : Dev nD, ∀ b ∈ (Sall : Finset (DevRef τ sig)), r.2.mem (c, b) = V11 m c b

/-- From any memory with zero counters and index words in range, every weakly fair execution of the device's threads
    terminates, nothing faulting, and every array @main names ends at the chain's last contents. -/
theorem run_main [∀ e, Nonempty (Elt F e)] (hI : ∀ d r, ((Iv m d) r).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (Iv m)) facts v₀
    (fun q hq => match q with | 0 => nomatch hq)
    (fun q _ => match q with | 0 => tileObl m (Iv m) hI)
    (fun q _ => match q with | 0 => SparseCore.Cfg.VecSplit.of_plain (vecSplit m (Iv m)))
    m ρ main (G (F := F)) (FIN m) (u₀ (F := F)) (sep_elim_left.trans (hu₀ m)) (hmain m ρ) (fq m) (hfin m) (QC m) (fun _ h => h)

end Run

end Cert.Proof.KI

end
-- ==== Proof.KI.Frame.lean ====
/-
  Nothing @main does touches an argument array: no host stretch writes one, the gather fills its own result array and
  each region its own; so at the end of the chain every argument holds what it was launched with.
-/
import proofs.«214605_g64536178589837_cont_9to1_m_912_2_alg».proof.Proof.KI.Run

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

section Keep

variable (m : (ℓ : Loc nD τ sig) → Buf (Elt F) ℓ)

abbrev Wr0 : List (Ref sig .tc) := [main_v0, main_c, main_call0_v0, main_v1]
abbrev Wr1 : List (Ref sig .tc) := [main_v3, main_v4]
abbrev Wr2 : List (Ref sig .tc) := [main_v6, main_v7, main_v8]
abbrev Wr3 : List (Ref sig .tc) := [main_v10, main_v11, main_v12, main_v13]
abbrev Wr4 : List (Ref sig .tc) := [main_v15, main_v16, main_v17, main_v18]
abbrev Wr5 : List (Ref sig .tc) := [main_v20, main_v21, main_v22]

theorem hW0 : (ops0 : List (HloOp τ sig (Elt F))).Forall fun op => op.writes ⊆ (Wr0.map (Proc.devRef (τ := τ) .tc)).toFinset := by simp [ops0]
theorem hW1 : (ops1 : List (HloOp τ sig (Elt F))).Forall fun op => op.writes ⊆ (Wr1.map (Proc.devRef (τ := τ) .tc)).toFinset := by simp [ops1]
theorem hW2 : (ops2 : List (HloOp τ sig (Elt F))).Forall fun op => op.writes ⊆ (Wr2.map (Proc.devRef (τ := τ) .tc)).toFinset := by simp [ops2]
theorem hW3 : (ops3 : List (HloOp τ sig (Elt F))).Forall fun op => op.writes ⊆ (Wr3.map (Proc.devRef (τ := τ) .tc)).toFinset := by simp [ops3]
theorem hW4 : (ops4 : List (HloOp τ sig (Elt F))).Forall fun op => op.writes ⊆ (Wr4.map (Proc.devRef (τ := τ) .tc)).toFinset := by simp [ops4]
theorem hW5 : (ops5 : List (HloOp τ sig (Elt F))).Forall fun op => op.writes ⊆ (Wr5.map (Proc.devRef (τ := τ) .tc)).toFinset := by simp [ops5]

/-- An array that no stretch writes, that is not the gathered array and is no region's result keeps its launch contents
    through the whole chain. -/
theorem V11_keep (d : Dev nD) (r : Ref sig .tc) (h0 : r ∉ Wr0) (h1 : r ∉ Wr1) (h2 : r ∉ Wr2) (h3 : r ∉ Wr3) (h4 : r ∉ Wr4) (h5 : r ∉ Wr5)
    (g : r ≠ main_v2) (r1 : r ≠ Pipeline.arrRef spec1 5) (r2 : r ≠ Pipeline.arrRef spec2 5) (r3 : r ≠ Pipeline.arrRef spec3 5) (r4 : r ≠ Pipeline.arrRef spec4 5) :
    V11 m d (Proc.devRef .tc r) = m (d, Proc.devRef .tc r) := by
  unfold V11; rw [StableHlo.after_of_writes_sub ops5 _ hW5 h5]
  unfold V10; rw [Function.update_of_ne (StableHlo.devRef_ne_of_ne r4)]
  unfold V9; rw [StableHlo.after_of_writes_sub ops4 _ hW4 h4]
  unfold V8; rw [Function.update_of_ne (StableHlo.devRef_ne_of_ne r3)]
  unfold V7; rw [StableHlo.after_of_writes_sub ops3 _ hW3 h3]
  unfold V6; rw [Function.update_of_ne (StableHlo.devRef_ne_of_ne r2)]
  unfold V5; rw [StableHlo.after_of_writes_sub ops2 _ hW2 h2]
  unfold V4; rw [Function.update_of_ne (StableHlo.devRef_ne_of_ne r1)]
  unfold V3; rw [StableHlo.after_of_writes_sub ops1 _ hW1 h1]
  unfold V2; rw [Function.update_of_ne (StableHlo.devRef_ne_of_ne g)]
  unfold V1; rw [StableHlo.after_of_writes_sub ops0 _ hW0 h0]
  rfl

/-- The frame's post from the run's: each argument array read at the end of the chain. -/
theorem args_kept {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20) :=
  ⟨(h c _ (mem_Sall main_arg0 rfl)).trans (V11_keep m c main_arg0 (by decide) (by decide) (by decide) (by decide) (by decide) (by decide) (by decide) (by decide) (by decide) (by decide) (by decide)),
   (h c _ (mem_Sall main_arg1 rfl)).trans (V11_keep m c main_arg1 (by decide) (by decide) (by decide) (by decide) (by decide) (by decide) (by decide) (by decide) (by decide) (by decide) (by decide)),
   (h c _ (mem_Sall main_arg2 rfl)).trans (V11_keep m c main_arg2 (by decide) (by decide) (by decide) (by decide) (by decide) (by decide) (by decide) (by decide) (by decide) (by decide) (by decide)),
   (h c _ (mem_Sall main_arg3 rfl)).trans (V11_keep m c main_arg3 (by decide) (by decide) (by decide) (by decide) (by decide) (by decide) (by decide) (by decide) (by decide) (by decide) (by decide)),
   (h c _ (mem_Sall main_arg4 rfl)).trans (V11_keep m c main_arg4 (by decide) (by decide) (by decide) (by decide) (by decide) (by decide) (by decide) (by decide) (by decide) (by decide) (by decide)),
   (h c _ (mem_Sall main_arg5 rfl)).trans (V11_keep m c main_arg5 (by decide) (by decide) (by decide) (by decide) (by decide) (by decide) (by decide) (by decide) (by decide) (by decide) (by decide)),
   (h c _ (mem_Sall main_arg6 rfl)).trans (V11_keep m c main_arg6 (by decide) (by decide) (by decide) (by decide) (by decide) (by decide) (by decide) (by decide) (by decide) (by decide) (by decide)),
   (h c _ (mem_Sall main_arg7 rfl)).trans (V11_keep m c main_arg7 (by decide) (by decide) (by decide) (by decide) (by decide) (by decide) (by decide) (by decide) (by decide) (by decide) (by decide)),
   (h c _ (mem_Sall main_arg8 rfl)).trans (V11_keep m c main_arg8 (by decide) (by decide) (by decide) (by decide) (by decide) (by decide) (by decide) (by decide) (by decide) (by decide) (by decide)),
   (h c _ (mem_Sall main_arg9 rfl)).trans (V11_keep m c main_arg9 (by decide) (by decide) (by decide) (by decide) (by decide) (by decide) (by decide) (by decide) (by decide) (by decide) (by decide)),
   (h c _ (mem_Sall main_arg10 rfl)).trans (V11_keep m c main_arg10 (by decide) (by decide) (by decide) (by decide) (by decide) (by decide) (by decide) (by decide) (by decide) (by decide) (by decide)),
   (h c _ (mem_Sall main_arg11 rfl)).trans (V11_keep m c main_arg11 (by decide) (by decide) (by decide) (by decide) (by decide) (by decide) (by decide) (by decide) (by decide) (by decide) (by decide)),
   (h c _ (mem_Sall main_arg12 rfl)).trans (V11_keep m c main_arg12 (by decide) (by decide) (by decide) (by decide) (by decide) (by decide) (by decide) (by decide) (by decide) (by decide) (by decide)),
   (h c _ (mem_Sall main_arg13 rfl)).trans (V11_keep m c main_arg13 (by decide) (by decide) (by decide) (by decide) (by decide) (by decide) (by decide) (by decide) (by decide) (by decide) (by decide)),
   (h c _ (mem_Sall main_arg14 rfl)).trans (V11_keep m c main_arg14 (by decide) (by decide) (by decide) (by decide) (by decide) (by decide) (by decide) (by decide) (by decide) (by decide) (by decide)),
   (h c _ (mem_Sall main_arg15 rfl)).trans (V11_keep m c main_arg15 (by decide) (by decide) (by decide) (by decide) (by decide) (by decide) (by decide) (by decide) (by decide) (by decide) (by decide)),
   (h c _ (mem_Sall main_arg16 rfl)).trans (V11_keep m c main_arg16 (by decide) (by decide) (by decide) (by decide) (by decide) (by decide) (by decide) (by decide) (by decide) (by decide) (by decide)),
   (h c _ (mem_Sall main_arg17 rfl)).trans (V11_keep m c main_arg17 (by decide) (by decide) (by decide) (by decide) (by decide) (by decide) (by decide) (by decide) (by decide) (by decide) (by decide)),
   (h c _ (mem_Sall main_arg18 rfl)).trans (V11_keep m c main_arg18 (by decide) (by decide) (by decide) (by decide) (by decide) (by decide) (by decide) (by decide) (by decide) (by decide) (by decide)),
   (h c _ (mem_Sall main_arg19 rfl)).trans (V11_keep m c main_arg19 (by decide) (by decide) (by decide) (by decide) (by decide) (by decide) (by decide) (by decide) (by decide) (by decide) (by decide)),
   (h c _ (mem_Sall main_arg20 rfl)).trans (V11_keep m c main_arg20 (by decide) (by decide) (by decide) (by decide) (by decide) (by decide) (by decide) (by decide) (by decide) (by decide) (by decide))⟩

end Keep

end Cert.Proof.KI

end
-- ==== Proof.K.Setup.lean ====
/-
  The word-level kernel's program as the SparseCore launch theorem reads it, and the resource algebra its proof lives in.

  The program is one vector-subcore gather (every tile copies its 19200 rows of the padded index list, 128 at a time,
  and fetches the table rows they name into its 19200 rows of the gathered array) followed, on the TensorCore, by four
  row-blocked two-layer perceptrons over views of the gathered array. Three protocols run side by side and each has a
  factor of the ghost state: the launch handshakes between the TensorCore, the sequencers and the tiles (rounds indexed
  by call), the four pipelines' staging cells (rounds of one duty), and the tiles' own copies (plain counters: every
  copy is waited for before its buffers are touched again, so no schedule is needed).
-/
import proofs.«214605_g64536178589837_cont_9to1_m_912_2_alg».proof.Kernel
import proofs.«214605_g64536178589837_cont_9to1_m_912_2_alg».proof.Proof.Gen.Kernel
import proofs.«214605_g64536178589837_cont_9to1_m_912_2_alg».proof.Proof.Gen.Kernel.Skeleton
import proofs.«214605_g64536178589837_cont_9to1_m_912_2_alg».proof.Proof.Gen.Kernel.Launch
import proofs.«214605_g64536178589837_cont_9to1_m_912_2_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' rounds: the middle factor. The tiles' counters are found by instance in the right one. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

example : CountersIn UU := inferInstance

end Cert.Proof.K

end
-- ==== Proof.K.ScPay.lean ====
/-
  The SparseCore side of the word-level kernel: what the launch handshakes carry for the row gather, and the
  obligations of one tile's task.

  Tile number w = 2·subcore + core owns rows [19200·w, 19200·(w+1)) of the padded index list and of the gathered
  array, in 150 chunks of 128 rows. Every tile reads the table and the index list through a read share of the whole
  array; it holds each of its 150 output chunks outright. The result: row r of the gathered array is the table's row
  named by word r of the index list.
-/
import proofs.«214605_g64536178589837_cont_9to1_m_912_2_alg».proof.Proof.K.Setup
import Idealize.ShloMosaic.Lib.SparseCore.Stream
import Idealize.ShloMosaic.Lib.Transfers
import Idealize.ShloMosaic.Lib.ValueIdx

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

/-! ## The three arrays -/

/-- The table, the padded index list and the gathered array, as locations of device `d`. -/
abbrev tblLoc (d : Dev nD) : Loc nD τ sig := (SparseCore.T d).loc main_arg0
abbrev idxLoc (d : Dev nD) : Loc nD τ sig := (SparseCore.T d).loc main_v1
abbrev outLoc (d : Dev nD) : Loc nD τ sig := (SparseCore.T d).loc main_v2

/-- The same three arrays as a tile's task names them. -/
abbrev tblV : Memref sig .scVector .hbm S100000x128 .f32 := Memref.whole main_arg0_scv
abbrev idxV : Memref sig .scVector .hbm S614400 .i32 := Memref.whole main_v1_scv
abbrev outV : Memref sig .scVector .hbm S614400x128 .f32 := Memref.whole main_v2_scv

/-! ## The value -/

/-- Row `r` of the result is the table's row named by word `r` of the index list (row 0 where the word names no row). -/
def gathered (tbl : S100000x128.Idx → Elt F .f32) (I : S614400.Idx → Elt F .i32) : S614400x128.Idx → Elt F .f32 :=
  fun j => if h : (I (ix1 (j 0))).toNat < 100000 then tbl (ix2 ⟨(I (ix1 (j 0))).toNat, h⟩ (j 1)) else tbl (ix2 ⟨0, by decide⟩ (j 1))

theorem gathered_apply (tbl : S100000x128.Idx → Elt F .f32) (I : S614400.Idx → Elt F .i32) (j : S614400x128.Idx)
    (h : (I (ix1 (j 0))).toNat < 100000) : gathered tbl I j = tbl (ix2 ⟨(I (ix1 (j 0))).toNat, h⟩ (j 1)) := by
  unfold gathered; exact dif_pos h

/-! ## Tiles, chunks -/

def coordsV (c : Fin (grid0.bound 0)) (s : Fin (grid0.bound 1)) : grid0.Coords :=
  fun | 0 => c | 1 => s | ⟨_ + 2, h⟩ => absurd h (Nat.not_lt.2 (Nat.le_add_left _ _))

/-- The tile's number: subcore-major, as the kernel computes its base row. -/
def tileNo (c : Fin (grid0.bound 0)) (i : Fin (grid0.bound 1)) : Fin 32 := ⟨i.val * 2 + c.val, by
  have h0 : c.val < 2 := c.isLt
  have h1 : i.val < 16 := i.isLt
  omega⟩

/-- The even and the odd output chunk of trip `k`, as the task slices them out of the gathered array. -/
abbrev outE (L : grid0.Coords) (k : Fin k0_t1_loop.trips) : Memref sig .scVector .hbm S128x128 .f32 :=
  (outV).slice (Rect.unit (s := S614400x128) (k0_off3 L k) S128x128.size (k0_off3_inb L k)) (fun _ => rfl)
abbrev outO (L : grid0.Coords) (k : Fin k0_t1_loop.trips) : Memref sig .scVector .hbm S128x128 .f32 :=
  (outV).slice (Rect.unit (s := S614400x128) (k0_off5 L k) S128x128.size (k0_off5_inb L k)) (fun _ => rfl)
abbrev setE (L : grid0.Coords) (k : Fin k0_t1_loop.trips) : Finset S614400x128.Idx := (outE L k).view.set
abbrev setO (L : grid0.Coords) (k : Fin k0_t1_loop.trips) : Finset S614400x128.Idx := (outO L k).view.set

/-! ## What the handshakes carry -/

variable (m : (ℓ : Loc nD τ sig) → Buf (Elt F) ℓ) (I : (d : Dev nD) → Buf (Elt F) (idxLoc d))

/-- The result the call leaves in the gathered array of device `d`. -/
abbrev res (d : Dev nD) : Buf (Elt F) (outLoc d) := gathered (m (tblLoc d)) (I d)

/-- A tile's read shares of the table and of the index list. -/
def tileShares (d : Dev nD) (c : Fin (grid0.bound 0)) (i : Fin (grid0.bound 1)) : sProp 𝕄 :=
  iprop((tblLoc d ↦{shareTok fullShare 32 (tileNo c i)} m (tblLoc d)) ∗ (idxLoc d ↦{shareTok fullShare 32 (tileNo c i)} I d))

/-- What a tile's task is handed: its shares and its 150 output chunks, at contents not chosen. -/
def goRes (d : Dev nD) (c : Fin (grid0.bound 0)) (i : Fin (grid0.bound 1)) : sProp 𝕄 :=
  iprop(tileShares m I d c i
    ∗ bigSep Finset.univ fun k : Fin k0_t1_loop.trips =>
        iprop((∃ f, outLoc d ↦[setE (coordsV c i) k]{fullShare} f) ∗ (∃ f, outLoc d ↦[setO (coordsV c i) k]{fullShare} f)))

/-- What it hands back: the shares, and every chunk at the result. -/
def tdRes (d : Dev nD) (c : Fin (grid0.bound 0)) (i : Fin (grid0.bound 1)) : sProp 𝕄 :=
  iprop(tileShares m I d c i
    ∗ bigSep Finset.univ fun k : Fin k0_t1_loop.trips =>
        iprop((outLoc d ↦[setE (coordsV c i) k]{fullShare} res m I d) ∗ (outLoc d ↦[setO (coordsV c i) k]{fullShare} res m I d)))

instance tileShares_storable (d : Dev nD) (c : Fin (grid0.bound 0)) (i : Fin (grid0.bound 1)) :
    BI.Storable (upEmb : UEmb _ 𝕄) (tileShares m I d c i) := by unfold tileShares; infer_instance
instance goRes_storable (d : Dev nD) (c : Fin (grid0.bound 0)) (i : Fin (grid0.bound 1)) :
    BI.Storable (upEmb : UEmb _ 𝕄) (goRes m I d c i) := by unfold goRes; infer_instance
instance tdRes_storable (d : Dev nD) (c : Fin (grid0.bound 0)) (i : Fin (grid0.bound 1)) :
    BI.Storable (upEmb : UEmb _ 𝕄) (tdRes m I d c i) := by unfold tdRes; infer_instance

/-- What a SparseCore is handed, and what it hands back: what its sixteen tiles are, and what they do. -/
def stRes (d : Dev nD) (c : Fin (grid0.bound 0)) : sProp 𝕄 := bigSep Finset.univ fun i : Fin (grid0.bound 1) => goRes m I d c i
def dnRes (d : Dev nD) (c : Fin (grid0.bound 0)) : sProp 𝕄 := bigSep Finset.univ fun i : Fin (grid0.bound 1) => tdRes m I d c i
instance stRes_storable (d : Dev nD) (c : Fin (grid0.bound 0)) : BI.Storable (upEmb : UEmb _ 𝕄) (stRes m I d c) := by unfold stRes; infer_instance
instance dnRes_storable (d : Dev nD) (c : Fin (grid0.bound 0)) : BI.Storable (upEmb : UEmb _ 𝕄) (dnRes m I d c) := by unfold dnRes; infer_instance

/-- The one SparseCore call. -/
def P : (K (F := F)).Pay (nD := nD) (Val := Elt F) (Name := ℕ) (U := UU) where
  st := fun q d c => match q with | 0 => stRes m I d c
  dn := fun q d c => match q with | 0 => dnRes m I d c
  go := fun q d c i => match q with | 0 => goRes m I d c i
  td := fun q d c i => match q with | 0 => tdRes m I d c i
  x := fun _ _ => iprop(emp)

theorem P_st (d : Dev nD) (c : Fin ((K (F := F)).nCore 0)) : (P m I).st 0 d c = stRes m I d c := rfl
theorem P_dn (d : Dev nD) (c : Fin ((K (F := F)).nCore 0)) : (P m I).dn 0 d c = dnRes m I d c := rfl
theorem P_go (d : Dev nD) (c : Fin ((K (F := F)).nCore 0)) (i : Fin ((K (F := F)).nSub 0)) : (P m I).go 0 d c i = goRes m I d c i := rfl
theorem P_td (d : Dev nD) (c : Fin ((K (F := F)).nCore 0)) (i : Fin ((K (F := F)).nSub 0)) : (P m I).td 0 d c i = tdRes m I d c i := rfl

instance P_storable : (P (F := F) m I).IsStorable where
  st q d c := match q with | 0 => stRes_storable m I d c
  dn q d c := match q with | 0 => dnRes_storable m I d c
  go q d c i := match q with | 0 => goRes_storable m I d c i
  td q d c i := match q with | 0 => tdRes_storable m I d c i

end Cert.Proof.K
end
-- ==== Proof.K.ScVal.lean ====
/-
  The values of one tile's task: what a gather over a chunk of the index list delivers, and what the copy of a row
  buffer leaves in the gathered array, both as rows of the result.
-/
import proofs.«214605_g64536178589837_cont_9to1_m_912_2_alg».proof.Proof.K.ScPay
import Idealize.ShloMosaic.Lib.Tactic
import Idealize.ShloMosaic.Lib.Writes

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

open Idealize.ShloMosaic.SparseCore (gatherPayload rows)

variable (m : (ℓ : Loc nD τ sig) → Buf (Elt F) ℓ) (I : (d : Dev nD) → Buf (Elt F) (idxLoc d))

section Value

variable (d : Dev nD) (L : grid0.Coords)

abbrev cV (L : grid0.Coords) : Fin τ.nSC := (L 0).castLE hcore0
abbrev jV (L : grid0.Coords) : Fin τ.nSub := (L 1).castLE hsub0

/-- A tile's scratch: the two index chunks, the two row buffers. -/
abbrev iaV : Memref sig .scVector .vmem S128 .i32 := Memref.whole cc0_scratch0
abbrev ibV : Memref sig .scVector .vmem S128 .i32 := Memref.whole cc0_scratch1
abbrev raV : Memref sig .scVector .vmem S128x128 .f32 := Memref.whole cc0_scratch2
abbrev rbV : Memref sig .scVector .vmem S128x128 .f32 := Memref.whole cc0_scratch3

abbrev semOf (s : DmaSems sig S_) : GSem nD τ sig := (V d (cV L) (jV L), SemLoc.dma s.sem)

/-- The tile's base row. -/
def baseRow (L : grid0.Coords) : ℕ := 38400 * (L 1).val + 19200 * (L 0).val

/-- A row buffer holds the result's rows of chunk `j` of the tile. -/
def RowsOK (j : ℕ) (fr : S128x128.Idx → Elt F .f32) : Prop :=
  ∀ (y : S128x128.Idx) (x : S614400x128.Idx), (x 0).val = baseRow L + 128 * j + (y 0).val → (x 1).val = (y 1).val → fr y = res m I d x

/-- The whole table as a gather names its source. -/
abbrev tblAll : Memref sig .scVector .hbm S100000x128 .f32 :=
  (tblV).slice (Rect.unit (s := S100000x128) ![0, 0] S100000x128.size inb_S100000x128_S100000x128_0_0) (fun _ => rfl)

/-- A chunk of the index list as a copy names its source. -/
abbrev idxSl (off : Fin 1 → ℕ) (h : ∀ a, off a + S128.size a ≤ S614400.size a) : Memref sig .scVector .hbm S128 .i32 :=
  (idxV).slice (Rect.unit (s := S614400) off S128.size h) (fun _ => rfl)

theorem read_tblAll (z : S100000x128.Idx) : View.read (Elt F) (tblAll).view (m (tblLoc d)) z = m (tblLoc d) z := by
  rw [View.read_apply]
  refine (cast_eq _ _).trans (congrArg (m (tblLoc d)) ?_)
  funext a; apply Fin.ext
  show (Rect.unit (s := S100000x128) ![0, 0] S100000x128.size inb_S100000x128_S100000x128_0_0).off a + (Rect.unit (s := S100000x128) ![0, 0] S100000x128.size inb_S100000x128_S100000x128_0_0).stride a * (z a).val = (z a).val
  match a with
  | 0 => simp [Rect.unit]
  | 1 => simp [Rect.unit]

theorem read_idxSl (off : Fin 1 → ℕ) (h : ∀ a, off a + S128.size a ≤ S614400.size a) (z : S128.Idx) (r : S614400.Idx)
    (hr : (r 0).val = off 0 + (z 0).val) :
    ReadAs.same.apply (View.read (Elt F) (idxSl off h).view (I d)) z = I d r := by
  show View.read (Elt F) (idxSl off h).view (I d) z = I d r
  rw [View.read_apply]
  refine (cast_eq _ _).trans (congrArg (I d) ?_)
  funext a; apply Fin.ext
  match a with
  | 0 =>
    show (Rect.unit (s := S614400) off S128.size h).off 0 + (Rect.unit (s := S614400) off S128.size h).stride 0 * (z 0).val = (r 0).val
    rw [hr]; simp [Rect.unit]

/-- What a gather over a chunk of the index list delivers: the result's rows of that chunk. -/
theorem gather_rows (hI : ∀ r, ((I d) r).toNat < 100000) (j : ℕ) (off : Fin 1 → ℕ) (h : ∀ a, off a + S128.size a ≤ S614400.size a)
    (hoff : off 0 = baseRow L + 128 * j) (words : S128.Idx → Elt F .i32)
    (hwords : ∀ z, words z = ReadAs.same.apply (View.read (Elt F) (idxSl off h).view (I d)) z)
    (hn : S128.numel = S128x128.size gathers_S100000x128_S128x128.axis')
    (hin : ∀ x, (words x).toNat < S100000x128.size gathers_S100000x128_S128x128.axis) :
    RowsOK m I d L j (gatherPayload gathers_S100000x128_S128x128 (View.read (Elt F) (tblAll).view (m (tblLoc d))) (rows words hn hin)) := by
  intro y x hx0 hx1
  unfold gatherPayload
  rw [read_tblAll, res, gathered_apply _ _ _ (hI _)]
  refine congrArg (m (tblLoc d)) ?_
  funext b
  match b with
  | 0 =>
    apply Fin.ext
    have h0 := Shape.Gathers.idx_axis gathers_S100000x128_S128x128 (rows words hn hin) y
    show ((gathers_S100000x128_S128x128.idx (rows words hn hin) y) gathers_S100000x128_S128x128.axis).val = _
    rw [h0]
    show (words _).toNat = (I d (ix1 (x 0))).toNat
    rw [hwords]
    refine congrArg BitVec.toNat (read_idxSl I d off h _ _ ?_)
    show (x 0).val = off 0 + ((S128.rowMajor.symm ((y gathers_S100000x128_S128x128.axis').cast hn.symm)) 0).val
    have hz := Shape.rowMajor_val_one (S128.rowMajor.symm ((y gathers_S100000x128_S128x128.axis').cast hn.symm))
    rw [Equiv.apply_symm_apply] at hz
    rw [← hz, hoff, hx0]; rfl
  | 1 =>
    apply Fin.ext
    have h1 := Shape.Gathers.idx_of_ne gathers_S100000x128_S128x128 (rows words hn hin) y 1 (by decide)
    exact h1.trans hx1.symm

theorem gather_rows_a (hI : ∀ r, ((I d) r).toNat < 100000) (j : ℕ) (off : Fin 1 → ℕ) (h : ∀ a, off a + S128.size a ≤ S614400.size a)
    (hoff : off 0 = baseRow L + 128 * j) (fi : Buf (Elt F) ((iaV).view.loc (V d (cV L) (jV L))))
    (hn : S128.numel = S128x128.size gathers_S100000x128_S128x128.axis')
    (hin : ∀ x, (View.read (Elt F) (iaV).view (View.write (Elt F) (iaV).view fi
      (ReadAs.same.apply (View.read (Elt F) (idxSl off h).view (I d))) Finset.univ) x).toNat < S100000x128.size gathers_S100000x128_S128x128.axis) :
    RowsOK m I d L j (gatherPayload gathers_S100000x128_S128x128 (View.read (Elt F) (tblAll).view (m (tblLoc d)))
      (rows (View.read (Elt F) (iaV).view (View.write (Elt F) (iaV).view fi
        (ReadAs.same.apply (View.read (Elt F) (idxSl off h).view (I d))) Finset.univ)) hn hin)) :=
  gather_rows m I d L hI j off h hoff _ (fun z => by
    show View.read (Elt F) (View.whole cc0_scratch0) (View.write (Elt F) (View.whole cc0_scratch0) fi _ Finset.univ) z = _
    rw [View.write_whole_univ, View.read_whole]) hn hin
theorem gather_rows_b (hI : ∀ r, ((I d) r).toNat < 100000) (j : ℕ) (off : Fin 1 → ℕ) (h : ∀ a, off a + S128.size a ≤ S614400.size a)
    (hoff : off 0 = baseRow L + 128 * j) (fi : Buf (Elt F) ((ibV).view.loc (V d (cV L) (jV L))))
    (hn : S128.numel = S128x128.size gathers_S100000x128_S128x128.axis')
    (hin : ∀ x, (View.read (Elt F) (ibV).view (View.write (Elt F) (ibV).view fi
      (ReadAs.same.apply (View.read (Elt F) (idxSl off h).view (I d))) Finset.univ) x).toNat < S100000x128.size gathers_S100000x128_S128x128.axis) :
    RowsOK m I d L j (gatherPayload gathers_S100000x128_S128x128 (View.read (Elt F) (tblAll).view (m (tblLoc d)))
      (rows (View.read (Elt F) (ibV).view (View.write (Elt F) (ibV).view fi
        (ReadAs.same.apply (View.read (Elt F) (idxSl off h).view (I d))) Finset.univ)) hn hin)) :=
  gather_rows m I d L hI j off h hoff _ (fun z => by
    show View.read (Elt F) (View.whole cc0_scratch1) (View.write (Elt F) (View.whole cc0_scratch1) fi _ Finset.univ) z = _
    rw [View.write_whole_univ, View.read_whole]) hn hin

/-! The offsets the task computes, in rows of the tile. -/
theorem off1_row : k0_off1 L 0 = baseRow L + 128 * 0 := by
  rw [k0_off1_eq]; show 38400 * (L 1).val + 19200 * (L 0).val = baseRow L + 128 * 0; unfold baseRow; omega
theorem off2_row (k : Fin k0_t1_loop.trips) : k0_off2 L k 0 = baseRow L + 128 * (2 * k.val + 1) := by
  rw [k0_off2_eq]; show 38400 * (L 1).val + 19200 * (L 0).val + 256 * k.val + 128 = baseRow L + 128 * (2 * k.val + 1); unfold baseRow; omega
theorem off4_row (k : Fin k0_t1_loop.trips) : k0_off4 L k 0 = baseRow L + 128 * (2 * (k.val + 1)) := by
  rw [k0_off4_eq]; show 38400 * (L 1).val + 19200 * (L 0).val + 256 * k.val + 256 = baseRow L + 128 * (2 * (k.val + 1)); unfold baseRow; omega
theorem off3_row (k : Fin k0_t1_loop.trips) : k0_off3 L k 0 = baseRow L + 128 * (2 * k.val) := by
  rw [k0_off3_eq]; show 38400 * (L 1).val + 19200 * (L 0).val + 256 * k.val = baseRow L + 128 * (2 * k.val); unfold baseRow; omega
theorem off3_col (k : Fin k0_t1_loop.trips) : k0_off3 L k 1 = 0 := by rw [k0_off3_eq]; rfl
theorem off5_row (k : Fin k0_t1_loop.trips) : k0_off5 L k 0 = baseRow L + 128 * (2 * k.val + 1) := by
  rw [k0_off5_eq]; show 38400 * (L 1).val + 19200 * (L 0).val + 256 * k.val + 128 = baseRow L + 128 * (2 * k.val + 1); unfold baseRow; omega
theorem off5_col (k : Fin k0_t1_loop.trips) : k0_off5 L k 1 = 0 := by rw [k0_off5_eq]; rfl

/-- One whole-buffer write leaves its payload. -/
theorem rowsOK_ra (j : ℕ) (fr : Buf (Elt F) ((raV).view.loc (V d (cV L) (jV L)))) (p : S128x128.Idx → Elt F .f32)
    (hp : RowsOK m I d L j p) : RowsOK m I d L j ((raV).view.writes (Elt F) fr [⟨Rect.whole S128x128, p⟩]) := by
  intro y x h0 h1
  have h := View.read_writes_cons_emb (View.whole cc0_scratch2) fr (Rect.whole S128x128) p [] y
  have e := Rect.emb_whole_apply S128x128 y
  rw [View.read_whole, e] at h
  exact h.trans (hp y x h0 h1)
theorem rowsOK_rb (j : ℕ) (fr : Buf (Elt F) ((rbV).view.loc (V d (cV L) (jV L)))) (p : S128x128.Idx → Elt F .f32)
    (hp : RowsOK m I d L j p) : RowsOK m I d L j ((rbV).view.writes (Elt F) fr [⟨Rect.whole S128x128, p⟩]) := by
  intro y x h0 h1
  have h := View.read_writes_cons_emb (View.whole cc0_scratch3) fr (Rect.whole S128x128) p [] y
  have e := Rect.emb_whole_apply S128x128 y
  rw [View.read_whole, e] at h
  exact h.trans (hp y x h0 h1)
theorem rowsOK_read_ra (j : ℕ) (fr : Buf (Elt F) ((raV).view.loc (V d (cV L) (jV L))))
    (h : RowsOK m I d L j fr) : RowsOK m I d L j (ReadAs.same.apply (View.read (Elt F) (raV).view fr)) := by
  show RowsOK m I d L j (View.read (Elt F) (View.whole cc0_scratch2) fr)
  rw [View.read_whole]; exact h
theorem rowsOK_read_rb (j : ℕ) (fr : Buf (Elt F) ((rbV).view.loc (V d (cV L) (jV L))))
    (h : RowsOK m I d L j fr) : RowsOK m I d L j (ReadAs.same.apply (View.read (Elt F) (rbV).view fr)) := by
  show RowsOK m I d L j (View.read (Elt F) (View.whole cc0_scratch3) fr)
  rw [View.read_whole]; exact h

/-- A row buffer that holds chunk `j`'s rows, copied over the chunk's rows of the gathered array, leaves the result there. -/
theorem copy_rows (offv : Fin 2 → ℕ) (h : ∀ a, offv a + S128x128.size a ≤ S614400x128.size a) (j : ℕ)
    (ho0 : offv 0 = baseRow L + 128 * j) (ho1 : offv 1 = 0) (f : Buf (Elt F) (outLoc d)) (w : S128x128.Idx → Elt F .f32)
    (hw : RowsOK m I d L j w) :
    ∀ i ∈ ((outV).slice (Rect.unit (s := S614400x128) offv S128x128.size h) (fun _ => rfl)).view.set,
      ((outV).slice (Rect.unit (s := S614400x128) offv S128x128.size h) (fun _ => rfl)).view.writes (Elt F) f [⟨Rect.whole S128x128, w⟩] i
        = res m I d i := by
  intro i hi
  obtain ⟨y, -, rfl⟩ := Finset.mem_map.mp hi
  have h1 := View.read_writes_cons_emb ((outV).slice (Rect.unit (s := S614400x128) offv S128x128.size h) (fun _ => rfl)).view f (Rect.whole S128x128) w [] y
  have e := Rect.emb_whole_apply S128x128 y
  rw [e, View.read_apply] at h1
  refine ((cast_eq _ _).symm.trans h1).trans (hw y _ ?_ ?_)
  · show (Rect.unit (s := S614400x128) offv S128x128.size h).off 0 + (Rect.unit (s := S614400x128) offv S128x128.size h).stride 0 * (y 0).val = _
    rw [← ho0]; simp [Rect.unit]
  · show (Rect.unit (s := S614400x128) offv S128x128.size h).off 1 + (Rect.unit (s := S614400x128) offv S128x128.size h).stride 1 * (y 1).val = _
    simp [Rect.unit, ho1]

/-- Whatever an index scratch held, once a chunk of the index list has been copied over the whole of it every word of it
    is a word of the index list, so names a row of the table. -/
theorem idx_inb_a (hI : ∀ r, ((I d) r).toNat < 100000) (off : Fin 1 → ℕ) (h : ∀ a, off a + S128.size a ≤ S614400.size a)
    (f : Buf (Elt F) ((iaV).view.loc (V d (cV L) (jV L)))) (x : S128.Idx) :
    (View.read (Elt F) iaV.view (View.write (Elt F) iaV.view f
      (ReadAs.same.apply (View.read (Elt F) (idxV.slice (Rect.unit (s := S614400) off S128.size h) (fun _ => rfl)).view (I d))) Finset.univ) x).toNat < 100000 := by
  show (View.read (Elt F) (View.whole cc0_scratch0) (View.write (Elt F) (View.whole cc0_scratch0) f _ Finset.univ) x).toNat < 100000
  rw [View.write_whole_univ, View.read_whole]
  exact ((congrArg BitVec.toNat ((View.read_apply _ _).trans (cast_eq _ _))).trans_lt (hI _))
theorem idx_inb_b (hI : ∀ r, ((I d) r).toNat < 100000) (off : Fin 1 → ℕ) (h : ∀ a, off a + S128.size a ≤ S614400.size a)
    (f : Buf (Elt F) ((ibV).view.loc (V d (cV L) (jV L)))) (x : S128.Idx) :
    (View.read (Elt F) ibV.view (View.write (Elt F) ibV.view f
      (ReadAs.same.apply (View.read (Elt F) (idxV.slice (Rect.unit (s := S614400) off S128.size h) (fun _ => rfl)).view (I d))) Finset.univ) x).toNat < 100000 := by
  show (View.read (Elt F) (View.whole cc0_scratch1) (View.write (Elt F) (View.whole cc0_scratch1) f _ Finset.univ) x).toNat < 100000
  rw [View.write_whole_univ, View.read_whole]
  exact ((congrArg BitVec.toNat ((View.read_apply _ _).trans (cast_eq _ _))).trans_lt (hI _))

/-- A chunk of the gathered array as the tile addresses it is the chunk of the device's array. -/
theorem pts_outE (k : Fin k0_t1_loop.trips) (f : Buf (Elt F) (outLoc d)) :
    ((outE L k).view.loc (V d (cV L) (jV L)) ↦[(outE L k).view.set]{fullShare} f : sProp 𝕄) = outLoc d ↦[setE L k]{fullShare} f := rfl
theorem pts_outO (k : Fin k0_t1_loop.trips) (f : Buf (Elt F) (outLoc d)) :
    ((outO L k).view.loc (V d (cV L) (jV L)) ↦[(outO L k).view.set]{fullShare} f : sProp 𝕄) = outLoc d ↦[setO L k]{fullShare} f := rfl

/-- The refill of slot a happens on every trip but the last. -/
theorem cond1_iff : ∀ k : Fin k0_t1_loop.trips, k0_cond1 k = 1#1 ↔ k.val + 1 < 75 := by decide +kernel
theorem trips_eq : k0_t1_loop.trips = 75 := by decide

end Value
end Cert.Proof.K
end
-- ==== Proof.K.ScTile.lean ====
/-
  One tile's task of the row gather: from its read shares and its 150 output chunks to the chunks at the gathered rows.

  The loop's invariant before trip k: gather a is in flight for chunk 2k (on every trip; at the end its buffers are at
  rest), its delivery the chunk's rows of the result; the chunks below 2k are written; every other semaphore is at zero.
-/
import proofs.«214605_g64536178589837_cont_9to1_m_912_2_alg».proof.Proof.K.ScVal

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

open Idealize.ShloMosaic.Tactic
open Idealize.ShloMosaic.SparseCore (gatherPayload rows)

variable (m : (ℓ : Loc nD τ sig) → Buf (Elt F) ℓ) (I : (d : Dev nD) → Buf (Elt F) (idxLoc d))
variable [FloatOps F]

section Tile

variable (d : Dev nD) (L : grid0.Coords)

abbrev tblS : Finset S100000x128.Idx := (tblAll).view.set

/-- Gather a in flight for the even chunk of trip `k`: at its wait the row buffer holds that chunk's rows. -/
def flightA (qa : PosShare TreeShare) (k : ℕ) : sProp 𝕄 :=
  iprop(∃ (fr : Buf (Elt F) ((raV).view.loc (V d (cV L) (jV L)))) (fi : Buf (Elt F) ((iaV).view.loc (V d (cV L) (jV L)))), ⌜RowsOK m I d L (2 * k) fr⌝
    ∗ Transfers.Flight countersEmb (V d (cV L) (jV L)) (SemLoc.dma cc0_scratch4.sem) default 524288
        iprop((((raV).view.loc (V d (cV L) (jV L)) ↦{fullShare} fr) ∗ ((iaV).view.loc (V d (cV L) (jV L)) ↦{fullShare} fi))
          ∗ ((tblV).view.loc (V d (cV L) (jV L)) ↦[tblS]{qa} m (tblLoc d)))
    ∗ ((tblV).view.loc (V d (cV L) (jV L)) ↦[Finset.univ \ tblS]{qa} m (tblLoc d)))

/-- No gather a in flight: its buffers and its share of the table at rest. -/
def heldA (qa : PosShare TreeShare) : sProp 𝕄 :=
  iprop((∃ fr, (raV).view.loc (V d (cV L) (jV L)) ↦{fullShare} fr) ∗ (∃ fi, (iaV).view.loc (V d (cV L) (jV L)) ↦{fullShare} fi)
    ∗ ((tblV).view.loc (V d (cV L) (jV L)) ↦{qa} m (tblLoc d)) ∗ semVal (semOf d L cc0_scratch4) 0)

abbrev outTodo (j : Fin k0_t1_loop.trips) : sProp 𝕄 :=
  iprop((∃ f, outLoc d ↦[setE L j]{fullShare} f) ∗ (∃ f, outLoc d ↦[setO L j]{fullShare} f))
abbrev outDone (j : Fin k0_t1_loop.trips) : sProp 𝕄 :=
  iprop((outLoc d ↦[setE L j]{fullShare} res m I d) ∗ (outLoc d ↦[setO L j]{fullShare} res m I d))

/-- Output chunks below trip `k` are written, the others are not yet. -/
def outJ (k : ℕ) (j : Fin k0_t1_loop.trips) : sProp 𝕄 := if j.val < k then outDone m I d L j else outTodo (F := F) d L j

def inv (qa qb qi : PosShare TreeShare) (O : CellTallies nD τ sig (HIx 1)) (W : Waits sig (HIx 1)) (k : ℕ) (_ : PUnit) : sProp 𝕄 :=
  iprop((Transfers.MayWaits (V d (cV L) (jV L)) (none : HIx 1) O : sProp 𝕄)
    ∗ (if k < 75 then flightA m I d L qa k else heldA m d L qa)
    ∗ ((tblV).view.loc (V d (cV L) (jV L)) ↦{qb} m (tblLoc d))
    ∗ ((idxV).view.loc (V d (cV L) (jV L)) ↦{qi} I d)
    ∗ (∃ f, (ibV).view.loc (V d (cV L) (jV L)) ↦{fullShare} f) ∗ (∃ f, (rbV).view.loc (V d (cV L) (jV L)) ↦{fullShare} f)
    ∗ semVal (semOf d L cc0_scratch5) 0
    ∗ semVal (semOf d L cc0_scoped1) 0 ∗ semVal (semOf d L cc0_scoped2) 0
    ∗ semVal (semOf d L cc0_scoped3) 0 ∗ semVal (semOf d L cc0_scoped4) 0
    ∗ (bigSep Finset.univ fun j : Fin k0_t1_loop.trips => outJ m I d L k j)
    ∗ ∃ W', ⌜∀ p ∈ W', p ∈ W ∨ p.2 = none⌝ ∗ owes (V d (cV L) (jV L)) O W')

omit [FloatOps F] in
theorem outJ_rest (k : Fin k0_t1_loop.trips) :
    (bigSep (Finset.univ.erase k) fun j : Fin k0_t1_loop.trips => outJ m I d L k.val j)
      = bigSep (Finset.univ.erase k) fun j : Fin k0_t1_loop.trips => outJ m I d L (k.val + 1) j := by
  refine bigSep_congr fun j hj => ?_
  have hne : j.val ≠ k.val := fun e => (Finset.mem_erase.mp hj).1 (Fin.ext e)
  unfold outJ
  by_cases h : j.val < k.val
  · rw [if_pos h, if_pos (by omega)]
  · rw [if_neg h, if_neg (by omega)]

/-- The waits a trip records are all at the index the launch does not use. -/
theorem waits_ok {W W' : Waits sig (HIx 1)} (hW' : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact hW' p hp

set_option maxHeartbeats 1000000 in
/-- The task, from its shares, its chunks, its scratch and its semaphores at zero. -/
theorem tile_core (qa qb qi : PosShare TreeShare) (O : CellTallies nD τ sig (HIx 1)) (W : Waits sig (HIx 1))
    (fia fib : Buf (Elt F) ((iaV).view.loc (V d (cV L) (jV L)))) (fra frb : Buf (Elt F) ((raV).view.loc (V d (cV L) (jV L))))
    (hI : ∀ r, ((I d) r).toNat < 100000) :
    iprop((Transfers.MayWaits (V d (cV L) (jV L)) (none : HIx 1) O : sProp 𝕄)
        ∗ ((tblV).view.loc (V d (cV L) (jV L)) ↦{qa} m (tblLoc d)) ∗ ((tblV).view.loc (V d (cV L) (jV L)) ↦{qb} m (tblLoc d))
        ∗ ((idxV).view.loc (V d (cV L) (jV L)) ↦{qi} I d)
        ∗ (bigSep Finset.univ fun k : Fin k0_t1_loop.trips => outTodo (F := F) d L k)
        ∗ ((iaV).view.loc (V d (cV L) (jV L)) ↦{fullShare} fia) ∗ ((ibV).view.loc (V d (cV L) (jV L)) ↦{fullShare} fib)
        ∗ ((raV).view.loc (V d (cV L) (jV L)) ↦{fullShare} fra) ∗ ((rbV).view.loc (V d (cV L) (jV L)) ↦{fullShare} frb)
        ∗ semVal (semOf d L cc0_scratch4) 0 ∗ semVal (semOf d L cc0_scratch5) 0
        ∗ semVal (semOf d L cc0_scoped0) 0 ∗ semVal (semOf d L cc0_scoped1) 0 ∗ semVal (semOf d L cc0_scoped2) 0
        ∗ semVal (semOf d L cc0_scoped3) 0 ∗ semVal (semOf d L cc0_scoped4) 0
        ∗ owes (V d (cV L) (jV L)) O W)
      ⊢ wp frame (wpE (defs₀ (F := F)) 𝒱₀ (V d (cV L) (jV L)) none) Set.univ
          (cc0_gather_k L tblV (Memref.isWhole_whole _) idxV (Memref.isWhole_whole _) outV (Memref.isWhole_whole _)
            iaV (Memref.isWhole_whole _) ibV (Memref.isWhole_whole _) raV (Memref.isWhole_whole _) rbV (Memref.isWhole_whole _)
            cc0_scratch4 cc0_scratch5 cc0_scoped0 cc0_scoped1 cc0_scoped2 cc0_scoped3 cc0_scoped4)
          fun _ => iprop(((tblV).view.loc (V d (cV L) (jV L)) ↦{qa} m (tblLoc d)) ∗ ((tblV).view.loc (V d (cV L) (jV L)) ↦{qb} m (tblLoc d))
            ∗ ((idxV).view.loc (V d (cV L) (jV L)) ↦{qi} I d)
            ∗ (bigSep Finset.univ fun k : Fin k0_t1_loop.trips => outDone m I d L k)
            ∗ (∃ f, (iaV).view.loc (V d (cV L) (jV L)) ↦{fullShare} f) ∗ (∃ f, (ibV).view.loc (V d (cV L) (jV L)) ↦{fullShare} f)
            ∗ (∃ f, (raV).view.loc (V d (cV L) (jV L)) ↦{fullShare} f) ∗ (∃ f, (rbV).view.loc (V d (cV L) (jV L)) ↦{fullShare} f)
            ∗ semVal (semOf d L cc0_scratch4) 0 ∗ semVal (semOf d L cc0_scratch5) 0
            ∗ semVal (semOf d L cc0_scoped0) 0 ∗ semVal (semOf d L cc0_scoped1) 0 ∗ semVal (semOf d L cc0_scoped2) 0
            ∗ semVal (semOf d L cc0_scoped3) 0 ∗ semVal (semOf d L cc0_scoped4) 0
            ∗ ∃ W', ⌜∀ p ∈ W', p ∈ W ∨ p.2 = none⌝ ∗ owes (V d (cV L) (jV L)) O W') := by
  iintro ⟨#Hmw, Hta, Htb, Hidx, Hout, Hia, Hib, Hra, Hrb, Hs4, Hs5, Hc0, Hc1, Hc2, Hc3, Hc4, HO⟩
  sl_unfold [cc0_gather_k]
  have hinA := idx_inb_a (F := F) I d L hI
  have hinB := idx_inb_b (F := F) I d L hI
  sl_exec
  sl_for (inv m I d L qa qb qi O W) $$ [Hmw Hta Htb Hidx Hout Hib Hrb Hs4 Hs5 Hc1 Hc2 Hc3 Hc4 HO]
  case region =>
    intro k _
    unfold inv
    rw [if_pos (show k.val < 75 from Nat.lt_of_lt_of_le k.isLt k0_t1_abs.2.1)]
    unfold flightA
    iintro ⟨#Hmw, ⟨%fr, %fi, %hfr, Hfl, Hta⟩, Htb, Hidx, ⟨%fib, Hib⟩, ⟨%frb, Hrb⟩, Hs5, Hc1, Hc2, Hc3, Hc4, Hout, %W', %hW', HO⟩
    ihave Hout' := (Transfers.bigSep_univ_out k (fun j : Fin k0_t1_loop.trips => outJ m I d L k.val j)) $$ Hout
    icases Hout' with ⟨Hk, Hrest⟩
    ihave Hk' := (Entails.of_eq (show outJ m I d L k.val k = outTodo (F := F) d L k from if_neg (Nat.lt_irrefl _))) $$ Hk
    icases Hk' with ⟨⟨%fE, HE0⟩, ⟨%fO, HOd0⟩⟩
    ihave HE := (Entails.of_eq (pts_outE (F := F) d L k fE).symm) $$ HE0
    ihave HOd := (Entails.of_eq (pts_outO (F := F) d L k fO).symm) $$ HOd0
    ihave Hrest' := (Entails.of_eq (outJ_rest (F := F) m I d L k)) $$ Hrest
    have hrb := rowsOK_read_rb m I d L _ _ (rowsOK_rb m I d L (2 * k.val + 1) frb _
      (gather_rows_b m I d L hI (2 * k.val + 1) (k0_off2 L k) (k0_off2_inb L k) (off2_row L k) fib rfl (hinB _ _ _)))
    have hra := rowsOK_read_ra m I d L _ fr hfr
    by_cases k0_h1 : k0_cond1 k = 1#1
    · sl_exec
      sl_step
      rw [if_pos ((cond1_iff k).mp k0_h1)]
      ihave HE' := (Entails.of_eq (pointsTo_congr (copy_rows m I d L (k0_off3 L k) (k0_off3_inb L k) (2 * k.val) (off3_row L k) (off3_col L k) fE _ hra))) $$ HE
      ihave HOd' := (Entails.of_eq (pointsTo_congr (copy_rows m I d L (k0_off5 L k) (k0_off5_inb L k) (2 * k.val + 1) (off5_row L k) (off5_col L k) fO _ hrb))) $$ HOd
      isplitr; · iexact Hmw
      isplitl [Hfl Hta]
      · iexists _, _
        isplitr
        · ipureintro
          exact rowsOK_ra m I d L _ fr _ (gather_rows_a m I d L hI (2 * (k.val + 1)) (k0_off4 L k) (k0_off4_inb L k k0_h1) (off4_row L k) fi rfl (hinA _ _ _))
        isplitl [Hfl]; · iexact Hfl
        iexact Hta
      isplitl [Htb]; · iexact Htb
      isplitl [Hidx]; · iexact Hidx
      isplitl [Hib]; · iexists _; iexact Hib
      isplitl [Hrb]; · iexists _; iexact Hrb
      isplitl [Hs5]; · iexact Hs5
      isplitl [Hc1]; · iexact Hc1
      isplitl [Hc2]; · iexact Hc2
      isplitl [Hc3]; · iexact Hc3
      isplitl [Hc4]; · iexact Hc4
      isplitl [HE' HOd' Hrest']
      · iapply (Transfers.bigSep_univ_in k (fun j : Fin k0_t1_loop.trips => outJ m I d L (k.val + 1) j))
        isplitl [HE' HOd']
        · iapply (Entails.of_eq (show outJ m I d L (k.val + 1) k = outDone m I d L k from if_pos (Nat.lt_succ_self _)).symm)
          isplitl [HE']; · iexact HE'
          iexact HOd'
        · iexact Hrest'
      iexists _; isplitr
      rotate_left
      · iexact HO
      · ipureintro
        exact waits_ok (waits_ok (waits_ok (waits_ok (waits_ok (waits_ok hW' _) _) _) _) _) _
    · sl_exec
      sl_step
      rw [if_neg (fun h => k0_h1 ((cond1_iff k).mpr h))]
      unfold heldA
      ihave HE' := (Entails.of_eq (pointsTo_congr (copy_rows m I d L (k0_off3 L k) (k0_off3_inb L k) (2 * k.val) (off3_row L k) (off3_col L k) fE _ hra))) $$ HE
      ihave HOd' := (Entails.of_eq (pointsTo_congr (copy_rows m I d L (k0_off5 L k) (k0_off5_inb L k) (2 * k.val + 1) (off5_row L k) (off5_col L k) fO _ hrb))) $$ HOd
      isplitr; · iexact Hmw
      isplitl [Hfl_dst Hfl_dst_and Hta Hfl]
      · isplitl [Hfl_dst]; · iexists _; iexact Hfl_dst
        isplitl [Hfl_dst_and]; · iexists _; iexact Hfl_dst_and
        isplitl [Hta]; · iexact Hta
        iexact Hfl
      isplitl [Htb]; · iexact Htb
      isplitl [Hidx]; · iexact Hidx
      isplitl [Hib]; · iexists _; iexact Hib
      isplitl [Hrb]; · iexists _; iexact Hrb
      isplitl [Hs5]; · iexact Hs5
      isplitl [Hc1]; · iexact Hc1
      isplitl [Hc2]; · iexact Hc2
      isplitl [Hc3]; · iexact Hc3
      isplitl [Hc4]; · iexact Hc4
      isplitl [HE' HOd' Hrest']
      · iapply (Transfers.bigSep_univ_in k (fun j : Fin k0_t1_loop.trips => outJ m I d L (k.val + 1) j))
        isplitl [HE' HOd']
        · iapply (Entails.of_eq (show outJ m I d L (k.val + 1) k = outDone m I d L k from if_pos (Nat.lt_succ_self _)).symm)
          isplitl [HE']; · iexact HE'
          iexact HOd'
        · iexact Hrest'
      iexists _; isplitr
      rotate_left
      · iexact HO
      · ipureintro
        exact waits_ok (waits_ok (waits_ok (waits_ok (waits_ok hW' _) _) _) _) _
  · unfold inv
    rw [if_pos (by decide : (0 : ℕ) < 75)]
    unfold flightA
    isplitr; · iexact Hmw
    isplitl [Hs4 Hta]
    · iexists _, _
      isplitr
      · ipureintro
        exact rowsOK_ra m I d L _ fra _ (gather_rows_a m I d L hI (2 * 0) (k0_off1 L) (k0_off1_inb L) (off1_row L) fia rfl (hinA _ _ _))
      isplitl [Hs4]; · iexact Hs4
      iexact Hta
    isplitl [Htb]; · iexact Htb
    isplitl [Hidx]; · iexact Hidx
    isplitl [Hib]; · iexists _; iexact Hib
    isplitl [Hrb]; · iexists _; iexact Hrb
    isplitl [Hs5]; · iexact Hs5
    isplitl [Hc1]; · iexact Hc1
    isplitl [Hc2]; · iexact Hc2
    isplitl [Hc3]; · iexact Hc3
    isplitl [Hc4]; · iexact Hc4
    isplitl [Hout]
    · iapply (Entails.of_eq (bigSep_congr (s := Finset.univ) fun (j : Fin k0_t1_loop.trips) _ =>
        (show outJ m I d L 0 j = outTodo (F := F) d L j from if_neg (Nat.not_lt_zero _))))
      iexact Hout
    iexists _; isplitr
    rotate_left
    · iexact HO
    · ipureintro
      exact waits_ok (fun p hp => Or.inl hp) _
  iintro %_ HI
  unfold inv
  rw [if_neg (show ¬ k0_t1_loop.trips < 75 from by rw [trips_eq]; exact Nat.lt_irrefl _)]
  unfold heldA
  icases HI with ⟨-, ⟨⟨%fr, Hra⟩, ⟨%fi, Hia⟩, Hta, Hs4⟩, Htb, Hidx, ⟨%fb, Hib⟩, ⟨%frb', Hrb⟩, Hs5, Hc1, Hc2, Hc3, Hc4, Hout, %W', %hW', HO⟩
  sl_exec
  sl_step
  isplitl [Hta]; · iexact Hta
  isplitl [Htb]; · iexact Htb
  isplitl [Hidx]; · iexact Hidx
  isplitl [Hout]
  · iapply (Entails.of_eq (bigSep_congr (s := Finset.univ) fun (j : Fin k0_t1_loop.trips) _ =>
      (show outJ m I d L k0_t1_loop.trips j = outDone m I d L j from if_pos j.isLt)).symm)
    iexact Hout
  isplitl [Hia]; · iexists _; iexact Hia
  isplitl [Hib]; · iexists _; iexact Hib
  isplitl [Hra]; · iexists _; iexact Hra
  isplitl [Hrb]; · iexists _; iexact Hrb
  isplitl [Hs4]; · iexact Hs4
  isplitl [Hs5]; · iexact Hs5
  isplitl [Hc0]; · iexact Hc0
  isplitl [Hc1]; · iexact Hc1
  isplitl [Hc2]; · iexact Hc2
  isplitl [Hc3]; · iexact Hc3
  isplitl [Hc4]; · iexact Hc4
  iexists _; isplitr
  · ipureintro; exact hW'
  · iexact HO

omit [FloatOps F] in
/-- The four scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f)
          ∗ bigSep (((((ownRefs (τ := τ) (Proc.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩)]

omit [FloatOps F] in
/-- The task's seven DMA semaphores are among the tile's own scoped cells: they are them and the rest. -/
theorem ownSems0_V :
    (ownSems0 (V d (cV L) (jV L)) : sProp 𝕄)
      = iprop(semVal (semOf d L cc0_scratch4) 0 ∗ semVal (semOf d L cc0_scratch5) 0 ∗ semVal (semOf d L cc0_scoped0) 0 ∗ semVal (semOf d L cc0_scoped1) 0 ∗ semVal (semOf d L cc0_scoped2) 0 ∗ semVal (semOf d L cc0_scoped3) 0 ∗ semVal (semOf d L cc0_scoped4) 0
          ∗ bigSep ((((((((ownCells (V d (cV L) (jV L))).erase (semOf d L cc0_scratch4)).erase (semOf d L cc0_scratch5)).erase (semOf d L cc0_scoped0)).erase (semOf d L cc0_scoped1)).erase (semOf d L cc0_scoped2)).erase (semOf d L cc0_scoped3)).erase (semOf d L cc0_scoped4)) fun g => semVal g 0) := by
  unfold SparseCore.Cfg.ownSems0
  rw [SparseCore.bigSep_erase' ((mem_ownCells (g := semOf d L cc0_scratch4)).mpr ⟨rfl, by show (SemLoc.dma cc0_scratch4.sem : SemLoc sig).isScoped .scVector = true; decide⟩),
    SparseCore.bigSep_erase' (Finset.mem_erase.mpr ⟨fun e => absurd (Prod.mk.inj e).2 (show (SemLoc.dma cc0_scratch5.sem : SemLoc sig) ≠ SemLoc.dma cc0_scratch4.sem by decide), (mem_ownCells (g := semOf d L cc0_scratch5)).mpr ⟨rfl, by show (SemLoc.dma cc0_scratch5.sem : SemLoc sig).isScoped .scVector = true; decide⟩⟩),
    SparseCore.bigSep_erase' (Finset.mem_erase.mpr ⟨fun e => absurd (Prod.mk.inj e).2 (show (SemLoc.dma cc0_scoped0.sem : SemLoc sig) ≠ SemLoc.dma cc0_scratch5.sem by decide), Finset.mem_erase.mpr ⟨fun e => absurd (Prod.mk.inj e).2 (show (SemLoc.dma cc0_scoped0.sem : SemLoc sig) ≠ SemLoc.dma cc0_scratch4.sem by decide), (mem_ownCells (g := semOf d L cc0_scoped0)).mpr ⟨rfl, by show (SemLoc.dma cc0_scoped0.sem : SemLoc sig).isScoped .scVector = true; decide⟩⟩⟩),
    SparseCore.bigSep_erase' (Finset.mem_erase.mpr ⟨fun e => absurd (Prod.mk.inj e).2 (show (SemLoc.dma cc0_scoped1.sem : SemLoc sig) ≠ SemLoc.dma cc0_scoped0.sem by decide), Finset.mem_erase.mpr ⟨fun e => absurd (Prod.mk.inj e).2 (show (SemLoc.dma cc0_scoped1.sem : SemLoc sig) ≠ SemLoc.dma cc0_scratch5.sem by decide), Finset.mem_erase.mpr ⟨fun e => absurd (Prod.mk.inj e).2 (show (SemLoc.dma cc0_scoped1.sem : SemLoc sig) ≠ SemLoc.dma cc0_scratch4.sem by decide), (mem_ownCells (g := semOf d L cc0_scoped1)).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (show (SemLoc.dma cc0_scoped2.sem : SemLoc sig) ≠ SemLoc.dma cc0_scoped1.sem by decide), Finset.mem_erase.mpr ⟨fun e => absurd (Prod.mk.inj e).2 (show (SemLoc.dma cc0_scoped2.sem : SemLoc sig) ≠ SemLoc.dma cc0_scoped0.sem by decide), Finset.mem_erase.mpr ⟨fun e => absurd (Prod.mk.inj e).2 (show (SemLoc.dma cc0_scoped2.sem : SemLoc sig) ≠ SemLoc.dma cc0_scratch5.sem by decide), Finset.mem_erase.mpr ⟨fun e => absurd (Prod.mk.inj e).2 (show (SemLoc.dma cc0_scoped2.sem : SemLoc sig) ≠ SemLoc.dma cc0_scratch4.sem by decide), (mem_ownCells (g := semOf d L cc0_scoped2)).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (show (SemLoc.dma cc0_scoped3.sem : SemLoc sig) ≠ SemLoc.dma cc0_scoped2.sem by decide), Finset.mem_erase.mpr ⟨fun e => absurd (Prod.mk.inj e).2 (show (SemLoc.dma cc0_scoped3.sem : SemLoc sig) ≠ SemLoc.dma cc0_scoped1.sem by decide), Finset.mem_erase.mpr ⟨fun e => absurd (Prod.mk.inj e).2 (show (SemLoc.dma cc0_scoped3.sem : SemLoc sig) ≠ SemLoc.dma cc0_scoped0.sem by decide), Finset.mem_erase.mpr ⟨fun e => absurd (Prod.mk.inj e).2 (show (SemLoc.dma cc0_scoped3.sem : SemLoc sig) ≠ SemLoc.dma cc0_scratch5.sem by decide), Finset.mem_erase.mpr ⟨fun e => absurd (Prod.mk.inj e).2 (show (SemLoc.dma cc0_scoped3.sem : SemLoc sig) ≠ SemLoc.dma cc0_scratch4.sem by decide), (mem_ownCells (g := semOf d L cc0_scoped3)).mpr ⟨rfl, by show (SemLoc.dma cc0_scoped3.sem : SemLoc sig).isScoped .scVector = true; decide⟩⟩⟩⟩⟩⟩),
    SparseCore.bigSep_erase' (Finset.mem_erase.mpr ⟨fun e => absurd (Prod.mk.inj e).2 (show (SemLoc.dma cc0_scoped4.sem : SemLoc sig) ≠ SemLoc.dma cc0_scoped3.sem by decide), Finset.mem_erase.mpr ⟨fun e => absurd (Prod.mk.inj e).2 (show (SemLoc.dma cc0_scoped4.sem : SemLoc sig) ≠ SemLoc.dma cc0_scoped2.sem by decide), Finset.mem_erase.mpr ⟨fun e => absurd (Prod.mk.inj e).2 (show (SemLoc.dma cc0_scoped4.sem : SemLoc sig) ≠ SemLoc.dma cc0_scoped1.sem by decide), Finset.mem_erase.mpr ⟨fun e => absurd (Prod.mk.inj e).2 (show (SemLoc.dma cc0_scoped4.sem : SemLoc sig) ≠ SemLoc.dma cc0_scoped0.sem by decide), Finset.mem_erase.mpr ⟨fun e => absurd (Prod.mk.inj e).2 (show (SemLoc.dma cc0_scoped4.sem : SemLoc sig) ≠ SemLoc.dma cc0_scratch5.sem by decide), Finset.mem_erase.mpr ⟨fun e => absurd (Prod.mk.inj e).2 (show (SemLoc.dma cc0_scoped4.sem : SemLoc sig) ≠ SemLoc.dma cc0_scratch4.sem by decide), (mem_ownCells (g := semOf d L cc0_scoped4)).mpr ⟨rfl, by show (SemLoc.dma cc0_scoped4.sem : SemLoc sig).isScoped .scVector = true; decide⟩⟩⟩⟩⟩⟩⟩)]

end Tile

/-! ## The launch theorem's obligation -/

section Obl

theorem defs₀_vector (c : Fin τ.nSC) (s : Fin τ.nSub) :
    defs₀ (F := F) (.scVector c s) 0 ()
      = SparseCore.onTile hcore0 hsub0 (fun c s => cc0_gather_k (coordsV c s)
          tblV (Memref.isWhole_whole _) idxV (Memref.isWhole_whole _) outV (Memref.isWhole_whole _)
          iaV (Memref.isWhole_whole _) ibV (Memref.isWhole_whole _) raV (Memref.isWhole_whole _) rbV (Memref.isWhole_whole _)
          cc0_scratch4 cc0_scratch5 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (d : Dev nD) (c : Fin (grid0.bound 0)) (i : Fin (grid0.bound 1))

/-- The task on tile `(c, i)` of device `d`, in the launch theorem's terms: its operands and scoped storage in, its
    results and scoped storage out. -/
theorem tile_body (hF : (K (F := F)).Facts) (hI : ∀ d r, ((I d) r).toNat < 100000)
    (O : CellTallies nD τ sig (HIx 1)) (W : Waits sig (HIx 1)) (hO : ∀ g, O g none = 0) :
    iprop(levAts (K (F := F)).L (K (F := F)).lev ∗ emp ∗ goRes m I d c i
        ∗ scopedBufs (V d (cV (coordsV c i)) (jV (coordsV c i))) ∗ scopedSems0 (V d (cV (coordsV c i)) (jV (coordsV c i)))
        ∗ owes (V d (cV (coordsV c i)) (jV (coordsV c i))) O W)
      ⊢ wp frame (wpE (defs₀ (F := F)) 𝒱₀ (V d (cV (coordsV c i)) (jV (coordsV c i))) none) Set.univ
          (cc0_gather_k (coordsV c i) tblV (Memref.isWhole_whole _) idxV (Memref.isWhole_whole _) outV (Memref.isWhole_whole _)
            iaV (Memref.isWhole_whole _) ibV (Memref.isWhole_whole _) raV (Memref.isWhole_whole _) rbV (Memref.isWhole_whole _)
            cc0_scratch4 cc0_scratch5 cc0_scoped0 cc0_scoped1 cc0_scoped2 cc0_scoped3 cc0_scoped4)
          fun _ => iprop(tdRes m I d c i ∗ scopedBufs (V d (cV (coordsV c i)) (jV (coordsV c i)))
            ∗ scopedSems0 (V d (cV (coordsV c i)) (jV (coordsV c i)))
            ∗ ∃ W', ⌜∀ p ∈ W', p ∈ W ∨ p.2 = none⌝ ∗ owes (V d (cV (coordsV c i)) (jV (coordsV c i))) O W') := by
  rw [(K (F := F)).scopedBufs_V hF d (cV (coordsV c i)) (jV (coordsV c i)),
    SparseCore.Cfg.scopedSems0_V (Val := Elt F) d (cV (coordsV c i)) (jV (coordsV c i)), ownSems0_V, ownBufs_V]
  unfold goRes tdRes tileShares
  iintro ⟨#Hlv, -, ⟨⟨Ht, Hi⟩, Hout⟩, ⟨⟨%f0, H0⟩, ⟨%f1, H1⟩, ⟨%f2, H2⟩, ⟨%f3, H3⟩, Hbufs⟩, ⟨S4, S5, C0, C1, C2, C3, C4, Hsems⟩, HO⟩
  ihave Hmw := ((K (F := F)).mayWaits_none (thr := V d (cV (coordsV c i)) (jV (coordsV c i))) hO) $$ Hlv
  ihave Ht2 := (pointsTo_share (PosShare.mem_left_op_right (shareTok fullShare 32 (tileNo c i)))).1 $$ Ht
  icases Ht2 with ⟨Hta, Htb⟩
  iapply (wp_wand _ _ _) $$ [Hmw Hta Htb Hi Hout H0 H1 H2 H3 S4 S5 C0 C1 C2 C3 C4 HO]
  · iapply (tile_core m I d (coordsV c i) _ _ _ O W f0 f1 f2 f3 (hI d))
    isplitl [Hmw]; · iexact Hmw
    isplitl [Hta]; · iexact Hta
    isplitl [Htb]; · iexact Htb
    isplitl [Hi]; · iexact Hi
    isplitl [Hout]; · iexact Hout
    isplitl [H0]; · iexact H0
    isplitl [H1]; · iexact H1
    isplitl [H2]; · iexact H2
    isplitl [H3]; · iexact H3
    isplitl [S4]; · iexact S4
    isplitl [S5]; · iexact S5
    isplitl [C0]; · iexact C0
    isplitl [C1]; · iexact C1
    isplitl [C2]; · iexact C2
    isplitl [C3]; · iexact C3
    isplitl [C4]; · iexact C4
    iexact HO
  iintro %_ ⟨Hta, Htb, Hi, Hout, ⟨%g0, H0⟩, ⟨%g1, H1⟩, ⟨%g2, H2⟩, ⟨%g3, H3⟩, S4, S5, C0, C1, C2, C3, C4, %W', %hW', HO⟩
  ihave Ht := (pointsTo_share (PosShare.mem_left_op_right (shareTok fullShare 32 (tileNo c i)))).2 $$ [Hta Htb]
  · isplitl [Hta]; · iexact Hta
    iexact Htb
  isplitl [Ht Hi Hout]
  · isplitl [Ht Hi]
    · isplitl [Ht]; · iexact Ht
      iexact Hi
    iexact Hout
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [S4 S5 C0 C1 C2 C3 C4 Hsems]
  · isplitl [S4]; · iexact S4
    isplitl [S5]; · iexact S5
    isplitl [C0]; · iexact C0
    isplitl [C1]; · iexact C1
    isplitl [C2]; · iexact C2
    isplitl [C3]; · iexact C3
    isplitl [C4]; · iexact C4
    iexact Hsems
  iexists W'; isplitr
  · ipureintro; exact hW'
  · iexact HO

theorem tileObl (hI : ∀ d r, ((I d) r).toNat < 100000) : (K (F := F)).TileObl (D (F := F)) 𝒱 (P m I) v₀ 0 := by
  intro d c i O W hO _ _
  -- this kernel owes nothing for a protocol of its own
  simp only [show (P m I).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m I d ⟨_, hc.1⟩ ⟨_, hc.2⟩ facts hI O W hO).trans (wp_mono frame _ _ fun _ => obl_post)

end Obl

end Cert.Proof.K
end
-- ==== Proof.K.ScSplit.lean ====
/-
  How the call's operands split among the tiles and how their results join: the table and the index list as read
  shares, the gathered array as the tiles' chunks.

  Tile (c, i), trip k, half b holds rows [38400 i + 19200 c + 256 k + 128 b, + 128) of the gathered array: the 4800 chunks
  are pairwise disjoint and cover its 614400 rows.
-/
import proofs.«214605_g64536178589837_cont_9to1_m_912_2_alg».proof.Proof.K.ScVal

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

open Idealize.ShloMosaic.Transfers (pointsTo_toks)

variable (m : (ℓ : Loc nD τ sig) → Buf (Elt F) ℓ) (I : (d : Dev nD) → Buf (Elt F) (idxLoc d))

/-! ## The chunks -/

theorem baseRow_coordsV (c : Fin (grid0.bound 0)) (i : Fin (grid0.bound 1)) : baseRow (coordsV c i) = 38400 * i.val + 19200 * c.val := rfl

/-- The gathered array's rows cut into 4800 chunks of 128. -/
theorem hdiv : 4800 ∣ S614400x128.size 0 := ⟨128, by decide⟩
theorem hthick : S614400x128.size 0 / 4800 = 128 := by decide

abbrev ChunkIx : Type := Fin (grid0.bound 0) × Fin (grid0.bound 1) × Fin k0_t1_loop.trips × Fin 2

/-- Chunk `(c, i, k, b)` — the even (`b = 0`) or odd chunk of trip `k` of tile `(c, i)` — is chunk number 300 i + 150 c + 2 k + b. -/
def chunkNo (t : ChunkIx) : Fin 4800 := ⟨300 * t.2.1.val + 150 * t.1.val + 2 * t.2.2.1.val + t.2.2.2.val, by
  have hc : t.1.val < 2 := t.1.isLt
  have hi : t.2.1.val < 16 := t.2.1.isLt
  have hk : t.2.2.1.val < 75 := Nat.lt_of_lt_of_le t.2.2.1.isLt k0_t1_abs.2.1
  have hb : t.2.2.2.val < 2 := t.2.2.2.isLt
  omega⟩

def chunkEquiv : ChunkIx ≃ Fin 4800 where
  toFun := chunkNo
  invFun n := (⟨n.val % 300 / 150, show _ < 2 by omega⟩, ⟨n.val / 300, show _ < 16 by omega⟩,
    ⟨n.val % 150 / 2, lt_of_lt_of_eq (show _ < 75 by omega) trips_eq.symm⟩, ⟨n.val % 2, by omega⟩)
  left_inv t := by
    obtain ⟨c, i, k, b⟩ := t
    have hc : c.val < 2 := c.isLt
    have hi : i.val < 16 := i.isLt
    have hk : k.val < 75 := Nat.lt_of_lt_of_le k.isLt k0_t1_abs.2.1
    have hb : b.val < 2 := b.isLt
    refine Prod.ext (Fin.ext ?_) (Prod.ext (Fin.ext ?_) (Prod.ext (Fin.ext ?_) (Fin.ext ?_)))
    · show (300 * i.val + 150 * c.val + 2 * k.val + b.val) % 300 / 150 = c.val; omega
    · show (300 * i.val + 150 * c.val + 2 * k.val + b.val) / 300 = i.val; omega
    · show (300 * i.val + 150 * c.val + 2 * k.val + b.val) % 150 / 2 = k.val; omega
    · show (300 * i.val + 150 * c.val + 2 * k.val + b.val) % 2 = b.val; omega
  right_inv n := by
    apply Fin.ext
    show 300 * (n.val / 300) + 150 * (n.val % 300 / 150) + 2 * (n.val % 150 / 2) + n.val % 2 = n.val
    omega

theorem setE_part (c : Fin (grid0.bound 0)) (i : Fin (grid0.bound 1)) (k : Fin k0_t1_loop.trips) :
    setE (coordsV c i) k = (Rect.part (s := S614400x128) (a₀ := 0) hdiv (chunkNo (c, i, k, 0))).set := by
  show ((View.whole main_v2_scv).slice (Rect.unit (s := S614400x128) (k0_off3 (coordsV c i) k) S128x128.size (k0_off3_inb (coordsV c i) k))).set = _
  rw [View.set_slice_whole]
  have e0 := off3_row (coordsV c i) k
  have e1 := off3_col (coordsV c i) k
  rw [baseRow_coordsV] at e0
  refine congrArg (fun r : Rect S614400x128 => r.set) ?_
  unfold Rect.part Rect.block
  congr 1 <;> funext a
  · match a with
    | 0 => rw [e0]; show _ = (300 * i.val + 150 * c.val + 2 * k.val + 0) * (S614400x128.size 0 / 4800); rw [hthick]; omega
    | 1 => rw [e1]; simp [Shape.partIx, Shape.partSize]
  · match a with
    | 0 => show 128 = S614400x128.size 0 / 4800; rw [hthick]
    | 1 => simp [Shape.partSize]

theorem setO_part (c : Fin (grid0.bound 0)) (i : Fin (grid0.bound 1)) (k : Fin k0_t1_loop.trips) :
    setO (coordsV c i) k = (Rect.part (s := S614400x128) (a₀ := 0) hdiv (chunkNo (c, i, k, 1))).set := by
  show ((View.whole main_v2_scv).slice (Rect.unit (s := S614400x128) (k0_off5 (coordsV c i) k) S128x128.size (k0_off5_inb (coordsV c i) k))).set = _
  rw [View.set_slice_whole]
  have e0 := off5_row (coordsV c i) k
  have e1 := off5_col (coordsV c i) k
  rw [baseRow_coordsV] at e0
  refine congrArg (fun r : Rect S614400x128 => r.set) ?_
  unfold Rect.part Rect.block
  congr 1 <;> funext a
  · match a with
    | 0 => rw [e0]; show _ = (300 * i.val + 150 * c.val + 2 * k.val + 1) * (S614400x128.size 0 / 4800); rw [hthick]; omega
    | 1 => rw [e1]; simp [Shape.partIx, Shape.partSize]
  · match a with
    | 0 => show 128 = S614400x128.size 0 / 4800; rw [hthick]
    | 1 => simp [Shape.partSize]

section Split

variable (d : Dev nD)

/-- The gathered array held whole is its 4800 chunks, tile by tile and trip by trip. -/
theorem out_chunks (f : Buf (Elt F) (outLoc d)) :
    (outLoc d ↦{fullShare} f : sProp 𝕄)
      = bigSep Finset.univ fun c : Fin (grid0.bound 0) => bigSep Finset.univ fun i : Fin (grid0.bound 1) =>
          bigSep Finset.univ fun k : Fin k0_t1_loop.trips =>
            iprop((outLoc d ↦[setE (coordsV c i) k]{fullShare} f) ∗ (outLoc d ↦[setO (coordsV c i) k]{fullShare} f)) := by
  have h0 : (outLoc d ↦{fullShare} f : sProp 𝕄)
      = bigSep Finset.univ fun n : Fin 4800 => outLoc d ↦[(Rect.part (s := S614400x128) (a₀ := 0) hdiv n).set]{fullShare} f := by
    rw [← pointsTo_biUnion Finset.univ (ℓ := outLoc d) (fun n : Fin 4800 => (Rect.part (s := S614400x128) (a₀ := 0) hdiv n).set)
      (fun j _ j' _ h => Rect.part_disjoint hdiv h), Rect.biUnion_part hdiv]; try rfl
  rw [h0, bigSep_univ_equiv chunkEquiv, bigSep_univ_prod]
  refine bigSep_congr fun c _ => ?_
  rw [bigSep_univ_prod]
  refine bigSep_congr fun i _ => ?_
  rw [bigSep_univ_prod]
  refine bigSep_congr fun k _ => ?_
  rw [bigSep_fin_two, setE_part, setO_part]
  rfl

/-- Tile numbers are the pairs (core, subcore). -/
def tileEquiv : Fin (grid0.bound 0) × Fin (grid0.bound 1) ≃ Fin 32 where
  toFun p := tileNo p.1 p.2
  invFun w := (⟨w.val % 2, by show _ < 2; omega⟩, ⟨w.val / 2, by show _ < 16; omega⟩)
  left_inv p := by
    obtain ⟨c, i⟩ := p
    have hc : c.val < 2 := c.isLt
    refine Prod.ext (Fin.ext ?_) (Fin.ext ?_)
    · show (i.val * 2 + c.val) % 2 = c.val; omega
    · show (i.val * 2 + c.val) / 2 = i.val; omega
  right_inv w := by
    apply Fin.ext
    show w.val / 2 * 2 + w.val % 2 = w.val; omega

/-- An array held whole is a remainder and one read share per tile. -/
theorem shares_split (ℓ : Loc nD τ sig) (f : Buf (Elt F) ℓ) :
    (ℓ ↦{fullShare} f : sProp 𝕄) ⊣⊢ iprop((ℓ ↦{shareDrop fullShare 32} f)
      ∗ bigSep Finset.univ fun c : Fin (grid0.bound 0) => bigSep Finset.univ fun i : Fin (grid0.bound 1) => ℓ ↦{shareTok fullShare 32 (tileNo c i)} f) := by
  have e : (bigSep Finset.univ fun w : Fin 32 => (ℓ ↦{shareTok fullShare 32 w} f : sProp 𝕄))
      = bigSep Finset.univ fun c : Fin (grid0.bound 0) => bigSep Finset.univ fun i : Fin (grid0.bound 1) => ℓ ↦{shareTok fullShare 32 (tileNo c i)} f := by
    rw [bigSep_univ_equiv tileEquiv, bigSep_univ_prod]; rfl
  rw [← e]
  exact pointsTo_toks fullShare 32

/-! ## The call's split -/

/-- A tile's resources, its chunks at contents `f`. -/
def goAt (f : Buf (Elt F) (outLoc d)) (c : Fin (grid0.bound 0)) (i : Fin (grid0.bound 1)) : sProp 𝕄 :=
  iprop(tileShares m I d c i
    ∗ bigSep Finset.univ fun k : Fin k0_t1_loop.trips =>
        iprop((outLoc d ↦[setE (coordsV c i) k]{fullShare} f) ∗ (outLoc d ↦[setO (coordsV c i) k]{fullShare} f)))

theorem chunk_ex (f : Buf (Elt F) (outLoc d)) (c : Fin (grid0.bound 0)) (i : Fin (grid0.bound 1)) (k : Fin k0_t1_loop.trips) :
    (iprop((outLoc d ↦[setE (coordsV c i) k]{fullShare} f) ∗ (outLoc d ↦[setO (coordsV c i) k]{fullShare} f)) : sProp 𝕄)
      ⊢ iprop((∃ f, outLoc d ↦[setE (coordsV c i) k]{fullShare} f) ∗ (∃ f, outLoc d ↦[setO (coordsV c i) k]{fullShare} f)) := by
  iintro ⟨HE, HO⟩
  isplitl [HE]; · iexists _; iexact HE
  iexists _; iexact HO

theorem goAt_go (f : Buf (Elt F) (outLoc d)) (c : Fin (grid0.bound 0)) (i : Fin (grid0.bound 1)) : goAt m I d f c i ⊢ goRes m I d c i := by
  unfold goAt goRes
  iintro ⟨Hs, Hc⟩
  isplitl [Hs]; · iexact Hs
  iapply (SparseCore.ent (bigSep_mono (s := Finset.univ) fun k _ => chunk_ex d f c i k))
  iexact Hc

/-- Every tile's resources are the tiles' shares of the two arrays read and the array written, whole. -/
theorem all_tiles (f : Buf (Elt F) (outLoc d)) :
    (bigSep Finset.univ fun c : Fin (grid0.bound 0) => bigSep Finset.univ fun i : Fin (grid0.bound 1) => goAt m I d f c i)
      = iprop(((bigSep Finset.univ fun c : Fin (grid0.bound 0) => bigSep Finset.univ fun i : Fin (grid0.bound 1) =>
            tblLoc d ↦{shareTok fullShare 32 (tileNo c i)} m (tblLoc d))
          ∗ (bigSep Finset.univ fun c : Fin (grid0.bound 0) => bigSep Finset.univ fun i : Fin (grid0.bound 1) =>
            idxLoc d ↦{shareTok fullShare 32 (tileNo c i)} I d))
          ∗ (outLoc d ↦{fullShare} f)) := by
  rw [out_chunks d f]
  unfold goAt tileShares
  simp only [bigSep_sep']

theorem vecSplit : (K (F := F)).VecSplit' (P m I) 0 := by
  intro d c
  show stRes m I d c ⊢ |={Set.univ}=> iprop((bigSep Finset.univ fun i : Fin (grid0.bound 1) => goRes m I d c i)
    ∗ ((bigSep Finset.univ fun i : Fin (grid0.bound 1) => tdRes m I d c i) -∗ dnRes m I d c))
  unfold stRes dnRes
  iintro H; imodintro
  isplitl [H]; · iexact H
  iintro H; iexact H

theorem call_split :
    iprop((tblLoc d ↦{fullShare} m (tblLoc d)) ∗ (idxLoc d ↦{fullShare} I d) ∗ (∃ f, outLoc d ↦{fullShare} f))
      ⊢ |={Set.univ}=> iprop((bigSep Finset.univ fun c : Fin ((K (F := F)).nCore 0) => (P m I).st 0 d c)
          ∗ ((bigSep Finset.univ fun c : Fin ((K (F := F)).nCore 0) => (P m I).dn 0 d c)
              -∗ iprop((tblLoc d ↦{fullShare} m (tblLoc d)) ∗ (idxLoc d ↦{fullShare} I d) ∗ outLoc d ↦{fullShare} gathered (m (tblLoc d)) (I d)))) := by
  have hst : (bigSep Finset.univ fun c : Fin ((K (F := F)).nCore 0) => (P m I).st 0 d c)
      = bigSep Finset.univ fun c : Fin (grid0.bound 0) => stRes m I d c := rfl
  have hdn : (bigSep Finset.univ fun c : Fin ((K (F := F)).nCore 0) => (P m I).dn 0 d c)
      = bigSep Finset.univ fun c : Fin (grid0.bound 0) => dnRes m I d c := rfl
  have htd : ∀ (c : Fin (grid0.bound 0)) (i : Fin (grid0.bound 1)), tdRes m I d c i = goAt m I d (res m I d) c i := fun _ _ => rfl
  rw [hst, hdn]
  unfold stRes dnRes
  simp only [htd]
  show _ ⊢ |={Set.univ}=> iprop(_ ∗ (_ -∗ iprop((tblLoc d ↦{fullShare} m (tblLoc d)) ∗ (idxLoc d ↦{fullShare} I d) ∗ outLoc d ↦{fullShare} res m I d)))
  iintro ⟨Ht, Hi, %f, Ho⟩
  ihave Ht' := (shares_split (F := F) (tblLoc d) (m (tblLoc d))).1 $$ Ht
  ihave Hi' := (shares_split (F := F) (idxLoc d) (I d)).1 $$ Hi
  icases Ht' with ⟨Htd, Htt⟩
  icases Hi' with ⟨Hid, Hit⟩
  imodintro
  isplitl [Htt Hit Ho]
  · iapply (SparseCore.ent (bigSep_mono (s := Finset.univ) fun c _ => bigSep_mono (s := Finset.univ) fun i _ => goAt_go m I d f c i))
    iapply (Entails.of_eq (all_tiles m I d f).symm)
    isplitl [Htt Hit]
    · isplitl [Htt]; · iexact Htt
      iexact Hit
    iexact Ho
  · iintro Hdn
    ihave Hall := (Entails.of_eq (all_tiles m I d (res m I d))) $$ Hdn
    icases Hall with ⟨⟨Htt, Hit⟩, Ho⟩
    isplitl [Htd Htt]
    · iapply (shares_split (F := F) (tblLoc d) (m (tblLoc d))).2
      isplitl [Htd]; · iexact Htd
      iexact Htt
    isplitl [Hid Hit]
    · iapply (shares_split (F := F) (idxLoc d) (I d)).2
      isplitl [Hid]; · iexact Hid
      iexact Hit
    iexact Ho

end Split

end Cert.Proof.K
end
-- ==== Proof.K.ScSide.lean ====
/-
  The SparseCore side of the word-level kernel, gathered: the payloads, the tile's task, the splits.
-/
import proofs.«214605_g64536178589837_cont_9to1_m_912_2_alg».proof.Proof.K.ScPay
import proofs.«214605_g64536178589837_cont_9to1_m_912_2_alg».proof.Proof.K.ScTile
import proofs.«214605_g64536178589837_cont_9to1_m_912_2_alg».proof.Proof.K.ScSplit
-- ==== Proof.K.TcBody1.lean ====
import proofs.«214605_g64536178589837_cont_9to1_m_912_2_alg».proof.Proof.Gen.Kernel.Launch
import proofs.«214605_g64536178589837_cont_9to1_m_912_2_alg».proof.Proof.Gen.Kernel.Skeleton
import proofs.«214605_g64536178589837_cont_9to1_m_912_2_alg».proof.Proof.Gen.Kernel.Points
import Idealize.ShloMosaic.Lib.Pipeline.FrameBody
import Idealize.ShloMosaic.Lib.Ring
import Idealize.ShloMosaic.Lib.Tactic

/-! # The Hoare triple of the dense body number 1

The body reads five whole staging buffers (activations, two weight matrices, two bias rows), computes
one value from them, and overwrites the whole sixth buffer with it. Hence: owning the five inputs at
their contents and the sixth at anything, the body runs to a state where the inputs are unchanged and
the sixth buffer holds that value, read through the rectangles of the loads. -/

-- membership in a rectangle with a thousand rows: the structural check recurses once per coordinate
set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (Idealize.ShloMosaic.SparseCore.Cfg.HIx 1) (Elt F) ℕ U ℕ

/-! ## The rectangles the body reads and writes: each is its whole buffer -/

abbrev r1 : Rect S1000x128 := Rect.unit (s := S1000x128) ![0, 0] S1000x128.size inb_S1000x128_S1000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-! ## What the body leaves in the output buffer -/

/-- The output buffer after the body, as a function of the five input buffers: the one store, whose
    payload is computed from the five loads. -/
def out1 (x0 : Vec F S1000x128 .f32) (x1 : Vec F S128x128 .f32) (x2 : Vec F S1x128 .f32) (x3 : Vec F S128x128 .f32) (x4 : Vec F S1x128 .f32) :
    Vec F S1000x128 .f32 :=
  View.canon [⟨r1, k1_pay1 (View.ld x0 r1) (View.ld x1 rW1) (View.ld x2 rB1) (View.ld x3 rW1) (View.ld x4 rB1)⟩]

/-- The one store's rectangle is the whole buffer, so every index lies in it. -/
theorem cover1 (p0 : Vec F S1000x128 .f32) (y : S1000x128.Idx) :
    ∃ pc ∈ ([⟨r1, p0⟩] : List (View.Piece (Elt F) S1000x128 .f32)), y ∈ pc.1.set :=
  View.cover_of_tiled [⟨r1, p0⟩] S1000x128.size (by rfl) y

/-! ## The body's triple -/

set_option maxHeartbeats 1000000 in
/-- Owning the five inputs at `x0 … x4` and the output buffer at anything, the body runs to the
    continuation with the inputs as they were and the output buffer at `out1 x0 x1 x2 x3 x4`. -/
theorem sound_kernel1 (c : Dev nD) (E : Set ℕ) (i : grid1.Coords)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1000x128 .f32) (harg6 : arg6.IsWhole)
    (x0 : Vec F S1000x128 .f32) (x1 : Vec F S128x128 .f32) (x2 : Vec F S1x128 .f32) (x3 : Vec F S128x128 .f32) (x4 : Vec F S1x128 .f32)
    (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1 x0 x1 x2 x3 x4)) -∗ Kc ⟨⟩))
      ⊢ wp frame (wpE (defs₀ (F := F)) Variants.none c none) E
          (cc1__mlp_body i arg1 harg1 arg2 harg2 arg3 harg3 arg4 harg4 arg5 harg5 arg6 harg6) Kc := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store, run against the six held buffers
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- reading the written buffer is the canon of the one covering store
  exact View.read_writes_eq_canon _ _ _ (cover1 _)

end Cert.Kernel.TcBody

end
-- ==== Proof.K.RegData1.lean ====
import proofs.«214605_g64536178589837_cont_9to1_m_912_2_alg».proof.Proof.K.Setup
import proofs.«214605_g64536178589837_cont_9to1_m_912_2_alg».proof.Proof.K.TcBody1
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-! # Row-blocked pipeline number 1: what its staging buffers hold, point by point

At every point of its grid the pipeline fetches one 1000-row block of the gathered array (window 0),
keeps the two weight matrices and the two bias rows it fetched at the first point (windows 1 to 4),
runs the dense body, and writes the 1000-row result block back (window 5). This file names those
contents and proves that the body, run on them, leaves what is named. Window 0's array does not divide
into whole blocks, so its block is described at the block's full shape by filling; at the points the
grid visits the block is never cut, so the filler is never read. -/

set_option maxRecDepth 16384

noncomputable section

namespace Cert.Proof.K

open Cert.Kernel Cert.Kernel.Gen Cert.Kernel.TcBody
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (W1 : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (W1 c (Pipeline.arrRef spec1 w))

/-- At every point of the grid, window 0's block lies inside its array on both axes. -/
theorem clip1_0 : ∀ (t : Fin cfg1.N) (a : Fin win1_0.shape.rank), (cfg1.win 0).clip (cfg1.grid.coords t) a = none :=
  (by decide +kernel : ∀ (t : Fin grid1.N) (a : Fin win1_0.shape.rank), win1_0.clip (grid1.coords t) a = none)

/-- Window 0's block at point `t` at the block's full shape: the part inside the array, filled out with
    the zero word (nowhere, at a point of the grid: `xblk1_eq`). -/
def xblk1 (c : Dev nD) (t : Fin cfg1.N) : Vec F S1000x128 .f32 :=
  win1_0.fill (grid1.coords t) (fun _ => Scalar.ofBits .f32 0#32) (iblk1 W1 c 0 t)

/-- Its part inside the array is the block read off the array. -/
theorem xblk1_cut (c : Dev nD) (t : Fin cfg1.N) : win1_0.cut (grid1.coords t) (xblk1 W1 c t) = iblk1 W1 c 0 t :=
  win1_0.cut_fill _ _ _

/-- The filler is never read: the block is not cut at a point of the grid. -/
theorem xblk1_eq (c : Dev nD) (t : Fin cfg1.N) (d : S1000x128.Idx → Elt F .f32) :
    xblk1 W1 c t = win1_0.fill (grid1.coords t) d (iblk1 W1 c 0 t) :=
  Pipeline.fill_of_clip_none (cfg := cfg1) 0 (grid1.coords t) (clip1_0 t) _ d _

/-! ## The pipeline's proof data -/

/-- The proof data on core `c`: the arrays as the region finds them; after the body at point `t` each
    input's buffer at its block and the output's at `out1` of the input blocks; the invariant the
    core's other scoped buffers, untouched; nothing owed; full shares. -/
def dat1 (c : Dev nD) : Pipeline.Dat τ (Elt F) (HIx 1) ℕ UU ℕ cfg1 c where
  A w := W1 c (Pipeline.arrRef spec1 w)
  after w t := match w with
    | ⟨0, _⟩ => xblk1 W1 c t
    | ⟨1, _⟩ => iblk1 W1 c 1 t
    | ⟨2, _⟩ => iblk1 W1 c 2 t
    | ⟨3, _⟩ => iblk1 W1 c 3 t
    | ⟨4, _⟩ => iblk1 W1 c 4 t
    | ⟨5, _⟩ => out1 (xblk1 W1 c t) (iblk1 W1 c 1 t) (iblk1 W1 c 2 t) (iblk1 W1 c 3 t) (iblk1 W1 c 4 t)
  Φ _ := Pipeline.scopedRest (Ix := HIx 1) (Name := ℕ) (U := UU) (Lvl := ℕ) (Val := Elt F) spec1 c
  q _ := fullShare
  owed _ := 0

theorem A_eq1 (c : Dev nD) (w : Fin cfg1.W) : (dat1 W1 c).A w = W1 c (Pipeline.arrRef spec1 w) := by
  dsimp only [dat1]

theorem after1_0 (c : Dev nD) (t : Fin cfg1.N) : (dat1 W1 c).after 0 t = xblk1 W1 c t := by dsimp only [dat1]
theorem after1_1 (c : Dev nD) (t : Fin cfg1.N) : (dat1 W1 c).after 1 t = iblk1 W1 c 1 t := by dsimp only [dat1]
theorem after1_2 (c : Dev nD) (t : Fin cfg1.N) : (dat1 W1 c).after 2 t = iblk1 W1 c 2 t := by dsimp only [dat1]
theorem after1_3 (c : Dev nD) (t : Fin cfg1.N) : (dat1 W1 c).after 3 t = iblk1 W1 c 3 t := by dsimp only [dat1]
theorem after1_4 (c : Dev nD) (t : Fin cfg1.N) : (dat1 W1 c).after 4 t = iblk1 W1 c 4 t := by dsimp only [dat1]
theorem after1_5 (c : Dev nD) (t : Fin cfg1.N) : (dat1 W1 c).after 5 t
    = out1 (xblk1 W1 c t) (iblk1 W1 c 1 t) (iblk1 W1 c 2 t) (iblk1 W1 c 3 t) (iblk1 W1 c 4 t) := by dsimp only [dat1]

theorem owed1 (c : Dev nD) (t : Fin (cfg1.N + 1)) : (dat1 W1 c).owed t = 0 := rfl

theorem share1 (c : Dev nD) (w : Fin cfg1.W) : (dat1 W1 c).share w = fullShare :=
  (dat1 W1 c).share_full (fun _ => rfl) w

/-! ## What the body finds in each buffer -/

/-- Window 0 is fetched at every point: its buffer holds the block on the part the fetch fills, and what
    it held (`d`) elsewhere. -/
theorem before1_0 (c : Dev nD) (t : Fin cfg1.N) (d) :
    (dat1 W1 c).before 0 t d = win1_0.fill (grid1.coords t) d (iblk1 W1 c 0 t) := by
  unfold Dat.before; rw [if_pos (fetch1_0 t)]
  unfold Dat.fetched Dat.blockOf iblk1; rw [A_eq1]; try rfl

/-- Input window 1 is a whole array fetched once: its staging buffer holds that block at every point. -/
theorem before1_1 (c : Dev nD) (t : Fin cfg1.N) (d) : (dat1 W1 c).before 1 t d = iblk1 W1 c 1 t :=
  ((dat1 W1 c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2 is a whole array fetched once: its staging buffer holds that block at every point. -/
theorem before1_2 (c : Dev nD) (t : Fin cfg1.N) (d) : (dat1 W1 c).before 2 t d = iblk1 W1 c 2 t :=
  ((dat1 W1 c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3 is a whole array fetched once: its staging buffer holds that block at every point. -/
theorem before1_3 (c : Dev nD) (t : Fin cfg1.N) (d) : (dat1 W1 c).before 3 t d = iblk1 W1 c 3 t :=
  ((dat1 W1 c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4 is a whole array fetched once: its staging buffer holds that block at every point. -/
theorem before1_4 (c : Dev nD) (t : Fin cfg1.N) (d) : (dat1 W1 c).before 4 t d = iblk1 W1 c 4 t :=
  ((dat1 W1 c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 W1 c).Φ t.castSucc ∗ (dat1 W1 c).owesAt (none : HIx 1) t.castSucc
    ∗ (∃ d, owns (c : Thread nD τ) (st1_0 t) fullShare ((dat1 W1 c).before 0 t d))
    ∗ (∃ d, owns (c : Thread nD τ) (st1_1 t) fullShare ((dat1 W1 c).before 1 t d))
    ∗ (∃ d, owns (c : Thread nD τ) (st1_2 t) fullShare ((dat1 W1 c).before 2 t d))
    ∗ (∃ d, owns (c : Thread nD τ) (st1_3 t) fullShare ((dat1 W1 c).before 3 t d))
    ∗ (∃ d, owns (c : Thread nD τ) (st1_4 t) fullShare ((dat1 W1 c).before 4 t d))
    ∗ (∃ d, owns (c : Thread nD τ) (st1_5 t) fullShare ((dat1 W1 c).before 5 t d)))

/-- and what it returns: window 0's buffer stated on the part its transfers move, the others' outright. -/
def bodyPost1 (c : Dev nD) (t : Fin cfg1.N) : sProp 𝕄 :=
  iprop((dat1 W1 c).Φ t.succ ∗ (dat1 W1 c).owesAt (none : HIx 1) t.succ
    ∗ (∃ d, owns (c : Thread nD τ) (st1_0 t) fullShare
        ((cfg1.win 0).fill (cfg1.grid.coords t) d ((cfg1.win 0).cut (cfg1.grid.coords t) ((dat1 W1 c).after 0 t))))
    ∗ owns (c : Thread nD τ) (st1_1 t) fullShare ((dat1 W1 c).after 1 t)
    ∗ owns (c : Thread nD τ) (st1_2 t) fullShare ((dat1 W1 c).after 2 t)
    ∗ owns (c : Thread nD τ) (st1_3 t) fullShare ((dat1 W1 c).after 3 t)
    ∗ owns (c : Thread nD τ) (st1_4 t) fullShare ((dat1 W1 c).after 4 t)
    ∗ owns (c : Thread nD τ) (st1_5 t) fullShare ((dat1 W1 c).after 5 t))

/-- The body at any point: the inputs' buffers hold their blocks, so the body's triple applies; the
    invariant and what the core owes pass through unread. Window 0's buffer comes back as it was handed
    over; the result is computed from it, and equals the named one because the filler is never read. -/
theorem sound_body1 (c : Dev nD) (t : Fin cfg1.N) :
    bodyPre1 W1 c t ⊢ wp frame (wpE (defs₀ (F := F)) Variants.none c none) Set.univ (bodyAt1 t) (fun _ => bodyPost1 W1 c t) := by
  unfold bodyPre1 bodyPost1 bodyAt1
  simp only [before1_1, before1_2, before1_3, before1_4]
  rw [show (dat1 W1 c).Φ t.succ = (dat1 W1 c).Φ t.castSucc from rfl,
    show (dat1 W1 c).owesAt (none : HIx 1) t.succ = (dat1 W1 c).owesAt (none : HIx 1) t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  rw [before1_0 W1 c t d0]
  iapply (sound_kernel1 (U := UU) c Set.univ (grid1.coords t) _ _ _ _ _ _ _ _ _ _ _ _
    (win1_0.fill (grid1.coords t) d0 (iblk1 W1 c 0 t)) (iblk1 W1 c 1 t) (iblk1 W1 c 2 t) (iblk1 W1 c 3 t) (iblk1 W1 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st1_0 t) fullShare (win1_0.fill (grid1.coords t) d0 (win1_0.cut (grid1.coords t) (xblk1 W1 c t)))
    rw [xblk1_cut]; try iexact H0
  isplitl [H1]; · iexact H1
  isplitl [H2]; · iexact H2
  isplitl [H3]; · iexact H3
  isplitl [H4]; · iexact H4
  rw [xblk1_eq W1 c t d0]; try iexact H5

/-- The library's body obligation, at every point. -/
theorem body_obligation1 (c : Dev nD) :
    BodyObligationLoose (dat1 W1 c) (defs₀ (F := F)) Variants.none (none : HIx 1) Set.univ := fun t => by
  rw [bigSep_W1, bigSep_W1]
  exact sound_body1 W1 c t

end Cert.Proof.K

end
-- ==== Proof.K.TcBody2.lean ====
import proofs.«214605_g64536178589837_cont_9to1_m_912_2_alg».proof.Proof.Gen.Kernel.Launch
import proofs.«214605_g64536178589837_cont_9to1_m_912_2_alg».proof.Proof.Gen.Kernel.Skeleton
import proofs.«214605_g64536178589837_cont_9to1_m_912_2_alg».proof.Proof.Gen.Kernel.Points
import Idealize.ShloMosaic.Lib.Pipeline.FrameBody
import Idealize.ShloMosaic.Lib.Ring
import Idealize.ShloMosaic.Lib.Tactic

/-! # The Hoare triple of the dense body number 2

The body reads five whole staging buffers (activations, two weight matrices, two bias rows), computes
one value from them, and overwrites the whole sixth buffer with it. Hence: owning the five inputs at
their contents and the sixth at anything, the body runs to a state where the inputs are unchanged and
the sixth buffer holds that value, read through the rectangles of the loads. -/

-- membership in a rectangle with a thousand rows: the structural check recurses once per coordinate
set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (Idealize.ShloMosaic.SparseCore.Cfg.HIx 1) (Elt F) ℕ U ℕ

/-! ## The rectangles the body reads and writes: each is its whole buffer -/

abbrev r2 : Rect S1000x256 := Rect.unit (s := S1000x256) ![0, 0] S1000x256.size inb_S1000x256_S1000x256_0_0
abbrev rW2 : Rect S256x256 := Rect.unit (s := S256x256) ![0, 0] S256x256.size inb_S256x256_S256x256_0_0
abbrev rB2 : Rect S1x256 := Rect.unit (s := S1x256) ![0, 0] S1x256.size inb_S1x256_S1x256_0_0

/-! ## What the body leaves in the output buffer -/

/-- The output buffer after the body, as a function of the five input buffers: the one store, whose
    payload is computed from the five loads. -/
def out2 (x0 : Vec F S1000x256 .f32) (x1 : Vec F S256x256 .f32) (x2 : Vec F S1x256 .f32) (x3 : Vec F S256x256 .f32) (x4 : Vec F S1x256 .f32) :
    Vec F S1000x256 .f32 :=
  View.canon [⟨r2, k2_pay1 (View.ld x0 r2) (View.ld x1 rW2) (View.ld x2 rB2) (View.ld x3 rW2) (View.ld x4 rB2)⟩]

/-- The one store's rectangle is the whole buffer, so every index lies in it. -/
theorem cover2 (p0 : Vec F S1000x256 .f32) (y : S1000x256.Idx) :
    ∃ pc ∈ ([⟨r2, p0⟩] : List (View.Piece (Elt F) S1000x256 .f32)), y ∈ pc.1.set :=
  View.cover_of_tiled [⟨r2, p0⟩] S1000x256.size (by rfl) y

/-! ## The body's triple -/

set_option maxHeartbeats 1000000 in
/-- Owning the five inputs at `x0 … x4` and the output buffer at anything, the body runs to the
    continuation with the inputs as they were and the output buffer at `out2 x0 x1 x2 x3 x4`. -/
theorem sound_kernel2 (c : Dev nD) (E : Set ℕ) (i : grid2.Coords)
    (arg1 : Memref sig .tc .vmem S1000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S1000x256 .f32) (harg6 : arg6.IsWhole)
    (x0 : Vec F S1000x256 .f32) (x1 : Vec F S256x256 .f32) (x2 : Vec F S1x256 .f32) (x3 : Vec F S256x256 .f32) (x4 : Vec F S1x256 .f32)
    (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2 x0 x1 x2 x3 x4)) -∗ Kc ⟨⟩))
      ⊢ wp frame (wpE (defs₀ (F := F)) Variants.none c none) E
          (cc2__mlp_body i arg1 harg1 arg2 harg2 arg3 harg3 arg4 harg4 arg5 harg5 arg6 harg6) Kc := by
  simp only [cc2__mlp_body_eq_skeleton]; unfold cc2__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store, run against the six held buffers
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- reading the written buffer is the canon of the one covering store
  exact View.read_writes_eq_canon _ _ _ (cover2 _)

end Cert.Kernel.TcBody

end
-- ==== Proof.K.RegData2.lean ====
import proofs.«214605_g64536178589837_cont_9to1_m_912_2_alg».proof.Proof.K.Setup
import proofs.«214605_g64536178589837_cont_9to1_m_912_2_alg».proof.Proof.K.TcBody2
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-! # Row-blocked pipeline number 2: what its staging buffers hold, point by point

At every point of its grid the pipeline fetches one 1000-row block of the gathered array (window 0),
keeps the two weight matrices and the two bias rows it fetched at the first point (windows 1 to 4),
runs the dense body, and writes the 1000-row result block back (window 5). This file names those
contents and proves that the body, run on them, leaves what is named. Window 0's array does not divide
into whole blocks, so its block is described at the block's full shape by filling; at the points the
grid visits the block is never cut, so the filler is never read. -/

set_option maxRecDepth 16384

noncomputable section

namespace Cert.Proof.K

open Cert.Kernel Cert.Kernel.Gen Cert.Kernel.TcBody
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (W2 : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) :
    ((cfg2.win w).xblock (cfg2.grid.coords t)).Idx → Elt F (cfg2.win w).elt :=
  ((cfg2.win w).blk t).view.read (Elt F) (W2 c (Pipeline.arrRef spec2 w))

/-- At every point of the grid, window 0's block lies inside its array on both axes. -/
theorem clip2_0 : ∀ (t : Fin cfg2.N) (a : Fin win2_0.shape.rank), (cfg2.win 0).clip (cfg2.grid.coords t) a = none :=
  (by decide +kernel : ∀ (t : Fin grid2.N) (a : Fin win2_0.shape.rank), win2_0.clip (grid2.coords t) a = none)

/-- Window 0's block at point `t` at the block's full shape: the part inside the array, filled out with
    the zero word (nowhere, at a point of the grid: `xblk2_eq`). -/
def xblk2 (c : Dev nD) (t : Fin cfg2.N) : Vec F S1000x256 .f32 :=
  win2_0.fill (grid2.coords t) (fun _ => Scalar.ofBits .f32 0#32) (iblk2 W2 c 0 t)

/-- Its part inside the array is the block read off the array. -/
theorem xblk2_cut (c : Dev nD) (t : Fin cfg2.N) : win2_0.cut (grid2.coords t) (xblk2 W2 c t) = iblk2 W2 c 0 t :=
  win2_0.cut_fill _ _ _

/-- The filler is never read: the block is not cut at a point of the grid. -/
theorem xblk2_eq (c : Dev nD) (t : Fin cfg2.N) (d : S1000x256.Idx → Elt F .f32) :
    xblk2 W2 c t = win2_0.fill (grid2.coords t) d (iblk2 W2 c 0 t) :=
  Pipeline.fill_of_clip_none (cfg := cfg2) 0 (grid2.coords t) (clip2_0 t) _ d _

/-! ## The pipeline's proof data -/

/-- The proof data on core `c`: the arrays as the region finds them; after the body at point `t` each
    input's buffer at its block and the output's at `out2` of the input blocks; the invariant the
    core's other scoped buffers, untouched; nothing owed; full shares. -/
def dat2 (c : Dev nD) : Pipeline.Dat τ (Elt F) (HIx 1) ℕ UU ℕ cfg2 c where
  A w := W2 c (Pipeline.arrRef spec2 w)
  after w t := match w with
    | ⟨0, _⟩ => xblk2 W2 c t
    | ⟨1, _⟩ => iblk2 W2 c 1 t
    | ⟨2, _⟩ => iblk2 W2 c 2 t
    | ⟨3, _⟩ => iblk2 W2 c 3 t
    | ⟨4, _⟩ => iblk2 W2 c 4 t
    | ⟨5, _⟩ => out2 (xblk2 W2 c t) (iblk2 W2 c 1 t) (iblk2 W2 c 2 t) (iblk2 W2 c 3 t) (iblk2 W2 c 4 t)
  Φ _ := Pipeline.scopedRest (Ix := HIx 1) (Name := ℕ) (U := UU) (Lvl := ℕ) (Val := Elt F) spec2 c
  q _ := fullShare
  owed _ := 0

theorem A_eq2 (c : Dev nD) (w : Fin cfg2.W) : (dat2 W2 c).A w = W2 c (Pipeline.arrRef spec2 w) := by
  dsimp only [dat2]

theorem after2_0 (c : Dev nD) (t : Fin cfg2.N) : (dat2 W2 c).after 0 t = xblk2 W2 c t := by dsimp only [dat2]
theorem after2_1 (c : Dev nD) (t : Fin cfg2.N) : (dat2 W2 c).after 1 t = iblk2 W2 c 1 t := by dsimp only [dat2]
theorem after2_2 (c : Dev nD) (t : Fin cfg2.N) : (dat2 W2 c).after 2 t = iblk2 W2 c 2 t := by dsimp only [dat2]
theorem after2_3 (c : Dev nD) (t : Fin cfg2.N) : (dat2 W2 c).after 3 t = iblk2 W2 c 3 t := by dsimp only [dat2]
theorem after2_4 (c : Dev nD) (t : Fin cfg2.N) : (dat2 W2 c).after 4 t = iblk2 W2 c 4 t := by dsimp only [dat2]
theorem after2_5 (c : Dev nD) (t : Fin cfg2.N) : (dat2 W2 c).after 5 t
    = out2 (xblk2 W2 c t) (iblk2 W2 c 1 t) (iblk2 W2 c 2 t) (iblk2 W2 c 3 t) (iblk2 W2 c 4 t) := by dsimp only [dat2]

theorem owed2 (c : Dev nD) (t : Fin (cfg2.N + 1)) : (dat2 W2 c).owed t = 0 := rfl

theorem share2 (c : Dev nD) (w : Fin cfg2.W) : (dat2 W2 c).share w = fullShare :=
  (dat2 W2 c).share_full (fun _ => rfl) w

/-! ## What the body finds in each buffer -/

/-- Window 0 is fetched at every point: its buffer holds the block on the part the fetch fills, and what
    it held (`d`) elsewhere. -/
theorem before2_0 (c : Dev nD) (t : Fin cfg2.N) (d) :
    (dat2 W2 c).before 0 t d = win2_0.fill (grid2.coords t) d (iblk2 W2 c 0 t) := by
  unfold Dat.before; rw [if_pos (fetch2_0 t)]
  unfold Dat.fetched Dat.blockOf iblk2; rw [A_eq2]; try rfl

/-- Input window 1 is a whole array fetched once: its staging buffer holds that block at every point. -/
theorem before2_1 (c : Dev nD) (t : Fin cfg2.N) (d) : (dat2 W2 c).before 1 t d = iblk2 W2 c 1 t :=
  ((dat2 W2 c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- Input window 2 is a whole array fetched once: its staging buffer holds that block at every point. -/
theorem before2_2 (c : Dev nD) (t : Fin cfg2.N) (d) : (dat2 W2 c).before 2 t d = iblk2 W2 c 2 t :=
  ((dat2 W2 c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- Input window 3 is a whole array fetched once: its staging buffer holds that block at every point. -/
theorem before2_3 (c : Dev nD) (t : Fin cfg2.N) (d) : (dat2 W2 c).before 3 t d = iblk2 W2 c 3 t :=
  ((dat2 W2 c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- Input window 4 is a whole array fetched once: its staging buffer holds that block at every point. -/
theorem before2_4 (c : Dev nD) (t : Fin cfg2.N) (d) : (dat2 W2 c).before 4 t d = iblk2 W2 c 4 t :=
  ((dat2 W2 c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 W2 c).Φ t.castSucc ∗ (dat2 W2 c).owesAt (none : HIx 1) t.castSucc
    ∗ (∃ d, owns (c : Thread nD τ) (st2_0 t) fullShare ((dat2 W2 c).before 0 t d))
    ∗ (∃ d, owns (c : Thread nD τ) (st2_1 t) fullShare ((dat2 W2 c).before 1 t d))
    ∗ (∃ d, owns (c : Thread nD τ) (st2_2 t) fullShare ((dat2 W2 c).before 2 t d))
    ∗ (∃ d, owns (c : Thread nD τ) (st2_3 t) fullShare ((dat2 W2 c).before 3 t d))
    ∗ (∃ d, owns (c : Thread nD τ) (st2_4 t) fullShare ((dat2 W2 c).before 4 t d))
    ∗ (∃ d, owns (c : Thread nD τ) (st2_5 t) fullShare ((dat2 W2 c).before 5 t d)))

/-- and what it returns: window 0's buffer stated on the part its transfers move, the others' outright. -/
def bodyPost2 (c : Dev nD) (t : Fin cfg2.N) : sProp 𝕄 :=
  iprop((dat2 W2 c).Φ t.succ ∗ (dat2 W2 c).owesAt (none : HIx 1) t.succ
    ∗ (∃ d, owns (c : Thread nD τ) (st2_0 t) fullShare
        ((cfg2.win 0).fill (cfg2.grid.coords t) d ((cfg2.win 0).cut (cfg2.grid.coords t) ((dat2 W2 c).after 0 t))))
    ∗ owns (c : Thread nD τ) (st2_1 t) fullShare ((dat2 W2 c).after 1 t)
    ∗ owns (c : Thread nD τ) (st2_2 t) fullShare ((dat2 W2 c).after 2 t)
    ∗ owns (c : Thread nD τ) (st2_3 t) fullShare ((dat2 W2 c).after 3 t)
    ∗ owns (c : Thread nD τ) (st2_4 t) fullShare ((dat2 W2 c).after 4 t)
    ∗ owns (c : Thread nD τ) (st2_5 t) fullShare ((dat2 W2 c).after 5 t))

/-- The body at any point: the inputs' buffers hold their blocks, so the body's triple applies; the
    invariant and what the core owes pass through unread. Window 0's buffer comes back as it was handed
    over; the result is computed from it, and equals the named one because the filler is never read. -/
theorem sound_body2 (c : Dev nD) (t : Fin cfg2.N) :
    bodyPre2 W2 c t ⊢ wp frame (wpE (defs₀ (F := F)) Variants.none c none) Set.univ (bodyAt2 t) (fun _ => bodyPost2 W2 c t) := by
  unfold bodyPre2 bodyPost2 bodyAt2
  simp only [before2_1, before2_2, before2_3, before2_4]
  rw [show (dat2 W2 c).Φ t.succ = (dat2 W2 c).Φ t.castSucc from rfl,
    show (dat2 W2 c).owesAt (none : HIx 1) t.succ = (dat2 W2 c).owesAt (none : HIx 1) t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  rw [before2_0 W2 c t d0]
  iapply (sound_kernel2 (U := UU) c Set.univ (grid2.coords t) _ _ _ _ _ _ _ _ _ _ _ _
    (win2_0.fill (grid2.coords t) d0 (iblk2 W2 c 0 t)) (iblk2 W2 c 1 t) (iblk2 W2 c 2 t) (iblk2 W2 c 3 t) (iblk2 W2 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st2_0 t) fullShare (win2_0.fill (grid2.coords t) d0 (win2_0.cut (grid2.coords t) (xblk2 W2 c t)))
    rw [xblk2_cut]; try iexact H0
  isplitl [H1]; · iexact H1
  isplitl [H2]; · iexact H2
  isplitl [H3]; · iexact H3
  isplitl [H4]; · iexact H4
  rw [xblk2_eq W2 c t d0]; try iexact H5

/-- The library's body obligation, at every point. -/
theorem body_obligation2 (c : Dev nD) :
    BodyObligationLoose (dat2 W2 c) (defs₀ (F := F)) Variants.none (none : HIx 1) Set.univ := fun t => by
  rw [bigSep_W2, bigSep_W2]
  exact sound_body2 W2 c t

end Cert.Proof.K

end
-- ==== Proof.K.TcBody3.lean ====
import proofs.«214605_g64536178589837_cont_9to1_m_912_2_alg».proof.Proof.Gen.Kernel.Launch
import proofs.«214605_g64536178589837_cont_9to1_m_912_2_alg».proof.Proof.Gen.Kernel.Skeleton
import proofs.«214605_g64536178589837_cont_9to1_m_912_2_alg».proof.Proof.Gen.Kernel.Points
import Idealize.ShloMosaic.Lib.Pipeline.FrameBody
import Idealize.ShloMosaic.Lib.Ring
import Idealize.ShloMosaic.Lib.Tactic

/-! # The Hoare triple of the dense body number 3

The body reads five whole staging buffers (activations, two weight matrices, two bias rows), computes
one value from them, and overwrites the whole sixth buffer with it. Hence: owning the five inputs at
their contents and the sixth at anything, the body runs to a state where the inputs are unchanged and
the sixth buffer holds that value, read through the rectangles of the loads. -/

-- membership in a rectangle with a thousand rows: the structural check recurses once per coordinate
set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (Idealize.ShloMosaic.SparseCore.Cfg.HIx 1) (Elt F) ℕ U ℕ

/-! ## The rectangles the body reads and writes: each is its whole buffer -/

abbrev r3 : Rect S1000x256 := Rect.unit (s := S1000x256) ![0, 0] S1000x256.size inb_S1000x256_S1000x256_0_0
abbrev rW3 : Rect S256x256 := Rect.unit (s := S256x256) ![0, 0] S256x256.size inb_S256x256_S256x256_0_0
abbrev rB3 : Rect S1x256 := Rect.unit (s := S1x256) ![0, 0] S1x256.size inb_S1x256_S1x256_0_0

/-! ## What the body leaves in the output buffer -/

/-- The output buffer after the body, as a function of the five input buffers: the one store, whose
    payload is computed from the five loads. -/
def out3 (x0 : Vec F S1000x256 .f32) (x1 : Vec F S256x256 .f32) (x2 : Vec F S1x256 .f32) (x3 : Vec F S256x256 .f32) (x4 : Vec F S1x256 .f32) :
    Vec F S1000x256 .f32 :=
  View.canon [⟨r3, k3_pay1 (View.ld x0 r3) (View.ld x1 rW3) (View.ld x2 rB3) (View.ld x3 rW3) (View.ld x4 rB3)⟩]

/-- The one store's rectangle is the whole buffer, so every index lies in it. -/
theorem cover3 (p0 : Vec F S1000x256 .f32) (y : S1000x256.Idx) :
    ∃ pc ∈ ([⟨r3, p0⟩] : List (View.Piece (Elt F) S1000x256 .f32)), y ∈ pc.1.set :=
  View.cover_of_tiled [⟨r3, p0⟩] S1000x256.size (by rfl) y

/-! ## The body's triple -/

set_option maxHeartbeats 1000000 in
/-- Owning the five inputs at `x0 … x4` and the output buffer at anything, the body runs to the
    continuation with the inputs as they were and the output buffer at `out3 x0 x1 x2 x3 x4`. -/
theorem sound_kernel3 (c : Dev nD) (E : Set ℕ) (i : grid3.Coords)
    (arg1 : Memref sig .tc .vmem S1000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S1000x256 .f32) (harg6 : arg6.IsWhole)
    (x0 : Vec F S1000x256 .f32) (x1 : Vec F S256x256 .f32) (x2 : Vec F S1x256 .f32) (x3 : Vec F S256x256 .f32) (x4 : Vec F S1x256 .f32)
    (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3 x0 x1 x2 x3 x4)) -∗ Kc ⟨⟩))
      ⊢ wp frame (wpE (defs₀ (F := F)) Variants.none c none) E
          (cc3__mlp_body i arg1 harg1 arg2 harg2 arg3 harg3 arg4 harg4 arg5 harg5 arg6 harg6) Kc := by
  simp only [cc3__mlp_body_eq_skeleton]; unfold cc3__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store, run against the six held buffers
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- reading the written buffer is the canon of the one covering store
  exact View.read_writes_eq_canon _ _ _ (cover3 _)

end Cert.Kernel.TcBody

end
-- ==== Proof.K.RegData3.lean ====
import proofs.«214605_g64536178589837_cont_9to1_m_912_2_alg».proof.Proof.K.Setup
import proofs.«214605_g64536178589837_cont_9to1_m_912_2_alg».proof.Proof.K.TcBody3
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-! # Row-blocked pipeline number 3: what its staging buffers hold, point by point

At every point of its grid the pipeline fetches one 1000-row block of the gathered array (window 0),
keeps the two weight matrices and the two bias rows it fetched at the first point (windows 1 to 4),
runs the dense body, and writes the 1000-row result block back (window 5). This file names those
contents and proves that the body, run on them, leaves what is named. Window 0's array does not divide
into whole blocks, so its block is described at the block's full shape by filling; at the points the
grid visits the block is never cut, so the filler is never read. -/

set_option maxRecDepth 16384

noncomputable section

namespace Cert.Proof.K

open Cert.Kernel Cert.Kernel.Gen Cert.Kernel.TcBody
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (W3 : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) :
    ((cfg3.win w).xblock (cfg3.grid.coords t)).Idx → Elt F (cfg3.win w).elt :=
  ((cfg3.win w).blk t).view.read (Elt F) (W3 c (Pipeline.arrRef spec3 w))

/-- At every point of the grid, window 0's block lies inside its array on both axes. -/
theorem clip3_0 : ∀ (t : Fin cfg3.N) (a : Fin win3_0.shape.rank), (cfg3.win 0).clip (cfg3.grid.coords t) a = none :=
  (by decide +kernel : ∀ (t : Fin grid3.N) (a : Fin win3_0.shape.rank), win3_0.clip (grid3.coords t) a = none)

/-- Window 0's block at point `t` at the block's full shape: the part inside the array, filled out with
    the zero word (nowhere, at a point of the grid: `xblk3_eq`). -/
def xblk3 (c : Dev nD) (t : Fin cfg3.N) : Vec F S1000x256 .f32 :=
  win3_0.fill (grid3.coords t) (fun _ => Scalar.ofBits .f32 0#32) (iblk3 W3 c 0 t)

/-- Its part inside the array is the block read off the array. -/
theorem xblk3_cut (c : Dev nD) (t : Fin cfg3.N) : win3_0.cut (grid3.coords t) (xblk3 W3 c t) = iblk3 W3 c 0 t :=
  win3_0.cut_fill _ _ _

/-- The filler is never read: the block is not cut at a point of the grid. -/
theorem xblk3_eq (c : Dev nD) (t : Fin cfg3.N) (d : S1000x256.Idx → Elt F .f32) :
    xblk3 W3 c t = win3_0.fill (grid3.coords t) d (iblk3 W3 c 0 t) :=
  Pipeline.fill_of_clip_none (cfg := cfg3) 0 (grid3.coords t) (clip3_0 t) _ d _

/-! ## The pipeline's proof data -/

/-- The proof data on core `c`: the arrays as the region finds them; after the body at point `t` each
    input's buffer at its block and the output's at `out3` of the input blocks; the invariant the
    core's other scoped buffers, untouched; nothing owed; full shares. -/
def dat3 (c : Dev nD) : Pipeline.Dat τ (Elt F) (HIx 1) ℕ UU ℕ cfg3 c where
  A w := W3 c (Pipeline.arrRef spec3 w)
  after w t := match w with
    | ⟨0, _⟩ => xblk3 W3 c t
    | ⟨1, _⟩ => iblk3 W3 c 1 t
    | ⟨2, _⟩ => iblk3 W3 c 2 t
    | ⟨3, _⟩ => iblk3 W3 c 3 t
    | ⟨4, _⟩ => iblk3 W3 c 4 t
    | ⟨5, _⟩ => out3 (xblk3 W3 c t) (iblk3 W3 c 1 t) (iblk3 W3 c 2 t) (iblk3 W3 c 3 t) (iblk3 W3 c 4 t)
  Φ _ := Pipeline.scopedRest (Ix := HIx 1) (Name := ℕ) (U := UU) (Lvl := ℕ) (Val := Elt F) spec3 c
  q _ := fullShare
  owed _ := 0

theorem A_eq3 (c : Dev nD) (w : Fin cfg3.W) : (dat3 W3 c).A w = W3 c (Pipeline.arrRef spec3 w) := by
  dsimp only [dat3]

theorem after3_0 (c : Dev nD) (t : Fin cfg3.N) : (dat3 W3 c).after 0 t = xblk3 W3 c t := by dsimp only [dat3]
theorem after3_1 (c : Dev nD) (t : Fin cfg3.N) : (dat3 W3 c).after 1 t = iblk3 W3 c 1 t := by dsimp only [dat3]
theorem after3_2 (c : Dev nD) (t : Fin cfg3.N) : (dat3 W3 c).after 2 t = iblk3 W3 c 2 t := by dsimp only [dat3]
theorem after3_3 (c : Dev nD) (t : Fin cfg3.N) : (dat3 W3 c).after 3 t = iblk3 W3 c 3 t := by dsimp only [dat3]
theorem after3_4 (c : Dev nD) (t : Fin cfg3.N) : (dat3 W3 c).after 4 t = iblk3 W3 c 4 t := by dsimp only [dat3]
theorem after3_5 (c : Dev nD) (t : Fin cfg3.N) : (dat3 W3 c).after 5 t
    = out3 (xblk3 W3 c t) (iblk3 W3 c 1 t) (iblk3 W3 c 2 t) (iblk3 W3 c 3 t) (iblk3 W3 c 4 t) := by dsimp only [dat3]

theorem owed3 (c : Dev nD) (t : Fin (cfg3.N + 1)) : (dat3 W3 c).owed t = 0 := rfl

theorem share3 (c : Dev nD) (w : Fin cfg3.W) : (dat3 W3 c).share w = fullShare :=
  (dat3 W3 c).share_full (fun _ => rfl) w

/-! ## What the body finds in each buffer -/

/-- Window 0 is fetched at every point: its buffer holds the block on the part the fetch fills, and what
    it held (`d`) elsewhere. -/
theorem before3_0 (c : Dev nD) (t : Fin cfg3.N) (d) :
    (dat3 W3 c).before 0 t d = win3_0.fill (grid3.coords t) d (iblk3 W3 c 0 t) := by
  unfold Dat.before; rw [if_pos (fetch3_0 t)]
  unfold Dat.fetched Dat.blockOf iblk3; rw [A_eq3]; try rfl

/-- Input window 1 is a whole array fetched once: its staging buffer holds that block at every point. -/
theorem before3_1 (c : Dev nD) (t : Fin cfg3.N) (d) : (dat3 W3 c).before 1 t d = iblk3 W3 c 1 t :=
  ((dat3 W3 c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- Input window 2 is a whole array fetched once: its staging buffer holds that block at every point. -/
theorem before3_2 (c : Dev nD) (t : Fin cfg3.N) (d) : (dat3 W3 c).before 2 t d = iblk3 W3 c 2 t :=
  ((dat3 W3 c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-- Input window 3 is a whole array fetched once: its staging buffer holds that block at every point. -/
theorem before3_3 (c : Dev nD) (t : Fin cfg3.N) (d) : (dat3 W3 c).before 3 t d = iblk3 W3 c 3 t :=
  ((dat3 W3 c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- Input window 4 is a whole array fetched once: its staging buffer holds that block at every point. -/
theorem before3_4 (c : Dev nD) (t : Fin cfg3.N) (d) : (dat3 W3 c).before 4 t d = iblk3 W3 c 4 t :=
  ((dat3 W3 c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 W3 c).Φ t.castSucc ∗ (dat3 W3 c).owesAt (none : HIx 1) t.castSucc
    ∗ (∃ d, owns (c : Thread nD τ) (st3_0 t) fullShare ((dat3 W3 c).before 0 t d))
    ∗ (∃ d, owns (c : Thread nD τ) (st3_1 t) fullShare ((dat3 W3 c).before 1 t d))
    ∗ (∃ d, owns (c : Thread nD τ) (st3_2 t) fullShare ((dat3 W3 c).before 2 t d))
    ∗ (∃ d, owns (c : Thread nD τ) (st3_3 t) fullShare ((dat3 W3 c).before 3 t d))
    ∗ (∃ d, owns (c : Thread nD τ) (st3_4 t) fullShare ((dat3 W3 c).before 4 t d))
    ∗ (∃ d, owns (c : Thread nD τ) (st3_5 t) fullShare ((dat3 W3 c).before 5 t d)))

/-- and what it returns: window 0's buffer stated on the part its transfers move, the others' outright. -/
def bodyPost3 (c : Dev nD) (t : Fin cfg3.N) : sProp 𝕄 :=
  iprop((dat3 W3 c).Φ t.succ ∗ (dat3 W3 c).owesAt (none : HIx 1) t.succ
    ∗ (∃ d, owns (c : Thread nD τ) (st3_0 t) fullShare
        ((cfg3.win 0).fill (cfg3.grid.coords t) d ((cfg3.win 0).cut (cfg3.grid.coords t) ((dat3 W3 c).after 0 t))))
    ∗ owns (c : Thread nD τ) (st3_1 t) fullShare ((dat3 W3 c).after 1 t)
    ∗ owns (c : Thread nD τ) (st3_2 t) fullShare ((dat3 W3 c).after 2 t)
    ∗ owns (c : Thread nD τ) (st3_3 t) fullShare ((dat3 W3 c).after 3 t)
    ∗ owns (c : Thread nD τ) (st3_4 t) fullShare ((dat3 W3 c).after 4 t)
    ∗ owns (c : Thread nD τ) (st3_5 t) fullShare ((dat3 W3 c).after 5 t))

/-- The body at any point: the inputs' buffers hold their blocks, so the body's triple applies; the
    invariant and what the core owes pass through unread. Window 0's buffer comes back as it was handed
    over; the result is computed from it, and equals the named one because the filler is never read. -/
theorem sound_body3 (c : Dev nD) (t : Fin cfg3.N) :
    bodyPre3 W3 c t ⊢ wp frame (wpE (defs₀ (F := F)) Variants.none c none) Set.univ (bodyAt3 t) (fun _ => bodyPost3 W3 c t) := by
  unfold bodyPre3 bodyPost3 bodyAt3
  simp only [before3_1, before3_2, before3_3, before3_4]
  rw [show (dat3 W3 c).Φ t.succ = (dat3 W3 c).Φ t.castSucc from rfl,
    show (dat3 W3 c).owesAt (none : HIx 1) t.succ = (dat3 W3 c).owesAt (none : HIx 1) t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  rw [before3_0 W3 c t d0]
  iapply (sound_kernel3 (U := UU) c Set.univ (grid3.coords t) _ _ _ _ _ _ _ _ _ _ _ _
    (win3_0.fill (grid3.coords t) d0 (iblk3 W3 c 0 t)) (iblk3 W3 c 1 t) (iblk3 W3 c 2 t) (iblk3 W3 c 3 t) (iblk3 W3 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st3_0 t) fullShare (win3_0.fill (grid3.coords t) d0 (win3_0.cut (grid3.coords t) (xblk3 W3 c t)))
    rw [xblk3_cut]; try iexact H0
  isplitl [H1]; · iexact H1
  isplitl [H2]; · iexact H2
  isplitl [H3]; · iexact H3
  isplitl [H4]; · iexact H4
  rw [xblk3_eq W3 c t d0]; try iexact H5

/-- The library's body obligation, at every point. -/
theorem body_obligation3 (c : Dev nD) :
    BodyObligationLoose (dat3 W3 c) (defs₀ (F := F)) Variants.none (none : HIx 1) Set.univ := fun t => by
  rw [bigSep_W3, bigSep_W3]
  exact sound_body3 W3 c t

end Cert.Proof.K

end
-- ==== Proof.K.TcBody4.lean ====
import proofs.«214605_g64536178589837_cont_9to1_m_912_2_alg».proof.Proof.Gen.Kernel.Launch
import proofs.«214605_g64536178589837_cont_9to1_m_912_2_alg».proof.Proof.Gen.Kernel.Skeleton
import proofs.«214605_g64536178589837_cont_9to1_m_912_2_alg».proof.Proof.Gen.Kernel.Points
import Idealize.ShloMosaic.Lib.Pipeline.FrameBody
import Idealize.ShloMosaic.Lib.Ring
import Idealize.ShloMosaic.Lib.Tactic

/-! # The Hoare triple of the dense body number 4

The body reads five whole staging buffers (activations, two weight matrices, two bias rows), computes
one value from them, and overwrites the whole sixth buffer with it. Hence: owning the five inputs at
their contents and the sixth at anything, the body runs to a state where the inputs are unchanged and
the sixth buffer holds that value, read through the rectangles of the loads. -/

-- membership in a rectangle with a thousand rows: the structural check recurses once per coordinate
set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (Idealize.ShloMosaic.SparseCore.Cfg.HIx 1) (Elt F) ℕ U ℕ

/-! ## The rectangles the body reads and writes: each is its whole buffer -/

abbrev r4 : Rect S1000x384 := Rect.unit (s := S1000x384) ![0, 0] S1000x384.size inb_S1000x384_S1000x384_0_0
abbrev rW4 : Rect S384x384 := Rect.unit (s := S384x384) ![0, 0] S384x384.size inb_S384x384_S384x384_0_0
abbrev rB4 : Rect S1x384 := Rect.unit (s := S1x384) ![0, 0] S1x384.size inb_S1x384_S1x384_0_0

/-! ## What the body leaves in the output buffer -/

/-- The output buffer after the body, as a function of the five input buffers: the one store, whose
    payload is computed from the five loads. -/
def out4 (x0 : Vec F S1000x384 .f32) (x1 : Vec F S384x384 .f32) (x2 : Vec F S1x384 .f32) (x3 : Vec F S384x384 .f32) (x4 : Vec F S1x384 .f32) :
    Vec F S1000x384 .f32 :=
  View.canon [⟨r4, k4_pay1 (View.ld x0 r4) (View.ld x1 rW4) (View.ld x2 rB4) (View.ld x3 rW4) (View.ld x4 rB4)⟩]

/-- The one store's rectangle is the whole buffer, so every index lies in it. -/
theorem cover4 (p0 : Vec F S1000x384 .f32) (y : S1000x384.Idx) :
    ∃ pc ∈ ([⟨r4, p0⟩] : List (View.Piece (Elt F) S1000x384 .f32)), y ∈ pc.1.set :=
  View.cover_of_tiled [⟨r4, p0⟩] S1000x384.size (by rfl) y

/-! ## The body's triple -/

set_option maxHeartbeats 1000000 in
/-- Owning the five inputs at `x0 … x4` and the output buffer at anything, the body runs to the
    continuation with the inputs as they were and the output buffer at `out4 x0 x1 x2 x3 x4`. -/
theorem sound_kernel4 (c : Dev nD) (E : Set ℕ) (i : grid4.Coords)
    (arg1 : Memref sig .tc .vmem S1000x384 .f32) (harg1 : arg1.IsWhole) (arg2 : Memref sig .tc .vmem S384x384 .f32) (harg2 : arg2.IsWhole)
    (arg3 : Memref sig .tc .vmem S1x384 .f32) (harg3 : arg3.IsWhole) (arg4 : Memref sig .tc .vmem S384x384 .f32) (harg4 : arg4.IsWhole)
    (arg5 : Memref sig .tc .vmem S1x384 .f32) (harg5 : arg5.IsWhole) (arg6 : Memref sig .tc .vmem S1000x384 .f32) (harg6 : arg6.IsWhole)
    (x0 : Vec F S1000x384 .f32) (x1 : Vec F S384x384 .f32) (x2 : Vec F S1x384 .f32) (x3 : Vec F S384x384 .f32) (x4 : Vec F S1x384 .f32)
    (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4 x0 x1 x2 x3 x4)) -∗ Kc ⟨⟩))
      ⊢ wp frame (wpE (defs₀ (F := F)) Variants.none c none) E
          (cc4__mlp_body i arg1 harg1 arg2 harg2 arg3 harg3 arg4 harg4 arg5 harg5 arg6 harg6) Kc := by
  simp only [cc4__mlp_body_eq_skeleton]; unfold cc4__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store, run against the six held buffers
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- reading the written buffer is the canon of the one covering store
  exact View.read_writes_eq_canon _ _ _ (cover4 _)

end Cert.Kernel.TcBody

end
-- ==== Proof.K.RegData4.lean ====
import proofs.«214605_g64536178589837_cont_9to1_m_912_2_alg».proof.Proof.K.Setup
import proofs.«214605_g64536178589837_cont_9to1_m_912_2_alg».proof.Proof.K.TcBody4
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-! # Row-blocked pipeline number 4: what its staging buffers hold, point by point

At every point of its grid the pipeline fetches one 1000-row block of the gathered array (window 0),
keeps the two weight matrices and the two bias rows it fetched at the first point (windows 1 to 4),
runs the dense body, and writes the 1000-row result block back (window 5). This file names those
contents and proves that the body, run on them, leaves what is named. Window 0's array does not divide
into whole blocks, so its block is described at the block's full shape by filling; at the points the
grid visits the block is never cut, so the filler is never read. -/

set_option maxRecDepth 16384

noncomputable section

namespace Cert.Proof.K

open Cert.Kernel Cert.Kernel.Gen Cert.Kernel.TcBody
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (W4 : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) :
    ((cfg4.win w).xblock (cfg4.grid.coords t)).Idx → Elt F (cfg4.win w).elt :=
  ((cfg4.win w).blk t).view.read (Elt F) (W4 c (Pipeline.arrRef spec4 w))

/-- At every point of the grid, window 0's block lies inside its array on both axes. -/
theorem clip4_0 : ∀ (t : Fin cfg4.N) (a : Fin win4_0.shape.rank), (cfg4.win 0).clip (cfg4.grid.coords t) a = none :=
  (by decide +kernel : ∀ (t : Fin grid4.N) (a : Fin win4_0.shape.rank), win4_0.clip (grid4.coords t) a = none)

/-- Window 0's block at point `t` at the block's full shape: the part inside the array, filled out with
    the zero word (nowhere, at a point of the grid: `xblk4_eq`). -/
def xblk4 (c : Dev nD) (t : Fin cfg4.N) : Vec F S1000x384 .f32 :=
  win4_0.fill (grid4.coords t) (fun _ => Scalar.ofBits .f32 0#32) (iblk4 W4 c 0 t)

/-- Its part inside the array is the block read off the array. -/
theorem xblk4_cut (c : Dev nD) (t : Fin cfg4.N) : win4_0.cut (grid4.coords t) (xblk4 W4 c t) = iblk4 W4 c 0 t :=
  win4_0.cut_fill _ _ _

/-- The filler is never read: the block is not cut at a point of the grid. -/
theorem xblk4_eq (c : Dev nD) (t : Fin cfg4.N) (d : S1000x384.Idx → Elt F .f32) :
    xblk4 W4 c t = win4_0.fill (grid4.coords t) d (iblk4 W4 c 0 t) :=
  Pipeline.fill_of_clip_none (cfg := cfg4) 0 (grid4.coords t) (clip4_0 t) _ d _

/-! ## The pipeline's proof data -/

/-- The proof data on core `c`: the arrays as the region finds them; after the body at point `t` each
    input's buffer at its block and the output's at `out4` of the input blocks; the invariant the
    core's other scoped buffers, untouched; nothing owed; full shares. -/
def dat4 (c : Dev nD) : Pipeline.Dat τ (Elt F) (HIx 1) ℕ UU ℕ cfg4 c where
  A w := W4 c (Pipeline.arrRef spec4 w)
  after w t := match w with
    | ⟨0, _⟩ => xblk4 W4 c t
    | ⟨1, _⟩ => iblk4 W4 c 1 t
    | ⟨2, _⟩ => iblk4 W4 c 2 t
    | ⟨3, _⟩ => iblk4 W4 c 3 t
    | ⟨4, _⟩ => iblk4 W4 c 4 t
    | ⟨5, _⟩ => out4 (xblk4 W4 c t) (iblk4 W4 c 1 t) (iblk4 W4 c 2 t) (iblk4 W4 c 3 t) (iblk4 W4 c 4 t)
  Φ _ := Pipeline.scopedRest (Ix := HIx 1) (Name := ℕ) (U := UU) (Lvl := ℕ) (Val := Elt F) spec4 c
  q _ := fullShare
  owed _ := 0

theorem A_eq4 (c : Dev nD) (w : Fin cfg4.W) : (dat4 W4 c).A w = W4 c (Pipeline.arrRef spec4 w) := by
  dsimp only [dat4]

theorem after4_0 (c : Dev nD) (t : Fin cfg4.N) : (dat4 W4 c).after 0 t = xblk4 W4 c t := by dsimp only [dat4]
theorem after4_1 (c : Dev nD) (t : Fin cfg4.N) : (dat4 W4 c).after 1 t = iblk4 W4 c 1 t := by dsimp only [dat4]
theorem after4_2 (c : Dev nD) (t : Fin cfg4.N) : (dat4 W4 c).after 2 t = iblk4 W4 c 2 t := by dsimp only [dat4]
theorem after4_3 (c : Dev nD) (t : Fin cfg4.N) : (dat4 W4 c).after 3 t = iblk4 W4 c 3 t := by dsimp only [dat4]
theorem after4_4 (c : Dev nD) (t : Fin cfg4.N) : (dat4 W4 c).after 4 t = iblk4 W4 c 4 t := by dsimp only [dat4]
theorem after4_5 (c : Dev nD) (t : Fin cfg4.N) : (dat4 W4 c).after 5 t
    = out4 (xblk4 W4 c t) (iblk4 W4 c 1 t) (iblk4 W4 c 2 t) (iblk4 W4 c 3 t) (iblk4 W4 c 4 t) := by dsimp only [dat4]

theorem owed4 (c : Dev nD) (t : Fin (cfg4.N + 1)) : (dat4 W4 c).owed t = 0 := rfl

theorem share4 (c : Dev nD) (w : Fin cfg4.W) : (dat4 W4 c).share w = fullShare :=
  (dat4 W4 c).share_full (fun _ => rfl) w

/-! ## What the body finds in each buffer -/

/-- Window 0 is fetched at every point: its buffer holds the block on the part the fetch fills, and what
    it held (`d`) elsewhere. -/
theorem before4_0 (c : Dev nD) (t : Fin cfg4.N) (d) :
    (dat4 W4 c).before 0 t d = win4_0.fill (grid4.coords t) d (iblk4 W4 c 0 t) := by
  unfold Dat.before; rw [if_pos (fetch4_0 t)]
  unfold Dat.fetched Dat.blockOf iblk4; rw [A_eq4]; try rfl

/-- Input window 1 is a whole array fetched once: its staging buffer holds that block at every point. -/
theorem before4_1 (c : Dev nD) (t : Fin cfg4.N) (d) : (dat4 W4 c).before 1 t d = iblk4 W4 c 1 t :=
  ((dat4 W4 c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

/-- Input window 2 is a whole array fetched once: its staging buffer holds that block at every point. -/
theorem before4_2 (c : Dev nD) (t : Fin cfg4.N) (d) : (dat4 W4 c).before 2 t d = iblk4 W4 c 2 t :=
  ((dat4 W4 c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

/-- Input window 3 is a whole array fetched once: its staging buffer holds that block at every point. -/
theorem before4_3 (c : Dev nD) (t : Fin cfg4.N) (d) : (dat4 W4 c).before 3 t d = iblk4 W4 c 3 t :=
  ((dat4 W4 c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-- Input window 4 is a whole array fetched once: its staging buffer holds that block at every point. -/
theorem before4_4 (c : Dev nD) (t : Fin cfg4.N) (d) : (dat4 W4 c).before 4 t d = iblk4 W4 c 4 t :=
  ((dat4 W4 c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (c : Dev nD) (t : Fin cfg4.N) : sProp 𝕄 :=
  iprop((dat4 W4 c).Φ t.castSucc ∗ (dat4 W4 c).owesAt (none : HIx 1) t.castSucc
    ∗ (∃ d, owns (c : Thread nD τ) (st4_0 t) fullShare ((dat4 W4 c).before 0 t d))
    ∗ (∃ d, owns (c : Thread nD τ) (st4_1 t) fullShare ((dat4 W4 c).before 1 t d))
    ∗ (∃ d, owns (c : Thread nD τ) (st4_2 t) fullShare ((dat4 W4 c).before 2 t d))
    ∗ (∃ d, owns (c : Thread nD τ) (st4_3 t) fullShare ((dat4 W4 c).before 3 t d))
    ∗ (∃ d, owns (c : Thread nD τ) (st4_4 t) fullShare ((dat4 W4 c).before 4 t d))
    ∗ (∃ d, owns (c : Thread nD τ) (st4_5 t) fullShare ((dat4 W4 c).before 5 t d)))

/-- and what it returns: window 0's buffer stated on the part its transfers move, the others' outright. -/
def bodyPost4 (c : Dev nD) (t : Fin cfg4.N) : sProp 𝕄 :=
  iprop((dat4 W4 c).Φ t.succ ∗ (dat4 W4 c).owesAt (none : HIx 1) t.succ
    ∗ (∃ d, owns (c : Thread nD τ) (st4_0 t) fullShare
        ((cfg4.win 0).fill (cfg4.grid.coords t) d ((cfg4.win 0).cut (cfg4.grid.coords t) ((dat4 W4 c).after 0 t))))
    ∗ owns (c : Thread nD τ) (st4_1 t) fullShare ((dat4 W4 c).after 1 t)
    ∗ owns (c : Thread nD τ) (st4_2 t) fullShare ((dat4 W4 c).after 2 t)
    ∗ owns (c : Thread nD τ) (st4_3 t) fullShare ((dat4 W4 c).after 3 t)
    ∗ owns (c : Thread nD τ) (st4_4 t) fullShare ((dat4 W4 c).after 4 t)
    ∗ owns (c : Thread nD τ) (st4_5 t) fullShare ((dat4 W4 c).after 5 t))

/-- The body at any point: the inputs' buffers hold their blocks, so the body's triple applies; the
    invariant and what the core owes pass through unread. Window 0's buffer comes back as it was handed
    over; the result is computed from it, and equals the named one because the filler is never read. -/
theorem sound_body4 (c : Dev nD) (t : Fin cfg4.N) :
    bodyPre4 W4 c t ⊢ wp frame (wpE (defs₀ (F := F)) Variants.none c none) Set.univ (bodyAt4 t) (fun _ => bodyPost4 W4 c t) := by
  unfold bodyPre4 bodyPost4 bodyAt4
  simp only [before4_1, before4_2, before4_3, before4_4]
  rw [show (dat4 W4 c).Φ t.succ = (dat4 W4 c).Φ t.castSucc from rfl,
    show (dat4 W4 c).owesAt (none : HIx 1) t.succ = (dat4 W4 c).owesAt (none : HIx 1) t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  rw [before4_0 W4 c t d0]
  iapply (sound_kernel4 (U := UU) c Set.univ (grid4.coords t) _ _ _ _ _ _ _ _ _ _ _ _
    (win4_0.fill (grid4.coords t) d0 (iblk4 W4 c 0 t)) (iblk4 W4 c 1 t) (iblk4 W4 c 2 t) (iblk4 W4 c 3 t) (iblk4 W4 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st4_0 t) fullShare (win4_0.fill (grid4.coords t) d0 (win4_0.cut (grid4.coords t) (xblk4 W4 c t)))
    rw [xblk4_cut]; try iexact H0
  isplitl [H1]; · iexact H1
  isplitl [H2]; · iexact H2
  isplitl [H3]; · iexact H3
  isplitl [H4]; · iexact H4
  rw [xblk4_eq W4 c t d0]; try iexact H5

/-- The library's body obligation, at every point. -/
theorem body_obligation4 (c : Dev nD) :
    BodyObligationLoose (dat4 W4 c) (defs₀ (F := F)) Variants.none (none : HIx 1) Set.univ := fun t => by
  rw [bigSep_W4, bigSep_W4]
  exact sound_body4 W4 c t

end Cert.Proof.K

end
-- ==== Proof.K.RegData.lean ====
import proofs.«214605_g64536178589837_cont_9to1_m_912_2_alg».proof.Proof.K.RegData1
import proofs.«214605_g64536178589837_cont_9to1_m_912_2_alg».proof.Proof.K.RegData2
import proofs.«214605_g64536178589837_cont_9to1_m_912_2_alg».proof.Proof.K.RegData3
import proofs.«214605_g64536178589837_cont_9to1_m_912_2_alg».proof.Proof.K.RegData4

/-! # The four row-blocked pipelines as one family

The proof data of the four pipelines, indexed by the pipeline, with the facts the launch asks of every
member: the body obligation, full shares, nothing owed. -/

noncomputable section

namespace Cert.Proof.K

open Cert.Kernel Cert.Kernel.Gen Cert.Kernel.TcBody
open Idealize.ShloMosaic Idealize.ShloMosaic.TcCoe
open Idealize.ShloMosaic.SparseCore.Cfg (HIx)
open Idealize.SL Idealize.SL.RA Idealize.SL.BI
open Idealize.SL.Sem
open Idealize.ShloMosaic.Pipeline (Dat Cfg Window BodyObligation BodyObligationLoose cellOf)

variable {F : FTy → Type} [FloatOps F]

/-- No pipeline prefetches a table: each has its one admissible contents. -/
abbrev adm : (p : Fin 4) → (pcfgs (F := F) p).Adm := fun p => (cfgs p).toPCfg_adm

variable (W1 W2 W3 W4 : (c : Dev nD) → (b : Ref sig .tc) → Buf (Elt F) ((c : Thread nD τ).loc b))

/-- The family's proof data: pipeline `p`'s is `dat(p+1)`, over the arrays as region `p` finds them. -/
def pdats : (p : Fin 4) → (c : Dev nD) → Pipeline.Dat τ (Elt F) (HIx 1) ℕ UU ℕ (Pipeline.pin (pcfgs (F := F)) adm p) c
  | ⟨0, _⟩ => dat1 W1
  | ⟨1, _⟩ => dat2 W2
  | ⟨2, _⟩ => dat3 W3
  | ⟨3, _⟩ => dat4 W4

theorem pdats_0 : pdats W1 W2 W3 W4 0 = dat1 W1 := rfl
theorem pdats_1 : pdats W1 W2 W3 W4 1 = dat2 W2 := rfl
theorem pdats_2 : pdats W1 W2 W3 W4 2 = dat3 W3 := rfl
theorem pdats_3 : pdats W1 W2 W3 W4 3 = dat4 W4 := rfl

/-- Every member meets the body obligation, -/
theorem pbody (p : Fin 4) (c : Dev nD) :
    BodyObligationLoose (pdats W1 W2 W3 W4 p c) (defs₀ (F := F)) Variants.none (none : HIx 1) Set.univ :=
  match p with
  | ⟨0, _⟩ => body_obligation1 W1 c
  | ⟨1, _⟩ => body_obligation2 W2 c
  | ⟨2, _⟩ => body_obligation3 W3 c
  | ⟨3, _⟩ => body_obligation4 W4 c

/-- holds every array at the full share, -/
theorem pshare (p : Fin 4) (c : Dev nD) (w : Fin (Pipeline.pin (pcfgs (F := F)) adm p).W) : (pdats W1 W2 W3 W4 p c).share w = fullShare :=
  match p with
  | ⟨0, _⟩ => share1 W1 c w
  | ⟨1, _⟩ => share2 W2 c w
  | ⟨2, _⟩ => share3 W3 c w
  | ⟨3, _⟩ => share4 W4 c w

/-- and owes nothing at any point. -/
theorem powed (p : Fin 4) (c : Dev nD) (t : Fin ((Pipeline.pin (pcfgs (F := F)) adm p).N + 1)) : (pdats W1 W2 W3 W4 p c).owed t = 0 :=
  match p with
  | ⟨0, _⟩ => owed1 W1 c t
  | ⟨1, _⟩ => owed2 W2 c t
  | ⟨2, _⟩ => owed3 W3 c t
  | ⟨3, _⟩ => owed4 W4 c t

end Cert.Proof.K

end
-- ==== Proof.K.Regions.lean ====
/-
  @main of the word-level kernel as six host stretches with the gather's call and the four perceptron regions between
  them; each region's record for the pipelines' region rule (what it is entered from, what it leaves, how the arrays it
  stages are sorted out of the TensorCore's arrays and put back); the rule that runs a region's call inside the
  SparseCore program; and the contents of every array @main names, stage by stage, as one chain of valuations.
-/
import proofs.«214605_g64536178589837_cont_9to1_m_912_2_alg».proof.Proof.K.Setup
import proofs.«214605_g64536178589837_cont_9to1_m_912_2_alg».proof.Proof.K.ScSide
import proofs.«214605_g64536178589837_cont_9to1_m_912_2_alg».proof.Proof.K.RegData

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## @main's host stretches -/

/-- Before the gather: the index lists joined, and padded with zeros to 614400 words. -/
abbrev ops0 : List (HloOp τ sig (Elt F)) :=
  [StableHlo.nary ![main_arg1, main_arg2, main_arg3, main_arg4] main_v0 (fun u => concatenate S600000 0 [⟨S100000, u 0⟩, ⟨S200000, u 1⟩, ⟨S150000, u 2⟩, ⟨S150000, u 3⟩] concatenates_S100000_S200000_S150000_S150000_S600000_d0),
   StableHlo.nullary main_c (constantI S_ 32 0#32),
   StableHlo.TRef.unary (StableHlo.TRef.of main_c : StableHlo.TRef sig ⟨S_, .i32⟩) main_call0.v0 id,
   StableHlo.TRef.binary (StableHlo.TRef.of main_v0 : StableHlo.TRef sig ⟨S600000, .i32⟩) main_call0.v0 main_call0.v1 (fun x v => pad S614400 ![0] ![14400] ![0] x v pads_S600000_S614400_0144000 h_S_)]
/-- Before the first perceptron: its two bias rows. -/
abbrev ops1 : List (HloOp τ sig (Elt F)) :=
  [StableHlo.reshape main_arg6 main_v3 rfl shapeCasts_S128_S1x128, StableHlo.reshape main_arg8 main_v4 rfl shapeCasts_S128_S1x128]
/-- Before the second: the gathered rows paired, and its bias rows. -/
abbrev ops2 : List (HloOp τ sig (Elt F)) :=
  [StableHlo.reshape main_v2 main_v6 rfl shapeCasts_S614400x128_S307200x256, StableHlo.reshape main_arg10 main_v7 rfl shapeCasts_S256_S1x256,
   StableHlo.reshape main_arg12 main_v8 rfl shapeCasts_S256_S1x256]
abbrev ops3 : List (HloOp τ sig (Elt F)) :=
  [StableHlo.reshape main_v9 main_v10 rfl shapeCasts_S100000x256_S200000x128, StableHlo.reshape main_v2 main_v11 rfl shapeCasts_S614400x128_S307200x256,
   StableHlo.reshape main_arg14 main_v12 rfl shapeCasts_S256_S1x256, StableHlo.reshape main_arg16 main_v13 rfl shapeCasts_S256_S1x256]
abbrev ops4 : List (HloOp τ sig (Elt F)) :=
  [StableHlo.reshape main_v14 main_v15 rfl shapeCasts_S75000x256_S150000x128, StableHlo.reshape main_v2 main_v16 rfl shapeCasts_S614400x128_S204800x384,
   StableHlo.reshape main_arg18 main_v17 rfl shapeCasts_S384_S1x384, StableHlo.reshape main_arg20 main_v18 rfl shapeCasts_S384_S1x384]
abbrev ops5 : List (HloOp τ sig (Elt F)) :=
  [StableHlo.reshape main_v19 main_v20 rfl shapeCasts_S50000x384_S150000x128,
   StableHlo.nary ![main_v5, main_v10, main_v15, main_v20] main_v21 (fun u => concatenate S600000x128 0 [⟨S100000x128, u 0⟩, ⟨S200000x128, u 1⟩, ⟨S150000x128, u 2⟩, ⟨S150000x128, u 3⟩] concatenates_S100000x128_S200000x128_S150000x128_S150000x128_S600000x128_d0),
   StableHlo.nary ![main_arg1, main_arg2, main_arg3, main_arg4] main_v22 (fun u => concatenate S600000 0 [⟨S100000, u 0⟩, ⟨S200000, u 1⟩, ⟨S150000, u 2⟩, ⟨S150000, u 3⟩] concatenates_S100000_S200000_S150000_S150000_S600000_d0)]

abbrev Wty (c : Dev nD) : Type := (b : Ref sig .tc) → Buf (Elt F) ((c.tc : Thread nD τ).loc b)

/-! ## A region's call, from its record -/

section Regions
variable (W1 W2 W3 W4 : (c : Dev nD) → Wty (F := F) c)

abbrev regionCall (p : Fin 4) : Prog (TpuEff nD τ sig (Elt F) (SparseCore.Sig (ΛP (F := F)) 1) .tc) PUnit :=
  Prog.lift (.customCall (SparseCore.inner (Pipeline.entry p)) ())

abbrev RS (p : Fin 4) := Pipeline.RegionSeg (pcfgs (F := F)) adm (pdats W1 W2 W3 W4) (none : HIx 1) defs₀ 𝒱₀ (K (F := F)).L (K (F := F)).lev p

set_option backward.isDefEq.respectTransparency.types false in
/-- A perceptron's region inside the SparseCore program: the call is the pipelines' call lifted to the extended body
    table, and the pipelines' region rule runs it from the region's record. -/
theorem wp_regionCall (p : Fin 4) (R : RS W1 W2 W3 W4 p) (d : Dev nD) {α : Type}
    (k : PUnit → Prog (TpuEff nD τ sig (Elt F) (SparseCore.Sig (ΛP (F := F)) 1) .tc) α) (Q : α → sProp 𝕄) :
    iprop((iprop(boundary (T d) ∗ R.post d) -∗ wp frame (wpE ((K (F := F)).defs (D (F := F))) 𝒱 (T d) none) Set.univ (k ⟨⟩) Q)
        ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (regionCall p >>= k) Q := by
  rw [wp_bind]
  have hreg := Pipeline.RegionSeg.wp (pcfgs (F := F)) adm (pdats W1 W2 W3 W4) (none : HIx 1) cellOf_inj (EP (F := F)) defs₀ 𝒱₀ (K (F := F)).L (K (F := F)).lev R d none
    (fun u hu => by cases hu) (fun _ => (.ret ⟨⟩ : Prog (TpuEff nD τ sig (Elt F) (ΛP (F := F)) .tc) PUnit))
    (fun _ => wp frame (wpE ((K (F := F)).defs (D (F := F))) 𝒱 (T d) none) Set.univ (k ⟨⟩) Q)
  have hlift := (K (F := F)).wp_liftProg (nD := nD) (Val := Elt F) (Name := ℕ) (U := UU) (D (F := F)) 𝒱 (T d) Set.univ none
    (.op (.customCall (Pipeline.entry p) ()) fun _ => (.ret ⟨⟩ : Prog (TpuEff nD τ sig (Elt F) (ΛP (F := F)) .tc) PUnit))
    (fun _ => wp frame (wpE ((K (F := F)).defs (D (F := F))) 𝒱 (T d) none) Set.univ (k ⟨⟩) Q)
  iintro ⟨Hk, Hb, Hpre, Hla, Hg, Ht⟩
  iapply hlift
  iapply hreg
  isplitl [Hk]
  · iintro H
    rw [wp_ret]; imodintro
    iapply Hk; iexact H
  isplitl [Hb]; · iexact Hb
  isplitl [Hpre]; · iexact Hpre
  isplitl [Hla]; · iexact Hla
  isplitl [Hg]; · iexact Hg
  iexact Ht

/-! ## The regions' records -/

/-- What the TensorCore's arrays hold after region 1: its result array at what the pipeline leaves, the rest as entered. -/
def Wout1 (c : Dev nD) : Wty (F := F) c :=
  Function.update (W1 c) (Pipeline.arrRef spec1 5) ((dat1 W1 c).arrAt 5 cfg1.N)

theorem Wout1_arr (c : Dev nD) (w : Fin cfg1.W) : Wout1 W1 c (Pipeline.arrRef spec1 w) = (dat1 W1 c).arrAt w cfg1.N := by
  unfold Wout1
  match w with
  | 0 => exact (Function.update_of_ne (by decide) _ _).trans (((dat1 W1 c).arrAt_in 0 rfl _).trans (A_eq1 W1 c 0)).symm
  | 1 => exact (Function.update_of_ne (by decide) _ _).trans (((dat1 W1 c).arrAt_in 1 rfl _).trans (A_eq1 W1 c 1)).symm
  | 2 => exact (Function.update_of_ne (by decide) _ _).trans (((dat1 W1 c).arrAt_in 2 rfl _).trans (A_eq1 W1 c 2)).symm
  | 3 => exact (Function.update_of_ne (by decide) _ _).trans (((dat1 W1 c).arrAt_in 3 rfl _).trans (A_eq1 W1 c 3)).symm
  | 4 => exact (Function.update_of_ne (by decide) _ _).trans (((dat1 W1 c).arrAt_in 4 rfl _).trans (A_eq1 W1 c 4)).symm
  | 5 => exact Function.update_self _ _ _

theorem rest_Wout1 (c : Dev nD) :
    (Pipeline.unscopedRest (Ix := HIx 1) (Name := ℕ) (U := UU) (Lvl := ℕ) spec1 c (Wout1 W1 c) : sProp 𝕄)
      = Pipeline.unscopedRest (Ix := HIx 1) (Name := ℕ) (U := UU) (Lvl := ℕ) spec1 c (W1 c) := by
  unfold Pipeline.unscopedRest
  refine bigSep_congr fun b hb => ?_
  have hne : b ≠ Pipeline.arrRef spec1 5 := fun e => (Finset.mem_sdiff.mp hb).2 (Finset.mem_image.mpr ⟨5, Finset.mem_univ _, e.symm⟩)
  unfold Wout1; rw [Function.update_of_ne hne]

def reg1 : RS W1 W2 W3 W4 0 where
  win := launch1.win.to₀
  block_pos := launch1.block_pos
  stage_whole := launch1.stage_whole
  K := PEmpty
  osem k := k.elim
  ho := Pipeline.OwnSemFacts.none _
  hbody c := body_obligation1 W1 c
  hwaits c := Pipeline.hwaits_of_owed_zero (pcfgs (F := F)) adm (pdats W1 W2 W3 W4) (none : HIx 1) (K (F := F)).L (K (F := F)).lev 0 (fun c t => owed1 W1 c t) c
  pre c := iprop(unscopedBufs c (W1 c) ∗ ∃ Wt, owes (c.tc : Thread nD τ) (0 : CellTallies nD τ sig (HIx 1)) Wt)
  post c := iprop(unscopedBufs c (Wout1 W1 c) ∗ ∃ Wt, owes (c.tc : Thread nD τ) (0 : CellTallies nD τ sig (HIx 1)) Wt)
  X _ := iprop(emp)
  Y _ := iprop(emp)
  Z c := Pipeline.unscopedRest (Ix := HIx 1) (Name := ℕ) (U := UU) (Lvl := ℕ) spec1 c (W1 c)
  hentry c := by
    rw [Pipeline.ownSems0_none]
    have hsplit := Pipeline.arrays_of_unscopedBufs (pcfgs (F := F)) adm (pdats W1 W2 W3 W4) (p := 0) launch1.win launch1.arr_whole c (share1 W1 c) (W1 c) (A_eq1 W1 c)
    iintro ⟨⟨Hub, %Wt, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun _ _ => Or.inl trivial
      iexact HO
    isplitr; · iempintro
    iexact Hr
  hin c := by
    show iprop(_ ∗ _ ∗ Pipeline.scopedRest (Ix := HIx 1) (Name := ℕ) (U := UU) (Lvl := ℕ) (Val := Elt F) spec1 c)
      ⊢ (Pipeline.scopedRest (Ix := HIx 1) (Name := ℕ) (U := UU) (Lvl := ℕ) (Val := Elt F) spec1 c : sProp 𝕄)
    iintro ⟨-, -, Hr⟩; iexact Hr
  hout c := by
    rw [Pipeline.ownSems0_none]
    show (Pipeline.scopedRest (Ix := HIx 1) (Name := ℕ) (U := UU) (Lvl := ℕ) (Val := Elt F) spec1 c : sProp 𝕄)
      ⊢ iprop(emp ∗ emp ∗ Pipeline.scopedRest (Ix := HIx 1) (Name := ℕ) (U := UU) (Lvl := ℕ) (Val := Elt F) spec1 c)
    iintro Hr
    isplitr; · iempintro
    isplitr; · iempintro
    iexact Hr
  hexit c := by
    rw [Pipeline.unscopedBufs_split (Pipeline.pin (pcfgs (F := F)) adm) 0 launch1.win.arr_unscoped launch1.win.arr_inj c (Wout1 W1 c),
      Pipeline.arrays_eq (Pipeline.pin (pcfgs (F := F)) adm) (pdats W1 W2 W3 W4) 0 c launch1.arr_whole (share1 W1 c)]
    have E3 : (Pipeline.unscopedRest (Ix := HIx 1) (Name := ℕ) (U := UU) (Lvl := ℕ) spec1 c (W1 c) : sProp 𝕄)
        = Pipeline.unscopedRest (Ix := HIx 1) (Name := ℕ) (U := UU) (Lvl := ℕ) (Pipeline.pin (pcfgs (F := F)) adm 0).spec c (Wout1 W1 c) := (rest_Wout1 W1 c).symm
    have E4 : (bigSep Finset.univ fun w : Fin (Pipeline.pin (pcfgs (F := F)) adm 0).W =>
          (((c.tc : Thread nD τ).loc (Pipeline.arrRef (Pipeline.pin (pcfgs (F := F)) adm 0).spec w)) ↦{fullShare} (pdats W1 W2 W3 W4 0 c).arrAt w (Pipeline.pin (pcfgs (F := F)) adm 0).N : sProp 𝕄))
        = bigSep Finset.univ fun w : Fin (Pipeline.pin (pcfgs (F := F)) adm 0).W =>
          (((c.tc : Thread nD τ).loc (Pipeline.arrRef (Pipeline.pin (pcfgs (F := F)) adm 0).spec w)) ↦{fullShare} Wout1 W1 c (Pipeline.arrRef (Pipeline.pin (pcfgs (F := F)) adm 0).spec w) : sProp 𝕄) :=
      bigSep_congr fun w _ => by rw [show Wout1 W1 c (Pipeline.arrRef (Pipeline.pin (pcfgs (F := F)) adm 0).spec w) = (pdats W1 W2 W3 W4 0 c).arrAt w (Pipeline.pin (pcfgs (F := F)) adm 0).N from Wout1_arr W1 c w]
    iintro ⟨Ha, HO, -, Hr⟩
    imodintro
    isplitl [Ha Hr]
    · isplitl [Ha]
      · iapply (Entails.of_eq E4); iexact Ha
      · iapply (Entails.of_eq E3); iexact Hr
    · unfold Pipeline.Dat.owesAt Pipeline.owesWithin
      icases HO with ⟨%Wt, -, HO⟩; iexists Wt; iexact HO

/-- What the TensorCore's arrays hold after region 2: its result array at what the pipeline leaves, the rest as entered. -/
def Wout2 (c : Dev nD) : Wty (F := F) c :=
  Function.update (W2 c) (Pipeline.arrRef spec2 5) ((dat2 W2 c).arrAt 5 cfg2.N)

theorem Wout2_arr (c : Dev nD) (w : Fin cfg2.W) : Wout2 W2 c (Pipeline.arrRef spec2 w) = (dat2 W2 c).arrAt w cfg2.N := by
  unfold Wout2
  match w with
  | 0 => exact (Function.update_of_ne (by decide) _ _).trans (((dat2 W2 c).arrAt_in 0 rfl _).trans (A_eq2 W2 c 0)).symm
  | 1 => exact (Function.update_of_ne (by decide) _ _).trans (((dat2 W2 c).arrAt_in 1 rfl _).trans (A_eq2 W2 c 1)).symm
  | 2 => exact (Function.update_of_ne (by decide) _ _).trans (((dat2 W2 c).arrAt_in 2 rfl _).trans (A_eq2 W2 c 2)).symm
  | 3 => exact (Function.update_of_ne (by decide) _ _).trans (((dat2 W2 c).arrAt_in 3 rfl _).trans (A_eq2 W2 c 3)).symm
  | 4 => exact (Function.update_of_ne (by decide) _ _).trans (((dat2 W2 c).arrAt_in 4 rfl _).trans (A_eq2 W2 c 4)).symm
  | 5 => exact Function.update_self _ _ _

theorem rest_Wout2 (c : Dev nD) :
    (Pipeline.unscopedRest (Ix := HIx 1) (Name := ℕ) (U := UU) (Lvl := ℕ) spec2 c (Wout2 W2 c) : sProp 𝕄)
      = Pipeline.unscopedRest (Ix := HIx 1) (Name := ℕ) (U := UU) (Lvl := ℕ) spec2 c (W2 c) := by
  unfold Pipeline.unscopedRest
  refine bigSep_congr fun b hb => ?_
  have hne : b ≠ Pipeline.arrRef spec2 5 := fun e => (Finset.mem_sdiff.mp hb).2 (Finset.mem_image.mpr ⟨5, Finset.mem_univ _, e.symm⟩)
  unfold Wout2; rw [Function.update_of_ne hne]

def reg2 : RS W1 W2 W3 W4 1 where
  win := launch2.win.to₀
  block_pos := launch2.block_pos
  stage_whole := launch2.stage_whole
  K := PEmpty
  osem k := k.elim
  ho := Pipeline.OwnSemFacts.none _
  hbody c := body_obligation2 W2 c
  hwaits c := Pipeline.hwaits_of_owed_zero (pcfgs (F := F)) adm (pdats W1 W2 W3 W4) (none : HIx 1) (K (F := F)).L (K (F := F)).lev 1 (fun c t => owed2 W2 c t) c
  pre c := iprop(unscopedBufs c (W2 c) ∗ ∃ Wt, owes (c.tc : Thread nD τ) (0 : CellTallies nD τ sig (HIx 1)) Wt)
  post c := iprop(unscopedBufs c (Wout2 W2 c) ∗ ∃ Wt, owes (c.tc : Thread nD τ) (0 : CellTallies nD τ sig (HIx 1)) Wt)
  X _ := iprop(emp)
  Y _ := iprop(emp)
  Z c := Pipeline.unscopedRest (Ix := HIx 1) (Name := ℕ) (U := UU) (Lvl := ℕ) spec2 c (W2 c)
  hentry c := by
    rw [Pipeline.ownSems0_none]
    have hsplit := Pipeline.arrays_of_unscopedBufs (pcfgs (F := F)) adm (pdats W1 W2 W3 W4) (p := 1) launch2.win launch2.arr_whole c (share2 W2 c) (W2 c) (A_eq2 W2 c)
    iintro ⟨⟨Hub, %Wt, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun _ _ => Or.inl trivial
      iexact HO
    isplitr; · iempintro
    iexact Hr
  hin c := by
    show iprop(_ ∗ _ ∗ Pipeline.scopedRest (Ix := HIx 1) (Name := ℕ) (U := UU) (Lvl := ℕ) (Val := Elt F) spec2 c)
      ⊢ (Pipeline.scopedRest (Ix := HIx 1) (Name := ℕ) (U := UU) (Lvl := ℕ) (Val := Elt F) spec2 c : sProp 𝕄)
    iintro ⟨-, -, Hr⟩; iexact Hr
  hout c := by
    rw [Pipeline.ownSems0_none]
    show (Pipeline.scopedRest (Ix := HIx 1) (Name := ℕ) (U := UU) (Lvl := ℕ) (Val := Elt F) spec2 c : sProp 𝕄)
      ⊢ iprop(emp ∗ emp ∗ Pipeline.scopedRest (Ix := HIx 1) (Name := ℕ) (U := UU) (Lvl := ℕ) (Val := Elt F) spec2 c)
    iintro Hr
    isplitr; · iempintro
    isplitr; · iempintro
    iexact Hr
  hexit c := by
    rw [Pipeline.unscopedBufs_split (Pipeline.pin (pcfgs (F := F)) adm) 1 launch2.win.arr_unscoped launch2.win.arr_inj c (Wout2 W2 c),
      Pipeline.arrays_eq (Pipeline.pin (pcfgs (F := F)) adm) (pdats W1 W2 W3 W4) 1 c launch2.arr_whole (share2 W2 c)]
    have E3 : (Pipeline.unscopedRest (Ix := HIx 1) (Name := ℕ) (U := UU) (Lvl := ℕ) spec2 c (W2 c) : sProp 𝕄)
        = Pipeline.unscopedRest (Ix := HIx 1) (Name := ℕ) (U := UU) (Lvl := ℕ) (Pipeline.pin (pcfgs (F := F)) adm 1).spec c (Wout2 W2 c) := (rest_Wout2 W2 c).symm
    have E4 : (bigSep Finset.univ fun w : Fin (Pipeline.pin (pcfgs (F := F)) adm 1).W =>
          (((c.tc : Thread nD τ).loc (Pipeline.arrRef (Pipeline.pin (pcfgs (F := F)) adm 1).spec w)) ↦{fullShare} (pdats W1 W2 W3 W4 1 c).arrAt w (Pipeline.pin (pcfgs (F := F)) adm 1).N : sProp 𝕄))
        = bigSep Finset.univ fun w : Fin (Pipeline.pin (pcfgs (F := F)) adm 1).W =>
          (((c.tc : Thread nD τ).loc (Pipeline.arrRef (Pipeline.pin (pcfgs (F := F)) adm 1).spec w)) ↦{fullShare} Wout2 W2 c (Pipeline.arrRef (Pipeline.pin (pcfgs (F := F)) adm 1).spec w) : sProp 𝕄) :=
      bigSep_congr fun w _ => by rw [show Wout2 W2 c (Pipeline.arrRef (Pipeline.pin (pcfgs (F := F)) adm 1).spec w) = (pdats W1 W2 W3 W4 1 c).arrAt w (Pipeline.pin (pcfgs (F := F)) adm 1).N from Wout2_arr W2 c w]
    iintro ⟨Ha, HO, -, Hr⟩
    imodintro
    isplitl [Ha Hr]
    · isplitl [Ha]
      · iapply (Entails.of_eq E4); iexact Ha
      · iapply (Entails.of_eq E3); iexact Hr
    · unfold Pipeline.Dat.owesAt Pipeline.owesWithin
      icases HO with ⟨%Wt, -, HO⟩; iexists Wt; iexact HO

/-- What the TensorCore's arrays hold after region 3: its result array at what the pipeline leaves, the rest as entered. -/
def Wout3 (c : Dev nD) : Wty (F := F) c :=
  Function.update (W3 c) (Pipeline.arrRef spec3 5) ((dat3 W3 c).arrAt 5 cfg3.N)

theorem Wout3_arr (c : Dev nD) (w : Fin cfg3.W) : Wout3 W3 c (Pipeline.arrRef spec3 w) = (dat3 W3 c).arrAt w cfg3.N := by
  unfold Wout3
  match w with
  | 0 => exact (Function.update_of_ne (by decide) _ _).trans (((dat3 W3 c).arrAt_in 0 rfl _).trans (A_eq3 W3 c 0)).symm
  | 1 => exact (Function.update_of_ne (by decide) _ _).trans (((dat3 W3 c).arrAt_in 1 rfl _).trans (A_eq3 W3 c 1)).symm
  | 2 => exact (Function.update_of_ne (by decide) _ _).trans (((dat3 W3 c).arrAt_in 2 rfl _).trans (A_eq3 W3 c 2)).symm
  | 3 => exact (Function.update_of_ne (by decide) _ _).trans (((dat3 W3 c).arrAt_in 3 rfl _).trans (A_eq3 W3 c 3)).symm
  | 4 => exact (Function.update_of_ne (by decide) _ _).trans (((dat3 W3 c).arrAt_in 4 rfl _).trans (A_eq3 W3 c 4)).symm
  | 5 => exact Function.update_self _ _ _

theorem rest_Wout3 (c : Dev nD) :
    (Pipeline.unscopedRest (Ix := HIx 1) (Name := ℕ) (U := UU) (Lvl := ℕ) spec3 c (Wout3 W3 c) : sProp 𝕄)
      = Pipeline.unscopedRest (Ix := HIx 1) (Name := ℕ) (U := UU) (Lvl := ℕ) spec3 c (W3 c) := by
  unfold Pipeline.unscopedRest
  refine bigSep_congr fun b hb => ?_
  have hne : b ≠ Pipeline.arrRef spec3 5 := fun e => (Finset.mem_sdiff.mp hb).2 (Finset.mem_image.mpr ⟨5, Finset.mem_univ _, e.symm⟩)
  unfold Wout3; rw [Function.update_of_ne hne]

def reg3 : RS W1 W2 W3 W4 2 where
  win := launch3.win.to₀
  block_pos := launch3.block_pos
  stage_whole := launch3.stage_whole
  K := PEmpty
  osem k := k.elim
  ho := Pipeline.OwnSemFacts.none _
  hbody c := body_obligation3 W3 c
  hwaits c := Pipeline.hwaits_of_owed_zero (pcfgs (F := F)) adm (pdats W1 W2 W3 W4) (none : HIx 1) (K (F := F)).L (K (F := F)).lev 2 (fun c t => owed3 W3 c t) c
  pre c := iprop(unscopedBufs c (W3 c) ∗ ∃ Wt, owes (c.tc : Thread nD τ) (0 : CellTallies nD τ sig (HIx 1)) Wt)
  post c := iprop(unscopedBufs c (Wout3 W3 c) ∗ ∃ Wt, owes (c.tc : Thread nD τ) (0 : CellTallies nD τ sig (HIx 1)) Wt)
  X _ := iprop(emp)
  Y _ := iprop(emp)
  Z c := Pipeline.unscopedRest (Ix := HIx 1) (Name := ℕ) (U := UU) (Lvl := ℕ) spec3 c (W3 c)
  hentry c := by
    rw [Pipeline.ownSems0_none]
    have hsplit := Pipeline.arrays_of_unscopedBufs (pcfgs (F := F)) adm (pdats W1 W2 W3 W4) (p := 2) launch3.win launch3.arr_whole c (share3 W3 c) (W3 c) (A_eq3 W3 c)
    iintro ⟨⟨Hub, %Wt, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun _ _ => Or.inl trivial
      iexact HO
    isplitr; · iempintro
    iexact Hr
  hin c := by
    show iprop(_ ∗ _ ∗ Pipeline.scopedRest (Ix := HIx 1) (Name := ℕ) (U := UU) (Lvl := ℕ) (Val := Elt F) spec3 c)
      ⊢ (Pipeline.scopedRest (Ix := HIx 1) (Name := ℕ) (U := UU) (Lvl := ℕ) (Val := Elt F) spec3 c : sProp 𝕄)
    iintro ⟨-, -, Hr⟩; iexact Hr
  hout c := by
    rw [Pipeline.ownSems0_none]
    show (Pipeline.scopedRest (Ix := HIx 1) (Name := ℕ) (U := UU) (Lvl := ℕ) (Val := Elt F) spec3 c : sProp 𝕄)
      ⊢ iprop(emp ∗ emp ∗ Pipeline.scopedRest (Ix := HIx 1) (Name := ℕ) (U := UU) (Lvl := ℕ) (Val := Elt F) spec3 c)
    iintro Hr
    isplitr; · iempintro
    isplitr; · iempintro
    iexact Hr
  hexit c := by
    rw [Pipeline.unscopedBufs_split (Pipeline.pin (pcfgs (F := F)) adm) 2 launch3.win.arr_unscoped launch3.win.arr_inj c (Wout3 W3 c),
      Pipeline.arrays_eq (Pipeline.pin (pcfgs (F := F)) adm) (pdats W1 W2 W3 W4) 2 c launch3.arr_whole (share3 W3 c)]
    have E3 : (Pipeline.unscopedRest (Ix := HIx 1) (Name := ℕ) (U := UU) (Lvl := ℕ) spec3 c (W3 c) : sProp 𝕄)
        = Pipeline.unscopedRest (Ix := HIx 1) (Name := ℕ) (U := UU) (Lvl := ℕ) (Pipeline.pin (pcfgs (F := F)) adm 2).spec c (Wout3 W3 c) := (rest_Wout3 W3 c).symm
    have E4 : (bigSep Finset.univ fun w : Fin (Pipeline.pin (pcfgs (F := F)) adm 2).W =>
          (((c.tc : Thread nD τ).loc (Pipeline.arrRef (Pipeline.pin (pcfgs (F := F)) adm 2).spec w)) ↦{fullShare} (pdats W1 W2 W3 W4 2 c).arrAt w (Pipeline.pin (pcfgs (F := F)) adm 2).N : sProp 𝕄))
        = bigSep Finset.univ fun w : Fin (Pipeline.pin (pcfgs (F := F)) adm 2).W =>
          (((c.tc : Thread nD τ).loc (Pipeline.arrRef (Pipeline.pin (pcfgs (F := F)) adm 2).spec w)) ↦{fullShare} Wout3 W3 c (Pipeline.arrRef (Pipeline.pin (pcfgs (F := F)) adm 2).spec w) : sProp 𝕄) :=
      bigSep_congr fun w _ => by rw [show Wout3 W3 c (Pipeline.arrRef (Pipeline.pin (pcfgs (F := F)) adm 2).spec w) = (pdats W1 W2 W3 W4 2 c).arrAt w (Pipeline.pin (pcfgs (F := F)) adm 2).N from Wout3_arr W3 c w]
    iintro ⟨Ha, HO, -, Hr⟩
    imodintro
    isplitl [Ha Hr]
    · isplitl [Ha]
      · iapply (Entails.of_eq E4); iexact Ha
      · iapply (Entails.of_eq E3); iexact Hr
    · unfold Pipeline.Dat.owesAt Pipeline.owesWithin
      icases HO with ⟨%Wt, -, HO⟩; iexists Wt; iexact HO

/-- What the TensorCore's arrays hold after region 4: its result array at what the pipeline leaves, the rest as entered. -/
def Wout4 (c : Dev nD) : Wty (F := F) c :=
  Function.update (W4 c) (Pipeline.arrRef spec4 5) ((dat4 W4 c).arrAt 5 cfg4.N)

theorem Wout4_arr (c : Dev nD) (w : Fin cfg4.W) : Wout4 W4 c (Pipeline.arrRef spec4 w) = (dat4 W4 c).arrAt w cfg4.N := by
  unfold Wout4
  match w with
  | 0 => exact (Function.update_of_ne (by decide) _ _).trans (((dat4 W4 c).arrAt_in 0 rfl _).trans (A_eq4 W4 c 0)).symm
  | 1 => exact (Function.update_of_ne (by decide) _ _).trans (((dat4 W4 c).arrAt_in 1 rfl _).trans (A_eq4 W4 c 1)).symm
  | 2 => exact (Function.update_of_ne (by decide) _ _).trans (((dat4 W4 c).arrAt_in 2 rfl _).trans (A_eq4 W4 c 2)).symm
  | 3 => exact (Function.update_of_ne (by decide) _ _).trans (((dat4 W4 c).arrAt_in 3 rfl _).trans (A_eq4 W4 c 3)).symm
  | 4 => exact (Function.update_of_ne (by decide) _ _).trans (((dat4 W4 c).arrAt_in 4 rfl _).trans (A_eq4 W4 c 4)).symm
  | 5 => exact Function.update_self _ _ _

theorem rest_Wout4 (c : Dev nD) :
    (Pipeline.unscopedRest (Ix := HIx 1) (Name := ℕ) (U := UU) (Lvl := ℕ) spec4 c (Wout4 W4 c) : sProp 𝕄)
      = Pipeline.unscopedRest (Ix := HIx 1) (Name := ℕ) (U := UU) (Lvl := ℕ) spec4 c (W4 c) := by
  unfold Pipeline.unscopedRest
  refine bigSep_congr fun b hb => ?_
  have hne : b ≠ Pipeline.arrRef spec4 5 := fun e => (Finset.mem_sdiff.mp hb).2 (Finset.mem_image.mpr ⟨5, Finset.mem_univ _, e.symm⟩)
  unfold Wout4; rw [Function.update_of_ne hne]

def reg4 : RS W1 W2 W3 W4 3 where
  win := launch4.win.to₀
  block_pos := launch4.block_pos
  stage_whole := launch4.stage_whole
  K := PEmpty
  osem k := k.elim
  ho := Pipeline.OwnSemFacts.none _
  hbody c := body_obligation4 W4 c
  hwaits c := Pipeline.hwaits_of_owed_zero (pcfgs (F := F)) adm (pdats W1 W2 W3 W4) (none : HIx 1) (K (F := F)).L (K (F := F)).lev 3 (fun c t => owed4 W4 c t) c
  pre c := iprop(unscopedBufs c (W4 c) ∗ ∃ Wt, owes (c.tc : Thread nD τ) (0 : CellTallies nD τ sig (HIx 1)) Wt)
  post c := iprop(unscopedBufs c (Wout4 W4 c) ∗ ∃ Wt, owes (c.tc : Thread nD τ) (0 : CellTallies nD τ sig (HIx 1)) Wt)
  X _ := iprop(emp)
  Y _ := iprop(emp)
  Z c := Pipeline.unscopedRest (Ix := HIx 1) (Name := ℕ) (U := UU) (Lvl := ℕ) spec4 c (W4 c)
  hentry c := by
    rw [Pipeline.ownSems0_none]
    have hsplit := Pipeline.arrays_of_unscopedBufs (pcfgs (F := F)) adm (pdats W1 W2 W3 W4) (p := 3) launch4.win launch4.arr_whole c (share4 W4 c) (W4 c) (A_eq4 W4 c)
    iintro ⟨⟨Hub, %Wt, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun _ _ => Or.inl trivial
      iexact HO
    isplitr; · iempintro
    iexact Hr
  hin c := by
    show iprop(_ ∗ _ ∗ Pipeline.scopedRest (Ix := HIx 1) (Name := ℕ) (U := UU) (Lvl := ℕ) (Val := Elt F) spec4 c)
      ⊢ (Pipeline.scopedRest (Ix := HIx 1) (Name := ℕ) (U := UU) (Lvl := ℕ) (Val := Elt F) spec4 c : sProp 𝕄)
    iintro ⟨-, -, Hr⟩; iexact Hr
  hout c := by
    rw [Pipeline.ownSems0_none]
    show (Pipeline.scopedRest (Ix := HIx 1) (Name := ℕ) (U := UU) (Lvl := ℕ) (Val := Elt F) spec4 c : sProp 𝕄)
      ⊢ iprop(emp ∗ emp ∗ Pipeline.scopedRest (Ix := HIx 1) (Name := ℕ) (U := UU) (Lvl := ℕ) (Val := Elt F) spec4 c)
    iintro Hr
    isplitr; · iempintro
    isplitr; · iempintro
    iexact Hr
  hexit c := by
    rw [Pipeline.unscopedBufs_split (Pipeline.pin (pcfgs (F := F)) adm) 3 launch4.win.arr_unscoped launch4.win.arr_inj c (Wout4 W4 c),
      Pipeline.arrays_eq (Pipeline.pin (pcfgs (F := F)) adm) (pdats W1 W2 W3 W4) 3 c launch4.arr_whole (share4 W4 c)]
    have E3 : (Pipeline.unscopedRest (Ix := HIx 1) (Name := ℕ) (U := UU) (Lvl := ℕ) spec4 c (W4 c) : sProp 𝕄)
        = Pipeline.unscopedRest (Ix := HIx 1) (Name := ℕ) (U := UU) (Lvl := ℕ) (Pipeline.pin (pcfgs (F := F)) adm 3).spec c (Wout4 W4 c) := (rest_Wout4 W4 c).symm
    have E4 : (bigSep Finset.univ fun w : Fin (Pipeline.pin (pcfgs (F := F)) adm 3).W =>
          (((c.tc : Thread nD τ).loc (Pipeline.arrRef (Pipeline.pin (pcfgs (F := F)) adm 3).spec w)) ↦{fullShare} (pdats W1 W2 W3 W4 3 c).arrAt w (Pipeline.pin (pcfgs (F := F)) adm 3).N : sProp 𝕄))
        = bigSep Finset.univ fun w : Fin (Pipeline.pin (pcfgs (F := F)) adm 3).W =>
          (((c.tc : Thread nD τ).loc (Pipeline.arrRef (Pipeline.pin (pcfgs (F := F)) adm 3).spec w)) ↦{fullShare} Wout4 W4 c (Pipeline.arrRef (Pipeline.pin (pcfgs (F := F)) adm 3).spec w) : sProp 𝕄) :=
      bigSep_congr fun w _ => by rw [show Wout4 W4 c (Pipeline.arrRef (Pipeline.pin (pcfgs (F := F)) adm 3).spec w) = (pdats W1 W2 W3 W4 3 c).arrAt w (Pipeline.pin (pcfgs (F := F)) adm 3).N from Wout4_arr W4 c w]
    iintro ⟨Ha, HO, -, Hr⟩
    imodintro
    isplitl [Ha Hr]
    · isplitl [Ha]
      · iapply (Entails.of_eq E4); iexact Ha
      · iapply (Entails.of_eq E3); iexact Hr
    · unfold Pipeline.Dat.owesAt Pipeline.owesWithin
      icases HO with ⟨%Wt, -, HO⟩; iexists Wt; iexact HO

end Regions

/-! ## The TensorCore's arrays as one set -/

/-- Every array @main names, as device buffers. -/
def Sall : Finset (DevRef τ sig) :=
  (Finset.univ.filter fun b : Ref sig .tc => ¬ b.isScoped).map ⟨Proc.devRef (sig := sig) (.tc : Proc τ), Proc.devRef_injective _⟩

theorem mem_Sall (b : Ref sig .tc) (h : b.isScoped = false) : Proc.devRef (τ := τ) .tc b ∈ Sall :=
  Finset.mem_map_of_mem _ (Finset.mem_filter.mpr ⟨Finset.mem_univ _, by simp [h]⟩)

omit [FloatOps F] in
theorem unscoped_held (d : Dev nD) (V : Valuation τ sig (Elt F)) :
    (unscopedBufs d (fun b => V (Proc.devRef .tc b)) : sProp 𝕄) = held (T d) Sall V := by
  unfold unscopedBufs held Sall
  rw [BI.bigSep_map]
  rfl

/-- @main is the six host stretches with the gather's call and the four regions between them. -/
theorem main_eq (d : Dev nD) : main (F := F) d =
    (StableHlo.seq ops0 >>= fun _ => (sc (F := F)).run d 0 >>= fun _ => StableHlo.seq ops1 >>= fun _ => regionCall 0 >>= fun _ =>
      StableHlo.seq ops2 >>= fun _ => regionCall 1 >>= fun _ => StableHlo.seq ops3 >>= fun _ => regionCall 2 >>= fun _ =>
      StableHlo.seq ops4 >>= fun _ => regionCall 3 >>= fun _ => StableHlo.seq ops5 >>= fun _ => pure ⟨⟩) := by
  chain_rfl

/-! ## The host stretches touch @main's arrays only, and allocate nothing -/

omit [FloatOps F] in
theorem update_devRef (V : Valuation τ sig (Elt F)) (r : Ref sig .tc) (x : (Proc.devRef (τ := τ) .tc r).ty.Contents (Elt F)) :
    (fun b : Ref sig .tc => Function.update V (Proc.devRef .tc r) x (Proc.devRef .tc b))
      = Function.update (fun b : Ref sig .tc => V (Proc.devRef .tc b)) r x := by
  funext b
  by_cases h : b = r
  · subst h; rw [Function.update_self, Function.update_self]
  · rw [Function.update_of_ne h, Function.update_of_ne (StableHlo.devRef_ne_of_ne h)]

theorem bufs_sub_Sall (op : HloOp τ sig (Elt F)) (h : op.bufs ⊆ StableHlo.tcRefs τ sig) : op.bufs ⊆ Sall := by
  intro b hb
  obtain ⟨r, -, rfl⟩ := Finset.mem_map.mp (h hb)
  exact mem_Sall r (op.no_scoped _ hb)

theorem hS0 : ∀ op ∈ (ops0 : List (HloOp τ sig (Elt F))), op.bufs ⊆ Sall := by
  intro op h; refine bufs_sub_Sall op ?_
  simp only [ops0, List.mem_cons, List.not_mem_nil, or_false] at h
  rcases h with rfl | rfl | rfl | rfl <;> simp
theorem hf0 : ∀ op ∈ (ops0 : List (HloOp τ sig (Elt F))), op.fresh = ∅ := by
  intro op h; simp only [ops0, List.mem_cons, List.not_mem_nil, or_false] at h
  rcases h with rfl | rfl | rfl | rfl <;> rfl
theorem hS1 : ∀ op ∈ (ops1 : List (HloOp τ sig (Elt F))), op.bufs ⊆ Sall := by
  intro op h; refine bufs_sub_Sall op ?_
  simp only [ops1, List.mem_cons, List.not_mem_nil, or_false] at h
  rcases h with rfl | rfl <;> simp
theorem hf1 : ∀ op ∈ (ops1 : List (HloOp τ sig (Elt F))), op.fresh = ∅ := by
  intro op h; simp only [ops1, List.mem_cons, List.not_mem_nil, or_false] at h
  rcases h with rfl | rfl <;> rfl
theorem hS2 : ∀ op ∈ (ops2 : List (HloOp τ sig (Elt F))), op.bufs ⊆ Sall := by
  intro op h; refine bufs_sub_Sall op ?_
  simp only [ops2, List.mem_cons, List.not_mem_nil, or_false] at h
  rcases h with rfl | rfl | rfl <;> simp
theorem hf2 : ∀ op ∈ (ops2 : List (HloOp τ sig (Elt F))), op.fresh = ∅ := by
  intro op h; simp only [ops2, List.mem_cons, List.not_mem_nil, or_false] at h
  rcases h with rfl | rfl | rfl <;> rfl
theorem hS3 : ∀ op ∈ (ops3 : List (HloOp τ sig (Elt F))), op.bufs ⊆ Sall := by
  intro op h; refine bufs_sub_Sall op ?_
  simp only [ops3, List.mem_cons, List.not_mem_nil, or_false] at h
  rcases h with rfl | rfl | rfl | rfl <;> simp
theorem hf3 : ∀ op ∈ (ops3 : List (HloOp τ sig (Elt F))), op.fresh = ∅ := by
  intro op h; simp only [ops3, List.mem_cons, List.not_mem_nil, or_false] at h
  rcases h with rfl | rfl | rfl | rfl <;> rfl
theorem hS4 : ∀ op ∈ (ops4 : List (HloOp τ sig (Elt F))), op.bufs ⊆ Sall := by
  intro op h; refine bufs_sub_Sall op ?_
  simp only [ops4, List.mem_cons, List.not_mem_nil, or_false] at h
  rcases h with rfl | rfl | rfl | rfl <;> simp
theorem hf4 : ∀ op ∈ (ops4 : List (HloOp τ sig (Elt F))), op.fresh = ∅ := by
  intro op h; simp only [ops4, List.mem_cons, List.not_mem_nil, or_false] at h
  rcases h with rfl | rfl | rfl | rfl <;> rfl
theorem hS5 : ∀ op ∈ (ops5 : List (HloOp τ sig (Elt F))), op.bufs ⊆ Sall := by
  intro op h; refine bufs_sub_Sall op ?_
  simp only [ops5, List.mem_cons, List.not_mem_nil, or_false] at h
  rcases h with rfl | rfl | rfl <;> simp
theorem hf5 : ∀ op ∈ (ops5 : List (HloOp τ sig (Elt F))), op.fresh = ∅ := by
  intro op h; simp only [ops5, List.mem_cons, List.not_mem_nil, or_false] at h
  rcases h with rfl | rfl | rfl <;> rfl

/-! ## The arrays' contents, stage by stage -/

section Main

variable (m : (ℓ : Loc nD τ sig) → Buf (Elt F) ℓ) (ρ : Dev nD → PrngReg)

abbrev tbl' : DevRef τ sig := Proc.devRef .tc (main_arg0 : Ref sig .tc)
abbrev idx' : DevRef τ sig := Proc.devRef .tc (main_v1 : Ref sig .tc)
abbrev out' : DevRef τ sig := Proc.devRef .tc (main_v2 : Ref sig .tc)

/-- As launched; -/
def V0 (d : Dev nD) : Valuation τ sig (Elt F) := fun b => m (d, b)
/-- the index lists joined and padded; -/
def V1 (d : Dev nD) : Valuation τ sig (Elt F) := StableHlo.after ops0 (V0 m d)
/-- the padded index list, -/
def Iv (d : Dev nD) : Buf (Elt F) (idxLoc d) := V1 m d idx'
/-- the rows it names gathered; -/
def V2 (d : Dev nD) : Valuation τ sig (Elt F) := Function.update (V1 m d) out' (gathered (m (tblLoc d)) (Iv m d))
def V3 (d : Dev nD) : Valuation τ sig (Elt F) := StableHlo.after ops1 (V2 m d)
def Wa (c : Dev nD) : Wty (F := F) c := fun b => V3 m c (Proc.devRef .tc b)
/-- the first relation's messages; -/
def V4 (d : Dev nD) : Valuation τ sig (Elt F) := Function.update (V3 m d) (Proc.devRef .tc (Pipeline.arrRef spec1 5)) ((dat1 (Wa m) d).arrAt 5 cfg1.N)
def V5 (d : Dev nD) : Valuation τ sig (Elt F) := StableHlo.after ops2 (V4 m d)
def Wb (c : Dev nD) : Wty (F := F) c := fun b => V5 m c (Proc.devRef .tc b)
def V6 (d : Dev nD) : Valuation τ sig (Elt F) := Function.update (V5 m d) (Proc.devRef .tc (Pipeline.arrRef spec2 5)) ((dat2 (Wb m) d).arrAt 5 cfg2.N)
def V7 (d : Dev nD) : Valuation τ sig (Elt F) := StableHlo.after ops3 (V6 m d)
def Wc (c : Dev nD) : Wty (F := F) c := fun b => V7 m c (Proc.devRef .tc b)
def V8 (d : Dev nD) : Valuation τ sig (Elt F) := Function.update (V7 m d) (Proc.devRef .tc (Pipeline.arrRef spec3 5)) ((dat3 (Wc m) d).arrAt 5 cfg3.N)
def V9 (d : Dev nD) : Valuation τ sig (Elt F) := StableHlo.after ops4 (V8 m d)
def Wd (c : Dev nD) : Wty (F := F) c := fun b => V9 m c (Proc.devRef .tc b)
def V10 (d : Dev nD) : Valuation τ sig (Elt F) := Function.update (V9 m d) (Proc.devRef .tc (Pipeline.arrRef spec4 5)) ((dat4 (Wd m) d).arrAt 5 cfg4.N)
/-- the four message arrays joined, and the index lists joined again. -/
def V11 (d : Dev nD) : Valuation τ sig (Elt F) := StableHlo.after ops5 (V10 m d)

theorem Wout1_eq (d : Dev nD) : Wout1 (Wa m) d = fun b => V4 m d (Proc.devRef .tc b) := (update_devRef (V3 m d) _ _).symm
theorem Wout2_eq (d : Dev nD) : Wout2 (Wb m) d = fun b => V6 m d (Proc.devRef .tc b) := (update_devRef (V5 m d) _ _).symm
theorem Wout3_eq (d : Dev nD) : Wout3 (Wc m) d = fun b => V8 m d (Proc.devRef .tc b) := (update_devRef (V7 m d) _ _).symm
theorem Wout4_eq (d : Dev nD) : Wout4 (Wd m) d = fun b => V10 m d (Proc.devRef .tc b) := (update_devRef (V9 m d) _ _).symm

end Main

end Cert.Proof.K

end
-- ==== Proof.K.Main.lean ====
/-
  @main of the word-level kernel on the TensorCore: the host stretches over the one set of its arrays, the gather's call
  (the table, the padded index list and the result array handed to the two SparseCores' tiles and taken back with the
  named rows gathered), and the four perceptron regions, each entered from the arrays as the stretch before it left them.
-/
import proofs.«214605_g64536178589837_cont_9to1_m_912_2_alg».proof.Proof.K.Regions

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

section Main

variable (m : (ℓ : Loc nD τ sig) → Buf (Elt F) ℓ) (ρ : Dev nD → PrngReg)

/-! ## The gather's three arrays out of the set, and back -/

abbrev T3 : Finset (DevRef τ sig) := {tbl', idx', out'}

theorem T3_sub : (T3 : Finset (DevRef τ sig)) ⊆ Sall := by
  intro b hb; simp only [T3, Finset.mem_insert, Finset.mem_singleton] at hb
  rcases hb with rfl | rfl | rfl <;> exact mem_Sall _ rfl

omit [FloatOps F] in
theorem held3 (d : Dev nD) (V : Valuation τ sig (Elt F)) :
    (held (T d) T3 V : sProp 𝕄) = iprop((tblLoc d ↦{fullShare} V tbl') ∗ (idxLoc d ↦{fullShare} V idx') ∗ (outLoc d ↦{fullShare} V out')) := by
  unfold held T3
  rw [SparseCore.bigSep_insert' (by decide), SparseCore.bigSep_insert' (by decide), bigSep_singleton]

/-- The table is not among what the first stretch writes. -/
theorem V1_tbl (d : Dev nD) : V1 m d tbl' = m (tblLoc d) :=
  StableHlo.after_of_writes_sub (W := [main_v0, main_c, main_call0_v0, main_v1]) ops0 (V0 m d) (by simp [ops0]) (by decide)

theorem V2_tbl (d : Dev nD) : V2 m d tbl' = m (tblLoc d) := (Function.update_of_ne (by decide) _ _).trans (V1_tbl m d)
theorem V2_idx (d : Dev nD) : V2 m d idx' = Iv m d := Function.update_of_ne (by decide) _ _
theorem V2_out (d : Dev nD) : V2 m d out' = gathered (m (tblLoc d)) (Iv m d) := Function.update_self _ _ _
theorem held_rest_V2 (d : Dev nD) : (held (T d) (Sall \ T3) (V2 m d) : sProp 𝕄) = held (T d) (Sall \ T3) (V1 m d) :=
  StableHlo.held_congr (T d) fun b hb => Function.update_of_ne (fun e => (Finset.mem_sdiff.mp hb).2 (by rw [e]; simp [T3])) _ _

/-- The gather's call: the three arrays to the tiles, and back with the rows gathered. -/
theorem wp_gather (κ : GSem nD τ sig → ℕ) (d : Dev nD) {α : Type}
    (k : PUnit → Prog (TpuEff nD τ sig (Elt F) (SparseCore.Sig (ΛP (F := F)) 1) .tc) α) (Q : α → sProp 𝕄) :
    iprop((K (F := F)).ctx EH (P m (Iv m)) κ ∗ (K (F := F)).tcSt EH d 0 ∗ boundary (T d) ∗ held (T d) Sall (V1 m d)
        ∗ (iprop((K (F := F)).tcSt EH d 1 ∗ boundary (T d) ∗ held (T d) Sall (V2 m d)) -∗ wp frame (wpE ((K (F := F)).defs (D (F := F))) 𝒱 (T d) none) Set.univ (k ⟨⟩) Q))
      ⊢ wp frame (wpE ((K (F := F)).defs (D (F := F))) 𝒱 (T d) none) Set.univ ((sc (F := F)).run d 0 >>= k) Q := by
  rw [StableHlo.held_sub_split (T d) T3_sub (V1 m d), held3, V1_tbl, show V1 m d idx' = Iv m d from rfl]
  iintro ⟨#Hctx, Hst, Hb, ⟨⟨Htbl, Hidx, Hout⟩, Hrest⟩, Hk⟩
  rw [wp_bind]
  iapply (fupd_wp frame (wpE ((K (F := F)).defs (D (F := F))) 𝒱 (T d) none) Set.univ _ _)
  imod (call_split m (Iv m) d) $$ [Htbl Hidx Hout] with ⟨Hsts, Hjoin⟩
  · isplitl [Htbl]; · iexact Htbl
    isplitl [Hidx]; · iexact Hidx
    iexists _; iexact Hout
  imodintro
  iapply ((K (F := F)).wp_run (D (F := F)) 𝒱 (EH := EH) (P := P m (Iv m)) κ d 0)
  isplitr; · iexact Hctx
  isplitl [Hst]; · iexact Hst
  isplitl [Hsts]; · iexact Hsts
  iintro ⟨Hst, Hdn⟩
  ihave H := Hjoin $$ Hdn
  icases H with ⟨Htbl, Hidx, Hout⟩
  iapply Hk
  isplitl [Hst]; · iexact Hst
  isplitl [Hb]; · iexact Hb
  rw [StableHlo.held_sub_split (T d) T3_sub (V2 m d), held3, V2_tbl, V2_idx, V2_out, held_rest_V2]
  isplitl [Htbl Hidx Hout]
  · isplitl [Htbl]; · iexact Htbl
    isplitl [Hidx]; · iexact Hidx
    iexact Hout
  iexact Hrest

/-! ## The four regions, over the arrays as one set -/

/-- Region 1: from the arrays at their contents before it to the same with its result array written. -/
theorem wp_region1 (d : Dev nD) {α : Type} (k : PUnit → Prog (TpuEff nD τ sig (Elt F) (SparseCore.Sig (ΛP (F := F)) 1) .tc) α) (Q : α → sProp 𝕄) :
    iprop((iprop(boundary (T d) ∗ held (T d) Sall (V4 m d) ∗ ∃ Wt, owes (T d) (0 : CellTallies nD τ sig (HIx 1)) Wt) -∗ wp frame (wpE ((K (F := F)).defs (D (F := F))) 𝒱 (T d) none) Set.univ (k ⟨⟩) Q)
        ∗ boundary (T d) ∗ held (T d) Sall (V3 m d) ∗ (∃ Wt, owes (T d) (0 : CellTallies nD τ sig (HIx 1)) Wt) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ (regionCall 0 >>= k) Q := by
  have hpre : (held (T d) Sall (V3 m d) : sProp 𝕄) ⊢ unscopedBufs d (Wa m d) := Entails.of_eq (unscoped_held d (V3 m d)).symm
  have hpost : (unscopedBufs d (Wout1 (Wa m) d) : sProp 𝕄) ⊢ held (T d) Sall (V4 m d) := by
    rw [Wout1_eq, unscoped_held]
  iintro ⟨Hk, Hb, Hh, HO, Hla, Hg, Ht⟩
  iapply (wp_regionCall (Wa m) (Wb m) (Wc m) (Wd m) 0 (reg1 (Wa m) (Wb m) (Wc m) (Wd m)) d k Q)
  dsimp only [reg1]
  isplitl [Hk]
  · iintro ⟨Hb, Hub, HO⟩
    iapply Hk
    isplitl [Hb]; · iexact Hb
    isplitl [Hub]
    · iapply hpost; iexact Hub
    · iexact HO
  isplitl [Hb]; · iexact Hb
  isplitl [Hh HO]
  · isplitl [Hh]
    · iapply hpre; iexact Hh
    · iexact HO
  isplitl [Hla]; · iexact Hla
  isplitl [Hg]; · iexact Hg
  iexact Ht

/-- Region 2: from the arrays at their contents before it to the same with its result array written. -/
theorem wp_region2 (d : Dev nD) {α : Type} (k : PUnit → Prog (TpuEff nD τ sig (Elt F) (SparseCore.Sig (ΛP (F := F)) 1) .tc) α) (Q : α → sProp 𝕄) :
    iprop((iprop(boundary (T d) ∗ held (T d) Sall (V6 m d) ∗ ∃ Wt, owes (T d) (0 : CellTallies nD τ sig (HIx 1)) Wt) -∗ wp frame (wpE ((K (F := F)).defs (D (F := F))) 𝒱 (T d) none) Set.univ (k ⟨⟩) Q)
        ∗ boundary (T d) ∗ held (T d) Sall (V5 m d) ∗ (∃ Wt, owes (T d) (0 : CellTallies nD τ sig (HIx 1)) Wt) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ (regionCall 1 >>= k) Q := by
  have hpre : (held (T d) Sall (V5 m d) : sProp 𝕄) ⊢ unscopedBufs d (Wb m d) := Entails.of_eq (unscoped_held d (V5 m d)).symm
  have hpost : (unscopedBufs d (Wout2 (Wb m) d) : sProp 𝕄) ⊢ held (T d) Sall (V6 m d) := by
    rw [Wout2_eq, unscoped_held]
  iintro ⟨Hk, Hb, Hh, HO, Hla, Hg, Ht⟩
  iapply (wp_regionCall (Wa m) (Wb m) (Wc m) (Wd m) 1 (reg2 (Wa m) (Wb m) (Wc m) (Wd m)) d k Q)
  dsimp only [reg2]
  isplitl [Hk]
  · iintro ⟨Hb, Hub, HO⟩
    iapply Hk
    isplitl [Hb]; · iexact Hb
    isplitl [Hub]
    · iapply hpost; iexact Hub
    · iexact HO
  isplitl [Hb]; · iexact Hb
  isplitl [Hh HO]
  · isplitl [Hh]
    · iapply hpre; iexact Hh
    · iexact HO
  isplitl [Hla]; · iexact Hla
  isplitl [Hg]; · iexact Hg
  iexact Ht

/-- Region 3: from the arrays at their contents before it to the same with its result array written. -/
theorem wp_region3 (d : Dev nD) {α : Type} (k : PUnit → Prog (TpuEff nD τ sig (Elt F) (SparseCore.Sig (ΛP (F := F)) 1) .tc) α) (Q : α → sProp 𝕄) :
    iprop((iprop(boundary (T d) ∗ held (T d) Sall (V8 m d) ∗ ∃ Wt, owes (T d) (0 : CellTallies nD τ sig (HIx 1)) Wt) -∗ wp frame (wpE ((K (F := F)).defs (D (F := F))) 𝒱 (T d) none) Set.univ (k ⟨⟩) Q)
        ∗ boundary (T d) ∗ held (T d) Sall (V7 m d) ∗ (∃ Wt, owes (T d) (0 : CellTallies nD τ sig (HIx 1)) Wt) ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE ((K (F := F)).defs (D (F := F))) 𝒱 (T d) none) Set.univ (regionCall 2 >>= k) Q := by
  have hpre : (held (T d) Sall (V7 m d) : sProp 𝕄) ⊢ unscopedBufs d (Wc m d) := Entails.of_eq (unscoped_held d (V7 m d)).symm
  have hpost : (unscopedBufs d (Wout3 (Wc m) d) : sProp 𝕄) ⊢ held (T d) Sall (V8 m d) := by
    rw [Wout3_eq, unscoped_held]
  iintro ⟨Hk, Hb, Hh, HO, Hla, Hg, Ht⟩
  iapply (wp_regionCall (Wa m) (Wb m) (Wc m) (Wd m) 2 (reg3 (Wa m) (Wb m) (Wc m) (Wd m)) d k Q)
  dsimp only [reg3]
  isplitl [Hk]
  · iintro ⟨Hb, Hub, HO⟩
    iapply Hk
    isplitl [Hb]; · iexact Hb
    isplitl [Hub]
    · iapply hpost; iexact Hub
    · iexact HO
  isplitl [Hb]; · iexact Hb
  isplitl [Hh HO]
  · isplitl [Hh]
    · iapply hpre; iexact Hh
    · iexact HO
  isplitl [Hla]; · iexact Hla
  isplitl [Hg]; · iexact Hg
  iexact Ht

/-- Region 4: from the arrays at their contents before it to the same with its result array written. -/
theorem wp_region4 (d : Dev nD) {α : Type} (k : PUnit → Prog (TpuEff nD τ sig (Elt F) (SparseCore.Sig (ΛP (F := F)) 1) .tc) α) (Q : α → sProp 𝕄) :
    iprop((iprop(boundary (T d) ∗ held (T d) Sall (V10 m d) ∗ ∃ Wt, owes (T d) (0 : CellTallies nD τ sig (HIx 1)) Wt) -∗ wp frame (wpE ((K (F := F)).defs (D (F := F))) 𝒱 (T d) none) Set.univ (k ⟨⟩) Q)
        ∗ boundary (T d) ∗ held (T d) Sall (V9 m d) ∗ (∃ Wt, owes (T d) (0 : CellTallies nD τ sig (HIx 1)) Wt) ∗ levAts (K (F := F)).L (K (F := F)).lev
        ∗ Pipeline.cellsGhost (Pipeline.pin (pcfgs (F := F)) adm) EP 3 d ∗ Pipeline.toksInit (Pipeline.pin (pcfgs (F := F)) adm) EP 3 d)
      ⊢ wp frame (wpE ((K (F := F)).defs (D (F := F))) 𝒱 (T d) none) Set.univ (regionCall 3 >>= k) Q := by
  have hpre : (held (T d) Sall (V9 m d) : sProp 𝕄) ⊢ unscopedBufs d (Wd m d) := Entails.of_eq (unscoped_held d (V9 m d)).symm
  have hpost : (unscopedBufs d (Wout4 (Wd m) d) : sProp 𝕄) ⊢ held (T d) Sall (V10 m d) := by
    rw [Wout4_eq, unscoped_held]
  iintro ⟨Hk, Hb, Hh, HO, Hla, Hg, Ht⟩
  iapply (wp_regionCall (Wa m) (Wb m) (Wc m) (Wd m) 3 (reg4 (Wa m) (Wb m) (Wc m) (Wd m)) d k Q)
  dsimp only [reg4]
  isplitl [Hk]
  · iintro ⟨Hb, Hub, HO⟩
    iapply Hk
    isplitl [Hb]; · iexact Hb
    isplitl [Hub]
    · iapply hpost; iexact Hub
    · iexact HO
  isplitl [Hb]; · iexact Hb
  isplitl [Hh HO]
  · isplitl [Hh]
    · iapply hpre; iexact Hh
    · iexact HO
  isplitl [Hla]; · iexact Hla
  isplitl [Hg]; · iexact Hg
  iexact Ht

end Main

end Cert.Proof.K

end
-- ==== Proof.K.Run.lean ====
/-
  The word-level kernel's run: @main's proof on the TensorCore assembled from the stretches, the gather and the regions;
  the launch element of the ghost state (the handshakes' rounds, the pipelines' rounds funded per region, nothing for
  the tiles' plain copies); how the final assertion reads every array off the final memory; and the launch theorem
  applied to them.
-/
import proofs.«214605_g64536178589837_cont_9to1_m_912_2_alg».proof.Proof.K.Main

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

section Run

variable (m : (ℓ : Loc nD τ sig) → Buf (Elt F) ℓ) (ρ : Dev nD → PrngReg)

set_option allowUnsafeReducibility true in
attribute [local reducible] V1 V3 V5 V7 V9 V11

/-! ## What the launch deals the regions -/

/-- The four pipelines' ghost state on a device: what each region allocates its staging cells' invariants from. -/
def G (d : Dev nD) : sProp 𝕄 :=
  bigSep Finset.univ fun p : Fin 4 =>
    iprop(Pipeline.cellsGhost (Pipeline.pin (pcfgs (F := F)) adm) EP p d ∗ Pipeline.toksInit (Pipeline.pin (pcfgs (F := F)) adm) EP p d)

theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)
      ∗ (Pipeline.cellsGhost (Pipeline.pin (pcfgs (F := F)) adm) EP 2 d ∗ Pipeline.toksInit (Pipeline.pin (pcfgs (F := F)) adm) EP 2 d)
      ∗ (Pipeline.cellsGhost (Pipeline.pin (pcfgs (F := F)) adm) EP 3 d ∗ Pipeline.toksInit (Pipeline.pin (pcfgs (F := F)) adm) EP 3 d)) := by
  unfold G
  rw [show (Finset.univ : Finset (Fin 4)) = {0, 1, 2, 3} by decide, SparseCore.bigSep_insert' (by decide), SparseCore.bigSep_insert' (by decide),
    SparseCore.bigSep_insert' (by decide), bigSep_singleton]

/-! ## After the one call the TensorCore owes nothing, and every recorded wait sits below the bound -/

theorem wbelow_any (d : Dev nD) (W : Waits sig (HIx 1)) : (K (F := F)).WBelow (T d) W (8 * 1) := by
  intro p _
  rcases hp : p.2 with _ | q
  · exact Nat.zero_le _
  · have h := (K (F := F)).lev_some_le (T d, p.1) q
    have hq : q.val = 0 := by omega
    omega

theorem tcSt_owes (d : Dev nD) :
    ((K (F := F)).tcSt EH d 1 : sProp 𝕄)
      ⊢ iprop((∃ W, owes (T d) (0 : CellTallies nD τ sig (HIx 1)) W) ∗ ((∃ W, owes (T d) (0 : CellTallies nD τ sig (HIx 1)) W) -∗ (K (F := F)).tcSt EH d 1)) := by
  unfold SparseCore.Cfg.tcSt
  rw [(K (F := F)).Otc_end d (le_refl 1)]
  iintro ⟨⟨%W, -, HO⟩, Hrest⟩
  isplitl [HO]; · iexists W; iexact HO
  iintro ⟨%W', HO'⟩
  isplitl [HO']
  · iexists W'; isplitr; · ipureintro; exact wbelow_any d W'
    iexact HO'
  iexact Hrest

/-! ## @main -/

/-- What @main leaves the claim: every array at the end of the chain. -/
abbrev FIN (d : Dev nD) : sProp 𝕄 := held (T d) Sall (V11 m d)

theorem hmain (κ : GSem nD τ sig → ℕ) (d : Dev nD) :
    iprop((K (F := F)).ctx EH (P m (Iv m)) κ ∗ (K (F := F)).tcSt EH d 0 ∗ (K (F := F)).tcRes m ρ d ∗ G (F := F) d)
      ⊢ wp frame (wpE ((K (F := F)).defs (D (F := F))) 𝒱 (T d) none) Set.univ (main d) fun _ => iprop((K (F := F)).tcSt EH d 1 ∗ FIN m d) := by
  rw [main_eq]
  unfold SparseCore.Cfg.tcRes
  have e0 : (unscopedBufs d (fun b : Ref sig .tc => m ((SparseCore.T d : Thread nD τ).loc b)) : sProp 𝕄) = held (SparseCore.T d) Sall (V0 m d) := unscoped_held d (V0 m d)
  rw [e0, G_eq]
  iintro ⟨#Hctx, Hst, ⟨Hb, Hh, -, -⟩, ⟨Hg0, Ht0⟩, ⟨Hg1, Ht1⟩, ⟨Hg2, Ht2⟩, ⟨Hg3, Ht3⟩⟩
  -- the index lists joined and padded
  iapply (StableHlo.wp_seq (𝒱 := 𝒱) (bd := none) (E := Set.univ) d Sall _ ops0 hS0 hf0 (V0 m d)) $$ [Hb Hh]
  · isplitl [Hb]; · iexact Hb
    iexact Hh
  iintro ⟨Hb, Hh⟩
  -- the gather
  iapply (wp_gather m κ d _ _)
  isplitr; · iexact Hctx
  isplitl [Hst]; · iexact Hst
  isplitl [Hb]; · iexact Hb
  isplitl [Hh]; · iexact Hh
  iintro ⟨Hst, Hb, Hh⟩
  ihave Hso := (tcSt_owes d) $$ Hst
  icases Hso with ⟨HO, Hback⟩
  -- the first relation
  iapply (StableHlo.wp_seq (𝒱 := 𝒱) (bd := none) (E := Set.univ) d Sall _ ops1 hS1 hf1 (V2 m d)) $$ [Hb Hh]
  · isplitl [Hb]; · iexact Hb
    iexact Hh
  iintro ⟨Hb, Hh⟩
  ihave Hla := (SparseCore.Cfg.ctx_levAts κ) $$ Hctx
  iapply (wp_region1 m d _ _)
  isplitr [Hb Hh HO Hla Hg0 Ht0]
  swap
  · isplitl [Hb]; · iexact Hb
    isplitl [Hh]; · iexact Hh
    isplitl [HO]; · iexact HO
    isplitl [Hla]; · iexact Hla
    isplitl [Hg0]; · iexact Hg0
    iexact Ht0
  iintro ⟨Hb, Hh, HO⟩
  -- the second
  iapply (StableHlo.wp_seq (𝒱 := 𝒱) (bd := none) (E := Set.univ) d Sall _ ops2 hS2 hf2 (V4 m d)) $$ [Hb Hh]
  · isplitl [Hb]; · iexact Hb
    iexact Hh
  iintro ⟨Hb, Hh⟩
  ihave Hla := (SparseCore.Cfg.ctx_levAts κ) $$ Hctx
  iapply (wp_region2 m d _ _)
  isplitr [Hb Hh HO Hla Hg1 Ht1]
  swap
  · isplitl [Hb]; · iexact Hb
    isplitl [Hh]; · iexact Hh
    isplitl [HO]; · iexact HO
    isplitl [Hla]; · iexact Hla
    isplitl [Hg1]; · iexact Hg1
    iexact Ht1
  iintro ⟨Hb, Hh, HO⟩
  -- the third
  iapply (StableHlo.wp_seq (𝒱 := 𝒱) (bd := none) (E := Set.univ) d Sall _ ops3 hS3 hf3 (V6 m d)) $$ [Hb Hh]
  · isplitl [Hb]; · iexact Hb
    iexact Hh
  iintro ⟨Hb, Hh⟩
  ihave Hla := (SparseCore.Cfg.ctx_levAts κ) $$ Hctx
  iapply (wp_region3 m d _ _)
  isplitr [Hb Hh HO Hla Hg2 Ht2]
  swap
  · isplitl [Hb]; · iexact Hb
    isplitl [Hh]; · iexact Hh
    isplitl [HO]; · iexact HO
    isplitl [Hla]; · iexact Hla
    isplitl [Hg2]; · iexact Hg2
    iexact Ht2
  iintro ⟨Hb, Hh, HO⟩
  -- the fourth
  iapply (StableHlo.wp_seq (𝒱 := 𝒱) (bd := none) (E := Set.univ) d Sall _ ops4 hS4 hf4 (V8 m d)) $$ [Hb Hh]
  · isplitl [Hb]; · iexact Hb
    iexact Hh
  iintro ⟨Hb, Hh⟩
  ihave Hla := (SparseCore.Cfg.ctx_levAts κ) $$ Hctx
  iapply (wp_region4 m d _ _)
  isplitr [Hb Hh HO Hla Hg3 Ht3]
  swap
  · isplitl [Hb]; · iexact Hb
    isplitl [Hh]; · iexact Hh
    isplitl [HO]; · iexact HO
    isplitl [Hla]; · iexact Hla
    isplitl [Hg3]; · iexact Hg3
    iexact Ht3
  iintro ⟨Hb, Hh, HO⟩
  -- the messages joined, the index lists joined
  iapply (StableHlo.wp_seq (𝒱 := 𝒱) (bd := none) (E := Set.univ) d Sall _ ops5 hS5 hf5 (V10 m d)) $$ [Hb Hh]
  · isplitl [Hb]; · iexact Hb
    iexact Hh
  iintro ⟨-, Hh⟩
  rw [wp_pure]; imodintro
  isplitl [HO Hback]
  · iapply Hback; iexact HO
  iexact Hh

/-! ## The launch element -/

/-- The handshakes' rounds beside the pipelines' (their staging cells and the loops' duty tokens); the counters start at their unit. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (Iv m)).x q thr) := by
  unfold u₀
  iintro Hu
  ihave H := (ownU_pair _ _) $$ Hu
  icases H with ⟨HH, HR⟩
  ihave H2 := (own_pair_emb embR _ _) $$ HR
  icases H2 with ⟨HP0, -⟩
  have eEP : (EP (F := F)) = (Emb.inl : Emb UP (UP × Counters)).trans embR := rfl
  ihave HP := (Entails.of_eq (show (BI.own (((Emb.inl : Emb UP (UP × Counters)).trans embR)
      (initOf (Pipeline.cells (Pipeline.pin (pcfgs (F := F)) adm) cellOf_inj) (Pipeline.launchToks (Pipeline.pin (pcfgs (F := F)) adm) cellOf_inj))) : sProp 𝕄)
      = BI.own ((EP (F := F)) (initOf (Pipeline.cells (Pipeline.pin (pcfgs (F := F)) adm) cellOf_inj) (Pipeline.launchToks (Pipeline.pin (pcfgs (F := F)) adm) cellOf_inj))) from by rw [eEP])) $$ HP0
  imod (Pipeline.fund_ghost (Pipeline.pin (pcfgs (F := F)) adm) (EP (F := F)) cellOf_inj) $$ HP with ⟨Hcg, Hti⟩
  imodintro
  isplitl [HH]; · iexact HH
  isplitl [Hcg Hti]
  · unfold G
    simp only [bigSep_sep']
    isplitl [Hcg]; · iexact Hcg
    iexact Hti
  rw [show (bigSep Finset.univ fun thr : Thread nD τ => bigSep Finset.univ fun q : Fin 1 => (P m (Iv m)).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-! ## Reading the final memory -/

/-- Every array @main names holds, at the end, what the chain says. -/
def fq (d : Dev nD) (s' : Phys nD τ sig (Elt F)) : Prop := ∀ b ∈ (Sall : Finset (DevRef τ sig)), s'.mem.mem (d, b) = V11 m d b

theorem hfin (d : Dev nD) (s' : Phys nD τ sig (Elt F)) : iprop(FIN m d ∗ SI s') ⊢ (⌜fq m d s'⌝ : sProp 𝕄) := by
  show iprop((bigSep Sall fun b : DevRef τ sig => (((d, b) : Loc nD τ sig) ↦{fullShare} V11 m d b : sProp 𝕄)) ∗ SI s') ⊢ _
  iintro ⟨Hh, HSI⟩
  ihave H := (pointsTo_read_all Sall (fun b : DevRef τ sig => ((d, b) : Loc nD τ sig)) (V11 m d) s') $$ [Hh HSI]
  · isplitl [Hh]; · iexact Hh
    iexact HSI
  icases H with ⟨%h, -⟩
  ipureintro; exact h

/-! ## The run -/

def QC : PUnit × MemSt nD τ sig (Elt F) → Prop := fun r => ∀ c : Dev nD, ∀ b ∈ (Sall : Finset (DevRef τ sig)), r.2.mem (c, b) = V11 m c b

/-- From any memory with zero counters and index words in range, every weakly fair execution of the device's threads
    terminates, nothing faulting, and every array @main names ends at the chain's last contents. -/
theorem run_main [∀ e, Nonempty (Elt F e)] (hI : ∀ d r, ((Iv m d) r).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (Iv m)) facts v₀
    (fun q hq => match q with | 0 => nomatch hq)
    (fun q _ => match q with | 0 => tileObl m (Iv m) hI)
    (fun q _ => match q with | 0 => SparseCore.Cfg.VecSplit.of_plain (vecSplit m (Iv m)))
    m ρ main (G (F := F)) (FIN m) (u₀ (F := F)) (sep_elim_left.trans (hu₀ m)) (hmain m ρ) (fq m) (hfin m) (QC m) (fun _ h => h)

end Run

end Cert.Proof.K

end
-- ==== Proof.K.Frame.lean ====
/-
  Nothing @main does touches an argument array: no host stretch writes one, the gather fills its own result array and
  each region its own; so at the end of the chain every argument holds what it was launched with.
-/
import proofs.«214605_g64536178589837_cont_9to1_m_912_2_alg».proof.Proof.K.Run

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

section Keep

variable (m : (ℓ : Loc nD τ sig) → Buf (Elt F) ℓ)

abbrev Wr0 : List (Ref sig .tc) := [main_v0, main_c, main_call0_v0, main_v1]
abbrev Wr1 : List (Ref sig .tc) := [main_v3, main_v4]
abbrev Wr2 : List (Ref sig .tc) := [main_v6, main_v7, main_v8]
abbrev Wr3 : List (Ref sig .tc) := [main_v10, main_v11, main_v12, main_v13]
abbrev Wr4 : List (Ref sig .tc) := [main_v15, main_v16, main_v17, main_v18]
abbrev Wr5 : List (Ref sig .tc) := [main_v20, main_v21, main_v22]

theorem hW0 : (ops0 : List (HloOp τ sig (Elt F))).Forall fun op => op.writes ⊆ (Wr0.map (Proc.devRef (τ := τ) .tc)).toFinset := by simp [ops0]
theorem hW1 : (ops1 : List (HloOp τ sig (Elt F))).Forall fun op => op.writes ⊆ (Wr1.map (Proc.devRef (τ := τ) .tc)).toFinset := by simp [ops1]
theorem hW2 : (ops2 : List (HloOp τ sig (Elt F))).Forall fun op => op.writes ⊆ (Wr2.map (Proc.devRef (τ := τ) .tc)).toFinset := by simp [ops2]
theorem hW3 : (ops3 : List (HloOp τ sig (Elt F))).Forall fun op => op.writes ⊆ (Wr3.map (Proc.devRef (τ := τ) .tc)).toFinset := by simp [ops3]
theorem hW4 : (ops4 : List (HloOp τ sig (Elt F))).Forall fun op => op.writes ⊆ (Wr4.map (Proc.devRef (τ := τ) .tc)).toFinset := by simp [ops4]
theorem hW5 : (ops5 : List (HloOp τ sig (Elt F))).Forall fun op => op.writes ⊆ (Wr5.map (Proc.devRef (τ := τ) .tc)).toFinset := by simp [ops5]

/-- An array that no stretch writes, that is not the gathered array and is no region's result keeps its launch contents
    through the whole chain. -/
theorem V11_keep (d : Dev nD) (r : Ref sig .tc) (h0 : r ∉ Wr0) (h1 : r ∉ Wr1) (h2 : r ∉ Wr2) (h3 : r ∉ Wr3) (h4 : r ∉ Wr4) (h5 : r ∉ Wr5)
    (g : r ≠ main_v2) (r1 : r ≠ Pipeline.arrRef spec1 5) (r2 : r ≠ Pipeline.arrRef spec2 5) (r3 : r ≠ Pipeline.arrRef spec3 5) (r4 : r ≠ Pipeline.arrRef spec4 5) :
    V11 m d (Proc.devRef .tc r) = m (d, Proc.devRef .tc r) := by
  unfold V11; rw [StableHlo.after_of_writes_sub ops5 _ hW5 h5]
  unfold V10; rw [Function.update_of_ne (StableHlo.devRef_ne_of_ne r4)]
  unfold V9; rw [StableHlo.after_of_writes_sub ops4 _ hW4 h4]
  unfold V8; rw [Function.update_of_ne (StableHlo.devRef_ne_of_ne r3)]
  unfold V7; rw [StableHlo.after_of_writes_sub ops3 _ hW3 h3]
  unfold V6; rw [Function.update_of_ne (StableHlo.devRef_ne_of_ne r2)]
  unfold V5; rw [StableHlo.after_of_writes_sub ops2 _ hW2 h2]
  unfold V4; rw [Function.update_of_ne (StableHlo.devRef_ne_of_ne r1)]
  unfold V3; rw [StableHlo.after_of_writes_sub ops1 _ hW1 h1]
  unfold V2; rw [Function.update_of_ne (StableHlo.devRef_ne_of_ne g)]
  unfold V1; rw [StableHlo.after_of_writes_sub ops0 _ hW0 h0]
  rfl

/-- The frame's post from the run's: each argument array read at the end of the chain. -/
theorem args_kept {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20) :=
  ⟨(h c _ (mem_Sall main_arg0 rfl)).trans (V11_keep m c main_arg0 (by decide) (by decide) (by decide) (by decide) (by decide) (by decide) (by decide) (by decide) (by decide) (by decide) (by decide)),
   (h c _ (mem_Sall main_arg1 rfl)).trans (V11_keep m c main_arg1 (by decide) (by decide) (by decide) (by decide) (by decide) (by decide) (by decide) (by decide) (by decide) (by decide) (by decide)),
   (h c _ (mem_Sall main_arg2 rfl)).trans (V11_keep m c main_arg2 (by decide) (by decide) (by decide) (by decide) (by decide) (by decide) (by decide) (by decide) (by decide) (by decide) (by decide)),
   (h c _ (mem_Sall main_arg3 rfl)).trans (V11_keep m c main_arg3 (by decide) (by decide) (by decide) (by decide) (by decide) (by decide) (by decide) (by decide) (by decide) (by decide) (by decide)),
   (h c _ (mem_Sall main_arg4 rfl)).trans (V11_keep m c main_arg4 (by decide) (by decide) (by decide) (by decide) (by decide) (by decide) (by decide) (by decide) (by decide) (by decide) (by decide)),
   (h c _ (mem_Sall main_arg5 rfl)).trans (V11_keep m c main_arg5 (by decide) (by decide) (by decide) (by decide) (by decide) (by decide) (by decide) (by decide) (by decide) (by decide) (by decide)),
   (h c _ (mem_Sall main_arg6 rfl)).trans (V11_keep m c main_arg6 (by decide) (by decide) (by decide) (by decide) (by decide) (by decide) (by decide) (by decide) (by decide) (by decide) (by decide)),
   (h c _ (mem_Sall main_arg7 rfl)).trans (V11_keep m c main_arg7 (by decide) (by decide) (by decide) (by decide) (by decide) (by decide) (by decide) (by decide) (by decide) (by decide) (by decide)),
   (h c _ (mem_Sall main_arg8 rfl)).trans (V11_keep m c main_arg8 (by decide) (by decide) (by decide) (by decide) (by decide) (by decide) (by decide) (by decide) (by decide) (by decide) (by decide)),
   (h c _ (mem_Sall main_arg9 rfl)).trans (V11_keep m c main_arg9 (by decide) (by decide) (by decide) (by decide) (by decide) (by decide) (by decide) (by decide) (by decide) (by decide) (by decide)),
   (h c _ (mem_Sall main_arg10 rfl)).trans (V11_keep m c main_arg10 (by decide) (by decide) (by decide) (by decide) (by decide) (by decide) (by decide) (by decide) (by decide) (by decide) (by decide)),
   (h c _ (mem_Sall main_arg11 rfl)).trans (V11_keep m c main_arg11 (by decide) (by decide) (by decide) (by decide) (by decide) (by decide) (by decide) (by decide) (by decide) (by decide) (by decide)),
   (h c _ (mem_Sall main_arg12 rfl)).trans (V11_keep m c main_arg12 (by decide) (by decide) (by decide) (by decide) (by decide) (by decide) (by decide) (by decide) (by decide) (by decide) (by decide)),
   (h c _ (mem_Sall main_arg13 rfl)).trans (V11_keep m c main_arg13 (by decide) (by decide) (by decide) (by decide) (by decide) (by decide) (by decide) (by decide) (by decide) (by decide) (by decide)),
   (h c _ (mem_Sall main_arg14 rfl)).trans (V11_keep m c main_arg14 (by decide) (by decide) (by decide) (by decide) (by decide) (by decide) (by decide) (by decide) (by decide) (by decide) (by decide)),
   (h c _ (mem_Sall main_arg15 rfl)).trans (V11_keep m c main_arg15 (by decide) (by decide) (by decide) (by decide) (by decide) (by decide) (by decide) (by decide) (by decide) (by decide) (by decide)),
   (h c _ (mem_Sall main_arg16 rfl)).trans (V11_keep m c main_arg16 (by decide) (by decide) (by decide) (by decide) (by decide) (by decide) (by decide) (by decide) (by decide) (by decide) (by decide)),
   (h c _ (mem_Sall main_arg17 rfl)).trans (V11_keep m c main_arg17 (by decide) (by decide) (by decide) (by decide) (by decide) (by decide) (by decide) (by decide) (by decide) (by decide) (by decide)),
   (h c _ (mem_Sall main_arg18 rfl)).trans (V11_keep m c main_arg18 (by decide) (by decide) (by decide) (by decide) (by decide) (by decide) (by decide) (by decide) (by decide) (by decide) (by decide)),
   (h c _ (mem_Sall main_arg19 rfl)).trans (V11_keep m c main_arg19 (by decide) (by decide) (by decide) (by decide) (by decide) (by decide) (by decide) (by decide) (by decide) (by decide) (by decide)),
   (h c _ (mem_Sall main_arg20 rfl)).trans (V11_keep m c main_arg20 (by decide) (by decide) (by decide) (by decide) (by decide) (by decide) (by decide) (by decide) (by decide) (by decide) (by decide))⟩

end Keep

end Cert.Proof.K

end
-- ==== Proof.KI.IvRead.lean ====
import proofs.«214605_g64536178589837_cont_9to1_m_912_2_alg».proof.Proof.KI.Regions
import Idealize.ShloMosaic.Lib.KernelVsHost
import Idealize.ShloMosaic.Lib.Pipeline.Value
import Idealize.ShloMosaic.Lib.ValueIdx
import Idealize.ShloMosaic.Lib.StableHlo.Run

/-! # The index list the gather reads, word by word

Before the gather the host joins the four relations' index lists (100000, 200000, 150000 and 150000 words)
and pads the result with zeros to 614400 words. So word `r` of what the gather reads is a word of one of the
four lists, by the range `r` falls in, or zero past word 600000. -/

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.StableHlo
open Idealize.SL.Sem

variable {F : FTy → Type} [FloatOps F]
variable (m : (ℓ : Loc nD τ sig) → Buf (Elt F) ℓ)

/-- The four index lists as the pieces of their concatenation. -/
abbrev pieces (c : Dev nD) : List ((s : Shape) × (s.Idx → Elt F .i32)) :=
  [⟨S100000, (m ((c.tc : Thread nD τ).loc main_arg1) : S100000.Idx → Elt F .i32)⟩, ⟨S200000, (m ((c.tc : Thread nD τ).loc main_arg2) : S200000.Idx → Elt F .i32)⟩,
    ⟨S150000, (m ((c.tc : Thread nD τ).loc main_arg3) : S150000.Idx → Elt F .i32)⟩, ⟨S150000, (m ((c.tc : Thread nD τ).loc main_arg4) : S150000.Idx → Elt F .i32)⟩]

/-- The joined index list. -/
abbrev joined (c : Dev nD) : S600000.Idx → Elt F .i32 :=
  concatenate S600000 0 (pieces m c) concatenates_S100000_S200000_S150000_S150000_S600000_d0

/-- The list the gather reads is the joined list padded with zeros to 614400 words. -/
theorem Iv_eq (c : Dev nD) : Iv m c = pad S614400 ![0] ![14400] ![0] (joined m c) (constantI S_ 32 0#32) pads_S600000_S614400_0144000 h_S_ := by
  unfold Iv V1
  after_results
  rfl

/-- Below word 600000 it is the joined list. -/
theorem Iv_inside (c : Dev nD) (r : Fin 600000) : Iv m c (ix1 (⟨r.val, by omega⟩ : Fin 614400)) = joined m c (ix1 r) := by
  rw [Iv_eq]
  refine pad_apply_of_inside ![0] ![14400] ![0] (joined m c) (constantI S_ 32 0#32) pads_S600000_S614400_0144000 h_S_ _ (ix1 r) ?_
  intro a
  match a with
  | ⟨0, _⟩ => show r.val = 0 + r.val * (0 + 1); omega

/-- Words 0 … 99999 are the first list, -/
theorem Iv_a (c : Dev nD) (i : Fin 100000) : Iv m c (ix1 (⟨i.val, by omega⟩ : Fin 614400)) = (m ((c.tc : Thread nD τ).loc main_arg1) : S100000.Idx → Elt F .i32) (ix1 i) := by
  rw [Iv_inside m c ⟨i.val, by omega⟩]
  refine concatenate_apply_piece (t := S600000) (0 : Fin 1) (pieces m c) concatenates_S100000_S200000_S150000_S150000_S600000_d0 _ 0 (by show (0 : Nat) < 4; decide) S100000 _ rfl rfl 0 rfl (ix1 i) ?_ ?_
  · intro b hb; exact absurd (Subsingleton.elim _ _) hb
  · show 0 + i.val = i.val; omega

/-- words 100000 … 299999 the second, -/
theorem Iv_b (c : Dev nD) (i : Fin 200000) : Iv m c (ix1 (⟨100000 + i.val, by omega⟩ : Fin 614400)) = (m ((c.tc : Thread nD τ).loc main_arg2) : S200000.Idx → Elt F .i32) (ix1 i) := by
  rw [Iv_inside m c ⟨100000 + i.val, by omega⟩]
  refine concatenate_apply_piece (t := S600000) (0 : Fin 1) (pieces m c) concatenates_S100000_S200000_S150000_S150000_S600000_d0 _ 1 (by show (1 : Nat) < 4; decide) S200000 _ rfl rfl 100000 rfl (ix1 i) ?_ ?_
  · intro b hb; exact absurd (Subsingleton.elim _ _) hb
  · show 100000 + i.val = 100000 + i.val; omega

/-- words 300000 … 449999 the third, -/
theorem Iv_c (c : Dev nD) (i : Fin 150000) : Iv m c (ix1 (⟨300000 + i.val, by omega⟩ : Fin 614400)) = (m ((c.tc : Thread nD τ).loc main_arg3) : S150000.Idx → Elt F .i32) (ix1 i) := by
  rw [Iv_inside m c ⟨300000 + i.val, by omega⟩]
  refine concatenate_apply_piece (t := S600000) (0 : Fin 1) (pieces m c) concatenates_S100000_S200000_S150000_S150000_S600000_d0 _ 2 (by show (2 : Nat) < 4; decide) S150000 _ rfl rfl 300000 rfl (ix1 i) ?_ ?_
  · intro b hb; exact absurd (Subsingleton.elim _ _) hb
  · show 300000 + i.val = 300000 + i.val; omega

/-- The first three lists hold 450000 words. -/
theorem pre_d (c : Dev nD) : ((((pieces m c).take 3).map (·.1)).map fun s => if h : s.rank = S600000.rank then s.size ((0 : Fin 1).cast h.symm) else 0).sum = 450000 := by
  simp only [pieces, List.take_succ_cons, List.take_zero, List.map_cons, List.map_nil, List.sum_cons, List.sum_nil]
  rw [dif_pos trivial, dif_pos trivial, dif_pos trivial]
  show (100000 + (200000 + (150000 + 0)) : Nat) = 450000
  norm_num

/-- words 450000 … 599999 the fourth, -/
theorem Iv_d (c : Dev nD) (i : Fin 150000) : Iv m c (ix1 (⟨450000 + i.val, by omega⟩ : Fin 614400)) = (m ((c.tc : Thread nD τ).loc main_arg4) : S150000.Idx → Elt F .i32) (ix1 i) := by
  rw [Iv_inside m c ⟨450000 + i.val, by omega⟩]
  refine concatenate_apply_piece (t := S600000) (0 : Fin 1) (pieces m c) concatenates_S100000_S200000_S150000_S150000_S600000_d0 _ 3 (by show (3 : Nat) < 4; decide) S150000 _ rfl rfl 450000 (pre_d m c) (ix1 i) ?_ ?_
  · intro b hb; exact absurd (Subsingleton.elim _ _) hb
  · show 450000 + i.val = 450000 + i.val; omega

/-- and from word 600000 on the padding: zero. -/
theorem Iv_pad (c : Dev nD) (r : S614400.Idx) (h : 600000 ≤ (r 0).val) : Iv m c r = 0#32 := by
  rw [Iv_eq]
  refine (pad_apply_of_not_inside ![0] ![14400] ![0] (joined m c) (constantI S_ 32 0#32) pads_S600000_S614400_0144000 h_S_ r (0 : Fin 1) ?_).trans rfl
  rintro ⟨-, -, h3⟩
  have h3' : ((r 0).val - 0) / (0 + 1) < 600000 := h3
  omega

/-- So if every word of the four lists names a table row, every word the gather reads does. -/
theorem Iv_lt (c : Dev nD)
    (h1 : ∀ i : S100000.Idx, ((m ((c.tc : Thread nD τ).loc main_arg1) : S100000.Idx → Elt F .i32) i).toNat < 100000)
    (h2 : ∀ i : S200000.Idx, ((m ((c.tc : Thread nD τ).loc main_arg2) : S200000.Idx → Elt F .i32) i).toNat < 100000)
    (h3 : ∀ i : S150000.Idx, ((m ((c.tc : Thread nD τ).loc main_arg3) : S150000.Idx → Elt F .i32) i).toNat < 100000)
    (h4 : ∀ i : S150000.Idx, ((m ((c.tc : Thread nD τ).loc main_arg4) : S150000.Idx → Elt F .i32) i).toNat < 100000)
    (r : S614400.Idx) : (Iv m c r).toNat < 100000 := by
  have hr : (r 0).val < 614400 := (r 0).isLt
  by_cases ha : (r 0).val < 100000
  · have e : r = ix1 (⟨(⟨(r 0).val, ha⟩ : Fin 100000).val, by omega⟩ : Fin 614400) := eq_ix1 r
    rw [congrArg (Iv m c) e, Iv_a]; exact h1 _
  by_cases hb : (r 0).val < 300000
  · have e : r = ix1 (⟨100000 + (⟨(r 0).val - 100000, by omega⟩ : Fin 200000).val, by omega⟩ : Fin 614400) :=
      (eq_ix1 r).trans (congrArg (ix1 (n := 614400)) (Fin.ext (by show (r 0).val = 100000 + ((r 0).val - 100000); omega)))
    rw [congrArg (Iv m c) e, Iv_b]; exact h2 _
  by_cases hc : (r 0).val < 450000
  · have e : r = ix1 (⟨300000 + (⟨(r 0).val - 300000, by omega⟩ : Fin 150000).val, by omega⟩ : Fin 614400) :=
      (eq_ix1 r).trans (congrArg (ix1 (n := 614400)) (Fin.ext (by show (r 0).val = 300000 + ((r 0).val - 300000); omega)))
    rw [congrArg (Iv m c) e, Iv_c]; exact h3 _
  by_cases hd : (r 0).val < 600000
  · have e : r = ix1 (⟨450000 + (⟨(r 0).val - 450000, by omega⟩ : Fin 150000).val, by omega⟩ : Fin 614400) :=
      (eq_ix1 r).trans (congrArg (ix1 (n := 614400)) (Fin.ext (by show (r 0).val = 450000 + ((r 0).val - 450000); omega)))
    rw [congrArg (Iv m c) e, Iv_d]; exact h4 _
  · rw [Iv_pad m c r (by omega)]; decide

end Cert.Proof.KI

end
-- ==== Proof.K.IvRead.lean ====
import proofs.«214605_g64536178589837_cont_9to1_m_912_2_alg».proof.Proof.K.Regions
import Idealize.ShloMosaic.Lib.KernelVsHost
import Idealize.ShloMosaic.Lib.Pipeline.Value
import Idealize.ShloMosaic.Lib.ValueIdx
import Idealize.ShloMosaic.Lib.StableHlo.Run

/-! # The index list the gather reads, word by word

Before the gather the host joins the four relations' index lists (100000, 200000, 150000 and 150000 words)
and pads the result with zeros to 614400 words. So word `r` of what the gather reads is a word of one of the
four lists, by the range `r` falls in, or zero past word 600000. -/

set_option maxRecDepth 16384

noncomputable section

namespace Cert.Proof.K

open Cert.Kernel Cert.Kernel.Gen
open Idealize.ShloMosaic Idealize.ShloMosaic.TcCoe Idealize.ShloMosaic.ValueIdx
open Idealize.ShloMosaic.StableHlo
open Idealize.SL.Sem

variable {F : FTy → Type} [FloatOps F]
variable (m : (ℓ : Loc nD τ sig) → Buf (Elt F) ℓ)

/-- The four index lists as the pieces of their concatenation. -/
abbrev pieces (c : Dev nD) : List ((s : Shape) × (s.Idx → Elt F .i32)) :=
  [⟨S100000, (m ((c.tc : Thread nD τ).loc main_arg1) : S100000.Idx → Elt F .i32)⟩, ⟨S200000, (m ((c.tc : Thread nD τ).loc main_arg2) : S200000.Idx → Elt F .i32)⟩,
    ⟨S150000, (m ((c.tc : Thread nD τ).loc main_arg3) : S150000.Idx → Elt F .i32)⟩, ⟨S150000, (m ((c.tc : Thread nD τ).loc main_arg4) : S150000.Idx → Elt F .i32)⟩]

/-- The joined index list. -/
abbrev joined (c : Dev nD) : S600000.Idx → Elt F .i32 :=
  concatenate S600000 0 (pieces m c) concatenates_S100000_S200000_S150000_S150000_S600000_d0

/-- The list the gather reads is the joined list padded with zeros to 614400 words. -/
theorem Iv_eq (c : Dev nD) : Iv m c = pad S614400 ![0] ![14400] ![0] (joined m c) (constantI S_ 32 0#32) pads_S600000_S614400_0144000 h_S_ := by
  unfold Iv V1
  after_results
  rfl

/-- Below word 600000 it is the joined list. -/
theorem Iv_inside (c : Dev nD) (r : Fin 600000) : Iv m c (ix1 (⟨r.val, by omega⟩ : Fin 614400)) = joined m c (ix1 r) := by
  rw [Iv_eq]
  refine pad_apply_of_inside ![0] ![14400] ![0] (joined m c) (constantI S_ 32 0#32) pads_S600000_S614400_0144000 h_S_ _ (ix1 r) ?_
  intro a
  match a with
  | ⟨0, _⟩ => show r.val = 0 + r.val * (0 + 1); omega

/-- Words 0 … 99999 are the first list, -/
theorem Iv_a (c : Dev nD) (i : Fin 100000) : Iv m c (ix1 (⟨i.val, by omega⟩ : Fin 614400)) = (m ((c.tc : Thread nD τ).loc main_arg1) : S100000.Idx → Elt F .i32) (ix1 i) := by
  rw [Iv_inside m c ⟨i.val, by omega⟩]
  refine concatenate_apply_piece (t := S600000) (0 : Fin 1) (pieces m c) concatenates_S100000_S200000_S150000_S150000_S600000_d0 _ 0 (by show (0 : Nat) < 4; decide) S100000 _ rfl rfl 0 rfl (ix1 i) ?_ ?_
  · intro b hb; exact absurd (Subsingleton.elim _ _) hb
  · show 0 + i.val = i.val; omega

/-- words 100000 … 299999 the second, -/
theorem Iv_b (c : Dev nD) (i : Fin 200000) : Iv m c (ix1 (⟨100000 + i.val, by omega⟩ : Fin 614400)) = (m ((c.tc : Thread nD τ).loc main_arg2) : S200000.Idx → Elt F .i32) (ix1 i) := by
  rw [Iv_inside m c ⟨100000 + i.val, by omega⟩]
  refine concatenate_apply_piece (t := S600000) (0 : Fin 1) (pieces m c) concatenates_S100000_S200000_S150000_S150000_S600000_d0 _ 1 (by show (1 : Nat) < 4; decide) S200000 _ rfl rfl 100000 rfl (ix1 i) ?_ ?_
  · intro b hb; exact absurd (Subsingleton.elim _ _) hb
  · show 100000 + i.val = 100000 + i.val; omega

/-- words 300000 … 449999 the third, -/
theorem Iv_c (c : Dev nD) (i : Fin 150000) : Iv m c (ix1 (⟨300000 + i.val, by omega⟩ : Fin 614400)) = (m ((c.tc : Thread nD τ).loc main_arg3) : S150000.Idx → Elt F .i32) (ix1 i) := by
  rw [Iv_inside m c ⟨300000 + i.val, by omega⟩]
  refine concatenate_apply_piece (t := S600000) (0 : Fin 1) (pieces m c) concatenates_S100000_S200000_S150000_S150000_S600000_d0 _ 2 (by show (2 : Nat) < 4; decide) S150000 _ rfl rfl 300000 rfl (ix1 i) ?_ ?_
  · intro b hb; exact absurd (Subsingleton.elim _ _) hb
  · show 300000 + i.val = 300000 + i.val; omega

/-- The first three lists hold 450000 words. -/
theorem pre_d (c : Dev nD) : ((((pieces m c).take 3).map (·.1)).map fun s => if h : s.rank = S600000.rank then s.size ((0 : Fin 1).cast h.symm) else 0).sum = 450000 := by
  simp only [pieces, List.take_succ_cons, List.take_zero, List.map_cons, List.map_nil, List.sum_cons, List.sum_nil]
  rw [dif_pos trivial, dif_pos trivial, dif_pos trivial]
  show (100000 + (200000 + (150000 + 0)) : Nat) = 450000
  norm_num

/-- words 450000 … 599999 the fourth, -/
theorem Iv_d (c : Dev nD) (i : Fin 150000) : Iv m c (ix1 (⟨450000 + i.val, by omega⟩ : Fin 614400)) = (m ((c.tc : Thread nD τ).loc main_arg4) : S150000.Idx → Elt F .i32) (ix1 i) := by
  rw [Iv_inside m c ⟨450000 + i.val, by omega⟩]
  refine concatenate_apply_piece (t := S600000) (0 : Fin 1) (pieces m c) concatenates_S100000_S200000_S150000_S150000_S600000_d0 _ 3 (by show (3 : Nat) < 4; decide) S150000 _ rfl rfl 450000 (pre_d m c) (ix1 i) ?_ ?_
  · intro b hb; exact absurd (Subsingleton.elim _ _) hb
  · show 450000 + i.val = 450000 + i.val; omega

/-- and from word 600000 on the padding: zero. -/
theorem Iv_pad (c : Dev nD) (r : S614400.Idx) (h : 600000 ≤ (r 0).val) : Iv m c r = 0#32 := by
  rw [Iv_eq]
  refine (pad_apply_of_not_inside ![0] ![14400] ![0] (joined m c) (constantI S_ 32 0#32) pads_S600000_S614400_0144000 h_S_ r (0 : Fin 1) ?_).trans rfl
  rintro ⟨-, -, h3⟩
  have h3' : ((r 0).val - 0) / (0 + 1) < 600000 := h3
  omega

/-- So if every word of the four lists names a table row, every word the gather reads does. -/
theorem Iv_lt (c : Dev nD)
    (h1 : ∀ i : S100000.Idx, ((m ((c.tc : Thread nD τ).loc main_arg1) : S100000.Idx → Elt F .i32) i).toNat < 100000)
    (h2 : ∀ i : S200000.Idx, ((m ((c.tc : Thread nD τ).loc main_arg2) : S200000.Idx → Elt F .i32) i).toNat < 100000)
    (h3 : ∀ i : S150000.Idx, ((m ((c.tc : Thread nD τ).loc main_arg3) : S150000.Idx → Elt F .i32) i).toNat < 100000)
    (h4 : ∀ i : S150000.Idx, ((m ((c.tc : Thread nD τ).loc main_arg4) : S150000.Idx → Elt F .i32) i).toNat < 100000)
    (r : S614400.Idx) : (Iv m c r).toNat < 100000 := by
  have hr : (r 0).val < 614400 := (r 0).isLt
  by_cases ha : (r 0).val < 100000
  · have e : r = ix1 (⟨(⟨(r 0).val, ha⟩ : Fin 100000).val, by omega⟩ : Fin 614400) := eq_ix1 r
    rw [congrArg (Iv m c) e, Iv_a]; exact h1 _
  by_cases hb : (r 0).val < 300000
  · have e : r = ix1 (⟨100000 + (⟨(r 0).val - 100000, by omega⟩ : Fin 200000).val, by omega⟩ : Fin 614400) :=
      (eq_ix1 r).trans (congrArg (ix1 (n := 614400)) (Fin.ext (by show (r 0).val = 100000 + ((r 0).val - 100000); omega)))
    rw [congrArg (Iv m c) e, Iv_b]; exact h2 _
  by_cases hc : (r 0).val < 450000
  · have e : r = ix1 (⟨300000 + (⟨(r 0).val - 300000, by omega⟩ : Fin 150000).val, by omega⟩ : Fin 614400) :=
      (eq_ix1 r).trans (congrArg (ix1 (n := 614400)) (Fin.ext (by show (r 0).val = 300000 + ((r 0).val - 300000); omega)))
    rw [congrArg (Iv m c) e, Iv_c]; exact h3 _
  by_cases hd : (r 0).val < 600000
  · have e : r = ix1 (⟨450000 + (⟨(r 0).val - 450000, by omega⟩ : Fin 150000).val, by omega⟩ : Fin 614400) :=
      (eq_ix1 r).trans (congrArg (ix1 (n := 614400)) (Fin.ext (by show (r 0).val = 450000 + ((r 0).val - 450000); omega)))
    rw [congrArg (Iv m c) e, Iv_d]; exact h4 _
  · rw [Iv_pad m c r (by omega)]; decide

end Cert.Proof.K

end
-- ==== Proof.Spec.lean ====
/-
  What both programs compute, row by row, as one function on the extended reals.

  A relation of arity a contributes, per tuple, the a table rows its indices name, laid side by side as one vector x of
  s = 128·a entries; the tuple's message is x plus a two-layer perceptron of x: with h = x·W1 + b1 the hidden vector is
  h · tanh (softplus h), and the message is x + (hidden·W2 + b2). The softplus is spelt as both programs spell it,
  max h 0 + log (1 + e^(−|h|)), with |h| = max h (−h); neither program's test "h − 0 ≠ h − 0" can hold of an extended
  real, so neither takes the other branch.
-/
import Idealize.ShloMosaic.PureOps.Ideal
import Mathlib.Algebra.BigOperators.Group.Finset.Basic

noncomputable section

namespace Cert.Proof.Spec

open Idealize.ShloMosaic

/-- max h 0 + log (1 + e^(−|h|)). -/
def softplus (h : EReal) : EReal := max h 0 + Ideal.log1p (Ideal.exp (-(max h (-h))))

/-- h · tanh (softplus h). -/
def mish (h : EReal) : EReal := h * Ideal.tanh (softplus h)

/-- The hidden pre-activation at unit k: the row against column k of the first weight matrix, plus the bias. -/
def hidden {ι : Type} [Fintype ι] (x : ι → EReal) (W1 : ι → ι → EReal) (b1 : ι → EReal) (k : ι) : EReal :=
  (∑ i, x i * W1 i k) + b1 k

/-- One tuple's message at entry j: the row, plus the activated hidden vector against column j of the second weight
    matrix and its bias. -/
def mlpRow {ι : Type} [Fintype ι] (x : ι → EReal) (W1 : ι → ι → EReal) (b1 : ι → EReal) (W2 : ι → ι → EReal) (b2 : ι → EReal) (j : ι) : EReal :=
  x j + ((∑ k, mish (hidden x W1 b1 k) * W2 k j) + b2 j)

/-- The same with the bias added last: addition of extended reals is associative. -/
theorem mlpRow_assoc {ι : Type} [Fintype ι] (x : ι → EReal) (W1 : ι → ι → EReal) (b1 : ι → EReal) (W2 : ι → ι → EReal) (b2 : ι → EReal) (j : ι) :
    (x j + ∑ k, mish (hidden x W1 b1 k) * W2 k j) + b2 j = mlpRow x W1 b1 W2 b2 j := by
  unfold mlpRow; rw [add_assoc]

end Cert.Proof.Spec

end
-- ==== Proof.SpecRel.lean ====
/-
  The four relations' messages as closed functions of the argument arrays.

  A relation of arity a over n tuples reads, for tuple t, the table rows named by the words a·t, …, a·t + a − 1 of its
  index list, side by side as one vector of 128·a entries (entry k is entry k mod 128 of the row named by word
  a·t + k div 128), and answers the perceptron of that vector (Spec.mlpRow). A word that names no row reads row 0: under
  the certificate's precondition no word does, and neither program's text is read there.
-/
import proofs.«214605_g64536178589837_cont_9to1_m_912_2_alg».proof.Proof.Spec
import Idealize.ShloMosaic.Lib.ValueIdx

noncomputable section

namespace Cert.Proof.Spec

open Idealize.ShloMosaic Idealize.ShloMosaic.ValueIdx

/-- The table row a word names. -/
def rowOf (w : BitVec 32) : Fin 100000 := if h : w.toNat < 100000 then ⟨w.toNat, h⟩ else ⟨0, by decide⟩

theorem rowOf_of_lt {w : BitVec 32} (h : w.toNat < 100000) : rowOf w = ⟨w.toNat, h⟩ := dif_pos h

/-- Relation A (arity 1, 100000 tuples over 100000 index words): tuple t's vector of 128 entries, -/
def rowsA (tbl : (⟨2, ![100000, 128]⟩ : Shape).Idx → EReal) (idx : (⟨1, ![100000]⟩ : Shape).Idx → BitVec 32) (t : Fin 100000) : Fin 128 → EReal :=
  fun k => tbl (ix2 (rowOf (idx (ix1 ⟨1 * t.val + k.val / 128, by have := t.isLt; have := k.isLt; omega⟩))) ⟨k.val % 128, by omega⟩)

/-- and its messages, one row of 128 per tuple (before they are laid back as rows of 128). -/
def msgsA (tbl : (⟨2, ![100000, 128]⟩ : Shape).Idx → EReal) (idx : (⟨1, ![100000]⟩ : Shape).Idx → BitVec 32)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) : (⟨2, ![100000, 128]⟩ : Shape).Idx → EReal :=
  fun i => mlpRow (rowsA tbl idx (i 0)) (fun p k => W1 (ix2 p k)) (fun k => b1 (ix1 k)) (fun k j => W2 (ix2 k j)) (fun j => b2 (ix1 j)) (i 1)

/-- Relation B (arity 2, 100000 tuples over 200000 index words): tuple t's vector of 256 entries, -/
def rowsB (tbl : (⟨2, ![100000, 128]⟩ : Shape).Idx → EReal) (idx : (⟨1, ![200000]⟩ : Shape).Idx → BitVec 32) (t : Fin 100000) : Fin 256 → EReal :=
  fun k => tbl (ix2 (rowOf (idx (ix1 ⟨2 * t.val + k.val / 128, by have := t.isLt; have := k.isLt; omega⟩))) ⟨k.val % 128, by omega⟩)

/-- and its messages, one row of 256 per tuple (before they are laid back as rows of 128). -/
def msgsB (tbl : (⟨2, ![100000, 128]⟩ : Shape).Idx → EReal) (idx : (⟨1, ![200000]⟩ : Shape).Idx → BitVec 32)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal) : (⟨2, ![100000, 256]⟩ : Shape).Idx → EReal :=
  fun i => mlpRow (rowsB tbl idx (i 0)) (fun p k => W1 (ix2 p k)) (fun k => b1 (ix1 k)) (fun k j => W2 (ix2 k j)) (fun j => b2 (ix1 j)) (i 1)

/-- Relation C (arity 2, 75000 tuples over 150000 index words): tuple t's vector of 256 entries, -/
def rowsC (tbl : (⟨2, ![100000, 128]⟩ : Shape).Idx → EReal) (idx : (⟨1, ![150000]⟩ : Shape).Idx → BitVec 32) (t : Fin 75000) : Fin 256 → EReal :=
  fun k => tbl (ix2 (rowOf (idx (ix1 ⟨2 * t.val + k.val / 128, by have := t.isLt; have := k.isLt; omega⟩))) ⟨k.val % 128, by omega⟩)

/-- and its messages, one row of 256 per tuple (before they are laid back as rows of 128). -/
def msgsC (tbl : (⟨2, ![100000, 128]⟩ : Shape).Idx → EReal) (idx : (⟨1, ![150000]⟩ : Shape).Idx → BitVec 32)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal) : (⟨2, ![75000, 256]⟩ : Shape).Idx → EReal :=
  fun i => mlpRow (rowsC tbl idx (i 0)) (fun p k => W1 (ix2 p k)) (fun k => b1 (ix1 k)) (fun k j => W2 (ix2 k j)) (fun j => b2 (ix1 j)) (i 1)

/-- Relation D (arity 3, 50000 tuples over 150000 index words): tuple t's vector of 384 entries, -/
def rowsD (tbl : (⟨2, ![100000, 128]⟩ : Shape).Idx → EReal) (idx : (⟨1, ![150000]⟩ : Shape).Idx → BitVec 32) (t : Fin 50000) : Fin 384 → EReal :=
  fun k => tbl (ix2 (rowOf (idx (ix1 ⟨3 * t.val + k.val / 128, by have := t.isLt; have := k.isLt; omega⟩))) ⟨k.val % 128, by omega⟩)

/-- and its messages, one row of 384 per tuple (before they are laid back as rows of 128). -/
def msgsD (tbl : (⟨2, ![100000, 128]⟩ : Shape).Idx → EReal) (idx : (⟨1, ![150000]⟩ : Shape).Idx → BitVec 32)
    (W1 : (⟨2, ![384, 384]⟩ : Shape).Idx → EReal) (b1 : (⟨1, ![384]⟩ : Shape).Idx → EReal)
    (W2 : (⟨2, ![384, 384]⟩ : Shape).Idx → EReal) (b2 : (⟨1, ![384]⟩ : Shape).Idx → EReal) : (⟨2, ![50000, 384]⟩ : Shape).Idx → EReal :=
  fun i => mlpRow (rowsD tbl idx (i 0)) (fun p k => W1 (ix2 p k)) (fun k => b1 (ix1 k)) (fun k j => W2 (ix2 k j)) (fun j => b2 (ix1 j)) (i 1)

end Cert.Proof.Spec

end
-- ==== Proof.KI.KerChain.lean ====
import proofs.«214605_g64536178589837_cont_9to1_m_912_2_alg».proof.Proof.KI.Regions
import proofs.«214605_g64536178589837_cont_9to1_m_912_2_alg».proof.Proof.KI.ScPay
import proofs.«214605_g64536178589837_cont_9to1_m_912_2_alg».proof.Proof.SpecRel
import proofs.«214605_g64536178589837_cont_9to1_m_912_2_alg».proof.Proof.KI.IvRead
import Idealize.ShloMosaic.Lib.KernelVsHost
import Idealize.ShloMosaic.Lib.StableHlo.Run

/-! # The arrays through @main's stages

Each host stretch writes its own results; the gather fills the gathered array; each region writes its own
result array. So an argument array holds its launch contents at every stage, the gathered array holds the
gathered rows from the gather on, and each bias row is its bias argument laid as a one-row matrix. -/

set_option maxRecDepth 16384

noncomputable section

namespace Cert.Proof.KI

open Cert.KernelIdeal Cert.KernelIdeal.Gen Cert.KernelIdeal.TcBody
open Cert.Proof
open Idealize.ShloMosaic Idealize.ShloMosaic.TcCoe Idealize.ShloMosaic.ValueIdx
open Idealize.ShloMosaic.StableHlo
open Idealize.SL.Sem
open scoped BigOperators

variable {F : FTy → Type} [FloatOps F]
variable (m : (ℓ : Loc nD τ sig) → Buf (Elt F) ℓ)

/-! ## What each host stretch writes -/

abbrev kWr0 : List (Ref sig .tc) := [main_v0, main_c, main_call0_v0, main_v1]
abbrev kWr1 : List (Ref sig .tc) := [main_v3, main_v4]
abbrev kWr2 : List (Ref sig .tc) := [main_v6, main_v7, main_v8]
abbrev kWr3 : List (Ref sig .tc) := [main_v10, main_v11, main_v12, main_v13]
abbrev kWr4 : List (Ref sig .tc) := [main_v15, main_v16, main_v17, main_v18]

theorem khW0 : (ops0 : List (HloOp τ sig (Elt F))).Forall fun op => op.writes ⊆ (kWr0.map (Proc.devRef (τ := τ) .tc)).toFinset := by simp [ops0]
theorem khW1 : (ops1 : List (HloOp τ sig (Elt F))).Forall fun op => op.writes ⊆ (kWr1.map (Proc.devRef (τ := τ) .tc)).toFinset := by simp [ops1]
theorem khW2 : (ops2 : List (HloOp τ sig (Elt F))).Forall fun op => op.writes ⊆ (kWr2.map (Proc.devRef (τ := τ) .tc)).toFinset := by simp [ops2]
theorem khW3 : (ops3 : List (HloOp τ sig (Elt F))).Forall fun op => op.writes ⊆ (kWr3.map (Proc.devRef (τ := τ) .tc)).toFinset := by simp [ops3]
theorem khW4 : (ops4 : List (HloOp τ sig (Elt F))).Forall fun op => op.writes ⊆ (kWr4.map (Proc.devRef (τ := τ) .tc)).toFinset := by simp [ops4]

/-! ## An array nothing has written yet holds its launch contents -/

theorem V1_keep (d : Dev nD) (r : Ref sig .tc) (h0 : r ∉ kWr0) : V1 m d (Proc.devRef .tc r) = m (d, Proc.devRef .tc r) := by
  unfold V1; rw [after_of_writes_sub ops0 _ khW0 h0]; rfl
theorem V2_keep (d : Dev nD) (r : Ref sig .tc) (h0 : r ∉ kWr0) (g : r ≠ main_v2) : V2 m d (Proc.devRef .tc r) = m (d, Proc.devRef .tc r) := by
  unfold V2; rw [Function.update_of_ne (devRef_ne_of_ne g)]; exact V1_keep m d r h0
theorem V3_keep (d : Dev nD) (r : Ref sig .tc) (h0 : r ∉ kWr0) (h1 : r ∉ kWr1) (g : r ≠ main_v2) : V3 m d (Proc.devRef .tc r) = m (d, Proc.devRef .tc r) := by
  unfold V3; rw [after_of_writes_sub ops1 _ khW1 h1]; exact V2_keep m d r h0 g
theorem V4_keep (d : Dev nD) (r : Ref sig .tc) (h0 : r ∉ kWr0) (h1 : r ∉ kWr1) (g : r ≠ main_v2) (r1 : r ≠ Pipeline.arrRef spec1 5) :
    V4 m d (Proc.devRef .tc r) = m (d, Proc.devRef .tc r) := by
  unfold V4; rw [Function.update_of_ne (devRef_ne_of_ne r1)]; exact V3_keep m d r h0 h1 g
theorem V5_keep (d : Dev nD) (r : Ref sig .tc) (h0 : r ∉ kWr0) (h1 : r ∉ kWr1) (h2 : r ∉ kWr2) (g : r ≠ main_v2) (r1 : r ≠ Pipeline.arrRef spec1 5) :
    V5 m d (Proc.devRef .tc r) = m (d, Proc.devRef .tc r) := by
  unfold V5; rw [after_of_writes_sub ops2 _ khW2 h2]; exact V4_keep m d r h0 h1 g r1
theorem V6_keep (d : Dev nD) (r : Ref sig .tc) (h0 : r ∉ kWr0) (h1 : r ∉ kWr1) (h2 : r ∉ kWr2) (g : r ≠ main_v2) (r1 : r ≠ Pipeline.arrRef spec1 5)
    (r2 : r ≠ Pipeline.arrRef spec2 5) : V6 m d (Proc.devRef .tc r) = m (d, Proc.devRef .tc r) := by
  unfold V6; rw [Function.update_of_ne (devRef_ne_of_ne r2)]; exact V5_keep m d r h0 h1 h2 g r1
theorem V7_keep (d : Dev nD) (r : Ref sig .tc) (h0 : r ∉ kWr0) (h1 : r ∉ kWr1) (h2 : r ∉ kWr2) (h3 : r ∉ kWr3) (g : r ≠ main_v2) (r1 : r ≠ Pipeline.arrRef spec1 5)
    (r2 : r ≠ Pipeline.arrRef spec2 5) : V7 m d (Proc.devRef .tc r) = m (d, Proc.devRef .tc r) := by
  unfold V7; rw [after_of_writes_sub ops3 _ khW3 h3]; exact V6_keep m d r h0 h1 h2 g r1 r2
theorem V8_keep (d : Dev nD) (r : Ref sig .tc) (h0 : r ∉ kWr0) (h1 : r ∉ kWr1) (h2 : r ∉ kWr2) (h3 : r ∉ kWr3) (g : r ≠ main_v2) (r1 : r ≠ Pipeline.arrRef spec1 5)
    (r2 : r ≠ Pipeline.arrRef spec2 5) (r3 : r ≠ Pipeline.arrRef spec3 5) : V8 m d (Proc.devRef .tc r) = m (d, Proc.devRef .tc r) := by
  unfold V8; rw [Function.update_of_ne (devRef_ne_of_ne r3)]; exact V7_keep m d r h0 h1 h2 h3 g r1 r2
theorem V9_keep (d : Dev nD) (r : Ref sig .tc) (h0 : r ∉ kWr0) (h1 : r ∉ kWr1) (h2 : r ∉ kWr2) (h3 : r ∉ kWr3) (h4 : r ∉ kWr4) (g : r ≠ main_v2) (r1 : r ≠ Pipeline.arrRef spec1 5)
    (r2 : r ≠ Pipeline.arrRef spec2 5) (r3 : r ≠ Pipeline.arrRef spec3 5) : V9 m d (Proc.devRef .tc r) = m (d, Proc.devRef .tc r) := by
  unfold V9; rw [after_of_writes_sub ops4 _ khW4 h4]; exact V8_keep m d r h0 h1 h2 h3 g r1 r2 r3

/-! ## The gathered array, once filled, is read and never written again -/

theorem V2_out (d : Dev nD) : V2 m d out' = gathered (m (tblLoc d)) (Iv m d) := by unfold V2; exact Function.update_self _ _ _
theorem V3_out (d : Dev nD) : V3 m d out' = gathered (m (tblLoc d)) (Iv m d) := by
  unfold V3; rw [after_of_writes_sub ops1 _ khW1 (by decide : main_v2 ∉ kWr1)]; exact V2_out m d
theorem V4_out (d : Dev nD) : V4 m d out' = gathered (m (tblLoc d)) (Iv m d) := by
  unfold V4; rw [Function.update_of_ne (devRef_ne_of_ne (by decide : main_v2 ≠ Pipeline.arrRef spec1 5))]; exact V3_out m d
theorem V5_out (d : Dev nD) : V5 m d out' = gathered (m (tblLoc d)) (Iv m d) := by
  unfold V5; rw [after_of_writes_sub ops2 _ khW2 (by decide : main_v2 ∉ kWr2)]; exact V4_out m d
theorem V6_out (d : Dev nD) : V6 m d out' = gathered (m (tblLoc d)) (Iv m d) := by
  unfold V6; rw [Function.update_of_ne (devRef_ne_of_ne (by decide : main_v2 ≠ Pipeline.arrRef spec2 5))]; exact V5_out m d
theorem V7_out (d : Dev nD) : V7 m d out' = gathered (m (tblLoc d)) (Iv m d) := by
  unfold V7; rw [after_of_writes_sub ops3 _ khW3 (by decide : main_v2 ∉ kWr3)]; exact V6_out m d
theorem V8_out (d : Dev nD) : V8 m d out' = gathered (m (tblLoc d)) (Iv m d) := by
  unfold V8; rw [Function.update_of_ne (devRef_ne_of_ne (by decide : main_v2 ≠ Pipeline.arrRef spec3 5))]; exact V7_out m d

/-! ## The bias rows: the bias arguments laid as one-row matrices -/

theorem V3_v3 (d : Dev nD) : V3 m d (Proc.devRef .tc main_v3) = (shapeCast S1x128 (m (d, Proc.devRef .tc main_arg6) : S128.Idx → Elt F .f32) shapeCasts_S128_S1x128 : S1x128.Idx → Elt F .f32) := by
  unfold V3; after_results; rw [V2_keep m d main_arg6 (by decide) (by decide)]; rfl
theorem V3_v4 (d : Dev nD) : V3 m d (Proc.devRef .tc main_v4) = (shapeCast S1x128 (m (d, Proc.devRef .tc main_arg8) : S128.Idx → Elt F .f32) shapeCasts_S128_S1x128 : S1x128.Idx → Elt F .f32) := by
  unfold V3; after_results; rw [V2_keep m d main_arg8 (by decide) (by decide)]; rfl

/-- A vector laid as a one-row matrix, read at (0, k), is the vector at k. -/
theorem row_apply {α : Type} {n : Nat} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) :=
  shapeCast_apply x h (ix2 (0 : Fin 1) k) (ix1 k) (by
    rw [Shape.rowMajor_val_two, Shape.rowMajor_val_one]; show k.val = 0 * n + k.val; omega)

/-- The row-wise specification depends on its five arguments pointwise. -/
theorem mlpRow_congr {ι : Type} [Fintype ι] {x x' : ι → EReal} {A A' : ι → ι → EReal} {b b' : ι → EReal} {B B' : ι → ι → EReal} {e e' : ι → EReal}
    (hx : ∀ k, x k = x' k) (hA : ∀ a k, A a k = A' a k) (hb : ∀ k, b k = b' k) (hB : ∀ k j, B k j = B' k j) (he : ∀ j, e j = e' j) (j : ι) :
    Spec.mlpRow x A b B e j = Spec.mlpRow x' A' b' B' e' j := by
  have e1 : x = x' := funext hx
  have e2 : A = A' := funext fun a => funext (hA a)
  have e3 : b = b' := funext hb
  have e4 : B = B' := funext fun k => funext (hB k)
  have e5 : e = e' := funext he
  rw [e1, e2, e3, e4, e5]

/-- A gathered entry is the table's at the row the word names. -/
theorem tbl_row {α : Type} (tbl : S100000x128.Idx → α) (w w' : BitVec 32) (hw : w = w') (h : w.toNat < 100000) (q q' : Fin 128) (hq : q.val = q'.val) :
    tbl (ix2 (⟨w.toNat, h⟩ : Fin 100000) q) = tbl (ix2 (Spec.rowOf w') q') := by
  subst hw
  have : q = q' := Fin.ext hq
  subst this
  rw [Spec.rowOf_of_lt h]

end Cert.Proof.KI

end
-- ==== Proof.KI.RegVal1.lean ====
import proofs.«214605_g64536178589837_cont_9to1_m_912_2_alg».proof.Proof.KI.RegData1
import proofs.«214605_g64536178589837_cont_9to1_m_912_2_alg».proof.Proof.Spec
import Idealize.ShloMosaic.Lib.Pipeline.Value
import Idealize.ShloMosaic.Lib.ValueIdx
import Idealize.ShloMosaic.PureOps.Ideal.Laws

/-! # Pipeline number 1: its blocks, element by element

Window 0's block at point `t` is rows `(t + 0)·1000 …` of the gathered array viewed with 128 columns;
windows 1 to 4 are their whole arrays. Each block read at an index is the array read at the matching index.
On the extended reals the body's payload at row `y`, column `j` is the row-wise specification of that row, and
the blocks the points write back tile the result array: the array after the region is one function of the
arrays the region reads. -/

set_option maxRecDepth 16384

noncomputable section

namespace Cert.Proof.KI

open Cert.KernelIdeal Cert.KernelIdeal.Gen Cert.KernelIdeal.TcBody
open Idealize.ShloMosaic Idealize.ShloMosaic.TcCoe
open Idealize.ShloMosaic.SparseCore.Cfg (HIx)
open Idealize.SL Idealize.SL.RA Idealize.SL.BI
open Idealize.SL.Sem
open Idealize.ShloMosaic.Pipeline (Dat Cfg Window)
open Cert.Proof

/-! ## The blocks at an index, for any float instance -/

section AnyInstance

variable {F : FTy → Type} [FloatOps F]

variable (W1 : (c : Dev nD) → (b : Ref sig .tc) → Buf (Elt F) ((c : Thread nD τ).loc b))

/-- Window 0's block index at point `t`: row block `t + 0`, column block 0. -/
theorem index1_0 : ∀ t : Fin cfg1.N, win1_0.index t (0 : Fin 2) = t.val + 0 ∧ win1_0.index t (1 : Fin 2) = 0 :=
  (by decide +kernel : ∀ t : Fin grid1.N, _)

/-- Window 0's block read at `y` is the array read at row `(t + 0)·1000 + y 0`, column `y 1`. -/
theorem xblk1_apply (c : Dev nD) (t : Fin cfg1.N) (y : S1000x128.Idx) (j : S614400x128.Idx)
    (h0 : (j 0).val = (t.val + 0) * 1000 + (y 0).val) (h1 : (j 1).val = (y 1).val) :
    xblk1 W1 c t y = W1 c (Pipeline.arrRef spec1 0) j := by
  have hm : win1_0.moved (grid1.coords t) y = true := (win1_0.moved_iff _ y).mpr fun a => by
    have := (y a).isLt; unfold Window.xsize; rw [clip1_0 t a]; exact this
  unfold xblk1 Window.fill; rw [dif_pos hm]
  unfold iblk1
  rw [View.read_apply]
  refine (cast_eq _ _).trans (congrArg (W1 c (Pipeline.arrRef spec1 0)) (funext fun a => Fin.ext ?_))
  obtain ⟨e0, e1⟩ := index1_0 t
  match a with
  | ⟨0, _⟩ => show win1_0.index t (0 : Fin 2) * 1000 + 1 * (y 0).val = (j 0).val; omega
  | ⟨1, _⟩ => show win1_0.index t (1 : Fin 2) * 128 + 1 * (y 1).val = (j 1).val; omega

/-- Window 1's block is its whole array. -/
theorem iblk1_1_apply (c : Dev nD) (t : Fin cfg1.N) (y : S128x128.Idx) :
    iblk1 W1 c 1 t y = W1 c (Pipeline.arrRef spec1 1) y := by
  unfold iblk1
  rw [View.read_apply]
  refine (cast_eq _ _).trans (congrArg (W1 c (Pipeline.arrRef spec1 1)) (funext fun a => Fin.ext ?_))
  match a with
  | ⟨0, _⟩ => show 0 * _ + 1 * (y 0).val = (y 0).val; omega
  | ⟨1, _⟩ => show 0 * _ + 1 * (y 1).val = (y 1).val; omega

/-- Window 2's block is its whole array. -/
theorem iblk1_2_apply (c : Dev nD) (t : Fin cfg1.N) (y : S1x128.Idx) :
    iblk1 W1 c 2 t y = W1 c (Pipeline.arrRef spec1 2) y := by
  unfold iblk1
  rw [View.read_apply]
  refine (cast_eq _ _).trans (congrArg (W1 c (Pipeline.arrRef spec1 2)) (funext fun a => Fin.ext ?_))
  match a with
  | ⟨0, _⟩ => show 0 * _ + 1 * (y 0).val = (y 0).val; omega
  | ⟨1, _⟩ => show 0 * _ + 1 * (y 1).val = (y 1).val; omega

/-- Window 3's block is its whole array. -/
theorem iblk1_3_apply (c : Dev nD) (t : Fin cfg1.N) (y : S128x128.Idx) :
    iblk1 W1 c 3 t y = W1 c (Pipeline.arrRef spec1 3) y := by
  unfold iblk1
  rw [View.read_apply]
  refine (cast_eq _ _).trans (congrArg (W1 c (Pipeline.arrRef spec1 3)) (funext fun a => Fin.ext ?_))
  match a with
  | ⟨0, _⟩ => show 0 * _ + 1 * (y 0).val = (y 0).val; omega
  | ⟨1, _⟩ => show 0 * _ + 1 * (y 1).val = (y 1).val; omega

/-- Window 4's block is its whole array. -/
theorem iblk1_4_apply (c : Dev nD) (t : Fin cfg1.N) (y : S1x128.Idx) :
    iblk1 W1 c 4 t y = W1 c (Pipeline.arrRef spec1 4) y := by
  unfold iblk1
  rw [View.read_apply]
  refine (cast_eq _ _).trans (congrArg (W1 c (Pipeline.arrRef spec1 4)) (funext fun a => Fin.ext ?_))
  match a with
  | ⟨0, _⟩ => show 0 * _ + 1 * (y 0).val = (y 0).val; omega
  | ⟨1, _⟩ => show 0 * _ + 1 * (y 1).val = (y 1).val; omega

end AnyInstance

/-! ## The payload at an index, on the extended reals -/

section AtIdeal

open Idealize.ShloMosaic.ValueIdx
open scoped BigOperators

theorem hz1 : (![0, 0] : Fin 2 → Nat) = fun _ => 0 := funext fun a => by fin_cases a <;> rfl

/-- The body's matrix product into a zero accumulator, at row `a` and column `b`: the row against the column. -/
theorem mm1_apply (A : FVec Ideal S1000x128 .f32) (M : FVec Ideal S128x128 .f32) (a : Fin 1000) (b : Fin 128) :
    matmul dot_S1000x128_S128x128_S1000x128_1_0_0_1_n_n none A M (constant (F := Ideal) S1000x128 .f32 0x00000000#32) (ix2 a b)
      = ∑ c : Fin 128, A (ix2 a c) * M (ix2 c b) := by
  show FloatOps.matmul dot_S1000x128_S128x128_S1000x128_1_0_0_1_n_n none A M (constant (F := Ideal) S1000x128 .f32 0x00000000#32) (ix2 a b) = _
  rw [Ideal.matmul_constant_zero_apply, ← Equiv.sum_comp (contrEquiv1 dot_S1000x128_S128x128_S1000x128_1_0_0_1_n_n 128 rfl rfl).symm]
  refine Finset.sum_congr rfl fun c _ => ?_
  have c2 := contrEquiv1_symm_val dot_S1000x128_S128x128_S1000x128_1_0_0_1_n_n 128 rfl rfl c
  have l2 : dot_S1000x128_S128x128_S1000x128_1_0_0_1_n_n.lhsIdx (ix2 a b) ((contrEquiv1 dot_S1000x128_S128x128_S1000x128_1_0_0_1_n_n 128 rfl rfl).symm c) = ix2 a c := by
    funext ax; apply Fin.ext
    match ax with
    | ⟨0, _⟩ => simp [DotDims.lhsIdx, dot_S1000x128_S128x128_S1000x128_1_0_0_1_n_n]; rfl
    | ⟨1, _⟩ => simp [DotDims.lhsIdx, dot_S1000x128_S128x128_S1000x128_1_0_0_1_n_n]; exact c2
  have r2 : dot_S1000x128_S128x128_S1000x128_1_0_0_1_n_n.rhsIdx (ix2 a b) ((contrEquiv1 dot_S1000x128_S128x128_S1000x128_1_0_0_1_n_n 128 rfl rfl).symm c) = ix2 c b := by
    funext ax; apply Fin.ext
    match ax with
    | ⟨0, _⟩ => simp [DotDims.rhsIdx, dot_S1000x128_S128x128_S1000x128_1_0_0_1_n_n]; exact c2
    | ⟨1, _⟩ => simp [DotDims.rhsIdx, dot_S1000x128_S128x128_S1000x128_1_0_0_1_n_n]; rfl
  rw [l2, r2]

/-- A bias row laid along every row of the block, at row `a` and column `b`: the bias at `b`. -/
theorem bias1_apply (v : FVec Ideal S1x128 .f32) (a : Fin 1000) (b : Fin 128) :
    broadcastTo S1000x128 v broadcasts_S1x128_S1000x128 (ix2 a b) = v (ix2 (0 : Fin 1) b) := by
  refine broadcastTo_apply v broadcasts_S1x128_S1000x128 (ix2 a b) (ix2 (0 : Fin 1) b) ?_
  intro ax
  match ax with
  | ⟨0, _⟩ => rfl
  | ⟨1, _⟩ =>
    refine (if_neg ?_).symm
    show ¬((128 : Nat) = 1)
    decide

/-- The test "d − 0 ≠ d − 0" fails of every extended real. -/
theorem cmp_one_self1 (d : EReal) : Ideal.cmp .one d d = 0#1 := by
  unfold Ideal.cmp; simp

/-- The body's payload at row `y` and column `j` is the row-wise specification of that row at `j`. -/
theorem pay1_apply (x0 : Vec Ideal S1000x128 .f32) (x1 : Vec Ideal S128x128 .f32) (x2 : Vec Ideal S1x128 .f32)
    (x3 : Vec Ideal S128x128 .f32) (x4 : Vec Ideal S1x128 .f32) (y : Fin 1000) (j : Fin 128) :
    k1_pay1 x0 x1 x2 x3 x4 (ix2 y j)
      = Spec.mlpRow (fun i : Fin 128 => x0 (ix2 y i)) (fun i k => x1 (ix2 i k)) (fun k => x2 (ix2 (0 : Fin 1) k))
          (fun k j => x3 (ix2 k j)) (fun j => x4 (ix2 (0 : Fin 1) j)) j := by
  -- the hidden pre-activation at (y, k)
  have hh : ∀ k : Fin 128, addf (matmul (φ₁ := .f32) (φ₂ := .f32) dot_S1000x128_S128x128_S1000x128_1_0_0_1_n_n none x0 x1 (constant (F := Ideal) S1000x128 .f32 0x00000000#32))
      (broadcastTo S1000x128 x2 broadcasts_S1x128_S1000x128) (ix2 y k)
      = Spec.hidden (fun i : Fin 128 => x0 (ix2 y i)) (fun i k => x1 (ix2 i k)) (fun k => x2 (ix2 (0 : Fin 1) k)) k := by
    intro k; rw [addf_apply, mm1_apply, bias1_apply]; rfl
  unfold k1_pay1
  simp only [shapeCast_self]
  rw [← Spec.mlpRow_assoc, addf_apply, addf_apply, mm1_apply, bias1_apply]
  refine congrArg (· + x4 (ix2 (0 : Fin 1) j)) (congrArg (x0 (ix2 y j) + ·) (Finset.sum_congr rfl fun k _ => ?_))
  refine congrArg (· * x3 (ix2 k j)) ?_
  rw [mulf_apply, hh k]
  unfold Spec.mish
  refine congrArg (Spec.hidden _ _ _ k * ·) ?_
  show Ideal.tanh _ = Ideal.tanh _
  refine congrArg Ideal.tanh ?_
  rw [select_apply, cmpf_apply]
  show Scalar.select (Ideal.cmp .one _ _) _ _ = _
  rw [cmp_one_self1, select_zero, addf_apply, maximumf_apply, hh k]
  unfold Spec.softplus
  show max _ (Ideal.ofBits .f32 0x00000000#32) + Ideal.log1p (Ideal.exp (Ideal.ofBits .f32 0x00000000#32 - max (_ - Ideal.ofBits .f32 0x00000000#32) (-(_ - Ideal.ofBits .f32 0x00000000#32)))) = _
  rw [Ideal.ofBits_zero_f32, zero_sub, sub_zero, hh k]

/-- The output buffer after the body at row `y` and column `j`. -/
theorem out1_apply (x0 : Vec Ideal S1000x128 .f32) (x1 : Vec Ideal S128x128 .f32) (x2 : Vec Ideal S1x128 .f32)
    (x3 : Vec Ideal S128x128 .f32) (x4 : Vec Ideal S1x128 .f32) (y : Fin 1000) (j : Fin 128) :
    out1 x0 x1 x2 x3 x4 (ix2 y j)
      = Spec.mlpRow (fun i : Fin 128 => x0 (ix2 y i)) (fun i k => x1 (ix2 i k)) (fun k => x2 (ix2 (0 : Fin 1) k))
          (fun k j => x3 (ix2 k j)) (fun j => x4 (ix2 (0 : Fin 1) j)) j := by
  unfold out1
  rw [View.canon_unit_zero hz1]
  simp only [View.ld_unit_zero (S := S1000x128) hz1, View.ld_unit_zero (S := S128x128) hz1, View.ld_unit_zero (S := S1x128) hz1]
  exact pay1_apply x0 x1 x2 x3 x4 y j

end AtIdeal

/-! ## From blocks to the array, on the extended reals -/

section Blocks

open Idealize.ShloMosaic.ValueIdx
open scoped BigOperators

variable (W1 : (c : Dev nD) → (b : Ref sig .tc) → Buf (Elt Ideal) ((c : Thread nD τ).loc b))

/-- Window 5's block index at point `t`: row block `t`, column block 0. -/
theorem index1_5 : ∀ t : Fin cfg1.N, win1_5.index t (0 : Fin 2) = t.val ∧ win1_5.index t (1 : Fin 2) = 0 :=
  (by decide +kernel : ∀ t : Fin grid1.N, _)

/-- The region's result as ONE function of the arrays it reads: row `r` of the result is the row-wise
    specification of row `r + 0` of the gathered array viewed with 128 columns. -/
def res1 (A0 : S614400x128.Idx → EReal) (A1 : S128x128.Idx → EReal) (A2 : S1x128.Idx → EReal) (A3 : S128x128.Idx → EReal)
    (A4 : S1x128.Idx → EReal) : S100000x128.Idx → EReal :=
  fun i => Spec.mlpRow
    (fun k : Fin 128 => A0 (ix2 (⟨(i 0).val + 0, by have := idx2_lt0 i; omega⟩ : Fin 614400) k))
    (fun a k => A1 (ix2 a k)) (fun k => A2 (ix2 (0 : Fin 1) k)) (fun k j => A3 (ix2 k j)) (fun j => A4 (ix2 (0 : Fin 1) j))
    (i 1 : Fin 128)

/-- The specification of a block's row `p` at column `q` is the result at the array index that block's
    position names, whenever the block's row is the matching row of the gathered array. -/
theorem res1_at (A0 : S614400x128.Idx → EReal) (A1 : S128x128.Idx → EReal) (A2 : S1x128.Idx → EReal) (A3 : S128x128.Idx → EReal)
    (A4 : S1x128.Idx → EReal) (i : S100000x128.Idx) (p : Fin 1000) (q : Fin 128) (tv : Nat)
    (h0 : (i 0).val = tv * 1000 + p.val) (h1 : (i 1).val = q.val) (X0 : Fin 128 → EReal)
    (hX : ∀ (k : Fin 128) (j : S614400x128.Idx), (j 0).val = (tv + 0) * 1000 + p.val → (j 1).val = k.val → X0 k = A0 j) :
    Spec.mlpRow X0 (fun a k => A1 (ix2 a k)) (fun k => A2 (ix2 (0 : Fin 1) k)) (fun k j => A3 (ix2 k j))
        (fun j => A4 (ix2 (0 : Fin 1) j)) q = res1 A0 A1 A2 A3 A4 i := by
  unfold res1
  have hq : (i 1 : Fin 128) = q := Fin.ext h1
  rw [hq]
  refine congrArg (fun f => Spec.mlpRow f _ _ _ _ q) (funext fun k => ?_)
  exact hX k _ (by show (i 0).val + 0 = _; omega) rfl

/-- What point `t` writes back is block `t` of the result. -/
theorem flushed1_eq (c : Dev nD) (t : Fin cfg1.N) :
    (dat1 W1 c).flushed 5 t = ((cfg1.win 5).blk t).view.read (Elt Ideal) (res1 (W1 c (Pipeline.arrRef spec1 0)) (W1 c (Pipeline.arrRef spec1 1)) (W1 c (Pipeline.arrRef spec1 2)) (W1 c (Pipeline.arrRef spec1 3)) (W1 c (Pipeline.arrRef spec1 4))) := by
  show (cfg1.win 5).cut (grid1.coords t) ((dat1 W1 c).after 5 t) = _
  rw [after1_5]
  funext y
  obtain ⟨p, q, rfl⟩ : ∃ (p : Fin 1000) (q : Fin 128), y = ix2 p q := ⟨y 0, y 1, eq_ix2 y⟩
  obtain ⟨e0, e1⟩ := index1_5 t
  show out1 (xblk1 W1 c t) (iblk1 W1 c 1 t) (iblk1 W1 c 2 t) (iblk1 W1 c 3 t) (iblk1 W1 c 4 t) (ix2 p q)
    = res1 (W1 c (Pipeline.arrRef spec1 0)) (W1 c (Pipeline.arrRef spec1 1)) (W1 c (Pipeline.arrRef spec1 2)) (W1 c (Pipeline.arrRef spec1 3)) (W1 c (Pipeline.arrRef spec1 4)) (((cfg1.win 5).blk t).view.emb (ix2 p q))
  rw [out1_apply]
  have a1 : (fun (a k : Fin 128) => iblk1 W1 c 1 t (ix2 a k)) = fun a k => (W1 c (Pipeline.arrRef spec1 1) : S128x128.Idx → EReal) (ix2 a k) :=
    funext fun a => funext fun k => iblk1_1_apply W1 c t (ix2 a k)
  have a2 : (fun k : Fin 128 => iblk1 W1 c 2 t (ix2 (0 : Fin 1) k)) = fun k => (W1 c (Pipeline.arrRef spec1 2) : S1x128.Idx → EReal) (ix2 (0 : Fin 1) k) :=
    funext fun k => iblk1_2_apply W1 c t (ix2 (0 : Fin 1) k)
  have a3 : (fun (k j : Fin 128) => iblk1 W1 c 3 t (ix2 k j)) = fun k j => (W1 c (Pipeline.arrRef spec1 3) : S128x128.Idx → EReal) (ix2 k j) :=
    funext fun k => funext fun j => iblk1_3_apply W1 c t (ix2 k j)
  have a4 : (fun j : Fin 128 => iblk1 W1 c 4 t (ix2 (0 : Fin 1) j)) = fun j => (W1 c (Pipeline.arrRef spec1 4) : S1x128.Idx → EReal) (ix2 (0 : Fin 1) j) :=
    funext fun j => iblk1_4_apply W1 c t (ix2 (0 : Fin 1) j)
  rw [a1, a2, a3, a4]
  refine res1_at _ _ _ _ _ _ p q t.val ?_ ?_ _ (fun k j hj0 hj1 => xblk1_apply W1 c t (ix2 p k) j hj0 hj1)
  · show win1_5.index t (0 : Fin 2) * 1000 + 1 * p.val = t.val * 1000 + p.val; omega
  · show win1_5.index t (1 : Fin 2) * 128 + 1 * q.val = q.val; omega

/-- An index of the result array is in point `t`'s block iff each coordinate is in the block's range. -/
theorem mem_blk1 (t : Fin cfg1.N) (i : S100000x128.Idx) :
    i ∈ ((cfg1.win 5).blk t).view.set ↔ ∀ a : Fin 2, win1_5.index t a * S1000x128.size a ≤ (i a).val
      ∧ (i a).val < win1_5.index t a * S1000x128.size a + S1000x128.size a := by
  show i ∈ ((View.whole main_v5).slice (win1_5.rect t)).set ↔ _
  rw [View.set_slice_whole, Rect.mem_set_unit]
  exact Iff.rfl

/-- Every index of the result array is in the block of the point its row names. -/
theorem cover1_5 (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 100 := N_1
  refine ⟨⟨(i 0).val / 1000, by rw [hN]; omega⟩, flush1_5 _, ?_⟩
  rw [mem_blk1]
  obtain ⟨e0, e1⟩ := index1_5 ⟨(i 0).val / 1000, by rw [hN]; omega⟩
  intro a
  match a with
  | ⟨0, _⟩ =>
    show win1_5.index _ (0 : Fin 2) * 1000 ≤ (i 0).val ∧ (i 0).val < win1_5.index _ (0 : Fin 2) * 1000 + 1000
    rw [e0]; show (i 0).val / 1000 * 1000 ≤ (i 0).val ∧ (i 0).val < (i 0).val / 1000 * 1000 + 1000; omega
  | ⟨1, _⟩ =>
    show win1_5.index _ (1 : Fin 2) * 128 ≤ (i 1).val ∧ (i 1).val < win1_5.index _ (1 : Fin 2) * 128 + 128
    rw [e1]; omega

/-- THE RESULT ARRAY after the region: `res1` of the arrays the region reads, as it finds them. -/
theorem final1 (c : Dev nD) : (dat1 W1 c).arrAt 5 cfg1.N = res1 (W1 c (Pipeline.arrRef spec1 0)) (W1 c (Pipeline.arrRef spec1 1)) (W1 c (Pipeline.arrRef spec1 2)) (W1 c (Pipeline.arrRef spec1 3)) (W1 c (Pipeline.arrRef spec1 4)) :=
  (dat1 W1 c).arrAt_eq_of_cover 5 (res1 (W1 c (Pipeline.arrRef spec1 0)) (W1 c (Pipeline.arrRef spec1 1)) (W1 c (Pipeline.arrRef spec1 2)) (W1 c (Pipeline.arrRef spec1 3)) (W1 c (Pipeline.arrRef spec1 4))) (fun t _ => flushed1_eq W1 c t) cover1_5

end Blocks

end Cert.Proof.KI

end
-- ==== Proof.KI.KerValA.lean ====
import proofs.«214605_g64536178589837_cont_9to1_m_912_2_alg».proof.Proof.KI.KerChain
import proofs.«214605_g64536178589837_cont_9to1_m_912_2_alg».proof.Proof.KI.RegVal1

/-! # Relation A's messages, as the idealized kernel computes them

The first region's result array is the row-wise specification of the gathered rows 0 … 99999, which are the
table rows the first index list names: relation A's messages. -/

set_option maxRecDepth 16384

noncomputable section

namespace Cert.Proof.KI

open Cert.KernelIdeal Cert.KernelIdeal.Gen Cert.KernelIdeal.TcBody
open Cert.Proof
open Idealize.ShloMosaic Idealize.ShloMosaic.TcCoe Idealize.ShloMosaic.ValueIdx
open Idealize.ShloMosaic.StableHlo
open Idealize.SL.Sem
open scoped BigOperators

/-! ## Relation A's messages -/

section RelA
variable (m : (ℓ : Loc nD τ sig) → Buf (Elt Ideal) ℓ)

theorem ker_a (c : Dev nD) (hI : ∀ r, ((Iv m c) r).toNat < 100000) :
    V4 m c (Proc.devRef .tc (Pipeline.arrRef spec1 5))
      = Spec.msgsA (m (tblLoc c)) (m ((c.tc : Thread nD τ).loc main_arg1)) (m ((c.tc : Thread nD τ).loc main_arg5)) (m ((c.tc : Thread nD τ).loc main_arg6))
          (m ((c.tc : Thread nD τ).loc main_arg7)) (m ((c.tc : Thread nD τ).loc main_arg8)) := by
  unfold V4
  rw [Function.update_self, final1 (Wa m) c]
  funext i
  unfold res1 Spec.msgsA
  refine mlpRow_congr ?_ ?_ ?_ ?_ ?_ _
  · intro k
    show (V3 m c out' : S614400x128.Idx → EReal) (ix2 _ k) = Spec.rowsA _ _ (i 0) k
    rw [V3_out, gathered_apply _ _ _ (hI _)]
    unfold Spec.rowsA
    refine tbl_row _ _ _ ?_ _ _ _ ?_
    · exact (congrArg (Iv m c) (congrArg (ix1 (n := 614400)) (Fin.ext (by
        show (i 0).val + 0 = 1 * (i 0).val + k.val / 128
        have := k.isLt; omega)))).trans (Iv_a m c ⟨1 * (i 0).val + k.val / 128, by have := k.isLt; have := idx2_lt0 i; omega⟩)
    · show k.val = k.val % 128
      have := k.isLt; omega
  · intro a k; exact congrFun (V3_keep m c main_arg5 (by decide) (by decide) (by decide)) (ix2 a k)
  · intro k
    show (V3 m c (Proc.devRef .tc main_v3) : S1x128.Idx → EReal) (ix2 (0 : Fin 1) k) = _
    rw [V3_v3]; exact row_apply _ _ k
  · intro k j; exact congrFun (V3_keep m c main_arg7 (by decide) (by decide) (by decide)) (ix2 k j)
  · intro j
    show (V3 m c (Proc.devRef .tc main_v4) : S1x128.Idx → EReal) (ix2 (0 : Fin 1) j) = _
    rw [V3_v4]; exact row_apply _ _ j

end RelA

end Cert.Proof.KI

end
-- ==== Proof.KI.RegVal2.lean ====
import proofs.«214605_g64536178589837_cont_9to1_m_912_2_alg».proof.Proof.KI.RegData2
import proofs.«214605_g64536178589837_cont_9to1_m_912_2_alg».proof.Proof.Spec
import Idealize.ShloMosaic.Lib.Pipeline.Value
import Idealize.ShloMosaic.Lib.ValueIdx
import Idealize.ShloMosaic.PureOps.Ideal.Laws

/-! # Pipeline number 2: its blocks, element by element

Window 0's block at point `t` is rows `(t + 50)·1000 …` of the gathered array viewed with 256 columns;
windows 1 to 4 are their whole arrays. Each block read at an index is the array read at the matching index.
On the extended reals the body's payload at row `y`, column `j` is the row-wise specification of that row, and
the blocks the points write back tile the result array: the array after the region is one function of the
arrays the region reads. -/

set_option maxRecDepth 16384

noncomputable section

namespace Cert.Proof.KI

open Cert.KernelIdeal Cert.KernelIdeal.Gen Cert.KernelIdeal.TcBody
open Idealize.ShloMosaic Idealize.ShloMosaic.TcCoe
open Idealize.ShloMosaic.SparseCore.Cfg (HIx)
open Idealize.SL Idealize.SL.RA Idealize.SL.BI
open Idealize.SL.Sem
open Idealize.ShloMosaic.Pipeline (Dat Cfg Window)
open Cert.Proof

/-! ## The blocks at an index, for any float instance -/

section AnyInstance

variable {F : FTy → Type} [FloatOps F]

variable (W2 : (c : Dev nD) → (b : Ref sig .tc) → Buf (Elt F) ((c : Thread nD τ).loc b))

/-- Window 0's block index at point `t`: row block `t + 50`, column block 0. -/
theorem index2_0 : ∀ t : Fin cfg2.N, win2_0.index t (0 : Fin 2) = t.val + 50 ∧ win2_0.index t (1 : Fin 2) = 0 :=
  (by decide +kernel : ∀ t : Fin grid2.N, _)

/-- Window 0's block read at `y` is the array read at row `(t + 50)·1000 + y 0`, column `y 1`. -/
theorem xblk2_apply (c : Dev nD) (t : Fin cfg2.N) (y : S1000x256.Idx) (j : S307200x256.Idx)
    (h0 : (j 0).val = (t.val + 50) * 1000 + (y 0).val) (h1 : (j 1).val = (y 1).val) :
    xblk2 W2 c t y = W2 c (Pipeline.arrRef spec2 0) j := by
  have hm : win2_0.moved (grid2.coords t) y = true := (win2_0.moved_iff _ y).mpr fun a => by
    have := (y a).isLt; unfold Window.xsize; rw [clip2_0 t a]; exact this
  unfold xblk2 Window.fill; rw [dif_pos hm]
  unfold iblk2
  rw [View.read_apply]
  refine (cast_eq _ _).trans (congrArg (W2 c (Pipeline.arrRef spec2 0)) (funext fun a => Fin.ext ?_))
  obtain ⟨e0, e1⟩ := index2_0 t
  match a with
  | ⟨0, _⟩ => show win2_0.index t (0 : Fin 2) * 1000 + 1 * (y 0).val = (j 0).val; omega
  | ⟨1, _⟩ => show win2_0.index t (1 : Fin 2) * 256 + 1 * (y 1).val = (j 1).val; omega

/-- Window 1's block is its whole array. -/
theorem iblk2_1_apply (c : Dev nD) (t : Fin cfg2.N) (y : S256x256.Idx) :
    iblk2 W2 c 1 t y = W2 c (Pipeline.arrRef spec2 1) y := by
  unfold iblk2
  rw [View.read_apply]
  refine (cast_eq _ _).trans (congrArg (W2 c (Pipeline.arrRef spec2 1)) (funext fun a => Fin.ext ?_))
  match a with
  | ⟨0, _⟩ => show 0 * _ + 1 * (y 0).val = (y 0).val; omega
  | ⟨1, _⟩ => show 0 * _ + 1 * (y 1).val = (y 1).val; omega

/-- Window 2's block is its whole array. -/
theorem iblk2_2_apply (c : Dev nD) (t : Fin cfg2.N) (y : S1x256.Idx) :
    iblk2 W2 c 2 t y = W2 c (Pipeline.arrRef spec2 2) y := by
  unfold iblk2
  rw [View.read_apply]
  refine (cast_eq _ _).trans (congrArg (W2 c (Pipeline.arrRef spec2 2)) (funext fun a => Fin.ext ?_))
  match a with
  | ⟨0, _⟩ => show 0 * _ + 1 * (y 0).val = (y 0).val; omega
  | ⟨1, _⟩ => show 0 * _ + 1 * (y 1).val = (y 1).val; omega

/-- Window 3's block is its whole array. -/
theorem iblk2_3_apply (c : Dev nD) (t : Fin cfg2.N) (y : S256x256.Idx) :
    iblk2 W2 c 3 t y = W2 c (Pipeline.arrRef spec2 3) y := by
  unfold iblk2
  rw [View.read_apply]
  refine (cast_eq _ _).trans (congrArg (W2 c (Pipeline.arrRef spec2 3)) (funext fun a => Fin.ext ?_))
  match a with
  | ⟨0, _⟩ => show 0 * _ + 1 * (y 0).val = (y 0).val; omega
  | ⟨1, _⟩ => show 0 * _ + 1 * (y 1).val = (y 1).val; omega

/-- Window 4's block is its whole array. -/
theorem iblk2_4_apply (c : Dev nD) (t : Fin cfg2.N) (y : S1x256.Idx) :
    iblk2 W2 c 4 t y = W2 c (Pipeline.arrRef spec2 4) y := by
  unfold iblk2
  rw [View.read_apply]
  refine (cast_eq _ _).trans (congrArg (W2 c (Pipeline.arrRef spec2 4)) (funext fun a => Fin.ext ?_))
  match a with
  | ⟨0, _⟩ => show 0 * _ + 1 * (y 0).val = (y 0).val; omega
  | ⟨1, _⟩ => show 0 * _ + 1 * (y 1).val = (y 1).val; omega

end AnyInstance

/-! ## The payload at an index, on the extended reals -/

section AtIdeal

open Idealize.ShloMosaic.ValueIdx
open scoped BigOperators

theorem hz2 : (![0, 0] : Fin 2 → Nat) = fun _ => 0 := funext fun a => by fin_cases a <;> rfl

/-- The body's matrix product into a zero accumulator, at row `a` and column `b`: the row against the column. -/
theorem mm2_apply (A : FVec Ideal S1000x256 .f32) (M : FVec Ideal S256x256 .f32) (a : Fin 1000) (b : Fin 256) :
    matmul dot_S1000x256_S256x256_S1000x256_1_0_0_1_n_n none A M (constant (F := Ideal) S1000x256 .f32 0x00000000#32) (ix2 a b)
      = ∑ c : Fin 256, A (ix2 a c) * M (ix2 c b) := by
  show FloatOps.matmul dot_S1000x256_S256x256_S1000x256_1_0_0_1_n_n none A M (constant (F := Ideal) S1000x256 .f32 0x00000000#32) (ix2 a b) = _
  rw [Ideal.matmul_constant_zero_apply, ← Equiv.sum_comp (contrEquiv1 dot_S1000x256_S256x256_S1000x256_1_0_0_1_n_n 256 rfl rfl).symm]
  refine Finset.sum_congr rfl fun c _ => ?_
  have c2 := contrEquiv1_symm_val dot_S1000x256_S256x256_S1000x256_1_0_0_1_n_n 256 rfl rfl c
  have l2 : dot_S1000x256_S256x256_S1000x256_1_0_0_1_n_n.lhsIdx (ix2 a b) ((contrEquiv1 dot_S1000x256_S256x256_S1000x256_1_0_0_1_n_n 256 rfl rfl).symm c) = ix2 a c := by
    funext ax; apply Fin.ext
    match ax with
    | ⟨0, _⟩ => simp [DotDims.lhsIdx, dot_S1000x256_S256x256_S1000x256_1_0_0_1_n_n]; rfl
    | ⟨1, _⟩ => simp [DotDims.lhsIdx, dot_S1000x256_S256x256_S1000x256_1_0_0_1_n_n]; exact c2
  have r2 : dot_S1000x256_S256x256_S1000x256_1_0_0_1_n_n.rhsIdx (ix2 a b) ((contrEquiv1 dot_S1000x256_S256x256_S1000x256_1_0_0_1_n_n 256 rfl rfl).symm c) = ix2 c b := by
    funext ax; apply Fin.ext
    match ax with
    | ⟨0, _⟩ => simp [DotDims.rhsIdx, dot_S1000x256_S256x256_S1000x256_1_0_0_1_n_n]; exact c2
    | ⟨1, _⟩ => simp [DotDims.rhsIdx, dot_S1000x256_S256x256_S1000x256_1_0_0_1_n_n]; rfl
  rw [l2, r2]

/-- A bias row laid along every row of the block, at row `a` and column `b`: the bias at `b`. -/
theorem bias2_apply (v : FVec Ideal S1x256 .f32) (a : Fin 1000) (b : Fin 256) :
    broadcastTo S1000x256 v broadcasts_S1x256_S1000x256 (ix2 a b) = v (ix2 (0 : Fin 1) b) := by
  refine broadcastTo_apply v broadcasts_S1x256_S1000x256 (ix2 a b) (ix2 (0 : Fin 1) b) ?_
  intro ax
  match ax with
  | ⟨0, _⟩ => rfl
  | ⟨1, _⟩ =>
    refine (if_neg ?_).symm
    show ¬((256 : Nat) = 1)
    decide

/-- The test "d − 0 ≠ d − 0" fails of every extended real. -/
theorem cmp_one_self2 (d : EReal) : Ideal.cmp .one d d = 0#1 := by
  unfold Ideal.cmp; simp

/-- The body's payload at row `y` and column `j` is the row-wise specification of that row at `j`. -/
theorem pay2_apply (x0 : Vec Ideal S1000x256 .f32) (x1 : Vec Ideal S256x256 .f32) (x2 : Vec Ideal S1x256 .f32)
    (x3 : Vec Ideal S256x256 .f32) (x4 : Vec Ideal S1x256 .f32) (y : Fin 1000) (j : Fin 256) :
    k2_pay1 x0 x1 x2 x3 x4 (ix2 y j)
      = Spec.mlpRow (fun i : Fin 256 => x0 (ix2 y i)) (fun i k => x1 (ix2 i k)) (fun k => x2 (ix2 (0 : Fin 1) k))
          (fun k j => x3 (ix2 k j)) (fun j => x4 (ix2 (0 : Fin 1) j)) j := by
  -- the hidden pre-activation at (y, k)
  have hh : ∀ k : Fin 256, addf (matmul (φ₁ := .f32) (φ₂ := .f32) dot_S1000x256_S256x256_S1000x256_1_0_0_1_n_n none x0 x1 (constant (F := Ideal) S1000x256 .f32 0x00000000#32))
      (broadcastTo S1000x256 x2 broadcasts_S1x256_S1000x256) (ix2 y k)
      = Spec.hidden (fun i : Fin 256 => x0 (ix2 y i)) (fun i k => x1 (ix2 i k)) (fun k => x2 (ix2 (0 : Fin 1) k)) k := by
    intro k; rw [addf_apply, mm2_apply, bias2_apply]; rfl
  unfold k2_pay1
  simp only [shapeCast_self]
  rw [← Spec.mlpRow_assoc, addf_apply, addf_apply, mm2_apply, bias2_apply]
  refine congrArg (· + x4 (ix2 (0 : Fin 1) j)) (congrArg (x0 (ix2 y j) + ·) (Finset.sum_congr rfl fun k _ => ?_))
  refine congrArg (· * x3 (ix2 k j)) ?_
  rw [mulf_apply, hh k]
  unfold Spec.mish
  refine congrArg (Spec.hidden _ _ _ k * ·) ?_
  show Ideal.tanh _ = Ideal.tanh _
  refine congrArg Ideal.tanh ?_
  rw [select_apply, cmpf_apply]
  show Scalar.select (Ideal.cmp .one _ _) _ _ = _
  rw [cmp_one_self2, select_zero, addf_apply, maximumf_apply, hh k]
  unfold Spec.softplus
  show max _ (Ideal.ofBits .f32 0x00000000#32) + Ideal.log1p (Ideal.exp (Ideal.ofBits .f32 0x00000000#32 - max (_ - Ideal.ofBits .f32 0x00000000#32) (-(_ - Ideal.ofBits .f32 0x00000000#32)))) = _
  rw [Ideal.ofBits_zero_f32, zero_sub, sub_zero, hh k]

/-- The output buffer after the body at row `y` and column `j`. -/
theorem out2_apply (x0 : Vec Ideal S1000x256 .f32) (x1 : Vec Ideal S256x256 .f32) (x2 : Vec Ideal S1x256 .f32)
    (x3 : Vec Ideal S256x256 .f32) (x4 : Vec Ideal S1x256 .f32) (y : Fin 1000) (j : Fin 256) :
    out2 x0 x1 x2 x3 x4 (ix2 y j)
      = Spec.mlpRow (fun i : Fin 256 => x0 (ix2 y i)) (fun i k => x1 (ix2 i k)) (fun k => x2 (ix2 (0 : Fin 1) k))
          (fun k j => x3 (ix2 k j)) (fun j => x4 (ix2 (0 : Fin 1) j)) j := by
  unfold out2
  rw [View.canon_unit_zero hz2]
  simp only [View.ld_unit_zero (S := S1000x256) hz2, View.ld_unit_zero (S := S256x256) hz2, View.ld_unit_zero (S := S1x256) hz2]
  exact pay2_apply x0 x1 x2 x3 x4 y j

end AtIdeal

/-! ## From blocks to the array, on the extended reals -/

section Blocks

open Idealize.ShloMosaic.ValueIdx
open scoped BigOperators

variable (W2 : (c : Dev nD) → (b : Ref sig .tc) → Buf (Elt Ideal) ((c : Thread nD τ).loc b))

/-- Window 5's block index at point `t`: row block `t`, column block 0. -/
theorem index2_5 : ∀ t : Fin cfg2.N, win2_5.index t (0 : Fin 2) = t.val ∧ win2_5.index t (1 : Fin 2) = 0 :=
  (by decide +kernel : ∀ t : Fin grid2.N, _)

/-- The region's result as ONE function of the arrays it reads: row `r` of the result is the row-wise
    specification of row `r + 50000` of the gathered array viewed with 256 columns. -/
def res2 (A0 : S307200x256.Idx → EReal) (A1 : S256x256.Idx → EReal) (A2 : S1x256.Idx → EReal) (A3 : S256x256.Idx → EReal)
    (A4 : S1x256.Idx → EReal) : S100000x256.Idx → EReal :=
  fun i => Spec.mlpRow
    (fun k : Fin 256 => A0 (ix2 (⟨(i 0).val + 50000, by have := idx2_lt0 i; omega⟩ : Fin 307200) k))
    (fun a k => A1 (ix2 a k)) (fun k => A2 (ix2 (0 : Fin 1) k)) (fun k j => A3 (ix2 k j)) (fun j => A4 (ix2 (0 : Fin 1) j))
    (i 1 : Fin 256)

/-- The specification of a block's row `p` at column `q` is the result at the array index that block's
    position names, whenever the block's row is the matching row of the gathered array. -/
theorem res2_at (A0 : S307200x256.Idx → EReal) (A1 : S256x256.Idx → EReal) (A2 : S1x256.Idx → EReal) (A3 : S256x256.Idx → EReal)
    (A4 : S1x256.Idx → EReal) (i : S100000x256.Idx) (p : Fin 1000) (q : Fin 256) (tv : Nat)
    (h0 : (i 0).val = tv * 1000 + p.val) (h1 : (i 1).val = q.val) (X0 : Fin 256 → EReal)
    (hX : ∀ (k : Fin 256) (j : S307200x256.Idx), (j 0).val = (tv + 50) * 1000 + p.val → (j 1).val = k.val → X0 k = A0 j) :
    Spec.mlpRow X0 (fun a k => A1 (ix2 a k)) (fun k => A2 (ix2 (0 : Fin 1) k)) (fun k j => A3 (ix2 k j))
        (fun j => A4 (ix2 (0 : Fin 1) j)) q = res2 A0 A1 A2 A3 A4 i := by
  unfold res2
  have hq : (i 1 : Fin 256) = q := Fin.ext h1
  rw [hq]
  refine congrArg (fun f => Spec.mlpRow f _ _ _ _ q) (funext fun k => ?_)
  exact hX k _ (by show (i 0).val + 50000 = _; omega) rfl

/-- What point `t` writes back is block `t` of the result. -/
theorem flushed2_eq (c : Dev nD) (t : Fin cfg2.N) :
    (dat2 W2 c).flushed 5 t = ((cfg2.win 5).blk t).view.read (Elt Ideal) (res2 (W2 c (Pipeline.arrRef spec2 0)) (W2 c (Pipeline.arrRef spec2 1)) (W2 c (Pipeline.arrRef spec2 2)) (W2 c (Pipeline.arrRef spec2 3)) (W2 c (Pipeline.arrRef spec2 4))) := by
  show (cfg2.win 5).cut (grid2.coords t) ((dat2 W2 c).after 5 t) = _
  rw [after2_5]
  funext y
  obtain ⟨p, q, rfl⟩ : ∃ (p : Fin 1000) (q : Fin 256), y = ix2 p q := ⟨y 0, y 1, eq_ix2 y⟩
  obtain ⟨e0, e1⟩ := index2_5 t
  show out2 (xblk2 W2 c t) (iblk2 W2 c 1 t) (iblk2 W2 c 2 t) (iblk2 W2 c 3 t) (iblk2 W2 c 4 t) (ix2 p q)
    = res2 (W2 c (Pipeline.arrRef spec2 0)) (W2 c (Pipeline.arrRef spec2 1)) (W2 c (Pipeline.arrRef spec2 2)) (W2 c (Pipeline.arrRef spec2 3)) (W2 c (Pipeline.arrRef spec2 4)) (((cfg2.win 5).blk t).view.emb (ix2 p q))
  rw [out2_apply]
  have a1 : (fun (a k : Fin 256) => iblk2 W2 c 1 t (ix2 a k)) = fun a k => (W2 c (Pipeline.arrRef spec2 1) : S256x256.Idx → EReal) (ix2 a k) :=
    funext fun a => funext fun k => iblk2_1_apply W2 c t (ix2 a k)
  have a2 : (fun k : Fin 256 => iblk2 W2 c 2 t (ix2 (0 : Fin 1) k)) = fun k => (W2 c (Pipeline.arrRef spec2 2) : S1x256.Idx → EReal) (ix2 (0 : Fin 1) k) :=
    funext fun k => iblk2_2_apply W2 c t (ix2 (0 : Fin 1) k)
  have a3 : (fun (k j : Fin 256) => iblk2 W2 c 3 t (ix2 k j)) = fun k j => (W2 c (Pipeline.arrRef spec2 3) : S256x256.Idx → EReal) (ix2 k j) :=
    funext fun k => funext fun j => iblk2_3_apply W2 c t (ix2 k j)
  have a4 : (fun j : Fin 256 => iblk2 W2 c 4 t (ix2 (0 : Fin 1) j)) = fun j => (W2 c (Pipeline.arrRef spec2 4) : S1x256.Idx → EReal) (ix2 (0 : Fin 1) j) :=
    funext fun j => iblk2_4_apply W2 c t (ix2 (0 : Fin 1) j)
  rw [a1, a2, a3, a4]
  refine res2_at _ _ _ _ _ _ p q t.val ?_ ?_ _ (fun k j hj0 hj1 => xblk2_apply W2 c t (ix2 p k) j hj0 hj1)
  · show win2_5.index t (0 : Fin 2) * 1000 + 1 * p.val = t.val * 1000 + p.val; omega
  · show win2_5.index t (1 : Fin 2) * 256 + 1 * q.val = q.val; omega

/-- An index of the result array is in point `t`'s block iff each coordinate is in the block's range. -/
theorem mem_blk2 (t : Fin cfg2.N) (i : S100000x256.Idx) :
    i ∈ ((cfg2.win 5).blk t).view.set ↔ ∀ a : Fin 2, win2_5.index t a * S1000x256.size a ≤ (i a).val
      ∧ (i a).val < win2_5.index t a * S1000x256.size a + S1000x256.size a := by
  show i ∈ ((View.whole main_v9).slice (win2_5.rect t)).set ↔ _
  rw [View.set_slice_whole, Rect.mem_set_unit]
  exact Iff.rfl

/-- Every index of the result array is in the block of the point its row names. -/
theorem cover2_5 (i : S100000x256.Idx) : ∃ t : Fin cfg2.N, (cfg2.win 5).flush t = true ∧ i ∈ ((cfg2.win 5).blk t).view.set := by
  have hi0 : (i 0).val < 100000 := idx2_lt0 i
  have hi1 : (i 1).val < 256 := idx2_lt1 i
  have hN : cfg2.N = 100 := N_2
  refine ⟨⟨(i 0).val / 1000, by rw [hN]; omega⟩, flush2_5 _, ?_⟩
  rw [mem_blk2]
  obtain ⟨e0, e1⟩ := index2_5 ⟨(i 0).val / 1000, by rw [hN]; omega⟩
  intro a
  match a with
  | ⟨0, _⟩ =>
    show win2_5.index _ (0 : Fin 2) * 1000 ≤ (i 0).val ∧ (i 0).val < win2_5.index _ (0 : Fin 2) * 1000 + 1000
    rw [e0]; show (i 0).val / 1000 * 1000 ≤ (i 0).val ∧ (i 0).val < (i 0).val / 1000 * 1000 + 1000; omega
  | ⟨1, _⟩ =>
    show win2_5.index _ (1 : Fin 2) * 256 ≤ (i 1).val ∧ (i 1).val < win2_5.index _ (1 : Fin 2) * 256 + 256
    rw [e1]; omega

/-- THE RESULT ARRAY after the region: `res2` of the arrays the region reads, as it finds them. -/
theorem final2 (c : Dev nD) : (dat2 W2 c).arrAt 5 cfg2.N = res2 (W2 c (Pipeline.arrRef spec2 0)) (W2 c (Pipeline.arrRef spec2 1)) (W2 c (Pipeline.arrRef spec2 2)) (W2 c (Pipeline.arrRef spec2 3)) (W2 c (Pipeline.arrRef spec2 4)) :=
  (dat2 W2 c).arrAt_eq_of_cover 5 (res2 (W2 c (Pipeline.arrRef spec2 0)) (W2 c (Pipeline.arrRef spec2 1)) (W2 c (Pipeline.arrRef spec2 2)) (W2 c (Pipeline.arrRef spec2 3)) (W2 c (Pipeline.arrRef spec2 4))) (fun t _ => flushed2_eq W2 c t) cover2_5

end Blocks

end Cert.Proof.KI

end
-- ==== Proof.KI.KerValB.lean ====
import proofs.«214605_g64536178589837_cont_9to1_m_912_2_alg».proof.Proof.KI.KerChain
import proofs.«214605_g64536178589837_cont_9to1_m_912_2_alg».proof.Proof.KI.RegVal2

/-! # Relation B's messages, as the idealized kernel computes them

The second region's result array is the row-wise specification of rows 50000 … 149999 of the gathered array read as rows of 256, which are the pairs of table rows the second index list names: relation B's messages. -/

set_option maxRecDepth 16384

noncomputable section

namespace Cert.Proof.KI

open Cert.KernelIdeal Cert.KernelIdeal.Gen Cert.KernelIdeal.TcBody
open Cert.Proof
open Idealize.ShloMosaic Idealize.ShloMosaic.TcCoe Idealize.ShloMosaic.ValueIdx
open Idealize.ShloMosaic.StableHlo
open Idealize.SL.Sem
open scoped BigOperators

/-! ## Relation B's messages -/

section RelB

section AnyInstance
variable {F : FTy → Type} [FloatOps F]
variable (m : (ℓ : Loc nD τ sig) → Buf (Elt F) ℓ)

/-- The region reads the gathered array as rows of 256. -/
theorem V5_view (d : Dev nD) : V5 m d (Proc.devRef .tc main_v6)
    = (shapeCast S307200x256 (gathered (m (tblLoc d)) (Iv m d)) shapeCasts_S614400x128_S307200x256 : S307200x256.Idx → Elt F .f32) := by
  unfold V5; after_results
  have e : V4 m d (Proc.devRef .tc main_v2) = gathered (m (tblLoc d)) (Iv m d) := V4_out m d
  rw [e]; rfl

/-- Its bias rows are the bias arguments laid as one-row matrices. -/
theorem V5_b1 (d : Dev nD) : V5 m d (Proc.devRef .tc main_v7)
    = (shapeCast S1x256 (m (d, Proc.devRef .tc main_arg10) : S256.Idx → Elt F .f32) shapeCasts_S256_S1x256 : S1x256.Idx → Elt F .f32) := by
  unfold V5; after_results; rw [V4_keep m d main_arg10 (by decide) (by decide) (by decide) (by decide)]; rfl
theorem V5_b2 (d : Dev nD) : V5 m d (Proc.devRef .tc main_v8)
    = (shapeCast S1x256 (m (d, Proc.devRef .tc main_arg12) : S256.Idx → Elt F .f32) shapeCasts_S256_S1x256 : S1x256.Idx → Elt F .f32) := by
  unfold V5; after_results; rw [V4_keep m d main_arg12 (by decide) (by decide) (by decide) (by decide)]; rfl

/-- Row `R`, entry `k` of the 256-wide view is entry `k mod 128` of gathered row `2·R + k div 128`. -/
theorem wideB_apply {α : Type} (g : S614400x128.Idx → α) (R : Fin 307200) (k : Fin 256) :
    shapeCast S307200x256 g shapeCasts_S614400x128_S307200x256 (ix2 R k)
      = g (ix2 (⟨2 * R.val + k.val / 128, by have := R.isLt; have := k.isLt; omega⟩ : Fin 614400) (⟨k.val % 128, by omega⟩ : Fin 128)) :=
  shapeCast_apply g shapeCasts_S614400x128_S307200x256 (ix2 R k) _ (by
    rw [Shape.rowMajor_val_two, Shape.rowMajor_val_two]
    show (2 * R.val + k.val / 128) * 128 + k.val % 128 = R.val * 256 + k.val
    have := k.isLt; omega)

end AnyInstance

variable (m : (ℓ : Loc nD τ sig) → Buf (Elt Ideal) ℓ)

theorem ker_b (c : Dev nD) (hI : ∀ r, ((Iv m c) r).toNat < 100000) :
    V6 m c (Proc.devRef .tc (Pipeline.arrRef spec2 5))
      = Spec.msgsB (m (tblLoc c)) (m ((c.tc : Thread nD τ).loc main_arg2)) (m ((c.tc : Thread nD τ).loc main_arg9)) (m ((c.tc : Thread nD τ).loc main_arg10))
          (m ((c.tc : Thread nD τ).loc main_arg11)) (m ((c.tc : Thread nD τ).loc main_arg12)) := by
  unfold V6
  rw [Function.update_self, final2 (Wb m) c]
  funext i
  unfold res2 Spec.msgsB
  refine mlpRow_congr ?_ ?_ ?_ ?_ ?_ _
  · intro k
    show (V5 m c (Proc.devRef .tc main_v6) : S307200x256.Idx → EReal) (ix2 _ k) = Spec.rowsB _ _ (i 0) k
    rw [V5_view, wideB_apply, gathered_apply _ _ _ (hI _)]
    unfold Spec.rowsB
    refine tbl_row _ _ _ ?_ _ _ _ rfl
    exact (congrArg (Iv m c) (congrArg (ix1 (n := 614400)) (Fin.ext (by
      show 2 * ((i 0).val + 50000) + k.val / 128 = 100000 + (2 * (i 0).val + k.val / 128)
      omega)))).trans (Iv_b m c ⟨2 * (i 0).val + k.val / 128, by have := k.isLt; have := idx2_lt0 i; omega⟩)
  · intro a k; exact congrFun (V5_keep m c main_arg9 (by decide) (by decide) (by decide) (by decide) (by decide)) (ix2 a k)
  · intro k
    show (V5 m c (Proc.devRef .tc main_v7) : S1x256.Idx → EReal) (ix2 (0 : Fin 1) k) = _
    rw [V5_b1]; exact row_apply _ _ k
  · intro k j; exact congrFun (V5_keep m c main_arg11 (by decide) (by decide) (by decide) (by decide) (by decide)) (ix2 k j)
  · intro j
    show (V5 m c (Proc.devRef .tc main_v8) : S1x256.Idx → EReal) (ix2 (0 : Fin 1) j) = _
    rw [V5_b2]; exact row_apply _ _ j

end RelB

end Cert.Proof.KI

end
-- ==== Proof.KI.RegVal3.lean ====
import proofs.«214605_g64536178589837_cont_9to1_m_912_2_alg».proof.Proof.KI.RegData3
import proofs.«214605_g64536178589837_cont_9to1_m_912_2_alg».proof.Proof.Spec
import Idealize.ShloMosaic.Lib.Pipeline.Value
import Idealize.ShloMosaic.Lib.ValueIdx
import Idealize.ShloMosaic.PureOps.Ideal.Laws

/-! # Pipeline number 3: its blocks, element by element

Window 0's block at point `t` is rows `(t + 150)·1000 …` of the gathered array viewed with 256 columns;
windows 1 to 4 are their whole arrays. Each block read at an index is the array read at the matching index.
On the extended reals the body's payload at row `y`, column `j` is the row-wise specification of that row, and
the blocks the points write back tile the result array: the array after the region is one function of the
arrays the region reads. -/

set_option maxRecDepth 16384

noncomputable section

namespace Cert.Proof.KI

open Cert.KernelIdeal Cert.KernelIdeal.Gen Cert.KernelIdeal.TcBody
open Idealize.ShloMosaic Idealize.ShloMosaic.TcCoe
open Idealize.ShloMosaic.SparseCore.Cfg (HIx)
open Idealize.SL Idealize.SL.RA Idealize.SL.BI
open Idealize.SL.Sem
open Idealize.ShloMosaic.Pipeline (Dat Cfg Window)
open Cert.Proof

/-! ## The blocks at an index, for any float instance -/

section AnyInstance

variable {F : FTy → Type} [FloatOps F]

variable (W3 : (c : Dev nD) → (b : Ref sig .tc) → Buf (Elt F) ((c : Thread nD τ).loc b))

/-- Window 0's block index at point `t`: row block `t + 150`, column block 0. -/
theorem index3_0 : ∀ t : Fin cfg3.N, win3_0.index t (0 : Fin 2) = t.val + 150 ∧ win3_0.index t (1 : Fin 2) = 0 :=
  (by decide +kernel : ∀ t : Fin grid3.N, _)

/-- Window 0's block read at `y` is the array read at row `(t + 150)·1000 + y 0`, column `y 1`. -/
theorem xblk3_apply (c : Dev nD) (t : Fin cfg3.N) (y : S1000x256.Idx) (j : S307200x256.Idx)
    (h0 : (j 0).val = (t.val + 150) * 1000 + (y 0).val) (h1 : (j 1).val = (y 1).val) :
    xblk3 W3 c t y = W3 c (Pipeline.arrRef spec3 0) j := by
  have hm : win3_0.moved (grid3.coords t) y = true := (win3_0.moved_iff _ y).mpr fun a => by
    have := (y a).isLt; unfold Window.xsize; rw [clip3_0 t a]; exact this
  unfold xblk3 Window.fill; rw [dif_pos hm]
  unfold iblk3
  rw [View.read_apply]
  refine (cast_eq _ _).trans (congrArg (W3 c (Pipeline.arrRef spec3 0)) (funext fun a => Fin.ext ?_))
  obtain ⟨e0, e1⟩ := index3_0 t
  match a with
  | ⟨0, _⟩ => show win3_0.index t (0 : Fin 2) * 1000 + 1 * (y 0).val = (j 0).val; omega
  | ⟨1, _⟩ => show win3_0.index t (1 : Fin 2) * 256 + 1 * (y 1).val = (j 1).val; omega

/-- Window 1's block is its whole array. -/
theorem iblk3_1_apply (c : Dev nD) (t : Fin cfg3.N) (y : S256x256.Idx) :
    iblk3 W3 c 1 t y = W3 c (Pipeline.arrRef spec3 1) y := by
  unfold iblk3
  rw [View.read_apply]
  refine (cast_eq _ _).trans (congrArg (W3 c (Pipeline.arrRef spec3 1)) (funext fun a => Fin.ext ?_))
  match a with
  | ⟨0, _⟩ => show 0 * _ + 1 * (y 0).val = (y 0).val; omega
  | ⟨1, _⟩ => show 0 * _ + 1 * (y 1).val = (y 1).val; omega

/-- Window 2's block is its whole array. -/
theorem iblk3_2_apply (c : Dev nD) (t : Fin cfg3.N) (y : S1x256.Idx) :
    iblk3 W3 c 2 t y = W3 c (Pipeline.arrRef spec3 2) y := by
  unfold iblk3
  rw [View.read_apply]
  refine (cast_eq _ _).trans (congrArg (W3 c (Pipeline.arrRef spec3 2)) (funext fun a => Fin.ext ?_))
  match a with
  | ⟨0, _⟩ => show 0 * _ + 1 * (y 0).val = (y 0).val; omega
  | ⟨1, _⟩ => show 0 * _ + 1 * (y 1).val = (y 1).val; omega

/-- Window 3's block is its whole array. -/
theorem iblk3_3_apply (c : Dev nD) (t : Fin cfg3.N) (y : S256x256.Idx) :
    iblk3 W3 c 3 t y = W3 c (Pipeline.arrRef spec3 3) y := by
  unfold iblk3
  rw [View.read_apply]
  refine (cast_eq _ _).trans (congrArg (W3 c (Pipeline.arrRef spec3 3)) (funext fun a => Fin.ext ?_))
  match a with
  | ⟨0, _⟩ => show 0 * _ + 1 * (y 0).val = (y 0).val; omega
  | ⟨1, _⟩ => show 0 * _ + 1 * (y 1).val = (y 1).val; omega

/-- Window 4's block is its whole array. -/
theorem iblk3_4_apply (c : Dev nD) (t : Fin cfg3.N) (y : S1x256.Idx) :
    iblk3 W3 c 4 t y = W3 c (Pipeline.arrRef spec3 4) y := by
  unfold iblk3
  rw [View.read_apply]
  refine (cast_eq _ _).trans (congrArg (W3 c (Pipeline.arrRef spec3 4)) (funext fun a => Fin.ext ?_))
  match a with
  | ⟨0, _⟩ => show 0 * _ + 1 * (y 0).val = (y 0).val; omega
  | ⟨1, _⟩ => show 0 * _ + 1 * (y 1).val = (y 1).val; omega

end AnyInstance

/-! ## The payload at an index, on the extended reals -/

section AtIdeal

open Idealize.ShloMosaic.ValueIdx
open scoped BigOperators

theorem hz3 : (![0, 0] : Fin 2 → Nat) = fun _ => 0 := funext fun a => by fin_cases a <;> rfl

/-- The body's matrix product into a zero accumulator, at row `a` and column `b`: the row against the column. -/
theorem mm3_apply (A : FVec Ideal S1000x256 .f32) (M : FVec Ideal S256x256 .f32) (a : Fin 1000) (b : Fin 256) :
    matmul dot_S1000x256_S256x256_S1000x256_1_0_0_1_n_n none A M (constant (F := Ideal) S1000x256 .f32 0x00000000#32) (ix2 a b)
      = ∑ c : Fin 256, A (ix2 a c) * M (ix2 c b) := by
  show FloatOps.matmul dot_S1000x256_S256x256_S1000x256_1_0_0_1_n_n none A M (constant (F := Ideal) S1000x256 .f32 0x00000000#32) (ix2 a b) = _
  rw [Ideal.matmul_constant_zero_apply, ← Equiv.sum_comp (contrEquiv1 dot_S1000x256_S256x256_S1000x256_1_0_0_1_n_n 256 rfl rfl).symm]
  refine Finset.sum_congr rfl fun c _ => ?_
  have c2 := contrEquiv1_symm_val dot_S1000x256_S256x256_S1000x256_1_0_0_1_n_n 256 rfl rfl c
  have l2 : dot_S1000x256_S256x256_S1000x256_1_0_0_1_n_n.lhsIdx (ix2 a b) ((contrEquiv1 dot_S1000x256_S256x256_S1000x256_1_0_0_1_n_n 256 rfl rfl).symm c) = ix2 a c := by
    funext ax; apply Fin.ext
    match ax with
    | ⟨0, _⟩ => simp [DotDims.lhsIdx, dot_S1000x256_S256x256_S1000x256_1_0_0_1_n_n]; rfl
    | ⟨1, _⟩ => simp [DotDims.lhsIdx, dot_S1000x256_S256x256_S1000x256_1_0_0_1_n_n]; exact c2
  have r2 : dot_S1000x256_S256x256_S1000x256_1_0_0_1_n_n.rhsIdx (ix2 a b) ((contrEquiv1 dot_S1000x256_S256x256_S1000x256_1_0_0_1_n_n 256 rfl rfl).symm c) = ix2 c b := by
    funext ax; apply Fin.ext
    match ax with
    | ⟨0, _⟩ => simp [DotDims.rhsIdx, dot_S1000x256_S256x256_S1000x256_1_0_0_1_n_n]; exact c2
    | ⟨1, _⟩ => simp [DotDims.rhsIdx, dot_S1000x256_S256x256_S1000x256_1_0_0_1_n_n]; rfl
  rw [l2, r2]

/-- A bias row laid along every row of the block, at row `a` and column `b`: the bias at `b`. -/
theorem bias3_apply (v : FVec Ideal S1x256 .f32) (a : Fin 1000) (b : Fin 256) :
    broadcastTo S1000x256 v broadcasts_S1x256_S1000x256 (ix2 a b) = v (ix2 (0 : Fin 1) b) := by
  refine broadcastTo_apply v broadcasts_S1x256_S1000x256 (ix2 a b) (ix2 (0 : Fin 1) b) ?_
  intro ax
  match ax with
  | ⟨0, _⟩ => rfl
  | ⟨1, _⟩ =>
    refine (if_neg ?_).symm
    show ¬((256 : Nat) = 1)
    decide

/-- The test "d − 0 ≠ d − 0" fails of every extended real. -/
theorem cmp_one_self3 (d : EReal) : Ideal.cmp .one d d = 0#1 := by
  unfold Ideal.cmp; simp

/-- The body's payload at row `y` and column `j` is the row-wise specification of that row at `j`. -/
theorem pay3_apply (x0 : Vec Ideal S1000x256 .f32) (x1 : Vec Ideal S256x256 .f32) (x2 : Vec Ideal S1x256 .f32)
    (x3 : Vec Ideal S256x256 .f32) (x4 : Vec Ideal S1x256 .f32) (y : Fin 1000) (j : Fin 256) :
    k3_pay1 x0 x1 x2 x3 x4 (ix2 y j)
      = Spec.mlpRow (fun i : Fin 256 => x0 (ix2 y i)) (fun i k => x1 (ix2 i k)) (fun k => x2 (ix2 (0 : Fin 1) k))
          (fun k j => x3 (ix2 k j)) (fun j => x4 (ix2 (0 : Fin 1) j)) j := by
  -- the hidden pre-activation at (y, k)
  have hh : ∀ k : Fin 256, addf (matmul (φ₁ := .f32) (φ₂ := .f32) dot_S1000x256_S256x256_S1000x256_1_0_0_1_n_n none x0 x1 (constant (F := Ideal) S1000x256 .f32 0x00000000#32))
      (broadcastTo S1000x256 x2 broadcasts_S1x256_S1000x256) (ix2 y k)
      = Spec.hidden (fun i : Fin 256 => x0 (ix2 y i)) (fun i k => x1 (ix2 i k)) (fun k => x2 (ix2 (0 : Fin 1) k)) k := by
    intro k; rw [addf_apply, mm3_apply, bias3_apply]; rfl
  unfold k3_pay1
  simp only [shapeCast_self]
  rw [← Spec.mlpRow_assoc, addf_apply, addf_apply, mm3_apply, bias3_apply]
  refine congrArg (· + x4 (ix2 (0 : Fin 1) j)) (congrArg (x0 (ix2 y j) + ·) (Finset.sum_congr rfl fun k _ => ?_))
  refine congrArg (· * x3 (ix2 k j)) ?_
  rw [mulf_apply, hh k]
  unfold Spec.mish
  refine congrArg (Spec.hidden _ _ _ k * ·) ?_
  show Ideal.tanh _ = Ideal.tanh _
  refine congrArg Ideal.tanh ?_
  rw [select_apply, cmpf_apply]
  show Scalar.select (Ideal.cmp .one _ _) _ _ = _
  rw [cmp_one_self3, select_zero, addf_apply, maximumf_apply, hh k]
  unfold Spec.softplus
  show max _ (Ideal.ofBits .f32 0x00000000#32) + Ideal.log1p (Ideal.exp (Ideal.ofBits .f32 0x00000000#32 - max (_ - Ideal.ofBits .f32 0x00000000#32) (-(_ - Ideal.ofBits .f32 0x00000000#32)))) = _
  rw [Ideal.ofBits_zero_f32, zero_sub, sub_zero, hh k]

/-- The output buffer after the body at row `y` and column `j`. -/
theorem out3_apply (x0 : Vec Ideal S1000x256 .f32) (x1 : Vec Ideal S256x256 .f32) (x2 : Vec Ideal S1x256 .f32)
    (x3 : Vec Ideal S256x256 .f32) (x4 : Vec Ideal S1x256 .f32) (y : Fin 1000) (j : Fin 256) :
    out3 x0 x1 x2 x3 x4 (ix2 y j)
      = Spec.mlpRow (fun i : Fin 256 => x0 (ix2 y i)) (fun i k => x1 (ix2 i k)) (fun k => x2 (ix2 (0 : Fin 1) k))
          (fun k j => x3 (ix2 k j)) (fun j => x4 (ix2 (0 : Fin 1) j)) j := by
  unfold out3
  rw [View.canon_unit_zero hz3]
  simp only [View.ld_unit_zero (S := S1000x256) hz3, View.ld_unit_zero (S := S256x256) hz3, View.ld_unit_zero (S := S1x256) hz3]
  exact pay3_apply x0 x1 x2 x3 x4 y j

end AtIdeal

/-! ## From blocks to the array, on the extended reals -/

section Blocks

open Idealize.ShloMosaic.ValueIdx
open scoped BigOperators

variable (W3 : (c : Dev nD) → (b : Ref sig .tc) → Buf (Elt Ideal) ((c : Thread nD τ).loc b))

/-- Window 5's block index at point `t`: row block `t`, column block 0. -/
theorem index3_5 : ∀ t : Fin cfg3.N, win3_5.index t (0 : Fin 2) = t.val ∧ win3_5.index t (1 : Fin 2) = 0 :=
  (by decide +kernel : ∀ t : Fin grid3.N, _)

/-- The region's result as ONE function of the arrays it reads: row `r` of the result is the row-wise
    specification of row `r + 150000` of the gathered array viewed with 256 columns. -/
def res3 (A0 : S307200x256.Idx → EReal) (A1 : S256x256.Idx → EReal) (A2 : S1x256.Idx → EReal) (A3 : S256x256.Idx → EReal)
    (A4 : S1x256.Idx → EReal) : S75000x256.Idx → EReal :=
  fun i => Spec.mlpRow
    (fun k : Fin 256 => A0 (ix2 (⟨(i 0).val + 150000, by have := idx2_lt0 i; omega⟩ : Fin 307200) k))
    (fun a k => A1 (ix2 a k)) (fun k => A2 (ix2 (0 : Fin 1) k)) (fun k j => A3 (ix2 k j)) (fun j => A4 (ix2 (0 : Fin 1) j))
    (i 1 : Fin 256)

/-- The specification of a block's row `p` at column `q` is the result at the array index that block's
    position names, whenever the block's row is the matching row of the gathered array. -/
theorem res3_at (A0 : S307200x256.Idx → EReal) (A1 : S256x256.Idx → EReal) (A2 : S1x256.Idx → EReal) (A3 : S256x256.Idx → EReal)
    (A4 : S1x256.Idx → EReal) (i : S75000x256.Idx) (p : Fin 1000) (q : Fin 256) (tv : Nat)
    (h0 : (i 0).val = tv * 1000 + p.val) (h1 : (i 1).val = q.val) (X0 : Fin 256 → EReal)
    (hX : ∀ (k : Fin 256) (j : S307200x256.Idx), (j 0).val = (tv + 150) * 1000 + p.val → (j 1).val = k.val → X0 k = A0 j) :
    Spec.mlpRow X0 (fun a k => A1 (ix2 a k)) (fun k => A2 (ix2 (0 : Fin 1) k)) (fun k j => A3 (ix2 k j))
        (fun j => A4 (ix2 (0 : Fin 1) j)) q = res3 A0 A1 A2 A3 A4 i := by
  unfold res3
  have hq : (i 1 : Fin 256) = q := Fin.ext h1
  rw [hq]
  refine congrArg (fun f => Spec.mlpRow f _ _ _ _ q) (funext fun k => ?_)
  exact hX k _ (by show (i 0).val + 150000 = _; omega) rfl

/-- What point `t` writes back is block `t` of the result. -/
theorem flushed3_eq (c : Dev nD) (t : Fin cfg3.N) :
    (dat3 W3 c).flushed 5 t = ((cfg3.win 5).blk t).view.read (Elt Ideal) (res3 (W3 c (Pipeline.arrRef spec3 0)) (W3 c (Pipeline.arrRef spec3 1)) (W3 c (Pipeline.arrRef spec3 2)) (W3 c (Pipeline.arrRef spec3 3)) (W3 c (Pipeline.arrRef spec3 4))) := by
  show (cfg3.win 5).cut (grid3.coords t) ((dat3 W3 c).after 5 t) = _
  rw [after3_5]
  funext y
  obtain ⟨p, q, rfl⟩ : ∃ (p : Fin 1000) (q : Fin 256), y = ix2 p q := ⟨y 0, y 1, eq_ix2 y⟩
  obtain ⟨e0, e1⟩ := index3_5 t
  show out3 (xblk3 W3 c t) (iblk3 W3 c 1 t) (iblk3 W3 c 2 t) (iblk3 W3 c 3 t) (iblk3 W3 c 4 t) (ix2 p q)
    = res3 (W3 c (Pipeline.arrRef spec3 0)) (W3 c (Pipeline.arrRef spec3 1)) (W3 c (Pipeline.arrRef spec3 2)) (W3 c (Pipeline.arrRef spec3 3)) (W3 c (Pipeline.arrRef spec3 4)) (((cfg3.win 5).blk t).view.emb (ix2 p q))
  rw [out3_apply]
  have a1 : (fun (a k : Fin 256) => iblk3 W3 c 1 t (ix2 a k)) = fun a k => (W3 c (Pipeline.arrRef spec3 1) : S256x256.Idx → EReal) (ix2 a k) :=
    funext fun a => funext fun k => iblk3_1_apply W3 c t (ix2 a k)
  have a2 : (fun k : Fin 256 => iblk3 W3 c 2 t (ix2 (0 : Fin 1) k)) = fun k => (W3 c (Pipeline.arrRef spec3 2) : S1x256.Idx → EReal) (ix2 (0 : Fin 1) k) :=
    funext fun k => iblk3_2_apply W3 c t (ix2 (0 : Fin 1) k)
  have a3 : (fun (k j : Fin 256) => iblk3 W3 c 3 t (ix2 k j)) = fun k j => (W3 c (Pipeline.arrRef spec3 3) : S256x256.Idx → EReal) (ix2 k j) :=
    funext fun k => funext fun j => iblk3_3_apply W3 c t (ix2 k j)
  have a4 : (fun j : Fin 256 => iblk3 W3 c 4 t (ix2 (0 : Fin 1) j)) = fun j => (W3 c (Pipeline.arrRef spec3 4) : S1x256.Idx → EReal) (ix2 (0 : Fin 1) j) :=
    funext fun j => iblk3_4_apply W3 c t (ix2 (0 : Fin 1) j)
  rw [a1, a2, a3, a4]
  refine res3_at _ _ _ _ _ _ p q t.val ?_ ?_ _ (fun k j hj0 hj1 => xblk3_apply W3 c t (ix2 p k) j hj0 hj1)
  · show win3_5.index t (0 : Fin 2) * 1000 + 1 * p.val = t.val * 1000 + p.val; omega
  · show win3_5.index t (1 : Fin 2) * 256 + 1 * q.val = q.val; omega

/-- An index of the result array is in point `t`'s block iff each coordinate is in the block's range. -/
theorem mem_blk3 (t : Fin cfg3.N) (i : S75000x256.Idx) :
    i ∈ ((cfg3.win 5).blk t).view.set ↔ ∀ a : Fin 2, win3_5.index t a * S1000x256.size a ≤ (i a).val
      ∧ (i a).val < win3_5.index t a * S1000x256.size a + S1000x256.size a := by
  show i ∈ ((View.whole main_v14).slice (win3_5.rect t)).set ↔ _
  rw [View.set_slice_whole, Rect.mem_set_unit]
  exact Iff.rfl

/-- Every index of the result array is in the block of the point its row names. -/
theorem cover3_5 (i : S75000x256.Idx) : ∃ t : Fin cfg3.N, (cfg3.win 5).flush t = true ∧ i ∈ ((cfg3.win 5).blk t).view.set := by
  have hi0 : (i 0).val < 75000 := idx2_lt0 i
  have hi1 : (i 1).val < 256 := idx2_lt1 i
  have hN : cfg3.N = 75 := N_3
  refine ⟨⟨(i 0).val / 1000, by rw [hN]; omega⟩, flush3_5 _, ?_⟩
  rw [mem_blk3]
  obtain ⟨e0, e1⟩ := index3_5 ⟨(i 0).val / 1000, by rw [hN]; omega⟩
  intro a
  match a with
  | ⟨0, _⟩ =>
    show win3_5.index _ (0 : Fin 2) * 1000 ≤ (i 0).val ∧ (i 0).val < win3_5.index _ (0 : Fin 2) * 1000 + 1000
    rw [e0]; show (i 0).val / 1000 * 1000 ≤ (i 0).val ∧ (i 0).val < (i 0).val / 1000 * 1000 + 1000; omega
  | ⟨1, _⟩ =>
    show win3_5.index _ (1 : Fin 2) * 256 ≤ (i 1).val ∧ (i 1).val < win3_5.index _ (1 : Fin 2) * 256 + 256
    rw [e1]; omega

/-- THE RESULT ARRAY after the region: `res3` of the arrays the region reads, as it finds them. -/
theorem final3 (c : Dev nD) : (dat3 W3 c).arrAt 5 cfg3.N = res3 (W3 c (Pipeline.arrRef spec3 0)) (W3 c (Pipeline.arrRef spec3 1)) (W3 c (Pipeline.arrRef spec3 2)) (W3 c (Pipeline.arrRef spec3 3)) (W3 c (Pipeline.arrRef spec3 4)) :=
  (dat3 W3 c).arrAt_eq_of_cover 5 (res3 (W3 c (Pipeline.arrRef spec3 0)) (W3 c (Pipeline.arrRef spec3 1)) (W3 c (Pipeline.arrRef spec3 2)) (W3 c (Pipeline.arrRef spec3 3)) (W3 c (Pipeline.arrRef spec3 4))) (fun t _ => flushed3_eq W3 c t) cover3_5

end Blocks

end Cert.Proof.KI

end
-- ==== Proof.KI.KerValC.lean ====
import proofs.«214605_g64536178589837_cont_9to1_m_912_2_alg».proof.Proof.KI.KerChain
import proofs.«214605_g64536178589837_cont_9to1_m_912_2_alg».proof.Proof.KI.RegVal3

/-! # Relation C's messages, as the idealized kernel computes them

The third region's result array is the row-wise specification of rows 150000 … 224999 of the gathered array read as rows of 256, which are the pairs of table rows the third index list names: relation C's messages. -/

set_option maxRecDepth 16384

noncomputable section

namespace Cert.Proof.KI

open Cert.KernelIdeal Cert.KernelIdeal.Gen Cert.KernelIdeal.TcBody
open Cert.Proof
open Idealize.ShloMosaic Idealize.ShloMosaic.TcCoe Idealize.ShloMosaic.ValueIdx
open Idealize.ShloMosaic.StableHlo
open Idealize.SL.Sem
open scoped BigOperators

/-! ## Relation C's messages -/

section RelC

section AnyInstance
variable {F : FTy → Type} [FloatOps F]
variable (m : (ℓ : Loc nD τ sig) → Buf (Elt F) ℓ)

/-- The region reads the gathered array as rows of 256. -/
theorem V7_view (d : Dev nD) : V7 m d (Proc.devRef .tc main_v11)
    = (shapeCast S307200x256 (gathered (m (tblLoc d)) (Iv m d)) shapeCasts_S614400x128_S307200x256 : S307200x256.Idx → Elt F .f32) := by
  unfold V7; after_results
  have e : V6 m d (Proc.devRef .tc main_v2) = gathered (m (tblLoc d)) (Iv m d) := V6_out m d
  rw [e]; rfl

/-- Its bias rows are the bias arguments laid as one-row matrices. -/
theorem V7_b1 (d : Dev nD) : V7 m d (Proc.devRef .tc main_v12)
    = (shapeCast S1x256 (m (d, Proc.devRef .tc main_arg14) : S256.Idx → Elt F .f32) shapeCasts_S256_S1x256 : S1x256.Idx → Elt F .f32) := by
  unfold V7; after_results; rw [V6_keep m d main_arg14 (by decide) (by decide) (by decide) (by decide) (by decide) (by decide)]; rfl
theorem V7_b2 (d : Dev nD) : V7 m d (Proc.devRef .tc main_v13)
    = (shapeCast S1x256 (m (d, Proc.devRef .tc main_arg16) : S256.Idx → Elt F .f32) shapeCasts_S256_S1x256 : S1x256.Idx → Elt F .f32) := by
  unfold V7; after_results; rw [V6_keep m d main_arg16 (by decide) (by decide) (by decide) (by decide) (by decide) (by decide)]; rfl

/-- Row `R`, entry `k` of the 256-wide view is entry `k mod 128` of gathered row `2·R + k div 128`. -/
theorem wideC_apply {α : Type} (g : S614400x128.Idx → α) (R : Fin 307200) (k : Fin 256) :
    shapeCast S307200x256 g shapeCasts_S614400x128_S307200x256 (ix2 R k)
      = g (ix2 (⟨2 * R.val + k.val / 128, by have := R.isLt; have := k.isLt; omega⟩ : Fin 614400) (⟨k.val % 128, by omega⟩ : Fin 128)) :=
  shapeCast_apply g shapeCasts_S614400x128_S307200x256 (ix2 R k) _ (by
    rw [Shape.rowMajor_val_two, Shape.rowMajor_val_two]
    show (2 * R.val + k.val / 128) * 128 + k.val % 128 = R.val * 256 + k.val
    have := k.isLt; omega)

end AnyInstance

variable (m : (ℓ : Loc nD τ sig) → Buf (Elt Ideal) ℓ)

theorem ker_c (c : Dev nD) (hI : ∀ r, ((Iv m c) r).toNat < 100000) :
    V8 m c (Proc.devRef .tc (Pipeline.arrRef spec3 5))
      = Spec.msgsC (m (tblLoc c)) (m ((c.tc : Thread nD τ).loc main_arg3)) (m ((c.tc : Thread nD τ).loc main_arg13)) (m ((c.tc : Thread nD τ).loc main_arg14))
          (m ((c.tc : Thread nD τ).loc main_arg15)) (m ((c.tc : Thread nD τ).loc main_arg16)) := by
  unfold V8
  rw [Function.update_self, final3 (Wc m) c]
  funext i
  unfold res3 Spec.msgsC
  refine mlpRow_congr ?_ ?_ ?_ ?_ ?_ _
  · intro k
    show (V7 m c (Proc.devRef .tc main_v11) : S307200x256.Idx → EReal) (ix2 _ k) = Spec.rowsC _ _ (i 0) k
    rw [V7_view, wideC_apply, gathered_apply _ _ _ (hI _)]
    unfold Spec.rowsC
    refine tbl_row _ _ _ ?_ _ _ _ rfl
    exact (congrArg (Iv m c) (congrArg (ix1 (n := 614400)) (Fin.ext (by
      show 2 * ((i 0).val + 150000) + k.val / 128 = 300000 + (2 * (i 0).val + k.val / 128)
      omega)))).trans (Iv_c m c ⟨2 * (i 0).val + k.val / 128, by have := k.isLt; have := idx2_lt0 i; omega⟩)
  · intro a k; exact congrFun (V7_keep m c main_arg13 (by decide) (by decide) (by decide) (by decide) (by decide) (by decide) (by decide)) (ix2 a k)
  · intro k
    show (V7 m c (Proc.devRef .tc main_v12) : S1x256.Idx → EReal) (ix2 (0 : Fin 1) k) = _
    rw [V7_b1]; exact row_apply _ _ k
  · intro k j; exact congrFun (V7_keep m c main_arg15 (by decide) (by decide) (by decide) (by decide) (by decide) (by decide) (by decide)) (ix2 k j)
  · intro j
    show (V7 m c (Proc.devRef .tc main_v13) : S1x256.Idx → EReal) (ix2 (0 : Fin 1) j) = _
    rw [V7_b2]; exact row_apply _ _ j

end RelC

end Cert.Proof.KI

end
-- ==== Proof.KI.RegVal4.lean ====
import proofs.«214605_g64536178589837_cont_9to1_m_912_2_alg».proof.Proof.KI.RegData4
import proofs.«214605_g64536178589837_cont_9to1_m_912_2_alg».proof.Proof.Spec
import Idealize.ShloMosaic.Lib.Pipeline.Value
import Idealize.ShloMosaic.Lib.ValueIdx
import Idealize.ShloMosaic.PureOps.Ideal.Laws

/-! # Pipeline number 4: its blocks, element by element

Window 0's block at point `t` is rows `(t + 150)·1000 …` of the gathered array viewed with 384 columns;
windows 1 to 4 are their whole arrays. Each block read at an index is the array read at the matching index.
On the extended reals the body's payload at row `y`, column `j` is the row-wise specification of that row, and
the blocks the points write back tile the result array: the array after the region is one function of the
arrays the region reads. -/

set_option maxRecDepth 16384

noncomputable section

namespace Cert.Proof.KI

open Cert.KernelIdeal Cert.KernelIdeal.Gen Cert.KernelIdeal.TcBody
open Idealize.ShloMosaic Idealize.ShloMosaic.TcCoe
open Idealize.ShloMosaic.SparseCore.Cfg (HIx)
open Idealize.SL Idealize.SL.RA Idealize.SL.BI
open Idealize.SL.Sem
open Idealize.ShloMosaic.Pipeline (Dat Cfg Window)
open Cert.Proof

/-! ## The blocks at an index, for any float instance -/

section AnyInstance

variable {F : FTy → Type} [FloatOps F]

variable (W4 : (c : Dev nD) → (b : Ref sig .tc) → Buf (Elt F) ((c : Thread nD τ).loc b))

/-- Window 0's block index at point `t`: row block `t + 150`, column block 0. -/
theorem index4_0 : ∀ t : Fin cfg4.N, win4_0.index t (0 : Fin 2) = t.val + 150 ∧ win4_0.index t (1 : Fin 2) = 0 :=
  (by decide +kernel : ∀ t : Fin grid4.N, _)

/-- Window 0's block read at `y` is the array read at row `(t + 150)·1000 + y 0`, column `y 1`. -/
theorem xblk4_apply (c : Dev nD) (t : Fin cfg4.N) (y : S1000x384.Idx) (j : S204800x384.Idx)
    (h0 : (j 0).val = (t.val + 150) * 1000 + (y 0).val) (h1 : (j 1).val = (y 1).val) :
    xblk4 W4 c t y = W4 c (Pipeline.arrRef spec4 0) j := by
  have hm : win4_0.moved (grid4.coords t) y = true := (win4_0.moved_iff _ y).mpr fun a => by
    have := (y a).isLt; unfold Window.xsize; rw [clip4_0 t a]; exact this
  unfold xblk4 Window.fill; rw [dif_pos hm]
  unfold iblk4
  rw [View.read_apply]
  refine (cast_eq _ _).trans (congrArg (W4 c (Pipeline.arrRef spec4 0)) (funext fun a => Fin.ext ?_))
  obtain ⟨e0, e1⟩ := index4_0 t
  match a with
  | ⟨0, _⟩ => show win4_0.index t (0 : Fin 2) * 1000 + 1 * (y 0).val = (j 0).val; omega
  | ⟨1, _⟩ => show win4_0.index t (1 : Fin 2) * 384 + 1 * (y 1).val = (j 1).val; omega

/-- Window 1's block is its whole array. -/
theorem iblk4_1_apply (c : Dev nD) (t : Fin cfg4.N) (y : S384x384.Idx) :
    iblk4 W4 c 1 t y = W4 c (Pipeline.arrRef spec4 1) y := by
  unfold iblk4
  rw [View.read_apply]
  refine (cast_eq _ _).trans (congrArg (W4 c (Pipeline.arrRef spec4 1)) (funext fun a => Fin.ext ?_))
  match a with
  | ⟨0, _⟩ => show 0 * _ + 1 * (y 0).val = (y 0).val; omega
  | ⟨1, _⟩ => show 0 * _ + 1 * (y 1).val = (y 1).val; omega

/-- Window 2's block is its whole array. -/
theorem iblk4_2_apply (c : Dev nD) (t : Fin cfg4.N) (y : S1x384.Idx) :
    iblk4 W4 c 2 t y = W4 c (Pipeline.arrRef spec4 2) y := by
  unfold iblk4
  rw [View.read_apply]
  refine (cast_eq _ _).trans (congrArg (W4 c (Pipeline.arrRef spec4 2)) (funext fun a => Fin.ext ?_))
  match a with
  | ⟨0, _⟩ => show 0 * _ + 1 * (y 0).val = (y 0).val; omega
  | ⟨1, _⟩ => show 0 * _ + 1 * (y 1).val = (y 1).val; omega

/-- Window 3's block is its whole array. -/
theorem iblk4_3_apply (c : Dev nD) (t : Fin cfg4.N) (y : S384x384.Idx) :
    iblk4 W4 c 3 t y = W4 c (Pipeline.arrRef spec4 3) y := by
  unfold iblk4
  rw [View.read_apply]
  refine (cast_eq _ _).trans (congrArg (W4 c (Pipeline.arrRef spec4 3)) (funext fun a => Fin.ext ?_))
  match a with
  | ⟨0, _⟩ => show 0 * _ + 1 * (y 0).val = (y 0).val; omega
  | ⟨1, _⟩ => show 0 * _ + 1 * (y 1).val = (y 1).val; omega

/-- Window 4's block is its whole array. -/
theorem iblk4_4_apply (c : Dev nD) (t : Fin cfg4.N) (y : S1x384.Idx) :
    iblk4 W4 c 4 t y = W4 c (Pipeline.arrRef spec4 4) y := by
  unfold iblk4
  rw [View.read_apply]
  refine (cast_eq _ _).trans (congrArg (W4 c (Pipeline.arrRef spec4 4)) (funext fun a => Fin.ext ?_))
  match a with
  | ⟨0, _⟩ => show 0 * _ + 1 * (y 0).val = (y 0).val; omega
  | ⟨1, _⟩ => show 0 * _ + 1 * (y 1).val = (y 1).val; omega

end AnyInstance

/-! ## The payload at an index, on the extended reals -/

section AtIdeal

open Idealize.ShloMosaic.ValueIdx
open scoped BigOperators

theorem hz4 : (![0, 0] : Fin 2 → Nat) = fun _ => 0 := funext fun a => by fin_cases a <;> rfl

/-- The body's matrix product into a zero accumulator, at row `a` and column `b`: the row against the column. -/
theorem mm4_apply (A : FVec Ideal S1000x384 .f32) (M : FVec Ideal S384x384 .f32) (a : Fin 1000) (b : Fin 384) :
    matmul dot_S1000x384_S384x384_S1000x384_1_0_0_1_n_n none A M (constant (F := Ideal) S1000x384 .f32 0x00000000#32) (ix2 a b)
      = ∑ c : Fin 384, A (ix2 a c) * M (ix2 c b) := by
  show FloatOps.matmul dot_S1000x384_S384x384_S1000x384_1_0_0_1_n_n none A M (constant (F := Ideal) S1000x384 .f32 0x00000000#32) (ix2 a b) = _
  rw [Ideal.matmul_constant_zero_apply, ← Equiv.sum_comp (contrEquiv1 dot_S1000x384_S384x384_S1000x384_1_0_0_1_n_n 384 rfl rfl).symm]
  refine Finset.sum_congr rfl fun c _ => ?_
  have c2 := contrEquiv1_symm_val dot_S1000x384_S384x384_S1000x384_1_0_0_1_n_n 384 rfl rfl c
  have l2 : dot_S1000x384_S384x384_S1000x384_1_0_0_1_n_n.lhsIdx (ix2 a b) ((contrEquiv1 dot_S1000x384_S384x384_S1000x384_1_0_0_1_n_n 384 rfl rfl).symm c) = ix2 a c := by
    funext ax; apply Fin.ext
    match ax with
    | ⟨0, _⟩ => simp [DotDims.lhsIdx, dot_S1000x384_S384x384_S1000x384_1_0_0_1_n_n]; rfl
    | ⟨1, _⟩ => simp [DotDims.lhsIdx, dot_S1000x384_S384x384_S1000x384_1_0_0_1_n_n]; exact c2
  have r2 : dot_S1000x384_S384x384_S1000x384_1_0_0_1_n_n.rhsIdx (ix2 a b) ((contrEquiv1 dot_S1000x384_S384x384_S1000x384_1_0_0_1_n_n 384 rfl rfl).symm c) = ix2 c b := by
    funext ax; apply Fin.ext
    match ax with
    | ⟨0, _⟩ => simp [DotDims.rhsIdx, dot_S1000x384_S384x384_S1000x384_1_0_0_1_n_n]; exact c2
    | ⟨1, _⟩ => simp [DotDims.rhsIdx, dot_S1000x384_S384x384_S1000x384_1_0_0_1_n_n]; rfl
  rw [l2, r2]

/-- A bias row laid along every row of the block, at row `a` and column `b`: the bias at `b`. -/
theorem bias4_apply (v : FVec Ideal S1x384 .f32) (a : Fin 1000) (b : Fin 384) :
    broadcastTo S1000x384 v broadcasts_S1x384_S1000x384 (ix2 a b) = v (ix2 (0 : Fin 1) b) := by
  refine broadcastTo_apply v broadcasts_S1x384_S1000x384 (ix2 a b) (ix2 (0 : Fin 1) b) ?_
  intro ax
  match ax with
  | ⟨0, _⟩ => rfl
  | ⟨1, _⟩ =>
    refine (if_neg ?_).symm
    show ¬((384 : Nat) = 1)
    decide

/-- The test "d − 0 ≠ d − 0" fails of every extended real. -/
theorem cmp_one_self4 (d : EReal) : Ideal.cmp .one d d = 0#1 := by
  unfold Ideal.cmp; simp

/-- The body's payload at row `y` and column `j` is the row-wise specification of that row at `j`. -/
theorem pay4_apply (x0 : Vec Ideal S1000x384 .f32) (x1 : Vec Ideal S384x384 .f32) (x2 : Vec Ideal S1x384 .f32)
    (x3 : Vec Ideal S384x384 .f32) (x4 : Vec Ideal S1x384 .f32) (y : Fin 1000) (j : Fin 384) :
    k4_pay1 x0 x1 x2 x3 x4 (ix2 y j)
      = Spec.mlpRow (fun i : Fin 384 => x0 (ix2 y i)) (fun i k => x1 (ix2 i k)) (fun k => x2 (ix2 (0 : Fin 1) k))
          (fun k j => x3 (ix2 k j)) (fun j => x4 (ix2 (0 : Fin 1) j)) j := by
  -- the hidden pre-activation at (y, k)
  have hh : ∀ k : Fin 384, addf (matmul (φ₁ := .f32) (φ₂ := .f32) dot_S1000x384_S384x384_S1000x384_1_0_0_1_n_n none x0 x1 (constant (F := Ideal) S1000x384 .f32 0x00000000#32))
      (broadcastTo S1000x384 x2 broadcasts_S1x384_S1000x384) (ix2 y k)
      = Spec.hidden (fun i : Fin 384 => x0 (ix2 y i)) (fun i k => x1 (ix2 i k)) (fun k => x2 (ix2 (0 : Fin 1) k)) k := by
    intro k; rw [addf_apply, mm4_apply, bias4_apply]; rfl
  unfold k4_pay1
  simp only [shapeCast_self]
  rw [← Spec.mlpRow_assoc, addf_apply, addf_apply, mm4_apply, bias4_apply]
  refine congrArg (· + x4 (ix2 (0 : Fin 1) j)) (congrArg (x0 (ix2 y j) + ·) (Finset.sum_congr rfl fun k _ => ?_))
  refine congrArg (· * x3 (ix2 k j)) ?_
  rw [mulf_apply, hh k]
  unfold Spec.mish
  refine congrArg (Spec.hidden _ _ _ k * ·) ?_
  show Ideal.tanh _ = Ideal.tanh _
  refine congrArg Ideal.tanh ?_
  rw [select_apply, cmpf_apply]
  show Scalar.select (Ideal.cmp .one _ _) _ _ = _
  rw [cmp_one_self4, select_zero, addf_apply, maximumf_apply, hh k]
  unfold Spec.softplus
  show max _ (Ideal.ofBits .f32 0x00000000#32) + Ideal.log1p (Ideal.exp (Ideal.ofBits .f32 0x00000000#32 - max (_ - Ideal.ofBits .f32 0x00000000#32) (-(_ - Ideal.ofBits .f32 0x00000000#32)))) = _
  rw [Ideal.ofBits_zero_f32, zero_sub, sub_zero, hh k]

/-- The output buffer after the body at row `y` and column `j`. -/
theorem out4_apply (x0 : Vec Ideal S1000x384 .f32) (x1 : Vec Ideal S384x384 .f32) (x2 : Vec Ideal S1x384 .f32)
    (x3 : Vec Ideal S384x384 .f32) (x4 : Vec Ideal S1x384 .f32) (y : Fin 1000) (j : Fin 384) :
    out4 x0 x1 x2 x3 x4 (ix2 y j)
      = Spec.mlpRow (fun i : Fin 384 => x0 (ix2 y i)) (fun i k => x1 (ix2 i k)) (fun k => x2 (ix2 (0 : Fin 1) k))
          (fun k j => x3 (ix2 k j)) (fun j => x4 (ix2 (0 : Fin 1) j)) j := by
  unfold out4
  rw [View.canon_unit_zero hz4]
  simp only [View.ld_unit_zero (S := S1000x384) hz4, View.ld_unit_zero (S := S384x384) hz4, View.ld_unit_zero (S := S1x384) hz4]
  exact pay4_apply x0 x1 x2 x3 x4 y j

end AtIdeal

/-! ## From blocks to the array, on the extended reals -/

section Blocks

open Idealize.ShloMosaic.ValueIdx
open scoped BigOperators

variable (W4 : (c : Dev nD) → (b : Ref sig .tc) → Buf (Elt Ideal) ((c : Thread nD τ).loc b))

/-- Window 5's block index at point `t`: row block `t`, column block 0. -/
theorem index4_5 : ∀ t : Fin cfg4.N, win4_5.index t (0 : Fin 2) = t.val ∧ win4_5.index t (1 : Fin 2) = 0 :=
  (by decide +kernel : ∀ t : Fin grid4.N, _)

/-- The region's result as ONE function of the arrays it reads: row `r` of the result is the row-wise
    specification of row `r + 150000` of the gathered array viewed with 384 columns. -/
def res4 (A0 : S204800x384.Idx → EReal) (A1 : S384x384.Idx → EReal) (A2 : S1x384.Idx → EReal) (A3 : S384x384.Idx → EReal)
    (A4 : S1x384.Idx → EReal) : S50000x384.Idx → EReal :=
  fun i => Spec.mlpRow
    (fun k : Fin 384 => A0 (ix2 (⟨(i 0).val + 150000, by have := idx2_lt0 i; omega⟩ : Fin 204800) k))
    (fun a k => A1 (ix2 a k)) (fun k => A2 (ix2 (0 : Fin 1) k)) (fun k j => A3 (ix2 k j)) (fun j => A4 (ix2 (0 : Fin 1) j))
    (i 1 : Fin 384)

/-- The specification of a block's row `p` at column `q` is the result at the array index that block's
    position names, whenever the block's row is the matching row of the gathered array. -/
theorem res4_at (A0 : S204800x384.Idx → EReal) (A1 : S384x384.Idx → EReal) (A2 : S1x384.Idx → EReal) (A3 : S384x384.Idx → EReal)
    (A4 : S1x384.Idx → EReal) (i : S50000x384.Idx) (p : Fin 1000) (q : Fin 384) (tv : Nat)
    (h0 : (i 0).val = tv * 1000 + p.val) (h1 : (i 1).val = q.val) (X0 : Fin 384 → EReal)
    (hX : ∀ (k : Fin 384) (j : S204800x384.Idx), (j 0).val = (tv + 150) * 1000 + p.val → (j 1).val = k.val → X0 k = A0 j) :
    Spec.mlpRow X0 (fun a k => A1 (ix2 a k)) (fun k => A2 (ix2 (0 : Fin 1) k)) (fun k j => A3 (ix2 k j))
        (fun j => A4 (ix2 (0 : Fin 1) j)) q = res4 A0 A1 A2 A3 A4 i := by
  unfold res4
  have hq : (i 1 : Fin 384) = q := Fin.ext h1
  rw [hq]
  refine congrArg (fun f => Spec.mlpRow f _ _ _ _ q) (funext fun k => ?_)
  exact hX k _ (by show (i 0).val + 150000 = _; omega) rfl

/-- What point `t` writes back is block `t` of the result. -/
theorem flushed4_eq (c : Dev nD) (t : Fin cfg4.N) :
    (dat4 W4 c).flushed 5 t = ((cfg4.win 5).blk t).view.read (Elt Ideal) (res4 (W4 c (Pipeline.arrRef spec4 0)) (W4 c (Pipeline.arrRef spec4 1)) (W4 c (Pipeline.arrRef spec4 2)) (W4 c (Pipeline.arrRef spec4 3)) (W4 c (Pipeline.arrRef spec4 4))) := by
  show (cfg4.win 5).cut (grid4.coords t) ((dat4 W4 c).after 5 t) = _
  rw [after4_5]
  funext y
  obtain ⟨p, q, rfl⟩ : ∃ (p : Fin 1000) (q : Fin 384), y = ix2 p q := ⟨y 0, y 1, eq_ix2 y⟩
  obtain ⟨e0, e1⟩ := index4_5 t
  show out4 (xblk4 W4 c t) (iblk4 W4 c 1 t) (iblk4 W4 c 2 t) (iblk4 W4 c 3 t) (iblk4 W4 c 4 t) (ix2 p q)
    = res4 (W4 c (Pipeline.arrRef spec4 0)) (W4 c (Pipeline.arrRef spec4 1)) (W4 c (Pipeline.arrRef spec4 2)) (W4 c (Pipeline.arrRef spec4 3)) (W4 c (Pipeline.arrRef spec4 4)) (((cfg4.win 5).blk t).view.emb (ix2 p q))
  rw [out4_apply]
  have a1 : (fun (a k : Fin 384) => iblk4 W4 c 1 t (ix2 a k)) = fun a k => (W4 c (Pipeline.arrRef spec4 1) : S384x384.Idx → EReal) (ix2 a k) :=
    funext fun a => funext fun k => iblk4_1_apply W4 c t (ix2 a k)
  have a2 : (fun k : Fin 384 => iblk4 W4 c 2 t (ix2 (0 : Fin 1) k)) = fun k => (W4 c (Pipeline.arrRef spec4 2) : S1x384.Idx → EReal) (ix2 (0 : Fin 1) k) :=
    funext fun k => iblk4_2_apply W4 c t (ix2 (0 : Fin 1) k)
  have a3 : (fun (k j : Fin 384) => iblk4 W4 c 3 t (ix2 k j)) = fun k j => (W4 c (Pipeline.arrRef spec4 3) : S384x384.Idx → EReal) (ix2 k j) :=
    funext fun k => funext fun j => iblk4_3_apply W4 c t (ix2 k j)
  have a4 : (fun j : Fin 384 => iblk4 W4 c 4 t (ix2 (0 : Fin 1) j)) = fun j => (W4 c (Pipeline.arrRef spec4 4) : S1x384.Idx → EReal) (ix2 (0 : Fin 1) j) :=
    funext fun j => iblk4_4_apply W4 c t (ix2 (0 : Fin 1) j)
  rw [a1, a2, a3, a4]
  refine res4_at _ _ _ _ _ _ p q t.val ?_ ?_ _ (fun k j hj0 hj1 => xblk4_apply W4 c t (ix2 p k) j hj0 hj1)
  · show win4_5.index t (0 : Fin 2) * 1000 + 1 * p.val = t.val * 1000 + p.val; omega
  · show win4_5.index t (1 : Fin 2) * 384 + 1 * q.val = q.val; omega

/-- An index of the result array is in point `t`'s block iff each coordinate is in the block's range. -/
theorem mem_blk4 (t : Fin cfg4.N) (i : S50000x384.Idx) :
    i ∈ ((cfg4.win 5).blk t).view.set ↔ ∀ a : Fin 2, win4_5.index t a * S1000x384.size a ≤ (i a).val
      ∧ (i a).val < win4_5.index t a * S1000x384.size a + S1000x384.size a := by
  show i ∈ ((View.whole main_v19).slice (win4_5.rect t)).set ↔ _
  rw [View.set_slice_whole, Rect.mem_set_unit]
  exact Iff.rfl

/-- Every index of the result array is in the block of the point its row names. -/
theorem cover4_5 (i : S50000x384.Idx) : ∃ t : Fin cfg4.N, (cfg4.win 5).flush t = true ∧ i ∈ ((cfg4.win 5).blk t).view.set := by
  have hi0 : (i 0).val < 50000 := idx2_lt0 i
  have hi1 : (i 1).val < 384 := idx2_lt1 i
  have hN : cfg4.N = 50 := N_4
  refine ⟨⟨(i 0).val / 1000, by rw [hN]; omega⟩, flush4_5 _, ?_⟩
  rw [mem_blk4]
  obtain ⟨e0, e1⟩ := index4_5 ⟨(i 0).val / 1000, by rw [hN]; omega⟩
  intro a
  match a with
  | ⟨0, _⟩ =>
    show win4_5.index _ (0 : Fin 2) * 1000 ≤ (i 0).val ∧ (i 0).val < win4_5.index _ (0 : Fin 2) * 1000 + 1000
    rw [e0]; show (i 0).val / 1000 * 1000 ≤ (i 0).val ∧ (i 0).val < (i 0).val / 1000 * 1000 + 1000; omega
  | ⟨1, _⟩ =>
    show win4_5.index _ (1 : Fin 2) * 384 ≤ (i 1).val ∧ (i 1).val < win4_5.index _ (1 : Fin 2) * 384 + 384
    rw [e1]; omega

/-- THE RESULT ARRAY after the region: `res4` of the arrays the region reads, as it finds them. -/
theorem final4 (c : Dev nD) : (dat4 W4 c).arrAt 5 cfg4.N = res4 (W4 c (Pipeline.arrRef spec4 0)) (W4 c (Pipeline.arrRef spec4 1)) (W4 c (Pipeline.arrRef spec4 2)) (W4 c (Pipeline.arrRef spec4 3)) (W4 c (Pipeline.arrRef spec4 4)) :=
  (dat4 W4 c).arrAt_eq_of_cover 5 (res4 (W4 c (Pipeline.arrRef spec4 0)) (W4 c (Pipeline.arrRef spec4 1)) (W4 c (Pipeline.arrRef spec4 2)) (W4 c (Pipeline.arrRef spec4 3)) (W4 c (Pipeline.arrRef spec4 4))) (fun t _ => flushed4_eq W4 c t) cover4_5

end Blocks

end Cert.Proof.KI

end
-- ==== Proof.KI.KerValD.lean ====
import proofs.«214605_g64536178589837_cont_9to1_m_912_2_alg».proof.Proof.KI.KerChain
import proofs.«214605_g64536178589837_cont_9to1_m_912_2_alg».proof.Proof.KI.RegVal4

/-! # Relation D's messages, as the idealized kernel computes them

The fourth region's result array is the row-wise specification of rows 150000 … 199999 of the gathered array read as rows of 384, which are the triples of table rows the fourth index list names: relation D's messages. -/

set_option maxRecDepth 16384

noncomputable section

namespace Cert.Proof.KI

open Cert.KernelIdeal Cert.KernelIdeal.Gen Cert.KernelIdeal.TcBody
open Cert.Proof
open Idealize.ShloMosaic Idealize.ShloMosaic.TcCoe Idealize.ShloMosaic.ValueIdx
open Idealize.ShloMosaic.StableHlo
open Idealize.SL.Sem
open scoped BigOperators

/-! ## Relation D's messages -/

section RelD

section AnyInstance
variable {F : FTy → Type} [FloatOps F]
variable (m : (ℓ : Loc nD τ sig) → Buf (Elt F) ℓ)

/-- The region reads the gathered array as rows of 384. -/
theorem V9_view (d : Dev nD) : V9 m d (Proc.devRef .tc main_v16)
    = (shapeCast S204800x384 (gathered (m (tblLoc d)) (Iv m d)) shapeCasts_S614400x128_S204800x384 : S204800x384.Idx → Elt F .f32) := by
  unfold V9; after_results
  have e : V8 m d (Proc.devRef .tc main_v2) = gathered (m (tblLoc d)) (Iv m d) := V8_out m d
  rw [e]; rfl

/-- Its bias rows are the bias arguments laid as one-row matrices. -/
theorem V9_b1 (d : Dev nD) : V9 m d (Proc.devRef .tc main_v17)
    = (shapeCast S1x384 (m (d, Proc.devRef .tc main_arg18) : S384.Idx → Elt F .f32) shapeCasts_S384_S1x384 : S1x384.Idx → Elt F .f32) := by
  unfold V9; after_results; rw [V8_keep m d main_arg18 (by decide) (by decide) (by decide) (by decide) (by decide) (by decide) (by decide) (by decide)]; rfl
theorem V9_b2 (d : Dev nD) : V9 m d (Proc.devRef .tc main_v18)
    = (shapeCast S1x384 (m (d, Proc.devRef .tc main_arg20) : S384.Idx → Elt F .f32) shapeCasts_S384_S1x384 : S1x384.Idx → Elt F .f32) := by
  unfold V9; after_results; rw [V8_keep m d main_arg20 (by decide) (by decide) (by decide) (by decide) (by decide) (by decide) (by decide) (by decide)]; rfl

/-- Row `R`, entry `k` of the 384-wide view is entry `k mod 128` of gathered row `3·R + k div 128`. -/
theorem wideD_apply {α : Type} (g : S614400x128.Idx → α) (R : Fin 204800) (k : Fin 384) :
    shapeCast S204800x384 g shapeCasts_S614400x128_S204800x384 (ix2 R k)
      = g (ix2 (⟨3 * R.val + k.val / 128, by have := R.isLt; have := k.isLt; omega⟩ : Fin 614400) (⟨k.val % 128, by omega⟩ : Fin 128)) :=
  shapeCast_apply g shapeCasts_S614400x128_S204800x384 (ix2 R k) _ (by
    rw [Shape.rowMajor_val_two, Shape.rowMajor_val_two]
    show (3 * R.val + k.val / 128) * 128 + k.val % 128 = R.val * 384 + k.val
    have := k.isLt; omega)

end AnyInstance

variable (m : (ℓ : Loc nD τ sig) → Buf (Elt Ideal) ℓ)

theorem ker_d (c : Dev nD) (hI : ∀ r, ((Iv m c) r).toNat < 100000) :
    V10 m c (Proc.devRef .tc (Pipeline.arrRef spec4 5))
      = Spec.msgsD (m (tblLoc c)) (m ((c.tc : Thread nD τ).loc main_arg4)) (m ((c.tc : Thread nD τ).loc main_arg17)) (m ((c.tc : Thread nD τ).loc main_arg18))
          (m ((c.tc : Thread nD τ).loc main_arg19)) (m ((c.tc : Thread nD τ).loc main_arg20)) := by
  unfold V10
  rw [Function.update_self, final4 (Wd m) c]
  funext i
  unfold res4 Spec.msgsD
  refine mlpRow_congr ?_ ?_ ?_ ?_ ?_ _
  · intro k
    show (V9 m c (Proc.devRef .tc main_v16) : S204800x384.Idx → EReal) (ix2 _ k) = Spec.rowsD _ _ (i 0) k
    rw [V9_view, wideD_apply, gathered_apply _ _ _ (hI _)]
    unfold Spec.rowsD
    refine tbl_row _ _ _ ?_ _ _ _ rfl
    exact (congrArg (Iv m c) (congrArg (ix1 (n := 614400)) (Fin.ext (by
      show 3 * ((i 0).val + 150000) + k.val / 128 = 450000 + (3 * (i 0).val + k.val / 128)
      omega)))).trans (Iv_d m c ⟨3 * (i 0).val + k.val / 128, by have := k.isLt; have := idx2_lt0 i; omega⟩)
  · intro a k; exact congrFun (V9_keep m c main_arg17 (by decide) (by decide) (by decide) (by decide) (by decide) (by decide) (by decide) (by decide) (by decide)) (ix2 a k)
  · intro k
    show (V9 m c (Proc.devRef .tc main_v17) : S1x384.Idx → EReal) (ix2 (0 : Fin 1) k) = _
    rw [V9_b1]; exact row_apply _ _ k
  · intro k j; exact congrFun (V9_keep m c main_arg19 (by decide) (by decide) (by decide) (by decide) (by decide) (by decide) (by decide) (by decide) (by decide)) (ix2 k j)
  · intro j
    show (V9 m c (Proc.devRef .tc main_v18) : S1x384.Idx → EReal) (ix2 (0 : Fin 1) j) = _
    rw [V9_b2]; exact row_apply _ _ j

end RelD

end Cert.Proof.KI

end
-- ==== Proof.KI.KerVal.lean ====
import proofs.«214605_g64536178589837_cont_9to1_m_912_2_alg».proof.Proof.KI.KerValA
import proofs.«214605_g64536178589837_cont_9to1_m_912_2_alg».proof.Proof.KI.KerValB
import proofs.«214605_g64536178589837_cont_9to1_m_912_2_alg».proof.Proof.KI.KerValC
import proofs.«214605_g64536178589837_cont_9to1_m_912_2_alg».proof.Proof.KI.KerValD

/-! # The four relations' messages, as the idealized kernel computes them

`ker_a`, `ker_b`, `ker_c`, `ker_d`: each region's result array, at the stage that region ends, is its relation's
messages as a closed function of the argument arrays. -/
-- ==== Proof.KI.KerOut.lean ====
/-
  What @main's last host stretch leaves in the two result arrays, read back through the chain of stages: the message
  array is the four regions' result arrays one after the other along the rows — the first as it is, the other three
  regrouped as rows of 128 — and the index array is the four index lists one after the other, as launched.
-/
import proofs.«214605_g64536178589837_cont_9to1_m_912_2_alg».proof.Proof.KI.Frame

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

section Out

variable (m : (ℓ : Loc nD τ sig) → Buf (Elt F) ℓ)

/-- The last stretch's message array over any contents: the first three operands as they stand, the fourth the
    regrouping the stretch itself makes of the fourth region's result. -/
theorem ops5_v21 (W : Valuation τ sig (Elt F)) :
    StableHlo.after ops5 W (Proc.devRef .tc main_v21)
      = concatenate S600000x128 0
          [⟨S100000x128, W (Proc.devRef .tc main_v5)⟩, ⟨S200000x128, W (Proc.devRef .tc main_v10)⟩,
           ⟨S150000x128, W (Proc.devRef .tc main_v15)⟩,
           ⟨S150000x128, shapeCast S150000x128 (W (Proc.devRef .tc main_v19)) shapeCasts_S50000x384_S150000x128⟩]
          concatenates_S100000x128_S200000x128_S150000x128_S150000x128_S600000x128_d0 := by
  after_results
  rfl

/-- The last stretch's index array over any contents. -/
theorem ops5_v22 (W : Valuation τ sig (Elt F)) :
    StableHlo.after ops5 W (Proc.devRef .tc main_v22)
      = concatenate S600000 0
          [⟨S100000, W (Proc.devRef .tc main_arg1)⟩, ⟨S200000, W (Proc.devRef .tc main_arg2)⟩,
           ⟨S150000, W (Proc.devRef .tc main_arg3)⟩, ⟨S150000, W (Proc.devRef .tc main_arg4)⟩]
          concatenates_S100000_S200000_S150000_S150000_S600000_d0 := by
  after_results
  rfl

/-- The fourth stretch regroups the second region's result. -/
theorem ops3_v10 (W : Valuation τ sig (Elt F)) :
    StableHlo.after ops3 W (Proc.devRef .tc main_v10)
      = shapeCast S200000x128 (W (Proc.devRef .tc main_v9)) shapeCasts_S100000x256_S200000x128 := by
  after_results
  rfl

/-- The fifth stretch regroups the third region's result. -/
theorem ops4_v15 (W : Valuation τ sig (Elt F)) :
    StableHlo.after ops4 W (Proc.devRef .tc main_v15)
      = shapeCast S150000x128 (W (Proc.devRef .tc main_v14)) shapeCasts_S75000x256_S150000x128 := by
  after_results
  rfl

/-- The first region's result is written by that region only. -/
theorem v5_at10 (d : Dev nD) :
    V10 m d (Proc.devRef .tc main_v5) = V4 m d (Proc.devRef .tc (Pipeline.arrRef spec1 5)) := by
  unfold V10; rw [Function.update_of_ne (StableHlo.devRef_ne_of_ne (show (main_v5 : Ref sig .tc) ≠ Pipeline.arrRef spec4 5 by decide))]
  unfold V9; rw [StableHlo.after_of_writes_sub ops4 _ hW4 (show (main_v5 : Ref sig .tc) ∉ Wr4 by decide)]
  unfold V8; rw [Function.update_of_ne (StableHlo.devRef_ne_of_ne (show (main_v5 : Ref sig .tc) ≠ Pipeline.arrRef spec3 5 by decide))]
  unfold V7; rw [StableHlo.after_of_writes_sub ops3 _ hW3 (show (main_v5 : Ref sig .tc) ∉ Wr3 by decide)]
  unfold V6; rw [Function.update_of_ne (StableHlo.devRef_ne_of_ne (show (main_v5 : Ref sig .tc) ≠ Pipeline.arrRef spec2 5 by decide))]
  unfold V5; rw [StableHlo.after_of_writes_sub ops2 _ hW2 (show (main_v5 : Ref sig .tc) ∉ Wr2 by decide)]

/-- The second region's result, regrouped by the stretch after it, is kept from there on. -/
theorem v10_at10 (d : Dev nD) :
    V10 m d (Proc.devRef .tc main_v10)
      = shapeCast S200000x128 (V6 m d (Proc.devRef .tc (Pipeline.arrRef spec2 5))) shapeCasts_S100000x256_S200000x128 := by
  unfold V10; rw [Function.update_of_ne (StableHlo.devRef_ne_of_ne (show (main_v10 : Ref sig .tc) ≠ Pipeline.arrRef spec4 5 by decide))]
  unfold V9; rw [StableHlo.after_of_writes_sub ops4 _ hW4 (show (main_v10 : Ref sig .tc) ∉ Wr4 by decide)]
  unfold V8; rw [Function.update_of_ne (StableHlo.devRef_ne_of_ne (show (main_v10 : Ref sig .tc) ≠ Pipeline.arrRef spec3 5 by decide))]
  unfold V7; rw [ops3_v10]

/-- The third region's result, regrouped by the stretch after it, is kept by the fourth region. -/
theorem v15_at10 (d : Dev nD) :
    V10 m d (Proc.devRef .tc main_v15)
      = shapeCast S150000x128 (V8 m d (Proc.devRef .tc (Pipeline.arrRef spec3 5))) shapeCasts_S75000x256_S150000x128 := by
  unfold V10; rw [Function.update_of_ne (StableHlo.devRef_ne_of_ne (show (main_v15 : Ref sig .tc) ≠ Pipeline.arrRef spec4 5 by decide))]
  unfold V9; rw [ops4_v15]

/-- An array that no stretch but the last writes, that is not the gathered array and is no region's result holds its
    launch contents when the last stretch begins. -/
theorem V10_keep (d : Dev nD) (r : Ref sig .tc) (h0 : r ∉ Wr0) (h1 : r ∉ Wr1) (h2 : r ∉ Wr2) (h3 : r ∉ Wr3) (h4 : r ∉ Wr4)
    (g : r ≠ main_v2) (r1 : r ≠ Pipeline.arrRef spec1 5) (r2 : r ≠ Pipeline.arrRef spec2 5) (r3 : r ≠ Pipeline.arrRef spec3 5) (r4 : r ≠ Pipeline.arrRef spec4 5) :
    V10 m d (Proc.devRef .tc r) = m (d, Proc.devRef .tc r) := by
  unfold V10; rw [Function.update_of_ne (StableHlo.devRef_ne_of_ne r4)]
  unfold V9; rw [StableHlo.after_of_writes_sub ops4 _ hW4 h4]
  unfold V8; rw [Function.update_of_ne (StableHlo.devRef_ne_of_ne r3)]
  unfold V7; rw [StableHlo.after_of_writes_sub ops3 _ hW3 h3]
  unfold V6; rw [Function.update_of_ne (StableHlo.devRef_ne_of_ne r2)]
  unfold V5; rw [StableHlo.after_of_writes_sub ops2 _ hW2 h2]
  unfold V4; rw [Function.update_of_ne (StableHlo.devRef_ne_of_ne r1)]
  unfold V3; rw [StableHlo.after_of_writes_sub ops1 _ hW1 h1]
  unfold V2; rw [Function.update_of_ne (StableHlo.devRef_ne_of_ne g)]
  unfold V1; rw [StableHlo.after_of_writes_sub ops0 _ hW0 h0]
  rfl

/-- The message array at the end of the chain: the four regions' results, the last three regrouped as rows of 128. -/
theorem kerMsgs (c : Dev nD) :
    V11 m c (Proc.devRef .tc main_v21)
      = concatenate S600000x128 0
          [⟨S100000x128, V4 m c (Proc.devRef .tc (Pipeline.arrRef spec1 5))⟩,
           ⟨S200000x128, shapeCast S200000x128 (V6 m c (Proc.devRef .tc (Pipeline.arrRef spec2 5))) shapeCasts_S100000x256_S200000x128⟩,
           ⟨S150000x128, shapeCast S150000x128 (V8 m c (Proc.devRef .tc (Pipeline.arrRef spec3 5))) shapeCasts_S75000x256_S150000x128⟩,
           ⟨S150000x128, shapeCast S150000x128 (V10 m c (Proc.devRef .tc (Pipeline.arrRef spec4 5))) shapeCasts_S50000x384_S150000x128⟩]
          concatenates_S100000x128_S200000x128_S150000x128_S150000x128_S600000x128_d0 := by
  unfold V11
  rw [ops5_v21, v5_at10 m c, v10_at10 m c, v15_at10 m c]

/-- The index array at the end of the chain: the four index lists as launched. -/
theorem kerIdx (c : Dev nD) :
    V11 m c (Proc.devRef .tc main_v22)
      = concatenate S600000 0
          [⟨S100000, m ((c.tc : Thread nD τ).loc main_arg1)⟩, ⟨S200000, m ((c.tc : Thread nD τ).loc main_arg2)⟩,
           ⟨S150000, m ((c.tc : Thread nD τ).loc main_arg3)⟩, ⟨S150000, m ((c.tc : Thread nD τ).loc main_arg4)⟩]
          concatenates_S100000_S200000_S150000_S150000_S600000_d0 := by
  unfold V11
  rw [ops5_v22,
    V10_keep m c main_arg1 (by decide) (by decide) (by decide) (by decide) (by decide) (by decide) (by decide) (by decide) (by decide) (by decide),
    V10_keep m c main_arg2 (by decide) (by decide) (by decide) (by decide) (by decide) (by decide) (by decide) (by decide) (by decide) (by decide),
    V10_keep m c main_arg3 (by decide) (by decide) (by decide) (by decide) (by decide) (by decide) (by decide) (by decide) (by decide) (by decide),
    V10_keep m c main_arg4 (by decide) (by decide) (by decide) (by decide) (by decide) (by decide) (by decide) (by decide) (by decide) (by decide)]

end Out

end Cert.Proof.KI

end
-- ==== Proof.PreRange.lean ====
/- The precondition read back: when the printed input-domain predicate is all ones on arrays of the argument shapes,
   every word of each of the four index lists, read unsigned, is below the table's row count 100000 (and, read signed,
   lies in 0 … 99999). The predicate is a conjunction of reductions by "and"; the last four conjuncts are the index
   lists' range tests, entry by entry "0 ≤ w" and "w ≤ 99999" as signed comparisons. -/
import proofs.«214605_g64536178589837_cont_9to1_m_912_2_alg».proof.Pre_input_domain
import Idealize.ShloMosaic.Lib.ReduceAll
import Idealize.ShloMosaic.Lib.ValueIdx

namespace Cert.Proof.Pre

open Idealize.ShloMosaic Cert.Pre_input_domain

/-- The rank-zero shape has one index. -/
instance : Subsingleton S_.Idx := ⟨fun a b => funext fun d => d.elim0⟩

/-- A 32-bit word that is, as a signed number, at least 0 and at most 99999 is below 100000 as an unsigned number. -/
theorem word_range (v : BitVec 32) (h0 : IntOp.cmpi .sge v 0#32 = 1#1) (h1 : IntOp.cmpi .sle v 99999#32 = 1#1) :
    v.toNat < 100000 ∧ 0 ≤ v.toInt ∧ v.toInt ≤ 99999 := by
  have e0 : (0#32 : BitVec 32).toInt = 0 := by decide
  have e1 : (99999#32 : BitVec 32).toInt = 99999 := by decide
  have g0 : (0 : Int) ≤ v.toInt := by
    have : (0#32 : BitVec 32).sle v = true := by
      by_contra hc
      simp only [IntOp.cmpi, Bool.not_eq_true] at h0 hc
      rw [hc] at h0; exact absurd h0 (by decide)
    rw [BitVec.sle, decide_eq_true_eq, e0] at this; exact this
  have g1 : v.toInt ≤ 99999 := by
    have : v.sle (99999#32 : BitVec 32) = true := by
      by_contra hc
      simp only [IntOp.cmpi, Bool.not_eq_true] at h1 hc
      rw [hc] at h1; exact absurd h1 (by decide)
    rw [BitVec.sle, decide_eq_true_eq, e1] at this; exact this
  refine ⟨?_, g0, g1⟩
  have hc := BitVec.toInt_eq_toNat_cond v
  have hlt := v.isLt
  split at hc <;> omega

variable {F : FTy → Type} [FloatOps F] [Cert.Pre_input_domain.Facts]

/-- One index list's test read back: the reduction by "and" of "0 ≤ w ∧ w ≤ 99999" is one, so every word is in range. -/
theorem list_range {s : Shape} (a : IVec s 32) (z n : IVec s 32) (hz : ∀ i, z i = 0#32) (hn : ∀ i, n i = 99999#32)
    (one : IVec S_ 1) {axes : List (Fin s.rank)} (hr : s.ReducesTo axes S_)
    (hu : 0 < S_.numel)
    (e : Host.reduce IntOp.andi (andi (cmpi .sge a z) (cmpi .sle a n)) one hr hu ValueIdx.ix0 = 1#1) (i : s.Idx) :
    (a i).toNat < 100000 ∧ 0 ≤ (a i).toInt ∧ (a i).toInt ≤ 99999 := by
  have ei := Host.reduce_andi_all _ _ _ _ _ e i
  obtain ⟨e0, e1⟩ := IntOp.andi_eq_one.1 ei
  have e0' : IntOp.cmpi .sge (a i) 0#32 = 1#1 := by rw [← hz i]; exact e0
  have e1' : IntOp.cmpi .sle (a i) 99999#32 = 1#1 := by rw [← hn i]; exact e1
  exact word_range _ e0' e1'

/-- The four index lists' ranges, from the predicate all ones. -/
theorem ranges (a0 : FVec F S100000x128 .f32) (a1 : IVec S100000 32) (a2 : IVec S200000 32) (a3 : IVec S150000 32) (a4 : IVec S150000 32) (a5 : FVec F S128x128 .f32) (a6 : FVec F S128 .f32) (a7 : FVec F S128x128 .f32) (a8 : FVec F S128 .f32) (a9 : FVec F S256x256 .f32) (a10 : FVec F S256 .f32) (a11 : FVec F S256x256 .f32) (a12 : FVec F S256 .f32) (a13 : FVec F S256x256 .f32) (a14 : FVec F S256 .f32) (a15 : FVec F S256x256 .f32) (a16 : FVec F S256 .f32) (a17 : FVec F S384x384 .f32) (a18 : FVec F S384 .f32) (a19 : FVec F S384x384 .f32) (a20 : FVec F S384 .f32)
    (h : Cert.Pre_input_domain.fn (F := F) a0 a1 a2 a3 a4 a5 a6 a7 a8 a9 a10 a11 a12 a13 a14 a15 a16 a17 a18 a19 a20 = fun _ => 1#1) :
    (∀ i, (a1 i).toNat < 100000 ∧ 0 ≤ (a1 i).toInt ∧ (a1 i).toInt ≤ 99999)
    ∧ (∀ i, (a2 i).toNat < 100000 ∧ 0 ≤ (a2 i).toInt ∧ (a2 i).toInt ≤ 99999)
    ∧ (∀ i, (a3 i).toNat < 100000 ∧ 0 ≤ (a3 i).toInt ∧ (a3 i).toInt ≤ 99999)
    ∧ (∀ i, (a4 i).toNat < 100000 ∧ 0 ≤ (a4 i).toInt ∧ (a4 i).toInt ≤ 99999) := by
  have h0 := congrFun h ValueIdx.ix0
  dsimp only [fn, fn_part1, fn_part2, fn_part3, fn_part4, fn_part5, fn_part6] at h0
  obtain ⟨h0, r4⟩ := IntOp.andi_eq_one.1 h0
  obtain ⟨h0, r3⟩ := IntOp.andi_eq_one.1 h0
  obtain ⟨h0, r2⟩ := IntOp.andi_eq_one.1 h0
  obtain ⟨-, r1⟩ := IntOp.andi_eq_one.1 h0
  exact ⟨fun i => list_range a1 _ _ (fun _ => rfl) (fun _ => rfl) _ _ _ r1 i,
    fun i => list_range a2 _ _ (fun _ => rfl) (fun _ => rfl) _ _ _ r2 i,
    fun i => list_range a3 _ _ (fun _ => rfl) (fun _ => rfl) _ _ _ r3 i,
    fun i => list_range a4 _ _ (fun _ => rfl) (fun _ => rfl) _ _ _ r4 i⟩

/-- Every word of index list 1 is, read unsigned, below 100000. -/
theorem range1 (a0 : FVec F S100000x128 .f32) (a1 : IVec S100000 32) (a2 : IVec S200000 32) (a3 : IVec S150000 32) (a4 : IVec S150000 32) (a5 : FVec F S128x128 .f32) (a6 : FVec F S128 .f32) (a7 : FVec F S128x128 .f32) (a8 : FVec F S128 .f32) (a9 : FVec F S256x256 .f32) (a10 : FVec F S256 .f32) (a11 : FVec F S256x256 .f32) (a12 : FVec F S256 .f32) (a13 : FVec F S256x256 .f32) (a14 : FVec F S256 .f32) (a15 : FVec F S256x256 .f32) (a16 : FVec F S256 .f32) (a17 : FVec F S384x384 .f32) (a18 : FVec F S384 .f32) (a19 : FVec F S384x384 .f32) (a20 : FVec F S384 .f32)
    (h : Cert.Pre_input_domain.fn (F := F) a0 a1 a2 a3 a4 a5 a6 a7 a8 a9 a10 a11 a12 a13 a14 a15 a16 a17 a18 a19 a20 = fun _ => 1#1) (i : S100000.Idx) :
    (a1 i).toNat < 100000 :=
  ((ranges a0 a1 a2 a3 a4 a5 a6 a7 a8 a9 a10 a11 a12 a13 a14 a15 a16 a17 a18 a19 a20 h).1 i).1

/-- … and, read signed, lies in 0 … 99999. -/
theorem range1_signed (a0 : FVec F S100000x128 .f32) (a1 : IVec S100000 32) (a2 : IVec S200000 32) (a3 : IVec S150000 32) (a4 : IVec S150000 32) (a5 : FVec F S128x128 .f32) (a6 : FVec F S128 .f32) (a7 : FVec F S128x128 .f32) (a8 : FVec F S128 .f32) (a9 : FVec F S256x256 .f32) (a10 : FVec F S256 .f32) (a11 : FVec F S256x256 .f32) (a12 : FVec F S256 .f32) (a13 : FVec F S256x256 .f32) (a14 : FVec F S256 .f32) (a15 : FVec F S256x256 .f32) (a16 : FVec F S256 .f32) (a17 : FVec F S384x384 .f32) (a18 : FVec F S384 .f32) (a19 : FVec F S384x384 .f32) (a20 : FVec F S384 .f32)
    (h : Cert.Pre_input_domain.fn (F := F) a0 a1 a2 a3 a4 a5 a6 a7 a8 a9 a10 a11 a12 a13 a14 a15 a16 a17 a18 a19 a20 = fun _ => 1#1) (i : S100000.Idx) :
    0 ≤ (a1 i).toInt ∧ (a1 i).toInt ≤ 99999 :=
  ((ranges a0 a1 a2 a3 a4 a5 a6 a7 a8 a9 a10 a11 a12 a13 a14 a15 a16 a17 a18 a19 a20 h).1 i).2

/-- Every word of index list 2 is, read unsigned, below 100000. -/
theorem range2 (a0 : FVec F S100000x128 .f32) (a1 : IVec S100000 32) (a2 : IVec S200000 32) (a3 : IVec S150000 32) (a4 : IVec S150000 32) (a5 : FVec F S128x128 .f32) (a6 : FVec F S128 .f32) (a7 : FVec F S128x128 .f32) (a8 : FVec F S128 .f32) (a9 : FVec F S256x256 .f32) (a10 : FVec F S256 .f32) (a11 : FVec F S256x256 .f32) (a12 : FVec F S256 .f32) (a13 : FVec F S256x256 .f32) (a14 : FVec F S256 .f32) (a15 : FVec F S256x256 .f32) (a16 : FVec F S256 .f32) (a17 : FVec F S384x384 .f32) (a18 : FVec F S384 .f32) (a19 : FVec F S384x384 .f32) (a20 : FVec F S384 .f32)
    (h : Cert.Pre_input_domain.fn (F := F) a0 a1 a2 a3 a4 a5 a6 a7 a8 a9 a10 a11 a12 a13 a14 a15 a16 a17 a18 a19 a20 = fun _ => 1#1) (i : S200000.Idx) :
    (a2 i).toNat < 100000 :=
  ((ranges a0 a1 a2 a3 a4 a5 a6 a7 a8 a9 a10 a11 a12 a13 a14 a15 a16 a17 a18 a19 a20 h).2.1 i).1

/-- … and, read signed, lies in 0 … 99999. -/
theorem range2_signed (a0 : FVec F S100000x128 .f32) (a1 : IVec S100000 32) (a2 : IVec S200000 32) (a3 : IVec S150000 32) (a4 : IVec S150000 32) (a5 : FVec F S128x128 .f32) (a6 : FVec F S128 .f32) (a7 : FVec F S128x128 .f32) (a8 : FVec F S128 .f32) (a9 : FVec F S256x256 .f32) (a10 : FVec F S256 .f32) (a11 : FVec F S256x256 .f32) (a12 : FVec F S256 .f32) (a13 : FVec F S256x256 .f32) (a14 : FVec F S256 .f32) (a15 : FVec F S256x256 .f32) (a16 : FVec F S256 .f32) (a17 : FVec F S384x384 .f32) (a18 : FVec F S384 .f32) (a19 : FVec F S384x384 .f32) (a20 : FVec F S384 .f32)
    (h : Cert.Pre_input_domain.fn (F := F) a0 a1 a2 a3 a4 a5 a6 a7 a8 a9 a10 a11 a12 a13 a14 a15 a16 a17 a18 a19 a20 = fun _ => 1#1) (i : S200000.Idx) :
    0 ≤ (a2 i).toInt ∧ (a2 i).toInt ≤ 99999 :=
  ((ranges a0 a1 a2 a3 a4 a5 a6 a7 a8 a9 a10 a11 a12 a13 a14 a15 a16 a17 a18 a19 a20 h).2.1 i).2

/-- Every word of index list 3 is, read unsigned, below 100000. -/
theorem range3 (a0 : FVec F S100000x128 .f32) (a1 : IVec S100000 32) (a2 : IVec S200000 32) (a3 : IVec S150000 32) (a4 : IVec S150000 32) (a5 : FVec F S128x128 .f32) (a6 : FVec F S128 .f32) (a7 : FVec F S128x128 .f32) (a8 : FVec F S128 .f32) (a9 : FVec F S256x256 .f32) (a10 : FVec F S256 .f32) (a11 : FVec F S256x256 .f32) (a12 : FVec F S256 .f32) (a13 : FVec F S256x256 .f32) (a14 : FVec F S256 .f32) (a15 : FVec F S256x256 .f32) (a16 : FVec F S256 .f32) (a17 : FVec F S384x384 .f32) (a18 : FVec F S384 .f32) (a19 : FVec F S384x384 .f32) (a20 : FVec F S384 .f32)
    (h : Cert.Pre_input_domain.fn (F := F) a0 a1 a2 a3 a4 a5 a6 a7 a8 a9 a10 a11 a12 a13 a14 a15 a16 a17 a18 a19 a20 = fun _ => 1#1) (i : S150000.Idx) :
    (a3 i).toNat < 100000 :=
  ((ranges a0 a1 a2 a3 a4 a5 a6 a7 a8 a9 a10 a11 a12 a13 a14 a15 a16 a17 a18 a19 a20 h).2.2.1 i).1

/-- … and, read signed, lies in 0 … 99999. -/
theorem range3_signed (a0 : FVec F S100000x128 .f32) (a1 : IVec S100000 32) (a2 : IVec S200000 32) (a3 : IVec S150000 32) (a4 : IVec S150000 32) (a5 : FVec F S128x128 .f32) (a6 : FVec F S128 .f32) (a7 : FVec F S128x128 .f32) (a8 : FVec F S128 .f32) (a9 : FVec F S256x256 .f32) (a10 : FVec F S256 .f32) (a11 : FVec F S256x256 .f32) (a12 : FVec F S256 .f32) (a13 : FVec F S256x256 .f32) (a14 : FVec F S256 .f32) (a15 : FVec F S256x256 .f32) (a16 : FVec F S256 .f32) (a17 : FVec F S384x384 .f32) (a18 : FVec F S384 .f32) (a19 : FVec F S384x384 .f32) (a20 : FVec F S384 .f32)
    (h : Cert.Pre_input_domain.fn (F := F) a0 a1 a2 a3 a4 a5 a6 a7 a8 a9 a10 a11 a12 a13 a14 a15 a16 a17 a18 a19 a20 = fun _ => 1#1) (i : S150000.Idx) :
    0 ≤ (a3 i).toInt ∧ (a3 i).toInt ≤ 99999 :=
  ((ranges a0 a1 a2 a3 a4 a5 a6 a7 a8 a9 a10 a11 a12 a13 a14 a15 a16 a17 a18 a19 a20 h).2.2.1 i).2

/-- Every word of index list 4 is, read unsigned, below 100000. -/
theorem range4 (a0 : FVec F S100000x128 .f32) (a1 : IVec S100000 32) (a2 : IVec S200000 32) (a3 : IVec S150000 32) (a4 : IVec S150000 32) (a5 : FVec F S128x128 .f32) (a6 : FVec F S128 .f32) (a7 : FVec F S128x128 .f32) (a8 : FVec F S128 .f32) (a9 : FVec F S256x256 .f32) (a10 : FVec F S256 .f32) (a11 : FVec F S256x256 .f32) (a12 : FVec F S256 .f32) (a13 : FVec F S256x256 .f32) (a14 : FVec F S256 .f32) (a15 : FVec F S256x256 .f32) (a16 : FVec F S256 .f32) (a17 : FVec F S384x384 .f32) (a18 : FVec F S384 .f32) (a19 : FVec F S384x384 .f32) (a20 : FVec F S384 .f32)
    (h : Cert.Pre_input_domain.fn (F := F) a0 a1 a2 a3 a4 a5 a6 a7 a8 a9 a10 a11 a12 a13 a14 a15 a16 a17 a18 a19 a20 = fun _ => 1#1) (i : S150000.Idx) :
    (a4 i).toNat < 100000 :=
  ((ranges a0 a1 a2 a3 a4 a5 a6 a7 a8 a9 a10 a11 a12 a13 a14 a15 a16 a17 a18 a19 a20 h).2.2.2 i).1

/-- … and, read signed, lies in 0 … 99999. -/
theorem range4_signed (a0 : FVec F S100000x128 .f32) (a1 : IVec S100000 32) (a2 : IVec S200000 32) (a3 : IVec S150000 32) (a4 : IVec S150000 32) (a5 : FVec F S128x128 .f32) (a6 : FVec F S128 .f32) (a7 : FVec F S128x128 .f32) (a8 : FVec F S128 .f32) (a9 : FVec F S256x256 .f32) (a10 : FVec F S256 .f32) (a11 : FVec F S256x256 .f32) (a12 : FVec F S256 .f32) (a13 : FVec F S256x256 .f32) (a14 : FVec F S256 .f32) (a15 : FVec F S256x256 .f32) (a16 : FVec F S256 .f32) (a17 : FVec F S384x384 .f32) (a18 : FVec F S384 .f32) (a19 : FVec F S384x384 .f32) (a20 : FVec F S384 .f32)
    (h : Cert.Pre_input_domain.fn (F := F) a0 a1 a2 a3 a4 a5 a6 a7 a8 a9 a10 a11 a12 a13 a14 a15 a16 a17 a18 a19 a20 = fun _ => 1#1) (i : S150000.Idx) :
    0 ≤ (a4 i).toInt ∧ (a4 i).toInt ≤ 99999 :=
  ((ranges a0 a1 a2 a3 a4 a5 a6 a7 a8 a9 a10 a11 a12 a13 a14 a15 a16 a17 a18 a19 a20 h).2.2.2 i).2

end Cert.Proof.Pre
-- ==== Proof.RefRun.Ops.lean ====
/- The reference program's @main as a list of its 200 host operations, the module-local functions'
   operations written at their call sites over each call's buffer record, in five consecutive blocks:
   one per relation (the rows taken at the relation's index list, the two-layer perceptron on them,
   the residual sum) and the two concatenations. Each block's written buffers are listed, so that a
   buffer outside the list keeps its contents through the block. -/
import proofs.«214605_g64536178589837_cont_9to1_m_912_2_alg».proof.Proof.Gen.ReferenceIdeal
import Idealize.ShloMosaic.Lib.StableHlo.Run
import Idealize.ShloMosaic.Lib.Pipeline.Regions
import Idealize.ShloMosaic.Lib.Pipeline.Frame

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- Operations 1 … 48 of 200. -/
abbrev opsA : List (HloOp τ sig (Elt F)) :=
  [ StableHlo.TRef.nullary main_call0.c (constantI S_ 32 0#32),
    StableHlo.TRef.unary main_call0.c main_call0.v0 (broadcastInDim S100000 ![] bcast_S_S100000),
    StableHlo.TRef.binary (.of main_arg1) main_call0.v0 main_call0.v1 (cmpi .slt),
    StableHlo.TRef.nullary main_call0.c_0 (constantI S_ 32 100000#32),
    StableHlo.TRef.unary main_call0.c_0 main_call0.v2 (broadcastInDim S100000 ![] bcast_S_S100000),
    StableHlo.TRef.binary (.of main_arg1) main_call0.v2 main_call0.v3 addi,
    StableHlo.TRef.ternary main_call0.v1 main_call0.v3 (.of main_arg1) main_call0.call0.v0 select,
    StableHlo.TRef.unary main_call0.call0.v0 main_call0.v5 (broadcastInDim S100000x1 ![0] bcast_S100000_S100000x1_0),
    StableHlo.TRef.nullary main_call0.c_1 (constantI S1 32 99999#32),
    StableHlo.TRef.nullary main_call0.c_2 (constantI S_ 32 0#32),
    StableHlo.TRef.unary main_call0.c_2 main_call0.v6 (broadcastInDim S100000x1 ![] bcast_S_S100000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S100000x1 ![0, 1] bcast_S1x1_S100000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S100000x1_S100000_d1 h_S_),
    StableHlo.TRef.binary (.of main_arg0) main_call0.v5 main_call0.v13 (fun x i => Host.gather gather_S100000x128_S100000x1_S100000x128_1_0_n_n_0_1_1128 x i),
    StableHlo.TRef.unary main_call0.v12 main_call0.v14 (broadcastInDim S100000x128 ![0] bcast_S100000_S100000x128_0),
    StableHlo.TRef.nullary main_call0.cst (constant S_ .f32 0x7FC00000#32),
    StableHlo.TRef.unary main_call0.cst main_call0.v15 (broadcastInDim S100000x128 ![] bcast_S_S100000x128),
    StableHlo.TRef.ternary main_call0.v14 main_call0.v13 main_call0.v15 main_call0.v16 select,
    StableHlo.binary main_v0 main_arg5 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S100000x128 ![0, 1] bcast_S1x128_S100000x128_0_1 : (⟨S1x128, .f32⟩ : BufTy).Contents (Elt F) → (⟨S100000x128, .f32⟩ : BufTy).Contents (Elt F)),
    StableHlo.binary main_v1 main_v3 main_v4 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v4) main_call1.v0 main_call1.v1 maximumf,
    StableHlo.TRef.unary main_call1.cst main_call1.v2 (broadcastInDim S100000x128 ![] bcast_S_S100000x128),
    StableHlo.TRef.binary (.of main_v4) main_call1.v2 main_call1.v3 subf,
    StableHlo.TRef.binary main_call1.v3 main_call1.v3 main_call1.v4 (cmpf .une),
    StableHlo.TRef.unary main_call1.cst main_call1.v5 (broadcastInDim S100000x128 ![] bcast_S_S100000x128),
    StableHlo.TRef.binary (.of main_v4) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select,
    StableHlo.unary main_v5 main_v6 (Host.tanh : (⟨S100000x128, .f32⟩ : BufTy).Contents (Elt F) → (⟨S100000x128, .f32⟩ : BufTy).Contents (Elt F)),
    StableHlo.binary main_v4 main_v6 main_v7 (mulf : (⟨S100000x128, .f32⟩ : BufTy).Contents (Elt F) → (⟨S100000x128, .f32⟩ : BufTy).Contents (Elt F) → (⟨S100000x128, .f32⟩ : BufTy).Contents (Elt F)),
    StableHlo.binary main_v7 main_arg7 main_v8 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S100000x128 ![0, 1] bcast_S1x128_S100000x128_0_1 : (⟨S1x128, .f32⟩ : BufTy).Contents (Elt F) → (⟨S100000x128, .f32⟩ : BufTy).Contents (Elt F)),
    StableHlo.binary main_v8 main_v10 main_v11 (addf : (⟨S100000x128, .f32⟩ : BufTy).Contents (Elt F) → (⟨S100000x128, .f32⟩ : BufTy).Contents (Elt F) → (⟨S100000x128, .f32⟩ : BufTy).Contents (Elt F)),
    StableHlo.binary main_v0 main_v11 main_v12 (addf : (⟨S100000x128, .f32⟩ : BufTy).Contents (Elt F) → (⟨S100000x128, .f32⟩ : BufTy).Contents (Elt F) → (⟨S100000x128, .f32⟩ : BufTy).Contents (Elt F)) ]

/-- Operations 49 … 98 of 200. -/
abbrev opsB : List (HloOp τ sig (Elt F)) :=
  [ StableHlo.TRef.nullary main_call2.c (constantI S_ 32 0#32),
    StableHlo.TRef.unary main_call2.c main_call2.v0 (broadcastInDim S200000 ![] bcast_S_S200000),
    StableHlo.TRef.binary (.of main_arg2) main_call2.v0 main_call2.v1 (cmpi .slt),
    StableHlo.TRef.nullary main_call2.c_0 (constantI S_ 32 100000#32),
    StableHlo.TRef.unary main_call2.c_0 main_call2.v2 (broadcastInDim S200000 ![] bcast_S_S200000),
    StableHlo.TRef.binary (.of main_arg2) main_call2.v2 main_call2.v3 addi,
    StableHlo.TRef.ternary main_call2.v1 main_call2.v3 (.of main_arg2) main_call2.call0.v0 select,
    StableHlo.TRef.unary main_call2.call0.v0 main_call2.v5 (broadcastInDim S200000x1 ![0] bcast_S200000_S200000x1_0),
    StableHlo.TRef.nullary main_call2.c_1 (constantI S1 32 99999#32),
    StableHlo.TRef.nullary main_call2.c_2 (constantI S_ 32 0#32),
    StableHlo.TRef.unary main_call2.c_2 main_call2.v6 (broadcastInDim S200000x1 ![] bcast_S_S200000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S200000x1 ![0, 1] bcast_S1x1_S200000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S200000x1_S200000_d1 h_S_),
    StableHlo.TRef.binary (.of main_arg0) main_call2.v5 main_call2.v13 (fun x i => Host.gather gather_S100000x128_S200000x1_S200000x128_1_0_n_n_0_1_1128 x i),
    StableHlo.TRef.unary main_call2.v12 main_call2.v14 (broadcastInDim S200000x128 ![0] bcast_S200000_S200000x128_0),
    StableHlo.TRef.nullary main_call2.cst (constant S_ .f32 0x7FC00000#32),
    StableHlo.TRef.unary main_call2.cst main_call2.v15 (broadcastInDim S200000x128 ![] bcast_S_S200000x128),
    StableHlo.TRef.ternary main_call2.v14 main_call2.v13 main_call2.v15 main_call2.v16 select,
    StableHlo.reshape main_v13 main_v14 rfl shapeCasts_S200000x128_S100000x256,
    StableHlo.binary main_v14 main_arg9 main_v15 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg10 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S100000x256 ![0, 1] bcast_S1x256_S100000x256_0_1 : (⟨S1x256, .f32⟩ : BufTy).Contents (Elt F) → (⟨S100000x256, .f32⟩ : BufTy).Contents (Elt F)),
    StableHlo.binary main_v15 main_v17 main_v18 (addf : (⟨S100000x256, .f32⟩ : BufTy).Contents (Elt F) → (⟨S100000x256, .f32⟩ : BufTy).Contents (Elt F) → (⟨S100000x256, .f32⟩ : BufTy).Contents (Elt F)),
    StableHlo.TRef.nullary main_call3.cst (constant S_ .f32 0x00000000#32),
    StableHlo.TRef.unary main_call3.cst main_call3.v0 (broadcastInDim S100000x256 ![] bcast_S_S100000x256),
    StableHlo.TRef.binary (.of main_v18) main_call3.v0 main_call3.v1 maximumf,
    StableHlo.TRef.unary main_call3.cst main_call3.v2 (broadcastInDim S100000x256 ![] bcast_S_S100000x256),
    StableHlo.TRef.binary (.of main_v18) main_call3.v2 main_call3.v3 subf,
    StableHlo.TRef.binary main_call3.v3 main_call3.v3 main_call3.v4 (cmpf .une),
    StableHlo.TRef.unary main_call3.cst main_call3.v5 (broadcastInDim S100000x256 ![] bcast_S_S100000x256),
    StableHlo.TRef.binary (.of main_v18) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select,
    StableHlo.unary main_v19 main_v20 (Host.tanh : (⟨S100000x256, .f32⟩ : BufTy).Contents (Elt F) → (⟨S100000x256, .f32⟩ : BufTy).Contents (Elt F)),
    StableHlo.binary main_v18 main_v20 main_v21 (mulf : (⟨S100000x256, .f32⟩ : BufTy).Contents (Elt F) → (⟨S100000x256, .f32⟩ : BufTy).Contents (Elt F) → (⟨S100000x256, .f32⟩ : BufTy).Contents (Elt F)),
    StableHlo.binary main_v21 main_arg11 main_v22 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg12 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S100000x256 ![0, 1] bcast_S1x256_S100000x256_0_1 : (⟨S1x256, .f32⟩ : BufTy).Contents (Elt F) → (⟨S100000x256, .f32⟩ : BufTy).Contents (Elt F)),
    StableHlo.binary main_v22 main_v24 main_v25 (addf : (⟨S100000x256, .f32⟩ : BufTy).Contents (Elt F) → (⟨S100000x256, .f32⟩ : BufTy).Contents (Elt F) → (⟨S100000x256, .f32⟩ : BufTy).Contents (Elt F)),
    StableHlo.binary main_v14 main_v25 main_v26 (addf : (⟨S100000x256, .f32⟩ : BufTy).Contents (Elt F) → (⟨S100000x256, .f32⟩ : BufTy).Contents (Elt F) → (⟨S100000x256, .f32⟩ : BufTy).Contents (Elt F)),
    StableHlo.reshape main_v26 main_v27 rfl shapeCasts_S100000x256_S200000x128 ]

/-- Operations 99 … 148 of 200. -/
abbrev opsC : List (HloOp τ sig (Elt F)) :=
  [ StableHlo.TRef.nullary main_call4.c (constantI S_ 32 0#32),
    StableHlo.TRef.unary main_call4.c main_call4.v0 (broadcastInDim S150000 ![] bcast_S_S150000),
    StableHlo.TRef.binary (.of main_arg3) main_call4.v0 main_call4.v1 (cmpi .slt),
    StableHlo.TRef.nullary main_call4.c_0 (constantI S_ 32 100000#32),
    StableHlo.TRef.unary main_call4.c_0 main_call4.v2 (broadcastInDim S150000 ![] bcast_S_S150000),
    StableHlo.TRef.binary (.of main_arg3) main_call4.v2 main_call4.v3 addi,
    StableHlo.TRef.ternary main_call4.v1 main_call4.v3 (.of main_arg3) main_call4.call0.v0 select,
    StableHlo.TRef.unary main_call4.call0.v0 main_call4.v5 (broadcastInDim S150000x1 ![0] bcast_S150000_S150000x1_0),
    StableHlo.TRef.nullary main_call4.c_1 (constantI S1 32 99999#32),
    StableHlo.TRef.nullary main_call4.c_2 (constantI S_ 32 0#32),
    StableHlo.TRef.unary main_call4.c_2 main_call4.v6 (broadcastInDim S150000x1 ![] bcast_S_S150000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S150000x1 ![0, 1] bcast_S1x1_S150000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S150000x1_S150000_d1 h_S_),
    StableHlo.TRef.binary (.of main_arg0) main_call4.v5 main_call4.v13 (fun x i => Host.gather gather_S100000x128_S150000x1_S150000x128_1_0_n_n_0_1_1128 x i),
    StableHlo.TRef.unary main_call4.v12 main_call4.v14 (broadcastInDim S150000x128 ![0] bcast_S150000_S150000x128_0),
    StableHlo.TRef.nullary main_call4.cst (constant S_ .f32 0x7FC00000#32),
    StableHlo.TRef.unary main_call4.cst main_call4.v15 (broadcastInDim S150000x128 ![] bcast_S_S150000x128),
    StableHlo.TRef.ternary main_call4.v14 main_call4.v13 main_call4.v15 main_call4.v16 select,
    StableHlo.reshape main_v28 main_v29 rfl shapeCasts_S150000x128_S75000x256,
    StableHlo.binary main_v29 main_arg13 main_v30 ((fun l r => Host.dotGeneral dot_S75000x256_S256x256_S75000x256_1_0_0_1_n_n none l r) : (⟨S75000x256, .f32⟩ : BufTy).Contents (Elt F) → (⟨S256x256, .f32⟩ : BufTy).Contents (Elt F) → (⟨S75000x256, .f32⟩ : BufTy).Contents (Elt F)),
    StableHlo.unary main_arg14 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S75000x256 ![0, 1] bcast_S1x256_S75000x256_0_1 : (⟨S1x256, .f32⟩ : BufTy).Contents (Elt F) → (⟨S75000x256, .f32⟩ : BufTy).Contents (Elt F)),
    StableHlo.binary main_v30 main_v32 main_v33 (addf : (⟨S75000x256, .f32⟩ : BufTy).Contents (Elt F) → (⟨S75000x256, .f32⟩ : BufTy).Contents (Elt F) → (⟨S75000x256, .f32⟩ : BufTy).Contents (Elt F)),
    StableHlo.TRef.nullary main_call5.cst (constant S_ .f32 0x00000000#32),
    StableHlo.TRef.unary main_call5.cst main_call5.v0 (broadcastInDim S75000x256 ![] bcast_S_S75000x256),
    StableHlo.TRef.binary (.of main_v33) main_call5.v0 main_call5.v1 maximumf,
    StableHlo.TRef.unary main_call5.cst main_call5.v2 (broadcastInDim S75000x256 ![] bcast_S_S75000x256),
    StableHlo.TRef.binary (.of main_v33) main_call5.v2 main_call5.v3 subf,
    StableHlo.TRef.binary main_call5.v3 main_call5.v3 main_call5.v4 (cmpf .une),
    StableHlo.TRef.unary main_call5.cst main_call5.v5 (broadcastInDim S75000x256 ![] bcast_S_S75000x256),
    StableHlo.TRef.binary (.of main_v33) main_call5.v5 main_call5.v6 addf,
    StableHlo.TRef.unary main_call5.v3 main_call5.v7 Host.absf,
    StableHlo.TRef.unary main_call5.v7 main_call5.v8 Host.negf,
    StableHlo.TRef.unary main_call5.v8 main_call5.v9 Host.exp,
    StableHlo.TRef.unary main_call5.v9 main_call5.v10 Host.log1p,
    StableHlo.TRef.binary main_call5.v1 main_call5.v10 main_call5.v11 addf,
    StableHlo.TRef.ternary main_call5.v4 main_call5.v6 main_call5.v11 main_call5.v12 select,
    StableHlo.unary main_v34 main_v35 (Host.tanh : (⟨S75000x256, .f32⟩ : BufTy).Contents (Elt F) → (⟨S75000x256, .f32⟩ : BufTy).Contents (Elt F)),
    StableHlo.binary main_v33 main_v35 main_v36 (mulf : (⟨S75000x256, .f32⟩ : BufTy).Contents (Elt F) → (⟨S75000x256, .f32⟩ : BufTy).Contents (Elt F) → (⟨S75000x256, .f32⟩ : BufTy).Contents (Elt F)),
    StableHlo.binary main_v36 main_arg15 main_v37 ((fun l r => Host.dotGeneral dot_S75000x256_S256x256_S75000x256_1_0_0_1_n_n none l r) : (⟨S75000x256, .f32⟩ : BufTy).Contents (Elt F) → (⟨S256x256, .f32⟩ : BufTy).Contents (Elt F) → (⟨S75000x256, .f32⟩ : BufTy).Contents (Elt F)),
    StableHlo.unary main_arg16 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S75000x256 ![0, 1] bcast_S1x256_S75000x256_0_1 : (⟨S1x256, .f32⟩ : BufTy).Contents (Elt F) → (⟨S75000x256, .f32⟩ : BufTy).Contents (Elt F)),
    StableHlo.binary main_v37 main_v39 main_v40 (addf : (⟨S75000x256, .f32⟩ : BufTy).Contents (Elt F) → (⟨S75000x256, .f32⟩ : BufTy).Contents (Elt F) → (⟨S75000x256, .f32⟩ : BufTy).Contents (Elt F)),
    StableHlo.binary main_v29 main_v40 main_v41 (addf : (⟨S75000x256, .f32⟩ : BufTy).Contents (Elt F) → (⟨S75000x256, .f32⟩ : BufTy).Contents (Elt F) → (⟨S75000x256, .f32⟩ : BufTy).Contents (Elt F)),
    StableHlo.reshape main_v41 main_v42 rfl shapeCasts_S75000x256_S150000x128 ]

/-- Operations 149 … 198 of 200. -/
abbrev opsD : List (HloOp τ sig (Elt F)) :=
  [ StableHlo.TRef.nullary main_call6.c (constantI S_ 32 0#32),
    StableHlo.TRef.unary main_call6.c main_call6.v0 (broadcastInDim S150000 ![] bcast_S_S150000),
    StableHlo.TRef.binary (.of main_arg4) main_call6.v0 main_call6.v1 (cmpi .slt),
    StableHlo.TRef.nullary main_call6.c_0 (constantI S_ 32 100000#32),
    StableHlo.TRef.unary main_call6.c_0 main_call6.v2 (broadcastInDim S150000 ![] bcast_S_S150000),
    StableHlo.TRef.binary (.of main_arg4) main_call6.v2 main_call6.v3 addi,
    StableHlo.TRef.ternary main_call6.v1 main_call6.v3 (.of main_arg4) main_call6.call0.v0 select,
    StableHlo.TRef.unary main_call6.call0.v0 main_call6.v5 (broadcastInDim S150000x1 ![0] bcast_S150000_S150000x1_0),
    StableHlo.TRef.nullary main_call6.c_1 (constantI S1 32 99999#32),
    StableHlo.TRef.nullary main_call6.c_2 (constantI S_ 32 0#32),
    StableHlo.TRef.unary main_call6.c_2 main_call6.v6 (broadcastInDim S150000x1 ![] bcast_S_S150000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S150000x1 ![0, 1] bcast_S1x1_S150000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S150000x1_S150000_d1 h_S_),
    StableHlo.TRef.binary (.of main_arg0) main_call6.v5 main_call6.v13 (fun x i => Host.gather gather_S100000x128_S150000x1_S150000x128_1_0_n_n_0_1_1128 x i),
    StableHlo.TRef.unary main_call6.v12 main_call6.v14 (broadcastInDim S150000x128 ![0] bcast_S150000_S150000x128_0),
    StableHlo.TRef.nullary main_call6.cst (constant S_ .f32 0x7FC00000#32),
    StableHlo.TRef.unary main_call6.cst main_call6.v15 (broadcastInDim S150000x128 ![] bcast_S_S150000x128),
    StableHlo.TRef.ternary main_call6.v14 main_call6.v13 main_call6.v15 main_call6.v16 select,
    StableHlo.reshape main_v43 main_v44 rfl shapeCasts_S150000x128_S50000x384,
    StableHlo.binary main_v44 main_arg17 main_v45 ((fun l r => Host.dotGeneral dot_S50000x384_S384x384_S50000x384_1_0_0_1_n_n none l r) : (⟨S50000x384, .f32⟩ : BufTy).Contents (Elt F) → (⟨S384x384, .f32⟩ : BufTy).Contents (Elt F) → (⟨S50000x384, .f32⟩ : BufTy).Contents (Elt F)),
    StableHlo.unary main_arg18 main_v46 (broadcastInDim S1x384 ![1] bcast_S384_S1x384_1 : (⟨S384, .f32⟩ : BufTy).Contents (Elt F) → (⟨S1x384, .f32⟩ : BufTy).Contents (Elt F)),
    StableHlo.unary main_v46 main_v47 (broadcastInDim S50000x384 ![0, 1] bcast_S1x384_S50000x384_0_1 : (⟨S1x384, .f32⟩ : BufTy).Contents (Elt F) → (⟨S50000x384, .f32⟩ : BufTy).Contents (Elt F)),
    StableHlo.binary main_v45 main_v47 main_v48 (addf : (⟨S50000x384, .f32⟩ : BufTy).Contents (Elt F) → (⟨S50000x384, .f32⟩ : BufTy).Contents (Elt F) → (⟨S50000x384, .f32⟩ : BufTy).Contents (Elt F)),
    StableHlo.TRef.nullary main_call7.cst (constant S_ .f32 0x00000000#32),
    StableHlo.TRef.unary main_call7.cst main_call7.v0 (broadcastInDim S50000x384 ![] bcast_S_S50000x384),
    StableHlo.TRef.binary (.of main_v48) main_call7.v0 main_call7.v1 maximumf,
    StableHlo.TRef.unary main_call7.cst main_call7.v2 (broadcastInDim S50000x384 ![] bcast_S_S50000x384),
    StableHlo.TRef.binary (.of main_v48) main_call7.v2 main_call7.v3 subf,
    StableHlo.TRef.binary main_call7.v3 main_call7.v3 main_call7.v4 (cmpf .une),
    StableHlo.TRef.unary main_call7.cst main_call7.v5 (broadcastInDim S50000x384 ![] bcast_S_S50000x384),
    StableHlo.TRef.binary (.of main_v48) main_call7.v5 main_call7.v6 addf,
    StableHlo.TRef.unary main_call7.v3 main_call7.v7 Host.absf,
    StableHlo.TRef.unary main_call7.v7 main_call7.v8 Host.negf,
    StableHlo.TRef.unary main_call7.v8 main_call7.v9 Host.exp,
    StableHlo.TRef.unary main_call7.v9 main_call7.v10 Host.log1p,
    StableHlo.TRef.binary main_call7.v1 main_call7.v10 main_call7.v11 addf,
    StableHlo.TRef.ternary main_call7.v4 main_call7.v6 main_call7.v11 main_call7.v12 select,
    StableHlo.unary main_v49 main_v50 (Host.tanh : (⟨S50000x384, .f32⟩ : BufTy).Contents (Elt F) → (⟨S50000x384, .f32⟩ : BufTy).Contents (Elt F)),
    StableHlo.binary main_v48 main_v50 main_v51 (mulf : (⟨S50000x384, .f32⟩ : BufTy).Contents (Elt F) → (⟨S50000x384, .f32⟩ : BufTy).Contents (Elt F) → (⟨S50000x384, .f32⟩ : BufTy).Contents (Elt F)),
    StableHlo.binary main_v51 main_arg19 main_v52 ((fun l r => Host.dotGeneral dot_S50000x384_S384x384_S50000x384_1_0_0_1_n_n none l r) : (⟨S50000x384, .f32⟩ : BufTy).Contents (Elt F) → (⟨S384x384, .f32⟩ : BufTy).Contents (Elt F) → (⟨S50000x384, .f32⟩ : BufTy).Contents (Elt F)),
    StableHlo.unary main_arg20 main_v53 (broadcastInDim S1x384 ![1] bcast_S384_S1x384_1 : (⟨S384, .f32⟩ : BufTy).Contents (Elt F) → (⟨S1x384, .f32⟩ : BufTy).Contents (Elt F)),
    StableHlo.unary main_v53 main_v54 (broadcastInDim S50000x384 ![0, 1] bcast_S1x384_S50000x384_0_1 : (⟨S1x384, .f32⟩ : BufTy).Contents (Elt F) → (⟨S50000x384, .f32⟩ : BufTy).Contents (Elt F)),
    StableHlo.binary main_v52 main_v54 main_v55 (addf : (⟨S50000x384, .f32⟩ : BufTy).Contents (Elt F) → (⟨S50000x384, .f32⟩ : BufTy).Contents (Elt F) → (⟨S50000x384, .f32⟩ : BufTy).Contents (Elt F)),
    StableHlo.binary main_v44 main_v55 main_v56 (addf : (⟨S50000x384, .f32⟩ : BufTy).Contents (Elt F) → (⟨S50000x384, .f32⟩ : BufTy).Contents (Elt F) → (⟨S50000x384, .f32⟩ : BufTy).Contents (Elt F)),
    StableHlo.reshape main_v56 main_v57 rfl shapeCasts_S50000x384_S150000x128 ]

/-- Operations 199 … 200 of 200. -/
abbrev opsT : List (HloOp τ sig (Elt F)) :=
  [ StableHlo.nary ![main_v12, main_v27, main_v42, main_v57] main_v58 (fun u => concatenate S600000x128 0 [⟨S100000x128, u 0⟩, ⟨S200000x128, u 1⟩, ⟨S150000x128, u 2⟩, ⟨S150000x128, u 3⟩] concatenates_S100000x128_S200000x128_S150000x128_S150000x128_S600000x128_d0),
    StableHlo.nary ![main_arg1, main_arg2, main_arg3, main_arg4] main_v59 (fun u => concatenate S600000 0 [⟨S100000, u 0⟩, ⟨S200000, u 1⟩, ⟨S150000, u 2⟩, ⟨S150000, u 3⟩] concatenates_S100000_S200000_S150000_S150000_S600000_d0) ]

/-- @main's 200 operations, in order. -/
abbrev ops : List (HloOp τ sig (Elt F)) := opsA ++ opsB ++ opsC ++ opsD ++ opsT

/-- @main is that straight line: both sides unfold to one chain of operation steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., unary_bufs_sub .., binary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., unary_bufs_sub .., binary_bufs_sub .., binary_bufs_sub .., reshape_bufs_sub ..⟩

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., unary_bufs_sub .., binary_bufs_sub .., binary_bufs_sub .., reshape_bufs_sub ..⟩

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., unary_bufs_sub .., binary_bufs_sub .., binary_bufs_sub .., reshape_bufs_sub ..⟩

theorem opsT_sub : (opsT : List (HloOp τ sig (Elt F))).Forall fun op => op.bufs ⊆ tcRefs τ sig :=
  ⟨nary_bufs_sub .., nary_bufs_sub ..⟩

theorem ops_sub : (ops : List (HloOp τ sig (Elt F))).Forall fun op => op.bufs ⊆ tcRefs τ sig :=
  List.forall_iff_forall_mem.mpr fun op h => by
    simp only [ops, List.mem_append] at h
    rcases h with (((h | h) | h) | h) | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsT_sub op h]

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsT_fresh : (opsT : List (HloOp τ sig (Elt F))).Forall fun op => op.fresh = ∅ :=
  ⟨rfl, rfl⟩

theorem ops_fresh : ∀ op ∈ (ops : List (HloOp τ sig (Elt F))), op.fresh = ∅ := fun op h => by
  simp only [ops, List.mem_append] at h
  rcases h with (((h | h) | h) | h) | h
  exacts [List.forall_iff_forall_mem.mp opsA_fresh op h, List.forall_iff_forall_mem.mp opsB_fresh op h,
    List.forall_iff_forall_mem.mp opsC_fresh op h, List.forall_iff_forall_mem.mp opsD_fresh op h,
    List.forall_iff_forall_mem.mp opsT_fresh op h]

/-- The buffers block A writes. -/
abbrev opsA_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_v1, main_v2, main_v3, main_v4, main_call1_cst, main_call1_v0, main_call1_v1, main_call1_v2, main_call1_v3, main_call1_v4, main_call1_v5, main_call1_v6, main_call1_v7, main_call1_v8, main_call1_v9, main_call1_v10, main_call1_v11, main_v5, main_v6, main_v7, main_v8, main_v9, main_v10, main_v11, main_v12]
theorem opsA_writes : (opsA : List (HloOp τ sig (Elt F))).Forall fun op =>
    op.writes ⊆ (opsA_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer block A does not write keeps its contents through it. -/
theorem keepA (V : Valuation τ sig (Elt F)) (r : Ref sig .tc) (h : r ∉ opsA_W) :
    after opsA V (Proc.devRef .tc r) = V (Proc.devRef .tc r) :=
  after_of_writes_sub opsA V opsA_writes h

/-- The buffers block B writes. -/
abbrev opsB_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v13, main_v14, main_v15, main_v16, main_v17, main_v18, main_call3_cst, main_call3_v0, main_call3_v1, main_call3_v2, main_call3_v3, main_call3_v4, main_call3_v5, main_call3_v6, main_call3_v7, main_call3_v8, main_call3_v9, main_call3_v10, main_call3_v11, main_v19, main_v20, main_v21, main_v22, main_v23, main_v24, main_v25, main_v26, main_v27]
theorem opsB_writes : (opsB : List (HloOp τ sig (Elt F))).Forall fun op =>
    op.writes ⊆ (opsB_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer block B does not write keeps its contents through it. -/
theorem keepB (V : Valuation τ sig (Elt F)) (r : Ref sig .tc) (h : r ∉ opsB_W) :
    after opsB V (Proc.devRef .tc r) = V (Proc.devRef .tc r) :=
  after_of_writes_sub opsB V opsB_writes h

/-- The buffers block C writes. -/
abbrev opsC_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v28, main_v29, main_v30, main_v31, main_v32, main_v33, main_call5_cst, main_call5_v0, main_call5_v1, main_call5_v2, main_call5_v3, main_call5_v4, main_call5_v5, main_call5_v6, main_call5_v7, main_call5_v8, main_call5_v9, main_call5_v10, main_call5_v11, main_v34, main_v35, main_v36, main_v37, main_v38, main_v39, main_v40, main_v41, main_v42]
theorem opsC_writes : (opsC : List (HloOp τ sig (Elt F))).Forall fun op =>
    op.writes ⊆ (opsC_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer block C does not write keeps its contents through it. -/
theorem keepC (V : Valuation τ sig (Elt F)) (r : Ref sig .tc) (h : r ∉ opsC_W) :
    after opsC V (Proc.devRef .tc r) = V (Proc.devRef .tc r) :=
  after_of_writes_sub opsC V opsC_writes h

/-- The buffers block D writes. -/
abbrev opsD_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v43, main_v44, main_v45, main_v46, main_v47, main_v48, main_call7_cst, main_call7_v0, main_call7_v1, main_call7_v2, main_call7_v3, main_call7_v4, main_call7_v5, main_call7_v6, main_call7_v7, main_call7_v8, main_call7_v9, main_call7_v10, main_call7_v11, main_v49, main_v50, main_v51, main_v52, main_v53, main_v54, main_v55, main_v56, main_v57]
theorem opsD_writes : (opsD : List (HloOp τ sig (Elt F))).Forall fun op =>
    op.writes ⊆ (opsD_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer block D does not write keeps its contents through it. -/
theorem keepD (V : Valuation τ sig (Elt F)) (r : Ref sig .tc) (h : r ∉ opsD_W) :
    after opsD V (Proc.devRef .tc r) = V (Proc.devRef .tc r) :=
  after_of_writes_sub opsD V opsD_writes h

/-- The buffers block T writes. -/
abbrev opsT_W : List (Ref sig .tc) := [main_v58, main_v59]
theorem opsT_writes : (opsT : List (HloOp τ sig (Elt F))).Forall fun op =>
    op.writes ⊆ (opsT_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide)))⟩
/-- A buffer block T does not write keeps its contents through it. -/
theorem keepT (V : Valuation τ sig (Elt F)) (r : Ref sig .tc) (h : r ∉ opsT_W) :
    after opsT V (Proc.devRef .tc r) = V (Proc.devRef .tc r) :=
  after_of_writes_sub opsT V opsT_writes h

theorem after_ops (V : Valuation τ sig (Elt F)) :
    after ops V = after opsT (after opsD (after opsC (after opsB (after opsA V)))) := by
  simp only [ops, after_append]

end Cert.Proof.Ref

end
-- ==== Proof.RefRun.BlkA.lean ====
/- Block A of the reference's run read as a composition of named stages: the wrapped index column, the
   row-in-range mask, the rows taken, the hidden layer, its gated activation, the second layer with the
   residual sum; and the block's result buffer after the block's operations is that
   composition of the argument arrays. -/
import proofs.«214605_g64536178589837_cont_9to1_m_912_2_alg».proof.Proof.RefRun.Ops

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The index list as a column, an index below zero first moved up by the table's row count. -/
def idx_a (i : (⟨S100000, .i32⟩ : BufTy).Contents (Elt F)) : (⟨S100000x1, .i32⟩ : BufTy).Contents (Elt F) :=
  broadcastInDim S100000x1 ![0] bcast_S100000_S100000x1_0
    (select (cmpi .slt i (broadcastInDim S100000 ![] bcast_S_S100000 (constantI S_ 32 0#32)))
      (addi i (broadcastInDim S100000 ![] bcast_S_S100000 (constantI S_ 32 100000#32))) i)

/-- Entry by entry of the list: whether the moved index lies in 0 … 99999. -/
def inb_a (i : (⟨S100000, .i32⟩ : BufTy).Contents (Elt F)) : (⟨S100000, .i1⟩ : BufTy).Contents (Elt F) :=
  Host.reduce IntOp.andi
    (andi (cmpi .sge (idx_a (F := F) i) (broadcastInDim S100000x1 ![] bcast_S_S100000x1 (constantI S_ 32 0#32)))
      (cmpi .sle (idx_a (F := F) i) (broadcastInDim S100000x1 ![0, 1] bcast_S1x1_S100000x1_0_1
        (broadcastInDim S1x1 ![1] bcast_S1_S1x1_1 (constantI S1 32 99999#32)))))
    (constantI S_ 1 1#1) reducesTo_S100000x1_S100000_d1 h_S_

/-- The table's rows at the index list: a row whose index is out of range is the fill value. -/
def taken_a (t : (⟨S100000x128, .f32⟩ : BufTy).Contents (Elt F)) (i : (⟨S100000, .i32⟩ : BufTy).Contents (Elt F)) : (⟨S100000x128, .f32⟩ : BufTy).Contents (Elt F) :=
  select (broadcastInDim S100000x128 ![0] bcast_S100000_S100000x128_0 (inb_a (F := F) i))
    (Host.gather gather_S100000x128_S100000x1_S100000x128_1_0_n_n_0_1_1128 t (idx_a (F := F) i))
    (broadcastInDim S100000x128 ![] bcast_S_S100000x128 (constant S_ .f32 0x7FC00000#32))

/-- The zero array the softplus compares and adds with. -/
def zero_a : (⟨S100000x128, .f32⟩ : BufTy).Contents (Elt F) :=
  broadcastInDim S100000x128 ![] bcast_S_S100000x128 (constant S_ .f32 0x00000000#32)

/-- Softplus in its overflow-safe form: max(x, 0) + log1p(exp(−|x|)), and x itself where x − 0 is not a number. -/
def softplus_a (x : (⟨S100000x128, .f32⟩ : BufTy).Contents (Elt F)) : (⟨S100000x128, .f32⟩ : BufTy).Contents (Elt F) :=
  select (cmpf .une (subf x (zero_a (F := F))) (subf x (zero_a (F := F)))) (addf x (zero_a (F := F)))
    (addf (maximumf x (zero_a (F := F))) (Host.log1p (Host.exp (Host.negf (Host.absf (subf x (zero_a (F := F))))))))

/-- The first layer: x · W₁ + b₁. -/
def hidden_a (x : (⟨S100000x128, .f32⟩ : BufTy).Contents (Elt F)) (w1 : (⟨S128x128, .f32⟩ : BufTy).Contents (Elt F)) (b1 : (⟨S128, .f32⟩ : BufTy).Contents (Elt F)) : (⟨S100000x128, .f32⟩ : BufTy).Contents (Elt F) :=
  addf (Host.dotGeneral dot_S100000x128_S128x128_S100000x128_1_0_0_1_n_n none x w1)
    (broadcastInDim S100000x128 ![0, 1] bcast_S1x128_S100000x128_0_1 (broadcastInDim S1x128 ![1] bcast_S128_S1x128_1 b1))

/-- The activation: h · tanh(softplus h). -/
def act_a (h : (⟨S100000x128, .f32⟩ : BufTy).Contents (Elt F)) : (⟨S100000x128, .f32⟩ : BufTy).Contents (Elt F) :=
  mulf h (Host.tanh (softplus_a (F := F) h))

/-- The perceptron with its residual: x + (act(x · W₁ + b₁) · W₂ + b₂). -/
def mlp_a (x : (⟨S100000x128, .f32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S100000x128, .f32⟩ : BufTy).Contents (Elt F) :=
  addf x (addf (Host.dotGeneral dot_S100000x128_S128x128_S100000x128_1_0_0_1_n_n none (act_a (F := F) (hidden_a (F := F) x w1 b1)) w2)
    (broadcastInDim S100000x128 ![0, 1] bcast_S1x128_S100000x128_0_1 (broadcastInDim S1x128 ![1] bcast_S128_S1x128_1 b2)))

/-- The relation's messages: the perceptron on the rows taken at its index list. -/
def out_a (t : (⟨S100000x128, .f32⟩ : BufTy).Contents (Elt F)) (i : (⟨S100000, .i32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S100000x128, .f32⟩ : BufTy).Contents (Elt F) :=
  mlp_a (F := F) (taken_a (F := F) t i) w1 b1 w2 b2

attribute [local irreducible] Host.reduce Host.gather in
set_option maxRecDepth 8192 in
set_option maxHeartbeats 2000000 in
/-- After block A's operations its result buffer holds the relation's messages of the argument arrays. -/
theorem blkA (V : Valuation τ sig (Elt F)) :
    after opsA V (Proc.devRef .tc main_v12)
      = out_a (F := F) (V (Proc.devRef .tc main_arg0)) (V (Proc.devRef .tc main_arg1)) (V (Proc.devRef .tc main_arg5))
          (V (Proc.devRef .tc main_arg6)) (V (Proc.devRef .tc main_arg7)) (V (Proc.devRef .tc main_arg8)) := by
  after_results_simp
  rfl

end Cert.Proof.Ref

end
-- ==== Proof.RefRun.BlkB.lean ====
/- Block B of the reference's run read as a composition of named stages: the wrapped index column, the
   row-in-range mask, the rows taken, the hidden layer, its gated activation, the second layer with the
   residual sum, between the two regroupings of rows; and the block's result buffer after the block's operations is that
   composition of the argument arrays. -/
import proofs.«214605_g64536178589837_cont_9to1_m_912_2_alg».proof.Proof.RefRun.Ops

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The index list as a column, an index below zero first moved up by the table's row count. -/
def idx_b (i : (⟨S200000, .i32⟩ : BufTy).Contents (Elt F)) : (⟨S200000x1, .i32⟩ : BufTy).Contents (Elt F) :=
  broadcastInDim S200000x1 ![0] bcast_S200000_S200000x1_0
    (select (cmpi .slt i (broadcastInDim S200000 ![] bcast_S_S200000 (constantI S_ 32 0#32)))
      (addi i (broadcastInDim S200000 ![] bcast_S_S200000 (constantI S_ 32 100000#32))) i)

/-- Entry by entry of the list: whether the moved index lies in 0 … 99999. -/
def inb_b (i : (⟨S200000, .i32⟩ : BufTy).Contents (Elt F)) : (⟨S200000, .i1⟩ : BufTy).Contents (Elt F) :=
  Host.reduce IntOp.andi
    (andi (cmpi .sge (idx_b (F := F) i) (broadcastInDim S200000x1 ![] bcast_S_S200000x1 (constantI S_ 32 0#32)))
      (cmpi .sle (idx_b (F := F) i) (broadcastInDim S200000x1 ![0, 1] bcast_S1x1_S200000x1_0_1
        (broadcastInDim S1x1 ![1] bcast_S1_S1x1_1 (constantI S1 32 99999#32)))))
    (constantI S_ 1 1#1) reducesTo_S200000x1_S200000_d1 h_S_

/-- The table's rows at the index list: a row whose index is out of range is the fill value. -/
def taken_b (t : (⟨S100000x128, .f32⟩ : BufTy).Contents (Elt F)) (i : (⟨S200000, .i32⟩ : BufTy).Contents (Elt F)) : (⟨S200000x128, .f32⟩ : BufTy).Contents (Elt F) :=
  select (broadcastInDim S200000x128 ![0] bcast_S200000_S200000x128_0 (inb_b (F := F) i))
    (Host.gather gather_S100000x128_S200000x1_S200000x128_1_0_n_n_0_1_1128 t (idx_b (F := F) i))
    (broadcastInDim S200000x128 ![] bcast_S_S200000x128 (constant S_ .f32 0x7FC00000#32))

/-- The taken rows regrouped, consecutive rows side by side. -/
def rows_b (x : (⟨S200000x128, .f32⟩ : BufTy).Contents (Elt F)) : (⟨S100000x256, .f32⟩ : BufTy).Contents (Elt F) :=
  shapeCast S100000x256 x shapeCasts_S200000x128_S100000x256

/-- The regrouping undone. -/
def back_b (y : (⟨S100000x256, .f32⟩ : BufTy).Contents (Elt F)) : (⟨S200000x128, .f32⟩ : BufTy).Contents (Elt F) :=
  shapeCast S200000x128 y shapeCasts_S100000x256_S200000x128

/-- The zero array the softplus compares and adds with. -/
def zero_b : (⟨S100000x256, .f32⟩ : BufTy).Contents (Elt F) :=
  broadcastInDim S100000x256 ![] bcast_S_S100000x256 (constant S_ .f32 0x00000000#32)

/-- Softplus in its overflow-safe form: max(x, 0) + log1p(exp(−|x|)), and x itself where x − 0 is not a number. -/
def softplus_b (x : (⟨S100000x256, .f32⟩ : BufTy).Contents (Elt F)) : (⟨S100000x256, .f32⟩ : BufTy).Contents (Elt F) :=
  select (cmpf .une (subf x (zero_b (F := F))) (subf x (zero_b (F := F)))) (addf x (zero_b (F := F)))
    (addf (maximumf x (zero_b (F := F))) (Host.log1p (Host.exp (Host.negf (Host.absf (subf x (zero_b (F := F))))))))

/-- The first layer: x · W₁ + b₁. -/
def hidden_b (x : (⟨S100000x256, .f32⟩ : BufTy).Contents (Elt F)) (w1 : (⟨S256x256, .f32⟩ : BufTy).Contents (Elt F)) (b1 : (⟨S256, .f32⟩ : BufTy).Contents (Elt F)) : (⟨S100000x256, .f32⟩ : BufTy).Contents (Elt F) :=
  addf (Host.dotGeneral dot_S100000x256_S256x256_S100000x256_1_0_0_1_n_n none x w1)
    (broadcastInDim S100000x256 ![0, 1] bcast_S1x256_S100000x256_0_1 (broadcastInDim S1x256 ![1] bcast_S256_S1x256_1 b1))

/-- The activation: h · tanh(softplus h). -/
def act_b (h : (⟨S100000x256, .f32⟩ : BufTy).Contents (Elt F)) : (⟨S100000x256, .f32⟩ : BufTy).Contents (Elt F) :=
  mulf h (Host.tanh (softplus_b (F := F) h))

/-- The perceptron with its residual: x + (act(x · W₁ + b₁) · W₂ + b₂). -/
def mlp_b (x : (⟨S100000x256, .f32⟩ : BufTy).Contents (Elt F)) (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S100000x256, .f32⟩ : BufTy).Contents (Elt F) :=
  addf x (addf (Host.dotGeneral dot_S100000x256_S256x256_S100000x256_1_0_0_1_n_n none (act_b (F := F) (hidden_b (F := F) x w1 b1)) w2)
    (broadcastInDim S100000x256 ![0, 1] bcast_S1x256_S100000x256_0_1 (broadcastInDim S1x256 ![1] bcast_S256_S1x256_1 b2)))

/-- The relation's messages: the perceptron on the rows taken at its index list. -/
def out_b (t : (⟨S100000x128, .f32⟩ : BufTy).Contents (Elt F)) (i : (⟨S200000, .i32⟩ : BufTy).Contents (Elt F)) (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S200000x128, .f32⟩ : BufTy).Contents (Elt F) :=
  back_b (F := F) (mlp_b (F := F) (rows_b (F := F) (taken_b (F := F) t i)) w1 b1 w2 b2)

attribute [local irreducible] Host.reduce Host.gather in
set_option maxRecDepth 8192 in
set_option maxHeartbeats 2000000 in
/-- After block B's operations its result buffer holds the relation's messages of the argument arrays. -/
theorem blkB (V : Valuation τ sig (Elt F)) :
    after opsB V (Proc.devRef .tc main_v27)
      = out_b (F := F) (V (Proc.devRef .tc main_arg0)) (V (Proc.devRef .tc main_arg2)) (V (Proc.devRef .tc main_arg9))
          (V (Proc.devRef .tc main_arg10)) (V (Proc.devRef .tc main_arg11)) (V (Proc.devRef .tc main_arg12)) := by
  after_results_simp
  rfl

end Cert.Proof.Ref

end
-- ==== Proof.RefRun.BlkC.lean ====
/- Block C of the reference's run read as a composition of named stages: the wrapped index column, the
   row-in-range mask, the rows taken, the hidden layer, its gated activation, the second layer with the
   residual sum, between the two regroupings of rows; and the block's result buffer after the block's operations is that
   composition of the argument arrays. -/
import proofs.«214605_g64536178589837_cont_9to1_m_912_2_alg».proof.Proof.RefRun.Ops

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The index list as a column, an index below zero first moved up by the table's row count. -/
def idx_c (i : (⟨S150000, .i32⟩ : BufTy).Contents (Elt F)) : (⟨S150000x1, .i32⟩ : BufTy).Contents (Elt F) :=
  broadcastInDim S150000x1 ![0] bcast_S150000_S150000x1_0
    (select (cmpi .slt i (broadcastInDim S150000 ![] bcast_S_S150000 (constantI S_ 32 0#32)))
      (addi i (broadcastInDim S150000 ![] bcast_S_S150000 (constantI S_ 32 100000#32))) i)

/-- Entry by entry of the list: whether the moved index lies in 0 … 99999. -/
def inb_c (i : (⟨S150000, .i32⟩ : BufTy).Contents (Elt F)) : (⟨S150000, .i1⟩ : BufTy).Contents (Elt F) :=
  Host.reduce IntOp.andi
    (andi (cmpi .sge (idx_c (F := F) i) (broadcastInDim S150000x1 ![] bcast_S_S150000x1 (constantI S_ 32 0#32)))
      (cmpi .sle (idx_c (F := F) i) (broadcastInDim S150000x1 ![0, 1] bcast_S1x1_S150000x1_0_1
        (broadcastInDim S1x1 ![1] bcast_S1_S1x1_1 (constantI S1 32 99999#32)))))
    (constantI S_ 1 1#1) reducesTo_S150000x1_S150000_d1 h_S_

/-- The table's rows at the index list: a row whose index is out of range is the fill value. -/
def taken_c (t : (⟨S100000x128, .f32⟩ : BufTy).Contents (Elt F)) (i : (⟨S150000, .i32⟩ : BufTy).Contents (Elt F)) : (⟨S150000x128, .f32⟩ : BufTy).Contents (Elt F) :=
  select (broadcastInDim S150000x128 ![0] bcast_S150000_S150000x128_0 (inb_c (F := F) i))
    (Host.gather gather_S100000x128_S150000x1_S150000x128_1_0_n_n_0_1_1128 t (idx_c (F := F) i))
    (broadcastInDim S150000x128 ![] bcast_S_S150000x128 (constant S_ .f32 0x7FC00000#32))

/-- The taken rows regrouped, consecutive rows side by side. -/
def rows_c (x : (⟨S150000x128, .f32⟩ : BufTy).Contents (Elt F)) : (⟨S75000x256, .f32⟩ : BufTy).Contents (Elt F) :=
  shapeCast S75000x256 x shapeCasts_S150000x128_S75000x256

/-- The regrouping undone. -/
def back_c (y : (⟨S75000x256, .f32⟩ : BufTy).Contents (Elt F)) : (⟨S150000x128, .f32⟩ : BufTy).Contents (Elt F) :=
  shapeCast S150000x128 y shapeCasts_S75000x256_S150000x128

/-- The zero array the softplus compares and adds with. -/
def zero_c : (⟨S75000x256, .f32⟩ : BufTy).Contents (Elt F) :=
  broadcastInDim S75000x256 ![] bcast_S_S75000x256 (constant S_ .f32 0x00000000#32)

/-- Softplus in its overflow-safe form: max(x, 0) + log1p(exp(−|x|)), and x itself where x − 0 is not a number. -/
def softplus_c (x : (⟨S75000x256, .f32⟩ : BufTy).Contents (Elt F)) : (⟨S75000x256, .f32⟩ : BufTy).Contents (Elt F) :=
  select (cmpf .une (subf x (zero_c (F := F))) (subf x (zero_c (F := F)))) (addf x (zero_c (F := F)))
    (addf (maximumf x (zero_c (F := F))) (Host.log1p (Host.exp (Host.negf (Host.absf (subf x (zero_c (F := F))))))))

/-- The first layer: x · W₁ + b₁. -/
def hidden_c (x : (⟨S75000x256, .f32⟩ : BufTy).Contents (Elt F)) (w1 : (⟨S256x256, .f32⟩ : BufTy).Contents (Elt F)) (b1 : (⟨S256, .f32⟩ : BufTy).Contents (Elt F)) : (⟨S75000x256, .f32⟩ : BufTy).Contents (Elt F) :=
  addf (Host.dotGeneral dot_S75000x256_S256x256_S75000x256_1_0_0_1_n_n none x w1)
    (broadcastInDim S75000x256 ![0, 1] bcast_S1x256_S75000x256_0_1 (broadcastInDim S1x256 ![1] bcast_S256_S1x256_1 b1))

/-- The activation: h · tanh(softplus h). -/
def act_c (h : (⟨S75000x256, .f32⟩ : BufTy).Contents (Elt F)) : (⟨S75000x256, .f32⟩ : BufTy).Contents (Elt F) :=
  mulf h (Host.tanh (softplus_c (F := F) h))

/-- The perceptron with its residual: x + (act(x · W₁ + b₁) · W₂ + b₂). -/
def mlp_c (x : (⟨S75000x256, .f32⟩ : BufTy).Contents (Elt F)) (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S75000x256, .f32⟩ : BufTy).Contents (Elt F) :=
  addf x (addf (Host.dotGeneral dot_S75000x256_S256x256_S75000x256_1_0_0_1_n_n none (act_c (F := F) (hidden_c (F := F) x w1 b1)) w2)
    (broadcastInDim S75000x256 ![0, 1] bcast_S1x256_S75000x256_0_1 (broadcastInDim S1x256 ![1] bcast_S256_S1x256_1 b2)))

/-- The relation's messages: the perceptron on the rows taken at its index list. -/
def out_c (t : (⟨S100000x128, .f32⟩ : BufTy).Contents (Elt F)) (i : (⟨S150000, .i32⟩ : BufTy).Contents (Elt F)) (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S150000x128, .f32⟩ : BufTy).Contents (Elt F) :=
  back_c (F := F) (mlp_c (F := F) (rows_c (F := F) (taken_c (F := F) t i)) w1 b1 w2 b2)

attribute [local irreducible] Host.reduce Host.gather in
set_option maxRecDepth 8192 in
set_option maxHeartbeats 2000000 in
/-- After block C's operations its result buffer holds the relation's messages of the argument arrays. -/
theorem blkC (V : Valuation τ sig (Elt F)) :
    after opsC V (Proc.devRef .tc main_v42)
      = out_c (F := F) (V (Proc.devRef .tc main_arg0)) (V (Proc.devRef .tc main_arg3)) (V (Proc.devRef .tc main_arg13))
          (V (Proc.devRef .tc main_arg14)) (V (Proc.devRef .tc main_arg15)) (V (Proc.devRef .tc main_arg16)) := by
  after_results_simp
  rfl

end Cert.Proof.Ref

end
-- ==== Proof.RefRun.BlkD.lean ====
/- Block D of the reference's run read as a composition of named stages: the wrapped index column, the
   row-in-range mask, the rows taken, the hidden layer, its gated activation, the second layer with the
   residual sum, between the two regroupings of rows; and the block's result buffer after the block's operations is that
   composition of the argument arrays. -/
import proofs.«214605_g64536178589837_cont_9to1_m_912_2_alg».proof.Proof.RefRun.Ops

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The index list as a column, an index below zero first moved up by the table's row count. -/
def idx_d (i : (⟨S150000, .i32⟩ : BufTy).Contents (Elt F)) : (⟨S150000x1, .i32⟩ : BufTy).Contents (Elt F) :=
  broadcastInDim S150000x1 ![0] bcast_S150000_S150000x1_0
    (select (cmpi .slt i (broadcastInDim S150000 ![] bcast_S_S150000 (constantI S_ 32 0#32)))
      (addi i (broadcastInDim S150000 ![] bcast_S_S150000 (constantI S_ 32 100000#32))) i)

/-- Entry by entry of the list: whether the moved index lies in 0 … 99999. -/
def inb_d (i : (⟨S150000, .i32⟩ : BufTy).Contents (Elt F)) : (⟨S150000, .i1⟩ : BufTy).Contents (Elt F) :=
  Host.reduce IntOp.andi
    (andi (cmpi .sge (idx_d (F := F) i) (broadcastInDim S150000x1 ![] bcast_S_S150000x1 (constantI S_ 32 0#32)))
      (cmpi .sle (idx_d (F := F) i) (broadcastInDim S150000x1 ![0, 1] bcast_S1x1_S150000x1_0_1
        (broadcastInDim S1x1 ![1] bcast_S1_S1x1_1 (constantI S1 32 99999#32)))))
    (constantI S_ 1 1#1) reducesTo_S150000x1_S150000_d1 h_S_

/-- The table's rows at the index list: a row whose index is out of range is the fill value. -/
def taken_d (t : (⟨S100000x128, .f32⟩ : BufTy).Contents (Elt F)) (i : (⟨S150000, .i32⟩ : BufTy).Contents (Elt F)) : (⟨S150000x128, .f32⟩ : BufTy).Contents (Elt F) :=
  select (broadcastInDim S150000x128 ![0] bcast_S150000_S150000x128_0 (inb_d (F := F) i))
    (Host.gather gather_S100000x128_S150000x1_S150000x128_1_0_n_n_0_1_1128 t (idx_d (F := F) i))
    (broadcastInDim S150000x128 ![] bcast_S_S150000x128 (constant S_ .f32 0x7FC00000#32))

/-- The taken rows regrouped, consecutive rows side by side. -/
def rows_d (x : (⟨S150000x128, .f32⟩ : BufTy).Contents (Elt F)) : (⟨S50000x384, .f32⟩ : BufTy).Contents (Elt F) :=
  shapeCast S50000x384 x shapeCasts_S150000x128_S50000x384

/-- The regrouping undone. -/
def back_d (y : (⟨S50000x384, .f32⟩ : BufTy).Contents (Elt F)) : (⟨S150000x128, .f32⟩ : BufTy).Contents (Elt F) :=
  shapeCast S150000x128 y shapeCasts_S50000x384_S150000x128

/-- The zero array the softplus compares and adds with. -/
def zero_d : (⟨S50000x384, .f32⟩ : BufTy).Contents (Elt F) :=
  broadcastInDim S50000x384 ![] bcast_S_S50000x384 (constant S_ .f32 0x00000000#32)

/-- Softplus in its overflow-safe form: max(x, 0) + log1p(exp(−|x|)), and x itself where x − 0 is not a number. -/
def softplus_d (x : (⟨S50000x384, .f32⟩ : BufTy).Contents (Elt F)) : (⟨S50000x384, .f32⟩ : BufTy).Contents (Elt F) :=
  select (cmpf .une (subf x (zero_d (F := F))) (subf x (zero_d (F := F)))) (addf x (zero_d (F := F)))
    (addf (maximumf x (zero_d (F := F))) (Host.log1p (Host.exp (Host.negf (Host.absf (subf x (zero_d (F := F))))))))

/-- The first layer: x · W₁ + b₁. -/
def hidden_d (x : (⟨S50000x384, .f32⟩ : BufTy).Contents (Elt F)) (w1 : (⟨S384x384, .f32⟩ : BufTy).Contents (Elt F)) (b1 : (⟨S384, .f32⟩ : BufTy).Contents (Elt F)) : (⟨S50000x384, .f32⟩ : BufTy).Contents (Elt F) :=
  addf (Host.dotGeneral dot_S50000x384_S384x384_S50000x384_1_0_0_1_n_n none x w1)
    (broadcastInDim S50000x384 ![0, 1] bcast_S1x384_S50000x384_0_1 (broadcastInDim S1x384 ![1] bcast_S384_S1x384_1 b1))

/-- The activation: h · tanh(softplus h). -/
def act_d (h : (⟨S50000x384, .f32⟩ : BufTy).Contents (Elt F)) : (⟨S50000x384, .f32⟩ : BufTy).Contents (Elt F) :=
  mulf h (Host.tanh (softplus_d (F := F) h))

/-- The perceptron with its residual: x + (act(x · W₁ + b₁) · W₂ + b₂). -/
def mlp_d (x : (⟨S50000x384, .f32⟩ : BufTy).Contents (Elt F)) (w1 : (⟨S384x384, .f32⟩ : BufTy).Contents (Elt F)) (b1 : (⟨S384, .f32⟩ : BufTy).Contents (Elt F))
    (w2 : (⟨S384x384, .f32⟩ : BufTy).Contents (Elt F)) (b2 : (⟨S384, .f32⟩ : BufTy).Contents (Elt F)) : (⟨S50000x384, .f32⟩ : BufTy).Contents (Elt F) :=
  addf x (addf (Host.dotGeneral dot_S50000x384_S384x384_S50000x384_1_0_0_1_n_n none (act_d (F := F) (hidden_d (F := F) x w1 b1)) w2)
    (broadcastInDim S50000x384 ![0, 1] bcast_S1x384_S50000x384_0_1 (broadcastInDim S1x384 ![1] bcast_S384_S1x384_1 b2)))

/-- The relation's messages: the perceptron on the rows taken at its index list. -/
def out_d (t : (⟨S100000x128, .f32⟩ : BufTy).Contents (Elt F)) (i : (⟨S150000, .i32⟩ : BufTy).Contents (Elt F)) (w1 : (⟨S384x384, .f32⟩ : BufTy).Contents (Elt F)) (b1 : (⟨S384, .f32⟩ : BufTy).Contents (Elt F))
    (w2 : (⟨S384x384, .f32⟩ : BufTy).Contents (Elt F)) (b2 : (⟨S384, .f32⟩ : BufTy).Contents (Elt F)) : (⟨S150000x128, .f32⟩ : BufTy).Contents (Elt F) :=
  back_d (F := F) (mlp_d (F := F) (rows_d (F := F) (taken_d (F := F) t i)) w1 b1 w2 b2)

attribute [local irreducible] Host.reduce Host.gather in
set_option maxRecDepth 8192 in
set_option maxHeartbeats 2000000 in
/-- After block D's operations its result buffer holds the relation's messages of the argument arrays. -/
theorem blkD (V : Valuation τ sig (Elt F)) :
    after opsD V (Proc.devRef .tc main_v57)
      = out_d (F := F) (V (Proc.devRef .tc main_arg0)) (V (Proc.devRef .tc main_arg4)) (V (Proc.devRef .tc main_arg17))
          (V (Proc.devRef .tc main_arg18)) (V (Proc.devRef .tc main_arg19)) (V (Proc.devRef .tc main_arg20)) := by
  after_results_simp
  rfl

end Cert.Proof.Ref

end
-- ==== Proof.RefRun.lean ====
/- The reference's run: every weakly fair execution of @main terminates with the message array at the
   concatenation of the four relations' messages (each a composition of named functions
   applied to the argument arrays), the index array at the concatenation of the four index lists, and the
   twenty-one argument arrays unchanged; and the frame claim, which is that run with the two results dropped. -/
import proofs.«214605_g64536178589837_cont_9to1_m_912_2_alg».proof.Proof.RefRun.BlkA
import proofs.«214605_g64536178589837_cont_9to1_m_912_2_alg».proof.Proof.RefRun.BlkB
import proofs.«214605_g64536178589837_cont_9to1_m_912_2_alg».proof.Proof.RefRun.BlkC
import proofs.«214605_g64536178589837_cont_9to1_m_912_2_alg».proof.Proof.RefRun.BlkD
import proofs.«214605_g64536178589837_cont_9to1_m_912_2_alg».proof.Defs
import proofs.«214605_g64536178589837_cont_9to1_m_912_2_alg».proof.Proof.Gen.Pre_input_domain

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The message array: the four relations' messages one after the other along the rows. -/
def outMsgs (m : (ℓ : Loc nD τ sig) → Buf (Elt F) ℓ) (c : Dev nD) : Buf (Elt F) ((c.tc : Thread nD τ).loc main_v58) :=
  concatenate S600000x128 0
    [⟨S100000x128, out_a (F := F) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8))⟩,
     ⟨S200000x128, out_b (F := F) (m ((c.tc : Thread nD τ).loc main_arg0)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12))⟩,
     ⟨S150000x128, out_c (F := F) (m ((c.tc : Thread nD τ).loc main_arg0)) (m ((c.tc : Thread nD τ).loc main_arg3)) (m ((c.tc : Thread nD τ).loc main_arg13)) (m ((c.tc : Thread nD τ).loc main_arg14)) (m ((c.tc : Thread nD τ).loc main_arg15)) (m ((c.tc : Thread nD τ).loc main_arg16))⟩,
     ⟨S150000x128, out_d (F := F) (m ((c.tc : Thread nD τ).loc main_arg0)) (m ((c.tc : Thread nD τ).loc main_arg4)) (m ((c.tc : Thread nD τ).loc main_arg17)) (m ((c.tc : Thread nD τ).loc main_arg18)) (m ((c.tc : Thread nD τ).loc main_arg19)) (m ((c.tc : Thread nD τ).loc main_arg20))⟩]
    concatenates_S100000x128_S200000x128_S150000x128_S150000x128_S600000x128_d0

/-- The index array: the four index lists one after the other. -/
def outIdx (m : (ℓ : Loc nD τ sig) → Buf (Elt F) ℓ) (c : Dev nD) : Buf (Elt F) ((c.tc : Thread nD τ).loc main_v59) :=
  concatenate S600000 0
    [⟨S100000, (m ((c.tc : Thread nD τ).loc main_arg1))⟩, ⟨S200000, (m ((c.tc : Thread nD τ).loc main_arg2))⟩, ⟨S150000, (m ((c.tc : Thread nD τ).loc main_arg3))⟩, ⟨S150000, (m ((c.tc : Thread nD τ).loc main_arg4))⟩]
    concatenates_S100000_S200000_S150000_S150000_S600000_d0

/-- Relation a's messages are written by block A and kept by the later blocks; the arrays block A reads are kept by the earlier ones. -/
theorem endA (V : Valuation τ sig (Elt F)) :
    after opsD (after opsC (after opsB (after opsA V))) (Proc.devRef .tc main_v12)
      = out_a (F := F) (V (Proc.devRef .tc main_arg0)) (V (Proc.devRef .tc main_arg1)) (V (Proc.devRef .tc main_arg5)) (V (Proc.devRef .tc main_arg6)) (V (Proc.devRef .tc main_arg7)) (V (Proc.devRef .tc main_arg8)) := by
  rw [keepD _ main_v12 (by decide),
    keepC _ main_v12 (by decide),
    keepB _ main_v12 (by decide),
    blkA]

/-- Relation b's messages are written by block B and kept by the later blocks; the arrays block B reads are kept by the earlier ones. -/
theorem endB (V : Valuation τ sig (Elt F)) :
    after opsD (after opsC (after opsB (after opsA V))) (Proc.devRef .tc main_v27)
      = out_b (F := F) (V (Proc.devRef .tc main_arg0)) (V (Proc.devRef .tc main_arg2)) (V (Proc.devRef .tc main_arg9)) (V (Proc.devRef .tc main_arg10)) (V (Proc.devRef .tc main_arg11)) (V (Proc.devRef .tc main_arg12)) := by
  rw [keepD _ main_v27 (by decide),
    keepC _ main_v27 (by decide),
    blkB,
    keepA _ main_arg0 (by decide),
    keepA _ main_arg2 (by decide),
    keepA _ main_arg9 (by decide),
    keepA _ main_arg10 (by decide),
    keepA _ main_arg11 (by decide),
    keepA _ main_arg12 (by decide)]

/-- Relation c's messages are written by block C and kept by the later blocks; the arrays block C reads are kept by the earlier ones. -/
theorem endC (V : Valuation τ sig (Elt F)) :
    after opsD (after opsC (after opsB (after opsA V))) (Proc.devRef .tc main_v42)
      = out_c (F := F) (V (Proc.devRef .tc main_arg0)) (V (Proc.devRef .tc main_arg3)) (V (Proc.devRef .tc main_arg13)) (V (Proc.devRef .tc main_arg14)) (V (Proc.devRef .tc main_arg15)) (V (Proc.devRef .tc main_arg16)) := by
  rw [keepD _ main_v42 (by decide),
    blkC,
    keepB _ main_arg0 (by decide),
    keepA _ main_arg0 (by decide),
    keepB _ main_arg3 (by decide),
    keepA _ main_arg3 (by decide),
    keepB _ main_arg13 (by decide),
    keepA _ main_arg13 (by decide),
    keepB _ main_arg14 (by decide),
    keepA _ main_arg14 (by decide),
    keepB _ main_arg15 (by decide),
    keepA _ main_arg15 (by decide),
    keepB _ main_arg16 (by decide),
    keepA _ main_arg16 (by decide)]

/-- Relation d's messages are written by block D and kept by the later blocks; the arrays block D reads are kept by the earlier ones. -/
theorem endD (V : Valuation τ sig (Elt F)) :
    after opsD (after opsC (after opsB (after opsA V))) (Proc.devRef .tc main_v57)
      = out_d (F := F) (V (Proc.devRef .tc main_arg0)) (V (Proc.devRef .tc main_arg4)) (V (Proc.devRef .tc main_arg17)) (V (Proc.devRef .tc main_arg18)) (V (Proc.devRef .tc main_arg19)) (V (Proc.devRef .tc main_arg20)) := by
  rw [blkD,
    keepC _ main_arg0 (by decide),
    keepB _ main_arg0 (by decide),
    keepA _ main_arg0 (by decide),
    keepC _ main_arg4 (by decide),
    keepB _ main_arg4 (by decide),
    keepA _ main_arg4 (by decide),
    keepC _ main_arg17 (by decide),
    keepB _ main_arg17 (by decide),
    keepA _ main_arg17 (by decide),
    keepC _ main_arg18 (by decide),
    keepB _ main_arg18 (by decide),
    keepA _ main_arg18 (by decide),
    keepC _ main_arg19 (by decide),
    keepB _ main_arg19 (by decide),
    keepA _ main_arg19 (by decide),
    keepC _ main_arg20 (by decide),
    keepB _ main_arg20 (by decide),
    keepA _ main_arg20 (by decide)]

/-- The two concatenations read the four message buffers and the four index lists. -/
theorem tailMsgs (W : Valuation τ sig (Elt F)) :
    after opsT W (Proc.devRef .tc main_v58)
      = concatenate S600000x128 0
          [⟨S100000x128, W (Proc.devRef .tc main_v12)⟩, ⟨S200000x128, W (Proc.devRef .tc main_v27)⟩,
           ⟨S150000x128, W (Proc.devRef .tc main_v42)⟩, ⟨S150000x128, W (Proc.devRef .tc main_v57)⟩]
          concatenates_S100000x128_S200000x128_S150000x128_S150000x128_S600000x128_d0 := by
  after_results
  rfl

theorem tailIdx (W : Valuation τ sig (Elt F)) :
    after opsT W (Proc.devRef .tc main_v59)
      = concatenate S600000 0
          [⟨S100000, W (Proc.devRef .tc main_arg1)⟩, ⟨S200000, W (Proc.devRef .tc main_arg2)⟩,
           ⟨S150000, W (Proc.devRef .tc main_arg3)⟩, ⟨S150000, W (Proc.devRef .tc main_arg4)⟩]
          concatenates_S100000_S200000_S150000_S150000_S600000_d0 := by
  after_results
  rfl

/-- A buffer no block writes keeps its contents through the whole line. -/
theorem keep_all (V : Valuation τ sig (Elt F)) (r : Ref sig .tc) (hA : r ∉ opsA_W) (hB : r ∉ opsB_W) (hC : r ∉ opsC_W)
    (hD : r ∉ opsD_W) (hT : r ∉ opsT_W) : after ops V (Proc.devRef .tc r) = V (Proc.devRef .tc r) := by
  rw [after_ops, keepT _ r hT, keepD _ r hD, keepC _ r hC, keepB _ r hB, keepA _ r hA]

/-- The message buffer after the whole line, over any starting contents. -/
theorem after_v58 (V : Valuation τ sig (Elt F)) :
    after ops V (Proc.devRef .tc main_v58)
      = concatenate S600000x128 0
          [⟨S100000x128, out_a (F := F) (V (Proc.devRef .tc main_arg0)) (V (Proc.devRef .tc main_arg1)) (V (Proc.devRef .tc main_arg5)) (V (Proc.devRef .tc main_arg6)) (V (Proc.devRef .tc main_arg7)) (V (Proc.devRef .tc main_arg8))⟩,
           ⟨S200000x128, out_b (F := F) (V (Proc.devRef .tc main_arg0)) (V (Proc.devRef .tc main_arg2)) (V (Proc.devRef .tc main_arg9)) (V (Proc.devRef .tc main_arg10)) (V (Proc.devRef .tc main_arg11)) (V (Proc.devRef .tc main_arg12))⟩,
           ⟨S150000x128, out_c (F := F) (V (Proc.devRef .tc main_arg0)) (V (Proc.devRef .tc main_arg3)) (V (Proc.devRef .tc main_arg13)) (V (Proc.devRef .tc main_arg14)) (V (Proc.devRef .tc main_arg15)) (V (Proc.devRef .tc main_arg16))⟩,
           ⟨S150000x128, out_d (F := F) (V (Proc.devRef .tc main_arg0)) (V (Proc.devRef .tc main_arg4)) (V (Proc.devRef .tc main_arg17)) (V (Proc.devRef .tc main_arg18)) (V (Proc.devRef .tc main_arg19)) (V (Proc.devRef .tc main_arg20))⟩]
          concatenates_S100000x128_S200000x128_S150000x128_S150000x128_S600000x128_d0 := by
  rw [after_ops, tailMsgs, endA, endB, endC, endD]

/-- The index buffer after the whole line, over any starting contents. -/
theorem after_v59 (V : Valuation τ sig (Elt F)) :
    after ops V (Proc.devRef .tc main_v59)
      = concatenate S600000 0
          [⟨S100000, (V (Proc.devRef .tc main_arg1))⟩, ⟨S200000, (V (Proc.devRef .tc main_arg2))⟩, ⟨S150000, (V (Proc.devRef .tc main_arg3))⟩, ⟨S150000, (V (Proc.devRef .tc main_arg4))⟩]
          concatenates_S100000_S200000_S150000_S150000_S600000_d0 := by
  rw [after_ops, tailIdx]
  rw [keepD _ main_arg1 (by decide), keepC _ main_arg1 (by decide), keepB _ main_arg1 (by decide), keepA _ main_arg1 (by decide),
    keepD _ main_arg2 (by decide), keepC _ main_arg2 (by decide), keepB _ main_arg2 (by decide), keepA _ main_arg2 (by decide),
    keepD _ main_arg3 (by decide), keepC _ main_arg3 (by decide), keepB _ main_arg3 (by decide), keepA _ main_arg3 (by decide),
    keepD _ main_arg4 (by decide), keepC _ main_arg4 (by decide), keepB _ main_arg4 (by decide), keepA _ main_arg4 (by decide)]

/-- On every device, for any float values, from any memory with zero counters: every weakly fair execution of @main
    terminates with the two results at their composed terms of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = outMsgs m c
      ∧ r.2.mem ((c.tc : Thread nD τ).loc main_v59) = outIdx m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v58).trans (after_v58 (launchContents m c)),
      (h c main_v59).trans (after_v59 (launchContents m c)),
      (h c main_arg0).trans (keep_all (launchContents m c) main_arg0 (by decide) (by decide) (by decide) (by decide) (by decide)),
      (h c main_arg1).trans (keep_all (launchContents m c) main_arg1 (by decide) (by decide) (by decide) (by decide) (by decide)),
      (h c main_arg2).trans (keep_all (launchContents m c) main_arg2 (by decide) (by decide) (by decide) (by decide) (by decide)),
      (h c main_arg3).trans (keep_all (launchContents m c) main_arg3 (by decide) (by decide) (by decide) (by decide) (by decide)),
      (h c main_arg4).trans (keep_all (launchContents m c) main_arg4 (by decide) (by decide) (by decide) (by decide) (by decide)),
      (h c main_arg5).trans (keep_all (launchContents m c) main_arg5 (by decide) (by decide) (by decide) (by decide) (by decide)),
      (h c main_arg6).trans (keep_all (launchContents m c) main_arg6 (by decide) (by decide) (by decide) (by decide) (by decide)),
      (h c main_arg7).trans (keep_all (launchContents m c) main_arg7 (by decide) (by decide) (by decide) (by decide) (by decide)),
      (h c main_arg8).trans (keep_all (launchContents m c) main_arg8 (by decide) (by decide) (by decide) (by decide) (by decide)),
      (h c main_arg9).trans (keep_all (launchContents m c) main_arg9 (by decide) (by decide) (by decide) (by decide) (by decide)),
      (h c main_arg10).trans (keep_all (launchContents m c) main_arg10 (by decide) (by decide) (by decide) (by decide) (by decide)),
      (h c main_arg11).trans (keep_all (launchContents m c) main_arg11 (by decide) (by decide) (by decide) (by decide) (by decide)),
      (h c main_arg12).trans (keep_all (launchContents m c) main_arg12 (by decide) (by decide) (by decide) (by decide) (by decide)),
      (h c main_arg13).trans (keep_all (launchContents m c) main_arg13 (by decide) (by decide) (by decide) (by decide) (by decide)),
      (h c main_arg14).trans (keep_all (launchContents m c) main_arg14 (by decide) (by decide) (by decide) (by decide) (by decide)),
      (h c main_arg15).trans (keep_all (launchContents m c) main_arg15 (by decide) (by decide) (by decide) (by decide) (by decide)),
      (h c main_arg16).trans (keep_all (launchContents m c) main_arg16 (by decide) (by decide) (by decide) (by decide) (by decide)),
      (h c main_arg17).trans (keep_all (launchContents m c) main_arg17 (by decide) (by decide) (by decide) (by decide) (by decide)),
      (h c main_arg18).trans (keep_all (launchContents m c) main_arg18 (by decide) (by decide) (by decide) (by decide) (by decide)),
      (h c main_arg19).trans (keep_all (launchContents m c) main_arg19 (by decide) (by decide) (by decide) (by decide) (by decide)),
      (h c main_arg20).trans (keep_all (launchContents m c) main_arg20 (by decide) (by decide) (by decide) (by decide) (by decide))⟩)
    (run_seq scopedRefs_eq scopedSems_eq defs main (fun _ => ops) main_eq (fun _ => ops_sub) m ρ (fun _ => ops_fresh))

/-- The reference's frame: the run with the two results dropped. -/
theorem frame_ri : Cert.frame_ReferenceIdeal (hReferenceIdeal := Cert.ReferenceIdeal.Gen.facts)
    (hPre_input_domain := Cert.Pre_input_domain.Gen.facts) :=
  fun m g _ => (θ_run (Cert.ReferenceIdeal.defs (F := Ideal)) _ _).mono (fun _ h c => (h c).2.2) (run (F := Ideal) m g)

end Cert.Proof.Ref

end
-- ==== Proof.RefVal.Kit.lean ====
/- Lemmas that read the reference's stages at one index: a 32-bit index word known to lie below the table's row count
   compares as its number; a reduction by "and" of ones from one is one; a bias vector broadcast along the rows read at
   an entry; rows gathered from a table at a column of start indices read at an entry; the softplus's guarded form at an
   extended real is the plain one. -/
import Idealize.ShloMosaic.Lib.StackMember
import Idealize.ShloMosaic.Lib.ReduceAll
import proofs.«214605_g64536178589837_cont_9to1_m_912_2_alg».proof.Proof.Spec

noncomputable section

namespace Cert.Proof.Ref

open Idealize.ShloMosaic Idealize.ShloMosaic.ValueIdx

/-- A word whose unsigned reading is below 100000 reads the same signed, is not below zero, and lies in 0 … 99999. -/
theorem word_facts (v : BitVec 32) (h : v.toNat < 100000) :
    IntOp.cmpi .slt v 0#32 = 0#1 ∧ IntOp.cmpi .sge v 0#32 = 1#1 ∧ IntOp.cmpi .sle v 99999#32 = 1#1
      ∧ v.toInt.toNat = v.toNat := by
  have hi : v.toInt = (v.toNat : Int) := by
    rw [BitVec.toInt_eq_toNat_cond]; split <;> omega
  have e0 : (0#32 : BitVec 32).toInt = 0 := by decide
  have e1 : (99999#32 : BitVec 32).toInt = 99999 := by decide
  have a0 : v.slt 0#32 = false := by
    rw [BitVec.slt, decide_eq_false_iff_not, hi, e0]; omega
  have a1 : (0#32 : BitVec 32).sle v = true := by
    rw [BitVec.sle, decide_eq_true_eq, hi, e0]; omega
  have a2 : v.sle 99999#32 = true := by
    rw [BitVec.sle, decide_eq_true_eq, hi, e1]; omega
  refine ⟨?_, ?_, ?_, ?_⟩
  · show BitVec.ofBool (v.slt 0#32) = 0#1
    rw [a0]; rfl
  · show BitVec.ofBool ((0#32 : BitVec 32).sle v) = 1#1
    rw [a1]; rfl
  · show BitVec.ofBool (v.sle 99999#32) = 1#1
    rw [a2]; rfl
  · rw [hi]; simp

/-- A left fold by "and" from one over ones is one. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduction by "and" of an array of ones, from one, is one at every index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones x _ fun n _ => hx n

/-- A vector laid along every row (first as one row, then down the rows), read at an entry, is the vector's entry. -/
theorem bias_read {α : Type} {n m : Nat} (h1 : (⟨1, ![m]⟩ : Shape).BroadcastsInDim ⟨2, ![1, m]⟩ ![1])
    (h2 : (⟨2, ![1, m]⟩ : Shape).BroadcastsInDim ⟨2, ![n, m]⟩ ![0, 1]) (b : (⟨1, ![m]⟩ : Shape).Idx → α)
    (t : Fin n) (k : Fin m) :
    broadcastInDim ⟨2, ![n, m]⟩ ![0, 1] h2 (broadcastInDim ⟨2, ![1, m]⟩ ![1] h1 b) (ix2 t k) = b (ix1 k) := by
  rw [broadcastInDim_oneRow_apply]
  refine broadcastInDim_apply ![1] h1 b (ix2 (0 : Fin 1) k) (ix1 k) ?_
  intro a
  fin_cases a
  show k.val = if m = 1 then 0 else k.val
  split_ifs with hm
  · have := k.isLt; omega
  · rfl

/-- A vector made a column, read at an entry. -/
theorem column_read {α : Type} {n : Nat} (h : (⟨1, ![n]⟩ : Shape).BroadcastsInDim ⟨2, ![n, 1]⟩ ![0])
    (x : (⟨1, ![n]⟩ : Shape).Idx → α) (t : Fin n) (z : Fin 1) :
    broadcastInDim ⟨2, ![n, 1]⟩ ![0] h x (ix2 t z) = x (ix1 t) := by
  refine broadcastInDim_apply ![0] h x (ix2 t z) (ix1 t) ?_
  intro a
  fin_cases a
  show t.val = if n = 1 then 0 else t.val
  split_ifs with hn
  · have := t.isLt; omega
  · rfl

/-- A vector repeated along every row's entries (one value per row), read at an entry. -/
theorem perRow_read {α : Type} {n m : Nat} (h : (⟨1, ![n]⟩ : Shape).BroadcastsInDim ⟨2, ![n, m]⟩ ![0])
    (x : (⟨1, ![n]⟩ : Shape).Idx → α) (t : Fin n) (c : Fin m) :
    broadcastInDim ⟨2, ![n, m]⟩ ![0] h x (ix2 t c) = x (ix1 t) := by
  refine broadcastInDim_apply ![0] h x (ix2 t c) (ix1 t) ?_
  intro a
  fin_cases a
  show t.val = if n = 1 then 0 else t.val
  split_ifs with hn
  · have := t.isLt; omega
  · rfl

/-- Rows of an N × C table gathered at a column of R start indices, read at (r, c): the table at the start index of row
    r, read signed and clamped into 0 … N − 1, and column c. -/
theorem gather_rows_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (⟨[1], [0], [], [], [0], 1, ![1, C], wf⟩ : GatherDims ⟨2, ![N, C]⟩ ⟨2, ![R, 1]⟩ ⟨2, ![R, C]⟩) x idx (ix2 r c)
      = x (ix2 ⟨min (idx (ix2 r 0)).toInt.toNat (N - 1), by omega⟩ c) := by
  let d : GatherDims ⟨2, ![N, C]⟩ ⟨2, ![R, 1]⟩ ⟨2, ![R, C]⟩ := ⟨[1], [0], [], [], [0], 1, ![1, C], wf⟩
  have m0 : (0 : Fin 2) ∈ d.startIndexMap := List.mem_singleton.mpr rfl
  have k0 : (d.operandIdx (ix2 r c) idx (0 : Fin 2)).val = min (idx (ix2 r 0)).toInt.toNat (N - 1) := by
    show d.start (ix2 r c) idx (0 : Fin 2) + d.batchCoord (ix2 r c) (0 : Fin 2) + d.offCoord (ix2 r c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos m0]
    have hsi : d.siIdx (ix2 r c) ⟨List.idxOf (0 : Fin 2) d.startIndexMap, List.idxOf_lt_length_iff.2 m0⟩ = ix2 r 0 := by
      funext b; refine Fin.ext ?_
      match b with
      | ⟨0, _⟩ => rfl
      | ⟨1, _⟩ => rfl
    rw [hsi]
    rfl
  have m1 : (1 : Fin 2) ∉ d.startIndexMap := by
    show (1 : Fin 2) ∉ ([0] : List (Fin 2)); decide
  have s1 : (1 : Fin 2) ∈ d.sKept :=
    (GatherDims.mem_sKept _ _).mpr ⟨by show (1 : Fin 2) ∉ ([0] : List (Fin 2)); decide, List.not_mem_nil⟩
  have k1 : (d.operandIdx (ix2 r c) idx (1 : Fin 2)).val = c.val := by
    show d.start (ix2 r c) idx (1 : Fin 2) + d.batchCoord (ix2 r c) (1 : Fin 2) + d.offCoord (ix2 r c) (1 : Fin 2) = _
    rw [GatherDims.batchCoord_eq_zero _ _ _ List.not_mem_nil]
    have hs : d.start (ix2 r c) idx (1 : Fin 2) = 0 := by
      unfold GatherDims.start
      rw [dif_neg m1]
    have ho : d.offCoord (ix2 r c) (1 : Fin 2) = c.val := by
      unfold GatherDims.offCoord
      rw [dif_pos s1]
      rfl
    rw [hs, ho]; omega
  show x (d.operandIdx (ix2 r c) idx) = _
  congr 1
  funext a
  refine Fin.ext ?_
  match a with
  | ⟨0, _⟩ => exact k0
  | ⟨1, _⟩ => exact k1

/-- At an extended real the softplus's test "h − 0 ≠ h − 0" fails, and what is left is the plain softplus. -/
theorem softplus_scalar (y z : EReal) (hz : z = 0) :
    Scalar.select (Ideal.cmp .une (y - z) (y - z)) (y + z)
        (max y z + Ideal.log1p (Ideal.exp (-(max (y - z) (-(y - z))))))
      = Spec.softplus y := by
  subst hz
  have hc : Ideal.cmp .une (y - 0) (y - 0) = 0#1 := by simp [Ideal.cmp]
  rw [hc, select_zero, sub_zero]
  rfl

end Cert.Proof.Ref

end
-- ==== Proof.RefVal.lean ====
/- The reference's stages read at one index, at the ideal values and under the index range: every word of a relation's
   index list, read unsigned, is below the table's row count. Then every take's mask is one and its rows are the
   table's rows at the indices; a regrouping of rows is an index computation; each layer is a finite sum; and the
   relation's message array (before its final regrouping), at tuple t and entry j, is the row function
   `Spec.mlpRow` of the tuple's vector of table entries `rowsOf_‹relation›` and the weights read by coordinates. -/
import proofs.«214605_g64536178589837_cont_9to1_m_912_2_alg».proof.Proof.RefRun.BlkA
import proofs.«214605_g64536178589837_cont_9to1_m_912_2_alg».proof.Proof.RefRun.BlkB
import proofs.«214605_g64536178589837_cont_9to1_m_912_2_alg».proof.Proof.RefRun.BlkC
import proofs.«214605_g64536178589837_cont_9to1_m_912_2_alg».proof.Proof.RefRun.BlkD
import proofs.«214605_g64536178589837_cont_9to1_m_912_2_alg».proof.Proof.RefVal.Kit
import proofs.«214605_g64536178589837_cont_9to1_m_912_2_alg».proof.Proof.SpecRel

noncomputable section

namespace Cert.Proof.Ref

open Cert.ReferenceIdeal Cert.ReferenceIdeal.Gen Idealize.ShloMosaic Idealize.ShloMosaic.ValueIdx

/-- The table read at a row named by an index word and a column: equal positions read the same entry. -/
theorem rowsOf_eq {n : Nat} (tbl : (⟨S100000x128, .f32⟩ : BufTy).Contents (Elt Ideal)) (idx : (⟨1, ![n]⟩ : Shape).Idx → BitVec 32)
    (hr : ∀ k, (idx k).toNat < 100000) (r r' : Fin n) (c c' : Fin 128) (hrr : r = r') (hcc : c = c') :
    tbl (ix2 ⟨(idx (ix1 r)).toNat, hr _⟩ c) = tbl (ix2 ⟨(idx (ix1 r')).toNat, hr _⟩ c') := by
  subst hrr hcc; rfl

/-! ## Relation a: 100000 tuples of 1 table row each, 128 entries a tuple -/

section Rel_a

/-- The wrapped index column read at an entry: under the range no index is below zero, so it is the index itself. -/
theorem idx_a_apply (idx : (⟨S100000, .i32⟩ : BufTy).Contents (Elt Ideal)) (hr : ∀ k, (idx k).toNat < 100000) (r : Fin 100000) (z : Fin 1) :
    idx_a (F := Ideal) idx (ix2 r z) = idx (ix1 r) := by
  refine (column_read bcast_S100000_S100000x1_0 _ r z).trans ?_
  show Scalar.select (IntOp.cmpi .slt (idx (ix1 r)) 0#32) (IntOp.addi (idx (ix1 r)) 100000#32) (idx (ix1 r)) = idx (ix1 r)
  rw [(word_facts _ (hr (ix1 r))).1, select_zero]

/-- Under the range every row's mask is one. -/
theorem inb_a_apply (idx : (⟨S100000, .i32⟩ : BufTy).Contents (Elt Ideal)) (hr : ∀ k, (idx k).toNat < 100000) (r : Fin 100000) :
    inb_a (F := Ideal) idx (ix1 r) = 1#1 := by
  refine reduce_andi_ones _ _ _ _ _ (fun p => ?_) rfl
  obtain ⟨q, z, rfl⟩ : ∃ (q : Fin 100000) (z : Fin 1), p = ix2 q z := ⟨p 0, p 1, eq_ix2 p⟩
  show IntOp.andi (IntOp.cmpi .sge (idx_a (F := Ideal) idx (ix2 q z)) 0#32)
    (IntOp.cmpi .sle (idx_a (F := Ideal) idx (ix2 q z)) 99999#32) = 1#1
  rw [idx_a_apply idx hr q z, (word_facts _ (hr (ix1 q))).2.1, (word_facts _ (hr (ix1 q))).2.2.1]
  rfl

/-- The rows taken, read at an entry: the table's row at the index, the same column. -/
theorem taken_a_apply (tbl : (⟨S100000x128, .f32⟩ : BufTy).Contents (Elt Ideal)) (idx : (⟨S100000, .i32⟩ : BufTy).Contents (Elt Ideal)) (hr : ∀ k, (idx k).toNat < 100000)
    (r : Fin 100000) (c : Fin 128) :
    taken_a (F := Ideal) tbl idx (ix2 r c) = tbl (ix2 ⟨(idx (ix1 r)).toNat, hr _⟩ c) := by
  have hm : broadcastInDim S100000x128 ![0] bcast_S100000_S100000x128_0 (inb_a (F := Ideal) idx) (ix2 r c) = 1#1 :=
    (perRow_read bcast_S100000_S100000x128_0 _ r c).trans (inb_a_apply idx hr r)
  have hg : Host.gather gather_S100000x128_S100000x1_S100000x128_1_0_n_n_0_1_1128 tbl (idx_a (F := Ideal) idx) (ix2 r c)
      = tbl (ix2 ⟨(idx (ix1 r)).toNat, hr _⟩ c) := by
    refine (gather_rows_apply (by decide) _ tbl (idx_a (F := Ideal) idx) r c).trans ?_
    have e : min (idx_a (F := Ideal) idx (ix2 r 0)).toInt.toNat (100000 - 1) = (idx (ix1 r)).toNat := by
      rw [idx_a_apply idx hr r 0, (word_facts _ (hr (ix1 r))).2.2.2]
      have := hr (ix1 r); omega
    exact congrArg (fun n : Fin 100000 => tbl (ix2 n c)) (Fin.ext e)
  unfold taken_a
  rw [select_apply, hm, select_one]
  exact hg

/-- The zero array is zero at every entry. -/
theorem zero_a_apply (p : S100000x128.Idx) : zero_a (F := Ideal) p = 0 := Ideal.ofBits_zero_f32

/-- The softplus stage at an entry is the plain softplus of the entry. -/
theorem softplus_a_apply (h : (⟨S100000x128, .f32⟩ : BufTy).Contents (Elt Ideal)) (p : S100000x128.Idx) :
    softplus_a (F := Ideal) h p = Spec.softplus (h p) :=
  softplus_scalar (h p) (zero_a (F := Ideal) p) (zero_a_apply p)

/-- The first layer at an entry: the tuple's vector against a column of the first weight matrix, plus the bias. -/
theorem hidden_a_apply (x : (⟨S100000x128, .f32⟩ : BufTy).Contents (Elt Ideal)) (w1 : (⟨S128x128, .f32⟩ : BufTy).Contents (Elt Ideal)) (b1 : (⟨S128, .f32⟩ : BufTy).Contents (Elt Ideal)) (t : Fin 100000) (k : Fin 128) :
    hidden_a (F := Ideal) x w1 b1 (ix2 t k)
      = Spec.hidden (fun i => x (ix2 t i)) (fun i k => w1 (ix2 i k)) (fun k => b1 (ix1 k)) k := by
  have hd : Host.dotGeneral (F := Ideal) (φ₁ := .f32) (φ₂ := .f32) dot_S100000x128_S128x128_S100000x128_1_0_0_1_n_n none x w1 (ix2 t k) = ∑ c : Fin 128, x (ix2 t c) * w1 (ix2 c k) :=
    StackMember.dotGeneral_plain_apply (φ₁ := .f32) (φ₂ := .f32) none x w1 t k
  have hb : broadcastInDim S100000x128 ![0, 1] bcast_S1x128_S100000x128_0_1 (broadcastInDim S1x128 ![1] bcast_S128_S1x128_1 b1) (ix2 t k) = b1 (ix1 k) := bias_read _ _ b1 t k
  show Host.dotGeneral (F := Ideal) (φ₁ := .f32) (φ₂ := .f32) dot_S100000x128_S128x128_S100000x128_1_0_0_1_n_n none x w1 (ix2 t k) + broadcastInDim S100000x128 ![0, 1] bcast_S1x128_S100000x128_0_1 (broadcastInDim S1x128 ![1] bcast_S128_S1x128_1 b1) (ix2 t k) = _
  rw [hd, hb]
  rfl

/-- The perceptron with its residual at an entry is the tuple's message entry. -/
theorem mlp_a_apply (x : (⟨S100000x128, .f32⟩ : BufTy).Contents (Elt Ideal)) (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) (t : Fin 100000) (j : Fin 128) :
    mlp_a (F := Ideal) x w1 b1 w2 b2 (ix2 t j) = Spec.mlpRow (fun i => x (ix2 t i)) (fun i k => w1 (ix2 i k)) (fun k => b1 (ix1 k)) (fun k j => w2 (ix2 k j)) (fun j => b2 (ix1 j)) j := by
  have hd : Host.dotGeneral (F := Ideal) (φ₁ := .f32) (φ₂ := .f32) dot_S100000x128_S128x128_S100000x128_1_0_0_1_n_n none (act_a (F := Ideal) (hidden_a (F := Ideal) x w1 b1)) w2 (ix2 t j)
      = ∑ c : Fin 128, act_a (F := Ideal) (hidden_a (F := Ideal) x w1 b1) (ix2 t c) * w2 (ix2 c j) :=
    StackMember.dotGeneral_plain_apply (φ₁ := .f32) (φ₂ := .f32) none _ w2 t j
  have hb : broadcastInDim S100000x128 ![0, 1] bcast_S1x128_S100000x128_0_1 (broadcastInDim S1x128 ![1] bcast_S128_S1x128_1 b2) (ix2 t j) = b2 (ix1 j) := bias_read _ _ b2 t j
  have ha : ∀ c : Fin 128, act_a (F := Ideal) (hidden_a (F := Ideal) x w1 b1) (ix2 t c)
      = Spec.mish (Spec.hidden (fun i => x (ix2 t i)) (fun i k => w1 (ix2 i k)) (fun k => b1 (ix1 k)) c) := fun c => by
    show hidden_a (F := Ideal) x w1 b1 (ix2 t c)
      * Ideal.tanh (softplus_a (F := Ideal) (hidden_a (F := Ideal) x w1 b1) (ix2 t c)) = _
    rw [softplus_a_apply, hidden_a_apply]
    rfl
  show x (ix2 t j) + (Host.dotGeneral (F := Ideal) (φ₁ := .f32) (φ₂ := .f32) dot_S100000x128_S128x128_S100000x128_1_0_0_1_n_n none (act_a (F := Ideal) (hidden_a (F := Ideal) x w1 b1)) w2 (ix2 t j)
    + broadcastInDim S100000x128 ![0, 1] bcast_S1x128_S100000x128_0_1 (broadcastInDim S1x128 ![1] bcast_S128_S1x128_1 b2) (ix2 t j)) = _
  rw [hd, hb]
  simp only [ha]
  rfl

/-- Tuple t's vector: the 1 table row its indices name, side by side (entry i is column i mod 128 of the row
    named by index 1·t + i / 128 of the list). -/
def rowsOf_a (tbl : (⟨S100000x128, .f32⟩ : BufTy).Contents (Elt Ideal)) (idx : (⟨S100000, .i32⟩ : BufTy).Contents (Elt Ideal)) (hr : ∀ k, (idx k).toNat < 100000)
    (t : Fin 100000) : Fin 128 → EReal :=
  fun i => tbl (ix2 ⟨(idx (ix1 (⟨1 * t.val + i.val / 128, by have := t.isLt; have := i.isLt; omega⟩ : Fin 100000))).toNat, hr _⟩
    ⟨i.val % 128, Nat.mod_lt _ (by decide)⟩)

/-- Relation a's messages before the final regrouping, read at tuple t and entry j, under the index range. -/
theorem msg_a_apply (tbl : (⟨S100000x128, .f32⟩ : BufTy).Contents (Elt Ideal)) (idx : (⟨S100000, .i32⟩ : BufTy).Contents (Elt Ideal)) (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) (hr : ∀ k, (idx k).toNat < 100000) (t : Fin 100000) (j : Fin 128) :
    mlp_a (F := Ideal) (taken_a (F := Ideal) tbl idx) w1 b1 w2 b2 (ix2 t j)
      = Spec.mlpRow (rowsOf_a tbl idx hr t) (fun i k => w1 (ix2 i k)) (fun k => b1 (ix1 k)) (fun k j => w2 (ix2 k j)) (fun j => b2 (ix1 j)) j := by
  have hx : (fun i : Fin 128 => (taken_a (F := Ideal) tbl idx) (ix2 t i)) = rowsOf_a tbl idx hr t := funext fun i =>
    (taken_a_apply tbl idx hr t i).trans
      (rowsOf_eq tbl idx hr _ _ _ _ (Fin.ext (by have := i.isLt; show t.val = 1 * t.val + i.val / 128; omega))
        (Fin.ext (by have := i.isLt; show i.val = i.val % 128; omega)))
  rw [mlp_a_apply, hx]

end Rel_a

/-! ## Relation b: 100000 tuples of 2 table rows each, 256 entries a tuple -/

section Rel_b

/-- The wrapped index column read at an entry: under the range no index is below zero, so it is the index itself. -/
theorem idx_b_apply (idx : (⟨S200000, .i32⟩ : BufTy).Contents (Elt Ideal)) (hr : ∀ k, (idx k).toNat < 100000) (r : Fin 200000) (z : Fin 1) :
    idx_b (F := Ideal) idx (ix2 r z) = idx (ix1 r) := by
  refine (column_read bcast_S200000_S200000x1_0 _ r z).trans ?_
  show Scalar.select (IntOp.cmpi .slt (idx (ix1 r)) 0#32) (IntOp.addi (idx (ix1 r)) 100000#32) (idx (ix1 r)) = idx (ix1 r)
  rw [(word_facts _ (hr (ix1 r))).1, select_zero]

/-- Under the range every row's mask is one. -/
theorem inb_b_apply (idx : (⟨S200000, .i32⟩ : BufTy).Contents (Elt Ideal)) (hr : ∀ k, (idx k).toNat < 100000) (r : Fin 200000) :
    inb_b (F := Ideal) idx (ix1 r) = 1#1 := by
  refine reduce_andi_ones _ _ _ _ _ (fun p => ?_) rfl
  obtain ⟨q, z, rfl⟩ : ∃ (q : Fin 200000) (z : Fin 1), p = ix2 q z := ⟨p 0, p 1, eq_ix2 p⟩
  show IntOp.andi (IntOp.cmpi .sge (idx_b (F := Ideal) idx (ix2 q z)) 0#32)
    (IntOp.cmpi .sle (idx_b (F := Ideal) idx (ix2 q z)) 99999#32) = 1#1
  rw [idx_b_apply idx hr q z, (word_facts _ (hr (ix1 q))).2.1, (word_facts _ (hr (ix1 q))).2.2.1]
  rfl

/-- The rows taken, read at an entry: the table's row at the index, the same column. -/
theorem taken_b_apply (tbl : (⟨S100000x128, .f32⟩ : BufTy).Contents (Elt Ideal)) (idx : (⟨S200000, .i32⟩ : BufTy).Contents (Elt Ideal)) (hr : ∀ k, (idx k).toNat < 100000)
    (r : Fin 200000) (c : Fin 128) :
    taken_b (F := Ideal) tbl idx (ix2 r c) = tbl (ix2 ⟨(idx (ix1 r)).toNat, hr _⟩ c) := by
  have hm : broadcastInDim S200000x128 ![0] bcast_S200000_S200000x128_0 (inb_b (F := Ideal) idx) (ix2 r c) = 1#1 :=
    (perRow_read bcast_S200000_S200000x128_0 _ r c).trans (inb_b_apply idx hr r)
  have hg : Host.gather gather_S100000x128_S200000x1_S200000x128_1_0_n_n_0_1_1128 tbl (idx_b (F := Ideal) idx) (ix2 r c)
      = tbl (ix2 ⟨(idx (ix1 r)).toNat, hr _⟩ c) := by
    refine (gather_rows_apply (by decide) _ tbl (idx_b (F := Ideal) idx) r c).trans ?_
    have e : min (idx_b (F := Ideal) idx (ix2 r 0)).toInt.toNat (100000 - 1) = (idx (ix1 r)).toNat := by
      rw [idx_b_apply idx hr r 0, (word_facts _ (hr (ix1 r))).2.2.2]
      have := hr (ix1 r); omega
    exact congrArg (fun n : Fin 100000 => tbl (ix2 n c)) (Fin.ext e)
  unfold taken_b
  rw [select_apply, hm, select_one]
  exact hg

/-- The regrouped rows read at an entry: entry i of tuple t is column i mod 128 of taken row 2·t + i / 128. -/
theorem rows_b_apply (x : (⟨S200000x128, .f32⟩ : BufTy).Contents (Elt Ideal)) (t : Fin 100000) (i : Fin 256) :
    rows_b (F := Ideal) x (ix2 t i)
      = x (ix2 ⟨2 * t.val + i.val / 128, by have := t.isLt; have := i.isLt; omega⟩ ⟨i.val % 128, Nat.mod_lt _ (by decide)⟩) := by
  refine shapeCast_apply x shapeCasts_S200000x128_S100000x256 (ix2 t i) _ ?_
  refine (Shape.rowMajor_val_two _).trans (Eq.trans ?_ (Shape.rowMajor_val_two _).symm)
  show (2 * t.val + i.val / 128) * 128 + i.val % 128 = t.val * 256 + i.val
  have := i.isLt; omega

/-- The zero array is zero at every entry. -/
theorem zero_b_apply (p : S100000x256.Idx) : zero_b (F := Ideal) p = 0 := Ideal.ofBits_zero_f32

/-- The softplus stage at an entry is the plain softplus of the entry. -/
theorem softplus_b_apply (h : (⟨S100000x256, .f32⟩ : BufTy).Contents (Elt Ideal)) (p : S100000x256.Idx) :
    softplus_b (F := Ideal) h p = Spec.softplus (h p) :=
  softplus_scalar (h p) (zero_b (F := Ideal) p) (zero_b_apply p)

/-- The first layer at an entry: the tuple's vector against a column of the first weight matrix, plus the bias. -/
theorem hidden_b_apply (x : (⟨S100000x256, .f32⟩ : BufTy).Contents (Elt Ideal)) (w1 : (⟨S256x256, .f32⟩ : BufTy).Contents (Elt Ideal)) (b1 : (⟨S256, .f32⟩ : BufTy).Contents (Elt Ideal)) (t : Fin 100000) (k : Fin 256) :
    hidden_b (F := Ideal) x w1 b1 (ix2 t k)
      = Spec.hidden (fun i => x (ix2 t i)) (fun i k => w1 (ix2 i k)) (fun k => b1 (ix1 k)) k := by
  have hd : Host.dotGeneral (F := Ideal) (φ₁ := .f32) (φ₂ := .f32) dot_S100000x256_S256x256_S100000x256_1_0_0_1_n_n none x w1 (ix2 t k) = ∑ c : Fin 256, x (ix2 t c) * w1 (ix2 c k) :=
    StackMember.dotGeneral_plain_apply (φ₁ := .f32) (φ₂ := .f32) none x w1 t k
  have hb : broadcastInDim S100000x256 ![0, 1] bcast_S1x256_S100000x256_0_1 (broadcastInDim S1x256 ![1] bcast_S256_S1x256_1 b1) (ix2 t k) = b1 (ix1 k) := bias_read _ _ b1 t k
  show Host.dotGeneral (F := Ideal) (φ₁ := .f32) (φ₂ := .f32) dot_S100000x256_S256x256_S100000x256_1_0_0_1_n_n none x w1 (ix2 t k) + broadcastInDim S100000x256 ![0, 1] bcast_S1x256_S100000x256_0_1 (broadcastInDim S1x256 ![1] bcast_S256_S1x256_1 b1) (ix2 t k) = _
  rw [hd, hb]
  rfl

/-- The perceptron with its residual at an entry is the tuple's message entry. -/
theorem mlp_b_apply (x : (⟨S100000x256, .f32⟩ : BufTy).Contents (Elt Ideal)) (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (t : Fin 100000) (j : Fin 256) :
    mlp_b (F := Ideal) x w1 b1 w2 b2 (ix2 t j) = Spec.mlpRow (fun i => x (ix2 t i)) (fun i k => w1 (ix2 i k)) (fun k => b1 (ix1 k)) (fun k j => w2 (ix2 k j)) (fun j => b2 (ix1 j)) j := by
  have hd : Host.dotGeneral (F := Ideal) (φ₁ := .f32) (φ₂ := .f32) dot_S100000x256_S256x256_S100000x256_1_0_0_1_n_n none (act_b (F := Ideal) (hidden_b (F := Ideal) x w1 b1)) w2 (ix2 t j)
      = ∑ c : Fin 256, act_b (F := Ideal) (hidden_b (F := Ideal) x w1 b1) (ix2 t c) * w2 (ix2 c j) :=
    StackMember.dotGeneral_plain_apply (φ₁ := .f32) (φ₂ := .f32) none _ w2 t j
  have hb : broadcastInDim S100000x256 ![0, 1] bcast_S1x256_S100000x256_0_1 (broadcastInDim S1x256 ![1] bcast_S256_S1x256_1 b2) (ix2 t j) = b2 (ix1 j) := bias_read _ _ b2 t j
  have ha : ∀ c : Fin 256, act_b (F := Ideal) (hidden_b (F := Ideal) x w1 b1) (ix2 t c)
      = Spec.mish (Spec.hidden (fun i => x (ix2 t i)) (fun i k => w1 (ix2 i k)) (fun k => b1 (ix1 k)) c) := fun c => by
    show hidden_b (F := Ideal) x w1 b1 (ix2 t c)
      * Ideal.tanh (softplus_b (F := Ideal) (hidden_b (F := Ideal) x w1 b1) (ix2 t c)) = _
    rw [softplus_b_apply, hidden_b_apply]
    rfl
  show x (ix2 t j) + (Host.dotGeneral (F := Ideal) (φ₁ := .f32) (φ₂ := .f32) dot_S100000x256_S256x256_S100000x256_1_0_0_1_n_n none (act_b (F := Ideal) (hidden_b (F := Ideal) x w1 b1)) w2 (ix2 t j)
    + broadcastInDim S100000x256 ![0, 1] bcast_S1x256_S100000x256_0_1 (broadcastInDim S1x256 ![1] bcast_S256_S1x256_1 b2) (ix2 t j)) = _
  rw [hd, hb]
  simp only [ha]
  rfl

/-- Tuple t's vector: the 2 table rows its indices name, side by side (entry i is column i mod 128 of the row
    named by index 2·t + i / 128 of the list). -/
def rowsOf_b (tbl : (⟨S100000x128, .f32⟩ : BufTy).Contents (Elt Ideal)) (idx : (⟨S200000, .i32⟩ : BufTy).Contents (Elt Ideal)) (hr : ∀ k, (idx k).toNat < 100000)
    (t : Fin 100000) : Fin 256 → EReal :=
  fun i => tbl (ix2 ⟨(idx (ix1 (⟨2 * t.val + i.val / 128, by have := t.isLt; have := i.isLt; omega⟩ : Fin 200000))).toNat, hr _⟩
    ⟨i.val % 128, Nat.mod_lt _ (by decide)⟩)

/-- Relation b's messages before the final regrouping, read at tuple t and entry j, under the index range. -/
theorem msg_b_apply (tbl : (⟨S100000x128, .f32⟩ : BufTy).Contents (Elt Ideal)) (idx : (⟨S200000, .i32⟩ : BufTy).Contents (Elt Ideal)) (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (hr : ∀ k, (idx k).toNat < 100000) (t : Fin 100000) (j : Fin 256) :
    mlp_b (F := Ideal) (rows_b (F := Ideal) (taken_b (F := Ideal) tbl idx)) w1 b1 w2 b2 (ix2 t j)
      = Spec.mlpRow (rowsOf_b tbl idx hr t) (fun i k => w1 (ix2 i k)) (fun k => b1 (ix1 k)) (fun k j => w2 (ix2 k j)) (fun j => b2 (ix1 j)) j := by
  have hx : (fun i : Fin 256 => (rows_b (F := Ideal) (taken_b (F := Ideal) tbl idx)) (ix2 t i)) = rowsOf_b tbl idx hr t := funext fun i =>
    (rows_b_apply _ t i).trans (taken_b_apply tbl idx hr _ _)
  rw [mlp_b_apply, hx]

end Rel_b

/-! ## Relation c: 75000 tuples of 2 table rows each, 256 entries a tuple -/

section Rel_c

/-- The wrapped index column read at an entry: under the range no index is below zero, so it is the index itself. -/
theorem idx_c_apply (idx : (⟨S150000, .i32⟩ : BufTy).Contents (Elt Ideal)) (hr : ∀ k, (idx k).toNat < 100000) (r : Fin 150000) (z : Fin 1) :
    idx_c (F := Ideal) idx (ix2 r z) = idx (ix1 r) := by
  refine (column_read bcast_S150000_S150000x1_0 _ r z).trans ?_
  show Scalar.select (IntOp.cmpi .slt (idx (ix1 r)) 0#32) (IntOp.addi (idx (ix1 r)) 100000#32) (idx (ix1 r)) = idx (ix1 r)
  rw [(word_facts _ (hr (ix1 r))).1, select_zero]

/-- Under the range every row's mask is one. -/
theorem inb_c_apply (idx : (⟨S150000, .i32⟩ : BufTy).Contents (Elt Ideal)) (hr : ∀ k, (idx k).toNat < 100000) (r : Fin 150000) :
    inb_c (F := Ideal) idx (ix1 r) = 1#1 := by
  refine reduce_andi_ones _ _ _ _ _ (fun p => ?_) rfl
  obtain ⟨q, z, rfl⟩ : ∃ (q : Fin 150000) (z : Fin 1), p = ix2 q z := ⟨p 0, p 1, eq_ix2 p⟩
  show IntOp.andi (IntOp.cmpi .sge (idx_c (F := Ideal) idx (ix2 q z)) 0#32)
    (IntOp.cmpi .sle (idx_c (F := Ideal) idx (ix2 q z)) 99999#32) = 1#1
  rw [idx_c_apply idx hr q z, (word_facts _ (hr (ix1 q))).2.1, (word_facts _ (hr (ix1 q))).2.2.1]
  rfl

/-- The rows taken, read at an entry: the table's row at the index, the same column. -/
theorem taken_c_apply (tbl : (⟨S100000x128, .f32⟩ : BufTy).Contents (Elt Ideal)) (idx : (⟨S150000, .i32⟩ : BufTy).Contents (Elt Ideal)) (hr : ∀ k, (idx k).toNat < 100000)
    (r : Fin 150000) (c : Fin 128) :
    taken_c (F := Ideal) tbl idx (ix2 r c) = tbl (ix2 ⟨(idx (ix1 r)).toNat, hr _⟩ c) := by
  have hm : broadcastInDim S150000x128 ![0] bcast_S150000_S150000x128_0 (inb_c (F := Ideal) idx) (ix2 r c) = 1#1 :=
    (perRow_read bcast_S150000_S150000x128_0 _ r c).trans (inb_c_apply idx hr r)
  have hg : Host.gather gather_S100000x128_S150000x1_S150000x128_1_0_n_n_0_1_1128 tbl (idx_c (F := Ideal) idx) (ix2 r c)
      = tbl (ix2 ⟨(idx (ix1 r)).toNat, hr _⟩ c) := by
    refine (gather_rows_apply (by decide) _ tbl (idx_c (F := Ideal) idx) r c).trans ?_
    have e : min (idx_c (F := Ideal) idx (ix2 r 0)).toInt.toNat (100000 - 1) = (idx (ix1 r)).toNat := by
      rw [idx_c_apply idx hr r 0, (word_facts _ (hr (ix1 r))).2.2.2]
      have := hr (ix1 r); omega
    exact congrArg (fun n : Fin 100000 => tbl (ix2 n c)) (Fin.ext e)
  unfold taken_c
  rw [select_apply, hm, select_one]
  exact hg

/-- The regrouped rows read at an entry: entry i of tuple t is column i mod 128 of taken row 2·t + i / 128. -/
theorem rows_c_apply (x : (⟨S150000x128, .f32⟩ : BufTy).Contents (Elt Ideal)) (t : Fin 75000) (i : Fin 256) :
    rows_c (F := Ideal) x (ix2 t i)
      = x (ix2 ⟨2 * t.val + i.val / 128, by have := t.isLt; have := i.isLt; omega⟩ ⟨i.val % 128, Nat.mod_lt _ (by decide)⟩) := by
  refine shapeCast_apply x shapeCasts_S150000x128_S75000x256 (ix2 t i) _ ?_
  refine (Shape.rowMajor_val_two _).trans (Eq.trans ?_ (Shape.rowMajor_val_two _).symm)
  show (2 * t.val + i.val / 128) * 128 + i.val % 128 = t.val * 256 + i.val
  have := i.isLt; omega

/-- The zero array is zero at every entry. -/
theorem zero_c_apply (p : S75000x256.Idx) : zero_c (F := Ideal) p = 0 := Ideal.ofBits_zero_f32

/-- The softplus stage at an entry is the plain softplus of the entry. -/
theorem softplus_c_apply (h : (⟨S75000x256, .f32⟩ : BufTy).Contents (Elt Ideal)) (p : S75000x256.Idx) :
    softplus_c (F := Ideal) h p = Spec.softplus (h p) :=
  softplus_scalar (h p) (zero_c (F := Ideal) p) (zero_c_apply p)

/-- The first layer at an entry: the tuple's vector against a column of the first weight matrix, plus the bias. -/
theorem hidden_c_apply (x : (⟨S75000x256, .f32⟩ : BufTy).Contents (Elt Ideal)) (w1 : (⟨S256x256, .f32⟩ : BufTy).Contents (Elt Ideal)) (b1 : (⟨S256, .f32⟩ : BufTy).Contents (Elt Ideal)) (t : Fin 75000) (k : Fin 256) :
    hidden_c (F := Ideal) x w1 b1 (ix2 t k)
      = Spec.hidden (fun i => x (ix2 t i)) (fun i k => w1 (ix2 i k)) (fun k => b1 (ix1 k)) k := by
  have hd : Host.dotGeneral (F := Ideal) (φ₁ := .f32) (φ₂ := .f32) dot_S75000x256_S256x256_S75000x256_1_0_0_1_n_n none x w1 (ix2 t k) = ∑ c : Fin 256, x (ix2 t c) * w1 (ix2 c k) :=
    StackMember.dotGeneral_plain_apply (φ₁ := .f32) (φ₂ := .f32) none x w1 t k
  have hb : broadcastInDim S75000x256 ![0, 1] bcast_S1x256_S75000x256_0_1 (broadcastInDim S1x256 ![1] bcast_S256_S1x256_1 b1) (ix2 t k) = b1 (ix1 k) := bias_read _ _ b1 t k
  show Host.dotGeneral (F := Ideal) (φ₁ := .f32) (φ₂ := .f32) dot_S75000x256_S256x256_S75000x256_1_0_0_1_n_n none x w1 (ix2 t k) + broadcastInDim S75000x256 ![0, 1] bcast_S1x256_S75000x256_0_1 (broadcastInDim S1x256 ![1] bcast_S256_S1x256_1 b1) (ix2 t k) = _
  rw [hd, hb]
  rfl

/-- The perceptron with its residual at an entry is the tuple's message entry. -/
theorem mlp_c_apply (x : (⟨S75000x256, .f32⟩ : BufTy).Contents (Elt Ideal)) (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (t : Fin 75000) (j : Fin 256) :
    mlp_c (F := Ideal) x w1 b1 w2 b2 (ix2 t j) = Spec.mlpRow (fun i => x (ix2 t i)) (fun i k => w1 (ix2 i k)) (fun k => b1 (ix1 k)) (fun k j => w2 (ix2 k j)) (fun j => b2 (ix1 j)) j := by
  have hd : Host.dotGeneral (F := Ideal) (φ₁ := .f32) (φ₂ := .f32) dot_S75000x256_S256x256_S75000x256_1_0_0_1_n_n none (act_c (F := Ideal) (hidden_c (F := Ideal) x w1 b1)) w2 (ix2 t j)
      = ∑ c : Fin 256, act_c (F := Ideal) (hidden_c (F := Ideal) x w1 b1) (ix2 t c) * w2 (ix2 c j) :=
    StackMember.dotGeneral_plain_apply (φ₁ := .f32) (φ₂ := .f32) none _ w2 t j
  have hb : broadcastInDim S75000x256 ![0, 1] bcast_S1x256_S75000x256_0_1 (broadcastInDim S1x256 ![1] bcast_S256_S1x256_1 b2) (ix2 t j) = b2 (ix1 j) := bias_read _ _ b2 t j
  have ha : ∀ c : Fin 256, act_c (F := Ideal) (hidden_c (F := Ideal) x w1 b1) (ix2 t c)
      = Spec.mish (Spec.hidden (fun i => x (ix2 t i)) (fun i k => w1 (ix2 i k)) (fun k => b1 (ix1 k)) c) := fun c => by
    show hidden_c (F := Ideal) x w1 b1 (ix2 t c)
      * Ideal.tanh (softplus_c (F := Ideal) (hidden_c (F := Ideal) x w1 b1) (ix2 t c)) = _
    rw [softplus_c_apply, hidden_c_apply]
    rfl
  show x (ix2 t j) + (Host.dotGeneral (F := Ideal) (φ₁ := .f32) (φ₂ := .f32) dot_S75000x256_S256x256_S75000x256_1_0_0_1_n_n none (act_c (F := Ideal) (hidden_c (F := Ideal) x w1 b1)) w2 (ix2 t j)
    + broadcastInDim S75000x256 ![0, 1] bcast_S1x256_S75000x256_0_1 (broadcastInDim S1x256 ![1] bcast_S256_S1x256_1 b2) (ix2 t j)) = _
  rw [hd, hb]
  simp only [ha]
  rfl

/-- Tuple t's vector: the 2 table rows its indices name, side by side (entry i is column i mod 128 of the row
    named by index 2·t + i / 128 of the list). -/
def rowsOf_c (tbl : (⟨S100000x128, .f32⟩ : BufTy).Contents (Elt Ideal)) (idx : (⟨S150000, .i32⟩ : BufTy).Contents (Elt Ideal)) (hr : ∀ k, (idx k).toNat < 100000)
    (t : Fin 75000) : Fin 256 → EReal :=
  fun i => tbl (ix2 ⟨(idx (ix1 (⟨2 * t.val + i.val / 128, by have := t.isLt; have := i.isLt; omega⟩ : Fin 150000))).toNat, hr _⟩
    ⟨i.val % 128, Nat.mod_lt _ (by decide)⟩)

/-- Relation c's messages before the final regrouping, read at tuple t and entry j, under the index range. -/
theorem msg_c_apply (tbl : (⟨S100000x128, .f32⟩ : BufTy).Contents (Elt Ideal)) (idx : (⟨S150000, .i32⟩ : BufTy).Contents (Elt Ideal)) (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (hr : ∀ k, (idx k).toNat < 100000) (t : Fin 75000) (j : Fin 256) :
    mlp_c (F := Ideal) (rows_c (F := Ideal) (taken_c (F := Ideal) tbl idx)) w1 b1 w2 b2 (ix2 t j)
      = Spec.mlpRow (rowsOf_c tbl idx hr t) (fun i k => w1 (ix2 i k)) (fun k => b1 (ix1 k)) (fun k j => w2 (ix2 k j)) (fun j => b2 (ix1 j)) j := by
  have hx : (fun i : Fin 256 => (rows_c (F := Ideal) (taken_c (F := Ideal) tbl idx)) (ix2 t i)) = rowsOf_c tbl idx hr t := funext fun i =>
    (rows_c_apply _ t i).trans (taken_c_apply tbl idx hr _ _)
  rw [mlp_c_apply, hx]

end Rel_c

/-! ## Relation d: 50000 tuples of 3 table rows each, 384 entries a tuple -/

section Rel_d

/-- The wrapped index column read at an entry: under the range no index is below zero, so it is the index itself. -/
theorem idx_d_apply (idx : (⟨S150000, .i32⟩ : BufTy).Contents (Elt Ideal)) (hr : ∀ k, (idx k).toNat < 100000) (r : Fin 150000) (z : Fin 1) :
    idx_d (F := Ideal) idx (ix2 r z) = idx (ix1 r) := by
  refine (column_read bcast_S150000_S150000x1_0 _ r z).trans ?_
  show Scalar.select (IntOp.cmpi .slt (idx (ix1 r)) 0#32) (IntOp.addi (idx (ix1 r)) 100000#32) (idx (ix1 r)) = idx (ix1 r)
  rw [(word_facts _ (hr (ix1 r))).1, select_zero]

/-- Under the range every row's mask is one. -/
theorem inb_d_apply (idx : (⟨S150000, .i32⟩ : BufTy).Contents (Elt Ideal)) (hr : ∀ k, (idx k).toNat < 100000) (r : Fin 150000) :
    inb_d (F := Ideal) idx (ix1 r) = 1#1 := by
  refine reduce_andi_ones _ _ _ _ _ (fun p => ?_) rfl
  obtain ⟨q, z, rfl⟩ : ∃ (q : Fin 150000) (z : Fin 1), p = ix2 q z := ⟨p 0, p 1, eq_ix2 p⟩
  show IntOp.andi (IntOp.cmpi .sge (idx_d (F := Ideal) idx (ix2 q z)) 0#32)
    (IntOp.cmpi .sle (idx_d (F := Ideal) idx (ix2 q z)) 99999#32) = 1#1
  rw [idx_d_apply idx hr q z, (word_facts _ (hr (ix1 q))).2.1, (word_facts _ (hr (ix1 q))).2.2.1]
  rfl

/-- The rows taken, read at an entry: the table's row at the index, the same column. -/
theorem taken_d_apply (tbl : (⟨S100000x128, .f32⟩ : BufTy).Contents (Elt Ideal)) (idx : (⟨S150000, .i32⟩ : BufTy).Contents (Elt Ideal)) (hr : ∀ k, (idx k).toNat < 100000)
    (r : Fin 150000) (c : Fin 128) :
    taken_d (F := Ideal) tbl idx (ix2 r c) = tbl (ix2 ⟨(idx (ix1 r)).toNat, hr _⟩ c) := by
  have hm : broadcastInDim S150000x128 ![0] bcast_S150000_S150000x128_0 (inb_d (F := Ideal) idx) (ix2 r c) = 1#1 :=
    (perRow_read bcast_S150000_S150000x128_0 _ r c).trans (inb_d_apply idx hr r)
  have hg : Host.gather gather_S100000x128_S150000x1_S150000x128_1_0_n_n_0_1_1128 tbl (idx_d (F := Ideal) idx) (ix2 r c)
      = tbl (ix2 ⟨(idx (ix1 r)).toNat, hr _⟩ c) := by
    refine (gather_rows_apply (by decide) _ tbl (idx_d (F := Ideal) idx) r c).trans ?_
    have e : min (idx_d (F := Ideal) idx (ix2 r 0)).toInt.toNat (100000 - 1) = (idx (ix1 r)).toNat := by
      rw [idx_d_apply idx hr r 0, (word_facts _ (hr (ix1 r))).2.2.2]
      have := hr (ix1 r); omega
    exact congrArg (fun n : Fin 100000 => tbl (ix2 n c)) (Fin.ext e)
  unfold taken_d
  rw [select_apply, hm, select_one]
  exact hg

/-- The regrouped rows read at an entry: entry i of tuple t is column i mod 128 of taken row 3·t + i / 128. -/
theorem rows_d_apply (x : (⟨S150000x128, .f32⟩ : BufTy).Contents (Elt Ideal)) (t : Fin 50000) (i : Fin 384) :
    rows_d (F := Ideal) x (ix2 t i)
      = x (ix2 ⟨3 * t.val + i.val / 128, by have := t.isLt; have := i.isLt; omega⟩ ⟨i.val % 128, Nat.mod_lt _ (by decide)⟩) := by
  refine shapeCast_apply x shapeCasts_S150000x128_S50000x384 (ix2 t i) _ ?_
  refine (Shape.rowMajor_val_two _).trans (Eq.trans ?_ (Shape.rowMajor_val_two _).symm)
  show (3 * t.val + i.val / 128) * 128 + i.val % 128 = t.val * 384 + i.val
  have := i.isLt; omega

/-- The zero array is zero at every entry. -/
theorem zero_d_apply (p : S50000x384.Idx) : zero_d (F := Ideal) p = 0 := Ideal.ofBits_zero_f32

/-- The softplus stage at an entry is the plain softplus of the entry. -/
theorem softplus_d_apply (h : (⟨S50000x384, .f32⟩ : BufTy).Contents (Elt Ideal)) (p : S50000x384.Idx) :
    softplus_d (F := Ideal) h p = Spec.softplus (h p) :=
  softplus_scalar (h p) (zero_d (F := Ideal) p) (zero_d_apply p)

/-- The first layer at an entry: the tuple's vector against a column of the first weight matrix, plus the bias. -/
theorem hidden_d_apply (x : (⟨S50000x384, .f32⟩ : BufTy).Contents (Elt Ideal)) (w1 : (⟨S384x384, .f32⟩ : BufTy).Contents (Elt Ideal)) (b1 : (⟨S384, .f32⟩ : BufTy).Contents (Elt Ideal)) (t : Fin 50000) (k : Fin 384) :
    hidden_d (F := Ideal) x w1 b1 (ix2 t k)
      = Spec.hidden (fun i => x (ix2 t i)) (fun i k => w1 (ix2 i k)) (fun k => b1 (ix1 k)) k := by
  have hd : Host.dotGeneral (F := Ideal) (φ₁ := .f32) (φ₂ := .f32) dot_S50000x384_S384x384_S50000x384_1_0_0_1_n_n none x w1 (ix2 t k) = ∑ c : Fin 384, x (ix2 t c) * w1 (ix2 c k) :=
    StackMember.dotGeneral_plain_apply (φ₁ := .f32) (φ₂ := .f32) none x w1 t k
  have hb : broadcastInDim S50000x384 ![0, 1] bcast_S1x384_S50000x384_0_1 (broadcastInDim S1x384 ![1] bcast_S384_S1x384_1 b1) (ix2 t k) = b1 (ix1 k) := bias_read _ _ b1 t k
  show Host.dotGeneral (F := Ideal) (φ₁ := .f32) (φ₂ := .f32) dot_S50000x384_S384x384_S50000x384_1_0_0_1_n_n none x w1 (ix2 t k) + broadcastInDim S50000x384 ![0, 1] bcast_S1x384_S50000x384_0_1 (broadcastInDim S1x384 ![1] bcast_S384_S1x384_1 b1) (ix2 t k) = _
  rw [hd, hb]
  rfl

/-- The perceptron with its residual at an entry is the tuple's message entry. -/
theorem mlp_d_apply (x : (⟨S50000x384, .f32⟩ : BufTy).Contents (Elt Ideal)) (w1 : (⟨S384x384, .f32⟩ : BufTy).Contents (Elt Ideal)) (b1 : (⟨S384, .f32⟩ : BufTy).Contents (Elt Ideal))
    (w2 : (⟨S384x384, .f32⟩ : BufTy).Contents (Elt Ideal)) (b2 : (⟨S384, .f32⟩ : BufTy).Contents (Elt Ideal)) (t : Fin 50000) (j : Fin 384) :
    mlp_d (F := Ideal) x w1 b1 w2 b2 (ix2 t j) = Spec.mlpRow (fun i => x (ix2 t i)) (fun i k => w1 (ix2 i k)) (fun k => b1 (ix1 k)) (fun k j => w2 (ix2 k j)) (fun j => b2 (ix1 j)) j := by
  have hd : Host.dotGeneral (F := Ideal) (φ₁ := .f32) (φ₂ := .f32) dot_S50000x384_S384x384_S50000x384_1_0_0_1_n_n none (act_d (F := Ideal) (hidden_d (F := Ideal) x w1 b1)) w2 (ix2 t j)
      = ∑ c : Fin 384, act_d (F := Ideal) (hidden_d (F := Ideal) x w1 b1) (ix2 t c) * w2 (ix2 c j) :=
    StackMember.dotGeneral_plain_apply (φ₁ := .f32) (φ₂ := .f32) none _ w2 t j
  have hb : broadcastInDim S50000x384 ![0, 1] bcast_S1x384_S50000x384_0_1 (broadcastInDim S1x384 ![1] bcast_S384_S1x384_1 b2) (ix2 t j) = b2 (ix1 j) := bias_read _ _ b2 t j
  have ha : ∀ c : Fin 384, act_d (F := Ideal) (hidden_d (F := Ideal) x w1 b1) (ix2 t c)
      = Spec.mish (Spec.hidden (fun i => x (ix2 t i)) (fun i k => w1 (ix2 i k)) (fun k => b1 (ix1 k)) c) := fun c => by
    show hidden_d (F := Ideal) x w1 b1 (ix2 t c)
      * Ideal.tanh (softplus_d (F := Ideal) (hidden_d (F := Ideal) x w1 b1) (ix2 t c)) = _
    rw [softplus_d_apply, hidden_d_apply]
    rfl
  show x (ix2 t j) + (Host.dotGeneral (F := Ideal) (φ₁ := .f32) (φ₂ := .f32) dot_S50000x384_S384x384_S50000x384_1_0_0_1_n_n none (act_d (F := Ideal) (hidden_d (F := Ideal) x w1 b1)) w2 (ix2 t j)
    + broadcastInDim S50000x384 ![0, 1] bcast_S1x384_S50000x384_0_1 (broadcastInDim S1x384 ![1] bcast_S384_S1x384_1 b2) (ix2 t j)) = _
  rw [hd, hb]
  simp only [ha]
  rfl

/-- Tuple t's vector: the 3 table rows its indices name, side by side (entry i is column i mod 128 of the row
    named by index 3·t + i / 128 of the list). -/
def rowsOf_d (tbl : (⟨S100000x128, .f32⟩ : BufTy).Contents (Elt Ideal)) (idx : (⟨S150000, .i32⟩ : BufTy).Contents (Elt Ideal)) (hr : ∀ k, (idx k).toNat < 100000)
    (t : Fin 50000) : Fin 384 → EReal :=
  fun i => tbl (ix2 ⟨(idx (ix1 (⟨3 * t.val + i.val / 128, by have := t.isLt; have := i.isLt; omega⟩ : Fin 150000))).toNat, hr _⟩
    ⟨i.val % 128, Nat.mod_lt _ (by decide)⟩)

/-- Relation d's messages before the final regrouping, read at tuple t and entry j, under the index range. -/
theorem msg_d_apply (tbl : (⟨S100000x128, .f32⟩ : BufTy).Contents (Elt Ideal)) (idx : (⟨S150000, .i32⟩ : BufTy).Contents (Elt Ideal)) (w1 : (⟨S384x384, .f32⟩ : BufTy).Contents (Elt Ideal)) (b1 : (⟨S384, .f32⟩ : BufTy).Contents (Elt Ideal))
    (w2 : (⟨S384x384, .f32⟩ : BufTy).Contents (Elt Ideal)) (b2 : (⟨S384, .f32⟩ : BufTy).Contents (Elt Ideal)) (hr : ∀ k, (idx k).toNat < 100000) (t : Fin 50000) (j : Fin 384) :
    mlp_d (F := Ideal) (rows_d (F := Ideal) (taken_d (F := Ideal) tbl idx)) w1 b1 w2 b2 (ix2 t j)
      = Spec.mlpRow (rowsOf_d tbl idx hr t) (fun i k => w1 (ix2 i k)) (fun k => b1 (ix1 k)) (fun k j => w2 (ix2 k j)) (fun j => b2 (ix1 j)) j := by
  have hx : (fun i : Fin 384 => (rows_d (F := Ideal) (taken_d (F := Ideal) tbl idx)) (ix2 t i)) = rowsOf_d tbl idx hr t := funext fun i =>
    (rows_d_apply _ t i).trans (taken_d_apply tbl idx hr _ _)
  rw [mlp_d_apply, hx]

end Rel_d

/-! ## The four relations against the closed forms -/

/-- Under the range, tuple t's vector is the closed form's: each word names its own row. -/
theorem rowsOf_a_eq (tbl : (⟨S100000x128, .f32⟩ : BufTy).Contents (Elt Ideal)) (idx : (⟨S100000, .i32⟩ : BufTy).Contents (Elt Ideal)) (hr : ∀ k, (idx k).toNat < 100000)
    (t : Fin 100000) : rowsOf_a tbl idx hr t = Spec.rowsA tbl idx t :=
  funext fun k => by
    unfold rowsOf_a Spec.rowsA
    exact congrArg (fun n : Fin 100000 => tbl (ix2 n ⟨k.val % 128, Nat.mod_lt _ (by decide)⟩)) (Spec.rowOf_of_lt (hr _)).symm

/-- Relation a's messages before the final regrouping are the closed form, as functions of the index. -/
theorem msgs_a_eq (tbl : (⟨S100000x128, .f32⟩ : BufTy).Contents (Elt Ideal)) (idx : (⟨S100000, .i32⟩ : BufTy).Contents (Elt Ideal)) (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) (hr : ∀ k, (idx k).toNat < 100000) :
    mlp_a (F := Ideal) (taken_a (F := Ideal) tbl idx) w1 b1 w2 b2 = Spec.msgsA tbl idx w1 b1 w2 b2 := by
  funext p
  obtain ⟨t, j, rfl⟩ : ∃ (t : Fin 100000) (j : Fin 128), p = ix2 t j := ⟨p 0, p 1, eq_ix2 p⟩
  rw [msg_a_apply tbl idx w1 b1 w2 b2 hr t j, rowsOf_a_eq]
  rfl

/-- Relation a's rows of the result are the closed form. -/
theorem out_a_eq (tbl : (⟨S100000x128, .f32⟩ : BufTy).Contents (Elt Ideal)) (idx : (⟨S100000, .i32⟩ : BufTy).Contents (Elt Ideal)) (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) (hr : ∀ k, (idx k).toNat < 100000) :
    out_a (F := Ideal) tbl idx w1 b1 w2 b2 = Spec.msgsA tbl idx w1 b1 w2 b2 := by
  unfold out_a
  rw [msgs_a_eq tbl idx w1 b1 w2 b2 hr]

/-- Under the range, tuple t's vector is the closed form's: each word names its own row. -/
theorem rowsOf_b_eq (tbl : (⟨S100000x128, .f32⟩ : BufTy).Contents (Elt Ideal)) (idx : (⟨S200000, .i32⟩ : BufTy).Contents (Elt Ideal)) (hr : ∀ k, (idx k).toNat < 100000)
    (t : Fin 100000) : rowsOf_b tbl idx hr t = Spec.rowsB tbl idx t :=
  funext fun k => by
    unfold rowsOf_b Spec.rowsB
    exact congrArg (fun n : Fin 100000 => tbl (ix2 n ⟨k.val % 128, Nat.mod_lt _ (by decide)⟩)) (Spec.rowOf_of_lt (hr _)).symm

/-- Relation b's messages before the final regrouping are the closed form, as functions of the index. -/
theorem msgs_b_eq (tbl : (⟨S100000x128, .f32⟩ : BufTy).Contents (Elt Ideal)) (idx : (⟨S200000, .i32⟩ : BufTy).Contents (Elt Ideal)) (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (hr : ∀ k, (idx k).toNat < 100000) :
    mlp_b (F := Ideal) (rows_b (F := Ideal) (taken_b (F := Ideal) tbl idx)) w1 b1 w2 b2 = Spec.msgsB tbl idx w1 b1 w2 b2 := by
  funext p
  obtain ⟨t, j, rfl⟩ : ∃ (t : Fin 100000) (j : Fin 256), p = ix2 t j := ⟨p 0, p 1, eq_ix2 p⟩
  rw [msg_b_apply tbl idx w1 b1 w2 b2 hr t j, rowsOf_b_eq]
  rfl

/-- Relation b's rows of the result are the closed form regrouped as rows of 128. -/
theorem out_b_eq (tbl : (⟨S100000x128, .f32⟩ : BufTy).Contents (Elt Ideal)) (idx : (⟨S200000, .i32⟩ : BufTy).Contents (Elt Ideal)) (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (hr : ∀ k, (idx k).toNat < 100000) :
    out_b (F := Ideal) tbl idx w1 b1 w2 b2 = back_b (F := Ideal) (Spec.msgsB tbl idx w1 b1 w2 b2) := by
  unfold out_b
  rw [msgs_b_eq tbl idx w1 b1 w2 b2 hr]

/-- Under the range, tuple t's vector is the closed form's: each word names its own row. -/
theorem rowsOf_c_eq (tbl : (⟨S100000x128, .f32⟩ : BufTy).Contents (Elt Ideal)) (idx : (⟨S150000, .i32⟩ : BufTy).Contents (Elt Ideal)) (hr : ∀ k, (idx k).toNat < 100000)
    (t : Fin 75000) : rowsOf_c tbl idx hr t = Spec.rowsC tbl idx t :=
  funext fun k => by
    unfold rowsOf_c Spec.rowsC
    exact congrArg (fun n : Fin 100000 => tbl (ix2 n ⟨k.val % 128, Nat.mod_lt _ (by decide)⟩)) (Spec.rowOf_of_lt (hr _)).symm

/-- Relation c's messages before the final regrouping are the closed form, as functions of the index. -/
theorem msgs_c_eq (tbl : (⟨S100000x128, .f32⟩ : BufTy).Contents (Elt Ideal)) (idx : (⟨S150000, .i32⟩ : BufTy).Contents (Elt Ideal)) (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (hr : ∀ k, (idx k).toNat < 100000) :
    mlp_c (F := Ideal) (rows_c (F := Ideal) (taken_c (F := Ideal) tbl idx)) w1 b1 w2 b2 = Spec.msgsC tbl idx w1 b1 w2 b2 := by
  funext p
  obtain ⟨t, j, rfl⟩ : ∃ (t : Fin 75000) (j : Fin 256), p = ix2 t j := ⟨p 0, p 1, eq_ix2 p⟩
  rw [msg_c_apply tbl idx w1 b1 w2 b2 hr t j, rowsOf_c_eq]
  rfl

/-- Relation c's rows of the result are the closed form regrouped as rows of 128. -/
theorem out_c_eq (tbl : (⟨S100000x128, .f32⟩ : BufTy).Contents (Elt Ideal)) (idx : (⟨S150000, .i32⟩ : BufTy).Contents (Elt Ideal)) (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (hr : ∀ k, (idx k).toNat < 100000) :
    out_c (F := Ideal) tbl idx w1 b1 w2 b2 = back_c (F := Ideal) (Spec.msgsC tbl idx w1 b1 w2 b2) := by
  unfold out_c
  rw [msgs_c_eq tbl idx w1 b1 w2 b2 hr]

/-- Under the range, tuple t's vector is the closed form's: each word names its own row. -/
theorem rowsOf_d_eq (tbl : (⟨S100000x128, .f32⟩ : BufTy).Contents (Elt Ideal)) (idx : (⟨S150000, .i32⟩ : BufTy).Contents (Elt Ideal)) (hr : ∀ k, (idx k).toNat < 100000)
    (t : Fin 50000) : rowsOf_d tbl idx hr t = Spec.rowsD tbl idx t :=
  funext fun k => by
    unfold rowsOf_d Spec.rowsD
    exact congrArg (fun n : Fin 100000 => tbl (ix2 n ⟨k.val % 128, Nat.mod_lt _ (by decide)⟩)) (Spec.rowOf_of_lt (hr _)).symm

/-- Relation d's messages before the final regrouping are the closed form, as functions of the index. -/
theorem msgs_d_eq (tbl : (⟨S100000x128, .f32⟩ : BufTy).Contents (Elt Ideal)) (idx : (⟨S150000, .i32⟩ : BufTy).Contents (Elt Ideal)) (w1 : (⟨S384x384, .f32⟩ : BufTy).Contents (Elt Ideal)) (b1 : (⟨S384, .f32⟩ : BufTy).Contents (Elt Ideal))
    (w2 : (⟨S384x384, .f32⟩ : BufTy).Contents (Elt Ideal)) (b2 : (⟨S384, .f32⟩ : BufTy).Contents (Elt Ideal)) (hr : ∀ k, (idx k).toNat < 100000) :
    mlp_d (F := Ideal) (rows_d (F := Ideal) (taken_d (F := Ideal) tbl idx)) w1 b1 w2 b2 = Spec.msgsD tbl idx w1 b1 w2 b2 := by
  funext p
  obtain ⟨t, j, rfl⟩ : ∃ (t : Fin 50000) (j : Fin 384), p = ix2 t j := ⟨p 0, p 1, eq_ix2 p⟩
  rw [msg_d_apply tbl idx w1 b1 w2 b2 hr t j, rowsOf_d_eq]
  rfl

/-- Relation d's rows of the result are the closed form regrouped as rows of 128. -/
theorem out_d_eq (tbl : (⟨S100000x128, .f32⟩ : BufTy).Contents (Elt Ideal)) (idx : (⟨S150000, .i32⟩ : BufTy).Contents (Elt Ideal)) (w1 : (⟨S384x384, .f32⟩ : BufTy).Contents (Elt Ideal)) (b1 : (⟨S384, .f32⟩ : BufTy).Contents (Elt Ideal))
    (w2 : (⟨S384x384, .f32⟩ : BufTy).Contents (Elt Ideal)) (b2 : (⟨S384, .f32⟩ : BufTy).Contents (Elt Ideal)) (hr : ∀ k, (idx k).toNat < 100000) :
    out_d (F := Ideal) tbl idx w1 b1 w2 b2 = back_d (F := Ideal) (Spec.msgsD tbl idx w1 b1 w2 b2) := by
  unfold out_d
  rw [msgs_d_eq tbl idx w1 b1 w2 b2 hr]

end Cert.Proof.Ref

end
-- ==== Proof.RefOut.lean ====
/- The reference's message array as the concatenation of the four relations' closed forms, under the index ranges of
   the four index lists held in the launch memory. -/
import proofs.«214605_g64536178589837_cont_9to1_m_912_2_alg».proof.Proof.RefRun
import proofs.«214605_g64536178589837_cont_9to1_m_912_2_alg».proof.Proof.RefVal

noncomputable section

namespace Cert.Proof.Ref

open Cert.ReferenceIdeal Cert.ReferenceIdeal.Gen Idealize.ShloMosaic Idealize.ShloMosaic.TcCoe Idealize.SL.Sem Idealize.ShloMosaic.StableHlo

/-- Under the four ranges the message array is the four closed forms, the last three regrouped as rows of 128, one
    after the other along the rows. -/
theorem outMsgs_eq (m : (ℓ : Loc nD τ sig) → Buf (Elt Ideal) ℓ) (c : Dev nD)
    (h1 : ∀ k, ((m ((c.tc : Thread nD τ).loc main_arg1) : (⟨S100000, .i32⟩ : BufTy).Contents (Elt Ideal)) k).toNat < 100000)
    (h2 : ∀ k, ((m ((c.tc : Thread nD τ).loc main_arg2) : (⟨S200000, .i32⟩ : BufTy).Contents (Elt Ideal)) k).toNat < 100000)
    (h3 : ∀ k, ((m ((c.tc : Thread nD τ).loc main_arg3) : (⟨S150000, .i32⟩ : BufTy).Contents (Elt Ideal)) k).toNat < 100000)
    (h4 : ∀ k, ((m ((c.tc : Thread nD τ).loc main_arg4) : (⟨S150000, .i32⟩ : BufTy).Contents (Elt Ideal)) k).toNat < 100000) :
    outMsgs (F := Ideal) m c
      = concatenate S600000x128 0
          [⟨S100000x128, Spec.msgsA (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8))⟩,
           ⟨S200000x128, back_b (F := Ideal) (Spec.msgsB (m ((c.tc : Thread nD τ).loc main_arg0)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)))⟩,
           ⟨S150000x128, back_c (F := Ideal) (Spec.msgsC (m ((c.tc : Thread nD τ).loc main_arg0)) (m ((c.tc : Thread nD τ).loc main_arg3)) (m ((c.tc : Thread nD τ).loc main_arg13)) (m ((c.tc : Thread nD τ).loc main_arg14)) (m ((c.tc : Thread nD τ).loc main_arg15)) (m ((c.tc : Thread nD τ).loc main_arg16)))⟩,
           ⟨S150000x128, back_d (F := Ideal) (Spec.msgsD (m ((c.tc : Thread nD τ).loc main_arg0)) (m ((c.tc : Thread nD τ).loc main_arg4)) (m ((c.tc : Thread nD τ).loc main_arg17)) (m ((c.tc : Thread nD τ).loc main_arg18)) (m ((c.tc : Thread nD τ).loc main_arg19)) (m ((c.tc : Thread nD τ).loc main_arg20)))⟩]
          concatenates_S100000x128_S200000x128_S150000x128_S150000x128_S600000x128_d0 := by
  unfold outMsgs
  rw [out_a_eq _ _ _ _ _ _ h1, out_b_eq _ _ _ _ _ _ h2, out_c_eq _ _ _ _ _ _ h3, out_d_eq _ _ _ _ _ _ h4]

end Cert.Proof.Ref

end
-- ==== Proof.lean ====
/-
  The certificate of a relational message-passing step: for each of four relations, the node-embedding rows its index
  list names are laid side by side per tuple and passed through a two-layer perceptron with a residual; the kernel
  gathers all 600000 rows (padded to 614400) on the SparseCores — every tile copying its share of the padded index list
  128 words at a time and fetching the rows they name, two fetches in flight on two semaphores — and then runs the four
  perceptrons on the TensorCore over 1000-row blocks of views of the gathered array; the reference takes the rows and
  applies the perceptrons on the host.

  Frames. The kernel's run is the SparseCore launch theorem applied to: the tile's obligation (its loop's invariant carries
  the gathered rows), @main on the TensorCore (host stretches over the one set of its arrays, the gather's call, each
  perceptron's region entered through the pipelines' region rule), and the launch element (handshake rounds, the four
  pipelines' rounds, plain counters for the tiles' copies). Its post names every array @main touches; the frames drop all
  but "the arguments are unchanged". The word-level program is the same text read at the word-level instance. The
  reference's run is its host operations in order.

  Values. Under the precondition every index word names a table row, so both programs read, for tuple t of a relation of
  arity a, rows idx[a·t], …, idx[a·t + a − 1] as one vector x, and both answer x + (mish(x·W1 + b1)·W2 + b2) entrywise
  (Spec.mlpRow): the kernel adds the second bias last, and addition of extended reals is associative; neither program's
  "h ≠ h" test holds of an extended real; a matrix product is the same sum on both sides. The kernel's rows come from the
  gathered array through the padded joined index list and the views' row-major arithmetic; the reference's from its take.
  The index output is the same concatenation of the four index lists on both sides.
-/
import proofs.«214605_g64536178589837_cont_9to1_m_912_2_alg».proof.Defs
import proofs.«214605_g64536178589837_cont_9to1_m_912_2_alg».proof.Proof.KI.Frame
import proofs.«214605_g64536178589837_cont_9to1_m_912_2_alg».proof.Proof.K.Frame
import proofs.«214605_g64536178589837_cont_9to1_m_912_2_alg».proof.Proof.KI.IvRead
import proofs.«214605_g64536178589837_cont_9to1_m_912_2_alg».proof.Proof.K.IvRead
import proofs.«214605_g64536178589837_cont_9to1_m_912_2_alg».proof.Proof.KI.KerVal
import proofs.«214605_g64536178589837_cont_9to1_m_912_2_alg».proof.Proof.KI.KerOut
import proofs.«214605_g64536178589837_cont_9to1_m_912_2_alg».proof.Proof.PreRange
import proofs.«214605_g64536178589837_cont_9to1_m_912_2_alg».proof.Proof.RefRun
import proofs.«214605_g64536178589837_cont_9to1_m_912_2_alg».proof.Proof.RefOut
import proofs.«214605_g64536178589837_cont_9to1_m_912_2_alg».proof.Proof.Gen.Kernel
import proofs.«214605_g64536178589837_cont_9to1_m_912_2_alg».proof.Proof.Gen.KernelIdeal
import proofs.«214605_g64536178589837_cont_9to1_m_912_2_alg».proof.Proof.Gen.ReferenceIdeal
import proofs.«214605_g64536178589837_cont_9to1_m_912_2_alg».proof.Proof.Gen.Pre_input_domain
import Idealize.ShloMosaic.Adequacy
import Idealize.ShloMosaic.Init

noncomputable section

namespace Cert.Proof

open Idealize.ShloMosaic Idealize.SL.Sem

/-! ## The index words name rows -/

theorem hI_k (m : (ℓ : Loc Cert.Kernel.nD Cert.Kernel.τ Cert.Kernel.sig) → Buf (Elt Bits) ℓ)
    (hpre : Cert.Pre_Kernel (hPre_input_domain := Cert.Pre_input_domain.Gen.facts) m) :
    ∀ d r, ((Cert.Proof.K.Iv m d) r).toNat < 100000 := fun d r =>
  Cert.Proof.K.Iv_lt m d (fun i => Cert.Proof.Pre.range1 _ _ _ _ _ _ _ _ _ _ _ _ _ _ _ _ _ _ _ _ _ (hpre d) i) (fun i => Cert.Proof.Pre.range2 _ _ _ _ _ _ _ _ _ _ _ _ _ _ _ _ _ _ _ _ _ (hpre d) i) (fun i => Cert.Proof.Pre.range3 _ _ _ _ _ _ _ _ _ _ _ _ _ _ _ _ _ _ _ _ _ (hpre d) i) (fun i => Cert.Proof.Pre.range4 _ _ _ _ _ _ _ _ _ _ _ _ _ _ _ _ _ _ _ _ _ (hpre d) i) r

theorem hI_ki (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    ∀ d r, ((Cert.Proof.KI.Iv m d) r).toNat < 100000 := fun d r =>
  Cert.Proof.KI.Iv_lt m d (fun i => Cert.Proof.Pre.range1 _ _ _ _ _ _ _ _ _ _ _ _ _ _ _ _ _ _ _ _ _ (hpre d) i) (fun i => Cert.Proof.Pre.range2 _ _ _ _ _ _ _ _ _ _ _ _ _ _ _ _ _ _ _ _ _ (hpre d) i) (fun i => Cert.Proof.Pre.range3 _ _ _ _ _ _ _ _ _ _ _ _ _ _ _ _ _ _ _ _ _ (hpre d) i) (fun i => Cert.Proof.Pre.range4 _ _ _ _ _ _ _ _ _ _ _ _ _ _ _ _ _ _ _ _ _ (hpre d) i) r

/-! ## The frames -/

theorem frame_k : Cert.frame_Kernel (hKernel := Cert.Kernel.Gen.facts) (hPre_input_domain := Cert.Pre_input_domain.Gen.facts) :=
  fun m g hpre => (θ_run _ _ _).mono (fun _ h c => Cert.Proof.K.args_kept m h c) (Cert.Proof.K.run_main (F := Bits) m g (hI_k m hpre))

theorem frame_ki : Cert.frame_KernelIdeal (hKernelIdeal := Cert.KernelIdeal.Gen.facts) (hPre_input_domain := Cert.Pre_input_domain.Gen.facts) :=
  fun m g hpre => (θ_run _ _ _).mono (fun _ h c => Cert.Proof.KI.args_kept m h c) (Cert.Proof.KI.run_main (F := Ideal) m g (hI_ki m hpre))

/-! ## The two results agree -/

section Bridge

open Cert.KernelIdeal in
/-- The message arrays: both are the four relations' closed forms joined. -/
theorem bridgeMsgs
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.Proof.Ref.outMsgs (F := Ideal) m' c = Cert.Proof.KI.V11 m c (Proc.devRef .tc Cert.KernelIdeal.main_v21) := by
  obtain ⟨e0, e1, e2, e3, e4, e5, e6, e7, e8, e9, e10, e11, e12, e13, e14, e15, e16, e17, e18, e19, e20⟩ := hag
  have hd := hpre c
  rw [Cert.Proof.Ref.outMsgs_eq m' c
      (by rw [e1]; exact fun i => Cert.Proof.Pre.range1 _ _ _ _ _ _ _ _ _ _ _ _ _ _ _ _ _ _ _ _ _ hd i)
      (by rw [e2]; exact fun i => Cert.Proof.Pre.range2 _ _ _ _ _ _ _ _ _ _ _ _ _ _ _ _ _ _ _ _ _ hd i)
      (by rw [e3]; exact fun i => Cert.Proof.Pre.range3 _ _ _ _ _ _ _ _ _ _ _ _ _ _ _ _ _ _ _ _ _ hd i)
      (by rw [e4]; exact fun i => Cert.Proof.Pre.range4 _ _ _ _ _ _ _ _ _ _ _ _ _ _ _ _ _ _ _ _ _ hd i),
    Cert.Proof.KI.kerMsgs m c, Cert.Proof.KI.ker_a m c (hI_ki m hpre c), Cert.Proof.KI.ker_b m c (hI_ki m hpre c),
    Cert.Proof.KI.ker_c m c (hI_ki m hpre c), Cert.Proof.KI.ker_d m c (hI_ki m hpre c),
    e0, e1, e2, e3, e4, e5, e6, e7, e8, e9, e10, e11, e12, e13, e14, e15, e16, e17, e18, e19, e20]
  rfl

/-- The index arrays: both are the four index lists joined. -/
theorem bridgeIdx
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.Proof.Ref.outIdx (F := Ideal) m' c = Cert.Proof.KI.V11 m c (Proc.devRef .tc Cert.KernelIdeal.main_v22) := by
  obtain ⟨e0, e1, e2, e3, e4, e5, e6, e7, e8, e9, e10, e11, e12, e13, e14, e15, e16, e17, e18, e19, e20⟩ := hag
  rw [Cert.Proof.KI.kerIdx m c]
  unfold Cert.Proof.Ref.outIdx
  rw [e1, e2, e3, e4]

end Bridge

/-! ## The claim -/

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Proof.KI.V11 m c (Proc.devRef .tc Cert.KernelIdeal.main_v21),
    fun c => Cert.Proof.KI.V11 m c (Proc.devRef .tc Cert.KernelIdeal.main_v22), ?_, ?_⟩
  · exact (θ_run _ _ _).mono (fun _ h c => ⟨h c _ (Cert.Proof.KI.mem_Sall Cert.KernelIdeal.main_v21 rfl),
        h c _ (Cert.Proof.KI.mem_Sall Cert.KernelIdeal.main_v22 rfl), Cert.Proof.KI.args_kept m h c⟩)
      (Cert.Proof.KI.run_main (F := Ideal) m g (hI_ki m hpre))
  · exact (θ_run _ _ _).mono (fun _ h c => ⟨(h c).1.trans (bridgeMsgs m m' hpre c (hagree c)),
        (h c).2.1.trans (bridgeIdx m m' c (hagree c)), (h c).2.2⟩)
      (Cert.Proof.Ref.run (F := Ideal) m' g')

theorem claim : Cert.Claim :=
  ⟨Cert.Kernel.Gen.facts, Cert.KernelIdeal.Gen.facts, Cert.ReferenceIdeal.Gen.facts, Cert.Pre_input_domain.Gen.facts,
    frame_k, frame_ki, Cert.Proof.Ref.frame_ri, trivial, algebraic⟩

end Cert.Proof

end
